-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S1000000x64 : Shape := ⟨2, ![1000000, 64]⟩
abbrev S2 : Shape := ⟨1, ![2]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S2 : S_.BroadcastsInDim S2 (![] : Fin 0 → Fin S2.rank)
  reducesTo_S2_S_d0 : S2.ReducesTo [0] S_
  bcast_S_S4096x200 : S_.BroadcastsInDim S4096x200 (![] : Fin 0 → Fin S4096x200.rank)
  reducesTo_S4096x200_S_d0_1 : S4096x200.ReducesTo [0, 1] S_

variable [Facts]

def fn_part1 {F : FTy → Type} [FloatOps F] (main_arg0 : IVec S4096x200 32) (main_v13 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S_ 1 := andi main_v13 main_v17
  let main_c_6 : IVec S_ 32 := constantI S_ 32 0#32
  let main_v19 : IVec S4096x200 32 := broadcastInDim S4096x200 ![] bcast_S_S4096x200 main_c_6
  let main_v20 : IVec S4096x200 1 := cmpi .sge main_arg0 main_v19
  let main_c_7 : IVec S_ 32 := constantI S_ 32 999999#32
  let main_v21 : IVec S4096x200 32 := broadcastInDim S4096x200 ![] bcast_S_S4096x200 main_c_7
  let main_v22 : IVec S4096x200 1 := cmpi .sle main_arg0 main_v21
  let main_v23 : IVec S4096x200 1 := andi main_v20 main_v22
  let main_c_8 : IVec S_ 1 := constantI S_ 1 1#1
  let main_v24 : IVec S_ 1 := (fun x v => Host.reduce IntOp.andi x v reducesTo_S4096x200_S_d0_1 h_S_) main_v23 main_c_8
  let main_v25 : IVec S_ 1 := andi main_v18 main_v24
  main_v25

def fn {F : FTy → Type} [FloatOps F] (main_arg0 : IVec S4096x200 32) (main_arg1 : FVec F S1000000x64 .f32) (main_arg2 : FVec F S1000000x64 .f32) (main_arg3 : FVec F S1000000x64 .f32) (main_arg4 : FVec F S2 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x64 .f32 := Host.absf main_arg2
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S1000000x64 .f32 := Host.absf main_arg3
  let main_cst_2 : FVec F S_ .f32 := constant S_ .f32 0x7F800000#32
  let main_v10 : FVec F S1000000x64 .f32 := broadcastInDim S1000000x64 ![] bcast_S_S1000000x64 main_cst_2
  let main_v11 : IVec S1000000x64 1 := cmpf .olt main_v9 main_v10
  let main_c_3 : IVec S_ 1 := constantI S_ 1 1#1
  let main_v12 : IVec S_ 1 := (fun x v => Host.reduce IntOp.andi x v reducesTo_S1000000x64_S_d0_1 h_S_) main_v11 main_c_3
  let main_v13 : IVec S_ 1 := andi main_v8 main_v12
  let main_v14 : FVec F S2 .f32 := Host.absf main_arg4
  let main_cst_4 : FVec F S_ .f32 := constant S_ .f32 0x7F800000#32
  let main_v15 : FVec F S2 .f32 := broadcastInDim S2 ![] bcast_S_S2 main_cst_4
  let main_v16 : IVec S2 1 := cmpf .olt main_v14 main_v15
  fn_part1 (F := F) main_arg0 main_v13 main_v16
-- ==== Kernel.lean ====
abbrev S4096x200 : Shape := ⟨2, ![4096, 200]⟩
abbrev S1000000x64 : Shape := ⟨2, ![1000000, 64]⟩
abbrev S2 : Shape := ⟨1, ![2]⟩
abbrev S819200 : Shape := ⟨1, ![819200]⟩
abbrev S1000000x128 : Shape := ⟨2, ![1000000, 128]⟩
abbrev S2x1 : Shape := ⟨2, ![2, 1]⟩
abbrev S2x16 : Shape := ⟨2, ![2, 16]⟩
abbrev S409600x128 : Shape := ⟨2, ![409600, 128]⟩
abbrev S25600 : Shape := ⟨1, ![25600]⟩
abbrev S128x128 : Shape := ⟨2, ![128, 128]⟩
abbrev S_ : Shape := ⟨0, ![]⟩
abbrev S1x16 : Shape := ⟨2, ![1, 16]⟩
abbrev S16 : Shape := ⟨1, ![16]⟩
abbrev S128 : Shape := ⟨1, ![128]⟩
abbrev S64x128 : Shape := ⟨2, ![64, 128]⟩
abbrev S4096x200x64 : Shape := ⟨3, ![4096, 200, 64]⟩

abbrev nBuf : Table → Nat
  | .hbm => 11
  | .local .scVector .vmem => 6
  | _ => 0

abbrev bufTy : (tb : Table) → Fin (nBuf tb) → BufTy
  | .hbm, ⟨0, _⟩ => ⟨S4096x200, .i32⟩
  | .hbm, ⟨1, _⟩ => ⟨S1000000x64, .f32⟩
  | .hbm, ⟨2, _⟩ => ⟨S1000000x64, .f32⟩
  | .hbm, ⟨3, _⟩ => ⟨S1000000x64, .f32⟩
  | .hbm, ⟨4, _⟩ => ⟨S2, .f32⟩
  | .hbm, ⟨5, _⟩ => ⟨S819200, .i32⟩
  | .hbm, ⟨6, _⟩ => ⟨S1000000x128, .f32⟩
  | .hbm, ⟨7, _⟩ => ⟨S2x1, .f32⟩
  | .hbm, ⟨8, _⟩ => ⟨S2x16, .f32⟩
  | .hbm, ⟨9, _⟩ => ⟨S409600x128, .f32⟩
  | .hbm, ⟨10, _⟩ => ⟨S4096x200x64, .f32⟩
  | .local .scVector .vmem, ⟨0, _⟩ => ⟨S25600, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S2x16, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v0_scv : Ref sig .scVector := ⟨.hbm, 5, rfl⟩
abbrev main_v1_scv : Ref sig .scVector := ⟨.hbm, 6, rfl⟩
abbrev main_v3_scv : Ref sig .scVector := ⟨.hbm, 8, rfl⟩
abbrev main_v4_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  ![v2.toNat]
@[reducible] def k0_t1_loop : Scf.Loop 32 :=
  let c0_i32_11 : BitVec 32 := 0#32
  let c50_i32 : BitVec 32 := 50#32
  let v17 : BitVec 32 := Scalar.addi c0_i32_11 c50_i32
  let c1_i32_12 : BitVec 32 := 1#32
  ⟨c0_i32_11, v17, c1_i32_12⟩
def k0_off2 (k0_t1 : Fin k0_t1_loop.trips) (c0_i32_66 : BitVec 32) : Fin 1 → Nat :=
  let c0_i32_11 : BitVec 32 := 0#32
  let c1_i32_12 : BitVec 32 := 1#32
  let arg20 : BitVec 32 := Scf.iv c0_i32_11 c1_i32_12 k0_t1
  let c4_i32 : BitVec 32 := 4#32
  let v110 : BitVec 32 := Scalar.muli arg20 c4_i32
  let v111 : BitVec 32 := Scalar.addi v110 c0_i32_66
  let c128_i32_67 : BitVec 32 := 128#32
  let v112 : BitVec 32 := Scalar.muli v111 c128_i32_67
  ![v112.toNat]
@[reducible] def k0_t2_loop : Scf.Loop 32 :=
  let c0_i32_71 : BitVec 32 := 0#32
  let c64_i32 : BitVec 32 := 64#32
  let v115 : BitVec 32 := Scalar.addi c0_i32_71 c64_i32
  let c1_i32_72 : BitVec 32 := 1#32
  ⟨c0_i32_71, v115, c1_i32_72⟩
def k0_off3 (k0_t2 : Fin k0_t2_loop.trips) : Fin 2 → Nat :=
  let c2_i32_170 : BitVec 32 := 2#32
  let c0_i32_71 : BitVec 32 := 0#32
  let c1_i32_72 : BitVec 32 := 1#32
  let arg21 : BitVec 32 := Scf.iv c0_i32_71 c1_i32_72 k0_t2
  let v246 : BitVec 32 := Scalar.muli c2_i32_170 arg21
  let v247 : Index := Scalar.indexCast v246
  let c0_171 : Index := 0#32
  ![v247.toNat, 0]
def k0_off4 (k0_t2 : Fin k0_t2_loop.trips) : Fin 2 → Nat :=
  let c2_i32_172 : BitVec 32 := 2#32
  let c0_i32_71 : BitVec 32 := 0#32
  let c1_i32_72 : BitVec 32 := 1#32
  let arg21 : BitVec 32 := Scf.iv c0_i32_71 c1_i32_72 k0_t2
  let v251 : BitVec 32 := Scalar.muli c2_i32_172 arg21
  let v252 : Index := Scalar.indexCast v251
  let c64 : Index := 64#32
  ![v252.toNat, 64]
def k0_off5 (k0_t2 : Fin k0_t2_loop.trips) : Fin 2 → Nat :=
  let c2_i32_173 : BitVec 32 := 2#32
  let c0_i32_71 : BitVec 32 := 0#32
  let c1_i32_72 : BitVec 32 := 1#32
  let arg21 : BitVec 32 := Scf.iv c0_i32_71 c1_i32_72 k0_t2
  let v257 : BitVec 32 := Scalar.muli c2_i32_173 arg21
  let c1_i32_174 : BitVec 32 := 1#32
  let v258 : BitVec 32 := Scalar.addi v257 c1_i32_174
  let v259 : Index := Scalar.indexCast v258
  let c0_175 : Index := 0#32
  ![v259.toNat, 0]
def k0_off6 (k0_t2 : Fin k0_t2_loop.trips) : Fin 2 → Nat :=
  let c2_i32_176 : BitVec 32 := 2#32
  let c0_i32_71 : BitVec 32 := 0#32
  let c1_i32_72 : BitVec 32 := 1#32
  let arg21 : BitVec 32 := Scf.iv c0_i32_71 c1_i32_72 k0_t2
  let v263 : BitVec 32 := Scalar.muli c2_i32_176 arg21
  let c1_i32_177 : BitVec 32 := 1#32
  let v264 : BitVec 32 := Scalar.addi v263 c1_i32_177
  let v265 : Index := Scalar.indexCast v264
  let c64_178 : Index := 64#32
  ![v265.toNat, 64]
def k0_off7 (k0_t2 : Fin k0_t2_loop.trips) : Fin 2 → Nat :=
  let c0_i32_71 : BitVec 32 := 0#32
  let c1_i32_72 : BitVec 32 := 1#32
  let arg21 : BitVec 32 := Scf.iv c0_i32_71 c1_i32_72 k0_t2
  let v270 : Index := Scalar.indexCast arg21
  let c0_179 : Index := 0#32
  ![v270.toNat, 0]
def k0_off8 (k0_t2 : Fin k0_t2_loop.trips) : Fin 2 → Nat :=
  let c0_i32_71 : BitVec 32 := 0#32
  let c1_i32_72 : BitVec 32 := 1#32
  let arg21 : BitVec 32 := Scf.iv c0_i32_71 c1_i32_72 k0_t2
  let v274 : Index := Scalar.indexCast arg21
  let c64_180 : Index := 64#32
  ![v274.toNat, 64]
def k0_off9 (k0_t2 : Fin k0_t2_loop.trips) : Fin 2 → Nat :=
  let c2_i32_181 : BitVec 32 := 2#32
  let c0_i32_71 : BitVec 32 := 0#32
  let c1_i32_72 : BitVec 32 := 1#32
  let arg21 : BitVec 32 := Scf.iv c0_i32_71 c1_i32_72 k0_t2
  let v278 : BitVec 32 := Scalar.muli c2_i32_181 arg21
  let v279 : Index := Scalar.indexCast v278
  let c16 : Index := 16#32
  ![v279.toNat, 16]
def k0_off10 (k0_t2 : Fin k0_t2_loop.trips) : Fin 2 → Nat :=
  let c2_i32_182 : BitVec 32 := 2#32
  let c0_i32_71 : BitVec 32 := 0#32
  let c1_i32_72 : BitVec 32 := 1#32
  let arg21 : BitVec 32 := Scf.iv c0_i32_71 c1_i32_72 k0_t2
  let v283 : BitVec 32 := Scalar.muli c2_i32_182 arg21
  let v284 : Index := Scalar.indexCast v283
  let c80 : Index := 80#32
  ![v284.toNat, 80]
def k0_off11 (k0_t2 : Fin k0_t2_loop.trips) : Fin 2 → Nat :=
  let c2_i32_183 : BitVec 32 := 2#32
  let c0_i32_71 : BitVec 32 := 0#32
  let c1_i32_72 : BitVec 32 := 1#32
  let arg21 : BitVec 32 := Scf.iv c0_i32_71 c1_i32_72 k0_t2
  let v289 : BitVec 32 := Scalar.muli c2_i32_183 arg21
  let c1_i32_184 : BitVec 32 := 1#32
  let v290 : BitVec 32 := Scalar.addi v289 c1_i32_184
  let v291 : Index := Scalar.indexCast v290
  let c16_185 : Index := 16#32
  ![v291.toNat, 16]
def k0_off12 (k0_t2 : Fin k0_t2_loop.trips) : Fin 2 → Nat :=
  let c2_i32_186 : BitVec 32 := 2#32
  let c0_i32_71 : BitVec 32 := 0#32
  let c1_i32_72 : BitVec 32 := 1#32
  let arg21 : BitVec 32 := Scf.iv c0_i32_71 c1_i32_72 k0_t2
  let v295 : BitVec 32 := Scalar.muli c2_i32_186 arg21
  let c1_i32_187 : BitVec 32 := 1#32
  let v296 : BitVec 32 := Scalar.addi v295 c1_i32_187
  let v297 : Index := Scalar.indexCast v296
  let c80_188 : Index := 80#32
  ![v297.toNat, 80]
def k0_off13 (k0_t2 : Fin k0_t2_loop.trips) : Fin 2 → Nat :=
  let c0_i32_71 : BitVec 32 := 0#32
  let c1_i32_72 : BitVec 32 := 1#32
  let arg21 : BitVec 32 := Scf.iv c0_i32_71 c1_i32_72 k0_t2
  let v302 : Index := Scalar.indexCast arg21
  let c16_189 : Index := 16#32
  ![v302.toNat, 16]
def k0_off14 (k0_t2 : Fin k0_t2_loop.trips) : Fin 2 → Nat :=
  let c0_i32_71 : BitVec 32 := 0#32
  let c1_i32_72 : BitVec 32 := 1#32
  let arg21 : BitVec 32 := Scf.iv c0_i32_71 c1_i32_72 k0_t2
  let v306 : Index := Scalar.indexCast arg21
  let c80_190 : Index := 80#32
  ![v306.toNat, 80]
def k0_off15 (k0_t2 : Fin k0_t2_loop.trips) : Fin 2 → Nat :=
  let c2_i32_191 : BitVec 32 := 2#32
  let c0_i32_71 : BitVec 32 := 0#32
  let c1_i32_72 : BitVec 32 := 1#32
  let arg21 : BitVec 32 := Scf.iv c0_i32_71 c1_i32_72 k0_t2
  let v310 : BitVec 32 := Scalar.muli c2_i32_191 arg21
  let v311 : Index := Scalar.indexCast v310
  let c32 : Index := 32#32
  ![v311.toNat, 32]
def k0_off16 (k0_t2 : Fin k0_t2_loop.trips) : Fin 2 → Nat :=
  let c2_i32_192 : BitVec 32 := 2#32
  let c0_i32_71 : BitVec 32 := 0#32
  let c1_i32_72 : BitVec 32 := 1#32
  let arg21 : BitVec 32 := Scf.iv c0_i32_71 c1_i32_72 k0_t2
  let v315 : BitVec 32 := Scalar.muli c2_i32_192 arg21
  let v316 : Index := Scalar.indexCast v315
  let c96 : Index := 96#32
  ![v316.toNat, 96]
def k0_off17 (k0_t2 : Fin k0_t2_loop.trips) : Fin 2 → Nat :=
  let c2_i32_193 : BitVec 32 := 2#32
  let c0_i32_71 : BitVec 32 := 0#32
  let c1_i32_72 : BitVec 32 := 1#32
  let arg21 : BitVec 32 := Scf.iv c0_i32_71 c1_i32_72 k0_t2
  let v321 : BitVec 32 := Scalar.muli c2_i32_193 arg21
  let c1_i32_194 : BitVec 32 := 1#32
  let v322 : BitVec 32 := Scalar.addi v321 c1_i32_194
  let v323 : Index := Scalar.indexCast v322
  let c32_195 : Index := 32#32
  ![v323.toNat, 32]
def k0_off18 (k0_t2 : Fin k0_t2_loop.trips) : Fin 2 → Nat :=
  let c2_i32_196 : BitVec 32 := 2#32
  let c0_i32_71 : BitVec 32 := 0#32
  let c1_i32_72 : BitVec 32 := 1#32
  let arg21 : BitVec 32 := Scf.iv c0_i32_71 c1_i32_72 k0_t2
  let v327 : BitVec 32 := Scalar.muli c2_i32_196 arg21
  let c1_i32_197 : BitVec 32 := 1#32
  let v328 : BitVec 32 := Scalar.addi v327 c1_i32_197
  let v329 : Index := Scalar.indexCast v328
  let c96_198 : Index := 96#32
  ![v329.toNat, 96]
def k0_off19 (k0_t2 : Fin k0_t2_loop.trips) : Fin 2 → Nat :=
  let c0_i32_71 : BitVec 32 := 0#32
  let c1_i32_72 : BitVec 32 := 1#32
  let arg21 : BitVec 32 := Scf.iv c0_i32_71 c1_i32_72 k0_t2
  let v334 : Index := Scalar.indexCast arg21
  let c32_199 : Index := 32#32
  ![v334.toNat, 32]
def k0_off20 (k0_t2 : Fin k0_t2_loop.trips) : Fin 2 → Nat :=
  let c0_i32_71 : BitVec 32 := 0#32
  let c1_i32_72 : BitVec 32 := 1#32
  let arg21 : BitVec 32 := Scf.iv c0_i32_71 c1_i32_72 k0_t2
  let v338 : Index := Scalar.indexCast arg21
  let c96_200 : Index := 96#32
  ![v338.toNat, 96]
def k0_off21 (k0_t2 : Fin k0_t2_loop.trips) : Fin 2 → Nat :=
  let c2_i32_201 : BitVec 32 := 2#32
  let c0_i32_71 : BitVec 32 := 0#32
  let c1_i32_72 : BitVec 32 := 1#32
  let arg21 : BitVec 32 := Scf.iv c0_i32_71 c1_i32_72 k0_t2
  let v342 : BitVec 32 := Scalar.muli c2_i32_201 arg21
  let v343 : Index := Scalar.indexCast v342
  let c48 : Index := 48#32
  ![v343.toNat, 48]
def k0_off22 (k0_t2 : Fin k0_t2_loop.trips) : Fin 2 → Nat :=
  let c2_i32_202 : BitVec 32 := 2#32
  let c0_i32_71 : BitVec 32 := 0#32
  let c1_i32_72 : BitVec 32 := 1#32
  let arg21 : BitVec 32 := Scf.iv c0_i32_71 c1_i32_72 k0_t2
  let v347 : BitVec 32 := Scalar.muli c2_i32_202 arg21
  let v348 : Index := Scalar.indexCast v347
  let c112 : Index := 112#32
  ![v348.toNat, 112]
def k0_off23 (k0_t2 : Fin k0_t2_loop.trips) : Fin 2 → Nat :=
  let c2_i32_203 : BitVec 32 := 2#32
  let c0_i32_71 : BitVec 32 := 0#32
  let c1_i32_72 : BitVec 32 := 1#32
  let arg21 : BitVec 32 := Scf.iv c0_i32_71 c1_i32_72 k0_t2
  let v353 : BitVec 32 := Scalar.muli c2_i32_203 arg21
  let c1_i32_204 : BitVec 32 := 1#32
  let v354 : BitVec 32 := Scalar.addi v353 c1_i32_204
  let v355 : Index := Scalar.indexCast v354
  let c48_205 : Index := 48#32
  ![v355.toNat, 48]
def k0_off24 (k0_t2 : Fin k0_t2_loop.trips) : Fin 2 → Nat :=
  let c2_i32_206 : BitVec 32 := 2#32
  let c0_i32_71 : BitVec 32 := 0#32
  let c1_i32_72 : BitVec 32 := 1#32
  let arg21 : BitVec 32 := Scf.iv c0_i32_71 c1_i32_72 k0_t2
  let v359 : BitVec 32 := Scalar.muli c2_i32_206 arg21
  let c1_i32_207 : BitVec 32 := 1#32
  let v360 : BitVec 32 := Scalar.addi v359 c1_i32_207
  let v361 : Index := Scalar.indexCast v360
  let c112_208 : Index := 112#32
  ![v361.toNat, 112]
def k0_off25 (k0_t2 : Fin k0_t2_loop.trips) : Fin 2 → Nat :=
  let c0_i32_71 : BitVec 32 := 0#32
  let c1_i32_72 : BitVec 32 := 1#32
  let arg21 : BitVec 32 := Scf.iv c0_i32_71 c1_i32_72 k0_t2
  let v366 : Index := Scalar.indexCast arg21
  let c48_209 : Index := 48#32
  ![v366.toNat, 48]
def k0_off26 (k0_t2 : Fin k0_t2_loop.trips) : Fin 2 → Nat :=
  let c0_i32_71 : BitVec 32 := 0#32
  let c1_i32_72 : BitVec 32 := 1#32
  let arg21 : BitVec 32 := Scf.iv c0_i32_71 c1_i32_72 k0_t2
  let v370 : Index := Scalar.indexCast arg21
  let c112_210 : Index := 112#32
  ![v370.toNat, 112]
def k0_mult1 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_11 : BitVec 32 := 0#32
  let c1_i32_12 : BitVec 32 := 1#32
  let arg20 : BitVec 32 := Scf.iv c0_i32_11 c1_i32_12 k0_t1
  let c4_i32 : BitVec 32 := 4#32
  let v110 : BitVec 32 := Scalar.muli arg20 c4_i32
  let c0_i32_66 : BitVec 32 := 0#32
  let v111 : BitVec 32 := Scalar.addi v110 c0_i32_66
  let c128_i32_74 : BitVec 32 := 128#32
  let v116 : BitVec 32 := Scalar.muli v111 c128_i32_74
  let v117 : BitVec 32 := Scalar.addi v2 v116
  let c0_i32_76 : BitVec 32 := 0#32
  let v119 : BitVec 1 := Scalar.cmpi .sgt v117 c0_i32_76
  let v120 : BitVec 32 := Scalar.extui v119
  let c0_i32_77 : BitVec 32 := 0#32
  let v121 : BitVec 1 := Scalar.cmpi .slt v117 c0_i32_77
  let v122 : BitVec 32 := Scalar.extui v121
  let v123 : BitVec 32 := Scalar.subi v120 v122
  let c2_i32_75 : BitVec 32 := 2#32
  let c0_i32_78 : BitVec 32 := 0#32
  let v124 : BitVec 1 := Scalar.cmpi .sgt c2_i32_75 c0_i32_78
  let v125 : BitVec 32 := Scalar.extui v124
  let c0_i32_79 : BitVec 32 := 0#32
  let v126 : BitVec 1 := Scalar.cmpi .slt c2_i32_75 c0_i32_79
  let v127 : BitVec 32 := Scalar.extui v126
  let v128 : BitVec 32 := Scalar.subi v125 v127
  let v129 : BitVec 1 := Scalar.cmpi .ne v123 v128
  let v130 : BitVec 32 := Scalar.remsi v117 c2_i32_75
  let c0_i32_80 : BitVec 32 := 0#32
  let v131 : BitVec 1 := Scalar.cmpi .ne v130 c0_i32_80
  let v132 : BitVec 1 := Scalar.andi v129 v131
  let v118 : BitVec 32 := Scalar.divsi v117 c2_i32_75
  let c1_i32_81 : BitVec 32 := 1#32
  let v133 : BitVec 32 := Scalar.subi v118 c1_i32_81
  let v134 : BitVec 32 := Scalar.select v132 v133 v118
  v134
def k0_off27 (i : grid0.Coords) (k0_t1 : Fin k0_t1_loop.trips) (c0_i32_66 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_11 : BitVec 32 := 0#32
  let c1_i32_12 : BitVec 32 := 1#32
  let arg20 : BitVec 32 := Scf.iv c0_i32_11 c1_i32_12 k0_t1
  let c4_i32 : BitVec 32 := 4#32
  let v110 : BitVec 32 := Scalar.muli arg20 c4_i32
  let v111 : BitVec 32 := Scalar.addi v110 c0_i32_66
  let c128_i32_74 : BitVec 32 := 128#32
  let v116 : BitVec 32 := Scalar.muli v111 c128_i32_74
  let v117 : BitVec 32 := Scalar.addi v2 v116
  let c0_i32_76 : BitVec 32 := 0#32
  let v119 : BitVec 1 := Scalar.cmpi .sgt v117 c0_i32_76
  let v120 : BitVec 32 := Scalar.extui v119
  let c0_i32_77 : BitVec 32 := 0#32
  let v121 : BitVec 1 := Scalar.cmpi .slt v117 c0_i32_77
  let v122 : BitVec 32 := Scalar.extui v121
  let v123 : BitVec 32 := Scalar.subi v120 v122
  let c2_i32_75 : BitVec 32 := 2#32
  let c0_i32_78 : BitVec 32 := 0#32
  let v124 : BitVec 1 := Scalar.cmpi .sgt c2_i32_75 c0_i32_78
  let v125 : BitVec 32 := Scalar.extui v124
  let c0_i32_79 : BitVec 32 := 0#32
  let v126 : BitVec 1 := Scalar.cmpi .slt c2_i32_75 c0_i32_79
  let v127 : BitVec 32 := Scalar.extui v126
  let v128 : BitVec 32 := Scalar.subi v125 v127
  let v129 : BitVec 1 := Scalar.cmpi .ne v123 v128
  let v130 : BitVec 32 := Scalar.remsi v117 c2_i32_75
  let c0_i32_80 : BitVec 32 := 0#32
  let v131 : BitVec 1 := Scalar.cmpi .ne v130 c0_i32_80
  let v132 : BitVec 1 := Scalar.andi v129 v131
  let v118 : BitVec 32 := Scalar.divsi v117 c2_i32_75
  let c1_i32_81 : BitVec 32 := 1#32
  let v133 : BitVec 32 := Scalar.subi v118 c1_i32_81
  let v134 : BitVec 32 := Scalar.select v132 v133 v118
  let v135 : BitVec 32 := v134
  let c0_i32_84 : BitVec 32 := 0#32
  ![v135.toNat, 0]
def k0_cond1 (k0_t1 : Fin k0_t1_loop.trips) : BitVec 1 :=
  let c0_i32_11 : BitVec 32 := 0#32
  let c1_i32_12 : BitVec 32 := 1#32
  let arg20 : BitVec 32 := Scf.iv c0_i32_11 c1_i32_12 k0_t1
  let c4_i32 : BitVec 32 := 4#32
  let v110 : BitVec 32 := Scalar.muli arg20 c4_i32
  let c0_i32_66 : BitVec 32 := 0#32
  let v111 : BitVec 32 := Scalar.addi v110 c0_i32_66
  let c4_i32_88 : BitVec 32 := 4#32
  let v140 : BitVec 32 := Scalar.addi v111 c4_i32_88
  let c200_i32 : BitVec 32 := 200#32
  let v141 : BitVec 1 := Scalar.cmpi .slt v140 c200_i32
  let v142 : BitVec 32 := Scalar.extui v141
  let c0_i32_89 : BitVec 32 := 0#32
  let v143 : BitVec 1 := Scalar.cmpi .ne v142 c0_i32_89
  v143

def k0_mult2 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_11 : BitVec 32 := 0#32
  let c1_i32_12 : BitVec 32 := 1#32
  let arg20 : BitVec 32 := Scf.iv c0_i32_11 c1_i32_12 k0_t1
  let c4_i32 : BitVec 32 := 4#32
  let v110 : BitVec 32 := Scalar.muli arg20 c4_i32
  let c0_i32_66 : BitVec 32 := 0#32
  let v111 : BitVec 32 := Scalar.addi v110 c0_i32_66
  let c128_i32_170 : BitVec 32 := 128#32
  let v246 : BitVec 32 := Scalar.muli v111 c128_i32_170
  let v247 : BitVec 32 := Scalar.addi v2 v246
  let c0_i32_172 : BitVec 32 := 0#32
  let v249 : BitVec 1 := Scalar.cmpi .sgt v247 c0_i32_172
  let v250 : BitVec 32 := Scalar.extui v249
  let c0_i32_173 : BitVec 32 := 0#32
  let v251 : BitVec 1 := Scalar.cmpi .slt v247 c0_i32_173
  let v252 : BitVec 32 := Scalar.extui v251
  let v253 : BitVec 32 := Scalar.subi v250 v252
  let c2_i32_171 : BitVec 32 := 2#32
  let c0_i32_174 : BitVec 32 := 0#32
  let v254 : BitVec 1 := Scalar.cmpi .sgt c2_i32_171 c0_i32_174
  let v255 : BitVec 32 := Scalar.extui v254
  let c0_i32_175 : BitVec 32 := 0#32
  let v256 : BitVec 1 := Scalar.cmpi .slt c2_i32_171 c0_i32_175
  let v257 : BitVec 32 := Scalar.extui v256
  let v258 : BitVec 32 := Scalar.subi v255 v257
  let v259 : BitVec 1 := Scalar.cmpi .ne v253 v258
  let v260 : BitVec 32 := Scalar.remsi v247 c2_i32_171
  let c0_i32_176 : BitVec 32 := 0#32
  let v261 : BitVec 1 := Scalar.cmpi .ne v260 c0_i32_176
  let v262 : BitVec 1 := Scalar.andi v259 v261
  let v248 : BitVec 32 := Scalar.divsi v247 c2_i32_171
  let c1_i32_177 : BitVec 32 := 1#32
  let v263 : BitVec 32 := Scalar.subi v248 c1_i32_177
  let v264 : BitVec 32 := Scalar.select v262 v263 v248
  v264
def k0_off28 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_11 : BitVec 32 := 0#32
  let c1_i32_12 : BitVec 32 := 1#32
  let arg20 : BitVec 32 := Scf.iv c0_i32_11 c1_i32_12 k0_t1
  let c4_i32 : BitVec 32 := 4#32
  let v110 : BitVec 32 := Scalar.muli arg20 c4_i32
  let c0_i32_66 : BitVec 32 := 0#32
  let v111 : BitVec 32 := Scalar.addi v110 c0_i32_66
  let c128_i32_170 : BitVec 32 := 128#32
  let v246 : BitVec 32 := Scalar.muli v111 c128_i32_170
  let v247 : BitVec 32 := Scalar.addi v2 v246
  let c0_i32_172 : BitVec 32 := 0#32
  let v249 : BitVec 1 := Scalar.cmpi .sgt v247 c0_i32_172
  let v250 : BitVec 32 := Scalar.extui v249
  let c0_i32_173 : BitVec 32 := 0#32
  let v251 : BitVec 1 := Scalar.cmpi .slt v247 c0_i32_173
  let v252 : BitVec 32 := Scalar.extui v251
  let v253 : BitVec 32 := Scalar.subi v250 v252
  let c2_i32_171 : BitVec 32 := 2#32
  let c0_i32_174 : BitVec 32 := 0#32
  let v254 : BitVec 1 := Scalar.cmpi .sgt c2_i32_171 c0_i32_174
  let v255 : BitVec 32 := Scalar.extui v254
  let c0_i32_175 : BitVec 32 := 0#32
  let v256 : BitVec 1 := Scalar.cmpi .slt c2_i32_171 c0_i32_175
  let v257 : BitVec 32 := Scalar.extui v256
  let v258 : BitVec 32 := Scalar.subi v255 v257
  let v259 : BitVec 1 := Scalar.cmpi .ne v253 v258
  let v260 : BitVec 32 := Scalar.remsi v247 c2_i32_171
  let c0_i32_176 : BitVec 32 := 0#32
  let v261 : BitVec 1 := Scalar.cmpi .ne v260 c0_i32_176
  let v262 : BitVec 1 := Scalar.andi v259 v261
  let v248 : BitVec 32 := Scalar.divsi v247 c2_i32_171
  let c1_i32_177 : BitVec 32 := 1#32
  let v263 : BitVec 32 := Scalar.subi v248 c1_i32_177
  let v264 : BitVec 32 := Scalar.select v262 v263 v248
  let v265 : BitVec 32 := v264
  let c0_i32_180 : BitVec 32 := 0#32
  ![v265.toNat, 0]
def k0_off29 (k0_t1 : Fin k0_t1_loop.trips) : Fin 1 → Nat :=
  let c0_i32_11 : BitVec 32 := 0#32
  let c1_i32_12 : BitVec 32 := 1#32
  let arg20 : BitVec 32 := Scf.iv c0_i32_11 c1_i32_12 k0_t1
  let c4_i32 : BitVec 32 := 4#32
  let v110 : BitVec 32 := Scalar.muli arg20 c4_i32
  let c0_i32_66 : BitVec 32 := 0#32
  let v111 : BitVec 32 := Scalar.addi v110 c0_i32_66
  let c4_i32_184 : BitVec 32 := 4#32
  let v270 : BitVec 32 := Scalar.addi v111 c4_i32_184
  let c128_i32_185 : BitVec 32 := 128#32
  let v271 : BitVec 32 := Scalar.muli v270 c128_i32_185
  ![v271.toNat]
@[reducible] def k0_t3_loop : Scf.Loop 32 :=
  let c0_i32_96 : BitVec 32 := 0#32
  let c64_i32_97 : BitVec 32 := 64#32
  let v149 : BitVec 32 := Scalar.addi c0_i32_96 c64_i32_97
  let c1_i32_98 : BitVec 32 := 1#32
  ⟨c0_i32_96, v149, c1_i32_98⟩
def k0_off30 (k0_t3 : Fin k0_t3_loop.trips) : Fin 2 → Nat :=
  let c2_i32_170 : BitVec 32 := 2#32
  let c0_i32_96 : BitVec 32 := 0#32
  let c1_i32_98 : BitVec 32 := 1#32
  let arg21 : BitVec 32 := Scf.iv c0_i32_96 c1_i32_98 k0_t3
  let v246 : BitVec 32 := Scalar.muli c2_i32_170 arg21
  let v247 : Index := Scalar.indexCast v246
  let c0_171 : Index := 0#32
  ![v247.toNat, 0]
def k0_off31 (k0_t3 : Fin k0_t3_loop.trips) : Fin 2 → Nat :=
  let c2_i32_172 : BitVec 32 := 2#32
  let c0_i32_96 : BitVec 32 := 0#32
  let c1_i32_98 : BitVec 32 := 1#32
  let arg21 : BitVec 32 := Scf.iv c0_i32_96 c1_i32_98 k0_t3
  let v251 : BitVec 32 := Scalar.muli c2_i32_172 arg21
  let v252 : Index := Scalar.indexCast v251
  let c64 : Index := 64#32
  ![v252.toNat, 64]
def k0_off32 (k0_t3 : Fin k0_t3_loop.trips) : Fin 2 → Nat :=
  let c2_i32_173 : BitVec 32 := 2#32
  let c0_i32_96 : BitVec 32 := 0#32
  let c1_i32_98 : BitVec 32 := 1#32
  let arg21 : BitVec 32 := Scf.iv c0_i32_96 c1_i32_98 k0_t3
  let v257 : BitVec 32 := Scalar.muli c2_i32_173 arg21
  let c1_i32_174 : BitVec 32 := 1#32
  let v258 : BitVec 32 := Scalar.addi v257 c1_i32_174
  let v259 : Index := Scalar.indexCast v258
  let c0_175 : Index := 0#32
  ![v259.toNat, 0]
def k0_off33 (k0_t3 : Fin k0_t3_loop.trips) : Fin 2 → Nat :=
  let c2_i32_176 : BitVec 32 := 2#32
  let c0_i32_96 : BitVec 32 := 0#32
  let c1_i32_98 : BitVec 32 := 1#32
  let arg21 : BitVec 32 := Scf.iv c0_i32_96 c1_i32_98 k0_t3
  let v263 : BitVec 32 := Scalar.muli c2_i32_176 arg21
  let c1_i32_177 : BitVec 32 := 1#32
  let v264 : BitVec 32 := Scalar.addi v263 c1_i32_177
  let v265 : Index := Scalar.indexCast v264
  let c64_178 : Index := 64#32
  ![v265.toNat, 64]
def k0_off34 (k0_t3 : Fin k0_t3_loop.trips) : Fin 2 → Nat :=
  let c0_i32_96 : BitVec 32 := 0#32
  let c1_i32_98 : BitVec 32 := 1#32
  let arg21 : BitVec 32 := Scf.iv c0_i32_96 c1_i32_98 k0_t3
  let v270 : Index := Scalar.indexCast arg21
  let c0_179 : Index := 0#32
  ![v270.toNat, 0]
def k0_off35 (k0_t3 : Fin k0_t3_loop.trips) : Fin 2 → Nat :=
  let c0_i32_96 : BitVec 32 := 0#32
  let c1_i32_98 : BitVec 32 := 1#32
  let arg21 : BitVec 32 := Scf.iv c0_i32_96 c1_i32_98 k0_t3
  let v274 : Index := Scalar.indexCast arg21
  let c64_180 : Index := 64#32
  ![v274.toNat, 64]
def k0_off36 (k0_t3 : Fin k0_t3_loop.trips) : Fin 2 → Nat :=
  let c2_i32_181 : BitVec 32 := 2#32
  let c0_i32_96 : BitVec 32 := 0#32
  let c1_i32_98 : BitVec 32 := 1#32
  let arg21 : BitVec 32 := Scf.iv c0_i32_96 c1_i32_98 k0_t3
  let v278 : BitVec 32 := Scalar.muli c2_i32_181 arg21
  let v279 : Index := Scalar.indexCast v278
  let c16 : Index := 16#32
  ![v279.toNat, 16]
def k0_off37 (k0_t3 : Fin k0_t3_loop.trips) : Fin 2 → Nat :=
  let c2_i32_182 : BitVec 32 := 2#32
  let c0_i32_96 : BitVec 32 := 0#32
  let c1_i32_98 : BitVec 32 := 1#32
  let arg21 : BitVec 32 := Scf.iv c0_i32_96 c1_i32_98 k0_t3
  let v283 : BitVec 32 := Scalar.muli c2_i32_182 arg21
  let v284 : Index := Scalar.indexCast v283
  let c80 : Index := 80#32
  ![v284.toNat, 80]
def k0_off38 (k0_t3 : Fin k0_t3_loop.trips) : Fin 2 → Nat :=
  let c2_i32_183 : BitVec 32 := 2#32
  let c0_i32_96 : BitVec 32 := 0#32
  let c1_i32_98 : BitVec 32 := 1#32
  let arg21 : BitVec 32 := Scf.iv c0_i32_96 c1_i32_98 k0_t3
  let v289 : BitVec 32 := Scalar.muli c2_i32_183 arg21
  let c1_i32_184 : BitVec 32 := 1#32
  let v290 : BitVec 32 := Scalar.addi v289 c1_i32_184
  let v291 : Index := Scalar.indexCast v290
  let c16_185 : Index := 16#32
  ![v291.toNat, 16]
def k0_off39 (k0_t3 : Fin k0_t3_loop.trips) : Fin 2 → Nat :=
  let c2_i32_186 : BitVec 32 := 2#32
  let c0_i32_96 : BitVec 32 := 0#32
  let c1_i32_98 : BitVec 32 := 1#32
  let arg21 : BitVec 32 := Scf.iv c0_i32_96 c1_i32_98 k0_t3
  let v295 : BitVec 32 := Scalar.muli c2_i32_186 arg21
  let c1_i32_187 : BitVec 32 := 1#32
  let v296 : BitVec 32 := Scalar.addi v295 c1_i32_187
  let v297 : Index := Scalar.indexCast v296
  let c80_188 : Index := 80#32
  ![v297.toNat, 80]
def k0_off40 (k0_t3 : Fin k0_t3_loop.trips) : Fin 2 → Nat :=
  let c0_i32_96 : BitVec 32 := 0#32
  let c1_i32_98 : BitVec 32 := 1#32
  let arg21 : BitVec 32 := Scf.iv c0_i32_96 c1_i32_98 k0_t3
  let v302 : Index := Scalar.indexCast arg21
  let c16_189 : Index := 16#32
  ![v302.toNat, 16]
def k0_off41 (k0_t3 : Fin k0_t3_loop.trips) : Fin 2 → Nat :=
  let c0_i32_96 : BitVec 32 := 0#32
  let c1_i32_98 : BitVec 32 := 1#32
  let arg21 : BitVec 32 := Scf.iv c0_i32_96 c1_i32_98 k0_t3
  let v306 : Index := Scalar.indexCast arg21
  let c80_190 : Index := 80#32
  ![v306.toNat, 80]
def k0_off42 (k0_t3 : Fin k0_t3_loop.trips) : Fin 2 → Nat :=
  let c2_i32_191 : BitVec 32 := 2#32
  let c0_i32_96 : BitVec 32 := 0#32
  let c1_i32_98 : BitVec 32 := 1#32
  let arg21 : BitVec 32 := Scf.iv c0_i32_96 c1_i32_98 k0_t3
  let v310 : BitVec 32 := Scalar.muli c2_i32_191 arg21
  let v311 : Index := Scalar.indexCast v310
  let c32 : Index := 32#32
  ![v311.toNat, 32]
def k0_off43 (k0_t3 : Fin k0_t3_loop.trips) : Fin 2 → Nat :=
  let c2_i32_192 : BitVec 32 := 2#32
  let c0_i32_96 : BitVec 32 := 0#32
  let c1_i32_98 : BitVec 32 := 1#32
  let arg21 : BitVec 32 := Scf.iv c0_i32_96 c1_i32_98 k0_t3
  let v315 : BitVec 32 := Scalar.muli c2_i32_192 arg21
  let v316 : Index := Scalar.indexCast v315
  let c96 : Index := 96#32
  ![v316.toNat, 96]
def k0_off44 (k0_t3 : Fin k0_t3_loop.trips) : Fin 2 → Nat :=
  let c2_i32_193 : BitVec 32 := 2#32
  let c0_i32_96 : BitVec 32 := 0#32
  let c1_i32_98 : BitVec 32 := 1#32
  let arg21 : BitVec 32 := Scf.iv c0_i32_96 c1_i32_98 k0_t3
  let v321 : BitVec 32 := Scalar.muli c2_i32_193 arg21
  let c1_i32_194 : BitVec 32 := 1#32
  let v322 : BitVec 32 := Scalar.addi v321 c1_i32_194
  let v323 : Index := Scalar.indexCast v322
  let c32_195 : Index := 32#32
  ![v323.toNat, 32]
def k0_off45 (k0_t3 : Fin k0_t3_loop.trips) : Fin 2 → Nat :=
  let c2_i32_196 : BitVec 32 := 2#32
  let c0_i32_96 : BitVec 32 := 0#32
  let c1_i32_98 : BitVec 32 := 1#32
  let arg21 : BitVec 32 := Scf.iv c0_i32_96 c1_i32_98 k0_t3
  let v327 : BitVec 32 := Scalar.muli c2_i32_196 arg21
  let c1_i32_197 : BitVec 32 := 1#32
  let v328 : BitVec 32 := Scalar.addi v327 c1_i32_197
  let v329 : Index := Scalar.indexCast v328
  let c96_198 : Index := 96#32
  ![v329.toNat, 96]
def k0_off46 (k0_t3 : Fin k0_t3_loop.trips) : Fin 2 → Nat :=
  let c0_i32_96 : BitVec 32 := 0#32
  let c1_i32_98 : BitVec 32 := 1#32
  let arg21 : BitVec 32 := Scf.iv c0_i32_96 c1_i32_98 k0_t3
  let v334 : Index := Scalar.indexCast arg21
  let c32_199 : Index := 32#32
  ![v334.toNat, 32]
def k0_off47 (k0_t3 : Fin k0_t3_loop.trips) : Fin 2 → Nat :=
  let c0_i32_96 : BitVec 32 := 0#32
  let c1_i32_98 : BitVec 32 := 1#32
  let arg21 : BitVec 32 := Scf.iv c0_i32_96 c1_i32_98 k0_t3
  let v338 : Index := Scalar.indexCast arg21
  let c96_200 : Index := 96#32
  ![v338.toNat, 96]
def k0_off48 (k0_t3 : Fin k0_t3_loop.trips) : Fin 2 → Nat :=
  let c2_i32_201 : BitVec 32 := 2#32
  let c0_i32_96 : BitVec 32 := 0#32
  let c1_i32_98 : BitVec 32 := 1#32
  let arg21 : BitVec 32 := Scf.iv c0_i32_96 c1_i32_98 k0_t3
  let v342 : BitVec 32 := Scalar.muli c2_i32_201 arg21
  let v343 : Index := Scalar.indexCast v342
  let c48 : Index := 48#32
  ![v343.toNat, 48]
def k0_off49 (k0_t3 : Fin k0_t3_loop.trips) : Fin 2 → Nat :=
  let c2_i32_202 : BitVec 32 := 2#32
  let c0_i32_96 : BitVec 32 := 0#32
  let c1_i32_98 : BitVec 32 := 1#32
  let arg21 : BitVec 32 := Scf.iv c0_i32_96 c1_i32_98 k0_t3
  let v347 : BitVec 32 := Scalar.muli c2_i32_202 arg21
  let v348 : Index := Scalar.indexCast v347
  let c112 : Index := 112#32
  ![v348.toNat, 112]
def k0_off50 (k0_t3 : Fin k0_t3_loop.trips) : Fin 2 → Nat :=
  let c2_i32_203 : BitVec 32 := 2#32
  let c0_i32_96 : BitVec 32 := 0#32
  let c1_i32_98 : BitVec 32 := 1#32
  let arg21 : BitVec 32 := Scf.iv c0_i32_96 c1_i32_98 k0_t3
  let v353 : BitVec 32 := Scalar.muli c2_i32_203 arg21
  let c1_i32_204 : BitVec 32 := 1#32
  let v354 : BitVec 32 := Scalar.addi v353 c1_i32_204
  let v355 : Index := Scalar.indexCast v354
  let c48_205 : Index := 48#32
  ![v355.toNat, 48]
def k0_off51 (k0_t3 : Fin k0_t3_loop.trips) : Fin 2 → Nat :=
  let c2_i32_206 : BitVec 32 := 2#32
  let c0_i32_96 : BitVec 32 := 0#32
  let c1_i32_98 : BitVec 32 := 1#32
  let arg21 : BitVec 32 := Scf.iv c0_i32_96 c1_i32_98 k0_t3
  let v359 : BitVec 32 := Scalar.muli c2_i32_206 arg21
  let c1_i32_207 : BitVec 32 := 1#32
  let v360 : BitVec 32 := Scalar.addi v359 c1_i32_207
  let v361 : Index := Scalar.indexCast v360
  let c112_208 : Index := 112#32
  ![v361.toNat, 112]
def k0_off52 (k0_t3 : Fin k0_t3_loop.trips) : Fin 2 → Nat :=
  let c0_i32_96 : BitVec 32 := 0#32
  let c1_i32_98 : BitVec 32 := 1#32
  let arg21 : BitVec 32 := Scf.iv c0_i32_96 c1_i32_98 k0_t3
  let v366 : Index := Scalar.indexCast arg21
  let c48_209 : Index := 48#32
  ![v366.toNat, 48]
def k0_off53 (k0_t3 : Fin k0_t3_loop.trips) : Fin 2 → Nat :=
  let c0_i32_96 : BitVec 32 := 0#32
  let c1_i32_98 : BitVec 32 := 1#32
  let arg21 : BitVec 32 := Scf.iv c0_i32_96 c1_i32_98 k0_t3
  let v370 : Index := Scalar.indexCast arg21
  let c112_210 : Index := 112#32
  ![v370.toNat, 112]
def k0_mult3 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_11 : BitVec 32 := 0#32
  let c1_i32_12 : BitVec 32 := 1#32
  let arg20 : BitVec 32 := Scf.iv c0_i32_11 c1_i32_12 k0_t1
  let c4_i32_90 : BitVec 32 := 4#32
  let v144 : BitVec 32 := Scalar.muli arg20 c4_i32_90
  let c1_i32_91 : BitVec 32 := 1#32
  let v145 : BitVec 32 := Scalar.addi v144 c1_i32_91
  let c128_i32_100 : BitVec 32 := 128#32
  let v150 : BitVec 32 := Scalar.muli v145 c128_i32_100
  let v151 : BitVec 32 := Scalar.addi v2 v150
  let c0_i32_102 : BitVec 32 := 0#32
  let v153 : BitVec 1 := Scalar.cmpi .sgt v151 c0_i32_102
  let v154 : BitVec 32 := Scalar.extui v153
  let c0_i32_103 : BitVec 32 := 0#32
  let v155 : BitVec 1 := Scalar.cmpi .slt v151 c0_i32_103
  let v156 : BitVec 32 := Scalar.extui v155
  let v157 : BitVec 32 := Scalar.subi v154 v156
  let c2_i32_101 : BitVec 32 := 2#32
  let c0_i32_104 : BitVec 32 := 0#32
  let v158 : BitVec 1 := Scalar.cmpi .sgt c2_i32_101 c0_i32_104
  let v159 : BitVec 32 := Scalar.extui v158
  let c0_i32_105 : BitVec 32 := 0#32
  let v160 : BitVec 1 := Scalar.cmpi .slt c2_i32_101 c0_i32_105
  let v161 : BitVec 32 := Scalar.extui v160
  let v162 : BitVec 32 := Scalar.subi v159 v161
  let v163 : BitVec 1 := Scalar.cmpi .ne v157 v162
  let v164 : BitVec 32 := Scalar.remsi v151 c2_i32_101
  let c0_i32_106 : BitVec 32 := 0#32
  let v165 : BitVec 1 := Scalar.cmpi .ne v164 c0_i32_106
  let v166 : BitVec 1 := Scalar.andi v163 v165
  let v152 : BitVec 32 := Scalar.divsi v151 c2_i32_101
  let c1_i32_107 : BitVec 32 := 1#32
  let v167 : BitVec 32 := Scalar.subi v152 c1_i32_107
  let v168 : BitVec 32 := Scalar.select v166 v167 v152
  v168
def k0_cond2 (k0_t1 : Fin k0_t1_loop.trips) : BitVec 1 :=
  let c0_i32_11 : BitVec 32 := 0#32
  let c1_i32_12 : BitVec 32 := 1#32
  let arg20 : BitVec 32 := Scf.iv c0_i32_11 c1_i32_12 k0_t1
  let c4_i32_90 : BitVec 32 := 4#32
  let v144 : BitVec 32 := Scalar.muli arg20 c4_i32_90
  let c1_i32_91 : BitVec 32 := 1#32
  let v145 : BitVec 32 := Scalar.addi v144 c1_i32_91
  let c4_i32_114 : BitVec 32 := 4#32
  let v174 : BitVec 32 := Scalar.addi v145 c4_i32_114
  let c200_i32_115 : BitVec 32 := 200#32
  let v175 : BitVec 1 := Scalar.cmpi .slt v174 c200_i32_115
  let v176 : BitVec 32 := Scalar.extui v175
  let c0_i32_116 : BitVec 32 := 0#32
  let v177 : BitVec 1 := Scalar.cmpi .ne v176 c0_i32_116
  v177

def k0_mult4 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_11 : BitVec 32 := 0#32
  let c1_i32_12 : BitVec 32 := 1#32
  let arg20 : BitVec 32 := Scf.iv c0_i32_11 c1_i32_12 k0_t1
  let c4_i32_90 : BitVec 32 := 4#32
  let v144 : BitVec 32 := Scalar.muli arg20 c4_i32_90
  let c1_i32_91 : BitVec 32 := 1#32
  let v145 : BitVec 32 := Scalar.addi v144 c1_i32_91
  let c128_i32_170 : BitVec 32 := 128#32
  let v246 : BitVec 32 := Scalar.muli v145 c128_i32_170
  let v247 : BitVec 32 := Scalar.addi v2 v246
  let c0_i32_172 : BitVec 32 := 0#32
  let v249 : BitVec 1 := Scalar.cmpi .sgt v247 c0_i32_172
  let v250 : BitVec 32 := Scalar.extui v249
  let c0_i32_173 : BitVec 32 := 0#32
  let v251 : BitVec 1 := Scalar.cmpi .slt v247 c0_i32_173
  let v252 : BitVec 32 := Scalar.extui v251
  let v253 : BitVec 32 := Scalar.subi v250 v252
  let c2_i32_171 : BitVec 32 := 2#32
  let c0_i32_174 : BitVec 32 := 0#32
  let v254 : BitVec 1 := Scalar.cmpi .sgt c2_i32_171 c0_i32_174
  let v255 : BitVec 32 := Scalar.extui v254
  let c0_i32_175 : BitVec 32 := 0#32
  let v256 : BitVec 1 := Scalar.cmpi .slt c2_i32_171 c0_i32_175
  let v257 : BitVec 32 := Scalar.extui v256
  let v258 : BitVec 32 := Scalar.subi v255 v257
  let v259 : BitVec 1 := Scalar.cmpi .ne v253 v258
  let v260 : BitVec 32 := Scalar.remsi v247 c2_i32_171
  let c0_i32_176 : BitVec 32 := 0#32
  let v261 : BitVec 1 := Scalar.cmpi .ne v260 c0_i32_176
  let v262 : BitVec 1 := Scalar.andi v259 v261
  let v248 : BitVec 32 := Scalar.divsi v247 c2_i32_171
  let c1_i32_177 : BitVec 32 := 1#32
  let v263 : BitVec 32 := Scalar.subi v248 c1_i32_177
  let v264 : BitVec 32 := Scalar.select v262 v263 v248
  v264
def k0_off54 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_11 : BitVec 32 := 0#32
  let c1_i32_12 : BitVec 32 := 1#32
  let arg20 : BitVec 32 := Scf.iv c0_i32_11 c1_i32_12 k0_t1
  let c4_i32_90 : BitVec 32 := 4#32
  let v144 : BitVec 32 := Scalar.muli arg20 c4_i32_90
  let c1_i32_91 : BitVec 32 := 1#32
  let v145 : BitVec 32 := Scalar.addi v144 c1_i32_91
  let c128_i32_170 : BitVec 32 := 128#32
  let v246 : BitVec 32 := Scalar.muli v145 c128_i32_170
  let v247 : BitVec 32 := Scalar.addi v2 v246
  let c0_i32_172 : BitVec 32 := 0#32
  let v249 : BitVec 1 := Scalar.cmpi .sgt v247 c0_i32_172
  let v250 : BitVec 32 := Scalar.extui v249
  let c0_i32_173 : BitVec 32 := 0#32
  let v251 : BitVec 1 := Scalar.cmpi .slt v247 c0_i32_173
  let v252 : BitVec 32 := Scalar.extui v251
  let v253 : BitVec 32 := Scalar.subi v250 v252
  let c2_i32_171 : BitVec 32 := 2#32
  let c0_i32_174 : BitVec 32 := 0#32
  let v254 : BitVec 1 := Scalar.cmpi .sgt c2_i32_171 c0_i32_174
  let v255 : BitVec 32 := Scalar.extui v254
  let c0_i32_175 : BitVec 32 := 0#32
  let v256 : BitVec 1 := Scalar.cmpi .slt c2_i32_171 c0_i32_175
  let v257 : BitVec 32 := Scalar.extui v256
  let v258 : BitVec 32 := Scalar.subi v255 v257
  let v259 : BitVec 1 := Scalar.cmpi .ne v253 v258
  let v260 : BitVec 32 := Scalar.remsi v247 c2_i32_171
  let c0_i32_176 : BitVec 32 := 0#32
  let v261 : BitVec 1 := Scalar.cmpi .ne v260 c0_i32_176
  let v262 : BitVec 1 := Scalar.andi v259 v261
  let v248 : BitVec 32 := Scalar.divsi v247 c2_i32_171
  let c1_i32_177 : BitVec 32 := 1#32
  let v263 : BitVec 32 := Scalar.subi v248 c1_i32_177
  let v264 : BitVec 32 := Scalar.select v262 v263 v248
  let v265 : BitVec 32 := v264
  let c0_i32_180 : BitVec 32 := 0#32
  ![v265.toNat, 0]
def k0_off55 (k0_t1 : Fin k0_t1_loop.trips) : Fin 1 → Nat :=
  let c0_i32_11 : BitVec 32 := 0#32
  let c1_i32_12 : BitVec 32 := 1#32
  let arg20 : BitVec 32 := Scf.iv c0_i32_11 c1_i32_12 k0_t1
  let c4_i32_90 : BitVec 32 := 4#32
  let v144 : BitVec 32 := Scalar.muli arg20 c4_i32_90
  let c1_i32_91 : BitVec 32 := 1#32
  let v145 : BitVec 32 := Scalar.addi v144 c1_i32_91
  let c4_i32_184 : BitVec 32 := 4#32
  let v270 : BitVec 32 := Scalar.addi v145 c4_i32_184
  let c128_i32_185 : BitVec 32 := 128#32
  let v271 : BitVec 32 := Scalar.muli v270 c128_i32_185
  ![v271.toNat]
@[reducible] def k0_t4_loop : Scf.Loop 32 :=
  let c0_i32_123 : BitVec 32 := 0#32
  let c64_i32_124 : BitVec 32 := 64#32
  let v183 : BitVec 32 := Scalar.addi c0_i32_123 c64_i32_124
  let c1_i32_125 : BitVec 32 := 1#32
  ⟨c0_i32_123, v183, c1_i32_125⟩
def k0_off56 (k0_t4 : Fin k0_t4_loop.trips) : Fin 2 → Nat :=
  let c2_i32_170 : BitVec 32 := 2#32
  let c0_i32_123 : BitVec 32 := 0#32
  let c1_i32_125 : BitVec 32 := 1#32
  let arg21 : BitVec 32 := Scf.iv c0_i32_123 c1_i32_125 k0_t4
  let v246 : BitVec 32 := Scalar.muli c2_i32_170 arg21
  let v247 : Index := Scalar.indexCast v246
  let c0_171 : Index := 0#32
  ![v247.toNat, 0]
def k0_off57 (k0_t4 : Fin k0_t4_loop.trips) : Fin 2 → Nat :=
  let c2_i32_172 : BitVec 32 := 2#32
  let c0_i32_123 : BitVec 32 := 0#32
  let c1_i32_125 : BitVec 32 := 1#32
  let arg21 : BitVec 32 := Scf.iv c0_i32_123 c1_i32_125 k0_t4
  let v251 : BitVec 32 := Scalar.muli c2_i32_172 arg21
  let v252 : Index := Scalar.indexCast v251
  let c64 : Index := 64#32
  ![v252.toNat, 64]
def k0_off58 (k0_t4 : Fin k0_t4_loop.trips) : Fin 2 → Nat :=
  let c2_i32_173 : BitVec 32 := 2#32
  let c0_i32_123 : BitVec 32 := 0#32
  let c1_i32_125 : BitVec 32 := 1#32
  let arg21 : BitVec 32 := Scf.iv c0_i32_123 c1_i32_125 k0_t4
  let v257 : BitVec 32 := Scalar.muli c2_i32_173 arg21
  let c1_i32_174 : BitVec 32 := 1#32
  let v258 : BitVec 32 := Scalar.addi v257 c1_i32_174
  let v259 : Index := Scalar.indexCast v258
  let c0_175 : Index := 0#32
  ![v259.toNat, 0]
def k0_off59 (k0_t4 : Fin k0_t4_loop.trips) : Fin 2 → Nat :=
  let c2_i32_176 : BitVec 32 := 2#32
  let c0_i32_123 : BitVec 32 := 0#32
  let c1_i32_125 : BitVec 32 := 1#32
  let arg21 : BitVec 32 := Scf.iv c0_i32_123 c1_i32_125 k0_t4
  let v263 : BitVec 32 := Scalar.muli c2_i32_176 arg21
  let c1_i32_177 : BitVec 32 := 1#32
  let v264 : BitVec 32 := Scalar.addi v263 c1_i32_177
  let v265 : Index := Scalar.indexCast v264
  let c64_178 : Index := 64#32
  ![v265.toNat, 64]
def k0_off60 (k0_t4 : Fin k0_t4_loop.trips) : Fin 2 → Nat :=
  let c0_i32_123 : BitVec 32 := 0#32
  let c1_i32_125 : BitVec 32 := 1#32
  let arg21 : BitVec 32 := Scf.iv c0_i32_123 c1_i32_125 k0_t4
  let v270 : Index := Scalar.indexCast arg21
  let c0_179 : Index := 0#32
  ![v270.toNat, 0]
def k0_off61 (k0_t4 : Fin k0_t4_loop.trips) : Fin 2 → Nat :=
  let c0_i32_123 : BitVec 32 := 0#32
  let c1_i32_125 : BitVec 32 := 1#32
  let arg21 : BitVec 32 := Scf.iv c0_i32_123 c1_i32_125 k0_t4
  let v274 : Index := Scalar.indexCast arg21
  let c64_180 : Index := 64#32
  ![v274.toNat, 64]
def k0_off62 (k0_t4 : Fin k0_t4_loop.trips) : Fin 2 → Nat :=
  let c2_i32_181 : BitVec 32 := 2#32
  let c0_i32_123 : BitVec 32 := 0#32
  let c1_i32_125 : BitVec 32 := 1#32
  let arg21 : BitVec 32 := Scf.iv c0_i32_123 c1_i32_125 k0_t4
  let v278 : BitVec 32 := Scalar.muli c2_i32_181 arg21
  let v279 : Index := Scalar.indexCast v278
  let c16 : Index := 16#32
  ![v279.toNat, 16]
def k0_off63 (k0_t4 : Fin k0_t4_loop.trips) : Fin 2 → Nat :=
  let c2_i32_182 : BitVec 32 := 2#32
  let c0_i32_123 : BitVec 32 := 0#32
  let c1_i32_125 : BitVec 32 := 1#32
  let arg21 : BitVec 32 := Scf.iv c0_i32_123 c1_i32_125 k0_t4
  let v283 : BitVec 32 := Scalar.muli c2_i32_182 arg21
  let v284 : Index := Scalar.indexCast v283
  let c80 : Index := 80#32
  ![v284.toNat, 80]
def k0_off64 (k0_t4 : Fin k0_t4_loop.trips) : Fin 2 → Nat :=
  let c2_i32_183 : BitVec 32 := 2#32
  let c0_i32_123 : BitVec 32 := 0#32
  let c1_i32_125 : BitVec 32 := 1#32
  let arg21 : BitVec 32 := Scf.iv c0_i32_123 c1_i32_125 k0_t4
  let v289 : BitVec 32 := Scalar.muli c2_i32_183 arg21
  let c1_i32_184 : BitVec 32 := 1#32
  let v290 : BitVec 32 := Scalar.addi v289 c1_i32_184
  let v291 : Index := Scalar.indexCast v290
  let c16_185 : Index := 16#32
  ![v291.toNat, 16]
def k0_off65 (k0_t4 : Fin k0_t4_loop.trips) : Fin 2 → Nat :=
  let c2_i32_186 : BitVec 32 := 2#32
  let c0_i32_123 : BitVec 32 := 0#32
  let c1_i32_125 : BitVec 32 := 1#32
  let arg21 : BitVec 32 := Scf.iv c0_i32_123 c1_i32_125 k0_t4
  let v295 : BitVec 32 := Scalar.muli c2_i32_186 arg21
  let c1_i32_187 : BitVec 32 := 1#32
  let v296 : BitVec 32 := Scalar.addi v295 c1_i32_187
  let v297 : Index := Scalar.indexCast v296
  let c80_188 : Index := 80#32
  ![v297.toNat, 80]
def k0_off66 (k0_t4 : Fin k0_t4_loop.trips) : Fin 2 → Nat :=
  let c0_i32_123 : BitVec 32 := 0#32
  let c1_i32_125 : BitVec 32 := 1#32
  let arg21 : BitVec 32 := Scf.iv c0_i32_123 c1_i32_125 k0_t4
  let v302 : Index := Scalar.indexCast arg21
  let c16_189 : Index := 16#32
  ![v302.toNat, 16]
def k0_off67 (k0_t4 : Fin k0_t4_loop.trips) : Fin 2 → Nat :=
  let c0_i32_123 : BitVec 32 := 0#32
  let c1_i32_125 : BitVec 32 := 1#32
  let arg21 : BitVec 32 := Scf.iv c0_i32_123 c1_i32_125 k0_t4
  let v306 : Index := Scalar.indexCast arg21
  let c80_190 : Index := 80#32
  ![v306.toNat, 80]
def k0_off68 (k0_t4 : Fin k0_t4_loop.trips) : Fin 2 → Nat :=
  let c2_i32_191 : BitVec 32 := 2#32
  let c0_i32_123 : BitVec 32 := 0#32
  let c1_i32_125 : BitVec 32 := 1#32
  let arg21 : BitVec 32 := Scf.iv c0_i32_123 c1_i32_125 k0_t4
  let v310 : BitVec 32 := Scalar.muli c2_i32_191 arg21
  let v311 : Index := Scalar.indexCast v310
  let c32 : Index := 32#32
  ![v311.toNat, 32]
def k0_off69 (k0_t4 : Fin k0_t4_loop.trips) : Fin 2 → Nat :=
  let c2_i32_192 : BitVec 32 := 2#32
  let c0_i32_123 : BitVec 32 := 0#32
  let c1_i32_125 : BitVec 32 := 1#32
  let arg21 : BitVec 32 := Scf.iv c0_i32_123 c1_i32_125 k0_t4
  let v315 : BitVec 32 := Scalar.muli c2_i32_192 arg21
  let v316 : Index := Scalar.indexCast v315
  let c96 : Index := 96#32
  ![v316.toNat, 96]
def k0_off70 (k0_t4 : Fin k0_t4_loop.trips) : Fin 2 → Nat :=
  let c2_i32_193 : BitVec 32 := 2#32
  let c0_i32_123 : BitVec 32 := 0#32
  let c1_i32_125 : BitVec 32 := 1#32
  let arg21 : BitVec 32 := Scf.iv c0_i32_123 c1_i32_125 k0_t4
  let v321 : BitVec 32 := Scalar.muli c2_i32_193 arg21
  let c1_i32_194 : BitVec 32 := 1#32
  let v322 : BitVec 32 := Scalar.addi v321 c1_i32_194
  let v323 : Index := Scalar.indexCast v322
  let c32_195 : Index := 32#32
  ![v323.toNat, 32]
def k0_off71 (k0_t4 : Fin k0_t4_loop.trips) : Fin 2 → Nat :=
  let c2_i32_196 : BitVec 32 := 2#32
  let c0_i32_123 : BitVec 32 := 0#32
  let c1_i32_125 : BitVec 32 := 1#32
  let arg21 : BitVec 32 := Scf.iv c0_i32_123 c1_i32_125 k0_t4
  let v327 : BitVec 32 := Scalar.muli c2_i32_196 arg21
  let c1_i32_197 : BitVec 32 := 1#32
  let v328 : BitVec 32 := Scalar.addi v327 c1_i32_197
  let v329 : Index := Scalar.indexCast v328
  let c96_198 : Index := 96#32
  ![v329.toNat, 96]
def k0_off72 (k0_t4 : Fin k0_t4_loop.trips) : Fin 2 → Nat :=
  let c0_i32_123 : BitVec 32 := 0#32
  let c1_i32_125 : BitVec 32 := 1#32
  let arg21 : BitVec 32 := Scf.iv c0_i32_123 c1_i32_125 k0_t4
  let v334 : Index := Scalar.indexCast arg21
  let c32_199 : Index := 32#32
  ![v334.toNat, 32]
def k0_off73 (k0_t4 : Fin k0_t4_loop.trips) : Fin 2 → Nat :=
  let c0_i32_123 : BitVec 32 := 0#32
  let c1_i32_125 : BitVec 32 := 1#32
  let arg21 : BitVec 32 := Scf.iv c0_i32_123 c1_i32_125 k0_t4
  let v338 : Index := Scalar.indexCast arg21
  let c96_200 : Index := 96#32
  ![v338.toNat, 96]
def k0_off74 (k0_t4 : Fin k0_t4_loop.trips) : Fin 2 → Nat :=
  let c2_i32_201 : BitVec 32 := 2#32
  let c0_i32_123 : BitVec 32 := 0#32
  let c1_i32_125 : BitVec 32 := 1#32
  let arg21 : BitVec 32 := Scf.iv c0_i32_123 c1_i32_125 k0_t4
  let v342 : BitVec 32 := Scalar.muli c2_i32_201 arg21
  let v343 : Index := Scalar.indexCast v342
  let c48 : Index := 48#32
  ![v343.toNat, 48]
def k0_off75 (k0_t4 : Fin k0_t4_loop.trips) : Fin 2 → Nat :=
  let c2_i32_202 : BitVec 32 := 2#32
  let c0_i32_123 : BitVec 32 := 0#32
  let c1_i32_125 : BitVec 32 := 1#32
  let arg21 : BitVec 32 := Scf.iv c0_i32_123 c1_i32_125 k0_t4
  let v347 : BitVec 32 := Scalar.muli c2_i32_202 arg21
  let v348 : Index := Scalar.indexCast v347
  let c112 : Index := 112#32
  ![v348.toNat, 112]
def k0_off76 (k0_t4 : Fin k0_t4_loop.trips) : Fin 2 → Nat :=
  let c2_i32_203 : BitVec 32 := 2#32
  let c0_i32_123 : BitVec 32 := 0#32
  let c1_i32_125 : BitVec 32 := 1#32
  let arg21 : BitVec 32 := Scf.iv c0_i32_123 c1_i32_125 k0_t4
  let v353 : BitVec 32 := Scalar.muli c2_i32_203 arg21
  let c1_i32_204 : BitVec 32 := 1#32
  let v354 : BitVec 32 := Scalar.addi v353 c1_i32_204
  let v355 : Index := Scalar.indexCast v354
  let c48_205 : Index := 48#32
  ![v355.toNat, 48]
def k0_off77 (k0_t4 : Fin k0_t4_loop.trips) : Fin 2 → Nat :=
  let c2_i32_206 : BitVec 32 := 2#32
  let c0_i32_123 : BitVec 32 := 0#32
  let c1_i32_125 : BitVec 32 := 1#32
  let arg21 : BitVec 32 := Scf.iv c0_i32_123 c1_i32_125 k0_t4
  let v359 : BitVec 32 := Scalar.muli c2_i32_206 arg21
  let c1_i32_207 : BitVec 32 := 1#32
  let v360 : BitVec 32 := Scalar.addi v359 c1_i32_207
  let v361 : Index := Scalar.indexCast v360
  let c112_208 : Index := 112#32
  ![v361.toNat, 112]
def k0_off78 (k0_t4 : Fin k0_t4_loop.trips) : Fin 2 → Nat :=
  let c0_i32_123 : BitVec 32 := 0#32
  let c1_i32_125 : BitVec 32 := 1#32
  let arg21 : BitVec 32 := Scf.iv c0_i32_123 c1_i32_125 k0_t4
  let v366 : Index := Scalar.indexCast arg21
  let c48_209 : Index := 48#32
  ![v366.toNat, 48]
def k0_off79 (k0_t4 : Fin k0_t4_loop.trips) : Fin 2 → Nat :=
  let c0_i32_123 : BitVec 32 := 0#32
  let c1_i32_125 : BitVec 32 := 1#32
  let arg21 : BitVec 32 := Scf.iv c0_i32_123 c1_i32_125 k0_t4
  let v370 : Index := Scalar.indexCast arg21
  let c112_210 : Index := 112#32
  ![v370.toNat, 112]
def k0_mult5 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_11 : BitVec 32 := 0#32
  let c1_i32_12 : BitVec 32 := 1#32
  let arg20 : BitVec 32 := Scf.iv c0_i32_11 c1_i32_12 k0_t1
  let c4_i32_117 : BitVec 32 := 4#32
  let v178 : BitVec 32 := Scalar.muli arg20 c4_i32_117
  let c2_i32_118 : BitVec 32 := 2#32
  let v179 : BitVec 32 := Scalar.addi v178 c2_i32_118
  let c128_i32_127 : BitVec 32 := 128#32
  let v184 : BitVec 32 := Scalar.muli v179 c128_i32_127
  let v185 : BitVec 32 := Scalar.addi v2 v184
  let c0_i32_129 : BitVec 32 := 0#32
  let v187 : BitVec 1 := Scalar.cmpi .sgt v185 c0_i32_129
  let v188 : BitVec 32 := Scalar.extui v187
  let c0_i32_130 : BitVec 32 := 0#32
  let v189 : BitVec 1 := Scalar.cmpi .slt v185 c0_i32_130
  let v190 : BitVec 32 := Scalar.extui v189
  let v191 : BitVec 32 := Scalar.subi v188 v190
  let c2_i32_128 : BitVec 32 := 2#32
  let c0_i32_131 : BitVec 32 := 0#32
  let v192 : BitVec 1 := Scalar.cmpi .sgt c2_i32_128 c0_i32_131
  let v193 : BitVec 32 := Scalar.extui v192
  let c0_i32_132 : BitVec 32 := 0#32
  let v194 : BitVec 1 := Scalar.cmpi .slt c2_i32_128 c0_i32_132
  let v195 : BitVec 32 := Scalar.extui v194
  let v196 : BitVec 32 := Scalar.subi v193 v195
  let v197 : BitVec 1 := Scalar.cmpi .ne v191 v196
  let v198 : BitVec 32 := Scalar.remsi v185 c2_i32_128
  let c0_i32_133 : BitVec 32 := 0#32
  let v199 : BitVec 1 := Scalar.cmpi .ne v198 c0_i32_133
  let v200 : BitVec 1 := Scalar.andi v197 v199
  let v186 : BitVec 32 := Scalar.divsi v185 c2_i32_128
  let c1_i32_134 : BitVec 32 := 1#32
  let v201 : BitVec 32 := Scalar.subi v186 c1_i32_134
  let v202 : BitVec 32 := Scalar.select v200 v201 v186
  v202
def k0_cond3 (k0_t1 : Fin k0_t1_loop.trips) : BitVec 1 :=
  let c0_i32_11 : BitVec 32 := 0#32
  let c1_i32_12 : BitVec 32 := 1#32
  let arg20 : BitVec 32 := Scf.iv c0_i32_11 c1_i32_12 k0_t1
  let c4_i32_117 : BitVec 32 := 4#32
  let v178 : BitVec 32 := Scalar.muli arg20 c4_i32_117
  let c2_i32_118 : BitVec 32 := 2#32
  let v179 : BitVec 32 := Scalar.addi v178 c2_i32_118
  let c4_i32_141 : BitVec 32 := 4#32
  let v208 : BitVec 32 := Scalar.addi v179 c4_i32_141
  let c200_i32_142 : BitVec 32 := 200#32
  let v209 : BitVec 1 := Scalar.cmpi .slt v208 c200_i32_142
  let v210 : BitVec 32 := Scalar.extui v209
  let c0_i32_143 : BitVec 32 := 0#32
  let v211 : BitVec 1 := Scalar.cmpi .ne v210 c0_i32_143
  v211

def k0_mult6 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_11 : BitVec 32 := 0#32
  let c1_i32_12 : BitVec 32 := 1#32
  let arg20 : BitVec 32 := Scf.iv c0_i32_11 c1_i32_12 k0_t1
  let c4_i32_117 : BitVec 32 := 4#32
  let v178 : BitVec 32 := Scalar.muli arg20 c4_i32_117
  let c2_i32_118 : BitVec 32 := 2#32
  let v179 : BitVec 32 := Scalar.addi v178 c2_i32_118
  let c128_i32_170 : BitVec 32 := 128#32
  let v246 : BitVec 32 := Scalar.muli v179 c128_i32_170
  let v247 : BitVec 32 := Scalar.addi v2 v246
  let c0_i32_172 : BitVec 32 := 0#32
  let v249 : BitVec 1 := Scalar.cmpi .sgt v247 c0_i32_172
  let v250 : BitVec 32 := Scalar.extui v249
  let c0_i32_173 : BitVec 32 := 0#32
  let v251 : BitVec 1 := Scalar.cmpi .slt v247 c0_i32_173
  let v252 : BitVec 32 := Scalar.extui v251
  let v253 : BitVec 32 := Scalar.subi v250 v252
  let c2_i32_171 : BitVec 32 := 2#32
  let c0_i32_174 : BitVec 32 := 0#32
  let v254 : BitVec 1 := Scalar.cmpi .sgt c2_i32_171 c0_i32_174
  let v255 : BitVec 32 := Scalar.extui v254
  let c0_i32_175 : BitVec 32 := 0#32
  let v256 : BitVec 1 := Scalar.cmpi .slt c2_i32_171 c0_i32_175
  let v257 : BitVec 32 := Scalar.extui v256
  let v258 : BitVec 32 := Scalar.subi v255 v257
  let v259 : BitVec 1 := Scalar.cmpi .ne v253 v258
  let v260 : BitVec 32 := Scalar.remsi v247 c2_i32_171
  let c0_i32_176 : BitVec 32 := 0#32
  let v261 : BitVec 1 := Scalar.cmpi .ne v260 c0_i32_176
  let v262 : BitVec 1 := Scalar.andi v259 v261
  let v248 : BitVec 32 := Scalar.divsi v247 c2_i32_171
  let c1_i32_177 : BitVec 32 := 1#32
  let v263 : BitVec 32 := Scalar.subi v248 c1_i32_177
  let v264 : BitVec 32 := Scalar.select v262 v263 v248
  v264
def k0_off80 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_11 : BitVec 32 := 0#32
  let c1_i32_12 : BitVec 32 := 1#32
  let arg20 : BitVec 32 := Scf.iv c0_i32_11 c1_i32_12 k0_t1
  let c4_i32_117 : BitVec 32 := 4#32
  let v178 : BitVec 32 := Scalar.muli arg20 c4_i32_117
  let c2_i32_118 : BitVec 32 := 2#32
  let v179 : BitVec 32 := Scalar.addi v178 c2_i32_118
  let c128_i32_170 : BitVec 32 := 128#32
  let v246 : BitVec 32 := Scalar.muli v179 c128_i32_170
  let v247 : BitVec 32 := Scalar.addi v2 v246
  let c0_i32_172 : BitVec 32 := 0#32
  let v249 : BitVec 1 := Scalar.cmpi .sgt v247 c0_i32_172
  let v250 : BitVec 32 := Scalar.extui v249
  let c0_i32_173 : BitVec 32 := 0#32
  let v251 : BitVec 1 := Scalar.cmpi .slt v247 c0_i32_173
  let v252 : BitVec 32 := Scalar.extui v251
  let v253 : BitVec 32 := Scalar.subi v250 v252
  let c2_i32_171 : BitVec 32 := 2#32
  let c0_i32_174 : BitVec 32 := 0#32
  let v254 : BitVec 1 := Scalar.cmpi .sgt c2_i32_171 c0_i32_174
  let v255 : BitVec 32 := Scalar.extui v254
  let c0_i32_175 : BitVec 32 := 0#32
  let v256 : BitVec 1 := Scalar.cmpi .slt c2_i32_171 c0_i32_175
  let v257 : BitVec 32 := Scalar.extui v256
  let v258 : BitVec 32 := Scalar.subi v255 v257
  let v259 : BitVec 1 := Scalar.cmpi .ne v253 v258
  let v260 : BitVec 32 := Scalar.remsi v247 c2_i32_171
  let c0_i32_176 : BitVec 32 := 0#32
  let v261 : BitVec 1 := Scalar.cmpi .ne v260 c0_i32_176
  let v262 : BitVec 1 := Scalar.andi v259 v261
  let v248 : BitVec 32 := Scalar.divsi v247 c2_i32_171
  let c1_i32_177 : BitVec 32 := 1#32
  let v263 : BitVec 32 := Scalar.subi v248 c1_i32_177
  let v264 : BitVec 32 := Scalar.select v262 v263 v248
  let v265 : BitVec 32 := v264
  let c0_i32_180 : BitVec 32 := 0#32
  ![v265.toNat, 0]
def k0_off81 (k0_t1 : Fin k0_t1_loop.trips) : Fin 1 → Nat :=
  let c0_i32_11 : BitVec 32 := 0#32
  let c1_i32_12 : BitVec 32 := 1#32
  let arg20 : BitVec 32 := Scf.iv c0_i32_11 c1_i32_12 k0_t1
  let c4_i32_117 : BitVec 32 := 4#32
  let v178 : BitVec 32 := Scalar.muli arg20 c4_i32_117
  let c2_i32_118 : BitVec 32 := 2#32
  let v179 : BitVec 32 := Scalar.addi v178 c2_i32_118
  let c4_i32_184 : BitVec 32 := 4#32
  let v270 : BitVec 32 := Scalar.addi v179 c4_i32_184
  let c128_i32_185 : BitVec 32 := 128#32
  let v271 : BitVec 32 := Scalar.muli v270 c128_i32_185
  ![v271.toNat]
@[reducible] def k0_t5_loop : Scf.Loop 32 :=
  let c0_i32_149 : BitVec 32 := 0#32
  let c64_i32_150 : BitVec 32 := 64#32
  let v217 : BitVec 32 := Scalar.addi c0_i32_149 c64_i32_150
  let c1_i32_151 : BitVec 32 := 1#32
  ⟨c0_i32_149, v217, c1_i32_151⟩
def k0_off82 (k0_t5 : Fin k0_t5_loop.trips) : Fin 2 → Nat :=
  let c2_i32_170 : BitVec 32 := 2#32
  let c0_i32_149 : BitVec 32 := 0#32
  let c1_i32_151 : BitVec 32 := 1#32
  let arg21 : BitVec 32 := Scf.iv c0_i32_149 c1_i32_151 k0_t5
  let v246 : BitVec 32 := Scalar.muli c2_i32_170 arg21
  let v247 : Index := Scalar.indexCast v246
  let c0_171 : Index := 0#32
  ![v247.toNat, 0]
def k0_off83 (k0_t5 : Fin k0_t5_loop.trips) : Fin 2 → Nat :=
  let c2_i32_172 : BitVec 32 := 2#32
  let c0_i32_149 : BitVec 32 := 0#32
  let c1_i32_151 : BitVec 32 := 1#32
  let arg21 : BitVec 32 := Scf.iv c0_i32_149 c1_i32_151 k0_t5
  let v251 : BitVec 32 := Scalar.muli c2_i32_172 arg21
  let v252 : Index := Scalar.indexCast v251
  let c64 : Index := 64#32
  ![v252.toNat, 64]
def k0_off84 (k0_t5 : Fin k0_t5_loop.trips) : Fin 2 → Nat :=
  let c2_i32_173 : BitVec 32 := 2#32
  let c0_i32_149 : BitVec 32 := 0#32
  let c1_i32_151 : BitVec 32 := 1#32
  let arg21 : BitVec 32 := Scf.iv c0_i32_149 c1_i32_151 k0_t5
  let v257 : BitVec 32 := Scalar.muli c2_i32_173 arg21
  let c1_i32_174 : BitVec 32 := 1#32
  let v258 : BitVec 32 := Scalar.addi v257 c1_i32_174
  let v259 : Index := Scalar.indexCast v258
  let c0_175 : Index := 0#32
  ![v259.toNat, 0]
def k0_off85 (k0_t5 : Fin k0_t5_loop.trips) : Fin 2 → Nat :=
  let c2_i32_176 : BitVec 32 := 2#32
  let c0_i32_149 : BitVec 32 := 0#32
  let c1_i32_151 : BitVec 32 := 1#32
  let arg21 : BitVec 32 := Scf.iv c0_i32_149 c1_i32_151 k0_t5
  let v263 : BitVec 32 := Scalar.muli c2_i32_176 arg21
  let c1_i32_177 : BitVec 32 := 1#32
  let v264 : BitVec 32 := Scalar.addi v263 c1_i32_177
  let v265 : Index := Scalar.indexCast v264
  let c64_178 : Index := 64#32
  ![v265.toNat, 64]
def k0_off86 (k0_t5 : Fin k0_t5_loop.trips) : Fin 2 → Nat :=
  let c0_i32_149 : BitVec 32 := 0#32
  let c1_i32_151 : BitVec 32 := 1#32
  let arg21 : BitVec 32 := Scf.iv c0_i32_149 c1_i32_151 k0_t5
  let v270 : Index := Scalar.indexCast arg21
  let c0_179 : Index := 0#32
  ![v270.toNat, 0]
def k0_off87 (k0_t5 : Fin k0_t5_loop.trips) : Fin 2 → Nat :=
  let c0_i32_149 : BitVec 32 := 0#32
  let c1_i32_151 : BitVec 32 := 1#32
  let arg21 : BitVec 32 := Scf.iv c0_i32_149 c1_i32_151 k0_t5
  let v274 : Index := Scalar.indexCast arg21
  let c64_180 : Index := 64#32
  ![v274.toNat, 64]
def k0_off88 (k0_t5 : Fin k0_t5_loop.trips) : Fin 2 → Nat :=
  let c2_i32_181 : BitVec 32 := 2#32
  let c0_i32_149 : BitVec 32 := 0#32
  let c1_i32_151 : BitVec 32 := 1#32
  let arg21 : BitVec 32 := Scf.iv c0_i32_149 c1_i32_151 k0_t5
  let v278 : BitVec 32 := Scalar.muli c2_i32_181 arg21
  let v279 : Index := Scalar.indexCast v278
  let c16 : Index := 16#32
  ![v279.toNat, 16]
def k0_off89 (k0_t5 : Fin k0_t5_loop.trips) : Fin 2 → Nat :=
  let c2_i32_182 : BitVec 32 := 2#32
  let c0_i32_149 : BitVec 32 := 0#32
  let c1_i32_151 : BitVec 32 := 1#32
  let arg21 : BitVec 32 := Scf.iv c0_i32_149 c1_i32_151 k0_t5
  let v283 : BitVec 32 := Scalar.muli c2_i32_182 arg21
  let v284 : Index := Scalar.indexCast v283
  let c80 : Index := 80#32
  ![v284.toNat, 80]
def k0_off90 (k0_t5 : Fin k0_t5_loop.trips) : Fin 2 → Nat :=
  let c2_i32_183 : BitVec 32 := 2#32
  let c0_i32_149 : BitVec 32 := 0#32
  let c1_i32_151 : BitVec 32 := 1#32
  let arg21 : BitVec 32 := Scf.iv c0_i32_149 c1_i32_151 k0_t5
  let v289 : BitVec 32 := Scalar.muli c2_i32_183 arg21
  let c1_i32_184 : BitVec 32 := 1#32
  let v290 : BitVec 32 := Scalar.addi v289 c1_i32_184
  let v291 : Index := Scalar.indexCast v290
  let c16_185 : Index := 16#32
  ![v291.toNat, 16]
def k0_off91 (k0_t5 : Fin k0_t5_loop.trips) : Fin 2 → Nat :=
  let c2_i32_186 : BitVec 32 := 2#32
  let c0_i32_149 : BitVec 32 := 0#32
  let c1_i32_151 : BitVec 32 := 1#32
  let arg21 : BitVec 32 := Scf.iv c0_i32_149 c1_i32_151 k0_t5
  let v295 : BitVec 32 := Scalar.muli c2_i32_186 arg21
  let c1_i32_187 : BitVec 32 := 1#32
  let v296 : BitVec 32 := Scalar.addi v295 c1_i32_187
  let v297 : Index := Scalar.indexCast v296
  let c80_188 : Index := 80#32
  ![v297.toNat, 80]
def k0_off92 (k0_t5 : Fin k0_t5_loop.trips) : Fin 2 → Nat :=
  let c0_i32_149 : BitVec 32 := 0#32
  let c1_i32_151 : BitVec 32 := 1#32
  let arg21 : BitVec 32 := Scf.iv c0_i32_149 c1_i32_151 k0_t5
  let v302 : Index := Scalar.indexCast arg21
  let c16_189 : Index := 16#32
  ![v302.toNat, 16]
def k0_off93 (k0_t5 : Fin k0_t5_loop.trips) : Fin 2 → Nat :=
  let c0_i32_149 : BitVec 32 := 0#32
  let c1_i32_151 : BitVec 32 := 1#32
  let arg21 : BitVec 32 := Scf.iv c0_i32_149 c1_i32_151 k0_t5
  let v306 : Index := Scalar.indexCast arg21
  let c80_190 : Index := 80#32
  ![v306.toNat, 80]
def k0_off94 (k0_t5 : Fin k0_t5_loop.trips) : Fin 2 → Nat :=
  let c2_i32_191 : BitVec 32 := 2#32
  let c0_i32_149 : BitVec 32 := 0#32
  let c1_i32_151 : BitVec 32 := 1#32
  let arg21 : BitVec 32 := Scf.iv c0_i32_149 c1_i32_151 k0_t5
  let v310 : BitVec 32 := Scalar.muli c2_i32_191 arg21
  let v311 : Index := Scalar.indexCast v310
  let c32 : Index := 32#32
  ![v311.toNat, 32]
def k0_off95 (k0_t5 : Fin k0_t5_loop.trips) : Fin 2 → Nat :=
  let c2_i32_192 : BitVec 32 := 2#32
  let c0_i32_149 : BitVec 32 := 0#32
  let c1_i32_151 : BitVec 32 := 1#32
  let arg21 : BitVec 32 := Scf.iv c0_i32_149 c1_i32_151 k0_t5
  let v315 : BitVec 32 := Scalar.muli c2_i32_192 arg21
  let v316 : Index := Scalar.indexCast v315
  let c96 : Index := 96#32
  ![v316.toNat, 96]
def k0_off96 (k0_t5 : Fin k0_t5_loop.trips) : Fin 2 → Nat :=
  let c2_i32_193 : BitVec 32 := 2#32
  let c0_i32_149 : BitVec 32 := 0#32
  let c1_i32_151 : BitVec 32 := 1#32
  let arg21 : BitVec 32 := Scf.iv c0_i32_149 c1_i32_151 k0_t5
  let v321 : BitVec 32 := Scalar.muli c2_i32_193 arg21
  let c1_i32_194 : BitVec 32 := 1#32
  let v322 : BitVec 32 := Scalar.addi v321 c1_i32_194
  let v323 : Index := Scalar.indexCast v322
  let c32_195 : Index := 32#32
  ![v323.toNat, 32]
def k0_off97 (k0_t5 : Fin k0_t5_loop.trips) : Fin 2 → Nat :=
  let c2_i32_196 : BitVec 32 := 2#32
  let c0_i32_149 : BitVec 32 := 0#32
  let c1_i32_151 : BitVec 32 := 1#32
  let arg21 : BitVec 32 := Scf.iv c0_i32_149 c1_i32_151 k0_t5
  let v327 : BitVec 32 := Scalar.muli c2_i32_196 arg21
  let c1_i32_197 : BitVec 32 := 1#32
  let v328 : BitVec 32 := Scalar.addi v327 c1_i32_197
  let v329 : Index := Scalar.indexCast v328
  let c96_198 : Index := 96#32
  ![v329.toNat, 96]
def k0_off98 (k0_t5 : Fin k0_t5_loop.trips) : Fin 2 → Nat :=
  let c0_i32_149 : BitVec 32 := 0#32
  let c1_i32_151 : BitVec 32 := 1#32
  let arg21 : BitVec 32 := Scf.iv c0_i32_149 c1_i32_151 k0_t5
  let v334 : Index := Scalar.indexCast arg21
  let c32_199 : Index := 32#32
  ![v334.toNat, 32]
def k0_off99 (k0_t5 : Fin k0_t5_loop.trips) : Fin 2 → Nat :=
  let c0_i32_149 : BitVec 32 := 0#32
  let c1_i32_151 : BitVec 32 := 1#32
  let arg21 : BitVec 32 := Scf.iv c0_i32_149 c1_i32_151 k0_t5
  let v338 : Index := Scalar.indexCast arg21
  let c96_200 : Index := 96#32
  ![v338.toNat, 96]
def k0_off100 (k0_t5 : Fin k0_t5_loop.trips) : Fin 2 → Nat :=
  let c2_i32_201 : BitVec 32 := 2#32
  let c0_i32_149 : BitVec 32 := 0#32
  let c1_i32_151 : BitVec 32 := 1#32
  let arg21 : BitVec 32 := Scf.iv c0_i32_149 c1_i32_151 k0_t5
  let v342 : BitVec 32 := Scalar.muli c2_i32_201 arg21
  let v343 : Index := Scalar.indexCast v342
  let c48 : Index := 48#32
  ![v343.toNat, 48]
def k0_off101 (k0_t5 : Fin k0_t5_loop.trips) : Fin 2 → Nat :=
  let c2_i32_202 : BitVec 32 := 2#32
  let c0_i32_149 : BitVec 32 := 0#32
  let c1_i32_151 : BitVec 32 := 1#32
  let arg21 : BitVec 32 := Scf.iv c0_i32_149 c1_i32_151 k0_t5
  let v347 : BitVec 32 := Scalar.muli c2_i32_202 arg21
  let v348 : Index := Scalar.indexCast v347
  let c112 : Index := 112#32
  ![v348.toNat, 112]
def k0_off102 (k0_t5 : Fin k0_t5_loop.trips) : Fin 2 → Nat :=
  let c2_i32_203 : BitVec 32 := 2#32
  let c0_i32_149 : BitVec 32 := 0#32
  let c1_i32_151 : BitVec 32 := 1#32
  let arg21 : BitVec 32 := Scf.iv c0_i32_149 c1_i32_151 k0_t5
  let v353 : BitVec 32 := Scalar.muli c2_i32_203 arg21
  let c1_i32_204 : BitVec 32 := 1#32
  let v354 : BitVec 32 := Scalar.addi v353 c1_i32_204
  let v355 : Index := Scalar.indexCast v354
  let c48_205 : Index := 48#32
  ![v355.toNat, 48]
def k0_off103 (k0_t5 : Fin k0_t5_loop.trips) : Fin 2 → Nat :=
  let c2_i32_206 : BitVec 32 := 2#32
  let c0_i32_149 : BitVec 32 := 0#32
  let c1_i32_151 : BitVec 32 := 1#32
  let arg21 : BitVec 32 := Scf.iv c0_i32_149 c1_i32_151 k0_t5
  let v359 : BitVec 32 := Scalar.muli c2_i32_206 arg21
  let c1_i32_207 : BitVec 32 := 1#32
  let v360 : BitVec 32 := Scalar.addi v359 c1_i32_207
  let v361 : Index := Scalar.indexCast v360
  let c112_208 : Index := 112#32
  ![v361.toNat, 112]
def k0_off104 (k0_t5 : Fin k0_t5_loop.trips) : Fin 2 → Nat :=
  let c0_i32_149 : BitVec 32 := 0#32
  let c1_i32_151 : BitVec 32 := 1#32
  let arg21 : BitVec 32 := Scf.iv c0_i32_149 c1_i32_151 k0_t5
  let v366 : Index := Scalar.indexCast arg21
  let c48_209 : Index := 48#32
  ![v366.toNat, 48]
def k0_off105 (k0_t5 : Fin k0_t5_loop.trips) : Fin 2 → Nat :=
  let c0_i32_149 : BitVec 32 := 0#32
  let c1_i32_151 : BitVec 32 := 1#32
  let arg21 : BitVec 32 := Scf.iv c0_i32_149 c1_i32_151 k0_t5
  let v370 : Index := Scalar.indexCast arg21
  let c112_210 : Index := 112#32
  ![v370.toNat, 112]
def k0_mult7 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_11 : BitVec 32 := 0#32
  let c1_i32_12 : BitVec 32 := 1#32
  let arg20 : BitVec 32 := Scf.iv c0_i32_11 c1_i32_12 k0_t1
  let c4_i32_144 : BitVec 32 := 4#32
  let v212 : BitVec 32 := Scalar.muli arg20 c4_i32_144
  let c3_i32 : BitVec 32 := 3#32
  let v213 : BitVec 32 := Scalar.addi v212 c3_i32
  let c128_i32_153 : BitVec 32 := 128#32
  let v218 : BitVec 32 := Scalar.muli v213 c128_i32_153
  let v219 : BitVec 32 := Scalar.addi v2 v218
  let c0_i32_155 : BitVec 32 := 0#32
  let v221 : BitVec 1 := Scalar.cmpi .sgt v219 c0_i32_155
  let v222 : BitVec 32 := Scalar.extui v221
  let c0_i32_156 : BitVec 32 := 0#32
  let v223 : BitVec 1 := Scalar.cmpi .slt v219 c0_i32_156
  let v224 : BitVec 32 := Scalar.extui v223
  let v225 : BitVec 32 := Scalar.subi v222 v224
  let c2_i32_154 : BitVec 32 := 2#32
  let c0_i32_157 : BitVec 32 := 0#32
  let v226 : BitVec 1 := Scalar.cmpi .sgt c2_i32_154 c0_i32_157
  let v227 : BitVec 32 := Scalar.extui v226
  let c0_i32_158 : BitVec 32 := 0#32
  let v228 : BitVec 1 := Scalar.cmpi .slt c2_i32_154 c0_i32_158
  let v229 : BitVec 32 := Scalar.extui v228
  let v230 : BitVec 32 := Scalar.subi v227 v229
  let v231 : BitVec 1 := Scalar.cmpi .ne v225 v230
  let v232 : BitVec 32 := Scalar.remsi v219 c2_i32_154
  let c0_i32_159 : BitVec 32 := 0#32
  let v233 : BitVec 1 := Scalar.cmpi .ne v232 c0_i32_159
  let v234 : BitVec 1 := Scalar.andi v231 v233
  let v220 : BitVec 32 := Scalar.divsi v219 c2_i32_154
  let c1_i32_160 : BitVec 32 := 1#32
  let v235 : BitVec 32 := Scalar.subi v220 c1_i32_160
  let v236 : BitVec 32 := Scalar.select v234 v235 v220
  v236
def k0_cond4 (k0_t1 : Fin k0_t1_loop.trips) : BitVec 1 :=
  let c0_i32_11 : BitVec 32 := 0#32
  let c1_i32_12 : BitVec 32 := 1#32
  let arg20 : BitVec 32 := Scf.iv c0_i32_11 c1_i32_12 k0_t1
  let c4_i32_144 : BitVec 32 := 4#32
  let v212 : BitVec 32 := Scalar.muli arg20 c4_i32_144
  let c3_i32 : BitVec 32 := 3#32
  let v213 : BitVec 32 := Scalar.addi v212 c3_i32
  let c4_i32_167 : BitVec 32 := 4#32
  let v242 : BitVec 32 := Scalar.addi v213 c4_i32_167
  let c200_i32_168 : BitVec 32 := 200#32
  let v243 : BitVec 1 := Scalar.cmpi .slt v242 c200_i32_168
  let v244 : BitVec 32 := Scalar.extui v243
  let c0_i32_169 : BitVec 32 := 0#32
  let v245 : BitVec 1 := Scalar.cmpi .ne v244 c0_i32_169
  v245

def k0_mult8 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_11 : BitVec 32 := 0#32
  let c1_i32_12 : BitVec 32 := 1#32
  let arg20 : BitVec 32 := Scf.iv c0_i32_11 c1_i32_12 k0_t1
  let c4_i32_144 : BitVec 32 := 4#32
  let v212 : BitVec 32 := Scalar.muli arg20 c4_i32_144
  let c3_i32 : BitVec 32 := 3#32
  let v213 : BitVec 32 := Scalar.addi v212 c3_i32
  let c128_i32_170 : BitVec 32 := 128#32
  let v246 : BitVec 32 := Scalar.muli v213 c128_i32_170
  let v247 : BitVec 32 := Scalar.addi v2 v246
  let c0_i32_172 : BitVec 32 := 0#32
  let v249 : BitVec 1 := Scalar.cmpi .sgt v247 c0_i32_172
  let v250 : BitVec 32 := Scalar.extui v249
  let c0_i32_173 : BitVec 32 := 0#32
  let v251 : BitVec 1 := Scalar.cmpi .slt v247 c0_i32_173
  let v252 : BitVec 32 := Scalar.extui v251
  let v253 : BitVec 32 := Scalar.subi v250 v252
  let c2_i32_171 : BitVec 32 := 2#32
  let c0_i32_174 : BitVec 32 := 0#32
  let v254 : BitVec 1 := Scalar.cmpi .sgt c2_i32_171 c0_i32_174
  let v255 : BitVec 32 := Scalar.extui v254
  let c0_i32_175 : BitVec 32 := 0#32
  let v256 : BitVec 1 := Scalar.cmpi .slt c2_i32_171 c0_i32_175
  let v257 : BitVec 32 := Scalar.extui v256
  let v258 : BitVec 32 := Scalar.subi v255 v257
  let v259 : BitVec 1 := Scalar.cmpi .ne v253 v258
  let v260 : BitVec 32 := Scalar.remsi v247 c2_i32_171
  let c0_i32_176 : BitVec 32 := 0#32
  let v261 : BitVec 1 := Scalar.cmpi .ne v260 c0_i32_176
  let v262 : BitVec 1 := Scalar.andi v259 v261
  let v248 : BitVec 32 := Scalar.divsi v247 c2_i32_171
  let c1_i32_177 : BitVec 32 := 1#32
  let v263 : BitVec 32 := Scalar.subi v248 c1_i32_177
  let v264 : BitVec 32 := Scalar.select v262 v263 v248
  v264
def k0_off106 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_11 : BitVec 32 := 0#32
  let c1_i32_12 : BitVec 32 := 1#32
  let arg20 : BitVec 32 := Scf.iv c0_i32_11 c1_i32_12 k0_t1
  let c4_i32_144 : BitVec 32 := 4#32
  let v212 : BitVec 32 := Scalar.muli arg20 c4_i32_144
  let c3_i32 : BitVec 32 := 3#32
  let v213 : BitVec 32 := Scalar.addi v212 c3_i32
  let c128_i32_170 : BitVec 32 := 128#32
  let v246 : BitVec 32 := Scalar.muli v213 c128_i32_170
  let v247 : BitVec 32 := Scalar.addi v2 v246
  let c0_i32_172 : BitVec 32 := 0#32
  let v249 : BitVec 1 := Scalar.cmpi .sgt v247 c0_i32_172
  let v250 : BitVec 32 := Scalar.extui v249
  let c0_i32_173 : BitVec 32 := 0#32
  let v251 : BitVec 1 := Scalar.cmpi .slt v247 c0_i32_173
  let v252 : BitVec 32 := Scalar.extui v251
  let v253 : BitVec 32 := Scalar.subi v250 v252
  let c2_i32_171 : BitVec 32 := 2#32
  let c0_i32_174 : BitVec 32 := 0#32
  let v254 : BitVec 1 := Scalar.cmpi .sgt c2_i32_171 c0_i32_174
  let v255 : BitVec 32 := Scalar.extui v254
  let c0_i32_175 : BitVec 32 := 0#32
  let v256 : BitVec 1 := Scalar.cmpi .slt c2_i32_171 c0_i32_175
  let v257 : BitVec 32 := Scalar.extui v256
  let v258 : BitVec 32 := Scalar.subi v255 v257
  let v259 : BitVec 1 := Scalar.cmpi .ne v253 v258
  let v260 : BitVec 32 := Scalar.remsi v247 c2_i32_171
  let c0_i32_176 : BitVec 32 := 0#32
  let v261 : BitVec 1 := Scalar.cmpi .ne v260 c0_i32_176
  let v262 : BitVec 1 := Scalar.andi v259 v261
  let v248 : BitVec 32 := Scalar.divsi v247 c2_i32_171
  let c1_i32_177 : BitVec 32 := 1#32
  let v263 : BitVec 32 := Scalar.subi v248 c1_i32_177
  let v264 : BitVec 32 := Scalar.select v262 v263 v248
  let v265 : BitVec 32 := v264
  let c0_i32_180 : BitVec 32 := 0#32
  ![v265.toNat, 0]
def k0_off107 (k0_t1 : Fin k0_t1_loop.trips) : Fin 1 → Nat :=
  let c0_i32_11 : BitVec 32 := 0#32
  let c1_i32_12 : BitVec 32 := 1#32
  let arg20 : BitVec 32 := Scf.iv c0_i32_11 c1_i32_12 k0_t1
  let c4_i32_144 : BitVec 32 := 4#32
  let v212 : BitVec 32 := Scalar.muli arg20 c4_i32_144
  let c3_i32 : BitVec 32 := 3#32
  let v213 : BitVec 32 := Scalar.addi v212 c3_i32
  let c4_i32_184 : BitVec 32 := 4#32
  let v270 : BitVec 32 := Scalar.addi v213 c4_i32_184
  let c128_i32_185 : BitVec 32 := 128#32
  let v271 : BitVec 32 := Scalar.muli v270 c128_i32_185
  ![v271.toNat]
def k0_mult9 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c25088_i32 : BitVec 32 := 25088#32
  let v18 : BitVec 32 := Scalar.addi v2 c25088_i32
  let c0_i32_15 : BitVec 32 := 0#32
  let v20 : BitVec 1 := Scalar.cmpi .sgt v18 c0_i32_15
  let v21 : BitVec 32 := Scalar.extui v20
  let c0_i32_16 : BitVec 32 := 0#32
  let v22 : BitVec 1 := Scalar.cmpi .slt v18 c0_i32_16
  let v23 : BitVec 32 := Scalar.extui v22
  let v24 : BitVec 32 := Scalar.subi v21 v23
  let c2_i32_14 : BitVec 32 := 2#32
  let c0_i32_17 : BitVec 32 := 0#32
  let v25 : BitVec 1 := Scalar.cmpi .sgt c2_i32_14 c0_i32_17
  let v26 : BitVec 32 := Scalar.extui v25
  let c0_i32_18 : BitVec 32 := 0#32
  let v27 : BitVec 1 := Scalar.cmpi .slt c2_i32_14 c0_i32_18
  let v28 : BitVec 32 := Scalar.extui v27
  let v29 : BitVec 32 := Scalar.subi v26 v28
  let v30 : BitVec 1 := Scalar.cmpi .ne v24 v29
  let v31 : BitVec 32 := Scalar.remsi v18 c2_i32_14
  let c0_i32_19 : BitVec 32 := 0#32
  let v32 : BitVec 1 := Scalar.cmpi .ne v31 c0_i32_19
  let v33 : BitVec 1 := Scalar.andi v30 v32
  let v19 : BitVec 32 := Scalar.divsi v18 c2_i32_14
  let c1_i32_20 : BitVec 32 := 1#32
  let v34 : BitVec 32 := Scalar.subi v19 c1_i32_20
  let v35 : BitVec 32 := Scalar.select v33 v34 v19
  v35
def k0_off108 (i : grid0.Coords) (c25088_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v18 : BitVec 32 := Scalar.addi v2 c25088_i32
  let c0_i32_15 : BitVec 32 := 0#32
  let v20 : BitVec 1 := Scalar.cmpi .sgt v18 c0_i32_15
  let v21 : BitVec 32 := Scalar.extui v20
  let c0_i32_16 : BitVec 32 := 0#32
  let v22 : BitVec 1 := Scalar.cmpi .slt v18 c0_i32_16
  let v23 : BitVec 32 := Scalar.extui v22
  let v24 : BitVec 32 := Scalar.subi v21 v23
  let c2_i32_14 : BitVec 32 := 2#32
  let c0_i32_17 : BitVec 32 := 0#32
  let v25 : BitVec 1 := Scalar.cmpi .sgt c2_i32_14 c0_i32_17
  let v26 : BitVec 32 := Scalar.extui v25
  let c0_i32_18 : BitVec 32 := 0#32
  let v27 : BitVec 1 := Scalar.cmpi .slt c2_i32_14 c0_i32_18
  let v28 : BitVec 32 := Scalar.extui v27
  let v29 : BitVec 32 := Scalar.subi v26 v28
  let v30 : BitVec 1 := Scalar.cmpi .ne v24 v29
  let v31 : BitVec 32 := Scalar.remsi v18 c2_i32_14
  let c0_i32_19 : BitVec 32 := 0#32
  let v32 : BitVec 1 := Scalar.cmpi .ne v31 c0_i32_19
  let v33 : BitVec 1 := Scalar.andi v30 v32
  let v19 : BitVec 32 := Scalar.divsi v18 c2_i32_14
  let c1_i32_20 : BitVec 32 := 1#32
  let v34 : BitVec 32 := Scalar.subi v19 c1_i32_20
  let v35 : BitVec 32 := Scalar.select v33 v34 v19
  let v36 : BitVec 32 := v35
  let c0_i32_23 : BitVec 32 := 0#32
  ![v36.toNat, 0]
def k0_mult10 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c25216_i32 : BitVec 32 := 25216#32
  let v41 : BitVec 32 := Scalar.addi v2 c25216_i32
  let c0_i32_28 : BitVec 32 := 0#32
  let v43 : BitVec 1 := Scalar.cmpi .sgt v41 c0_i32_28
  let v44 : BitVec 32 := Scalar.extui v43
  let c0_i32_29 : BitVec 32 := 0#32
  let v45 : BitVec 1 := Scalar.cmpi .slt v41 c0_i32_29
  let v46 : BitVec 32 := Scalar.extui v45
  let v47 : BitVec 32 := Scalar.subi v44 v46
  let c2_i32_27 : BitVec 32 := 2#32
  let c0_i32_30 : BitVec 32 := 0#32
  let v48 : BitVec 1 := Scalar.cmpi .sgt c2_i32_27 c0_i32_30
  let v49 : BitVec 32 := Scalar.extui v48
  let c0_i32_31 : BitVec 32 := 0#32
  let v50 : BitVec 1 := Scalar.cmpi .slt c2_i32_27 c0_i32_31
  let v51 : BitVec 32 := Scalar.extui v50
  let v52 : BitVec 32 := Scalar.subi v49 v51
  let v53 : BitVec 1 := Scalar.cmpi .ne v47 v52
  let v54 : BitVec 32 := Scalar.remsi v41 c2_i32_27
  let c0_i32_32 : BitVec 32 := 0#32
  let v55 : BitVec 1 := Scalar.cmpi .ne v54 c0_i32_32
  let v56 : BitVec 1 := Scalar.andi v53 v55
  let v42 : BitVec 32 := Scalar.divsi v41 c2_i32_27
  let c1_i32_33 : BitVec 32 := 1#32
  let v57 : BitVec 32 := Scalar.subi v42 c1_i32_33
  let v58 : BitVec 32 := Scalar.select v56 v57 v42
  v58
def k0_mult11 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c25344_i32 : BitVec 32 := 25344#32
  let v64 : BitVec 32 := Scalar.addi v2 c25344_i32
  let c0_i32_41 : BitVec 32 := 0#32
  let v66 : BitVec 1 := Scalar.cmpi .sgt v64 c0_i32_41
  let v67 : BitVec 32 := Scalar.extui v66
  let c0_i32_42 : BitVec 32 := 0#32
  let v68 : BitVec 1 := Scalar.cmpi .slt v64 c0_i32_42
  let v69 : BitVec 32 := Scalar.extui v68
  let v70 : BitVec 32 := Scalar.subi v67 v69
  let c2_i32_40 : BitVec 32 := 2#32
  let c0_i32_43 : BitVec 32 := 0#32
  let v71 : BitVec 1 := Scalar.cmpi .sgt c2_i32_40 c0_i32_43
  let v72 : BitVec 32 := Scalar.extui v71
  let c0_i32_44 : BitVec 32 := 0#32
  let v73 : BitVec 1 := Scalar.cmpi .slt c2_i32_40 c0_i32_44
  let v74 : BitVec 32 := Scalar.extui v73
  let v75 : BitVec 32 := Scalar.subi v72 v74
  let v76 : BitVec 1 := Scalar.cmpi .ne v70 v75
  let v77 : BitVec 32 := Scalar.remsi v64 c2_i32_40
  let c0_i32_45 : BitVec 32 := 0#32
  let v78 : BitVec 1 := Scalar.cmpi .ne v77 c0_i32_45
  let v79 : BitVec 1 := Scalar.andi v76 v78
  let v65 : BitVec 32 := Scalar.divsi v64 c2_i32_40
  let c1_i32_46 : BitVec 32 := 1#32
  let v80 : BitVec 32 := Scalar.subi v65 c1_i32_46
  let v81 : BitVec 32 := Scalar.select v79 v80 v65
  v81
def k0_mult12 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c25472_i32 : BitVec 32 := 25472#32
  let v87 : BitVec 32 := Scalar.addi v2 c25472_i32
  let c0_i32_54 : BitVec 32 := 0#32
  let v89 : BitVec 1 := Scalar.cmpi .sgt v87 c0_i32_54
  let v90 : BitVec 32 := Scalar.extui v89
  let c0_i32_55 : BitVec 32 := 0#32
  let v91 : BitVec 1 := Scalar.cmpi .slt v87 c0_i32_55
  let v92 : BitVec 32 := Scalar.extui v91
  let v93 : BitVec 32 := Scalar.subi v90 v92
  let c2_i32_53 : BitVec 32 := 2#32
  let c0_i32_56 : BitVec 32 := 0#32
  let v94 : BitVec 1 := Scalar.cmpi .sgt c2_i32_53 c0_i32_56
  let v95 : BitVec 32 := Scalar.extui v94
  let c0_i32_57 : BitVec 32 := 0#32
  let v96 : BitVec 1 := Scalar.cmpi .slt c2_i32_53 c0_i32_57
  let v97 : BitVec 32 := Scalar.extui v96
  let v98 : BitVec 32 := Scalar.subi v95 v97
  let v99 : BitVec 1 := Scalar.cmpi .ne v93 v98
  let v100 : BitVec 32 := Scalar.remsi v87 c2_i32_53
  let c0_i32_58 : BitVec 32 := 0#32
  let v101 : BitVec 1 := Scalar.cmpi .ne v100 c0_i32_58
  let v102 : BitVec 1 := Scalar.andi v99 v101
  let v88 : BitVec 32 := Scalar.divsi v87 c2_i32_53
  let c1_i32_59 : BitVec 32 := 1#32
  let v103 : BitVec 32 := Scalar.subi v88 c1_i32_59
  let v104 : BitVec 32 := Scalar.select v102 v103 v88
  v104
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x200_S819200 : S4096x200.ShapeCasts S819200
  concatenates_S1000000x64_S1000000x64_S1000000x128_d1 : Shape.Concatenates [S1000000x64, S1000000x64] S1000000x128 1
  bcast_S2_S2x1_0 : S2.BroadcastsInDim S2x1 (![0] : Fin 1 → Fin S2x1.rank)
  bcast_S2x1_S2x16_0_1 : S2x1.BroadcastsInDim S2x16 (![0, 1] : Fin 2 → Fin S2x16.rank)
  inb_S2x16_S1x16_0_0 : ∀ a, (![0, 0] : Fin 2 → Nat) a + S1x16.size a ≤ S2x16.size a
  h_S1x16 : 0 < S1x16.numel
  shapeCasts_S1x16_S16 : S1x16.ShapeCasts S16
  inb_S2x16_S1x16_1_0 : ∀ a, (![1, 0] : Fin 2 → Nat) a + S1x16.size a ≤ S2x16.size a
  inb_S25600_S128_0 : ∀ a, (![0] : Fin 1 → Nat) a + S128.size a ≤ S25600.size a
  inb_S1000000x128_S1000000x128_0_0 : ∀ a, (![0, 0] : Fin 2 → Nat) a + S1000000x128.size a ≤ S1000000x128.size a
  gathers_S1000000x128_S128x128 : S1000000x128.Gathers 0 S128x128
  inb_S25600_S128_128 : ∀ a, (![128] : Fin 1 → Nat) a + S128.size a ≤ S25600.size a
  inb_S25600_S128_256 : ∀ a, (![256] : Fin 1 → Nat) a + S128.size a ≤ S25600.size a
  inb_S25600_S128_384 : ∀ a, (![384] : Fin 1 → Nat) a + S128.size a ≤ S25600.size a
  shapeCasts_S16_S1x16 : S16.ShapeCasts S1x16
  inb_S128x128_S64x128_0_0 : ∀ a, (![0, 0] : Fin 2 → Nat) a + S64x128.size a ≤ S128x128.size a
  shapeCasts_S409600x128_S4096x200x64 : S409600x128.ShapeCasts S4096x200x64
  hcc0_scratch6 : 0 + S_.numel ≤ 10
  hcc0_scratch7 : 1 + S_.numel ≤ 10
  hcc0_scratch8 : 2 + S_.numel ≤ 10
  hcc0_scratch9 : 3 + S_.numel ≤ 10
  hcc0_scratch10 : 4 + S_.numel ≤ 10
  hcc0_scratch11 : 5 + S_.numel ≤ 10
  hcc0_scratch12 : 6 + S_.numel ≤ 10
  hcc0_scratch13 : 7 + S_.numel ≤ 10
  hcc0_scoped0 : 8 + S_.numel ≤ 10
  hcc0_scoped1 : 9 + S_.numel ≤ 10
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S25600.size a ≤ S819200.size a
  k0_t1_ok : k0_t1_loop.OK
  k0_off2_inb : ∀ k0_t1 : Fin k0_t1_loop.trips, ∀ (r : Fin 4), ∀ a, (k0_off2 k0_t1 (BitVec.ofNat 32 r.val)) a + S128.size a ≤ S25600.size a
  k0_t2_ok : k0_t2_loop.OK
  k0_off3_inb : ∀ k0_t2 : Fin k0_t2_loop.trips, ∀ a, (k0_off3 k0_t2) a + S1x16.size a ≤ S128x128.size a
  k0_off4_inb : ∀ k0_t2 : Fin k0_t2_loop.trips, ∀ a, (k0_off4 k0_t2) a + S1x16.size a ≤ S128x128.size a
  k0_off5_inb : ∀ k0_t2 : Fin k0_t2_loop.trips, ∀ a, (k0_off5 k0_t2) a + S1x16.size a ≤ S128x128.size a
  k0_off6_inb : ∀ k0_t2 : Fin k0_t2_loop.trips, ∀ a, (k0_off6 k0_t2) a + S1x16.size a ≤ S128x128.size a
  k0_off7_inb : ∀ k0_t2 : Fin k0_t2_loop.trips, ∀ a, (k0_off7 k0_t2) a + S1x16.size a ≤ S128x128.size a
  k0_off8_inb : ∀ k0_t2 : Fin k0_t2_loop.trips, ∀ a, (k0_off8 k0_t2) a + S1x16.size a ≤ S128x128.size a
  k0_off9_inb : ∀ k0_t2 : Fin k0_t2_loop.trips, ∀ a, (k0_off9 k0_t2) a + S1x16.size a ≤ S128x128.size a
  k0_off10_inb : ∀ k0_t2 : Fin k0_t2_loop.trips, ∀ a, (k0_off10 k0_t2) a + S1x16.size a ≤ S128x128.size a
  k0_off11_inb : ∀ k0_t2 : Fin k0_t2_loop.trips, ∀ a, (k0_off11 k0_t2) a + S1x16.size a ≤ S128x128.size a
  k0_off12_inb : ∀ k0_t2 : Fin k0_t2_loop.trips, ∀ a, (k0_off12 k0_t2) a + S1x16.size a ≤ S128x128.size a
  k0_off13_inb : ∀ k0_t2 : Fin k0_t2_loop.trips, ∀ a, (k0_off13 k0_t2) a + S1x16.size a ≤ S128x128.size a
  k0_off14_inb : ∀ k0_t2 : Fin k0_t2_loop.trips, ∀ a, (k0_off14 k0_t2) a + S1x16.size a ≤ S128x128.size a
  k0_off15_inb : ∀ k0_t2 : Fin k0_t2_loop.trips, ∀ a, (k0_off15 k0_t2) a + S1x16.size a ≤ S128x128.size a
  k0_off16_inb : ∀ k0_t2 : Fin k0_t2_loop.trips, ∀ a, (k0_off16 k0_t2) a + S1x16.size a ≤ S128x128.size a
  k0_off17_inb : ∀ k0_t2 : Fin k0_t2_loop.trips, ∀ a, (k0_off17 k0_t2) a + S1x16.size a ≤ S128x128.size a
  k0_off18_inb : ∀ k0_t2 : Fin k0_t2_loop.trips, ∀ a, (k0_off18 k0_t2) a + S1x16.size a ≤ S128x128.size a
  k0_off19_inb : ∀ k0_t2 : Fin k0_t2_loop.trips, ∀ a, (k0_off19 k0_t2) a + S1x16.size a ≤ S128x128.size a
  k0_off20_inb : ∀ k0_t2 : Fin k0_t2_loop.trips, ∀ a, (k0_off20 k0_t2) a + S1x16.size a ≤ S128x128.size a
  k0_off21_inb : ∀ k0_t2 : Fin k0_t2_loop.trips, ∀ a, (k0_off21 k0_t2) a + S1x16.size a ≤ S128x128.size a
  k0_off22_inb : ∀ k0_t2 : Fin k0_t2_loop.trips, ∀ a, (k0_off22 k0_t2) a + S1x16.size a ≤ S128x128.size a
  k0_off23_inb : ∀ k0_t2 : Fin k0_t2_loop.trips, ∀ a, (k0_off23 k0_t2) a + S1x16.size a ≤ S128x128.size a
  k0_off24_inb : ∀ k0_t2 : Fin k0_t2_loop.trips, ∀ a, (k0_off24 k0_t2) a + S1x16.size a ≤ S128x128.size a
  k0_off25_inb : ∀ k0_t2 : Fin k0_t2_loop.trips, ∀ a, (k0_off25 k0_t2) a + S1x16.size a ≤ S128x128.size a
  k0_off26_inb : ∀ k0_t2 : Fin k0_t2_loop.trips, ∀ a, (k0_off26 k0_t2) a + S1x16.size a ≤ S128x128.size a
  k0_mult1_dvd : ∀ (i : grid0.Coords) (k0_t1 : Fin k0_t1_loop.trips), 64 ∣ (k0_mult1 i k0_t1).toNat
  k0_off27_inb : ∀ (i : grid0.Coords) (k0_t1 : Fin k0_t1_loop.trips), ∀ (r : Fin 4), ∀ a, (k0_off27 i k0_t1 (BitVec.ofNat 32 r.val)) a + S64x128.size a ≤ S409600x128.size a
  k0_mult2_dvd : ∀ (i : grid0.Coords) (k0_t1 : Fin k0_t1_loop.trips), ∀ (k0_h1 : k0_cond1 k0_t1 = 1#1), 64 ∣ (k0_mult2 i k0_t1).toNat
  k0_off28_inb : ∀ (i : grid0.Coords) (k0_t1 : Fin k0_t1_loop.trips), ∀ (k0_h1 : k0_cond1 k0_t1 = 1#1), ∀ a, (k0_off28 i k0_t1) a + S64x128.size a ≤ S409600x128.size a
  k0_off29_inb : ∀ k0_t1 : Fin k0_t1_loop.trips, ∀ (k0_h1 : k0_cond1 k0_t1 = 1#1), ∀ a, (k0_off29 k0_t1) a + S128.size a ≤ S25600.size a
  k0_t3_ok : k0_t3_loop.OK
  k0_off30_inb : ∀ k0_t3 : Fin k0_t3_loop.trips, ∀ a, (k0_off30 k0_t3) a + S1x16.size a ≤ S128x128.size a
  k0_off31_inb : ∀ k0_t3 : Fin k0_t3_loop.trips, ∀ a, (k0_off31 k0_t3) a + S1x16.size a ≤ S128x128.size a
  k0_off32_inb : ∀ k0_t3 : Fin k0_t3_loop.trips, ∀ a, (k0_off32 k0_t3) a + S1x16.size a ≤ S128x128.size a
  k0_off33_inb : ∀ k0_t3 : Fin k0_t3_loop.trips, ∀ a, (k0_off33 k0_t3) a + S1x16.size a ≤ S128x128.size a
  k0_off34_inb : ∀ k0_t3 : Fin k0_t3_loop.trips, ∀ a, (k0_off34 k0_t3) a + S1x16.size a ≤ S128x128.size a
  k0_off35_inb : ∀ k0_t3 : Fin k0_t3_loop.trips, ∀ a, (k0_off35 k0_t3) a + S1x16.size a ≤ S128x128.size a
  k0_off36_inb : ∀ k0_t3 : Fin k0_t3_loop.trips, ∀ a, (k0_off36 k0_t3) a + S1x16.size a ≤ S128x128.size a
  k0_off37_inb : ∀ k0_t3 : Fin k0_t3_loop.trips, ∀ a, (k0_off37 k0_t3) a + S1x16.size a ≤ S128x128.size a
  k0_off38_inb : ∀ k0_t3 : Fin k0_t3_loop.trips, ∀ a, (k0_off38 k0_t3) a + S1x16.size a ≤ S128x128.size a
  k0_off39_inb : ∀ k0_t3 : Fin k0_t3_loop.trips, ∀ a, (k0_off39 k0_t3) a + S1x16.size a ≤ S128x128.size a
  k0_off40_inb : ∀ k0_t3 : Fin k0_t3_loop.trips, ∀ a, (k0_off40 k0_t3) a + S1x16.size a ≤ S128x128.size a
  k0_off41_inb : ∀ k0_t3 : Fin k0_t3_loop.trips, ∀ a, (k0_off41 k0_t3) a + S1x16.size a ≤ S128x128.size a
  k0_off42_inb : ∀ k0_t3 : Fin k0_t3_loop.trips, ∀ a, (k0_off42 k0_t3) a + S1x16.size a ≤ S128x128.size a
  k0_off43_inb : ∀ k0_t3 : Fin k0_t3_loop.trips, ∀ a, (k0_off43 k0_t3) a + S1x16.size a ≤ S128x128.size a
  k0_off44_inb : ∀ k0_t3 : Fin k0_t3_loop.trips, ∀ a, (k0_off44 k0_t3) a + S1x16.size a ≤ S128x128.size a
  k0_off45_inb : ∀ k0_t3 : Fin k0_t3_loop.trips, ∀ a, (k0_off45 k0_t3) a + S1x16.size a ≤ S128x128.size a
  k0_off46_inb : ∀ k0_t3 : Fin k0_t3_loop.trips, ∀ a, (k0_off46 k0_t3) a + S1x16.size a ≤ S128x128.size a
  k0_off47_inb : ∀ k0_t3 : Fin k0_t3_loop.trips, ∀ a, (k0_off47 k0_t3) a + S1x16.size a ≤ S128x128.size a
  k0_off48_inb : ∀ k0_t3 : Fin k0_t3_loop.trips, ∀ a, (k0_off48 k0_t3) a + S1x16.size a ≤ S128x128.size a
  k0_off49_inb : ∀ k0_t3 : Fin k0_t3_loop.trips, ∀ a, (k0_off49 k0_t3) a + S1x16.size a ≤ S128x128.size a
  k0_off50_inb : ∀ k0_t3 : Fin k0_t3_loop.trips, ∀ a, (k0_off50 k0_t3) a + S1x16.size a ≤ S128x128.size a
  k0_off51_inb : ∀ k0_t3 : Fin k0_t3_loop.trips, ∀ a, (k0_off51 k0_t3) a + S1x16.size a ≤ S128x128.size a
  k0_off52_inb : ∀ k0_t3 : Fin k0_t3_loop.trips, ∀ a, (k0_off52 k0_t3) a + S1x16.size a ≤ S128x128.size a
  k0_off53_inb : ∀ k0_t3 : Fin k0_t3_loop.trips, ∀ a, (k0_off53 k0_t3) a + S1x16.size a ≤ S128x128.size a
  k0_mult3_dvd : ∀ (i : grid0.Coords) (k0_t1 : Fin k0_t1_loop.trips), 64 ∣ (k0_mult3 i k0_t1).toNat
  k0_mult4_dvd : ∀ (i : grid0.Coords) (k0_t1 : Fin k0_t1_loop.trips), ∀ (k0_h2 : k0_cond2 k0_t1 = 1#1), 64 ∣ (k0_mult4 i k0_t1).toNat
  k0_off54_inb : ∀ (i : grid0.Coords) (k0_t1 : Fin k0_t1_loop.trips), ∀ (k0_h2 : k0_cond2 k0_t1 = 1#1), ∀ a, (k0_off54 i k0_t1) a + S64x128.size a ≤ S409600x128.size a
  k0_off55_inb : ∀ k0_t1 : Fin k0_t1_loop.trips, ∀ (k0_h2 : k0_cond2 k0_t1 = 1#1), ∀ a, (k0_off55 k0_t1) a + S128.size a ≤ S25600.size a
  k0_t4_ok : k0_t4_loop.OK
  k0_off56_inb : ∀ k0_t4 : Fin k0_t4_loop.trips, ∀ a, (k0_off56 k0_t4) a + S1x16.size a ≤ S128x128.size a
  k0_off57_inb : ∀ k0_t4 : Fin k0_t4_loop.trips, ∀ a, (k0_off57 k0_t4) a + S1x16.size a ≤ S128x128.size a
  k0_off58_inb : ∀ k0_t4 : Fin k0_t4_loop.trips, ∀ a, (k0_off58 k0_t4) a + S1x16.size a ≤ S128x128.size a
  k0_off59_inb : ∀ k0_t4 : Fin k0_t4_loop.trips, ∀ a, (k0_off59 k0_t4) a + S1x16.size a ≤ S128x128.size a
  k0_off60_inb : ∀ k0_t4 : Fin k0_t4_loop.trips, ∀ a, (k0_off60 k0_t4) a + S1x16.size a ≤ S128x128.size a
  k0_off61_inb : ∀ k0_t4 : Fin k0_t4_loop.trips, ∀ a, (k0_off61 k0_t4) a + S1x16.size a ≤ S128x128.size a
  k0_off62_inb : ∀ k0_t4 : Fin k0_t4_loop.trips, ∀ a, (k0_off62 k0_t4) a + S1x16.size a ≤ S128x128.size a
  k0_off63_inb : ∀ k0_t4 : Fin k0_t4_loop.trips, ∀ a, (k0_off63 k0_t4) a + S1x16.size a ≤ S128x128.size a
  k0_off64_inb : ∀ k0_t4 : Fin k0_t4_loop.trips, ∀ a, (k0_off64 k0_t4) a + S1x16.size a ≤ S128x128.size a
  k0_off65_inb : ∀ k0_t4 : Fin k0_t4_loop.trips, ∀ a, (k0_off65 k0_t4) a + S1x16.size a ≤ S128x128.size a
  k0_off66_inb : ∀ k0_t4 : Fin k0_t4_loop.trips, ∀ a, (k0_off66 k0_t4) a + S1x16.size a ≤ S128x128.size a
  k0_off67_inb : ∀ k0_t4 : Fin k0_t4_loop.trips, ∀ a, (k0_off67 k0_t4) a + S1x16.size a ≤ S128x128.size a
  k0_off68_inb : ∀ k0_t4 : Fin k0_t4_loop.trips, ∀ a, (k0_off68 k0_t4) a + S1x16.size a ≤ S128x128.size a
  k0_off69_inb : ∀ k0_t4 : Fin k0_t4_loop.trips, ∀ a, (k0_off69 k0_t4) a + S1x16.size a ≤ S128x128.size a
  k0_off70_inb : ∀ k0_t4 : Fin k0_t4_loop.trips, ∀ a, (k0_off70 k0_t4) a + S1x16.size a ≤ S128x128.size a
  k0_off71_inb : ∀ k0_t4 : Fin k0_t4_loop.trips, ∀ a, (k0_off71 k0_t4) a + S1x16.size a ≤ S128x128.size a
  k0_off72_inb : ∀ k0_t4 : Fin k0_t4_loop.trips, ∀ a, (k0_off72 k0_t4) a + S1x16.size a ≤ S128x128.size a
  k0_off73_inb : ∀ k0_t4 : Fin k0_t4_loop.trips, ∀ a, (k0_off73 k0_t4) a + S1x16.size a ≤ S128x128.size a
  k0_off74_inb : ∀ k0_t4 : Fin k0_t4_loop.trips, ∀ a, (k0_off74 k0_t4) a + S1x16.size a ≤ S128x128.size a
  k0_off75_inb : ∀ k0_t4 : Fin k0_t4_loop.trips, ∀ a, (k0_off75 k0_t4) a + S1x16.size a ≤ S128x128.size a
  k0_off76_inb : ∀ k0_t4 : Fin k0_t4_loop.trips, ∀ a, (k0_off76 k0_t4) a + S1x16.size a ≤ S128x128.size a
  k0_off77_inb : ∀ k0_t4 : Fin k0_t4_loop.trips, ∀ a, (k0_off77 k0_t4) a + S1x16.size a ≤ S128x128.size a
  k0_off78_inb : ∀ k0_t4 : Fin k0_t4_loop.trips, ∀ a, (k0_off78 k0_t4) a + S1x16.size a ≤ S128x128.size a
  k0_off79_inb : ∀ k0_t4 : Fin k0_t4_loop.trips, ∀ a, (k0_off79 k0_t4) a + S1x16.size a ≤ S128x128.size a
  k0_mult5_dvd : ∀ (i : grid0.Coords) (k0_t1 : Fin k0_t1_loop.trips), 64 ∣ (k0_mult5 i k0_t1).toNat
  k0_mult6_dvd : ∀ (i : grid0.Coords) (k0_t1 : Fin k0_t1_loop.trips), ∀ (k0_h3 : k0_cond3 k0_t1 = 1#1), 64 ∣ (k0_mult6 i k0_t1).toNat
  k0_off80_inb : ∀ (i : grid0.Coords) (k0_t1 : Fin k0_t1_loop.trips), ∀ (k0_h3 : k0_cond3 k0_t1 = 1#1), ∀ a, (k0_off80 i k0_t1) a + S64x128.size a ≤ S409600x128.size a
  k0_off81_inb : ∀ k0_t1 : Fin k0_t1_loop.trips, ∀ (k0_h3 : k0_cond3 k0_t1 = 1#1), ∀ a, (k0_off81 k0_t1) a + S128.size a ≤ S25600.size a
  k0_t5_ok : k0_t5_loop.OK
  k0_off82_inb : ∀ k0_t5 : Fin k0_t5_loop.trips, ∀ a, (k0_off82 k0_t5) a + S1x16.size a ≤ S128x128.size a
  k0_off83_inb : ∀ k0_t5 : Fin k0_t5_loop.trips, ∀ a, (k0_off83 k0_t5) a + S1x16.size a ≤ S128x128.size a
  k0_off84_inb : ∀ k0_t5 : Fin k0_t5_loop.trips, ∀ a, (k0_off84 k0_t5) a + S1x16.size a ≤ S128x128.size a
  k0_off85_inb : ∀ k0_t5 : Fin k0_t5_loop.trips, ∀ a, (k0_off85 k0_t5) a + S1x16.size a ≤ S128x128.size a
  k0_off86_inb : ∀ k0_t5 : Fin k0_t5_loop.trips, ∀ a, (k0_off86 k0_t5) a + S1x16.size a ≤ S128x128.size a
  k0_off87_inb : ∀ k0_t5 : Fin k0_t5_loop.trips, ∀ a, (k0_off87 k0_t5) a + S1x16.size a ≤ S128x128.size a
  k0_off88_inb : ∀ k0_t5 : Fin k0_t5_loop.trips, ∀ a, (k0_off88 k0_t5) a + S1x16.size a ≤ S128x128.size a
  k0_off89_inb : ∀ k0_t5 : Fin k0_t5_loop.trips, ∀ a, (k0_off89 k0_t5) a + S1x16.size a ≤ S128x128.size a
  k0_off90_inb : ∀ k0_t5 : Fin k0_t5_loop.trips, ∀ a, (k0_off90 k0_t5) a + S1x16.size a ≤ S128x128.size a
  k0_off91_inb : ∀ k0_t5 : Fin k0_t5_loop.trips, ∀ a, (k0_off91 k0_t5) a + S1x16.size a ≤ S128x128.size a
  k0_off92_inb : ∀ k0_t5 : Fin k0_t5_loop.trips, ∀ a, (k0_off92 k0_t5) a + S1x16.size a ≤ S128x128.size a
  k0_off93_inb : ∀ k0_t5 : Fin k0_t5_loop.trips, ∀ a, (k0_off93 k0_t5) a + S1x16.size a ≤ S128x128.size a
  k0_off94_inb : ∀ k0_t5 : Fin k0_t5_loop.trips, ∀ a, (k0_off94 k0_t5) a + S1x16.size a ≤ S128x128.size a
  k0_off95_inb : ∀ k0_t5 : Fin k0_t5_loop.trips, ∀ a, (k0_off95 k0_t5) a + S1x16.size a ≤ S128x128.size a
  k0_off96_inb : ∀ k0_t5 : Fin k0_t5_loop.trips, ∀ a, (k0_off96 k0_t5) a + S1x16.size a ≤ S128x128.size a
  k0_off97_inb : ∀ k0_t5 : Fin k0_t5_loop.trips, ∀ a, (k0_off97 k0_t5) a + S1x16.size a ≤ S128x128.size a
  k0_off98_inb : ∀ k0_t5 : Fin k0_t5_loop.trips, ∀ a, (k0_off98 k0_t5) a + S1x16.size a ≤ S128x128.size a
  k0_off99_inb : ∀ k0_t5 : Fin k0_t5_loop.trips, ∀ a, (k0_off99 k0_t5) a + S1x16.size a ≤ S128x128.size a
  k0_off100_inb : ∀ k0_t5 : Fin k0_t5_loop.trips, ∀ a, (k0_off100 k0_t5) a + S1x16.size a ≤ S128x128.size a
  k0_off101_inb : ∀ k0_t5 : Fin k0_t5_loop.trips, ∀ a, (k0_off101 k0_t5) a + S1x16.size a ≤ S128x128.size a
  k0_off102_inb : ∀ k0_t5 : Fin k0_t5_loop.trips, ∀ a, (k0_off102 k0_t5) a + S1x16.size a ≤ S128x128.size a
  k0_off103_inb : ∀ k0_t5 : Fin k0_t5_loop.trips, ∀ a, (k0_off103 k0_t5) a + S1x16.size a ≤ S128x128.size a
  k0_off104_inb : ∀ k0_t5 : Fin k0_t5_loop.trips, ∀ a, (k0_off104 k0_t5) a + S1x16.size a ≤ S128x128.size a
  k0_off105_inb : ∀ k0_t5 : Fin k0_t5_loop.trips, ∀ a, (k0_off105 k0_t5) a + S1x16.size a ≤ S128x128.size a
  k0_mult7_dvd : ∀ (i : grid0.Coords) (k0_t1 : Fin k0_t1_loop.trips), 64 ∣ (k0_mult7 i k0_t1).toNat
  k0_mult8_dvd : ∀ (i : grid0.Coords) (k0_t1 : Fin k0_t1_loop.trips), ∀ (k0_h4 : k0_cond4 k0_t1 = 1#1), 64 ∣ (k0_mult8 i k0_t1).toNat
  k0_off106_inb : ∀ (i : grid0.Coords) (k0_t1 : Fin k0_t1_loop.trips), ∀ (k0_h4 : k0_cond4 k0_t1 = 1#1), ∀ a, (k0_off106 i k0_t1) a + S64x128.size a ≤ S409600x128.size a
  k0_off107_inb : ∀ k0_t1 : Fin k0_t1_loop.trips, ∀ (k0_h4 : k0_cond4 k0_t1 = 1#1), ∀ a, (k0_off107 k0_t1) a + S128.size a ≤ S25600.size a
  k0_mult9_dvd : ∀ i : grid0.Coords, 64 ∣ (k0_mult9 i).toNat
  k0_off108_inb : ∀ i : grid0.Coords, ∀ (r : Fin 4), ∀ a, (k0_off108 i (BitVec.ofNat 32 (25088 + 128 * r.val))) a + S64x128.size a ≤ S409600x128.size a
  k0_mult10_dvd : ∀ i : grid0.Coords, 64 ∣ (k0_mult10 i).toNat
  k0_mult11_dvd : ∀ i : grid0.Coords, 64 ∣ (k0_mult11 i).toNat
  k0_mult12_dvd : ∀ i : grid0.Coords, 64 ∣ (k0_mult12 i).toNat

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scratch10 : DmaSems sig S_ := SemArray.consecutive 4 S_ hcc0_scratch10
abbrev cc0_scratch11 : DmaSems sig S_ := SemArray.consecutive 5 S_ hcc0_scratch11
abbrev cc0_scratch12 : DmaSems sig S_ := SemArray.consecutive 6 S_ hcc0_scratch12
abbrev cc0_scratch13 : DmaSems sig S_ := SemArray.consecutive 7 S_ hcc0_scratch13
abbrev cc0_scoped0 : DmaSems sig S_ := SemArray.consecutive 8 S_ hcc0_scoped0
abbrev cc0_scoped1 : DmaSems sig S_ := SemArray.consecutive 9 S_ hcc0_scoped1

class Facts : Prop extends Facts₀ where

variable [Facts]
-- ==== ReferenceIdeal.lean ====
abbrev S4096x200 : Shape := ⟨2, ![4096, 200]⟩
abbrev S1000000x64 : Shape := ⟨2, ![1000000, 64]⟩
abbrev S2 : Shape := ⟨1, ![2]⟩
abbrev S1 : Shape := ⟨1, ![1]⟩
abbrev S_ : Shape := ⟨0, ![]⟩
abbrev S4096x200x1 : Shape := ⟨3, ![4096, 200, 1]⟩
abbrev S1x1x1 : Shape := ⟨3, ![1, 1, 1]⟩
abbrev S4096x200x64 : Shape := ⟨3, ![4096, 200, 64]⟩

abbrev nBuf : Space → Nat
  | .hbm => 37
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S1000000x64, .f32⟩
  | .hbm, ⟨2, _⟩ => ⟨S1000000x64, .f32⟩
  | .hbm, ⟨3, _⟩ => ⟨S1000000x64, .f32⟩
  | .hbm, ⟨4, _⟩ => ⟨S2, .f32⟩
  | .hbm, ⟨5, _⟩ => ⟨S1, .f32⟩
  | .hbm, ⟨6, _⟩ => ⟨S_, .f32⟩
  | .hbm, ⟨7, _⟩ => ⟨S1000000x64, .f32⟩
  | .hbm, ⟨8, _⟩ => ⟨S1000000x64, .f32⟩
  | .hbm, ⟨9, _⟩ => ⟨S1, .f32⟩
  | .hbm, ⟨10, _⟩ => ⟨S_, .f32⟩
  | .hbm, ⟨11, _⟩ => ⟨S1000000x64, .f32⟩
  | .hbm, ⟨12, _⟩ => ⟨S1000000x64, .f32⟩
  | .hbm, ⟨13, _⟩ => ⟨S1000000x64, .f32⟩
  | .hbm, ⟨14, _⟩ => ⟨S_, .i32⟩
  | .hbm, ⟨15, _⟩ => ⟨S4096x200, .i32⟩
  | .hbm, ⟨16, _⟩ => ⟨S4096x200, .i1⟩
  | .hbm, ⟨17, _⟩ => ⟨S_, .i32⟩
  | .hbm, ⟨18, _⟩ => ⟨S4096x200, .i32⟩
  | .hbm, ⟨19, _⟩ => ⟨S4096x200, .i32⟩
  | .hbm, ⟨20, _⟩ => ⟨S4096x200, .i32⟩
  | .hbm, ⟨21, _⟩ => ⟨S4096x200x1, .i32⟩
  | .hbm, ⟨22, _⟩ => ⟨S1, .i32⟩
  | .hbm, ⟨23, _⟩ => ⟨S_, .i32⟩
  | .hbm, ⟨24, _⟩ => ⟨S4096x200x1, .i32⟩
  | .hbm, ⟨25, _⟩ => ⟨S4096x200x1, .i1⟩
  | .hbm, ⟨26, _⟩ => ⟨S1x1x1, .i32⟩
  | .hbm, ⟨27, _⟩ => ⟨S4096x200x1, .i32⟩
  | .hbm, ⟨28, _⟩ => ⟨S4096x200x1, .i1⟩
  | .hbm, ⟨29, _⟩ => ⟨S4096x200x1, .i1⟩
  | .hbm, ⟨30, _⟩ => ⟨S_, .i1⟩
  | .hbm, ⟨31, _⟩ => ⟨S4096x200, .i1⟩
  | .hbm, ⟨32, _⟩ => ⟨S4096x200x64, .f32⟩
  | .hbm, ⟨33, _⟩ => ⟨S4096x200x64, .i1⟩
  | .hbm, ⟨34, _⟩ => ⟨S_, .f32⟩
  | .hbm, ⟨35, _⟩ => ⟨S4096x200x64, .f32⟩
  | .hbm, ⟨36, _⟩ => ⟨S4096x200x64, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v9 : Ref sig .tc := ⟨.hbm, 36, rfl⟩

abbrev nD : Nat := 1
abbrev τ : Topo := Topo.v7x

variable {F : FTy → Type} [FloatOps F]

class Facts₀ : Prop where
  slices_S2_S1_0 : S2.Slices ![0] S1
  shapeCasts_S1_S_ : S1.ShapeCasts S_
  bcast_S_S1000000x64 : S_.BroadcastsInDim S1000000x64 (![] : Fin 0 → Fin S1000000x64.rank)
  slices_S2_S1_1 : S2.Slices ![1] S1
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x64_0_1 : S4096x200.BroadcastsInDim S4096x200x64 (![0, 1] : Fin 2 → Fin S4096x200x64.rank)
  bcast_S_S4096x200x64 : S_.BroadcastsInDim S4096x200x64 (![] : Fin 0 → Fin S4096x200x64.rank)
  gather_S1000000x64_S4096x200x1_S4096x200x64_2_0_n_n_0_2_164_wf : GatherDims.WF S1000000x64 S4096x200x1 S4096x200x64 [2] [0] [] [0] [] 2 ![1, 64]

variable [Facts₀]

def gather_S1000000x64_S4096x200x1_S4096x200x64_2_0_n_n_0_2_164 : GatherDims S1000000x64 S4096x200x1 S4096x200x64 where
  offsetDims := [2]
  collapsedSliceDims := [0]
  operandBatchingDims := []
  startIndicesBatchingDims := []
  startIndexMap := [0]
  indexVectorDim := 2
  sliceSizes := ![1, 64]
  wf := gather_S1000000x64_S4096x200x1_S4096x200x64_2_0_n_n_0_2_164_wf

class Facts : Prop extends Facts₀ where

variable [Facts]
-- ==== Proof.LibTakeRows.lean ====
/-
  General lemma: a lookup of whole rows of a table through a three-axis index array, read at an index.

  `jnp.take(x, idx, axis=0)` of an n × k table `x` at an index array of shape R × C lowers to a gather whose start
  indices have shape R × C × 1 (the last axis the index vector's), whose one start-index component names the table's
  axis 0, which collapses that axis and keeps axis 1 whole as the result's last axis. Its result element (t, j, b) is
  the table's element (r, b), where r is the index word at (t, j, 0) read as a signed integer and clamped into
  [0, n − 1].
-/
import Idealize.ShloMosaic.PureOps
import Idealize.ShloMosaic.Lib.ValueIdx

noncomputable section

open Idealize.ShloMosaic Idealize.ShloMosaic.ValueIdx

namespace Cert.Lib

/-- The table row an index word names: the word read as a signed integer, clamped into [0, n − 1]. -/
def takeRow (n : ℕ) (hn : 0 < n) (w : BitVec 32) : Fin n := ⟨min w.toInt.toNat (n - 1), by omega⟩

theorem takeRow_val (n : ℕ) (hn : 0 < n) (w : BitVec 32) : (takeRow n hn w).val = min w.toInt.toNat (n - 1) := rfl

/-- A word that, read unsigned, is below n names its own row. -/
theorem takeRow_of_lt (n : ℕ) (hn : 0 < n) (hn' : n ≤ 2 ^ 31) (w : BitVec 32) (h : w.toNat < n) :
    (takeRow n hn w).val = w.toNat := by
  rw [takeRow_val]
  have h1 : w.toInt = (w.toNat : ℤ) := by
    rw [BitVec.toInt_eq_toNat_cond]
    split
    · rfl
    · omega
  rw [h1]
  simp only [Int.toNat_natCast]
  omega

/-- THE LOOKUP READ AT (t, j, b): the table at the row the index word at (t, j, 0) names, column b. -/
theorem take_rows_apply {α : Type} {n k R C : ℕ} (hn : 0 < n)
    (d : GatherDims ⟨2, ![n, k]⟩ ⟨3, ![R, C, 1]⟩ ⟨3, ![R, C, k]⟩)
    (hod : d.offsetDims = [2]) (hcd : d.collapsedSliceDims = [0]) (hob : d.operandBatchingDims = [])
    (hsb : d.startIndicesBatchingDims = []) (hsm : d.startIndexMap = [0]) (hiv : d.indexVectorDim = 2)
    (hss : d.sliceSizes = ![1, k])
    (x : (⟨2, ![n, k]⟩ : Shape).Idx → α) (idx : IVec ⟨3, ![R, C, 1]⟩ 32) (t : Fin R) (j : Fin C) (b : Fin k) :
    Host.gather d x idx (ix3 t j b) = x (ix2 (takeRow n hn (idx (ix3 t j 0))) b) := by
  obtain ⟨od, cd, ob, sb, sm, iv, ss, wf⟩ := d
  dsimp only at hod hcd hob hsb hsm hiv hss
  subst hod hcd hob hsb hsm hiv hss
  unfold Host.gather
  refine congrArg x ?_
  funext c
  refine Fin.ext ?_
  match c with
  | ⟨0, _⟩ =>
    show GatherDims.start _ (ix3 t j b) idx 0 + GatherDims.batchCoord _ (ix3 t j b) 0 + GatherDims.offCoord _ (ix3 t j b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (D : GatherDims ⟨2, ![n, k]⟩ ⟨3, ![R, C, 1]⟩ ⟨3, ![R, C, k]⟩)
        (hD : D = ⟨[2], [0], [], [], [0], 2, ![1, k], wf⟩) (c : Fin D.startIndexMap.length),
        D.siIdx (ix3 t j b) c = ix3 t j 0 := by
      intro D hD c
      subst hD
      funext q; refine Fin.ext ?_
      match q with
      | ⟨0, _⟩ => rfl
      | ⟨1, _⟩ => rfl
      | ⟨2, _⟩ =>
        have := c.isLt
        show c.val = 0
        simpa using this
    rw [hsi _ rfl]
    rfl
  | ⟨1, _⟩ =>
    show GatherDims.start _ (ix3 t j b) idx 1 + GatherDims.batchCoord _ (ix3 t j b) 1 + GatherDims.offCoord _ (ix3 t j b) 1 = _
    rw [GatherDims.batchCoord_eq_zero _ _ _ List.not_mem_nil]
    have hst : GatherDims.start (⟨[2], [0], [], [], [0], 2, ![1, k], wf⟩ :
        GatherDims ⟨2, ![n, k]⟩ ⟨3, ![R, C, 1]⟩ ⟨3, ![R, C, k]⟩) (ix3 t j b) idx 1 = 0 := by
      unfold GatherDims.start
      rw [dif_neg (fun h => absurd (congrArg Fin.val (List.mem_singleton.mp h)) Nat.one_ne_zero)]
    have hoff : GatherDims.offCoord (⟨[2], [0], [], [], [0], 2, ![1, k], wf⟩ :
        GatherDims ⟨2, ![n, k]⟩ ⟨3, ![R, C, 1]⟩ ⟨3, ![R, C, k]⟩) (ix3 t j b) 1 = b.val := by
      unfold GatherDims.offCoord
      rw [dif_pos ((GatherDims.mem_sKept _ _).mpr ⟨fun h => absurd (congrArg Fin.val (List.mem_singleton.mp h)) Nat.one_ne_zero, List.not_mem_nil⟩)]
      rfl
    rw [hst, hoff]
    simp

end Cert.Lib

end
-- ==== Proof.Spec.lean ====
/-
  The function both programs compute, as one map from the argument arrays to the result array.

  A token is a position (a, b) of the 4096 × 200 index array. Its word names a row r of the two 1000000 × 64
  tables (read as a signed integer and clamped into range, which for a word already in range is the word
  itself). The result at (a, b, e) is

      coef[0] · base[r, e]  +  coef[1] · mod0[r, e].

  Stated over any float instance: the two products and the sum are that instance's scalar operations, applied
  in this order. The third table and nothing else of the arguments enters.
-/
import Idealize.ShloMosaic.PureOps
import Idealize.ShloMosaic.Lib.ValueIdx
import proofs.«205127_g70231305225025_cont_9to1c4b_198_32_alg».proof.Proof.LibTakeRows

noncomputable section

open Idealize.ShloMosaic Idealize.ShloMosaic.ValueIdx

namespace Cert.Spec

abbrev STok : Shape := ⟨2, ![4096, 200]⟩
abbrev STab : Shape := ⟨2, ![1000000, 64]⟩
abbrev SCoef : Shape := ⟨1, ![2]⟩
abbrev SOut : Shape := ⟨3, ![4096, 200, 64]⟩

theorem rows_pos : 0 < 1000000 := by decide

/-- The table row the token at (a, b) names. -/
def row (inp : STok.Idx → BitVec 32) (a : Fin 4096) (b : Fin 200) : Fin 1000000 :=
  Cert.Lib.takeRow 1000000 rows_pos (inp (ix2 a b))

/-- The merged embedding of one token, one component: coef[0] · base[r, e] + coef[1] · mod0[r, e]. -/
def merged {F : FTy → Type} [FloatOps F] (base mod0 : STab.Idx → F .f32) (coef : SCoef.Idx → F .f32)
    (r : Fin 1000000) (e : Fin 64) : F .f32 :=
  FloatOps.addf (FloatOps.mulf (coef (ix1 0)) (base (ix2 r e))) (FloatOps.mulf (coef (ix1 1)) (mod0 (ix2 r e)))

/-- The result array: at (a, b, e), the merged embedding of token (a, b), component e. -/
def G {F : FTy → Type} [FloatOps F] (inp : STok.Idx → BitVec 32) (base mod0 : STab.Idx → F .f32)
    (coef : SCoef.Idx → F .f32) : SOut.Idx → F .f32 :=
  fun j => merged base mod0 coef (row inp (j 0) (j 1)) (j 2)

theorem G_apply {F : FTy → Type} [FloatOps F] (inp : STok.Idx → BitVec 32) (base mod0 : STab.Idx → F .f32)
    (coef : SCoef.Idx → F .f32) (a : Fin 4096) (b : Fin 200) (e : Fin 64) :
    G inp base mod0 coef (ix3 a b e) = merged base mod0 coef (row inp a b) e := rfl

/-- A word in range names its own row. -/
theorem row_val_of_lt (inp : STok.Idx → BitVec 32) (a : Fin 4096) (b : Fin 200) (h : (inp (ix2 a b)).toNat < 1000000) :
    (row inp a b).val = (inp (ix2 a b)).toNat :=
  Cert.Lib.takeRow_of_lt 1000000 rows_pos (by decide) _ h

end Cert.Spec

end
-- ==== Proof.KOut.lean ====
/-
  What the gather-and-merge call leaves in its 409600 × 128 result, as one function of its three operand arrays:
  the flat token list (819200 words), the pair table (1000000 × 128: a row of the first table followed by the same
  row of the second) and the coefficient block (2 × 16: coefficient k repeated along row k).

  Result row p holds two consecutive tokens, 2p in columns 0..63 and 2p + 1 in columns 64..127. At column q the
  token is t = 2p + q / 64, the component e = q mod 64, and the coefficient is read at lane q mod 16:

      coefBlock[0, q mod 16] · pair[r, e]  +  coefBlock[1, q mod 16] · pair[r, 64 + e],      r the row token t names.
-/
import Idealize.ShloMosaic.PureOps
import Idealize.ShloMosaic.Lib.ValueIdx
import proofs.«205127_g70231305225025_cont_9to1c4b_198_32_alg».proof.Proof.Spec

noncomputable section

open Idealize.ShloMosaic Idealize.ShloMosaic.ValueIdx

namespace Cert.KOut

abbrev SFlat : Shape := ⟨1, ![819200]⟩
abbrev SPair : Shape := ⟨2, ![1000000, 128]⟩
abbrev SCoefBlock : Shape := ⟨2, ![2, 16]⟩
abbrev SRes : Shape := ⟨2, ![409600, 128]⟩

/-- The token of result position (p, q). -/
def tok (p : Fin 409600) (q : Fin 128) : Fin 819200 := ⟨2 * p.val + q.val / 64, by have := p.isLt; have := q.isLt; omega⟩
/-- Its component. -/
def comp (q : Fin 128) : Fin 64 := ⟨q.val % 64, Nat.mod_lt _ (by decide)⟩
/-- The same component in the pair table's second half. -/
def comp' (q : Fin 128) : Fin 128 := ⟨64 + q.val % 64, by have := Nat.mod_lt q.val (show 0 < 64 by decide); omega⟩
/-- The same component in the pair table's first half. -/
def comp0 (q : Fin 128) : Fin 128 := ⟨q.val % 64, by have := Nat.mod_lt q.val (show 0 < 64 by decide); omega⟩
/-- The coefficient lane. -/
def lane (q : Fin 128) : Fin 16 := ⟨q.val % 16, Nat.mod_lt _ (by decide)⟩

/-- The row of the pair table token t names. -/
def prow (flat : SFlat.Idx → BitVec 32) (t : Fin 819200) : Fin 1000000 :=
  Cert.Lib.takeRow 1000000 Cert.Spec.rows_pos (flat (ix1 t))

/-- The call's result array. -/
def out {F : FTy → Type} [FloatOps F] (flat : SFlat.Idx → BitVec 32) (pair : SPair.Idx → F .f32)
    (cb : SCoefBlock.Idx → F .f32) : SRes.Idx → F .f32 :=
  fun j =>
    FloatOps.addf (FloatOps.mulf (cb (ix2 0 (lane (j 1)))) (pair (ix2 (prow flat (tok (j 0) (j 1))) (comp0 (j 1)))))
      (FloatOps.mulf (cb (ix2 1 (lane (j 1)))) (pair (ix2 (prow flat (tok (j 0) (j 1))) (comp' (j 1)))))

theorem out_apply {F : FTy → Type} [FloatOps F] (flat : SFlat.Idx → BitVec 32) (pair : SPair.Idx → F .f32)
    (cb : SCoefBlock.Idx → F .f32) (p : Fin 409600) (q : Fin 128) :
    out flat pair cb (ix2 p q)
      = FloatOps.addf (FloatOps.mulf (cb (ix2 0 (lane q))) (pair (ix2 (prow flat (tok p q)) (comp0 q))))
          (FloatOps.mulf (cb (ix2 1 (lane q))) (pair (ix2 (prow flat (tok p q)) (comp' q)))) := rfl

end Cert.KOut

end
-- ==== Proof.Common.lean ====
/-
  The gather-and-merge call as the launch theorem sees it, and what one tile is handed and hands back.

  The call runs on 2 SparseCores × 16 tiles. Tile (c, i) has the worker number w = 2·i + c (0 ≤ w < 32) and owns
  tokens [25600·w, 25600·(w+1)) of the flat token list, hence result rows [12800·w, 12800·(w+1)) (two tokens per
  row). Every tile reads the whole pair table and the whole coefficient block: each holds one of 32 read shares of
  those two arrays. A tile hands its result rows back holding the call's result function on exactly those rows.
-/
import proofs.«205127_g70231305225025_cont_9to1c4b_198_32_alg».proof.Defs
import proofs.«205127_g70231305225025_cont_9to1c4b_198_32_alg».proof.Proof.KOut
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205127_g70231305225025_cont_9to1c4b_198_32_alg».proof.Proof.Gen.KernelIdeal
import proofs.«205127_g70231305225025_cont_9to1c4b_198_32_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, as the TensorCore names them -/

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev a4Loc (d : Dev nD) : Loc nD τ sig := (SparseCore.T d).loc main_arg4
/-- The flat token list, the pair table, the coefficient block, the call's result, the program's result. -/
abbrev flLoc (d : Dev nD) : Loc nD τ sig := (SparseCore.T d).loc main_v0
abbrev prLoc (d : Dev nD) : Loc nD τ sig := (SparseCore.T d).loc main_v1
abbrev cbLoc (d : Dev nD) : Loc nD τ sig := (SparseCore.T d).loc main_v3
abbrev ouLoc (d : Dev nD) : Loc nD τ sig := (SparseCore.T d).loc main_v4
abbrev rsLoc (d : Dev nD) : Loc nD τ sig := (SparseCore.T d).loc main_v5

/-! ## Workers -/

/-- The worker number of tile i of SparseCore c. -/
def wid (c : Fin 2) (i : Fin 16) : Fin 32 := ⟨2 * i.val + c.val, by have := c.isLt; have := i.isLt; omega⟩

theorem fl_div : 32 ∣ S819200.size 0 := ⟨25600, rfl⟩
theorem ou_div : 32 ∣ S409600x128.size 0 := ⟨12800, rfl⟩
/-- Worker w's tokens, worker w's result rows. -/
abbrev flRect (w : Fin 32) : Rect S819200 := Rect.part (s := S819200) (a₀ := 0) fl_div w
abbrev ouRect (w : Fin 32) : Rect S409600x128 := Rect.part (s := S409600x128) (a₀ := 0) ou_div w
abbrev flSet (w : Fin 32) : Finset S819200.Idx := ((View.whole (main_v0_scv : Ref sig .scVector)).slice (flRect w)).set
abbrev ouSet (w : Fin 32) : Finset S409600x128.Idx := ((View.whole (main_v4_scv : Ref sig .scVector)).slice (ouRect w)).set

/-- Worker w's read share of an array every tile reads whole. -/
abbrev rq (w : Fin 32) : PosShare TreeShare := Transfers.shareTok fullShare 32 w

/-! ## What a tile is handed, and what it hands back

Over the call's operand contents: the token list fl, the pair table pr, the coefficient block cb (each per device),
and the result array's contents o₀ when the call starts. -/

section Res

variable (fl : (d : Dev nD) → Buf (Elt F) (flLoc d)) (pr : (d : Dev nD) → Buf (Elt F) (prLoc d))
  (cb : (d : Dev nD) → Buf (Elt F) (cbLoc d)) (o₀ : (d : Dev nD) → Buf (Elt F) (ouLoc d))

/-- The call's result function on device d. -/
def outF [FloatOps F] (d : Dev nD) : Buf (Elt F) (ouLoc d) := Cert.KOut.out (F := F) (fl d) (pr d) (cb d)

/-- Worker w's operands: its tokens, its two read shares. -/
abbrev tileIn (d : Dev nD) (w : Fin 32) : sProp 𝕄 :=
  iprop((flLoc d ↦[flSet w]{fullShare} fl d) ∗ (prLoc d ↦{rq w} pr d) ∗ (cbLoc d ↦{rq w} cb d))
/-- Handed: the operands, and its result rows at the contents they start from. -/
abbrev tileGo (d : Dev nD) (w : Fin 32) : sProp 𝕄 :=
  iprop(tileIn fl pr cb d w ∗ (ouLoc d ↦[ouSet w]{fullShare} o₀ d))
/-- Handed back: the operands, and its result rows at the call's result function. -/
abbrev tileTd [FloatOps F] (d : Dev nD) (w : Fin 32) : sProp 𝕄 :=
  iprop(tileIn fl pr cb d w ∗ (ouLoc d ↦[ouSet w]{fullShare} outF fl pr cb d))

/-- The call's payloads: a SparseCore takes its sixteen tiles' shares and gives them back; a tile takes its own. -/
def P [FloatOps F] : (K (F := F)).Pay (nD := nD) (Val := Elt F) (Name := ℕ) (U := UU) where
  st := fun q d c => match q with
    | 0 => bigSep Finset.univ fun i : Fin 16 => tileGo fl pr cb o₀ d (wid (Fin.cast nCore_zero c) i)
  dn := fun q d c => match q with
    | 0 => bigSep Finset.univ fun i : Fin 16 => tileTd fl pr cb d (wid (Fin.cast nCore_zero c) i)
  go := fun q d c i => match q with
    | 0 => tileGo fl pr cb o₀ d (wid (Fin.cast nCore_zero c) (Fin.cast nSub_zero i))
  td := fun q d c i => match q with
    | 0 => tileTd fl pr cb d (wid (Fin.cast nCore_zero c) (Fin.cast nSub_zero i))
  x := fun _ _ => iprop(emp)

instance P_storable [FloatOps F] : (P (F := F) fl pr cb o₀).IsStorable where
  st q d c := match q with | 0 => by unfold P; infer_instance
  dn q d c := match q with | 0 => by unfold P; infer_instance
  go q d c i := match q with | 0 => by unfold P; infer_instance
  td q d c i := match q with | 0 => by unfold P; infer_instance

/-- What the tiles need of the token list: every word names a row of the pair table. -/
def InRange : Prop := ∀ (d : Dev nD) (j : S819200.Idx), (fl d j).toNat < 1000000

end Res

end Cert.Proof.KI

end
-- ==== Proof.HostVals.lean ====
/-
  The values the host operations around the gather-and-merge call compute, each as a function of its operand
  arrays and read at an index, and the identity they add up to: reshaping the call's result from the call's own
  result formula, fed the flattened token list, the pair table and the coefficient block, is the specified map.

  Result position (a, b, e) of the 4096 × 200 × 64 array has row-major position (a·200 + b)·64 + e, which in the
  409600 × 128 array is row p = (a·200 + b) / 2, column q = ((a·200 + b) mod 2)·64 + e. The call's formula reads
  token 2p + q / 64 = a·200 + b and component q mod 64 = e. Position a·200 + b of the flat token list is position
  (a, b) of the index array; columns e and 64 + e of the pair table are column e of the first and of the second
  table; entry (k, lane) of the coefficient block is coefficient k. Both sides name the table row through the same
  clamp, so no range condition on the words and no law of the float operations enters.
-/
import proofs.«205127_g70231305225025_cont_9to1c4b_198_32_alg».proof.KernelIdeal
import proofs.«205127_g70231305225025_cont_9to1c4b_198_32_alg».proof.Proof.Spec
import proofs.«205127_g70231305225025_cont_9to1c4b_198_32_alg».proof.Proof.KOut
import Idealize.ShloMosaic.Lib.ValueIdx
import Idealize.ShloMosaic.Lib.Pipeline.Value
import Idealize.ShloMosaic.Lib.ValueLayout

noncomputable section

open Idealize.ShloMosaic Idealize.ShloMosaic.ValueIdx Cert.KernelIdeal

namespace Cert.KernelIdeal.HostVals

variable {F : FTy → Type} [FloatOps F] [Cert.KernelIdeal.Facts]

open Cert.KernelIdeal.Facts₀ Cert.KernelIdeal.Facts

/-- The index array flattened: its words in row-major order. -/
def flatOf (a0 : IVec S4096x200 32) : IVec S819200 32 :=
  shapeCast S819200 a0 shapeCasts_S4096x200_S819200

/-- The pair table: a row of the first table followed by the same row of the second. -/
def pairOf (a1 a2 : FVec F S1000000x64 .f32) : FVec F S1000000x128 .f32 :=
  concatenate S1000000x128 1 [⟨S1000000x64, a1⟩, ⟨S1000000x64, a2⟩] concatenates_S1000000x64_S1000000x64_S1000000x128_d1

/-- The coefficient block: coefficient k repeated along row k (a column first, then sixteen lanes). -/
def coefBlockOf (a4 : FVec F S2 .f32) : FVec F S2x16 .f32 :=
  broadcastInDim S2x16 ![0, 1] bcast_S2x1_S2x16_0_1 (broadcastInDim S2x1 ![0] bcast_S2_S2x1_0 a4)

/-- The call's 409600 × 128 result read as 4096 × 200 × 64, row-major. -/
def resOf (o : FVec F S409600x128 .f32) : FVec F S4096x200x64 .f32 :=
  shapeCast S4096x200x64 o shapeCasts_S409600x128_S4096x200x64

/-- Position t of the flat list is position (t / 200, t mod 200) of the index array. -/
theorem flatOf_apply (a0 : IVec S4096x200 32) (t : Fin 819200) :
    flatOf a0 (ix1 t)
      = a0 (ix2 (⟨t.val / 200, by have := t.isLt; omega⟩ : Fin 4096) (⟨t.val % 200, by omega⟩ : Fin 200)) :=
  shapeCast_apply a0 shapeCasts_S4096x200_S819200 _ _ (by
    rw [Shape.rowMajor_val_two, Shape.rowMajor_val_one]
    show t.val / 200 * 200 + t.val % 200 = t.val
    omega)

/-- A column below 64 of the pair table is that column of the first table. -/
theorem pairOf_apply_lo (a1 a2 : FVec F S1000000x64 .f32) (r : Fin 1000000) (q : Fin 128) (h : q.val < 64) :
    pairOf a1 a2 (ix2 r q) = a1 (ix2 r (⟨q.val, h⟩ : Fin 64)) :=
  concatenate_pair_apply_left (1 : Fin 2) a1 a2 concatenates_S1000000x64_S1000000x64_S1000000x128_d1 (ix2 r q) rfl
    (ix2 r (⟨q.val, h⟩ : Fin 64)) (fun c => match c with | ⟨0, _⟩ => rfl | ⟨1, _⟩ => rfl)

/-- A column from 64 on of the pair table is that column, 64 less, of the second table. -/
theorem pairOf_apply_hi (a1 a2 : FVec F S1000000x64 .f32) (r : Fin 1000000) (q : Fin 128) (h : 64 ≤ q.val) :
    pairOf a1 a2 (ix2 r q) = a2 (ix2 r (⟨q.val - 64, by have := q.isLt; omega⟩ : Fin 64)) :=
  concatenate_pair_apply_right (1 : Fin 2) a1 a2 concatenates_S1000000x64_S1000000x64_S1000000x128_d1 (ix2 r q) rfl rfl
    (ix2 r (⟨q.val - 64, by have := q.isLt; omega⟩ : Fin 64))
    (fun c => match c with
      | ⟨0, _⟩ => fun _ => rfl
      | ⟨1, _⟩ => fun hc => absurd rfl hc)
    (by show q.val - 64 + 64 = q.val; omega)

/-- Entry (k, l) of the coefficient block is coefficient k. -/
theorem coefBlockOf_apply (a4 : FVec F S2 .f32) (k : Fin 2) (l : Fin 16) :
    coefBlockOf a4 (ix2 k l) = a4 (ix1 k) :=
  (broadcastInDim_apply (![0, 1] : Fin 2 → Fin 2) bcast_S2x1_S2x16_0_1 _ (ix2 k l) (ix2 k (0 : Fin 1))
      (fun c => match c with | ⟨0, _⟩ => rfl | ⟨1, _⟩ => rfl)).trans
    (broadcastInDim_apply (![0] : Fin 1 → Fin 2) bcast_S2_S2x1_0 a4 (ix2 k (0 : Fin 1)) (ix1 k)
      (fun c => match c with | ⟨0, _⟩ => rfl))

/-- Position (a, b, e) of the reshaped result is row (a·200 + b) / 2, column ((a·200 + b) mod 2)·64 + e. -/
theorem resOf_apply (o : FVec F S409600x128 .f32) (a : Fin 4096) (b : Fin 200) (e : Fin 64) :
    resOf o (ix3 a b e)
      = o (ix2 (⟨(a.val * 200 + b.val) / 2, by have := a.isLt; have := b.isLt; omega⟩ : Fin 409600)
            (⟨((a.val * 200 + b.val) % 2) * 64 + e.val, by have := e.isLt; omega⟩ : Fin 128)) :=
  shapeCast_apply o shapeCasts_S409600x128_S4096x200x64 _ _ (by
    rw [Shape.rowMajor_val_two, Shape.rowMajor_val_three]
    show (a.val * 200 + b.val) / 2 * 128 + ((a.val * 200 + b.val) % 2 * 64 + e.val)
      = (a.val * 200 + b.val) * 64 + e.val
    omega)

/-- The row of the 409600 × 128 array that holds result positions (a, b, ·): (a·200 + b) / 2. -/
def rowOf (a : Fin 4096) (b : Fin 200) : Fin 409600 :=
  ⟨(a.val * 200 + b.val) / 2, by have := a.isLt; have := b.isLt; omega⟩

/-- The column of that row that holds result position (a, b, e): ((a·200 + b) mod 2)·64 + e. -/
def colOf (a : Fin 4096) (b : Fin 200) (e : Fin 64) : Fin 128 :=
  ⟨((a.val * 200 + b.val) % 2) * 64 + e.val, by have := e.isLt; omega⟩

/-- That column's component is e. -/
theorem colOf_mod (a : Fin 4096) (b : Fin 200) (e : Fin 64) : (colOf a b e).val % 64 = e.val := by
  show ((a.val * 200 + b.val) % 2 * 64 + e.val) % 64 = e.val
  have := e.isLt
  omega

/-- The token of that row and column is a·200 + b, position (a, b) of the index array: the row of the pair table
    it names is the row the word at (a, b) names. -/
theorem prow_flatOf (a0 : IVec S4096x200 32) (a : Fin 4096) (b : Fin 200) (e : Fin 64) :
    Cert.KOut.prow (flatOf a0) (Cert.KOut.tok (rowOf a b) (colOf a b e)) = Cert.Spec.row a0 a b :=
  congrArg (Cert.Lib.takeRow 1000000 Cert.Spec.rows_pos)
    (shapeCast_apply a0 shapeCasts_S4096x200_S819200 (ix1 (Cert.KOut.tok (rowOf a b) (colOf a b e))) (ix2 a b) (by
      rw [Shape.rowMajor_val_two, Shape.rowMajor_val_one]
      show a.val * 200 + b.val
        = 2 * ((a.val * 200 + b.val) / 2) + ((a.val * 200 + b.val) % 2 * 64 + e.val) / 64
      have := e.isLt
      omega))

/-- Component e of the pair table's first half is the first table's column e. -/
theorem pairOf_comp0 (a1 a2 : FVec F S1000000x64 .f32) (r : Fin 1000000) (q : Fin 128) (e : Fin 64)
    (he : q.val % 64 = e.val) : pairOf a1 a2 (ix2 r (Cert.KOut.comp0 q)) = a1 (ix2 r e) :=
  (pairOf_apply_lo a1 a2 r (Cert.KOut.comp0 q) (Nat.mod_lt _ (by decide))).trans
    (congrArg (fun x => a1 (ix2 r x)) (Fin.ext he))

/-- Component e of the pair table's second half is the second table's column e. -/
theorem pairOf_comp' (a1 a2 : FVec F S1000000x64 .f32) (r : Fin 1000000) (q : Fin 128) (e : Fin 64)
    (he : q.val % 64 = e.val) : pairOf a1 a2 (ix2 r (Cert.KOut.comp' q)) = a2 (ix2 r e) :=
  (pairOf_apply_hi a1 a2 r (Cert.KOut.comp' q) (Nat.le_add_right 64 _)).trans
    (congrArg (fun x => a2 (ix2 r x)) (Fin.ext (by show 64 + q.val % 64 - 64 = e.val; omega)))

/-- The reshaped result of the call's formula, at the flattened token list, the pair table and the coefficient
    block, is the specified map of the four argument arrays. -/
theorem value_eq (a0 : IVec S4096x200 32) (a1 a2 : FVec F S1000000x64 .f32) (a4 : FVec F S2 .f32) :
    resOf (Cert.KOut.out (flatOf a0) (pairOf a1 a2) (coefBlockOf a4)) = Cert.Spec.G a0 a1 a2 a4 :=  by
  funext j
  obtain ⟨a, b, e, rfl⟩ : ∃ (a : Fin 4096) (b : Fin 200) (e : Fin 64), j = ix3 a b e := ⟨j 0, j 1, j 2, eq_ix3 j⟩
  refine (resOf_apply _ a b e).trans ?_
  show Cert.KOut.out (flatOf a0) (pairOf a1 a2) (coefBlockOf a4) (ix2 (rowOf a b) (colOf a b e)) = _
  rw [Cert.KOut.out_apply, Cert.Spec.G_apply, coefBlockOf_apply, coefBlockOf_apply, prow_flatOf,
    pairOf_comp0 a1 a2 _ _ e (colOf_mod a b e), pairOf_comp' a1 a2 _ _ e (colOf_mod a b e)]
  rfl

end Cert.KernelIdeal.HostVals

end
-- ==== Proof.Launch.lean ====
/-
  The launch of the gather-and-merge program.

  The TensorCore flattens the token array, lays the two tables side by side as the pair table, spreads the two
  coefficients over sixteen lanes, makes the call, and reads the call's 409600 × 128 result as 4096 × 200 × 64.
  For the call the flat token list and the result rows are cut into the thirty-two workers' parts, and the pair
  table and the coefficient block go out as thirty-two read shares (a remainder kept aside); afterwards the parts
  join again, the result rows all at the one function the call computes. Worker w = 2·i + c is tile i of
  SparseCore c, so thirty-two workers are two SparseCores of sixteen tiles.

  From one tile's obligation the whole program's run follows: every weakly fair execution ends, the five argument
  arrays unchanged and the result array the reshaped call result at the operands the host operations computed.
-/
import proofs.«205127_g70231305225025_cont_9to1c4b_198_32_alg».proof.Proof.Common
import proofs.«205127_g70231305225025_cont_9to1c4b_198_32_alg».proof.Proof.HostVals

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr wp_hlo_within tcRefs devRef_mem_tcRefs after)

variable {F : FTy → Type}

local notation "𝕄" => MT nD τ sig (HIx 1) (Elt F) ℕ UU ℕ

/-! ## Thirty-two workers are two SparseCores of sixteen tiles -/

/-- Worker 2·i + c is tile i of SparseCore c: a bijection. -/
def widEquiv : Fin 2 × Fin 16 ≃ Fin 32 where
  toFun p := wid p.1 p.2
  invFun w := (⟨w.val % 2, Nat.mod_lt _ (by decide)⟩, ⟨w.val / 2, by have := w.isLt; omega⟩)
  left_inv p := by
    rcases p with ⟨c, i⟩
    refine Prod.ext (Fin.ext ?_) (Fin.ext ?_)
    · show (2 * i.val + c.val) % 2 = c.val
      have := c.isLt; omega
    · show (2 * i.val + c.val) / 2 = i.val
      have := c.isLt; omega
  right_inv w := Fin.ext (by show 2 * (w.val / 2) + w.val % 2 = w.val; omega)

/-- A product over the workers is one over the SparseCores of one over their tiles. -/
theorem bigSep_wid (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod]; rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## The workers' parts of the token list and of the result rows -/

theorem flSet_eq (w : Fin 32) : flSet w = (flRect w).set := by
  show ((View.whole (main_v0_scv : Ref sig .scVector)).slice (flRect w)).set = _
  rw [View.set_slice]; exact Finset.map_refl
theorem ouSet_eq (w : Fin 32) : ouSet w = (ouRect w).set := by
  show ((View.whole (main_v4_scv : Ref sig .scVector)).slice (ouRect w)).set = _
  rw [View.set_slice]; exact Finset.map_refl
theorem fl_disjoint : ∀ i ∈ (Finset.univ : Finset (Fin 32)), ∀ j ∈ (Finset.univ : Finset (Fin 32)), i ≠ j → Disjoint (flSet i) (flSet j) :=
  fun i _ j _ h => by rw [flSet_eq, flSet_eq]; exact Rect.part_disjoint fl_div h
theorem ou_disjoint : ∀ i ∈ (Finset.univ : Finset (Fin 32)), ∀ j ∈ (Finset.univ : Finset (Fin 32)), i ≠ j → Disjoint (ouSet i) (ouSet j) :=
  fun i _ j _ h => by rw [ouSet_eq, ouSet_eq]; exact Rect.part_disjoint ou_div h
theorem fl_cover : (Finset.univ : Finset (Fin 32)).biUnion flSet = Finset.univ :=
  (Finset.biUnion_congr rfl fun i _ => flSet_eq i).trans (Rect.biUnion_part fl_div)
theorem ou_cover : (Finset.univ : Finset (Fin 32)).biUnion ouSet = Finset.univ :=
  (Finset.biUnion_congr rfl fun i _ => ouSet_eq i).trans (Rect.biUnion_part ou_div)

/-- The token list whole is its thirty-two parts. -/
theorem fl_parts (d : Dev nD) (f : Buf (Elt F) (flLoc d)) :
    (flLoc d ↦{fullShare} f : sProp 𝕄) = bigSep Finset.univ fun w : Fin 32 => flLoc d ↦[flSet w]{fullShare} f := by
  rw [← pointsTo_biUnion Finset.univ (ℓ := flLoc d) flSet fl_disjoint, fl_cover]; try rfl
/-- The result array whole, at one function, is its thirty-two parts at that function. -/
theorem ou_parts (d : Dev nD) (f : Buf (Elt F) (ouLoc d)) :
    (ouLoc d ↦{fullShare} f : sProp 𝕄) = bigSep Finset.univ fun w : Fin 32 => ouLoc d ↦[ouSet w]{fullShare} f := by
  rw [← pointsTo_biUnion Finset.univ (ℓ := ouLoc d) ouSet ou_disjoint, ou_cover]; try rfl

/-! ## The call's operands, split among the workers and joined again -/

section Res

variable [FloatOps F]
variable (fl : (d : Dev nD) → Buf (Elt F) (flLoc d)) (pr : (d : Dev nD) → Buf (Elt F) (prLoc d))
  (cb : (d : Dev nD) → Buf (Elt F) (cbLoc d)) (o₀ : (d : Dev nD) → Buf (Elt F) (ouLoc d))

theorem P_st (d : Dev nD) (c : Fin ((K (F := F)).nCore 0)) :
    (P fl pr cb o₀).st 0 d c = bigSep Finset.univ fun i : Fin 16 => tileGo fl pr cb o₀ d (wid (Fin.cast nCore_zero c) i) := rfl
theorem P_dn (d : Dev nD) (c : Fin ((K (F := F)).nCore 0)) :
    (P fl pr cb o₀).dn 0 d c = bigSep Finset.univ fun i : Fin 16 => tileTd fl pr cb d (wid (Fin.cast nCore_zero c) i) := rfl
theorem P_go (d : Dev nD) (c : Fin ((K (F := F)).nCore 0)) (i : Fin ((K (F := F)).nSub 0)) :
    (P fl pr cb o₀).go 0 d c i = tileGo fl pr cb o₀ d (wid (Fin.cast nCore_zero c) (Fin.cast nSub_zero i)) := rfl
theorem P_td (d : Dev nD) (c : Fin ((K (F := F)).nCore 0)) (i : Fin ((K (F := F)).nSub 0)) :
    (P fl pr cb o₀).td 0 d c i = tileTd fl pr cb d (wid (Fin.cast nCore_zero c) (Fin.cast nSub_zero i)) := rfl

/-- A SparseCore's operands are by definition its sixteen tiles' shares, and its results theirs. -/
theorem vecSplit : (K (F := F)).VecSplit' (P fl pr cb o₀) 0 := by
  intro d c
  have hgo : (bigSep Finset.univ fun i : Fin ((K (F := F)).nSub 0) => (P fl pr cb o₀).go 0 d c i) = (P fl pr cb o₀).st 0 d c := by
    rw [P_st]
    exact bigSep_tasks (F := F) (fun i => tileGo fl pr cb o₀ d (wid (Fin.cast nCore_zero c) i))
  have htd : (bigSep Finset.univ fun i : Fin ((K (F := F)).nSub 0) => (P fl pr cb o₀).td 0 d c i) = (P fl pr cb o₀).dn 0 d c := by
    rw [P_dn]
    exact bigSep_tasks (F := F) (fun i => tileTd fl pr cb d (wid (Fin.cast nCore_zero c) i))
  rw [hgo, htd]
  iintro H; imodintro
  isplitl [H]; · iexact H
  iintro H; iexact H

/-- What the call takes for the two SparseCores is the thirty-two workers' shares. -/
theorem st0_eq (d : Dev nD) :
    (bigSep Finset.univ fun c : Fin ((K (F := F)).nCore 0) => (P fl pr cb o₀).st 0 d c)
      = bigSep Finset.univ fun w : Fin 32 => tileGo fl pr cb o₀ d w := by
  rw [bigSep_wid (F := F) (fun w => tileGo fl pr cb o₀ d w)]
  exact bigSep_cores (F := F) (fun c => bigSep Finset.univ fun i : Fin 16 => tileGo fl pr cb o₀ d (wid c i))
/-- What it hands back is the thirty-two workers' results. -/
theorem dn0_eq (d : Dev nD) :
    (bigSep Finset.univ fun c : Fin ((K (F := F)).nCore 0) => (P fl pr cb o₀).dn 0 d c)
      = bigSep Finset.univ fun w : Fin 32 => tileTd fl pr cb d w := by
  rw [bigSep_wid (F := F) (fun w => tileTd fl pr cb d w)]
  exact bigSep_cores (F := F) (fun c => bigSep Finset.univ fun i : Fin 16 => tileTd fl pr cb d (wid c i))

/-- The four operand arrays whole are the thirty-two workers' shares and the two remainders of the read shares. -/
theorem split32 (d : Dev nD) (o : Buf (Elt F) (ouLoc d)) :
    iprop((flLoc d ↦{fullShare} fl d) ∗ (prLoc d ↦{fullShare} pr d) ∗ (cbLoc d ↦{fullShare} cb d) ∗ (ouLoc d ↦{fullShare} o))
      ⊢ (iprop((prLoc d ↦{Transfers.shareDrop fullShare 32} pr d) ∗ (cbLoc d ↦{Transfers.shareDrop fullShare 32} cb d)
          ∗ bigSep Finset.univ fun w : Fin 32 => iprop(tileIn fl pr cb d w ∗ (ouLoc d ↦[ouSet w]{fullShare} o))) : sProp 𝕄) := by
  rw [bigSep_sep', bigSep_sep', bigSep_sep']
  iintro ⟨Hfl, Hpr, Hcb, Hou⟩
  ihave Hpr' := (Transfers.pointsTo_toks_split fullShare 32) $$ Hpr
  icases Hpr' with ⟨Hprd, Hprs⟩
  ihave Hcb' := (Transfers.pointsTo_toks_split fullShare 32) $$ Hcb
  icases Hcb' with ⟨Hcbd, Hcbs⟩
  ihave Hfls := (Entails.of_eq (fl_parts (F := F) d (fl d))) $$ Hfl
  ihave Hous := (Entails.of_eq (ou_parts (F := F) d o)) $$ Hou
  isplitl [Hprd]; · iexact Hprd
  isplitl [Hcbd]; · iexact Hcbd
  isplitl [Hfls Hprs Hcbs]
  · isplitl [Hfls]; · iexact Hfls
    isplitl [Hprs]; · iexact Hprs
    iexact Hcbs
  · iexact Hous

/-- And back. -/
theorem join32 (d : Dev nD) (o : Buf (Elt F) (ouLoc d)) :
    (iprop((prLoc d ↦{Transfers.shareDrop fullShare 32} pr d) ∗ (cbLoc d ↦{Transfers.shareDrop fullShare 32} cb d)
          ∗ bigSep Finset.univ fun w : Fin 32 => iprop(tileIn fl pr cb d w ∗ (ouLoc d ↦[ouSet w]{fullShare} o))) : sProp 𝕄)
      ⊢ iprop((flLoc d ↦{fullShare} fl d) ∗ (prLoc d ↦{fullShare} pr d) ∗ (cbLoc d ↦{fullShare} cb d) ∗ (ouLoc d ↦{fullShare} o)) := by
  rw [bigSep_sep', bigSep_sep', bigSep_sep']
  iintro ⟨Hprd, Hcbd, ⟨Hfls, Hprs, Hcbs⟩, Hous⟩
  isplitl [Hfls]; · iapply (Entails.of_eq (fl_parts (F := F) d (fl d)).symm); iexact Hfls
  isplitl [Hprd Hprs]
  · iapply (Transfers.pointsTo_toks_join fullShare 32)
    isplitl [Hprd]; · iexact Hprd
    iexact Hprs
  isplitl [Hcbd Hcbs]
  · iapply (Transfers.pointsTo_toks_join fullShare 32)
    isplitl [Hcbd]; · iexact Hcbd
    iexact Hcbs
  iapply (Entails.of_eq (ou_parts (F := F) d o).symm); iexact Hous

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P fl pr cb o₀).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) fl pr cb o₀).x q thr) = bigSep Finset.univ fun _ => iprop(emp) from
    bigSep_congr fun _ _ => bigSep_univ_of_subsingleton (0 : Fin 1), bigSep_emp']
  iempintro

end Res

/-! ## @main on the TensorCore -/

section Launch

variable [FloatOps F]
variable (m : (ℓ : Loc nD τ sig) → Buf (Elt F) ℓ) (ρ : Dev nD → PrngReg)

/-- The call's operands as the host operations compute them from the arguments, and the result array as launched. -/
abbrev flM (d : Dev nD) : Buf (Elt F) (flLoc d) := HostVals.flatOf (m (a0Loc d))
abbrev prM (d : Dev nD) : Buf (Elt F) (prLoc d) := HostVals.pairOf (m (a1Loc d)) (m (a2Loc d))
abbrev cbM (d : Dev nD) : Buf (Elt F) (cbLoc d) := HostVals.coefBlockOf (m (a4Loc d))
abbrev o₀M (d : Dev nD) : Buf (Elt F) (ouLoc d) := m (ouLoc d)

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

/-- The five host operations, as the program spells them. -/
abbrev opFl : HloOp τ sig (Elt F) := StableHlo.reshape main_arg0 main_v0 rfl shapeCasts_S4096x200_S819200
abbrev opPr : HloOp τ sig (Elt F) :=
  StableHlo.binary main_arg1 main_arg2 main_v1 ((fun a b => concatenate S1000000x128 1 [⟨S1000000x64, a⟩, ⟨S1000000x64, b⟩] concatenates_S1000000x64_S1000000x64_S1000000x128_d1) : (⟨S1000000x64, .f32⟩ : BufTy).Contents (Elt F) → (⟨S1000000x64, .f32⟩ : BufTy).Contents (Elt F) → (⟨S1000000x128, .f32⟩ : BufTy).Contents (Elt F))
abbrev opC1 : HloOp τ sig (Elt F) :=
  StableHlo.unary main_arg4 main_v2 (broadcastInDim S2x1 ![0] bcast_S2_S2x1_0 : (⟨S2, .f32⟩ : BufTy).Contents (Elt F) → (⟨S2x1, .f32⟩ : BufTy).Contents (Elt F))
abbrev opC2 : HloOp τ sig (Elt F) :=
  StableHlo.unary main_v2 main_v3 (broadcastInDim S2x16 ![0, 1] bcast_S2x1_S2x16_0_1 : (⟨S2x1, .f32⟩ : BufTy).Contents (Elt F) → (⟨S2x16, .f32⟩ : BufTy).Contents (Elt F))
abbrev opRs : HloOp τ sig (Elt F) := StableHlo.reshape main_v4 main_v5 rfl shapeCasts_S409600x128_S4096x200x64

theorem hFl : (opFl (F := F)).bufs ⊆ tcRefs τ sig := StableHlo.reshape_bufs_sub _ _ _ _ _ _
theorem hPr : (opPr (F := F)).bufs ⊆ tcRefs τ sig := StableHlo.binary_bufs_sub _ _ _ _ _ _ _
theorem hC1 : (opC1 (F := F)).bufs ⊆ tcRefs τ sig := StableHlo.unary_bufs_sub _ _ _ _ _
theorem hC2 : (opC2 (F := F)).bufs ⊆ tcRefs τ sig := StableHlo.unary_bufs_sub _ _ _ _ _
theorem hRs : (opRs (F := F)).bufs ⊆ tcRefs τ sig := StableHlo.reshape_bufs_sub _ _ _ _ _ _

/-- The launch contents; after the four operations before the call; after the call. -/
def V0 (d : Dev nD) : Valuation τ sig (Elt F) := fun b => m (d, b)
abbrev Va (d : Dev nD) : Valuation τ sig (Elt F) := after [opFl, opPr, opC1, opC2] (V0 m d)
def Vc (d : Dev nD) : Valuation τ sig (Elt F) := Function.update (Va m d) v4' (outF (flM m) (prM m) (cbM m) d)

theorem unscoped_all : (Finset.univ.filter fun b : Ref sig .tc => ¬ b.isScoped) = Finset.univ := by decide

theorem unscoped_held (d : Dev nD) :
    (unscopedBufs d (fun b => m ((SparseCore.T d).loc b)) : sProp 𝕄) = held (T d) (tcRefs τ sig) (V0 m d) := by
  unfold unscopedBufs held tcRefs
  rw [unscoped_all, bigSep_map]; rfl

/-- What the four operations leave: each operand array at the host function of the arguments, the rest untouched. -/
theorem Va_v0 (d : Dev nD) : Va m d v0' = flM m d := by
  show after [opFl, opPr, opC1, opC2] (V0 m d) (Proc.devRef .tc main_v0) = _
  after_results
  rfl
theorem Va_v1 (d : Dev nD) : Va m d v1' = prM m d := by
  show after [opFl, opPr, opC1, opC2] (V0 m d) (Proc.devRef .tc main_v1) = _
  after_results
  rfl
theorem Va_v3 (d : Dev nD) : Va m d v3' = cbM m d := by
  show after [opFl, opPr, opC1, opC2] (V0 m d) (Proc.devRef .tc main_v3) = _
  after_results
  rfl
theorem Va_v4 (d : Dev nD) : Va m d v4' = o₀M m d := by
  show after [opFl, opPr, opC1, opC2] (V0 m d) (Proc.devRef .tc main_v4) = _
  after_results
  rfl
theorem Va_a0 (d : Dev nD) : Va m d a0' = m (a0Loc d) := by
  show after [opFl, opPr, opC1, opC2] (V0 m d) (Proc.devRef .tc main_arg0) = _
  after_results
  rfl
theorem Va_a1 (d : Dev nD) : Va m d a1' = m (a1Loc d) := by
  show after [opFl, opPr, opC1, opC2] (V0 m d) (Proc.devRef .tc main_arg1) = _
  after_results
  rfl
theorem Va_a2 (d : Dev nD) : Va m d a2' = m (a2Loc d) := by
  show after [opFl, opPr, opC1, opC2] (V0 m d) (Proc.devRef .tc main_arg2) = _
  after_results
  rfl
theorem Va_a3 (d : Dev nD) : Va m d a3' = m (a3Loc d) := by
  show after [opFl, opPr, opC1, opC2] (V0 m d) (Proc.devRef .tc main_arg3) = _
  after_results
  rfl
theorem Va_a4 (d : Dev nD) : Va m d a4' = m (a4Loc d) := by
  show after [opFl, opPr, opC1, opC2] (V0 m d) (Proc.devRef .tc main_arg4) = _
  after_results
  rfl

/-- The call's four arrays; the claim's six. -/
abbrev T4 : Finset (DevRef τ sig) := {v0', v1', v3', v4'}
abbrev T6 : Finset (DevRef τ sig) := {a0', a1', a2', a3', a4', v5'}

theorem hT4 : T4 ⊆ tcRefs τ sig := by
  intro b hb
  simp only [T4, Finset.mem_insert, Finset.mem_singleton] at hb
  rcases hb with rfl | rfl | rfl | rfl <;> exact devRef_mem_tcRefs _
theorem hT6 : T6 ⊆ tcRefs τ sig := by
  intro b hb
  simp only [T6, Finset.mem_insert, Finset.mem_singleton] at hb
  rcases hb with rfl | rfl | rfl | rfl | rfl | rfl <;> exact devRef_mem_tcRefs _

omit [FloatOps F] in
theorem held_T4 (d : Dev nD) (W : Valuation τ sig (Elt F)) :
    (held (T d) T4 W : sProp 𝕄)
      = iprop((flLoc d ↦{fullShare} W v0') ∗ (prLoc d ↦{fullShare} W v1') ∗ (cbLoc d ↦{fullShare} W v3') ∗ (ouLoc d ↦{fullShare} W v4')) := by
  unfold held T4
  rw [SparseCore.bigSep_insert' (by decide), SparseCore.bigSep_insert' (by decide), SparseCore.bigSep_insert' (by decide), bigSep_singleton]

omit [FloatOps F] in
theorem held_T6 (d : Dev nD) (W : Valuation τ sig (Elt F)) :
    (held (T d) T6 W : sProp 𝕄)
      = iprop((a0Loc d ↦{fullShare} W a0') ∗ (a1Loc d ↦{fullShare} W a1') ∗ (a2Loc d ↦{fullShare} W a2') ∗ (a3Loc d ↦{fullShare} W a3')
          ∗ (a4Loc d ↦{fullShare} W a4') ∗ (rsLoc d ↦{fullShare} W v5')) := by
  unfold held T6
  rw [SparseCore.bigSep_insert' (by decide), SparseCore.bigSep_insert' (by decide), SparseCore.bigSep_insert' (by decide),
    SparseCore.bigSep_insert' (by decide), SparseCore.bigSep_insert' (by decide), bigSep_singleton]

/-- Before the call: the four arrays out of everything held. -/
theorem held_Va (d : Dev nD) :
    (held (T d) (tcRefs τ sig) (Va m d) : sProp 𝕄)
      = iprop(((flLoc d ↦{fullShare} flM m d) ∗ (prLoc d ↦{fullShare} prM m d) ∗ (cbLoc d ↦{fullShare} cbM m d) ∗ (ouLoc d ↦{fullShare} o₀M m d))
          ∗ held (T d) (tcRefs τ sig \ T4) (Va m d)) := by
  rw [held_sub_split (T d) hT4 (Va m d), held_T4, Va_v0, Va_v1, Va_v3, Va_v4]

/-- The same, the contents spelt operation by operation as the program's run leaves them. -/
theorem held_Va' (d : Dev nD) :
    (held (T d) (tcRefs τ sig) ((opC2 (F := F)).result ((opC1 (F := F)).result ((opPr (F := F)).result ((opFl (F := F)).result (V0 m d))))) : sProp 𝕄)
      = iprop(((flLoc d ↦{fullShare} flM m d) ∗ (prLoc d ↦{fullShare} prM m d) ∗ (cbLoc d ↦{fullShare} cbM m d) ∗ (ouLoc d ↦{fullShare} o₀M m d))
          ∗ held (T d) (tcRefs τ sig \ T4) (Va m d)) := held_Va m d

theorem Vc_v0 (d : Dev nD) : Vc m d v0' = flM m d := (Function.update_of_ne (show v0' ≠ v4' by decide) _ _).trans (Va_v0 m d)
theorem Vc_v1 (d : Dev nD) : Vc m d v1' = prM m d := (Function.update_of_ne (show v1' ≠ v4' by decide) _ _).trans (Va_v1 m d)
theorem Vc_v3 (d : Dev nD) : Vc m d v3' = cbM m d := (Function.update_of_ne (show v3' ≠ v4' by decide) _ _).trans (Va_v3 m d)
theorem Vc_v4 (d : Dev nD) : Vc m d v4' = outF (flM m) (prM m) (cbM m) d := Function.update_self _ _ _
theorem Vc_rest (d : Dev nD) : ∀ b ∈ tcRefs τ sig \ T4, Vc m d b = Va m d b := fun b hb =>
  Function.update_of_ne (fun e : b = v4' => (Finset.mem_sdiff.mp hb).2 (e.symm ▸ (show v4' ∈ T4 by decide))) _ _

/-- After the call: the four arrays back among everything held, the result array at the call's function. -/
theorem held_Vc (d : Dev nD) :
    (held (T d) (tcRefs τ sig) (Vc m d) : sProp 𝕄)
      = iprop(((flLoc d ↦{fullShare} flM m d) ∗ (prLoc d ↦{fullShare} prM m d) ∗ (cbLoc d ↦{fullShare} cbM m d)
            ∗ (ouLoc d ↦{fullShare} outF (flM m) (prM m) (cbM m) d))
          ∗ held (T d) (tcRefs τ sig \ T4) (Va m d)) := by
  rw [held_sub_split (T d) hT4 (Vc m d), held_T4, Vc_v0, Vc_v1, Vc_v3, Vc_v4, held_congr (T d) (Vc_rest m d)]

/-- What the last reshape leaves at the claim's six arrays. -/
theorem Vf_a0 (d : Dev nD) : (opRs (F := F)).result (Vc m d) a0' = m (a0Loc d) :=
  (StableHlo.reshape_result_ne _ _ _ _ _ _ _ (show (main_arg0 : Ref sig .tc) ≠ main_v5 by decide)).trans
    ((Function.update_of_ne (show a0' ≠ v4' by decide) _ _).trans (Va_a0 m d))
theorem Vf_a1 (d : Dev nD) : (opRs (F := F)).result (Vc m d) a1' = m (a1Loc d) :=
  (StableHlo.reshape_result_ne _ _ _ _ _ _ _ (show (main_arg1 : Ref sig .tc) ≠ main_v5 by decide)).trans
    ((Function.update_of_ne (show a1' ≠ v4' by decide) _ _).trans (Va_a1 m d))
theorem Vf_a2 (d : Dev nD) : (opRs (F := F)).result (Vc m d) a2' = m (a2Loc d) :=
  (StableHlo.reshape_result_ne _ _ _ _ _ _ _ (show (main_arg2 : Ref sig .tc) ≠ main_v5 by decide)).trans
    ((Function.update_of_ne (show a2' ≠ v4' by decide) _ _).trans (Va_a2 m d))
theorem Vf_a3 (d : Dev nD) : (opRs (F := F)).result (Vc m d) a3' = m (a3Loc d) :=
  (StableHlo.reshape_result_ne _ _ _ _ _ _ _ (show (main_arg3 : Ref sig .tc) ≠ main_v5 by decide)).trans
    ((Function.update_of_ne (show a3' ≠ v4' by decide) _ _).trans (Va_a3 m d))
theorem Vf_a4 (d : Dev nD) : (opRs (F := F)).result (Vc m d) a4' = m (a4Loc d) :=
  (StableHlo.reshape_result_ne _ _ _ _ _ _ _ (show (main_arg4 : Ref sig .tc) ≠ main_v5 by decide)).trans
    ((Function.update_of_ne (show a4' ≠ v4' by decide) _ _).trans (Va_a4 m d))
theorem Vf_v5 (d : Dev nD) : (opRs (F := F)).result (Vc m d) v5' = HostVals.resOf (outF (flM m) (prM m) (cbM m) d) := by
  show (opRs (F := F)).result (Vc m d) (Proc.devRef .tc main_v5) = _
  rw [StableHlo.reshape_result, show Vc m d (Proc.devRef .tc main_v4) = outF (flM m) (prM m) (cbM m) d from Vc_v4 m d]
  rfl

/-- What @main leaves the claim: the five arguments as launched, the result the reshaped call result. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ (a3Loc d ↦{fullShare} m (a3Loc d)) ∗ (a4Loc d ↦{fullShare} m (a4Loc d))
    ∗ (rsLoc d ↦{fullShare} HostVals.resOf (outF (flM m) (prM m) (cbM m) d)))

theorem held_Vf (d : Dev nD) :
    (held (T d) (tcRefs τ sig) ((opRs (F := F)).result (Vc m d)) : sProp 𝕄)
      = iprop(FIN m d ∗ held (T d) (tcRefs τ sig \ T6) ((opRs (F := F)).result (Vc m d))) := by
  rw [held_sub_split (T d) hT6 ((opRs (F := F)).result (Vc m d)), held_T6, Vf_a0, Vf_a1, Vf_a2, Vf_a3, Vf_a4, Vf_v5]

/-- @main on device d's TensorCore: the four host operations, the call, the last reshape. -/
theorem hmain (κ : GSem nD τ sig → ℕ) (d : Dev nD) :
    iprop((K (F := F)).ctx EH (P (flM m) (prM m) (cbM m) (o₀M m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the four host operations before the call
  iapply (wp_hlo_within 𝒱 (SparseCore.T d) none Set.univ (op := opFl) (S := tcRefs τ sig) hFl (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opPr) (S := tcRefs τ sig) hPr (V := (opFl (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := opC1) (S := tcRefs τ sig) hC1
      (V := (opPr (F := F)).result ((opFl (F := F)).result (V0 m d)))) $$ [Hb Hheld]
  · isplitl [Hb]; · iexact Hb
    iexact Hheld
  iintro ⟨Hb, Hheld⟩
  rw [wp_ret]; imodintro
  iapply (wp_hlo_within 𝒱 (SparseCore.T d) none Set.univ (op := opC2) (S := tcRefs τ sig) hC2
      (V := (opC1 (F := F)).result ((opPr (F := F)).result ((opFl (F := F)).result (V0 m d))))) $$ [Hb Hheld]
  · isplitl [Hb]; · iexact Hb
    iexact Hheld
  iintro ⟨Hb, Hheld⟩
  rw [wp_ret]; imodintro
  -- the call: the four operand arrays out, split among the thirty-two workers
  ihave Hh := (Entails.of_eq (held_Va' (F := F) m d)) $$ Hheld
  icases Hh with ⟨⟨Hfl, Hpr, Hcb, Hou⟩, Hrest⟩
  ihave Hsp := (split32 (flM m) (prM m) (cbM m) d (o₀M m d)) $$ [Hfl Hpr Hcb Hou]
  · isplitl [Hfl]; · iexact Hfl
    isplitl [Hpr]; · iexact Hpr
    isplitl [Hcb]; · iexact Hcb
    iexact Hou
  icases Hsp with ⟨Hprd, Hcbd, Hgo⟩
  iapply ((K (F := F)).wp_run (D (F := F)) 𝒱 (EH := EH) (P := P (flM m) (prM m) (cbM m) (o₀M m)) κ d 0) $$ [Hst Hgo Hb Hrest Hprd Hcbd]
  isplitr; · iexact Hctx
  isplitl [Hst]; · iexact Hst
  isplitl [Hgo]
  · rw [st0_eq]; iexact Hgo
  iintro ⟨Hst, Hdn⟩
  -- back: the workers' results joined, the result rows at the call's one function
  ihave Hdn' := (Entails.of_eq (dn0_eq (flM m) (prM m) (cbM m) (o₀M m) d)) $$ Hdn
  ihave Hj := (join32 (flM m) (prM m) (cbM m) d (outF (flM m) (prM m) (cbM m) d)) $$ [Hprd Hcbd Hdn']
  · isplitl [Hprd]; · iexact Hprd
    isplitl [Hcbd]; · iexact Hcbd
    iexact Hdn'
  icases Hj with ⟨Hfl, Hpr, Hcb, Hou⟩
  -- the last reshape
  iapply (wp_hlo_within 𝒱 (SparseCore.T d) none Set.univ (op := opRs) (S := tcRefs τ sig) hRs (V := Vc m d)) $$ [Hb Hfl Hpr Hcb Hou Hrest]
  · isplitl [Hb]; · iexact Hb
    rw [held_Vc]
    isplitl [Hfl Hpr Hcb Hou]
    · isplitl [Hfl]; · iexact Hfl
      isplitl [Hpr]; · iexact Hpr
      isplitl [Hcb]; · iexact Hcb
      iexact Hou
    iexact Hrest
  iintro ⟨Hb, Hheld⟩
  ihave Hh := (Entails.of_eq (held_Vf (F := F) m d)) $$ Hheld
  icases Hh with ⟨Hfin, -⟩
  rw [wp_ret]; imodintro; imodintro
  isplitl [Hst]; · iexact Hst
  iexact Hfin

def fq (d : Dev nD) (s' : Phys nD τ sig (Elt F)) : Prop :=
  s'.mem.mem (rsLoc d) = HostVals.resOf (outF (flM m) (prM m) (cbM m) d) ∧ s'.mem.mem (a0Loc d) = m (a0Loc d) ∧ s'.mem.mem (a1Loc d) = m (a1Loc d)
    ∧ s'.mem.mem (a2Loc d) = m (a2Loc d) ∧ s'.mem.mem (a3Loc d) = m (a3Loc d) ∧ s'.mem.mem (a4Loc d) = m (a4Loc d)

set_option maxRecDepth 16384 in
theorem hfin (d : Dev nD) (s' : Phys nD τ sig (Elt F)) : iprop(FIN m d ∗ SI s') ⊢ (⌜fq m d s'⌝ : sProp 𝕄) := by
  iintro ⟨⟨H0, H1, H2, H3, H4, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI H3]
  · isplitl [HSI] <;> iassumption
  icases H with ⟨%h3, HSI, -⟩
  ihave H := (persistent_entails_right (SI_pointsTo_agree (st := s') (ℓ := a4Loc d) (I := Finset.univ) (q := fullShare) (f := m (a4Loc d)))) $$ [HSI H4]
  · isplitl [HSI] <;> iassumption
  icases H with ⟨%h4, HSI, -⟩
  ihave H := (SI_pointsTo_agree (st := s') (ℓ := rsLoc d) (I := Finset.univ) (q := fullShare)
      (f := HostVals.resOf (outF (flM m) (prM m) (cbM m) d))) $$ [HSI Hr]
  · isplitl [HSI] <;> iassumption
  icases H with %hr
  ipureintro
  exact ⟨funext fun i => hr i (Finset.mem_univ i), funext fun i => h0 i (Finset.mem_univ i), funext fun i => h1 i (Finset.mem_univ i),
    funext fun i => h2 i (Finset.mem_univ i), funext fun i => h3 i (Finset.mem_univ i), funext fun i => h4 i (Finset.mem_univ i)⟩

/-! ## The program's run -/

def QC : PUnit × MemSt nD τ sig (Elt F) → Prop := fun r =>
  ∀ c : Dev nD, r.2.mem (rsLoc c) = HostVals.resOf (outF (flM m) (prM m) (cbM m) c) ∧ r.2.mem (a0Loc c) = m (a0Loc c) ∧ r.2.mem (a1Loc c) = m (a1Loc c)
    ∧ r.2.mem (a2Loc c) = m (a2Loc c) ∧ r.2.mem (a3Loc c) = m (a3Loc c) ∧ r.2.mem (a4Loc c) = m (a4Loc c)

/-- From one tile's obligation: every weakly fair execution of the whole program ends, the arguments unchanged and the
    result array the reshaped call result. -/
theorem run_main [∀ e, Nonempty (Elt F e)]
    (hT : (K (F := F)).TileObl (D (F := F)) 𝒱 (P (flM m) (prM m) (cbM m) (o₀M m)) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (flM m) (prM m) (cbM m) (o₀M m)) facts v₀
    (fun q hq => match q with | 0 => nomatch hq)
    (fun q _ => match q with | 0 => hT)
    (fun q _ => match q with | 0 => SparseCore.Cfg.VecSplit.of_plain (vecSplit (flM m) (prM m) (cbM m) (o₀M m)))
    m ρ main (fun _ => iprop(emp)) (FIN m) (u₀ (F := F)) (sep_elim_left.trans (hu₀ (flM m) (prM m) (cbM m) (o₀M m))) (hmain m ρ) (fq m) (hfin m) (QC m) (fun _ h => h)

end Launch

end Cert.Proof.KI

end
-- ==== Proof.Tile0.lean ====
/-
  One tile of the gather-and-merge call: its thread, its worker number, the arrays and scratch buffers as its body
  names them, and its ten DMA semaphores and six scratch buffers singled out of what the tile owns.
-/
import proofs.«205127_g70231305225025_cont_9to1c4b_198_32_alg».proof.Proof.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The tile at grid coordinates L -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- Its worker number 2·(L 1) + (L 0). -/
abbrev wL (L : grid0.Coords) : Fin 32 := wid (Fin.cast bound_zero (L 0)) (Fin.cast bound_one (L 1))
theorem wL_val (L : grid0.Coords) : (wL L).val = 2 * (L 1).val + (L 0).val := rfl

/-- The arrays and the scratch buffers, as the body table passes them. -/
abbrev flV : Memref sig .scVector .hbm S819200 .i32 := Memref.whole main_v0_scv
abbrev prV : Memref sig .scVector .hbm S1000000x128 .f32 := Memref.whole main_v1_scv
abbrev cbV : Memref sig .scVector .hbm S2x16 .f32 := Memref.whole main_v3_scv
abbrev ouV : Memref sig .scVector .hbm S409600x128 .f32 := Memref.whole main_v4_scv
/-- The token scratch, the four slots, the coefficient scratch. -/
abbrev tkS : Memref sig .scVector .vmem S25600 .i32 := Memref.whole cc0_scratch0
abbrev sl0 : Memref sig .scVector .vmem S128x128 .f32 := Memref.whole cc0_scratch1
abbrev sl1 : Memref sig .scVector .vmem S128x128 .f32 := Memref.whole cc0_scratch2
abbrev sl2 : Memref sig .scVector .vmem S128x128 .f32 := Memref.whole cc0_scratch3
abbrev sl3 : Memref sig .scVector .vmem S128x128 .f32 := Memref.whole cc0_scratch4
abbrev cfS : Memref sig .scVector .vmem S2x16 .f32 := Memref.whole cc0_scratch5

section Tile

variable (d : Dev nD) (L : grid0.Coords)

/-- The tile's cell of DMA semaphore k. -/
abbrev cellOf (k : DmaSem sig) : GSem nD τ sig := (V d (cV L) (jV L), .dma k)

theorem cellOf_ne {k k' : DmaSem sig} (h : k ≠ k') : cellOf d L k ≠ cellOf d L k' :=
  fun e => h (SemLoc.dma.inj (Prod.mk.inj e).2)

/-- The tile's ten DMA semaphores, all at zero, and the rest of what it owns of semaphores. -/
theorem ownSems0_V :
    (ownSems0 (V d (cV L) (jV L)) : sProp 𝕄)
      = iprop(semVal ((V d (cV L) (jV L), SemLoc.dma cc0_scratch6.sem) : GSem nD τ sig) 0 ∗ semVal ((V d (cV L) (jV L), SemLoc.dma cc0_scratch7.sem) : GSem nD τ sig) 0 ∗ semVal ((V d (cV L) (jV L), SemLoc.dma cc0_scratch8.sem) : GSem nD τ sig) 0 ∗ semVal ((V d (cV L) (jV L), SemLoc.dma cc0_scratch9.sem) : GSem nD τ sig) 0 ∗ semVal ((V d (cV L) (jV L), SemLoc.dma cc0_scratch10.sem) : GSem nD τ sig) 0 ∗ semVal ((V d (cV L) (jV L), SemLoc.dma cc0_scratch11.sem) : GSem nD τ sig) 0 ∗ semVal ((V d (cV L) (jV L), SemLoc.dma cc0_scratch12.sem) : GSem nD τ sig) 0 ∗ semVal ((V d (cV L) (jV L), SemLoc.dma cc0_scratch13.sem) : GSem nD τ sig) 0 ∗ semVal ((V d (cV L) (jV L), SemLoc.dma cc0_scoped0.sem) : GSem nD τ sig) 0 ∗ semVal ((V d (cV L) (jV L), SemLoc.dma cc0_scoped1.sem) : GSem nD τ sig) 0
          ∗ bigSep (((((((((((ownCells (V d (cV L) (jV L))).erase (cellOf d L cc0_scratch6.sem)).erase (cellOf d L cc0_scratch7.sem)).erase (cellOf d L cc0_scratch8.sem)).erase (cellOf d L cc0_scratch9.sem)).erase (cellOf d L cc0_scratch10.sem)).erase (cellOf d L cc0_scratch11.sem)).erase (cellOf d L cc0_scratch12.sem)).erase (cellOf d L cc0_scratch13.sem)).erase (cellOf d L cc0_scoped0.sem)).erase (cellOf d L cc0_scoped1.sem)) fun g => semVal g 0) := by
  unfold SparseCore.Cfg.ownSems0
  rw [SparseCore.bigSep_erase' ((mem_ownCells (g := cellOf d L cc0_scratch6.sem)).mpr ⟨rfl, by show (SemLoc.dma cc0_scratch6.sem : SemLoc sig).isScoped .scVector = true; decide⟩),
    SparseCore.bigSep_erase' (Finset.mem_erase.mpr ⟨cellOf_ne d L (by decide : (cc0_scratch7.sem : DmaSem sig) ≠ cc0_scratch6.sem), (mem_ownCells (g := cellOf d L cc0_scratch7.sem)).mpr ⟨rfl, by show (SemLoc.dma cc0_scratch7.sem : SemLoc sig).isScoped .scVector = true; decide⟩⟩),
    SparseCore.bigSep_erase' (Finset.mem_erase.mpr ⟨cellOf_ne d L (by decide : (cc0_scratch8.sem : DmaSem sig) ≠ cc0_scratch7.sem), Finset.mem_erase.mpr ⟨cellOf_ne d L (by decide : (cc0_scratch8.sem : DmaSem sig) ≠ cc0_scratch6.sem), (mem_ownCells (g := cellOf d L cc0_scratch8.sem)).mpr ⟨rfl, by show (SemLoc.dma cc0_scratch8.sem : SemLoc sig).isScoped .scVector = true; decide⟩⟩⟩),
    SparseCore.bigSep_erase' (Finset.mem_erase.mpr ⟨cellOf_ne d L (by decide : (cc0_scratch9.sem : DmaSem sig) ≠ cc0_scratch8.sem), Finset.mem_erase.mpr ⟨cellOf_ne d L (by decide : (cc0_scratch9.sem : DmaSem sig) ≠ cc0_scratch7.sem), Finset.mem_erase.mpr ⟨cellOf_ne d L (by decide : (cc0_scratch9.sem : DmaSem sig) ≠ cc0_scratch6.sem), (mem_ownCells (g := cellOf d L cc0_scratch9.sem)).mpr ⟨rfl, by show (SemLoc.dma cc0_scratch9.sem : SemLoc sig).isScoped .scVector = true; decide⟩⟩⟩⟩),
    SparseCore.bigSep_erase' (Finset.mem_erase.mpr ⟨cellOf_ne d L (by decide : (cc0_scratch10.sem : DmaSem sig) ≠ cc0_scratch9.sem), Finset.mem_erase.mpr ⟨cellOf_ne d L (by decide : (cc0_scratch10.sem : DmaSem sig) ≠ cc0_scratch8.sem), Finset.mem_erase.mpr ⟨cellOf_ne d L (by decide : (cc0_scratch10.sem : DmaSem sig) ≠ cc0_scratch7.sem), Finset.mem_erase.mpr ⟨cellOf_ne d L (by decide : (cc0_scratch10.sem : DmaSem sig) ≠ cc0_scratch6.sem), (mem_ownCells (g := cellOf d L cc0_scratch10.sem)).mpr ⟨rfl, by show (SemLoc.dma cc0_scratch10.sem : SemLoc sig).isScoped .scVector = true; decide⟩⟩⟩⟩⟩),
    SparseCore.bigSep_erase' (Finset.mem_erase.mpr ⟨cellOf_ne d L (by decide : (cc0_scratch11.sem : DmaSem sig) ≠ cc0_scratch10.sem), Finset.mem_erase.mpr ⟨cellOf_ne d L (by decide : (cc0_scratch11.sem : DmaSem sig) ≠ cc0_scratch9.sem), Finset.mem_erase.mpr ⟨cellOf_ne d L (by decide : (cc0_scratch11.sem : DmaSem sig) ≠ cc0_scratch8.sem), Finset.mem_erase.mpr ⟨cellOf_ne d L (by decide : (cc0_scratch11.sem : DmaSem sig) ≠ cc0_scratch7.sem), Finset.mem_erase.mpr ⟨cellOf_ne d L (by decide : (cc0_scratch11.sem : DmaSem sig) ≠ cc0_scratch6.sem), (mem_ownCells (g := cellOf d L cc0_scratch11.sem)).mpr ⟨rfl, by show (SemLoc.dma cc0_scratch11.sem : SemLoc sig).isScoped .scVector = true; decide⟩⟩⟩⟩⟩⟩),
    SparseCore.bigSep_erase' (Finset.mem_erase.mpr ⟨cellOf_ne d L (by decide : (cc0_scratch12.sem : DmaSem sig) ≠ cc0_scratch11.sem), Finset.mem_erase.mpr ⟨cellOf_ne d L (by decide : (cc0_scratch12.sem : DmaSem sig) ≠ cc0_scratch10.sem), Finset.mem_erase.mpr ⟨cellOf_ne d L (by decide : (cc0_scratch12.sem : DmaSem sig) ≠ cc0_scratch9.sem), Finset.mem_erase.mpr ⟨cellOf_ne d L (by decide : (cc0_scratch12.sem : DmaSem sig) ≠ cc0_scratch8.sem), Finset.mem_erase.mpr ⟨cellOf_ne d L (by decide : (cc0_scratch12.sem : DmaSem sig) ≠ cc0_scratch7.sem), Finset.mem_erase.mpr ⟨cellOf_ne d L (by decide : (cc0_scratch12.sem : DmaSem sig) ≠ cc0_scratch6.sem), (mem_ownCells (g := cellOf d L cc0_scratch12.sem)).mpr ⟨rfl, by show (SemLoc.dma cc0_scratch12.sem : SemLoc sig).isScoped .scVector = true; decide⟩⟩⟩⟩⟩⟩⟩),
    SparseCore.bigSep_erase' (Finset.mem_erase.mpr ⟨cellOf_ne d L (by decide : (cc0_scratch13.sem : DmaSem sig) ≠ cc0_scratch12.sem), Finset.mem_erase.mpr ⟨cellOf_ne d L (by decide : (cc0_scratch13.sem : DmaSem sig) ≠ cc0_scratch11.sem), Finset.mem_erase.mpr ⟨cellOf_ne d L (by decide : (cc0_scratch13.sem : DmaSem sig) ≠ cc0_scratch10.sem), Finset.mem_erase.mpr ⟨cellOf_ne d L (by decide : (cc0_scratch13.sem : DmaSem sig) ≠ cc0_scratch9.sem), Finset.mem_erase.mpr ⟨cellOf_ne d L (by decide : (cc0_scratch13.sem : DmaSem sig) ≠ cc0_scratch8.sem), Finset.mem_erase.mpr ⟨cellOf_ne d L (by decide : (cc0_scratch13.sem : DmaSem sig) ≠ cc0_scratch7.sem), Finset.mem_erase.mpr ⟨cellOf_ne d L (by decide : (cc0_scratch13.sem : DmaSem sig) ≠ cc0_scratch6.sem), (mem_ownCells (g := cellOf d L cc0_scratch13.sem)).mpr ⟨rfl, by show (SemLoc.dma cc0_scratch13.sem : SemLoc sig).isScoped .scVector = true; decide⟩⟩⟩⟩⟩⟩⟩⟩),
    SparseCore.bigSep_erase' (Finset.mem_erase.mpr ⟨cellOf_ne d L (by decide : (cc0_scoped0.sem : DmaSem sig) ≠ cc0_scratch13.sem), Finset.mem_erase.mpr ⟨cellOf_ne d L (by decide : (cc0_scoped0.sem : DmaSem sig) ≠ cc0_scratch12.sem), Finset.mem_erase.mpr ⟨cellOf_ne d L (by decide : (cc0_scoped0.sem : DmaSem sig) ≠ cc0_scratch11.sem), Finset.mem_erase.mpr ⟨cellOf_ne d L (by decide : (cc0_scoped0.sem : DmaSem sig) ≠ cc0_scratch10.sem), Finset.mem_erase.mpr ⟨cellOf_ne d L (by decide : (cc0_scoped0.sem : DmaSem sig) ≠ cc0_scratch9.sem), Finset.mem_erase.mpr ⟨cellOf_ne d L (by decide : (cc0_scoped0.sem : DmaSem sig) ≠ cc0_scratch8.sem), Finset.mem_erase.mpr ⟨cellOf_ne d L (by decide : (cc0_scoped0.sem : DmaSem sig) ≠ cc0_scratch7.sem), Finset.mem_erase.mpr ⟨cellOf_ne d L (by decide : (cc0_scoped0.sem : DmaSem sig) ≠ cc0_scratch6.sem), (mem_ownCells (g := cellOf d L cc0_scoped0.sem)).mpr ⟨rfl, by show (SemLoc.dma cc0_scoped0.sem : SemLoc sig).isScoped .scVector = true; decide⟩⟩⟩⟩⟩⟩⟩⟩⟩),
    SparseCore.bigSep_erase' (Finset.mem_erase.mpr ⟨cellOf_ne d L (by decide : (cc0_scoped1.sem : DmaSem sig) ≠ cc0_scoped0.sem), Finset.mem_erase.mpr ⟨cellOf_ne d L (by decide : (cc0_scoped1.sem : DmaSem sig) ≠ cc0_scratch13.sem), Finset.mem_erase.mpr ⟨cellOf_ne d L (by decide : (cc0_scoped1.sem : DmaSem sig) ≠ cc0_scratch12.sem), Finset.mem_erase.mpr ⟨cellOf_ne d L (by decide : (cc0_scoped1.sem : DmaSem sig) ≠ cc0_scratch11.sem), Finset.mem_erase.mpr ⟨cellOf_ne d L (by decide : (cc0_scoped1.sem : DmaSem sig) ≠ cc0_scratch10.sem), Finset.mem_erase.mpr ⟨cellOf_ne d L (by decide : (cc0_scoped1.sem : DmaSem sig) ≠ cc0_scratch9.sem), Finset.mem_erase.mpr ⟨cellOf_ne d L (by decide : (cc0_scoped1.sem : DmaSem sig) ≠ cc0_scratch8.sem), Finset.mem_erase.mpr ⟨cellOf_ne d L (by decide : (cc0_scoped1.sem : DmaSem sig) ≠ cc0_scratch7.sem), Finset.mem_erase.mpr ⟨cellOf_ne d L (by decide : (cc0_scoped1.sem : DmaSem sig) ≠ cc0_scratch6.sem), (mem_ownCells (g := cellOf d L cc0_scoped1.sem)).mpr ⟨rfl, by show (SemLoc.dma cc0_scoped1.sem : SemLoc sig).isScoped .scVector = true; decide⟩⟩⟩⟩⟩⟩⟩⟩⟩⟩)]

/-- The tile's six scratch buffers, at some contents, and the rest of what it owns of buffers. -/
theorem ownBufs_V :
    (ownBufs (V d (cV L) (jV L)) : sProp 𝕄)
      = iprop((∃ f, (tkS).view.loc (V d (cV L) (jV L)) ↦{fullShare} f) ∗ (∃ f, (sl0).view.loc (V d (cV L) (jV L)) ↦{fullShare} f) ∗ (∃ f, (sl1).view.loc (V d (cV L) (jV L)) ↦{fullShare} f) ∗ (∃ f, (sl2).view.loc (V d (cV L) (jV L)) ↦{fullShare} f) ∗ (∃ f, (sl3).view.loc (V d (cV L) (jV L)) ↦{fullShare} f) ∗ (∃ f, (cfS).view.loc (V d (cV L) (jV L)) ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc0_scratch0) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩)]

end Tile

end Cert.Proof.KI

end
-- ==== Proof.TileGeom.lean ====
/-
  The tile's geometry: which part of the flat token list and which rows of the result array belong to the tile at
  grid coordinates L, and where inside those rows each 64-row chunk lies.

  The tile with worker number w = 2·(L 1) + (L 0) owns tokens [25600·w, 25600·(w + 1)), that is, from
  51200·(L 1) + 25600·(L 0), and result rows [12800·w, 12800·(w + 1)), that is, from 25600·(L 1) + 12800·(L 0).
  Chunk (k, r) of its rows — outer trip k, slot r — is the 64 rows from 256·k + 64·r on.
-/
import proofs.«205127_g70231305225025_cont_9to1c4b_198_32_alg».proof.Proof.Tile0

noncomputable section

namespace Cert.Proof.KI

open Cert.KernelIdeal Cert.KernelIdeal.Gen

open Idealize.ShloMosaic

/-! ## The tile's tokens -/

/-- The tile's slice of the flat token list, as its body takes it. -/
abbrev flSl (L : grid0.Coords) : Memref sig .scVector .hbm S25600 .i32 :=
  flV.slice (Rect.unit (s := S819200) (k0_off1 L) S25600.size (k0_off1_inb L)) (fun _ => rfl)

/-- The slice's rectangle is the worker's part of the token list: 51200·(L 1) + 25600·(L 0) = 25600·w. -/
theorem flK_eq (L : grid0.Coords) :
    Rect.unit (s := S819200) (k0_off1 L) S25600.size (k0_off1_inb L) = flRect (wL L) := by
  unfold flRect Rect.part Rect.block
  congr 1 <;> funext a
  · rw [k0_off1_eq]
    match a with
    | ⟨0, _⟩ =>
      show 51200 * (L 1).val + 25600 * (L 0).val = (2 * (L 1).val + (L 0).val) * 25600
      omega
  · match a with
    | ⟨0, _⟩ => rfl

/-- The slice covers exactly the worker's tokens. -/
theorem set_flSl (L : grid0.Coords) : (flSl L).view.set = flSet (wL L) := by
  show ((flV : Memref sig .scVector .hbm S819200 .i32).view.slice
      (Rect.unit (s := S819200) (k0_off1 L) S25600.size (k0_off1_inb L))).set
    = ((View.whole (main_v0_scv : Ref sig .scVector)).slice (flRect (wL L))).set
  exact flK_eq L ▸ rfl

/-! ## The tile's result rows -/

theorem ouR_inb (L : grid0.Coords) :
    ∀ a, (![25600 * (L 1).val + 12800 * (L 0).val, 0] : Fin 2 → Nat) a + (![12800, 128] : Fin 2 → Nat) a
      ≤ S409600x128.size a := by
  have h0 : (L 0).val < 2 := (L 0).isLt
  have h1 : (L 1).val < 16 := (L 1).isLt
  intro a
  match a with
  | ⟨0, _⟩ =>
    show 25600 * (L 1).val + 12800 * (L 0).val + 12800 ≤ 409600
    omega
  | ⟨1, _⟩ => exact Nat.le_refl 128

/-- The tile's result rows as one rectangle: 12800 whole rows from 25600·(L 1) + 12800·(L 0). -/
abbrev ouR (L : grid0.Coords) : Rect S409600x128 :=
  Rect.unit (s := S409600x128) ![25600 * (L 1).val + 12800 * (L 0).val, 0] ![12800, 128] (ouR_inb L)

/-- It is the worker's part of the result array: 25600·(L 1) + 12800·(L 0) = 12800·w. -/
theorem ouR_eq (L : grid0.Coords) : ouR L = ouRect (wL L) := by
  unfold ouR ouRect Rect.part Rect.block
  congr 1 <;> funext a
  · match a with
    | ⟨0, _⟩ =>
      show 25600 * (L 1).val + 12800 * (L 0).val = (2 * (L 1).val + (L 0).val) * 12800
      omega
    | ⟨1, _⟩ => rfl
  · match a with
    | ⟨0, _⟩ => rfl
    | ⟨1, _⟩ => rfl

/-- The elements of the result array under that rectangle are exactly the worker's. -/
theorem setOn_ouR (L : grid0.Coords) : (ouV).view.setOn (ouR L).set = ouSet (wL L) := by
  rw [ouR_eq]
  exact (View.set_slice _ _).symm

/-! ## Rows by their number, and the 64-row chunks -/

/-- An index lies in the tile's rows exactly when its row number does. -/
theorem mem_ouR_iff (L : grid0.Coords) (j : S409600x128.Idx) :
    j ∈ (ouR L).set ↔ 25600 * (L 1).val + 12800 * (L 0).val ≤ (j 0).val
      ∧ (j 0).val < 25600 * (L 1).val + 12800 * (L 0).val + 12800 := by
  have h1 : (j 1).val < 128 := (j 1).isLt
  refine Rect.mem_set_unit.trans ?_
  rw [Fin.forall_fin_two]
  show (25600 * (L 1).val + 12800 * (L 0).val ≤ (j 0).val
      ∧ (j 0).val < 25600 * (L 1).val + 12800 * (L 0).val + 12800) ∧ (0 ≤ (j 1).val ∧ (j 1).val < 0 + 128) ↔ _
  exact ⟨fun h => h.1, fun h => ⟨h, Nat.zero_le _, by omega⟩⟩

theorem chR_inb (L : grid0.Coords) (k r : ℕ) (h : 256 * k + 64 * r + 64 ≤ 12800) :
    ∀ a, (![25600 * (L 1).val + 12800 * (L 0).val + 256 * k + 64 * r, 0] : Fin 2 → Nat) a
      + (![64, 128] : Fin 2 → Nat) a ≤ S409600x128.size a := by
  have h0 : (L 0).val < 2 := (L 0).isLt
  have h1 : (L 1).val < 16 := (L 1).isLt
  intro a
  match a with
  | ⟨0, _⟩ =>
    show 25600 * (L 1).val + 12800 * (L 0).val + 256 * k + 64 * r + 64 ≤ 409600
    omega
  | ⟨1, _⟩ => exact Nat.le_refl 128

/-- Chunk (k, r) of the tile's rows: 64 whole rows from 256·k + 64·r on, inside the tile's 12800. -/
abbrev chR (L : grid0.Coords) (k r : ℕ) (h : 256 * k + 64 * r + 64 ≤ 12800) : Rect S409600x128 :=
  Rect.unit (s := S409600x128) ![25600 * (L 1).val + 12800 * (L 0).val + 256 * k + 64 * r, 0] ![64, 128]
    (chR_inb L k r h)

/-- An index lies in chunk (k, r) exactly when its row number does. -/
theorem mem_chR_iff (L : grid0.Coords) (k r : ℕ) (h : 256 * k + 64 * r + 64 ≤ 12800) (j : S409600x128.Idx) :
    j ∈ (chR L k r h).set ↔ 25600 * (L 1).val + 12800 * (L 0).val + 256 * k + 64 * r ≤ (j 0).val
      ∧ (j 0).val < 25600 * (L 1).val + 12800 * (L 0).val + 256 * k + 64 * r + 64 := by
  have h1 : (j 1).val < 128 := (j 1).isLt
  refine Rect.mem_set_unit.trans ?_
  rw [Fin.forall_fin_two]
  show (25600 * (L 1).val + 12800 * (L 0).val + 256 * k + 64 * r ≤ (j 0).val
      ∧ (j 0).val < 25600 * (L 1).val + 12800 * (L 0).val + 256 * k + 64 * r + 64)
      ∧ (0 ≤ (j 1).val ∧ (j 1).val < 0 + 128) ↔ _
  exact ⟨fun h => h.1, fun h => ⟨h, Nat.zero_le _, by omega⟩⟩

/-- Every chunk lies inside the tile's rows. -/
theorem chR_subset (L : grid0.Coords) (k r : ℕ) (h : 256 * k + 64 * r + 64 ≤ 12800) :
    (chR L k r h).set ⊆ (ouR L).set := fun j hj =>
  (mem_ouR_iff L j).2 (by have := (mem_chR_iff L k r h j).1 hj; omega)

/-- Two chunks at different places are disjoint: chunk numbers 4·k + r apart means row ranges apart. -/
theorem chR_disjoint (L : grid0.Coords) (k r k' r' : ℕ) (h : 256 * k + 64 * r + 64 ≤ 12800)
    (h' : 256 * k' + 64 * r' + 64 ≤ 12800) (hne : 4 * k + r ≠ 4 * k' + r') :
    Disjoint (chR L k r h).set (chR L k' r' h').set :=
  Finset.disjoint_left.mpr fun j hj hj' => by
    have := (mem_chR_iff L k r h j).1 hj
    have := (mem_chR_iff L k' r' h' j).1 hj'
    omega

/-- Outer trip k (below 50) and slot r (below 4) name a chunk inside the tile's rows. -/
theorem chR_bound {k r : ℕ} (hk : k < 50) (hr : r < 4) : 256 * k + 64 * r + 64 ≤ 12800 := by omega

/-- The rectangle the body's write-out of slot r in trip k goes through is chunk (k, r). -/
theorem chK_eq (L : grid0.Coords) (k : Fin k0_t1_loop.trips) (r : Fin 4)
    (h : 256 * k.val + 64 * r.val + 64 ≤ 12800) :
    Rect.unit (s := S409600x128) (k0_off27 L k (BitVec.ofNat 32 r.val)) S64x128.size (k0_off27_inb L k r)
      = chR L k.val r.val h := by
  unfold chR
  congr 1
  exact k0_off27_eq L k r

end Cert.Proof.KI

end
-- ==== Proof.TileShares.lean ====
import proofs.«205127_g70231305225025_cont_9to1c4b_198_32_alg».proof.Proof.TileGeom

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Read tokens: one points-to as a remainder and four tokens, numbered by the gather semaphores 0..3 -/

section Shares

open Transfers (shareDrop shareTokN)

theorem pts_halves {ℓ : Loc nD τ sig} (I : Finset (Idx ℓ)) (f : Buf (Elt F) ℓ) (q : PosShare TreeShare) :
    (ℓ ↦[I]{q} f : sProp 𝕄) = iprop((ℓ ↦[I]{q.left} f) ∗ (ℓ ↦[I]{q.right} f)) :=
  BI.Entails.antisymm (pointsTo_share (PosShare.mem_left_op_right q)).1 (pointsTo_share (PosShare.mem_left_op_right q)).2

/-- One points-to at share q is the remainder after four tokens, and the four tokens. -/
theorem pts_toks4 {ℓ : Loc nD τ sig} (I : Finset (Idx ℓ)) (f : Buf (Elt F) ℓ) (q : PosShare TreeShare) :
    (ℓ ↦[I]{q} f : sProp 𝕄)
      = iprop((ℓ ↦[I]{shareDrop q 4} f) ∗ (ℓ ↦[I]{shareTokN q 0} f) ∗ (ℓ ↦[I]{shareTokN q 1} f)
          ∗ (ℓ ↦[I]{shareTokN q 2} f) ∗ (ℓ ↦[I]{shareTokN q 3} f)) := by
  have e0 : (ℓ ↦[I]{q} f : sProp 𝕄) = iprop((ℓ ↦[I]{shareDrop q 1} f) ∗ (ℓ ↦[I]{shareTokN q 0} f)) := pts_halves I f q
  have e1 : (ℓ ↦[I]{shareDrop q 1} f : sProp 𝕄) = iprop((ℓ ↦[I]{shareDrop q 2} f) ∗ (ℓ ↦[I]{shareTokN q 1} f)) := pts_halves I f _
  have e2 : (ℓ ↦[I]{shareDrop q 2} f : sProp 𝕄) = iprop((ℓ ↦[I]{shareDrop q 3} f) ∗ (ℓ ↦[I]{shareTokN q 2} f)) := pts_halves I f _
  have e3 : (ℓ ↦[I]{shareDrop q 3} f : sProp 𝕄) = iprop((ℓ ↦[I]{shareDrop q 4} f) ∗ (ℓ ↦[I]{shareTokN q 3} f)) := pts_halves I f _
  rw [e0, e1, e2, e3]
  have h1 : (iprop(((((ℓ ↦[I]{shareDrop q 4} f) ∗ ℓ ↦[I]{shareTokN q 3} f) ∗ ℓ ↦[I]{shareTokN q 2} f) ∗ ℓ ↦[I]{shareTokN q 1} f)
        ∗ ℓ ↦[I]{shareTokN q 0} f) : sProp 𝕄)
      ⊢ iprop((ℓ ↦[I]{shareDrop q 4} f) ∗ (ℓ ↦[I]{shareTokN q 0} f) ∗ (ℓ ↦[I]{shareTokN q 1} f)
          ∗ (ℓ ↦[I]{shareTokN q 2} f) ∗ (ℓ ↦[I]{shareTokN q 3} f)) := by
    iintro ⟨⟨⟨⟨Hd, H3⟩, H2⟩, H1⟩, H0⟩
    isplitl [Hd]; · iexact Hd
    isplitl [H0]; · iexact H0
    isplitl [H1]; · iexact H1
    isplitl [H2]; · iexact H2
    iexact H3
  have h2 : (iprop((ℓ ↦[I]{shareDrop q 4} f) ∗ (ℓ ↦[I]{shareTokN q 0} f) ∗ (ℓ ↦[I]{shareTokN q 1} f)
          ∗ (ℓ ↦[I]{shareTokN q 2} f) ∗ (ℓ ↦[I]{shareTokN q 3} f)) : sProp 𝕄)
      ⊢ iprop(((((ℓ ↦[I]{shareDrop q 4} f) ∗ ℓ ↦[I]{shareTokN q 3} f) ∗ ℓ ↦[I]{shareTokN q 2} f) ∗ ℓ ↦[I]{shareTokN q 1} f)
        ∗ ℓ ↦[I]{shareTokN q 0} f) := by
    iintro ⟨Hd, H0, H1, H2, H3⟩
    isplitr [H0]; swap; · iexact H0
    isplitr [H1]; swap; · iexact H1
    isplitr [H2]; swap; · iexact H2
    isplitl [Hd]; · iexact Hd
    iexact H3
  exact BI.Entails.antisymm h1 h2

end Shares

/-! ## The token scratch after the fetch: every word names a row of the pair table -/

section Tok

variable [FloatOps F]
variable (fl : (d : Dev nD) → Buf (Elt F) (flLoc d)) (d : Dev nD) (L : grid0.Coords)

/-- Whatever window of the token scratch a gather reads, and whatever the scratch held before the fetch, the words it
    reads are words of the flat token list, each below 1000000. -/
theorem tok_inb (hin : InRange fl) (r : Rect S25600) (hr : ∀ a, r.stride a = 1)
    (g : Buf (Elt F) ((tkS).view.loc (V d (cV L) (jV L)))) :
    ∀ x : r.shape.Idx,
      (View.read (Elt F) ((tkS).slice r hr).view
        (View.write (Elt F) (tkS).view g (ReadAs.same.apply (View.read (Elt F) (flSl L).view (fl d))) Finset.univ) x).toNat < 1000000 := by
  intro x
  have hw : View.write (Elt F) (tkS).view g (ReadAs.same.apply (View.read (Elt F) (flSl L).view (fl d))) Finset.univ
      = ReadAs.same.apply (View.read (Elt F) (flSl L).view (fl d)) := View.write_whole_univ _ _ _
  rw [hw]
  have hrd : ∀ (w : S25600.Idx → Elt F .i32), View.read (Elt F) ((tkS).slice r hr).view w x = w (((tkS).slice r hr).view.emb x) :=
    fun w => (View.read_apply _ _).trans (cast_eq _ _)
  rw [hrd]
  show (View.read (Elt F) (flSl L).view (fl d) _).toNat < 1000000
  rw [show ∀ j, View.read (Elt F) (flSl L).view (fl d) j = fl d ((flSl L).view.emb j) from fun j => (View.read_apply _ _).trans (cast_eq _ _)]
  exact hin d _

end Tok

end Cert.Proof.KI
end
-- ==== Proof.Merge.lean ====
/-
  What the in-place merge leaves in a slot.

  A slot is a 128 × 128 block R whose row ρ holds the pair-table row of the chunk's token ρ: columns 0..63 the first
  table's row, columns 64..127 the second's. The merge overwrites row r (r < 64) with the merged embeddings of tokens
  2r (columns 0..63) and 2r + 1 (columns 64..127): at column q, with token row ρ = 2r + q / 64 and component e = q mod 64,

      c0[q mod 16] · R[ρ, e]  +  c1[q mod 16] · R[ρ, 64 + e],

  where c0 and c1 are the two coefficient rows (16 lanes each). Rows 64..127 keep what they held. Row r is written
  after rows 2r and 2r + 1 are read, and 2r ≥ r, so every read sees R.
-/
import proofs.«205127_g70231305225025_cont_9to1c4b_198_32_alg».proof.KernelIdeal
import Idealize.ShloMosaic.Lib.ValueIdx

noncomputable section

open Idealize.ShloMosaic Idealize.ShloMosaic.ValueIdx

namespace Cert.Proof.KI

open Cert.KernelIdeal

variable {F : FTy → Type} [FloatOps F]

/-- Row r of the merged block at column q. -/
def mrow (c0 c1 : FVec F S16 .f32) (R : S128x128.Idx → F .f32) (r : Fin 64) (q : Fin 128) : F .f32 :=
  FloatOps.addf
    (FloatOps.mulf (c0 (ix1 ⟨q.val % 16, Nat.mod_lt _ (by decide)⟩))
      (R (ix2 ⟨2 * r.val + q.val / 64, by have := r.isLt; have := q.isLt; omega⟩ ⟨q.val % 64, by have := Nat.mod_lt q.val (show 0 < 64 by decide); omega⟩)))
    (FloatOps.mulf (c1 (ix1 ⟨q.val % 16, Nat.mod_lt _ (by decide)⟩))
      (R (ix2 ⟨2 * r.val + q.val / 64, by have := r.isLt; have := q.isLt; omega⟩ ⟨64 + q.val % 64, by have := Nat.mod_lt q.val (show 0 < 64 by decide); omega⟩)))

/-- The block after the first n rows have been merged (n ≤ 64): rows below n merged, the others as R has them. -/
def mergedUpTo (c0 c1 : FVec F S16 .f32) (R : S128x128.Idx → F .f32) (n : ℕ) : S128x128.Idx → F .f32 :=
  fun j => if h : (j 0).val < n ∧ (j 0).val < 64 then mrow c0 c1 R ⟨(j 0).val, h.2⟩ (j 1) else R j

/-- The block after the whole merge. -/
def merged (c0 c1 : FVec F S16 .f32) (R : S128x128.Idx → F .f32) : S128x128.Idx → F .f32 := mergedUpTo c0 c1 R 64

theorem mergedUpTo_zero (c0 c1 : FVec F S16 .f32) (R : S128x128.Idx → F .f32) : mergedUpTo c0 c1 R 0 = R := by
  funext j; unfold mergedUpTo; rw [dif_neg]; exact fun h => Nat.not_lt_zero _ h.1

theorem merged_apply_lt (c0 c1 : FVec F S16 .f32) (R : S128x128.Idx → F .f32) (r : Fin 64) (q : Fin 128) :
    merged c0 c1 R (ix2 ⟨r.val, by have := r.isLt; omega⟩ q) = mrow c0 c1 R r q := by
  unfold merged mergedUpTo
  rw [dif_pos ⟨r.isLt, r.isLt⟩]

end Cert.Proof.KI

end
-- ==== Proof.TileInv.lean ====
import proofs.«205127_g70231305225025_cont_9to1c4b_198_32_alg».proof.Proof.TileShares
import proofs.«205127_g70231305225025_cont_9to1c4b_198_32_alg».proof.Proof.Merge

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Inv
variable [FloatOps F]
variable (pr : (d : Dev nD) → Buf (Elt F) (prLoc d)) (fl : (d : Dev nD) → Buf (Elt F) (flLoc d))
  (cb : (d : Dev nD) → Buf (Elt F) (cbLoc d)) (o₀ : (d : Dev nD) → Buf (Elt F) (ouLoc d))
variable (d : Dev nD) (L : grid0.Coords)

/-- Slot 0's gather of the chunk of outer trip k in flight: the landing delivers the slot written whole with the chunk's
    pair-table rows, and gives back the token window and the pair table's read token it borrowed; beside it, what those
    loans left behind. -/
def GFly0 (f0 : Buf (Elt F) ((tkS).view.loc (V d (cV L) (jV L)))) (k : ℕ) : sProp 𝕄 :=
  iprop(∃ (fp : Buf (Elt F) ((sl0).view.loc (V d (cV L) (jV L)))) (r : Rect S25600) (hr : ∀ a, r.stride a = 1)
      (hn : r.shape.numel = S128x128.size gathers_S1000000x128_S128x128.axis')
      (hin' : ∀ x, (View.read (Elt F) ((tkS).slice r hr).view (View.write (Elt F) (tkS).view f0 (ReadAs.same.apply (View.read (Elt F) (flSl L).view (fl d))) Finset.univ) x).toNat < S1000000x128.size gathers_S1000000x128_S128x128.axis),
    ⌜∃ inb, r = Rect.unit (s := S25600) ![512 * k + 128 * 0] S128.size inb⌝
    ∗ Transfers.Flight countersEmb (V d (cV L) (jV L)) (SemLoc.dma (SemArray.sem cc0_scratch6)) (default : HIx 1) 524288
        iprop((((sl0).view.loc (V d (cV L) (jV L)) ↦[(sl0).view.set]{fullShare} ((sl0).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
            ∗ ((tkS).view.loc (V d (cV L) (jV L)) ↦[((tkS).slice r hr).view.set]{Transfers.shareDrop fullShare 4} (View.write (Elt F) (tkS).view f0 (ReadAs.same.apply (View.read (Elt F) (flSl L).view (fl d))) Finset.univ)))
          ∗ ((prV).view.loc (V d (cV L) (jV L)) ↦[((prV).slice (Rect.unit (s := S1000000x128) ![0, 0] S1000000x128.size inb_S1000000x128_S1000000x128_0_0) (fun _ => rfl)).view.set]{Transfers.shareTokN (rq (wL L)) 0} pr d))
    ∗ ((prV).view.loc (V d (cV L) (jV L)) ↦[Finset.univ \ ((prV).slice (Rect.unit (s := S1000000x128) ![0, 0] S1000000x128.size inb_S1000000x128_S1000000x128_0_0) (fun _ => rfl)).view.set]{Transfers.shareTokN (rq (wL L)) 0} pr d)
    ∗ ((sl0).view.loc (V d (cV L) (jV L)) ↦[Finset.univ \ (sl0).view.set]{fullShare} ((sl0).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
    ∗ ((tkS).view.loc (V d (cV L) (jV L)) ↦[Finset.univ \ ((tkS).slice r hr).view.set]{Transfers.shareDrop fullShare 4} (View.write (Elt F) (tkS).view f0 (ReadAs.same.apply (View.read (Elt F) (flSl L).view (fl d))) Finset.univ)))

theorem GFly0_eq (f0 : Buf (Elt F) ((tkS).view.loc (V d (cV L) (jV L)))) (k : ℕ) :
    GFly0 pr fl d L f0 k = iprop(∃ (fp : Buf (Elt F) ((sl0).view.loc (V d (cV L) (jV L)))) (r : Rect S25600) (hr : ∀ a, r.stride a = 1)
      (hn : r.shape.numel = S128x128.size gathers_S1000000x128_S128x128.axis')
      (hin' : ∀ x, (View.read (Elt F) ((tkS).slice r hr).view (View.write (Elt F) (tkS).view f0 (ReadAs.same.apply (View.read (Elt F) (flSl L).view (fl d))) Finset.univ) x).toNat < S1000000x128.size gathers_S1000000x128_S128x128.axis),
    ⌜∃ inb, r = Rect.unit (s := S25600) ![512 * k + 128 * 0] S128.size inb⌝
    ∗ Transfers.Flight countersEmb (V d (cV L) (jV L)) (SemLoc.dma (SemArray.sem cc0_scratch6)) (default : HIx 1) 524288
        iprop((((sl0).view.loc (V d (cV L) (jV L)) ↦[(sl0).view.set]{fullShare} ((sl0).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
            ∗ ((tkS).view.loc (V d (cV L) (jV L)) ↦[((tkS).slice r hr).view.set]{Transfers.shareDrop fullShare 4} (View.write (Elt F) (tkS).view f0 (ReadAs.same.apply (View.read (Elt F) (flSl L).view (fl d))) Finset.univ)))
          ∗ ((prV).view.loc (V d (cV L) (jV L)) ↦[((prV).slice (Rect.unit (s := S1000000x128) ![0, 0] S1000000x128.size inb_S1000000x128_S1000000x128_0_0) (fun _ => rfl)).view.set]{Transfers.shareTokN (rq (wL L)) 0} pr d))
    ∗ ((prV).view.loc (V d (cV L) (jV L)) ↦[Finset.univ \ ((prV).slice (Rect.unit (s := S1000000x128) ![0, 0] S1000000x128.size inb_S1000000x128_S1000000x128_0_0) (fun _ => rfl)).view.set]{Transfers.shareTokN (rq (wL L)) 0} pr d)
    ∗ ((sl0).view.loc (V d (cV L) (jV L)) ↦[Finset.univ \ (sl0).view.set]{fullShare} ((sl0).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
    ∗ ((tkS).view.loc (V d (cV L) (jV L)) ↦[Finset.univ \ ((tkS).slice r hr).view.set]{Transfers.shareDrop fullShare 4} (View.write (Elt F) (tkS).view f0 (ReadAs.same.apply (View.read (Elt F) (flSl L).view (fl d))) Finset.univ))) := rfl

/-- Slot 1's gather of the chunk of outer trip k in flight: the landing delivers the slot written whole with the chunk's
    pair-table rows, and gives back the token window and the pair table's read token it borrowed; beside it, what those
    loans left behind. -/
def GFly1 (f0 : Buf (Elt F) ((tkS).view.loc (V d (cV L) (jV L)))) (k : ℕ) : sProp 𝕄 :=
  iprop(∃ (fp : Buf (Elt F) ((sl1).view.loc (V d (cV L) (jV L)))) (r : Rect S25600) (hr : ∀ a, r.stride a = 1)
      (hn : r.shape.numel = S128x128.size gathers_S1000000x128_S128x128.axis')
      (hin' : ∀ x, (View.read (Elt F) ((tkS).slice r hr).view (View.write (Elt F) (tkS).view f0 (ReadAs.same.apply (View.read (Elt F) (flSl L).view (fl d))) Finset.univ) x).toNat < S1000000x128.size gathers_S1000000x128_S128x128.axis),
    ⌜∃ inb, r = Rect.unit (s := S25600) ![512 * k + 128 * 1] S128.size inb⌝
    ∗ Transfers.Flight countersEmb (V d (cV L) (jV L)) (SemLoc.dma (SemArray.sem cc0_scratch7)) (default : HIx 1) 524288
        iprop((((sl1).view.loc (V d (cV L) (jV L)) ↦[(sl1).view.set]{fullShare} ((sl1).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
            ∗ ((tkS).view.loc (V d (cV L) (jV L)) ↦[((tkS).slice r hr).view.set]{Transfers.shareTokN fullShare 0} (View.write (Elt F) (tkS).view f0 (ReadAs.same.apply (View.read (Elt F) (flSl L).view (fl d))) Finset.univ)))
          ∗ ((prV).view.loc (V d (cV L) (jV L)) ↦[((prV).slice (Rect.unit (s := S1000000x128) ![0, 0] S1000000x128.size inb_S1000000x128_S1000000x128_0_0) (fun _ => rfl)).view.set]{Transfers.shareTokN (rq (wL L)) 1} pr d))
    ∗ ((prV).view.loc (V d (cV L) (jV L)) ↦[Finset.univ \ ((prV).slice (Rect.unit (s := S1000000x128) ![0, 0] S1000000x128.size inb_S1000000x128_S1000000x128_0_0) (fun _ => rfl)).view.set]{Transfers.shareTokN (rq (wL L)) 1} pr d)
    ∗ ((sl1).view.loc (V d (cV L) (jV L)) ↦[Finset.univ \ (sl1).view.set]{fullShare} ((sl1).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
    ∗ ((tkS).view.loc (V d (cV L) (jV L)) ↦[Finset.univ \ ((tkS).slice r hr).view.set]{Transfers.shareTokN fullShare 0} (View.write (Elt F) (tkS).view f0 (ReadAs.same.apply (View.read (Elt F) (flSl L).view (fl d))) Finset.univ)))

theorem GFly1_eq (f0 : Buf (Elt F) ((tkS).view.loc (V d (cV L) (jV L)))) (k : ℕ) :
    GFly1 pr fl d L f0 k = iprop(∃ (fp : Buf (Elt F) ((sl1).view.loc (V d (cV L) (jV L)))) (r : Rect S25600) (hr : ∀ a, r.stride a = 1)
      (hn : r.shape.numel = S128x128.size gathers_S1000000x128_S128x128.axis')
      (hin' : ∀ x, (View.read (Elt F) ((tkS).slice r hr).view (View.write (Elt F) (tkS).view f0 (ReadAs.same.apply (View.read (Elt F) (flSl L).view (fl d))) Finset.univ) x).toNat < S1000000x128.size gathers_S1000000x128_S128x128.axis),
    ⌜∃ inb, r = Rect.unit (s := S25600) ![512 * k + 128 * 1] S128.size inb⌝
    ∗ Transfers.Flight countersEmb (V d (cV L) (jV L)) (SemLoc.dma (SemArray.sem cc0_scratch7)) (default : HIx 1) 524288
        iprop((((sl1).view.loc (V d (cV L) (jV L)) ↦[(sl1).view.set]{fullShare} ((sl1).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
            ∗ ((tkS).view.loc (V d (cV L) (jV L)) ↦[((tkS).slice r hr).view.set]{Transfers.shareTokN fullShare 0} (View.write (Elt F) (tkS).view f0 (ReadAs.same.apply (View.read (Elt F) (flSl L).view (fl d))) Finset.univ)))
          ∗ ((prV).view.loc (V d (cV L) (jV L)) ↦[((prV).slice (Rect.unit (s := S1000000x128) ![0, 0] S1000000x128.size inb_S1000000x128_S1000000x128_0_0) (fun _ => rfl)).view.set]{Transfers.shareTokN (rq (wL L)) 1} pr d))
    ∗ ((prV).view.loc (V d (cV L) (jV L)) ↦[Finset.univ \ ((prV).slice (Rect.unit (s := S1000000x128) ![0, 0] S1000000x128.size inb_S1000000x128_S1000000x128_0_0) (fun _ => rfl)).view.set]{Transfers.shareTokN (rq (wL L)) 1} pr d)
    ∗ ((sl1).view.loc (V d (cV L) (jV L)) ↦[Finset.univ \ (sl1).view.set]{fullShare} ((sl1).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
    ∗ ((tkS).view.loc (V d (cV L) (jV L)) ↦[Finset.univ \ ((tkS).slice r hr).view.set]{Transfers.shareTokN fullShare 0} (View.write (Elt F) (tkS).view f0 (ReadAs.same.apply (View.read (Elt F) (flSl L).view (fl d))) Finset.univ))) := rfl

/-- Slot 2's gather of the chunk of outer trip k in flight: the landing delivers the slot written whole with the chunk's
    pair-table rows, and gives back the token window and the pair table's read token it borrowed; beside it, what those
    loans left behind. -/
def GFly2 (f0 : Buf (Elt F) ((tkS).view.loc (V d (cV L) (jV L)))) (k : ℕ) : sProp 𝕄 :=
  iprop(∃ (fp : Buf (Elt F) ((sl2).view.loc (V d (cV L) (jV L)))) (r : Rect S25600) (hr : ∀ a, r.stride a = 1)
      (hn : r.shape.numel = S128x128.size gathers_S1000000x128_S128x128.axis')
      (hin' : ∀ x, (View.read (Elt F) ((tkS).slice r hr).view (View.write (Elt F) (tkS).view f0 (ReadAs.same.apply (View.read (Elt F) (flSl L).view (fl d))) Finset.univ) x).toNat < S1000000x128.size gathers_S1000000x128_S128x128.axis),
    ⌜∃ inb, r = Rect.unit (s := S25600) ![512 * k + 128 * 2] S128.size inb⌝
    ∗ Transfers.Flight countersEmb (V d (cV L) (jV L)) (SemLoc.dma (SemArray.sem cc0_scratch8)) (default : HIx 1) 524288
        iprop((((sl2).view.loc (V d (cV L) (jV L)) ↦[(sl2).view.set]{fullShare} ((sl2).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
            ∗ ((tkS).view.loc (V d (cV L) (jV L)) ↦[((tkS).slice r hr).view.set]{Transfers.shareTokN fullShare 1} (View.write (Elt F) (tkS).view f0 (ReadAs.same.apply (View.read (Elt F) (flSl L).view (fl d))) Finset.univ)))
          ∗ ((prV).view.loc (V d (cV L) (jV L)) ↦[((prV).slice (Rect.unit (s := S1000000x128) ![0, 0] S1000000x128.size inb_S1000000x128_S1000000x128_0_0) (fun _ => rfl)).view.set]{Transfers.shareTokN (rq (wL L)) 2} pr d))
    ∗ ((prV).view.loc (V d (cV L) (jV L)) ↦[Finset.univ \ ((prV).slice (Rect.unit (s := S1000000x128) ![0, 0] S1000000x128.size inb_S1000000x128_S1000000x128_0_0) (fun _ => rfl)).view.set]{Transfers.shareTokN (rq (wL L)) 2} pr d)
    ∗ ((sl2).view.loc (V d (cV L) (jV L)) ↦[Finset.univ \ (sl2).view.set]{fullShare} ((sl2).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
    ∗ ((tkS).view.loc (V d (cV L) (jV L)) ↦[Finset.univ \ ((tkS).slice r hr).view.set]{Transfers.shareTokN fullShare 1} (View.write (Elt F) (tkS).view f0 (ReadAs.same.apply (View.read (Elt F) (flSl L).view (fl d))) Finset.univ)))

theorem GFly2_eq (f0 : Buf (Elt F) ((tkS).view.loc (V d (cV L) (jV L)))) (k : ℕ) :
    GFly2 pr fl d L f0 k = iprop(∃ (fp : Buf (Elt F) ((sl2).view.loc (V d (cV L) (jV L)))) (r : Rect S25600) (hr : ∀ a, r.stride a = 1)
      (hn : r.shape.numel = S128x128.size gathers_S1000000x128_S128x128.axis')
      (hin' : ∀ x, (View.read (Elt F) ((tkS).slice r hr).view (View.write (Elt F) (tkS).view f0 (ReadAs.same.apply (View.read (Elt F) (flSl L).view (fl d))) Finset.univ) x).toNat < S1000000x128.size gathers_S1000000x128_S128x128.axis),
    ⌜∃ inb, r = Rect.unit (s := S25600) ![512 * k + 128 * 2] S128.size inb⌝
    ∗ Transfers.Flight countersEmb (V d (cV L) (jV L)) (SemLoc.dma (SemArray.sem cc0_scratch8)) (default : HIx 1) 524288
        iprop((((sl2).view.loc (V d (cV L) (jV L)) ↦[(sl2).view.set]{fullShare} ((sl2).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
            ∗ ((tkS).view.loc (V d (cV L) (jV L)) ↦[((tkS).slice r hr).view.set]{Transfers.shareTokN fullShare 1} (View.write (Elt F) (tkS).view f0 (ReadAs.same.apply (View.read (Elt F) (flSl L).view (fl d))) Finset.univ)))
          ∗ ((prV).view.loc (V d (cV L) (jV L)) ↦[((prV).slice (Rect.unit (s := S1000000x128) ![0, 0] S1000000x128.size inb_S1000000x128_S1000000x128_0_0) (fun _ => rfl)).view.set]{Transfers.shareTokN (rq (wL L)) 2} pr d))
    ∗ ((prV).view.loc (V d (cV L) (jV L)) ↦[Finset.univ \ ((prV).slice (Rect.unit (s := S1000000x128) ![0, 0] S1000000x128.size inb_S1000000x128_S1000000x128_0_0) (fun _ => rfl)).view.set]{Transfers.shareTokN (rq (wL L)) 2} pr d)
    ∗ ((sl2).view.loc (V d (cV L) (jV L)) ↦[Finset.univ \ (sl2).view.set]{fullShare} ((sl2).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
    ∗ ((tkS).view.loc (V d (cV L) (jV L)) ↦[Finset.univ \ ((tkS).slice r hr).view.set]{Transfers.shareTokN fullShare 1} (View.write (Elt F) (tkS).view f0 (ReadAs.same.apply (View.read (Elt F) (flSl L).view (fl d))) Finset.univ))) := rfl

/-- Slot 3's gather of the chunk of outer trip k in flight: the landing delivers the slot written whole with the chunk's
    pair-table rows, and gives back the token window and the pair table's read token it borrowed; beside it, what those
    loans left behind. -/
def GFly3 (f0 : Buf (Elt F) ((tkS).view.loc (V d (cV L) (jV L)))) (k : ℕ) : sProp 𝕄 :=
  iprop(∃ (fp : Buf (Elt F) ((sl3).view.loc (V d (cV L) (jV L)))) (r : Rect S25600) (hr : ∀ a, r.stride a = 1)
      (hn : r.shape.numel = S128x128.size gathers_S1000000x128_S128x128.axis')
      (hin' : ∀ x, (View.read (Elt F) ((tkS).slice r hr).view (View.write (Elt F) (tkS).view f0 (ReadAs.same.apply (View.read (Elt F) (flSl L).view (fl d))) Finset.univ) x).toNat < S1000000x128.size gathers_S1000000x128_S128x128.axis),
    ⌜∃ inb, r = Rect.unit (s := S25600) ![512 * k + 128 * 3] S128.size inb⌝
    ∗ Transfers.Flight countersEmb (V d (cV L) (jV L)) (SemLoc.dma (SemArray.sem cc0_scratch9)) (default : HIx 1) 524288
        iprop((((sl3).view.loc (V d (cV L) (jV L)) ↦[(sl3).view.set]{fullShare} ((sl3).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
            ∗ ((tkS).view.loc (V d (cV L) (jV L)) ↦[((tkS).slice r hr).view.set]{Transfers.shareTokN fullShare 2} (View.write (Elt F) (tkS).view f0 (ReadAs.same.apply (View.read (Elt F) (flSl L).view (fl d))) Finset.univ)))
          ∗ ((prV).view.loc (V d (cV L) (jV L)) ↦[((prV).slice (Rect.unit (s := S1000000x128) ![0, 0] S1000000x128.size inb_S1000000x128_S1000000x128_0_0) (fun _ => rfl)).view.set]{Transfers.shareTokN (rq (wL L)) 3} pr d))
    ∗ ((prV).view.loc (V d (cV L) (jV L)) ↦[Finset.univ \ ((prV).slice (Rect.unit (s := S1000000x128) ![0, 0] S1000000x128.size inb_S1000000x128_S1000000x128_0_0) (fun _ => rfl)).view.set]{Transfers.shareTokN (rq (wL L)) 3} pr d)
    ∗ ((sl3).view.loc (V d (cV L) (jV L)) ↦[Finset.univ \ (sl3).view.set]{fullShare} ((sl3).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
    ∗ ((tkS).view.loc (V d (cV L) (jV L)) ↦[Finset.univ \ ((tkS).slice r hr).view.set]{Transfers.shareTokN fullShare 2} (View.write (Elt F) (tkS).view f0 (ReadAs.same.apply (View.read (Elt F) (flSl L).view (fl d))) Finset.univ)))

theorem GFly3_eq (f0 : Buf (Elt F) ((tkS).view.loc (V d (cV L) (jV L)))) (k : ℕ) :
    GFly3 pr fl d L f0 k = iprop(∃ (fp : Buf (Elt F) ((sl3).view.loc (V d (cV L) (jV L)))) (r : Rect S25600) (hr : ∀ a, r.stride a = 1)
      (hn : r.shape.numel = S128x128.size gathers_S1000000x128_S128x128.axis')
      (hin' : ∀ x, (View.read (Elt F) ((tkS).slice r hr).view (View.write (Elt F) (tkS).view f0 (ReadAs.same.apply (View.read (Elt F) (flSl L).view (fl d))) Finset.univ) x).toNat < S1000000x128.size gathers_S1000000x128_S128x128.axis),
    ⌜∃ inb, r = Rect.unit (s := S25600) ![512 * k + 128 * 3] S128.size inb⌝
    ∗ Transfers.Flight countersEmb (V d (cV L) (jV L)) (SemLoc.dma (SemArray.sem cc0_scratch9)) (default : HIx 1) 524288
        iprop((((sl3).view.loc (V d (cV L) (jV L)) ↦[(sl3).view.set]{fullShare} ((sl3).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
            ∗ ((tkS).view.loc (V d (cV L) (jV L)) ↦[((tkS).slice r hr).view.set]{Transfers.shareTokN fullShare 2} (View.write (Elt F) (tkS).view f0 (ReadAs.same.apply (View.read (Elt F) (flSl L).view (fl d))) Finset.univ)))
          ∗ ((prV).view.loc (V d (cV L) (jV L)) ↦[((prV).slice (Rect.unit (s := S1000000x128) ![0, 0] S1000000x128.size inb_S1000000x128_S1000000x128_0_0) (fun _ => rfl)).view.set]{Transfers.shareTokN (rq (wL L)) 3} pr d))
    ∗ ((prV).view.loc (V d (cV L) (jV L)) ↦[Finset.univ \ ((prV).slice (Rect.unit (s := S1000000x128) ![0, 0] S1000000x128.size inb_S1000000x128_S1000000x128_0_0) (fun _ => rfl)).view.set]{Transfers.shareTokN (rq (wL L)) 3} pr d)
    ∗ ((sl3).view.loc (V d (cV L) (jV L)) ↦[Finset.univ \ (sl3).view.set]{fullShare} ((sl3).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
    ∗ ((tkS).view.loc (V d (cV L) (jV L)) ↦[Finset.univ \ ((tkS).slice r hr).view.set]{Transfers.shareTokN fullShare 2} (View.write (Elt F) (tkS).view f0 (ReadAs.same.apply (View.read (Elt F) (flSl L).view (fl d))) Finset.univ))) := rfl

/-- The tile's result rows after the chunks of the first k outer trips: rows below 256·k (from the tile's first row) hold
    the call's result function, the others what they started with. -/
def OM (k : ℕ) : Buf (Elt F) ((ouV).view.loc (V d (cV L) (jV L))) :=
  fun j => if (j 0).val < 25600 * (L 1).val + 12800 * (L 0).val + 256 * k then outF fl pr cb d j else o₀ d j

/-- Before outer trip k < 50: the tile may wait on its own semaphores; each slot's gather of its chunk of trip k is in
    flight; the four write-out semaphores are at zero; the result rows are done below trip k; the waits recorded so far
    are the caller's or the kernel's own. -/
def InvA (O : CellTallies nD τ sig (HIx 1)) (W : Waits sig (HIx 1)) (f0 : Buf (Elt F) ((tkS).view.loc (V d (cV L) (jV L)))) (k : ℕ) : sProp 𝕄 :=
  iprop(Transfers.MayWaits (V d (cV L) (jV L)) (default : HIx 1) O
    ∗ GFly0 pr fl d L f0 k ∗ GFly1 pr fl d L f0 k ∗ GFly2 pr fl d L f0 k ∗ GFly3 pr fl d L f0 k
    ∗ semVal (((V d (cV L) (jV L)), SemLoc.dma (SemArray.sem cc0_scratch10)) : GSem nD τ sig) 0
    ∗ semVal (((V d (cV L) (jV L)), SemLoc.dma (SemArray.sem cc0_scratch11)) : GSem nD τ sig) 0
    ∗ semVal (((V d (cV L) (jV L)), SemLoc.dma (SemArray.sem cc0_scratch12)) : GSem nD τ sig) 0
    ∗ semVal (((V d (cV L) (jV L)), SemLoc.dma (SemArray.sem cc0_scratch13)) : GSem nD τ sig) 0
    ∗ ((ouV).view.loc (V d (cV L) (jV L)) ↦[(ouV).view.setOn (ouR L).set]{fullShare} OM pr fl cb o₀ d L k)
    ∗ ∃ W', ⌜∀ p ∈ W', p ∈ W ∨ p.2 = none⌝ ∗ owes (V d (cV L) (jV L)) O W')

end Inv

section Pts
variable [FloatOps F]
variable (d : Dev nD) (L : grid0.Coords)

omit [FloatOps F] in
theorem pts_pr (q : PosShare TreeShare) (f : Buf (Elt F) (prLoc d)) :
    ((prV).view.loc (V d (cV L) (jV L)) ↦{q} f : sProp 𝕄) = prLoc d ↦{q} f := rfl
omit [FloatOps F] in
theorem pts_cb (q : PosShare TreeShare) (f : Buf (Elt F) (cbLoc d)) :
    ((cbV).view.loc (V d (cV L) (jV L)) ↦{q} f : sProp 𝕄) = cbLoc d ↦{q} f := rfl
omit [FloatOps F] in
theorem pts_fl (f : Buf (Elt F) (flLoc d)) :
    ((flSl L).view.loc (V d (cV L) (jV L)) ↦[(flSl L).view.set]{fullShare} f : sProp 𝕄) = flLoc d ↦[flSet (wL L)]{fullShare} f := by
  rw [set_flSl]

omit [FloatOps F] in
theorem pts_ou (f : Buf (Elt F) (ouLoc d)) :
    ((ouV).view.loc (V d (cV L) (jV L)) ↦[(ouV).view.setOn (ouR L).set]{fullShare} f : sProp 𝕄) = ouLoc d ↦[ouSet (wL L)]{fullShare} f := by
  rw [setOn_ouR]

/-- Whether a slot is re-armed at outer trip k: at every trip but the last. -/
theorem cond1_iff : ∀ k : Fin k0_t1_loop.trips, k0_cond1 k = 1#1 ↔ k.val < 49 := by decide +kernel
theorem cond2_iff : ∀ k : Fin k0_t1_loop.trips, k0_cond2 k = 1#1 ↔ k.val < 49 := by decide +kernel
theorem cond3_iff : ∀ k : Fin k0_t1_loop.trips, k0_cond3 k = 1#1 ↔ k.val < 49 := by decide +kernel
theorem cond4_iff : ∀ k : Fin k0_t1_loop.trips, k0_cond4 k = 1#1 ↔ k.val < 49 := by decide +kernel

end Pts
end Cert.Proof.KI
end
-- ==== Proof.TileStep.lean ====
import proofs.«205127_g70231305225025_cont_9to1c4b_198_32_alg».proof.Proof.TileInv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Step
variable [FloatOps F]
variable (pr : (d : Dev nD) → Buf (Elt F) (prLoc d)) (fl : (d : Dev nD) → Buf (Elt F) (flLoc d))
variable (d : Dev nD) (L : grid0.Coords)

/-- Slot 0's bundle from its pieces. -/
theorem gfly0_intro (f0 : Buf (Elt F) ((tkS).view.loc (V d (cV L) (jV L)))) (k : ℕ)
    (fp : Buf (Elt F) ((sl0).view.loc (V d (cV L) (jV L)))) (r : Rect S25600) (hr : ∀ a, r.stride a = 1)
    (hn : r.shape.numel = S128x128.size gathers_S1000000x128_S128x128.axis')
    (hin' : ∀ x, (View.read (Elt F) ((tkS).slice r hr).view (View.write (Elt F) (tkS).view f0 (ReadAs.same.apply (View.read (Elt F) (flSl L).view (fl d))) Finset.univ) x).toNat < S1000000x128.size gathers_S1000000x128_S128x128.axis)
    (hreq : ∃ inb, r = Rect.unit (s := S25600) ![512 * k + 128 * 0] S128.size inb) :
    (iprop(Transfers.Flight countersEmb (V d (cV L) (jV L)) (SemLoc.dma (SemArray.sem cc0_scratch6)) (default : HIx 1) 524288
        iprop((((sl0).view.loc (V d (cV L) (jV L)) ↦[(sl0).view.set]{fullShare} ((sl0).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
            ∗ ((tkS).view.loc (V d (cV L) (jV L)) ↦[((tkS).slice r hr).view.set]{Transfers.shareDrop fullShare 4} (View.write (Elt F) (tkS).view f0 (ReadAs.same.apply (View.read (Elt F) (flSl L).view (fl d))) Finset.univ)))
          ∗ ((prV).view.loc (V d (cV L) (jV L)) ↦[((prV).slice (Rect.unit (s := S1000000x128) ![0, 0] S1000000x128.size inb_S1000000x128_S1000000x128_0_0) (fun _ => rfl)).view.set]{Transfers.shareTokN (rq (wL L)) 0} pr d))
      ∗ ((prV).view.loc (V d (cV L) (jV L)) ↦[Finset.univ \ ((prV).slice (Rect.unit (s := S1000000x128) ![0, 0] S1000000x128.size inb_S1000000x128_S1000000x128_0_0) (fun _ => rfl)).view.set]{Transfers.shareTokN (rq (wL L)) 0} pr d)
      ∗ ((sl0).view.loc (V d (cV L) (jV L)) ↦[Finset.univ \ (sl0).view.set]{fullShare} ((sl0).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
      ∗ ((tkS).view.loc (V d (cV L) (jV L)) ↦[Finset.univ \ ((tkS).slice r hr).view.set]{Transfers.shareDrop fullShare 4} (View.write (Elt F) (tkS).view f0 (ReadAs.same.apply (View.read (Elt F) (flSl L).view (fl d))) Finset.univ))) : sProp 𝕄)
      ⊢ GFly0 pr fl d L f0 k := by
  rw [GFly0_eq]
  iintro ⟨Hf, Hp, Hs, Ht⟩
  iexists fp, r, hr, hn, hin'
  isplitr; · ipureintro; exact hreq
  isplitl [Hf]; · iexact Hf
  isplitl [Hp]; · iexact Hp
  isplitl [Hs]; · iexact Hs
  iexact Ht

/-- Slot 1's bundle from its pieces. -/
theorem gfly1_intro (f0 : Buf (Elt F) ((tkS).view.loc (V d (cV L) (jV L)))) (k : ℕ)
    (fp : Buf (Elt F) ((sl1).view.loc (V d (cV L) (jV L)))) (r : Rect S25600) (hr : ∀ a, r.stride a = 1)
    (hn : r.shape.numel = S128x128.size gathers_S1000000x128_S128x128.axis')
    (hin' : ∀ x, (View.read (Elt F) ((tkS).slice r hr).view (View.write (Elt F) (tkS).view f0 (ReadAs.same.apply (View.read (Elt F) (flSl L).view (fl d))) Finset.univ) x).toNat < S1000000x128.size gathers_S1000000x128_S128x128.axis)
    (hreq : ∃ inb, r = Rect.unit (s := S25600) ![512 * k + 128 * 1] S128.size inb) :
    (iprop(Transfers.Flight countersEmb (V d (cV L) (jV L)) (SemLoc.dma (SemArray.sem cc0_scratch7)) (default : HIx 1) 524288
        iprop((((sl1).view.loc (V d (cV L) (jV L)) ↦[(sl1).view.set]{fullShare} ((sl1).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
            ∗ ((tkS).view.loc (V d (cV L) (jV L)) ↦[((tkS).slice r hr).view.set]{Transfers.shareTokN fullShare 0} (View.write (Elt F) (tkS).view f0 (ReadAs.same.apply (View.read (Elt F) (flSl L).view (fl d))) Finset.univ)))
          ∗ ((prV).view.loc (V d (cV L) (jV L)) ↦[((prV).slice (Rect.unit (s := S1000000x128) ![0, 0] S1000000x128.size inb_S1000000x128_S1000000x128_0_0) (fun _ => rfl)).view.set]{Transfers.shareTokN (rq (wL L)) 1} pr d))
      ∗ ((prV).view.loc (V d (cV L) (jV L)) ↦[Finset.univ \ ((prV).slice (Rect.unit (s := S1000000x128) ![0, 0] S1000000x128.size inb_S1000000x128_S1000000x128_0_0) (fun _ => rfl)).view.set]{Transfers.shareTokN (rq (wL L)) 1} pr d)
      ∗ ((sl1).view.loc (V d (cV L) (jV L)) ↦[Finset.univ \ (sl1).view.set]{fullShare} ((sl1).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
      ∗ ((tkS).view.loc (V d (cV L) (jV L)) ↦[Finset.univ \ ((tkS).slice r hr).view.set]{Transfers.shareTokN fullShare 0} (View.write (Elt F) (tkS).view f0 (ReadAs.same.apply (View.read (Elt F) (flSl L).view (fl d))) Finset.univ))) : sProp 𝕄)
      ⊢ GFly1 pr fl d L f0 k := by
  rw [GFly1_eq]
  iintro ⟨Hf, Hp, Hs, Ht⟩
  iexists fp, r, hr, hn, hin'
  isplitr; · ipureintro; exact hreq
  isplitl [Hf]; · iexact Hf
  isplitl [Hp]; · iexact Hp
  isplitl [Hs]; · iexact Hs
  iexact Ht

/-- Slot 2's bundle from its pieces. -/
theorem gfly2_intro (f0 : Buf (Elt F) ((tkS).view.loc (V d (cV L) (jV L)))) (k : ℕ)
    (fp : Buf (Elt F) ((sl2).view.loc (V d (cV L) (jV L)))) (r : Rect S25600) (hr : ∀ a, r.stride a = 1)
    (hn : r.shape.numel = S128x128.size gathers_S1000000x128_S128x128.axis')
    (hin' : ∀ x, (View.read (Elt F) ((tkS).slice r hr).view (View.write (Elt F) (tkS).view f0 (ReadAs.same.apply (View.read (Elt F) (flSl L).view (fl d))) Finset.univ) x).toNat < S1000000x128.size gathers_S1000000x128_S128x128.axis)
    (hreq : ∃ inb, r = Rect.unit (s := S25600) ![512 * k + 128 * 2] S128.size inb) :
    (iprop(Transfers.Flight countersEmb (V d (cV L) (jV L)) (SemLoc.dma (SemArray.sem cc0_scratch8)) (default : HIx 1) 524288
        iprop((((sl2).view.loc (V d (cV L) (jV L)) ↦[(sl2).view.set]{fullShare} ((sl2).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
            ∗ ((tkS).view.loc (V d (cV L) (jV L)) ↦[((tkS).slice r hr).view.set]{Transfers.shareTokN fullShare 1} (View.write (Elt F) (tkS).view f0 (ReadAs.same.apply (View.read (Elt F) (flSl L).view (fl d))) Finset.univ)))
          ∗ ((prV).view.loc (V d (cV L) (jV L)) ↦[((prV).slice (Rect.unit (s := S1000000x128) ![0, 0] S1000000x128.size inb_S1000000x128_S1000000x128_0_0) (fun _ => rfl)).view.set]{Transfers.shareTokN (rq (wL L)) 2} pr d))
      ∗ ((prV).view.loc (V d (cV L) (jV L)) ↦[Finset.univ \ ((prV).slice (Rect.unit (s := S1000000x128) ![0, 0] S1000000x128.size inb_S1000000x128_S1000000x128_0_0) (fun _ => rfl)).view.set]{Transfers.shareTokN (rq (wL L)) 2} pr d)
      ∗ ((sl2).view.loc (V d (cV L) (jV L)) ↦[Finset.univ \ (sl2).view.set]{fullShare} ((sl2).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
      ∗ ((tkS).view.loc (V d (cV L) (jV L)) ↦[Finset.univ \ ((tkS).slice r hr).view.set]{Transfers.shareTokN fullShare 1} (View.write (Elt F) (tkS).view f0 (ReadAs.same.apply (View.read (Elt F) (flSl L).view (fl d))) Finset.univ))) : sProp 𝕄)
      ⊢ GFly2 pr fl d L f0 k := by
  rw [GFly2_eq]
  iintro ⟨Hf, Hp, Hs, Ht⟩
  iexists fp, r, hr, hn, hin'
  isplitr; · ipureintro; exact hreq
  isplitl [Hf]; · iexact Hf
  isplitl [Hp]; · iexact Hp
  isplitl [Hs]; · iexact Hs
  iexact Ht

/-- Slot 3's bundle from its pieces. -/
theorem gfly3_intro (f0 : Buf (Elt F) ((tkS).view.loc (V d (cV L) (jV L)))) (k : ℕ)
    (fp : Buf (Elt F) ((sl3).view.loc (V d (cV L) (jV L)))) (r : Rect S25600) (hr : ∀ a, r.stride a = 1)
    (hn : r.shape.numel = S128x128.size gathers_S1000000x128_S128x128.axis')
    (hin' : ∀ x, (View.read (Elt F) ((tkS).slice r hr).view (View.write (Elt F) (tkS).view f0 (ReadAs.same.apply (View.read (Elt F) (flSl L).view (fl d))) Finset.univ) x).toNat < S1000000x128.size gathers_S1000000x128_S128x128.axis)
    (hreq : ∃ inb, r = Rect.unit (s := S25600) ![512 * k + 128 * 3] S128.size inb) :
    (iprop(Transfers.Flight countersEmb (V d (cV L) (jV L)) (SemLoc.dma (SemArray.sem cc0_scratch9)) (default : HIx 1) 524288
        iprop((((sl3).view.loc (V d (cV L) (jV L)) ↦[(sl3).view.set]{fullShare} ((sl3).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
            ∗ ((tkS).view.loc (V d (cV L) (jV L)) ↦[((tkS).slice r hr).view.set]{Transfers.shareTokN fullShare 2} (View.write (Elt F) (tkS).view f0 (ReadAs.same.apply (View.read (Elt F) (flSl L).view (fl d))) Finset.univ)))
          ∗ ((prV).view.loc (V d (cV L) (jV L)) ↦[((prV).slice (Rect.unit (s := S1000000x128) ![0, 0] S1000000x128.size inb_S1000000x128_S1000000x128_0_0) (fun _ => rfl)).view.set]{Transfers.shareTokN (rq (wL L)) 3} pr d))
      ∗ ((prV).view.loc (V d (cV L) (jV L)) ↦[Finset.univ \ ((prV).slice (Rect.unit (s := S1000000x128) ![0, 0] S1000000x128.size inb_S1000000x128_S1000000x128_0_0) (fun _ => rfl)).view.set]{Transfers.shareTokN (rq (wL L)) 3} pr d)
      ∗ ((sl3).view.loc (V d (cV L) (jV L)) ↦[Finset.univ \ (sl3).view.set]{fullShare} ((sl3).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
      ∗ ((tkS).view.loc (V d (cV L) (jV L)) ↦[Finset.univ \ ((tkS).slice r hr).view.set]{Transfers.shareTokN fullShare 2} (View.write (Elt F) (tkS).view f0 (ReadAs.same.apply (View.read (Elt F) (flSl L).view (fl d))) Finset.univ))) : sProp 𝕄)
      ⊢ GFly3 pr fl d L f0 k := by
  rw [GFly3_eq]
  iintro ⟨Hf, Hp, Hs, Ht⟩
  iexists fp, r, hr, hn, hin'
  isplitr; · ipureintro; exact hreq
  isplitl [Hf]; · iexact Hf
  isplitl [Hp]; · iexact Hp
  isplitl [Hs]; · iexact Hs
  iexact Ht

end Step

/-! ## The printed token windows in closed form -/

theorem rect_unit_congr {s : Shape} {o o' : Fin s.rank → ℕ} {sz : Fin s.rank → ℕ} (h : o = o')
    (i : ∀ a, o a + sz a ≤ s.size a) (i' : ∀ a, o' a + sz a ≤ s.size a) :
    Rect.unit (s := s) o sz i = Rect.unit (s := s) o' sz i' := by subst h; rfl

/-- The window slot 0 re-arms with at outer trip k is the window of its chunk of trip k + 1. -/
theorem win0_next (k : Fin k0_t1_loop.trips) (h : k0_cond1 k = 1#1)
    (inb : ∀ a, (![512 * (k.val + 1) + 128 * 0] : Fin 1 → ℕ) a + S128.size a ≤ S25600.size a) :
    Rect.unit (s := S25600) (k0_off29 k) S128.size (k0_off29_inb k h) = Rect.unit (s := S25600) ![512 * (k.val + 1) + 128 * 0] S128.size inb := by
  refine rect_unit_congr ?_ _ _
  rw [k0_off29_eq]
  funext a; match a with | ⟨0, _⟩ => show 512 * k.val + 512 = 512 * (k.val + 1) + 128 * 0; omega
theorem win0_inb (k : ℕ) (hk : k < 50) : ∀ a, (![512 * k + 128 * 0] : Fin 1 → ℕ) a + S128.size a ≤ S25600.size a := by
  intro a; match a with | ⟨0, _⟩ => show 512 * k + 128 * 0 + 128 ≤ 25600; omega

/-- The window slot 1 re-arms with at outer trip k is the window of its chunk of trip k + 1. -/
theorem win1_next (k : Fin k0_t1_loop.trips) (h : k0_cond2 k = 1#1)
    (inb : ∀ a, (![512 * (k.val + 1) + 128 * 1] : Fin 1 → ℕ) a + S128.size a ≤ S25600.size a) :
    Rect.unit (s := S25600) (k0_off55 k) S128.size (k0_off55_inb k h) = Rect.unit (s := S25600) ![512 * (k.val + 1) + 128 * 1] S128.size inb := by
  refine rect_unit_congr ?_ _ _
  rw [k0_off55_eq]
  funext a; match a with | ⟨0, _⟩ => show 512 * k.val + 640 = 512 * (k.val + 1) + 128 * 1; omega
theorem win1_inb (k : ℕ) (hk : k < 50) : ∀ a, (![512 * k + 128 * 1] : Fin 1 → ℕ) a + S128.size a ≤ S25600.size a := by
  intro a; match a with | ⟨0, _⟩ => show 512 * k + 128 * 1 + 128 ≤ 25600; omega

/-- The window slot 2 re-arms with at outer trip k is the window of its chunk of trip k + 1. -/
theorem win2_next (k : Fin k0_t1_loop.trips) (h : k0_cond3 k = 1#1)
    (inb : ∀ a, (![512 * (k.val + 1) + 128 * 2] : Fin 1 → ℕ) a + S128.size a ≤ S25600.size a) :
    Rect.unit (s := S25600) (k0_off81 k) S128.size (k0_off81_inb k h) = Rect.unit (s := S25600) ![512 * (k.val + 1) + 128 * 2] S128.size inb := by
  refine rect_unit_congr ?_ _ _
  rw [k0_off81_eq]
  funext a; match a with | ⟨0, _⟩ => show 512 * k.val + 768 = 512 * (k.val + 1) + 128 * 2; omega
theorem win2_inb (k : ℕ) (hk : k < 50) : ∀ a, (![512 * k + 128 * 2] : Fin 1 → ℕ) a + S128.size a ≤ S25600.size a := by
  intro a; match a with | ⟨0, _⟩ => show 512 * k + 128 * 2 + 128 ≤ 25600; omega

/-- The window slot 3 re-arms with at outer trip k is the window of its chunk of trip k + 1. -/
theorem win3_next (k : Fin k0_t1_loop.trips) (h : k0_cond4 k = 1#1)
    (inb : ∀ a, (![512 * (k.val + 1) + 128 * 3] : Fin 1 → ℕ) a + S128.size a ≤ S25600.size a) :
    Rect.unit (s := S25600) (k0_off107 k) S128.size (k0_off107_inb k h) = Rect.unit (s := S25600) ![512 * (k.val + 1) + 128 * 3] S128.size inb := by
  refine rect_unit_congr ?_ _ _
  rw [k0_off107_eq]
  funext a; match a with | ⟨0, _⟩ => show 512 * k.val + 896 = 512 * (k.val + 1) + 128 * 3; omega
theorem win3_inb (k : ℕ) (hk : k < 50) : ∀ a, (![512 * k + 128 * 3] : Fin 1 → ℕ) a + S128.size a ≤ S25600.size a := by
  intro a; match a with | ⟨0, _⟩ => show 512 * k + 128 * 3 + 128 ≤ 25600; omega

end Cert.Proof.KI
end
-- ==== Proof.TileInvB.lean ====
import proofs.«205127_g70231305225025_cont_9to1c4b_198_32_alg».proof.Proof.TileStep

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section InvB
variable [FloatOps F]
variable (pr : (d : Dev nD) → Buf (Elt F) (prLoc d)) (fl : (d : Dev nD) → Buf (Elt F) (flLoc d))
  (cb : (d : Dev nD) → Buf (Elt F) (cbLoc d)) (o₀ : (d : Dev nD) → Buf (Elt F) (ouLoc d))
variable (d : Dev nD) (L : grid0.Coords)

/-- The 64 result rows slot b writes in outer trip k, as the body's write-out names them. -/
abbrev ouWin (k : Fin k0_t1_loop.trips) (w : BitVec 32) (inb : ∀ a, (k0_off27 L k w) a + S64x128.size a ≤ S409600x128.size a) :
    Finset S409600x128.Idx :=
  ((ouV).slice (Rect.unit (s := S409600x128) (k0_off27 L k w) S64x128.size inb) (fun _ => rfl)).view.set

/-- Rows 0..63 of a slot, as the write-out reads them. -/
abbrev slWin (sl : Memref sig .scVector .vmem S128x128 .f32) :=
  ((sl).slice (Rect.unit (s := S128x128) ![0, 0] S64x128.size inb_S128x128_S64x128_0_0) (fun _ => rfl)).view.set

/-- A slot's write-out of its chunk of outer trip k in flight: the landing delivers the chunk's 64 result rows, at the
    call's result function, and gives back the slot's rows 0..63; beside it, the slot's other rows. -/
def WFly (k : Fin k0_t1_loop.trips) (w : BitVec 32) (inb : ∀ a, (k0_off27 L k w) a + S64x128.size a ≤ S409600x128.size a)
    (sl : Memref sig .scVector .vmem S128x128 .f32) (sem : DmaSem sig) : sProp 𝕄 :=
  iprop(∃ (C : Buf (Elt F) ((ouV).view.loc (V d (cV L) (jV L)))) (M : Buf (Elt F) ((sl).view.loc (V d (cV L) (jV L)))),
    ⌜∀ j ∈ ouWin L k w inb, C j = outF fl pr cb d j⌝
    ∗ Transfers.Flight countersEmb (V d (cV L) (jV L)) (SemLoc.dma sem) (default : HIx 1) 262144
        iprop(((ouV).view.loc (V d (cV L) (jV L)) ↦[ouWin L k w inb]{fullShare} C)
          ∗ ((sl).view.loc (V d (cV L) (jV L)) ↦[slWin sl]{fullShare} M))
    ∗ ((sl).view.loc (V d (cV L) (jV L)) ↦[Finset.univ \ slWin sl]{fullShare} M))

/-- The tile's result rows outside the four windows of outer trip k. -/
abbrev ouRest (k : Fin k0_t1_loop.trips) : Finset S409600x128.Idx :=
  ((((ouV).view.setOn (ouR L).set \ ouWin L k 0#32 (k0_off27_inb L k 0)) \ ouWin L k 1#32 (k0_off27_inb L k 1))
    \ ouWin L k 2#32 (k0_off27_inb L k 2)) \ ouWin L k 3#32 (k0_off27_inb L k 3)

/-- After the last outer trip: each slot's write-out of its last chunk still in flight, nothing re-armed; the result
    rows outside those four chunks done; the four gather semaphores at zero, the pair table's four read tokens and the
    token scratch's four shares whole; the waits recorded so far the caller's or the kernel's own. -/
def InvB (O : CellTallies nD τ sig (HIx 1)) (W : Waits sig (HIx 1)) (f0 : Buf (Elt F) ((tkS).view.loc (V d (cV L) (jV L))))
    (f5 : Buf (Elt F) ((cfS).view.loc (V d (cV L) (jV L)))) : sProp 𝕄 :=
  iprop(Transfers.MayWaits (V d (cV L) (jV L)) (default : HIx 1) O
    ∗ ∃ k : Fin k0_t1_loop.trips, ⌜k.val = 49⌝
      ∗ WFly pr fl cb d L k 0#32 (k0_off27_inb L k 0) sl0 (SemArray.sem cc0_scratch10)
      ∗ WFly pr fl cb d L k 1#32 (k0_off27_inb L k 1) sl1 (SemArray.sem cc0_scratch11)
      ∗ WFly pr fl cb d L k 2#32 (k0_off27_inb L k 2) sl2 (SemArray.sem cc0_scratch12)
      ∗ WFly pr fl cb d L k 3#32 (k0_off27_inb L k 3) sl3 (SemArray.sem cc0_scratch13)
      ∗ (∃ C : Buf (Elt F) ((ouV).view.loc (V d (cV L) (jV L))), ⌜∀ j ∈ ouRest L k, C j = OM pr fl cb o₀ d L 50 j⌝
          ∗ ((ouV).view.loc (V d (cV L) (jV L)) ↦[ouRest L k]{fullShare} C))
      ∗ ((prV).view.loc (V d (cV L) (jV L)) ↦{Transfers.shareTokN (rq (wL L)) 0} pr d)
      ∗ ((prV).view.loc (V d (cV L) (jV L)) ↦{Transfers.shareTokN (rq (wL L)) 1} pr d)
      ∗ ((prV).view.loc (V d (cV L) (jV L)) ↦{Transfers.shareTokN (rq (wL L)) 2} pr d)
      ∗ ((prV).view.loc (V d (cV L) (jV L)) ↦{Transfers.shareTokN (rq (wL L)) 3} pr d)
      ∗ semVal (((V d (cV L) (jV L)), SemLoc.dma (SemArray.sem cc0_scratch6)) : GSem nD τ sig) 0
      ∗ semVal (((V d (cV L) (jV L)), SemLoc.dma (SemArray.sem cc0_scratch7)) : GSem nD τ sig) 0
      ∗ semVal (((V d (cV L) (jV L)), SemLoc.dma (SemArray.sem cc0_scratch8)) : GSem nD τ sig) 0
      ∗ semVal (((V d (cV L) (jV L)), SemLoc.dma (SemArray.sem cc0_scratch9)) : GSem nD τ sig) 0
      ∗ ((tkS).view.loc (V d (cV L) (jV L)) ↦{Transfers.shareDrop fullShare 4} View.write (Elt F) (tkS).view f0 (ReadAs.same.apply (View.read (Elt F) (flSl L).view (fl d))) Finset.univ)
      ∗ ((tkS).view.loc (V d (cV L) (jV L)) ↦{Transfers.shareTokN fullShare 0} View.write (Elt F) (tkS).view f0 (ReadAs.same.apply (View.read (Elt F) (flSl L).view (fl d))) Finset.univ)
      ∗ ((tkS).view.loc (V d (cV L) (jV L)) ↦{Transfers.shareTokN fullShare 1} View.write (Elt F) (tkS).view f0 (ReadAs.same.apply (View.read (Elt F) (flSl L).view (fl d))) Finset.univ)
      ∗ ((tkS).view.loc (V d (cV L) (jV L)) ↦{Transfers.shareTokN fullShare 2} View.write (Elt F) (tkS).view f0 (ReadAs.same.apply (View.read (Elt F) (flSl L).view (fl d))) Finset.univ)
      ∗ ∃ W', ⌜∀ p ∈ W', p ∈ W ∨ p.2 = none⌝ ∗ owes (V d (cV L) (jV L)) O W')

/-- The outer loop's invariant: before trip k < 50 the re-armed state, after the last trip the exit state. -/
def invFull (O : CellTallies nD τ sig (HIx 1)) (W : Waits sig (HIx 1)) (f0 : Buf (Elt F) ((tkS).view.loc (V d (cV L) (jV L))))
    (f5 : Buf (Elt F) ((cfS).view.loc (V d (cV L) (jV L)))) (k : ℕ) (_ : PUnit) : sProp 𝕄 :=
  if k < 50 then InvA pr fl cb o₀ d L O W f0 k else InvB pr fl cb o₀ d L O W f0 f5

theorem invFull_lt (O : CellTallies nD τ sig (HIx 1)) (W : Waits sig (HIx 1)) (f0) (f5) {k : ℕ} (h : k < 50) (acc : PUnit) :
    invFull pr fl cb o₀ d L O W f0 f5 k acc = InvA pr fl cb o₀ d L O W f0 k := if_pos h
theorem invFull_ge (O : CellTallies nD τ sig (HIx 1)) (W : Waits sig (HIx 1)) (f0) (f5) {k : ℕ} (h : ¬ k < 50) (acc : PUnit) :
    invFull pr fl cb o₀ d L O W f0 f5 k acc = InvB pr fl cb o₀ d L O W f0 f5 := if_neg h

end InvB
end Cert.Proof.KI
end
-- ==== Proof.TileValue.lean ====
/-
  The values one tile computes, as plain functions of the call's operand arrays.

  A slot written whole holds what was written. The tile with worker number w holds tokens 25600·w .. 25600·w + 25599
  of the flat list. A gather over the window of 128 tokens starting at offset off among them lands a 128 × 128 block
  whose row ρ is the pair-table row that token off + ρ names. The two coefficient rows the tile loads are rows 0 and 1
  of the coefficient block. Merging the block of chunk g (tokens 128·g .. 128·g + 127) gives, in its first 64 rows,
  rows 12800·w + 64·g .. + 63 of the call's result: row ρ, column q reads token 2ρ + q / 64 of the chunk, which is
  token 2·(12800·w + 64·g + ρ) + q / 64 of the flat list, at components q mod 64 and 64 + q mod 64, with the
  coefficients of lane q mod 16.
-/
import proofs.«205127_g70231305225025_cont_9to1c4b_198_32_alg».proof.Proof.TileShares
import proofs.«205127_g70231305225025_cont_9to1c4b_198_32_alg».proof.Proof.Merge
import proofs.«205127_g70231305225025_cont_9to1c4b_198_32_alg».proof.Proof.KOut
import Idealize.ShloMosaic.Lib.Writes
import Idealize.ShloMosaic.Lib.Pipeline.Value

noncomputable section

namespace Cert.Proof.KI

open Cert.KernelIdeal Cert.KernelIdeal.Gen

open Idealize.ShloMosaic Idealize.ShloMosaic.ValueIdx
open Idealize.ShloMosaic.SparseCore (S V T)

variable {F : FTy → Type}

/-! ## A buffer written whole -/

/-- One write through the whole shape, over any contents, leaves the payload. -/
theorem writes_whole_piece (b : Ref sig .scVector) (g : (Memref.whole b : Memref sig .scVector _ _ _).view.ty.Contents (Elt F))
    (P : (Rect.whole b.ty.shape).shape.Idx → Elt F b.ty.elt) :
    (Memref.whole b : Memref sig .scVector _ _ _).view.writes (Elt F) g [⟨Rect.whole b.ty.shape, P⟩] = P := by
  funext x
  have h := View.read_writes_cons_emb (View.whole b) g (Rect.whole b.ty.shape) P [] x
  rw [Rect.emb_whole_apply] at h
  exact h

/-- The same at each of the four slots. -/
theorem writes_whole_sl0 (g : (sl0).view.ty.Contents (Elt F)) (P : S128x128.Idx → Elt F .f32) :
    (sl0).view.writes (Elt F) g [⟨Rect.whole S128x128, P⟩] = P := writes_whole_piece cc0_scratch1 g P
theorem writes_whole_sl1 (g : (sl1).view.ty.Contents (Elt F)) (P : S128x128.Idx → Elt F .f32) :
    (sl1).view.writes (Elt F) g [⟨Rect.whole S128x128, P⟩] = P := writes_whole_piece cc0_scratch2 g P
theorem writes_whole_sl2 (g : (sl2).view.ty.Contents (Elt F)) (P : S128x128.Idx → Elt F .f32) :
    (sl2).view.writes (Elt F) g [⟨Rect.whole S128x128, P⟩] = P := writes_whole_piece cc0_scratch3 g P
theorem writes_whole_sl3 (g : (sl3).view.ty.Contents (Elt F)) (P : S128x128.Idx → Elt F .f32) :
    (sl3).view.writes (Elt F) g [⟨Rect.whole S128x128, P⟩] = P := writes_whole_piece cc0_scratch4 g P

section Val

variable [FloatOps F]
variable (fl : (d : Dev nD) → Buf (Elt F) (flLoc d)) (pr : (d : Dev nD) → Buf (Elt F) (prLoc d))
  (cb : (d : Dev nD) → Buf (Elt F) (cbLoc d))
variable (d : Dev nD) (L : grid0.Coords)

/-! ## A gathered block -/

omit [FloatOps F] in
theorem tok_lt (off : ℕ) (h : off + 128 ≤ 25600) (n : ℕ) (hn : n < 128) : 25600 * (wL L).val + off + n < 819200 := by
  have := (wL L).isLt; omega

/-- The block a gather lands for the window of 128 tokens from offset off of the tile's tokens: row ρ is the pair-table
    row token off + ρ names. -/
def GP (off : ℕ) (h : off + 128 ≤ 25600) : S128x128.Idx → Elt F .f32 := fun j =>
  pr d (ix2 (Cert.Lib.takeRow 1000000 Cert.Spec.rows_pos (fl d (ix1 ⟨25600 * (wL L).val + off + (j 0).val, tok_lt L off h _ (j 0).isLt⟩)))
    (j 1 : Fin 128))

/-- A rank-one index read back from its row-major position has that position as its coordinate. -/
theorem rowMajor_symm_one {n : Fin 1 → Nat} (k : Fin (⟨1, n⟩ : Shape).numel) :
    (((⟨1, n⟩ : Shape).rowMajor.symm k) 0).val = k.val := by
  have h := Shape.rowMajor_val_one ((⟨1, n⟩ : Shape).rowMajor.symm k)
  rw [Equiv.apply_symm_apply] at h
  exact h.symm

/-- The token scratch after the fetch, read through a window of 128 words from offset off: the flat list's words at
    the tile's tokens off, off + 1, …. -/
theorem tok_read (off : ℕ) (h : off + 128 ≤ 25600)
    (inb : ∀ a, (![off] : Fin 1 → Nat) a + S128.size a ≤ S25600.size a)
    (hr : ∀ a, (Rect.unit (s := S25600) ![off] S128.size inb).stride a = 1)
    (g : Buf (Elt F) ((tkS).view.loc (V d (cV L) (jV L)))) (x : (Rect.unit (s := S25600) ![off] S128.size inb).shape.Idx) :
    View.read (Elt F) ((tkS).slice (Rect.unit (s := S25600) ![off] S128.size inb) hr).view
        (View.write (Elt F) (tkS).view g (ReadAs.same.apply (View.read (Elt F) (flSl L).view (fl d))) Finset.univ) x
      = fl d (ix1 ⟨25600 * (wL L).val + off + (x 0).val, tok_lt L off h _ (x 0).isLt⟩) := by
  have hw : View.write (Elt F) (tkS).view g (ReadAs.same.apply (View.read (Elt F) (flSl L).view (fl d))) Finset.univ
      = ReadAs.same.apply (View.read (Elt F) (flSl L).view (fl d)) := View.write_whole_univ _ _ _
  rw [hw]
  have hrd : ∀ (w : S25600.Idx → Elt F .i32),
      View.read (Elt F) ((tkS).slice (Rect.unit (s := S25600) ![off] S128.size inb) hr).view w x
        = w (((tkS).slice (Rect.unit (s := S25600) ![off] S128.size inb) hr).view.emb x) :=
    fun w => (View.read_apply _ _).trans (cast_eq _ _)
  rw [hrd]
  show View.read (Elt F) (flSl L).view (fl d) _ = _
  rw [show ∀ j, View.read (Elt F) (flSl L).view (fl d) j = fl d ((flSl L).view.emb j) from fun j => (View.read_apply _ _).trans (cast_eq _ _)]
  refine congrArg (fl d) ?_
  funext a
  refine Fin.ext ?_
  match a with
  | ⟨0, h0⟩ =>
    have e1 : ∀ y : S25600.Idx, ((flSl L).view.emb y ⟨0, h0⟩).val = (k0_off1 L) ⟨0, h0⟩ + 1 * (y ⟨0, h0⟩).val := fun _ => rfl
    have e2 : (((tkS).slice (Rect.unit (s := S25600) ![off] S128.size inb) hr).view.emb x ⟨0, h0⟩).val = off + 1 * (x ⟨0, h0⟩).val := rfl
    rw [e1, e2, k0_off1_eq]
    show 51200 * (L 1).val + 25600 * (L 0).val + 1 * (off + 1 * (x 0).val) = 25600 * (2 * (L 1).val + (L 0).val) + off + (x 0).val
    omega

set_option maxRecDepth 8192 in
/-- THE GATHER'S LANDING: the payload the indexed copy delivers — the pair table read at the rows the window's words
    name — is the block of the tile's tokens from off on. -/
theorem gather_eq (hin : InRange fl) (off : ℕ) (h : off + 128 ≤ 25600)
    (inb : ∀ a, (![off] : Fin 1 → Nat) a + S128.size a ≤ S25600.size a)
    (hr : ∀ a, (Rect.unit (s := S25600) ![off] S128.size inb).stride a = 1)
    (g : Buf (Elt F) ((tkS).view.loc (V d (cV L) (jV L))))
    (hp : ∀ a, (Rect.unit (s := S1000000x128) ![0, 0] S1000000x128.size inb_S1000000x128_S1000000x128_0_0).stride a = 1)
    (hn : S128.numel = S128x128.size gathers_S1000000x128_S128x128.axis')
    (hin' : ∀ x, (View.read (Elt F) ((tkS).slice (Rect.unit (s := S25600) ![off] S128.size inb) hr).view
        (View.write (Elt F) (tkS).view g (ReadAs.same.apply (View.read (Elt F) (flSl L).view (fl d))) Finset.univ) x).toNat
          < S1000000x128.size gathers_S1000000x128_S128x128.axis) :
    SparseCore.gatherPayload (F := F) gathers_S1000000x128_S128x128
        (View.read (Elt F) ((prV).slice (Rect.unit (s := S1000000x128) ![0, 0] S1000000x128.size inb_S1000000x128_S1000000x128_0_0) hp).view (pr d))
        (SparseCore.rows (View.read (Elt F) ((tkS).slice (Rect.unit (s := S25600) ![off] S128.size inb) hr).view
          (View.write (Elt F) (tkS).view g (ReadAs.same.apply (View.read (Elt F) (flSl L).view (fl d))) Finset.univ)) hn hin')
      = GP fl pr d L off h := by
  have hidx := tok_read fl d L off h inb hr g
  generalize View.read (Elt F) ((tkS).slice (Rect.unit (s := S25600) ![off] S128.size inb) hr).view
      (View.write (Elt F) (tkS).view g (ReadAs.same.apply (View.read (Elt F) (flSl L).view (fl d))) Finset.univ) = idxf at hin' hidx ⊢
  funext j
  unfold SparseCore.gatherPayload
  rw [show ∀ y, View.read (Elt F) ((prV).slice (Rect.unit (s := S1000000x128) ![0, 0] S1000000x128.size inb_S1000000x128_S1000000x128_0_0) hp).view (pr d) y
      = pr d (((prV).slice (Rect.unit (s := S1000000x128) ![0, 0] S1000000x128.size inb_S1000000x128_S1000000x128_0_0) hp).view.emb y) from
    fun y => (View.read_apply _ _).trans (cast_eq _ _)]
  unfold GP
  refine congrArg (pr d) ?_
  funext a
  refine Fin.ext ?_
  match a with
  | ⟨0, h0⟩ =>
    -- the row: the word of the window at the block row's position, read unsigned: the clamp of a word in range
    have eA : ∀ y : S1000000x128.Idx,
        (((prV).slice (Rect.unit (s := S1000000x128) ![0, 0] S1000000x128.size inb_S1000000x128_S1000000x128_0_0) hp).view.emb y ⟨0, h0⟩).val
          = 0 + 1 * (y ⟨0, h0⟩).val := fun _ => rfl
    rw [eA, Nat.zero_add, Nat.one_mul]
    refine (congrArg Fin.val (Shape.Gathers.idx_axis gathers_S1000000x128_S128x128 (SparseCore.rows idxf hn hin') j)).trans ?_
    show (idxf _).toNat = (Cert.Lib.takeRow 1000000 Cert.Spec.rows_pos (fl d (ix1 ⟨25600 * (wL L).val + off + (j 0).val, tok_lt L off h _ (j 0).isLt⟩))).val
    rw [hidx, Cert.Lib.takeRow_of_lt 1000000 Cert.Spec.rows_pos (by decide) _ (hin d _)]
    refine congrArg (fun t => (fl d (ix1 t)).toNat) (Fin.ext ?_)
    refine congrArg (fun n => 25600 * (wL L).val + off + n) ?_
    exact rowMajor_symm_one (n := S128.size) _
  | ⟨1, h1⟩ =>
    have eA : ∀ y : S1000000x128.Idx,
        (((prV).slice (Rect.unit (s := S1000000x128) ![0, 0] S1000000x128.size inb_S1000000x128_S1000000x128_0_0) hp).view.emb y ⟨1, h1⟩).val
          = 0 + 1 * (y ⟨1, h1⟩).val := fun _ => rfl
    rw [eA, Nat.zero_add, Nat.one_mul]
    exact Shape.Gathers.idx_of_ne gathers_S1000000x128_S128x128 _ j ⟨1, h1⟩ Nat.one_ne_zero

/-! ## The coefficient rows -/

section Coef

variable (f5 : Buf (Elt F) ((cfS).view.loc (V d (cV L) (jV L))))

/-- Coefficient row 0 as the body loads it from its scratch after the fetch of the coefficient block; row 1. -/
def c0M : FVec F S16 .f32 :=
  k0_pay53 (View.readAt (Elt F) (cfS).view (Rect.unit (s := S2x16) ![0, 0] S1x16.size inb_S2x16_S1x16_0_0).toLoadRect
    (View.write (Elt F) (cfS).view f5 (ReadAs.same.apply (View.read (Elt F) (cbV).view (cb d))) Finset.univ))
def c1M : FVec F S16 .f32 :=
  k0_pay54 (View.readAt (Elt F) (cfS).view (Rect.unit (s := S2x16) ![1, 0] S1x16.size inb_S2x16_S1x16_1_0).toLoadRect
    (View.write (Elt F) (cfS).view f5 (ReadAs.same.apply (View.read (Elt F) (cbV).view (cb d))) Finset.univ))

theorem c0M_apply (l : Fin 16) : c0M cb d L f5 (ix1 l) = cb d (ix2 0 l) := by
  have hw : View.write (Elt F) (cfS).view f5 (ReadAs.same.apply (View.read (Elt F) (cbV).view (cb d))) Finset.univ
      = ReadAs.same.apply (View.read (Elt F) (cbV).view (cb d)) := View.write_whole_univ _ _ _
  unfold c0M
  rw [hw]
  show shapeCast S16 (View.readAt (Elt F) (cfS).view (Rect.unit (s := S2x16) ![0, 0] S1x16.size inb_S2x16_S1x16_0_0).toLoadRect
      (ReadAs.same.apply (View.read (Elt F) (cbV).view (cb d)))) shapeCasts_S1x16_S16 (ix1 l) = _
  refine (shapeCast_apply _ shapeCasts_S1x16_S16 (ix1 l) (ix2 (0 : Fin 1) l) ?_).trans ?_
  · rw [Shape.rowMajor_val_two, Shape.rowMajor_val_one]
    show 0 * 16 + l.val = l.val
    omega
  · show cb d _ = cb d _
    refine congrArg (cb d) ?_
    funext a
    refine Fin.ext ?_
    match a with
    | ⟨0, _⟩ => rfl
    | ⟨1, _⟩ =>
      show 0 + 1 * l.val = l.val
      omega

theorem c1M_apply (l : Fin 16) : c1M cb d L f5 (ix1 l) = cb d (ix2 1 l) := by
  have hw : View.write (Elt F) (cfS).view f5 (ReadAs.same.apply (View.read (Elt F) (cbV).view (cb d))) Finset.univ
      = ReadAs.same.apply (View.read (Elt F) (cbV).view (cb d)) := View.write_whole_univ _ _ _
  unfold c1M
  rw [hw]
  show shapeCast S16 (View.readAt (Elt F) (cfS).view (Rect.unit (s := S2x16) ![1, 0] S1x16.size inb_S2x16_S1x16_1_0).toLoadRect
      (ReadAs.same.apply (View.read (Elt F) (cbV).view (cb d)))) shapeCasts_S1x16_S16 (ix1 l) = _
  refine (shapeCast_apply _ shapeCasts_S1x16_S16 (ix1 l) (ix2 (0 : Fin 1) l) ?_).trans ?_
  · rw [Shape.rowMajor_val_two, Shape.rowMajor_val_one]
    show 0 * 16 + l.val = l.val
    omega
  · show cb d _ = cb d _
    refine congrArg (cb d) ?_
    funext a
    refine Fin.ext ?_
    match a with
    | ⟨0, _⟩ => rfl
    | ⟨1, _⟩ =>
      show 0 + 1 * l.val = l.val
      omega

/-! ## A chunk's value -/

omit [FloatOps F] in
theorem row_lt (g : ℕ) (hg : g < 200) (ρ : Fin 64) : 12800 * (wL L).val + 64 * g + ρ.val < 409600 := by
  have := (wL L).isLt; have := ρ.isLt; omega

/-- THE CHUNK'S VALUE: the merged block of chunk g, at row ρ below 64, is the call's result at row
    12800·w + 64·g + ρ. -/
theorem chunk_eq (g : ℕ) (hg : g < 200) (ρ : Fin 64) (q : Fin 128) :
    merged (c0M cb d L f5) (c1M cb d L f5) (GP fl pr d L (128 * g) (by omega)) (ix2 (⟨ρ.val, by have := ρ.isLt; omega⟩ : Fin 128) q)
      = outF fl pr cb d (ix2 (⟨12800 * (wL L).val + 64 * g + ρ.val, row_lt L g hg ρ⟩ : Fin 409600) q) := by
  have key : ∀ C : Fin 128,
      GP fl pr d L (128 * g) (by omega) (ix2 (⟨2 * ρ.val + q.val / 64, by have := ρ.isLt; have := q.isLt; omega⟩ : Fin 128) C)
        = pr d (ix2 (Cert.KOut.prow (fl d) (Cert.KOut.tok ⟨12800 * (wL L).val + 64 * g + ρ.val, row_lt L g hg ρ⟩ q)) C) := by
    intro C
    unfold GP Cert.KOut.prow
    refine congrArg (fun t => pr d (ix2 (Cert.Lib.takeRow 1000000 Cert.Spec.rows_pos (fl d (ix1 t))) C)) (Fin.ext ?_)
    show 25600 * (wL L).val + 128 * g + (2 * ρ.val + q.val / 64) = 2 * (12800 * (wL L).val + 64 * g + ρ.val) + q.val / 64
    omega
  rw [merged_apply_lt]
  unfold mrow
  rw [c0M_apply, c1M_apply, key, key]
  unfold outF
  rw [Cert.KOut.out_apply]
  rfl

end Coef

end Val

end Cert.Proof.KI

end
-- ==== Proof.TileOut.lean ====
/-
  The tile's result rows, slot by slot within one outer trip.

  The tile's first result row is 25600·(L 1) + 12800·(L 0) = 12800·w. In outer trip k the four slots b = 0..3 each
  copy their merged rows 0..63 into result rows 256·k + 64·b .. + 63 (counted from the tile's first row). After the
  first n slots of trip k the rows below 256·k + 64·n hold the call's result function and the others what they
  started with; one slot's copy, whose payload is the call's result function on its 64 rows, takes n to n + 1.
-/
import proofs.«205127_g70231305225025_cont_9to1c4b_198_32_alg».proof.Proof.TileInv
import proofs.«205127_g70231305225025_cont_9to1c4b_198_32_alg».proof.Proof.TileValue
import proofs.«205127_g70231305225025_cont_9to1c4b_198_32_alg».proof.Proof.TileGeom

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

section Out
variable [FloatOps F]
variable (pr : (d : Dev nD) → Buf (Elt F) (prLoc d)) (fl : (d : Dev nD) → Buf (Elt F) (flLoc d))
  (cb : (d : Dev nD) → Buf (Elt F) (cbLoc d)) (o₀ : (d : Dev nD) → Buf (Elt F) (ouLoc d))
variable (d : Dev nD) (L : grid0.Coords)

/-- The tile's result rows after the chunks of the first k outer trips and of the first n slots of trip k. -/
def OMr (k n : ℕ) : Buf (Elt F) ((ouV).view.loc (V d (cV L) (jV L))) :=
  fun j => if (j 0).val < 25600 * (L 1).val + 12800 * (L 0).val + 256 * k + 64 * n then outF fl pr cb d j else o₀ d j

theorem OMr_zero (k : ℕ) : OMr pr fl cb o₀ d L k 0 = OM pr fl cb o₀ d L k := rfl

theorem OMr_four (k : ℕ) : OMr pr fl cb o₀ d L k 4 = OM pr fl cb o₀ d L (k + 1) := by
  funext j
  unfold OMr OM
  rw [show 25600 * (L 1).val + 12800 * (L 0).val + 256 * k + 64 * 4 = 25600 * (L 1).val + 12800 * (L 0).val + 256 * (k + 1) from by omega]

omit [FloatOps F] in
/-- Row ρ of slot b of trip k lies among the array's rows. -/
theorem ou_row_lt (k b ρ : ℕ) (hk : k < 50) (hb : b < 4) (hρ : ρ < 64) : 25600 * (L 1).val + 12800 * (L 0).val + 256 * k + 64 * b + ρ < 409600 := by
  have h0 : (L 0).val < 2 := (L 0).isLt
  have h1 : (L 1).val < 16 := (L 1).isLt
  omega

/-- A write through a rectangle that is exactly the 64 rows of slot n of trip k, of a payload that is the call's result
    function there, takes the rows done through slot n − 1 to the rows done through slot n. -/
theorem ou_write_gen (k n : ℕ) (R : Rect S409600x128) (hr : ∀ a, R.stride a = 1)
    (hmem : ∀ j : S409600x128.Idx, j ∈ R.set ↔ 25600 * (L 1).val + 12800 * (L 0).val + 256 * k + 64 * n ≤ (j 0).val
      ∧ (j 0).val < 25600 * (L 1).val + 12800 * (L 0).val + 256 * k + 64 * n + 64)
    (P : R.shape.Idx → Elt F .f32) (hP : ∀ x, P x = outF fl pr cb d (R.emb x))
    (j : Idx ((ouV).view.loc (V d (cV L) (jV L)))) :
    View.write (Elt F) ((ouV).slice R hr).view (OMr pr fl cb o₀ d L k n) P Finset.univ j
      = OMr pr fl cb o₀ d L k (n + 1) j := by
  by_cases hj : j ∈ R.set
  · obtain ⟨x, rfl⟩ := R.exists_idx_of_mem hj
    have h1 := View.read_slice_write_emb (v := (ouV).view) R (OMr pr fl cb o₀ d L k n) P (Finset.mem_univ x)
    refine (h1 : _).trans ?_
    rw [hP]
    show outF fl pr cb d (R.idx x) = OMr pr fl cb o₀ d L k (n + 1) (R.idx x)
    have hx := (hmem (R.idx x)).1 hj
    unfold OMr
    rw [if_pos (by omega)]
  · have h1 := View.read_slice_write_of_not_mem (v := (ouV).view) R (OMr pr fl cb o₀ d L k n) P Finset.univ (y := j)
      (by rw [Rect.map_emb_univ]; exact hj)
    refine (h1 : _).trans ?_
    show OMr pr fl cb o₀ d L k n j = OMr pr fl cb o₀ d L k (n + 1) j
    have hn := mt (hmem j).2 hj
    unfold OMr
    by_cases c : (j 0).val < 25600 * (L 1).val + 12800 * (L 0).val + 256 * k + 64 * n
    · rw [if_pos c, if_pos (by omega)]
    · rw [if_neg c, if_neg (by omega)]

/-- ONE SLOT'S COPY: through the window the body writes for slot b of trip k, a payload that is the call's result
    function on those 64 rows takes the rows done through slot b − 1 to the rows done through slot b. -/
theorem ou_step (k : Fin k0_t1_loop.trips) (b : Fin 4)
    (hr : ∀ a, (Rect.unit (s := S409600x128) (k0_off27 L k (BitVec.ofNat 32 b.val)) S64x128.size (k0_off27_inb L k b)).stride a = 1)
    (P : (Rect.unit (s := S409600x128) (k0_off27 L k (BitVec.ofNat 32 b.val)) S64x128.size (k0_off27_inb L k b)).shape.Idx → Elt F .f32)
    (hP : ∀ (ρ : Fin 64) (q : Fin 128), P (ix2 ρ q)
      = outF fl pr cb d (ix2 (⟨25600 * (L 1).val + 12800 * (L 0).val + 256 * k.val + 64 * b.val + ρ.val,
          ou_row_lt L k.val b.val ρ.val (Nat.lt_of_lt_of_le k.isLt k0_t1_abs.2.1) b.isLt ρ.isLt⟩ : Fin 409600) q)) :
    ∀ j ∈ (ouV).view.setOn (ouR L).set,
      View.write (Elt F) ((ouV).slice (Rect.unit (s := S409600x128) (k0_off27 L k (BitVec.ofNat 32 b.val)) S64x128.size (k0_off27_inb L k b)) hr).view
          (OMr pr fl cb o₀ d L k.val b.val) P Finset.univ j
        = OMr pr fl cb o₀ d L k.val (b.val + 1) j := by
  intro j _
  have hk : k.val < 50 := Nat.lt_of_lt_of_le k.isLt k0_t1_abs.2.1
  have hb : 256 * k.val + 64 * b.val + 64 ≤ 12800 := chR_bound hk b.isLt
  refine ou_write_gen pr fl cb o₀ d L k.val b.val _ hr (fun j => ?_) P (fun x => ?_) j
  · rw [chK_eq L k b hb]
    exact mem_chR_iff L k.val b.val hb j
  · obtain ⟨ρ, q, rfl⟩ : ∃ (ρ : Fin 64) (q : Fin 128), x = ix2 ρ q := ⟨x 0, x 1, eq_ix2 x⟩
    rw [hP]
    refine congrArg (outF fl pr cb d) ?_
    funext a
    refine Fin.ext ?_
    match a with
    | ⟨0, h0⟩ =>
      show 25600 * (L 1).val + 12800 * (L 0).val + 256 * k.val + 64 * b.val + ρ.val = (k0_off27 L k (BitVec.ofNat 32 b.val)) ⟨0, h0⟩ + 1 * ρ.val
      rw [k0_off27_eq L k b]
      show 25600 * (L 1).val + 12800 * (L 0).val + 256 * k.val + 64 * b.val + ρ.val = 25600 * (L 1).val + 12800 * (L 0).val + 256 * k.val + 64 * b.val + 1 * ρ.val
      omega
    | ⟨1, h1⟩ =>
      show q.val = (k0_off27 L k (BitVec.ofNat 32 b.val)) ⟨1, h1⟩ + 1 * q.val
      rw [k0_off27_eq L k b]
      show q.val = 0 + 1 * q.val
      omega

/-- The same, of the points-to of the tile's result rows. -/
theorem ou_step_pts (k : Fin k0_t1_loop.trips) (b : Fin 4)
    (hr : ∀ a, (Rect.unit (s := S409600x128) (k0_off27 L k (BitVec.ofNat 32 b.val)) S64x128.size (k0_off27_inb L k b)).stride a = 1)
    (P : (Rect.unit (s := S409600x128) (k0_off27 L k (BitVec.ofNat 32 b.val)) S64x128.size (k0_off27_inb L k b)).shape.Idx → Elt F .f32)
    (hP : ∀ (ρ : Fin 64) (q : Fin 128), P (ix2 ρ q)
      = outF fl pr cb d (ix2 (⟨25600 * (L 1).val + 12800 * (L 0).val + 256 * k.val + 64 * b.val + ρ.val,
          ou_row_lt L k.val b.val ρ.val (Nat.lt_of_lt_of_le k.isLt k0_t1_abs.2.1) b.isLt ρ.isLt⟩ : Fin 409600) q)) :
    ((ouV).view.loc (V d (cV L) (jV L)) ↦[(ouV).view.setOn (ouR L).set]{fullShare}
        View.write (Elt F) ((ouV).slice (Rect.unit (s := S409600x128) (k0_off27 L k (BitVec.ofNat 32 b.val)) S64x128.size (k0_off27_inb L k b)) hr).view
          (OMr pr fl cb o₀ d L k.val b.val) P Finset.univ : sProp 𝕄)
      = ((ouV).view.loc (V d (cV L) (jV L)) ↦[(ouV).view.setOn (ouR L).set]{fullShare} OMr pr fl cb o₀ d L k.val (b.val + 1)) :=
  pointsTo_congr (ou_step pr fl cb o₀ d L k b hr P hP)

/-- The landed block depends on the window's offset only through its value. -/
theorem GP_off_congr (off off' : ℕ) (e : off = off') (h : off + 128 ≤ 25600) (h' : off' + 128 ≤ 25600) :
    GP fl pr d L off h = GP fl pr d L off' h' := by
  subst e
  rfl

/-- What slot 0's write-out reads: rows 0..63 of the slot's contents, as they are. -/
theorem slot_out_read_0 (hr' : ∀ a, (Rect.unit (s := S128x128) ![0, 0] S64x128.size inb_S128x128_S64x128_0_0).stride a = 1) (X : S128x128.Idx → Elt F .f32)
    (x : (Rect.unit (s := S128x128) ![0, 0] S64x128.size inb_S128x128_S64x128_0_0).shape.Idx) :
    ReadAs.same.apply (View.read (Elt F) ((sl0).slice (Rect.unit (s := S128x128) ![0, 0] S64x128.size inb_S128x128_S64x128_0_0) hr').view X) x
      = X (ix2 (⟨(x 0).val, by have h : (x 0).val < 64 := (x 0).isLt; omega⟩ : Fin 128) (x 1)) := by
  show View.read (Elt F) ((sl0).slice (Rect.unit (s := S128x128) ![0, 0] S64x128.size inb_S128x128_S64x128_0_0) hr').view X x = _
  refine ((View.read_apply _ _).trans (cast_eq _ _)).trans ?_
  refine congrArg X ?_
  funext a
  refine Fin.ext ?_
  match a with
  | ⟨0, _⟩ =>
    show 0 + 1 * (x 0).val = (x 0).val
    omega
  | ⟨1, _⟩ =>
    show 0 + 1 * (x 1).val = (x 1).val
    omega

/-- SLOT 0'S PAYLOAD in outer trip k: the merged block of the chunk its gather landed (tokens from 512·k + 128·0 of
    the tile's), read through the write-out's window, is the call's result function on result rows
    256·k + 64·0 .. + 63 from the tile's first row. -/
theorem slot_payload_0 (hin : InRange fl) (k : Fin k0_t1_loop.trips)
    (f5 : Buf (Elt F) ((cfS).view.loc (V d (cV L) (jV L)))) (f0 : Buf (Elt F) ((tkS).view.loc (V d (cV L) (jV L))))
    (g : (sl0).view.ty.Contents (Elt F))
    (inb : ∀ a, (![512 * k.val + 128 * 0] : Fin 1 → Nat) a + S128.size a ≤ S25600.size a)
    (hr : ∀ a, (Rect.unit (s := S25600) ![512 * k.val + 128 * 0] S128.size inb).stride a = 1)
    (hp : ∀ a, (Rect.unit (s := S1000000x128) ![0, 0] S1000000x128.size inb_S1000000x128_S1000000x128_0_0).stride a = 1)
    (hn : S128.numel = S128x128.size gathers_S1000000x128_S128x128.axis')
    (hin' : ∀ x, ((View.read (Elt F) ((tkS).slice (Rect.unit (s := S25600) ![512 * k.val + 128 * 0] S128.size inb) hr).view (View.write (Elt F) (tkS).view f0 (ReadAs.same.apply (View.read (Elt F) (flSl L).view (fl d))) Finset.univ)) x).toNat < S1000000x128.size gathers_S1000000x128_S128x128.axis)
    (hr' : ∀ a, (Rect.unit (s := S128x128) ![0, 0] S64x128.size inb_S128x128_S64x128_0_0).stride a = 1) (x : (Rect.unit (s := S128x128) ![0, 0] S64x128.size inb_S128x128_S64x128_0_0).shape.Idx) :
    ReadAs.same.apply (View.read (Elt F) ((sl0).slice (Rect.unit (s := S128x128) ![0, 0] S64x128.size inb_S128x128_S64x128_0_0) hr').view
        (merged (c0M cb d L f5) (c1M cb d L f5)
          ((sl0).view.writes (Elt F) g [⟨Rect.whole S128x128, (SparseCore.gatherPayload (F := F) gathers_S1000000x128_S128x128 (View.read (Elt F) ((prV).slice (Rect.unit (s := S1000000x128) ![0, 0] S1000000x128.size inb_S1000000x128_S1000000x128_0_0) hp).view (pr d)) (SparseCore.rows (View.read (Elt F) ((tkS).slice (Rect.unit (s := S25600) ![512 * k.val + 128 * 0] S128.size inb) hr).view (View.write (Elt F) (tkS).view f0 (ReadAs.same.apply (View.read (Elt F) (flSl L).view (fl d))) Finset.univ)) hn hin'))⟩]))) x
      = outF fl pr cb d (ix2 (⟨25600 * (L 1).val + 12800 * (L 0).val + 256 * k.val + 64 * 0 + (x 0).val,
          ou_row_lt L k.val 0 (x 0).val (Nat.lt_of_lt_of_le k.isLt k0_t1_abs.2.1) (by decide) (x 0).isLt⟩ : Fin 409600) (x 1)) := by
  have hk : k.val < 50 := Nat.lt_of_lt_of_le k.isLt k0_t1_abs.2.1
  have hx0 : (x 0).val < 64 := (x 0).isLt
  rw [slot_out_read_0, writes_whole_sl0,
    gather_eq fl pr d L hin (512 * k.val + 128 * 0) (by omega) inb hr f0 hp hn hin',
    GP_off_congr pr fl d L (512 * k.val + 128 * 0) (128 * (4 * k.val + 0)) (by omega) (by omega) (by omega)]
  refine (chunk_eq fl pr cb d L f5 (4 * k.val + 0) (by omega) ⟨(x 0).val, hx0⟩ (x 1)).trans ?_
  refine congrArg (fun t => outF fl pr cb d (ix2 t (x 1))) (Fin.ext ?_)
  show 12800 * (2 * (L 1).val + (L 0).val) + 64 * (4 * k.val + 0) + (x 0).val
    = 25600 * (L 1).val + 12800 * (L 0).val + 256 * k.val + 64 * 0 + (x 0).val
  omega

/-- What slot 1's write-out reads: rows 0..63 of the slot's contents, as they are. -/
theorem slot_out_read_1 (hr' : ∀ a, (Rect.unit (s := S128x128) ![0, 0] S64x128.size inb_S128x128_S64x128_0_0).stride a = 1) (X : S128x128.Idx → Elt F .f32)
    (x : (Rect.unit (s := S128x128) ![0, 0] S64x128.size inb_S128x128_S64x128_0_0).shape.Idx) :
    ReadAs.same.apply (View.read (Elt F) ((sl1).slice (Rect.unit (s := S128x128) ![0, 0] S64x128.size inb_S128x128_S64x128_0_0) hr').view X) x
      = X (ix2 (⟨(x 0).val, by have h : (x 0).val < 64 := (x 0).isLt; omega⟩ : Fin 128) (x 1)) := by
  show View.read (Elt F) ((sl1).slice (Rect.unit (s := S128x128) ![0, 0] S64x128.size inb_S128x128_S64x128_0_0) hr').view X x = _
  refine ((View.read_apply _ _).trans (cast_eq _ _)).trans ?_
  refine congrArg X ?_
  funext a
  refine Fin.ext ?_
  match a with
  | ⟨0, _⟩ =>
    show 0 + 1 * (x 0).val = (x 0).val
    omega
  | ⟨1, _⟩ =>
    show 0 + 1 * (x 1).val = (x 1).val
    omega

/-- SLOT 1'S PAYLOAD in outer trip k: the merged block of the chunk its gather landed (tokens from 512·k + 128·1 of
    the tile's), read through the write-out's window, is the call's result function on result rows
    256·k + 64·1 .. + 63 from the tile's first row. -/
theorem slot_payload_1 (hin : InRange fl) (k : Fin k0_t1_loop.trips)
    (f5 : Buf (Elt F) ((cfS).view.loc (V d (cV L) (jV L)))) (f0 : Buf (Elt F) ((tkS).view.loc (V d (cV L) (jV L))))
    (g : (sl1).view.ty.Contents (Elt F))
    (inb : ∀ a, (![512 * k.val + 128 * 1] : Fin 1 → Nat) a + S128.size a ≤ S25600.size a)
    (hr : ∀ a, (Rect.unit (s := S25600) ![512 * k.val + 128 * 1] S128.size inb).stride a = 1)
    (hp : ∀ a, (Rect.unit (s := S1000000x128) ![0, 0] S1000000x128.size inb_S1000000x128_S1000000x128_0_0).stride a = 1)
    (hn : S128.numel = S128x128.size gathers_S1000000x128_S128x128.axis')
    (hin' : ∀ x, ((View.read (Elt F) ((tkS).slice (Rect.unit (s := S25600) ![512 * k.val + 128 * 1] S128.size inb) hr).view (View.write (Elt F) (tkS).view f0 (ReadAs.same.apply (View.read (Elt F) (flSl L).view (fl d))) Finset.univ)) x).toNat < S1000000x128.size gathers_S1000000x128_S128x128.axis)
    (hr' : ∀ a, (Rect.unit (s := S128x128) ![0, 0] S64x128.size inb_S128x128_S64x128_0_0).stride a = 1) (x : (Rect.unit (s := S128x128) ![0, 0] S64x128.size inb_S128x128_S64x128_0_0).shape.Idx) :
    ReadAs.same.apply (View.read (Elt F) ((sl1).slice (Rect.unit (s := S128x128) ![0, 0] S64x128.size inb_S128x128_S64x128_0_0) hr').view
        (merged (c0M cb d L f5) (c1M cb d L f5)
          ((sl1).view.writes (Elt F) g [⟨Rect.whole S128x128, (SparseCore.gatherPayload (F := F) gathers_S1000000x128_S128x128 (View.read (Elt F) ((prV).slice (Rect.unit (s := S1000000x128) ![0, 0] S1000000x128.size inb_S1000000x128_S1000000x128_0_0) hp).view (pr d)) (SparseCore.rows (View.read (Elt F) ((tkS).slice (Rect.unit (s := S25600) ![512 * k.val + 128 * 1] S128.size inb) hr).view (View.write (Elt F) (tkS).view f0 (ReadAs.same.apply (View.read (Elt F) (flSl L).view (fl d))) Finset.univ)) hn hin'))⟩]))) x
      = outF fl pr cb d (ix2 (⟨25600 * (L 1).val + 12800 * (L 0).val + 256 * k.val + 64 * 1 + (x 0).val,
          ou_row_lt L k.val 1 (x 0).val (Nat.lt_of_lt_of_le k.isLt k0_t1_abs.2.1) (by decide) (x 0).isLt⟩ : Fin 409600) (x 1)) := by
  have hk : k.val < 50 := Nat.lt_of_lt_of_le k.isLt k0_t1_abs.2.1
  have hx0 : (x 0).val < 64 := (x 0).isLt
  rw [slot_out_read_1, writes_whole_sl1,
    gather_eq fl pr d L hin (512 * k.val + 128 * 1) (by omega) inb hr f0 hp hn hin',
    GP_off_congr pr fl d L (512 * k.val + 128 * 1) (128 * (4 * k.val + 1)) (by omega) (by omega) (by omega)]
  refine (chunk_eq fl pr cb d L f5 (4 * k.val + 1) (by omega) ⟨(x 0).val, hx0⟩ (x 1)).trans ?_
  refine congrArg (fun t => outF fl pr cb d (ix2 t (x 1))) (Fin.ext ?_)
  show 12800 * (2 * (L 1).val + (L 0).val) + 64 * (4 * k.val + 1) + (x 0).val
    = 25600 * (L 1).val + 12800 * (L 0).val + 256 * k.val + 64 * 1 + (x 0).val
  omega

/-- What slot 2's write-out reads: rows 0..63 of the slot's contents, as they are. -/
theorem slot_out_read_2 (hr' : ∀ a, (Rect.unit (s := S128x128) ![0, 0] S64x128.size inb_S128x128_S64x128_0_0).stride a = 1) (X : S128x128.Idx → Elt F .f32)
    (x : (Rect.unit (s := S128x128) ![0, 0] S64x128.size inb_S128x128_S64x128_0_0).shape.Idx) :
    ReadAs.same.apply (View.read (Elt F) ((sl2).slice (Rect.unit (s := S128x128) ![0, 0] S64x128.size inb_S128x128_S64x128_0_0) hr').view X) x
      = X (ix2 (⟨(x 0).val, by have h : (x 0).val < 64 := (x 0).isLt; omega⟩ : Fin 128) (x 1)) := by
  show View.read (Elt F) ((sl2).slice (Rect.unit (s := S128x128) ![0, 0] S64x128.size inb_S128x128_S64x128_0_0) hr').view X x = _
  refine ((View.read_apply _ _).trans (cast_eq _ _)).trans ?_
  refine congrArg X ?_
  funext a
  refine Fin.ext ?_
  match a with
  | ⟨0, _⟩ =>
    show 0 + 1 * (x 0).val = (x 0).val
    omega
  | ⟨1, _⟩ =>
    show 0 + 1 * (x 1).val = (x 1).val
    omega

/-- SLOT 2'S PAYLOAD in outer trip k: the merged block of the chunk its gather landed (tokens from 512·k + 128·2 of
    the tile's), read through the write-out's window, is the call's result function on result rows
    256·k + 64·2 .. + 63 from the tile's first row. -/
theorem slot_payload_2 (hin : InRange fl) (k : Fin k0_t1_loop.trips)
    (f5 : Buf (Elt F) ((cfS).view.loc (V d (cV L) (jV L)))) (f0 : Buf (Elt F) ((tkS).view.loc (V d (cV L) (jV L))))
    (g : (sl2).view.ty.Contents (Elt F))
    (inb : ∀ a, (![512 * k.val + 128 * 2] : Fin 1 → Nat) a + S128.size a ≤ S25600.size a)
    (hr : ∀ a, (Rect.unit (s := S25600) ![512 * k.val + 128 * 2] S128.size inb).stride a = 1)
    (hp : ∀ a, (Rect.unit (s := S1000000x128) ![0, 0] S1000000x128.size inb_S1000000x128_S1000000x128_0_0).stride a = 1)
    (hn : S128.numel = S128x128.size gathers_S1000000x128_S128x128.axis')
    (hin' : ∀ x, ((View.read (Elt F) ((tkS).slice (Rect.unit (s := S25600) ![512 * k.val + 128 * 2] S128.size inb) hr).view (View.write (Elt F) (tkS).view f0 (ReadAs.same.apply (View.read (Elt F) (flSl L).view (fl d))) Finset.univ)) x).toNat < S1000000x128.size gathers_S1000000x128_S128x128.axis)
    (hr' : ∀ a, (Rect.unit (s := S128x128) ![0, 0] S64x128.size inb_S128x128_S64x128_0_0).stride a = 1) (x : (Rect.unit (s := S128x128) ![0, 0] S64x128.size inb_S128x128_S64x128_0_0).shape.Idx) :
    ReadAs.same.apply (View.read (Elt F) ((sl2).slice (Rect.unit (s := S128x128) ![0, 0] S64x128.size inb_S128x128_S64x128_0_0) hr').view
        (merged (c0M cb d L f5) (c1M cb d L f5)
          ((sl2).view.writes (Elt F) g [⟨Rect.whole S128x128, (SparseCore.gatherPayload (F := F) gathers_S1000000x128_S128x128 (View.read (Elt F) ((prV).slice (Rect.unit (s := S1000000x128) ![0, 0] S1000000x128.size inb_S1000000x128_S1000000x128_0_0) hp).view (pr d)) (SparseCore.rows (View.read (Elt F) ((tkS).slice (Rect.unit (s := S25600) ![512 * k.val + 128 * 2] S128.size inb) hr).view (View.write (Elt F) (tkS).view f0 (ReadAs.same.apply (View.read (Elt F) (flSl L).view (fl d))) Finset.univ)) hn hin'))⟩]))) x
      = outF fl pr cb d (ix2 (⟨25600 * (L 1).val + 12800 * (L 0).val + 256 * k.val + 64 * 2 + (x 0).val,
          ou_row_lt L k.val 2 (x 0).val (Nat.lt_of_lt_of_le k.isLt k0_t1_abs.2.1) (by decide) (x 0).isLt⟩ : Fin 409600) (x 1)) := by
  have hk : k.val < 50 := Nat.lt_of_lt_of_le k.isLt k0_t1_abs.2.1
  have hx0 : (x 0).val < 64 := (x 0).isLt
  rw [slot_out_read_2, writes_whole_sl2,
    gather_eq fl pr d L hin (512 * k.val + 128 * 2) (by omega) inb hr f0 hp hn hin',
    GP_off_congr pr fl d L (512 * k.val + 128 * 2) (128 * (4 * k.val + 2)) (by omega) (by omega) (by omega)]
  refine (chunk_eq fl pr cb d L f5 (4 * k.val + 2) (by omega) ⟨(x 0).val, hx0⟩ (x 1)).trans ?_
  refine congrArg (fun t => outF fl pr cb d (ix2 t (x 1))) (Fin.ext ?_)
  show 12800 * (2 * (L 1).val + (L 0).val) + 64 * (4 * k.val + 2) + (x 0).val
    = 25600 * (L 1).val + 12800 * (L 0).val + 256 * k.val + 64 * 2 + (x 0).val
  omega

/-- What slot 3's write-out reads: rows 0..63 of the slot's contents, as they are. -/
theorem slot_out_read_3 (hr' : ∀ a, (Rect.unit (s := S128x128) ![0, 0] S64x128.size inb_S128x128_S64x128_0_0).stride a = 1) (X : S128x128.Idx → Elt F .f32)
    (x : (Rect.unit (s := S128x128) ![0, 0] S64x128.size inb_S128x128_S64x128_0_0).shape.Idx) :
    ReadAs.same.apply (View.read (Elt F) ((sl3).slice (Rect.unit (s := S128x128) ![0, 0] S64x128.size inb_S128x128_S64x128_0_0) hr').view X) x
      = X (ix2 (⟨(x 0).val, by have h : (x 0).val < 64 := (x 0).isLt; omega⟩ : Fin 128) (x 1)) := by
  show View.read (Elt F) ((sl3).slice (Rect.unit (s := S128x128) ![0, 0] S64x128.size inb_S128x128_S64x128_0_0) hr').view X x = _
  refine ((View.read_apply _ _).trans (cast_eq _ _)).trans ?_
  refine congrArg X ?_
  funext a
  refine Fin.ext ?_
  match a with
  | ⟨0, _⟩ =>
    show 0 + 1 * (x 0).val = (x 0).val
    omega
  | ⟨1, _⟩ =>
    show 0 + 1 * (x 1).val = (x 1).val
    omega

/-- SLOT 3'S PAYLOAD in outer trip k: the merged block of the chunk its gather landed (tokens from 512·k + 128·3 of
    the tile's), read through the write-out's window, is the call's result function on result rows
    256·k + 64·3 .. + 63 from the tile's first row. -/
theorem slot_payload_3 (hin : InRange fl) (k : Fin k0_t1_loop.trips)
    (f5 : Buf (Elt F) ((cfS).view.loc (V d (cV L) (jV L)))) (f0 : Buf (Elt F) ((tkS).view.loc (V d (cV L) (jV L))))
    (g : (sl3).view.ty.Contents (Elt F))
    (inb : ∀ a, (![512 * k.val + 128 * 3] : Fin 1 → Nat) a + S128.size a ≤ S25600.size a)
    (hr : ∀ a, (Rect.unit (s := S25600) ![512 * k.val + 128 * 3] S128.size inb).stride a = 1)
    (hp : ∀ a, (Rect.unit (s := S1000000x128) ![0, 0] S1000000x128.size inb_S1000000x128_S1000000x128_0_0).stride a = 1)
    (hn : S128.numel = S128x128.size gathers_S1000000x128_S128x128.axis')
    (hin' : ∀ x, ((View.read (Elt F) ((tkS).slice (Rect.unit (s := S25600) ![512 * k.val + 128 * 3] S128.size inb) hr).view (View.write (Elt F) (tkS).view f0 (ReadAs.same.apply (View.read (Elt F) (flSl L).view (fl d))) Finset.univ)) x).toNat < S1000000x128.size gathers_S1000000x128_S128x128.axis)
    (hr' : ∀ a, (Rect.unit (s := S128x128) ![0, 0] S64x128.size inb_S128x128_S64x128_0_0).stride a = 1) (x : (Rect.unit (s := S128x128) ![0, 0] S64x128.size inb_S128x128_S64x128_0_0).shape.Idx) :
    ReadAs.same.apply (View.read (Elt F) ((sl3).slice (Rect.unit (s := S128x128) ![0, 0] S64x128.size inb_S128x128_S64x128_0_0) hr').view
        (merged (c0M cb d L f5) (c1M cb d L f5)
          ((sl3).view.writes (Elt F) g [⟨Rect.whole S128x128, (SparseCore.gatherPayload (F := F) gathers_S1000000x128_S128x128 (View.read (Elt F) ((prV).slice (Rect.unit (s := S1000000x128) ![0, 0] S1000000x128.size inb_S1000000x128_S1000000x128_0_0) hp).view (pr d)) (SparseCore.rows (View.read (Elt F) ((tkS).slice (Rect.unit (s := S25600) ![512 * k.val + 128 * 3] S128.size inb) hr).view (View.write (Elt F) (tkS).view f0 (ReadAs.same.apply (View.read (Elt F) (flSl L).view (fl d))) Finset.univ)) hn hin'))⟩]))) x
      = outF fl pr cb d (ix2 (⟨25600 * (L 1).val + 12800 * (L 0).val + 256 * k.val + 64 * 3 + (x 0).val,
          ou_row_lt L k.val 3 (x 0).val (Nat.lt_of_lt_of_le k.isLt k0_t1_abs.2.1) (by decide) (x 0).isLt⟩ : Fin 409600) (x 1)) := by
  have hk : k.val < 50 := Nat.lt_of_lt_of_le k.isLt k0_t1_abs.2.1
  have hx0 : (x 0).val < 64 := (x 0).isLt
  rw [slot_out_read_3, writes_whole_sl3,
    gather_eq fl pr d L hin (512 * k.val + 128 * 3) (by omega) inb hr f0 hp hn hin',
    GP_off_congr pr fl d L (512 * k.val + 128 * 3) (128 * (4 * k.val + 3)) (by omega) (by omega) (by omega)]
  refine (chunk_eq fl pr cb d L f5 (4 * k.val + 3) (by omega) ⟨(x 0).val, hx0⟩ (x 1)).trans ?_
  refine congrArg (fun t => outF fl pr cb d (ix2 t (x 1))) (Fin.ext ?_)
  show 12800 * (2 * (L 1).val + (L 0).val) + 64 * (4 * k.val + 3) + (x 0).val
    = 25600 * (L 1).val + 12800 * (L 0).val + 256 * k.val + 64 * 3 + (x 0).val
  omega

end Out

end Cert.Proof.KI

end
-- ==== Proof.TileLast.lean ====
/-
  The last outer trip's bookkeeping of the result rows: a slot's write-out puts the call's result function on its 64
  rows and leaves every other row alone, and the four windows of the last trip are exactly the rows between what was
  done before it and the end of the tile's rows.
-/
import proofs.«205127_g70231305225025_cont_9to1c4b_198_32_alg».proof.Proof.TileInvB
import proofs.«205127_g70231305225025_cont_9to1c4b_198_32_alg».proof.Proof.TileOut

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Last
variable [FloatOps F]
variable (pr : (d : Dev nD) → Buf (Elt F) (prLoc d)) (fl : (d : Dev nD) → Buf (Elt F) (flLoc d))
  (cb : (d : Dev nD) → Buf (Elt F) (cbLoc d)) (o₀ : (d : Dev nD) → Buf (Elt F) (ouLoc d))
variable (d : Dev nD) (L : grid0.Coords)

open Idealize.ShloMosaic.ValueIdx in
/-- A write through the window of slot b of trip k, of a payload that is the call's result function there, over any
    contents, is the call's result function on the window. -/
theorem win_outF (k : Fin k0_t1_loop.trips) (b : Fin 4)
    (hr : ∀ a, (Rect.unit (s := S409600x128) (k0_off27 L k (BitVec.ofNat 32 b.val)) S64x128.size (k0_off27_inb L k b)).stride a = 1)
    (f : Buf (Elt F) ((ouV).view.loc (V d (cV L) (jV L))))
    (P : (Rect.unit (s := S409600x128) (k0_off27 L k (BitVec.ofNat 32 b.val)) S64x128.size (k0_off27_inb L k b)).shape.Idx → Elt F .f32)
    (hP : ∀ (ρ : Fin 64) (q : Fin 128), P (ix2 ρ q)
      = outF fl pr cb d (ix2 (⟨25600 * (L 1).val + 12800 * (L 0).val + 256 * k.val + 64 * b.val + ρ.val,
          ou_row_lt L k.val b.val ρ.val (Nat.lt_of_lt_of_le k.isLt k0_t1_abs.2.1) b.isLt ρ.isLt⟩ : Fin 409600) q)) :
    ∀ j ∈ ((ouV).slice (Rect.unit (s := S409600x128) (k0_off27 L k (BitVec.ofNat 32 b.val)) S64x128.size (k0_off27_inb L k b)) hr).view.set,
      View.write (Elt F) ((ouV).slice (Rect.unit (s := S409600x128) (k0_off27 L k (BitVec.ofNat 32 b.val)) S64x128.size (k0_off27_inb L k b)) hr).view
        f P Finset.univ j = outF fl pr cb d j := by
  intro j hj
  have hj' : j ∈ (Rect.unit (s := S409600x128) (k0_off27 L k (BitVec.ofNat 32 b.val)) S64x128.size (k0_off27_inb L k b)).set := by
    have h2 := hj
    rwa [show ((ouV).slice (Rect.unit (s := S409600x128) (k0_off27 L k (BitVec.ofNat 32 b.val)) S64x128.size (k0_off27_inb L k b)) hr).view.set
      = (Rect.unit (s := S409600x128) (k0_off27 L k (BitVec.ofNat 32 b.val)) S64x128.size (k0_off27_inb L k b)).set from View.set_slice_whole _ _] at h2
  obtain ⟨x, rfl⟩ := (Rect.unit (s := S409600x128) (k0_off27 L k (BitVec.ofNat 32 b.val)) S64x128.size (k0_off27_inb L k b)).exists_idx_of_mem hj'
  refine (View.read_slice_write_emb (v := (ouV).view) _ f P (Finset.mem_univ x) : _).trans ?_
  obtain ⟨ρ, q, rfl⟩ : ∃ (ρ : Fin 64) (q : Fin 128), x = ix2 ρ q := ⟨x 0, x 1, eq_ix2 x⟩
  rw [hP]
  refine congrArg (outF fl pr cb d) ?_
  funext a
  refine Fin.ext ?_
  match a with
  | ⟨0, h0⟩ =>
    show 25600 * (L 1).val + 12800 * (L 0).val + 256 * k.val + 64 * b.val + ρ.val = (k0_off27 L k (BitVec.ofNat 32 b.val)) ⟨0, h0⟩ + 1 * ρ.val
    rw [k0_off27_eq L k b]
    show 25600 * (L 1).val + 12800 * (L 0).val + 256 * k.val + 64 * b.val + ρ.val = 25600 * (L 1).val + 12800 * (L 0).val + 256 * k.val + 64 * b.val + 1 * ρ.val
    omega
  | ⟨1, h1⟩ =>
    show q.val = (k0_off27 L k (BitVec.ofNat 32 b.val)) ⟨1, h1⟩ + 1 * q.val
    rw [k0_off27_eq L k b]
    show q.val = 0 + 1 * q.val
    omega

omit [FloatOps F] in
/-- Outside its window such a write leaves the contents. -/
theorem win_keep (k : Fin k0_t1_loop.trips) (b : Fin 4)
    (hr : ∀ a, (Rect.unit (s := S409600x128) (k0_off27 L k (BitVec.ofNat 32 b.val)) S64x128.size (k0_off27_inb L k b)).stride a = 1)
    (f : Buf (Elt F) ((ouV).view.loc (V d (cV L) (jV L))))
    (P : (Rect.unit (s := S409600x128) (k0_off27 L k (BitVec.ofNat 32 b.val)) S64x128.size (k0_off27_inb L k b)).shape.Idx → Elt F .f32)
    (j : S409600x128.Idx)
    (hj : j ∉ ((ouV).slice (Rect.unit (s := S409600x128) (k0_off27 L k (BitVec.ofNat 32 b.val)) S64x128.size (k0_off27_inb L k b)) hr).view.set) :
    View.write (Elt F) ((ouV).slice (Rect.unit (s := S409600x128) (k0_off27 L k (BitVec.ofNat 32 b.val)) S64x128.size (k0_off27_inb L k b)) hr).view
        f P Finset.univ j = f j := by
  have hj' : j ∉ (Rect.unit (s := S409600x128) (k0_off27 L k (BitVec.ofNat 32 b.val)) S64x128.size (k0_off27_inb L k b)).set := by
    intro h; apply hj
    rw [show ((ouV).slice (Rect.unit (s := S409600x128) (k0_off27 L k (BitVec.ofNat 32 b.val)) S64x128.size (k0_off27_inb L k b)) hr).view.set
      = (Rect.unit (s := S409600x128) (k0_off27 L k (BitVec.ofNat 32 b.val)) S64x128.size (k0_off27_inb L k b)).set from View.set_slice_whole _ _]
    exact h
  exact (View.read_slice_write_of_not_mem (v := (ouV).view) _ f P Finset.univ (y := j) (by rw [Rect.map_emb_univ]; exact hj') : _)

omit [FloatOps F] in
/-- An index outside the window of slot b of trip k has its row outside the slot's 64 rows. -/
theorem not_win_rows (k : Fin k0_t1_loop.trips) (b : Fin 4)
    (hr : ∀ a, (Rect.unit (s := S409600x128) (k0_off27 L k (BitVec.ofNat 32 b.val)) S64x128.size (k0_off27_inb L k b)).stride a = 1)
    (j : S409600x128.Idx)
    (hj : j ∉ ((ouV).slice (Rect.unit (s := S409600x128) (k0_off27 L k (BitVec.ofNat 32 b.val)) S64x128.size (k0_off27_inb L k b)) hr).view.set) :
    ¬ (25600 * (L 1).val + 12800 * (L 0).val + 256 * k.val + 64 * b.val ≤ (j 0).val
      ∧ (j 0).val < 25600 * (L 1).val + 12800 * (L 0).val + 256 * k.val + 64 * b.val + 64) := by
  intro hh
  apply hj
  have hk : k.val < 50 := Nat.lt_of_lt_of_le k.isLt k0_t1_abs.2.1
  have hb : 256 * k.val + 64 * b.val + 64 ≤ 12800 := chR_bound hk b.isLt
  have hm := (mem_chR_iff L k.val b.val hb j).2 hh
  rw [← chK_eq L k b hb] at hm
  rw [show ((ouV).slice (Rect.unit (s := S409600x128) (k0_off27 L k (BitVec.ofNat 32 b.val)) S64x128.size (k0_off27_inb L k b)) hr).view.set
      = (Rect.unit (s := S409600x128) (k0_off27 L k (BitVec.ofNat 32 b.val)) S64x128.size (k0_off27_inb L k b)).set from View.set_slice_whole _ _]
  exact hm

/-- Outside the four windows of the last trip the rows done before it are the rows done after it. -/
theorem OM_last (j : S409600x128.Idx)
    (h0 : ¬ (25600 * (L 1).val + 12800 * (L 0).val + 256 * 49 + 64 * 0 ≤ (j 0).val ∧ (j 0).val < 25600 * (L 1).val + 12800 * (L 0).val + 256 * 49 + 64 * 0 + 64))
    (h1 : ¬ (25600 * (L 1).val + 12800 * (L 0).val + 256 * 49 + 64 * 1 ≤ (j 0).val ∧ (j 0).val < 25600 * (L 1).val + 12800 * (L 0).val + 256 * 49 + 64 * 1 + 64))
    (h2 : ¬ (25600 * (L 1).val + 12800 * (L 0).val + 256 * 49 + 64 * 2 ≤ (j 0).val ∧ (j 0).val < 25600 * (L 1).val + 12800 * (L 0).val + 256 * 49 + 64 * 2 + 64))
    (h3 : ¬ (25600 * (L 1).val + 12800 * (L 0).val + 256 * 49 + 64 * 3 ≤ (j 0).val ∧ (j 0).val < 25600 * (L 1).val + 12800 * (L 0).val + 256 * 49 + 64 * 3 + 64)) :
    OM pr fl cb o₀ d L 49 j = OM pr fl cb o₀ d L 50 j := by
  unfold OM
  by_cases c : (j 0).val < 25600 * (L 1).val + 12800 * (L 0).val + 256 * 49
  · rw [if_pos c, if_pos (by omega)]
  · rw [if_neg c, if_neg (by omega)]

end Last

end Cert.Proof.KI

end
-- ==== Proof.TileEnd.lean ====
/-
  The parts of the tile's final state that do not depend on its loop: its scratch buffers and its semaphores handed
  back as the tile owns them, its result rows after the last outer trip, and its operands back at their shares.

  After 50 outer trips every one of the tile's 12800 result rows lies below 256·50 from its first row, so the rows
  hold the call's result function throughout.
-/
import proofs.«205127_g70231305225025_cont_9to1c4b_198_32_alg».proof.Proof.TileOut

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

section End
variable [FloatOps F]
variable (pr : (d : Dev nD) → Buf (Elt F) (prLoc d)) (fl : (d : Dev nD) → Buf (Elt F) (flLoc d))
  (cb : (d : Dev nD) → Buf (Elt F) (cbLoc d)) (o₀ : (d : Dev nD) → Buf (Elt F) (ouLoc d))
variable (d : Dev nD) (L : grid0.Coords)

omit [FloatOps F] in
/-- The six scratch buffers at some contents and the rest of the tile's buffers are the tile's scoped buffers. -/
theorem scopedBufs_back (hF : (K (F := F)).Facts) :
    (iprop((∃ f, (tkS).view.loc (V d (cV L) (jV L)) ↦{fullShare} f) ∗ (∃ f, (sl0).view.loc (V d (cV L) (jV L)) ↦{fullShare} f) ∗ (∃ f, (sl1).view.loc (V d (cV L) (jV L)) ↦{fullShare} f) ∗ (∃ f, (sl2).view.loc (V d (cV L) (jV L)) ↦{fullShare} f) ∗ (∃ f, (sl3).view.loc (V d (cV L) (jV L)) ↦{fullShare} f) ∗ (∃ f, (cfS).view.loc (V d (cV L) (jV L)) ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) : sProp 𝕄) ⊢ scopedBufs (V d (cV L) (jV L)) := by
  refine Entails.of_eq ?_
  rw [(K (F := F)).scopedBufs_V hF d (cV L) (jV L), ownBufs_V]

omit [FloatOps F] in
/-- The ten DMA semaphores at zero and the rest of the tile's cells at zero are the tile's scoped semaphores at zero. -/
theorem scopedSems0_back :
    (iprop(semVal ((V d (cV L) (jV L), SemLoc.dma cc0_scratch6.sem) : GSem nD τ sig) 0 ∗ semVal ((V d (cV L) (jV L), SemLoc.dma cc0_scratch7.sem) : GSem nD τ sig) 0 ∗ semVal ((V d (cV L) (jV L), SemLoc.dma cc0_scratch8.sem) : GSem nD τ sig) 0 ∗ semVal ((V d (cV L) (jV L), SemLoc.dma cc0_scratch9.sem) : GSem nD τ sig) 0 ∗ semVal ((V d (cV L) (jV L), SemLoc.dma cc0_scratch10.sem) : GSem nD τ sig) 0 ∗ semVal ((V d (cV L) (jV L), SemLoc.dma cc0_scratch11.sem) : GSem nD τ sig) 0 ∗ semVal ((V d (cV L) (jV L), SemLoc.dma cc0_scratch12.sem) : GSem nD τ sig) 0 ∗ semVal ((V d (cV L) (jV L), SemLoc.dma cc0_scratch13.sem) : GSem nD τ sig) 0 ∗ semVal ((V d (cV L) (jV L), SemLoc.dma cc0_scoped0.sem) : GSem nD τ sig) 0 ∗ semVal ((V d (cV L) (jV L), SemLoc.dma cc0_scoped1.sem) : GSem nD τ sig) 0
          ∗ bigSep (((((((((((ownCells (V d (cV L) (jV L))).erase (cellOf d L cc0_scratch6.sem)).erase (cellOf d L cc0_scratch7.sem)).erase (cellOf d L cc0_scratch8.sem)).erase (cellOf d L cc0_scratch9.sem)).erase (cellOf d L cc0_scratch10.sem)).erase (cellOf d L cc0_scratch11.sem)).erase (cellOf d L cc0_scratch12.sem)).erase (cellOf d L cc0_scratch13.sem)).erase (cellOf d L cc0_scoped0.sem)).erase (cellOf d L cc0_scoped1.sem)) fun g => semVal g 0) : sProp 𝕄) ⊢ scopedSems0 (V d (cV L) (jV L)) := by
  refine Entails.of_eq ?_
  rw [SparseCore.Cfg.scopedSems0_V (Val := Elt F) d (cV L) (jV L), ownSems0_V]

/-- After the 50th outer trip the tile's result rows hold the call's result function. -/
theorem ou_final :
    (((ouV).view.loc (V d (cV L) (jV L)) ↦[(ouV).view.setOn (ouR L).set]{fullShare} OM pr fl cb o₀ d L 50) : sProp 𝕄)
      = ((ouV).view.loc (V d (cV L) (jV L)) ↦[(ouV).view.setOn (ouR L).set]{fullShare} outF fl pr cb d) :=
  pointsTo_congr fun j hj => by
    have hm : j ∈ (ouR L).set := by
      obtain ⟨y, hy, rfl⟩ := Finset.mem_map.mp hj
      exact hy
    have hrow := (mem_ouR_iff L j).1 hm
    unfold OM
    rw [if_pos (by omega)]

/-- The same, from the rows as the fourth slot of the last trip leaves them. -/
theorem ou_final_r :
    (((ouV).view.loc (V d (cV L) (jV L)) ↦[(ouV).view.setOn (ouR L).set]{fullShare} OMr pr fl cb o₀ d L 49 4) : sProp 𝕄)
      = ((ouV).view.loc (V d (cV L) (jV L)) ↦[(ouV).view.setOn (ouR L).set]{fullShare} outF fl pr cb d) := by
  rw [OMr_four]
  exact ou_final pr fl cb o₀ d L

/-- The tile's tokens, its two read shares and its result rows at the call's result function are what it hands back. -/
theorem tileTd_back :
    (iprop(((flSl L).view.loc (V d (cV L) (jV L)) ↦[(flSl L).view.set]{fullShare} fl d)
        ∗ ((prV).view.loc (V d (cV L) (jV L)) ↦{rq (wL L)} pr d)
        ∗ ((cbV).view.loc (V d (cV L) (jV L)) ↦{rq (wL L)} cb d)
        ∗ ((ouV).view.loc (V d (cV L) (jV L)) ↦[(ouV).view.setOn (ouR L).set]{fullShare} outF fl pr cb d)) : sProp 𝕄)
      ⊢ tileTd fl pr cb d (wL L) := by
  rw [pts_fl, pts_pr, pts_cb, pts_ou]
  iintro ⟨Hf, Hp, Hc, Ho⟩
  isplitl [Hf Hp Hc]
  · isplitl [Hf]; · iexact Hf
    isplitl [Hp]; · iexact Hp
    iexact Hc
  iexact Ho

omit [FloatOps F] in
/-- The pair table's remainder and four tokens are its one read share again. -/
theorem toks_pr_back (I : Finset (Idx ((prV).view.loc (V d (cV L) (jV L))))) (f : Buf (Elt F) ((prV).view.loc (V d (cV L) (jV L)))) :
    (iprop(((prV).view.loc (V d (cV L) (jV L)) ↦[I]{Transfers.shareDrop (rq (wL L)) 4} f)
        ∗ ((prV).view.loc (V d (cV L) (jV L)) ↦[I]{Transfers.shareTokN (rq (wL L)) 0} f)
        ∗ ((prV).view.loc (V d (cV L) (jV L)) ↦[I]{Transfers.shareTokN (rq (wL L)) 1} f)
        ∗ ((prV).view.loc (V d (cV L) (jV L)) ↦[I]{Transfers.shareTokN (rq (wL L)) 2} f)
        ∗ ((prV).view.loc (V d (cV L) (jV L)) ↦[I]{Transfers.shareTokN (rq (wL L)) 3} f)) : sProp 𝕄)
      ⊢ (prV).view.loc (V d (cV L) (jV L)) ↦[I]{rq (wL L)} f :=
  Entails.of_eq (pts_toks4 I f (rq (wL L))).symm

omit [FloatOps F] in
/-- The token scratch's remainder and four tokens are the whole share again. -/
theorem toks_tk_back (I : Finset (Idx ((tkS).view.loc (V d (cV L) (jV L))))) (f : Buf (Elt F) ((tkS).view.loc (V d (cV L) (jV L)))) :
    (iprop(((tkS).view.loc (V d (cV L) (jV L)) ↦[I]{Transfers.shareDrop fullShare 4} f)
        ∗ ((tkS).view.loc (V d (cV L) (jV L)) ↦[I]{Transfers.shareTokN fullShare 0} f)
        ∗ ((tkS).view.loc (V d (cV L) (jV L)) ↦[I]{Transfers.shareTokN fullShare 1} f)
        ∗ ((tkS).view.loc (V d (cV L) (jV L)) ↦[I]{Transfers.shareTokN fullShare 2} f)
        ∗ ((tkS).view.loc (V d (cV L) (jV L)) ↦[I]{Transfers.shareTokN fullShare 3} f)) : sProp 𝕄)
      ⊢ (tkS).view.loc (V d (cV L) (jV L)) ↦[I]{fullShare} f :=
  Entails.of_eq (pts_toks4 I f fullShare).symm

end End

end Cert.Proof.KI

end
-- ==== Proof.TileEndGeom.lean ====
/-
  The tile's result rows put back together after the last outer trip: the four 64-row windows the slots wrote in
  trip 49 and what is left of the tile's 12800 rows are all of them, and after 50 trips every one of them holds the
  call's result function.
-/
import proofs.«205127_g70231305225025_cont_9to1c4b_198_32_alg».proof.Proof.TileEnd

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

section Geo
variable (d : Dev nD) (L : grid0.Coords)

abbrev ouWinX (k : Fin k0_t1_loop.trips) (w : BitVec 32) (inb : ∀ a, (k0_off27 L k w) a + S64x128.size a ≤ S409600x128.size a) :
    Finset S409600x128.Idx :=
  ((ouV).slice (Rect.unit (s := S409600x128) (k0_off27 L k w) S64x128.size inb) (fun _ => rfl)).view.set

abbrev ouRestX (k : Fin k0_t1_loop.trips) : Finset S409600x128.Idx :=
  ((((ouV).view.setOn (ouR L).set \ ouWinX L k 0#32 (k0_off27_inb L k 0)) \ ouWinX L k 1#32 (k0_off27_inb L k 1))
    \ ouWinX L k 2#32 (k0_off27_inb L k 2)) \ ouWinX L k 3#32 (k0_off27_inb L k 3)

/-- An index lies under the tile's result rows exactly when its row number is one of them. -/
theorem mem_setOn_ouR_iff (j : S409600x128.Idx) :
    j ∈ (ouV).view.setOn (ouR L).set ↔ 25600 * (L 1).val + 12800 * (L 0).val ≤ (j 0).val ∧ (j 0).val < 25600 * (L 1).val + 12800 * (L 0).val + 12800 := by
  have e : (ouV).view.setOn (ouR L).set = (ouR L).set := Finset.map_refl
  rw [e]
  exact mem_ouR_iff L j

/-- An index lies in the window slot b writes in outer trip k exactly when its row number is one of the slot's 64. -/
theorem mem_ouWin_iff (k : Fin k0_t1_loop.trips) (b : Fin 4) (w : BitVec 32) (hw : w = BitVec.ofNat 32 b.val)
    (inb : ∀ a, (k0_off27 L k w) a + S64x128.size a ≤ S409600x128.size a) (j : S409600x128.Idx) :
    j ∈ ouWinX L k w inb ↔ 25600 * (L 1).val + 12800 * (L 0).val + 256 * k.val + 64 * b.val ≤ (j 0).val
      ∧ (j 0).val < 25600 * (L 1).val + 12800 * (L 0).val + 256 * k.val + 64 * b.val + 64 := by
  subst hw
  have hk : k.val < 50 := Nat.lt_of_lt_of_le k.isLt k0_t1_abs.2.1
  have hb : 256 * k.val + 64 * b.val + 64 ≤ 12800 := chR_bound hk b.isLt
  have e : ouWinX L k (BitVec.ofNat 32 b.val) inb = (chR L k.val b.val hb).set := by
    show ((View.whole (main_v4_scv : Ref sig .scVector)).slice _).set = _
    rw [View.set_slice_whole, chK_eq L k b hb]
  rw [e]
  exact mem_chR_iff L k.val b.val hb j

/-- On the tile's rows, the rows after 50 outer trips hold the call's result function. -/
theorem OM_fifty_apply [FloatOps F] (pr : (d : Dev nD) → Buf (Elt F) (prLoc d)) (fl : (d : Dev nD) → Buf (Elt F) (flLoc d))
    (cb : (d : Dev nD) → Buf (Elt F) (cbLoc d)) (o₀ : (d : Dev nD) → Buf (Elt F) (ouLoc d)) (j : S409600x128.Idx)
    (hj : j ∈ (ouV).view.setOn (ouR L).set) : OM pr fl cb o₀ d L 50 j = outF fl pr cb d j := by
  have hrow := (mem_setOn_ouR_iff L j).1 hj
  unfold OM
  rw [if_pos (by omega)]

/-- What is left of the tile's rows after the four windows lies in the tile's rows. -/
theorem ouRestX_subset (k : Fin k0_t1_loop.trips) : ouRestX L k ⊆ (ouV).view.setOn (ouR L).set := fun j hj =>
  (Finset.mem_sdiff.mp (Finset.mem_sdiff.mp (Finset.mem_sdiff.mp (Finset.mem_sdiff.mp hj).1).1).1).1

omit d L in
/-- Four parts carved one after another out of a set, and what is left, held at one contents, are the set at it. -/
theorem pts_join5 {ℓ : Loc nD τ sig} {q : PosShare TreeShare} {G : Buf (Elt F) ℓ} {S w0 w1 w2 w3 : Finset (Idx ℓ)}
    (h0 : w0 ⊆ S) (h1 : w1 ⊆ S \ w0) (h2 : w2 ⊆ (S \ w0) \ w1) (h3 : w3 ⊆ ((S \ w0) \ w1) \ w2) :
    (iprop((ℓ ↦[(((S \ w0) \ w1) \ w2) \ w3]{q} G) ∗ (ℓ ↦[w0]{q} G) ∗ (ℓ ↦[w1]{q} G) ∗ (ℓ ↦[w2]{q} G) ∗ (ℓ ↦[w3]{q} G)) : sProp 𝕄)
      ⊢ ℓ ↦[S]{q} G := by
  iintro ⟨HR, H0, H1, H2, H3⟩
  ihave A3 := (pointsTo_split_subset (f := G) (q := q) h3).2 $$ [H3 HR]
  · isplitl [H3]; · iexact H3
    iexact HR
  ihave A2 := (pointsTo_split_subset (f := G) (q := q) h2).2 $$ [H2 A3]
  · isplitl [H2]; · iexact H2
    iexact A3
  ihave A1 := (pointsTo_split_subset (f := G) (q := q) h1).2 $$ [H1 A2]
  · isplitl [H1]; · iexact H1
    iexact A2
  iapply (pointsTo_split_subset (f := G) (q := q) h0).2
  isplitl [H0]; · iexact H0
  iexact A1

/-- THE RESULT ROWS REJOINED after the last trip: four windows of 64 rows each (slots 0..3 of trip k = 49) and the rest
    of the tile's rows, each agreeing with one function G on its own indices, are the tile's rows at G. -/
theorem ou_join (k : ℕ) (hk49 : k = 49) (w0 w1 w2 w3 : Finset S409600x128.Idx)
    (m0 : ∀ j : S409600x128.Idx, j ∈ w0 ↔ 25600 * (L 1).val + 12800 * (L 0).val + 256 * k + 64 * 0 ≤ (j 0).val ∧ (j 0).val < 25600 * (L 1).val + 12800 * (L 0).val + 256 * k + 64 * 0 + 64)
    (m1 : ∀ j : S409600x128.Idx, j ∈ w1 ↔ 25600 * (L 1).val + 12800 * (L 0).val + 256 * k + 64 * 1 ≤ (j 0).val ∧ (j 0).val < 25600 * (L 1).val + 12800 * (L 0).val + 256 * k + 64 * 1 + 64)
    (m2 : ∀ j : S409600x128.Idx, j ∈ w2 ↔ 25600 * (L 1).val + 12800 * (L 0).val + 256 * k + 64 * 2 ≤ (j 0).val ∧ (j 0).val < 25600 * (L 1).val + 12800 * (L 0).val + 256 * k + 64 * 2 + 64)
    (m3 : ∀ j : S409600x128.Idx, j ∈ w3 ↔ 25600 * (L 1).val + 12800 * (L 0).val + 256 * k + 64 * 3 ≤ (j 0).val ∧ (j 0).val < 25600 * (L 1).val + 12800 * (L 0).val + 256 * k + 64 * 3 + 64)
    (G C0 C1 C2 C3 CR : Buf (Elt F) ((ouV).view.loc (V d (cV L) (jV L))))
    (hC0 : ∀ j ∈ w0, C0 j = G j) (hC1 : ∀ j ∈ w1, C1 j = G j) (hC2 : ∀ j ∈ w2, C2 j = G j) (hC3 : ∀ j ∈ w3, C3 j = G j)
    (hCR : ∀ j ∈ (((((ouV).view.setOn (ouR L).set \ w0) \ w1) \ w2) \ w3), CR j = G j) :
    (iprop(((ouV).view.loc (V d (cV L) (jV L)) ↦[(((((ouV).view.setOn (ouR L).set \ w0) \ w1) \ w2) \ w3)]{fullShare} CR)
        ∗ ((ouV).view.loc (V d (cV L) (jV L)) ↦[w0]{fullShare} C0)
        ∗ ((ouV).view.loc (V d (cV L) (jV L)) ↦[w1]{fullShare} C1)
        ∗ ((ouV).view.loc (V d (cV L) (jV L)) ↦[w2]{fullShare} C2)
        ∗ ((ouV).view.loc (V d (cV L) (jV L)) ↦[w3]{fullShare} C3)) : sProp 𝕄)
      ⊢ (ouV).view.loc (V d (cV L) (jV L)) ↦[(ouV).view.setOn (ouR L).set]{fullShare} G := by
  have mS := mem_setOn_ouR_iff L
  subst hk49
  have hstep : (iprop(((ouV).view.loc (V d (cV L) (jV L)) ↦[(((((ouV).view.setOn (ouR L).set \ w0) \ w1) \ w2) \ w3)]{fullShare} CR) ∗ ((ouV).view.loc (V d (cV L) (jV L)) ↦[w0]{fullShare} C0) ∗ ((ouV).view.loc (V d (cV L) (jV L)) ↦[w1]{fullShare} C1)
        ∗ ((ouV).view.loc (V d (cV L) (jV L)) ↦[w2]{fullShare} C2) ∗ ((ouV).view.loc (V d (cV L) (jV L)) ↦[w3]{fullShare} C3)) : sProp 𝕄)
      ⊢ iprop(((ouV).view.loc (V d (cV L) (jV L)) ↦[(((((ouV).view.setOn (ouR L).set \ w0) \ w1) \ w2) \ w3)]{fullShare} G) ∗ ((ouV).view.loc (V d (cV L) (jV L)) ↦[w0]{fullShare} G) ∗ ((ouV).view.loc (V d (cV L) (jV L)) ↦[w1]{fullShare} G)
        ∗ ((ouV).view.loc (V d (cV L) (jV L)) ↦[w2]{fullShare} G) ∗ ((ouV).view.loc (V d (cV L) (jV L)) ↦[w3]{fullShare} G)) := by
    iintro ⟨HR, H0, H1, H2, H3⟩
    isplitl [HR]
    · iapply (Entails.of_eq (pointsTo_congr hCR)); iexact HR
    isplitl [H0]
    · iapply (Entails.of_eq (pointsTo_congr hC0)); iexact H0
    isplitl [H1]
    · iapply (Entails.of_eq (pointsTo_congr hC1)); iexact H1
    isplitl [H2]
    · iapply (Entails.of_eq (pointsTo_congr hC2)); iexact H2
    iapply (Entails.of_eq (pointsTo_congr hC3)); iexact H3
  refine hstep.trans (pts_join5 (G := G) (S := (ouV).view.setOn (ouR L).set) (w0 := w0) (w1 := w1) (w2 := w2) (w3 := w3) ?_ ?_ ?_ ?_)
  · intro j hj
    have h0 := (m0 j).1 hj
    exact (mS j).2 (by omega)
  · intro j hj
    have h1 := (m1 j).1 hj
    refine Finset.mem_sdiff.mpr ⟨(mS j).2 (by omega), fun h => ?_⟩
    have h0 := (m0 j).1 h
    omega
  · intro j hj
    have h2 := (m2 j).1 hj
    refine Finset.mem_sdiff.mpr ⟨Finset.mem_sdiff.mpr ⟨(mS j).2 (by omega), fun h => ?_⟩, fun h => ?_⟩
    · have h0 := (m0 j).1 h
      omega
    · have h1 := (m1 j).1 h
      omega
  · intro j hj
    have h3 := (m3 j).1 hj
    refine Finset.mem_sdiff.mpr ⟨Finset.mem_sdiff.mpr ⟨Finset.mem_sdiff.mpr ⟨(mS j).2 (by omega), fun h => ?_⟩,
      fun h => ?_⟩, fun h => ?_⟩
    · have h0 := (m0 j).1 h
      omega
    · have h1 := (m1 j).1 h
      omega
    · have h2 := (m2 j).1 h
      omega

end Geo

end Cert.Proof.KI

end
-- ==== Proof.TileOutN.lean ====
import proofs.«205127_g70231305225025_cont_9to1c4b_198_32_alg».proof.Proof.TileOut

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section OutN
variable [FloatOps F]
variable (pr : (d : Dev nD) → Buf (Elt F) (prLoc d)) (fl : (d : Dev nD) → Buf (Elt F) (flLoc d))
  (cb : (d : Dev nD) → Buf (Elt F) (cbLoc d)) (o₀ : (d : Dev nD) → Buf (Elt F) (ouLoc d))
variable (d : Dev nD) (L : grid0.Coords)

set_option maxHeartbeats 4000000 in
/-- Slot 0's write-out of its merged chunk of trip k advances the done rows by its 64 rows. -/
theorem ou_norm0 (hin : InRange fl) (k : Fin k0_t1_loop.trips) (f5 : Buf (Elt F) ((cfS).view.loc (V d (cV L) (jV L))))
    (f0 : Buf (Elt F) ((tkS).view.loc (V d (cV L) (jV L))))
    (inb : ∀ a, (![512 * k.val + 128 * 0] : Fin 1 → ℕ) a + S128.size a ≤ S25600.size a)
    (hr : ∀ a, (Rect.unit (s := S25600) ![512 * k.val + 128 * 0] S128.size inb).stride a = 1)
    (hn : (Rect.unit (s := S25600) ![512 * k.val + 128 * 0] S128.size inb).shape.numel = S128x128.size gathers_S1000000x128_S128x128.axis')
    (hin' : ∀ x, (View.read (Elt F) ((tkS).slice (Rect.unit (s := S25600) ![512 * k.val + 128 * 0] S128.size inb) hr).view (View.write (Elt F) (tkS).view f0 (ReadAs.same.apply (View.read (Elt F) (flSl L).view (fl d))) Finset.univ) x).toNat < S1000000x128.size gathers_S1000000x128_S128x128.axis)
    (hp : ∀ a, (Rect.unit (s := S1000000x128) ![0, 0] S1000000x128.size inb_S1000000x128_S1000000x128_0_0).stride a = 1)
    (hr' : ∀ a, (Rect.unit (s := S128x128) ![0, 0] S64x128.size inb_S128x128_S64x128_0_0).stride a = 1)
    (b : Fin 4) (hb : b.val = 0)
    (hrO : ∀ a, (Rect.unit (s := S409600x128) (k0_off27 L k (BitVec.ofNat 32 b.val)) S64x128.size (k0_off27_inb L k b)).stride a = 1) :
    (((ouV).view.loc (V d (cV L) (jV L)) ↦[(ouV).view.setOn (ouR L).set]{fullShare}
        View.write (Elt F) ((ouV).slice (Rect.unit (s := S409600x128) (k0_off27 L k (BitVec.ofNat 32 b.val)) S64x128.size (k0_off27_inb L k b)) hrO).view
          (OMr pr fl cb o₀ d L k.val b.val) (ReadAs.same.apply (View.read (Elt F) ((sl0).slice (Rect.unit (s := S128x128) ![0, 0] S64x128.size inb_S128x128_S64x128_0_0) hr').view (merged (c0M cb d L f5) (c1M cb d L f5) ((sl0).view.writes (Elt F) (sl0).view.junk [⟨Rect.whole S128x128, SparseCore.gatherPayload (F := F) gathers_S1000000x128_S128x128 (View.read (Elt F) ((prV).slice (Rect.unit (s := S1000000x128) ![0, 0] S1000000x128.size inb_S1000000x128_S1000000x128_0_0) hp).view (pr d)) (SparseCore.rows (View.read (Elt F) ((tkS).slice (Rect.unit (s := S25600) ![512 * k.val + 128 * 0] S128.size inb) hr).view (View.write (Elt F) (tkS).view f0 (ReadAs.same.apply (View.read (Elt F) (flSl L).view (fl d))) Finset.univ)) hn hin')⟩])))) Finset.univ) : sProp 𝕄)
      ⊢ ((ouV).view.loc (V d (cV L) (jV L)) ↦[(ouV).view.setOn (ouR L).set]{fullShare} OMr pr fl cb o₀ d L k.val (b.val + 1)) := by
  obtain rfl : b = ⟨0, by decide⟩ := Fin.ext hb
  exact Entails.of_eq (ou_step_pts (F := F) pr fl cb o₀ d L k ⟨0, by decide⟩ hrO _
    (fun ρ q => slot_payload_0 (F := F) pr fl cb d L hin k f5 f0 (sl0).view.junk inb hr hp hn hin' hr' (Idealize.ShloMosaic.ValueIdx.ix2 ρ q)))

set_option maxHeartbeats 4000000 in
/-- Slot 1's write-out of its merged chunk of trip k advances the done rows by its 64 rows. -/
theorem ou_norm1 (hin : InRange fl) (k : Fin k0_t1_loop.trips) (f5 : Buf (Elt F) ((cfS).view.loc (V d (cV L) (jV L))))
    (f0 : Buf (Elt F) ((tkS).view.loc (V d (cV L) (jV L))))
    (inb : ∀ a, (![512 * k.val + 128 * 1] : Fin 1 → ℕ) a + S128.size a ≤ S25600.size a)
    (hr : ∀ a, (Rect.unit (s := S25600) ![512 * k.val + 128 * 1] S128.size inb).stride a = 1)
    (hn : (Rect.unit (s := S25600) ![512 * k.val + 128 * 1] S128.size inb).shape.numel = S128x128.size gathers_S1000000x128_S128x128.axis')
    (hin' : ∀ x, (View.read (Elt F) ((tkS).slice (Rect.unit (s := S25600) ![512 * k.val + 128 * 1] S128.size inb) hr).view (View.write (Elt F) (tkS).view f0 (ReadAs.same.apply (View.read (Elt F) (flSl L).view (fl d))) Finset.univ) x).toNat < S1000000x128.size gathers_S1000000x128_S128x128.axis)
    (hp : ∀ a, (Rect.unit (s := S1000000x128) ![0, 0] S1000000x128.size inb_S1000000x128_S1000000x128_0_0).stride a = 1)
    (hr' : ∀ a, (Rect.unit (s := S128x128) ![0, 0] S64x128.size inb_S128x128_S64x128_0_0).stride a = 1)
    (b : Fin 4) (hb : b.val = 1)
    (hrO : ∀ a, (Rect.unit (s := S409600x128) (k0_off27 L k (BitVec.ofNat 32 b.val)) S64x128.size (k0_off27_inb L k b)).stride a = 1) :
    (((ouV).view.loc (V d (cV L) (jV L)) ↦[(ouV).view.setOn (ouR L).set]{fullShare}
        View.write (Elt F) ((ouV).slice (Rect.unit (s := S409600x128) (k0_off27 L k (BitVec.ofNat 32 b.val)) S64x128.size (k0_off27_inb L k b)) hrO).view
          (OMr pr fl cb o₀ d L k.val b.val) (ReadAs.same.apply (View.read (Elt F) ((sl1).slice (Rect.unit (s := S128x128) ![0, 0] S64x128.size inb_S128x128_S64x128_0_0) hr').view (merged (c0M cb d L f5) (c1M cb d L f5) ((sl1).view.writes (Elt F) (sl1).view.junk [⟨Rect.whole S128x128, SparseCore.gatherPayload (F := F) gathers_S1000000x128_S128x128 (View.read (Elt F) ((prV).slice (Rect.unit (s := S1000000x128) ![0, 0] S1000000x128.size inb_S1000000x128_S1000000x128_0_0) hp).view (pr d)) (SparseCore.rows (View.read (Elt F) ((tkS).slice (Rect.unit (s := S25600) ![512 * k.val + 128 * 1] S128.size inb) hr).view (View.write (Elt F) (tkS).view f0 (ReadAs.same.apply (View.read (Elt F) (flSl L).view (fl d))) Finset.univ)) hn hin')⟩])))) Finset.univ) : sProp 𝕄)
      ⊢ ((ouV).view.loc (V d (cV L) (jV L)) ↦[(ouV).view.setOn (ouR L).set]{fullShare} OMr pr fl cb o₀ d L k.val (b.val + 1)) := by
  obtain rfl : b = ⟨1, by decide⟩ := Fin.ext hb
  exact Entails.of_eq (ou_step_pts (F := F) pr fl cb o₀ d L k ⟨1, by decide⟩ hrO _
    (fun ρ q => slot_payload_1 (F := F) pr fl cb d L hin k f5 f0 (sl1).view.junk inb hr hp hn hin' hr' (Idealize.ShloMosaic.ValueIdx.ix2 ρ q)))

set_option maxHeartbeats 4000000 in
/-- Slot 2's write-out of its merged chunk of trip k advances the done rows by its 64 rows. -/
theorem ou_norm2 (hin : InRange fl) (k : Fin k0_t1_loop.trips) (f5 : Buf (Elt F) ((cfS).view.loc (V d (cV L) (jV L))))
    (f0 : Buf (Elt F) ((tkS).view.loc (V d (cV L) (jV L))))
    (inb : ∀ a, (![512 * k.val + 128 * 2] : Fin 1 → ℕ) a + S128.size a ≤ S25600.size a)
    (hr : ∀ a, (Rect.unit (s := S25600) ![512 * k.val + 128 * 2] S128.size inb).stride a = 1)
    (hn : (Rect.unit (s := S25600) ![512 * k.val + 128 * 2] S128.size inb).shape.numel = S128x128.size gathers_S1000000x128_S128x128.axis')
    (hin' : ∀ x, (View.read (Elt F) ((tkS).slice (Rect.unit (s := S25600) ![512 * k.val + 128 * 2] S128.size inb) hr).view (View.write (Elt F) (tkS).view f0 (ReadAs.same.apply (View.read (Elt F) (flSl L).view (fl d))) Finset.univ) x).toNat < S1000000x128.size gathers_S1000000x128_S128x128.axis)
    (hp : ∀ a, (Rect.unit (s := S1000000x128) ![0, 0] S1000000x128.size inb_S1000000x128_S1000000x128_0_0).stride a = 1)
    (hr' : ∀ a, (Rect.unit (s := S128x128) ![0, 0] S64x128.size inb_S128x128_S64x128_0_0).stride a = 1)
    (b : Fin 4) (hb : b.val = 2)
    (hrO : ∀ a, (Rect.unit (s := S409600x128) (k0_off27 L k (BitVec.ofNat 32 b.val)) S64x128.size (k0_off27_inb L k b)).stride a = 1) :
    (((ouV).view.loc (V d (cV L) (jV L)) ↦[(ouV).view.setOn (ouR L).set]{fullShare}
        View.write (Elt F) ((ouV).slice (Rect.unit (s := S409600x128) (k0_off27 L k (BitVec.ofNat 32 b.val)) S64x128.size (k0_off27_inb L k b)) hrO).view
          (OMr pr fl cb o₀ d L k.val b.val) (ReadAs.same.apply (View.read (Elt F) ((sl2).slice (Rect.unit (s := S128x128) ![0, 0] S64x128.size inb_S128x128_S64x128_0_0) hr').view (merged (c0M cb d L f5) (c1M cb d L f5) ((sl2).view.writes (Elt F) (sl2).view.junk [⟨Rect.whole S128x128, SparseCore.gatherPayload (F := F) gathers_S1000000x128_S128x128 (View.read (Elt F) ((prV).slice (Rect.unit (s := S1000000x128) ![0, 0] S1000000x128.size inb_S1000000x128_S1000000x128_0_0) hp).view (pr d)) (SparseCore.rows (View.read (Elt F) ((tkS).slice (Rect.unit (s := S25600) ![512 * k.val + 128 * 2] S128.size inb) hr).view (View.write (Elt F) (tkS).view f0 (ReadAs.same.apply (View.read (Elt F) (flSl L).view (fl d))) Finset.univ)) hn hin')⟩])))) Finset.univ) : sProp 𝕄)
      ⊢ ((ouV).view.loc (V d (cV L) (jV L)) ↦[(ouV).view.setOn (ouR L).set]{fullShare} OMr pr fl cb o₀ d L k.val (b.val + 1)) := by
  obtain rfl : b = ⟨2, by decide⟩ := Fin.ext hb
  exact Entails.of_eq (ou_step_pts (F := F) pr fl cb o₀ d L k ⟨2, by decide⟩ hrO _
    (fun ρ q => slot_payload_2 (F := F) pr fl cb d L hin k f5 f0 (sl2).view.junk inb hr hp hn hin' hr' (Idealize.ShloMosaic.ValueIdx.ix2 ρ q)))

set_option maxHeartbeats 4000000 in
/-- Slot 3's write-out of its merged chunk of trip k advances the done rows by its 64 rows. -/
theorem ou_norm3 (hin : InRange fl) (k : Fin k0_t1_loop.trips) (f5 : Buf (Elt F) ((cfS).view.loc (V d (cV L) (jV L))))
    (f0 : Buf (Elt F) ((tkS).view.loc (V d (cV L) (jV L))))
    (inb : ∀ a, (![512 * k.val + 128 * 3] : Fin 1 → ℕ) a + S128.size a ≤ S25600.size a)
    (hr : ∀ a, (Rect.unit (s := S25600) ![512 * k.val + 128 * 3] S128.size inb).stride a = 1)
    (hn : (Rect.unit (s := S25600) ![512 * k.val + 128 * 3] S128.size inb).shape.numel = S128x128.size gathers_S1000000x128_S128x128.axis')
    (hin' : ∀ x, (View.read (Elt F) ((tkS).slice (Rect.unit (s := S25600) ![512 * k.val + 128 * 3] S128.size inb) hr).view (View.write (Elt F) (tkS).view f0 (ReadAs.same.apply (View.read (Elt F) (flSl L).view (fl d))) Finset.univ) x).toNat < S1000000x128.size gathers_S1000000x128_S128x128.axis)
    (hp : ∀ a, (Rect.unit (s := S1000000x128) ![0, 0] S1000000x128.size inb_S1000000x128_S1000000x128_0_0).stride a = 1)
    (hr' : ∀ a, (Rect.unit (s := S128x128) ![0, 0] S64x128.size inb_S128x128_S64x128_0_0).stride a = 1)
    (b : Fin 4) (hb : b.val = 3)
    (hrO : ∀ a, (Rect.unit (s := S409600x128) (k0_off27 L k (BitVec.ofNat 32 b.val)) S64x128.size (k0_off27_inb L k b)).stride a = 1) :
    (((ouV).view.loc (V d (cV L) (jV L)) ↦[(ouV).view.setOn (ouR L).set]{fullShare}
        View.write (Elt F) ((ouV).slice (Rect.unit (s := S409600x128) (k0_off27 L k (BitVec.ofNat 32 b.val)) S64x128.size (k0_off27_inb L k b)) hrO).view
          (OMr pr fl cb o₀ d L k.val b.val) (ReadAs.same.apply (View.read (Elt F) ((sl3).slice (Rect.unit (s := S128x128) ![0, 0] S64x128.size inb_S128x128_S64x128_0_0) hr').view (merged (c0M cb d L f5) (c1M cb d L f5) ((sl3).view.writes (Elt F) (sl3).view.junk [⟨Rect.whole S128x128, SparseCore.gatherPayload (F := F) gathers_S1000000x128_S128x128 (View.read (Elt F) ((prV).slice (Rect.unit (s := S1000000x128) ![0, 0] S1000000x128.size inb_S1000000x128_S1000000x128_0_0) hp).view (pr d)) (SparseCore.rows (View.read (Elt F) ((tkS).slice (Rect.unit (s := S25600) ![512 * k.val + 128 * 3] S128.size inb) hr).view (View.write (Elt F) (tkS).view f0 (ReadAs.same.apply (View.read (Elt F) (flSl L).view (fl d))) Finset.univ)) hn hin')⟩])))) Finset.univ) : sProp 𝕄)
      ⊢ ((ouV).view.loc (V d (cV L) (jV L)) ↦[(ouV).view.setOn (ouR L).set]{fullShare} OMr pr fl cb o₀ d L k.val (b.val + 1)) := by
  obtain rfl : b = ⟨3, by decide⟩ := Fin.ext hb
  exact Entails.of_eq (ou_step_pts (F := F) pr fl cb o₀ d L k ⟨3, by decide⟩ hrO _
    (fun ρ q => slot_payload_3 (F := F) pr fl cb d L hin k f5 f0 (sl3).view.junk inb hr hp hn hin' hr' (Idealize.ShloMosaic.ValueIdx.ix2 ρ q)))

end OutN
end Cert.Proof.KI
end
-- ==== Proof.TileInnerLib.lean ====
/-
  One trip of the in-place merge of a 128 × 128 slot, apart from which slot it is.

  Trip k reads rows 2k and 2k + 1 and overwrites row k, sixteen lanes at a time: columns 64·par + 16·g .. + 15 of
  row k become c0 · R[2k + par, 16g ..] + c1 · R[2k + par, 64 + 16g ..] (par = 0, 1; g = 0..3), which is row k of the
  merged block at those columns.
-/
import proofs.«205127_g70231305225025_cont_9to1c4b_198_32_alg».proof.Proof.Tile0
import proofs.«205127_g70231305225025_cont_9to1c4b_198_32_alg».proof.Proof.Merge
import Idealize.ShloMosaic.Lib.Writes
import Idealize.ShloMosaic.Lib.ValueLayout

noncomputable section

namespace Cert.Proof.KI

open Cert.KernelIdeal Cert.KernelIdeal.Gen

open Idealize.ShloMosaic Idealize.ShloMosaic.ValueIdx

variable {F : FTy → Type} [FloatOps F]

namespace Inner

/-- Sixteen lanes of the merge: c0 · A + c1 · B, lane by lane, as a 1 × 16 piece. -/
def comb (c0 c1 : FVec F S16 .f32) (A B : Vec F S1x16 .f32) : FVec F S1x16 .f32 :=
  shapeCast S1x16 (Idealize.ShloMosaic.addf (Idealize.ShloMosaic.mulf c0 (shapeCast S16 A shapeCasts_S1x16_S16))
    (Idealize.ShloMosaic.mulf c1 (shapeCast S16 B shapeCasts_S1x16_S16))) shapeCasts_S16_S1x16

theorem comb_apply (c0 c1 : FVec F S16 .f32) (A B : Vec F S1x16 .f32) (u : Fin 1) (l : Fin 16) :
    comb c0 c1 A B (ix2 u l)
      = FloatOps.addf (FloatOps.mulf (c0 (ix1 l)) (A (ix2 0 l))) (FloatOps.mulf (c1 (ix1 l)) (B (ix2 0 l))) := by
  unfold comb
  rw [shapeCast_a_1a_apply]
  show FloatOps.addf (FloatOps.mulf (c0 (ix1 l)) (shapeCast S16 A shapeCasts_S1x16_S16 (ix1 l)))
      (FloatOps.mulf (c1 (ix1 l)) (shapeCast S16 B shapeCasts_S1x16_S16 (ix1 l))) = _
  rw [shapeCast_1a_a_apply, shapeCast_1a_a_apply]

/-- Position (u, l) of the 1 × 16 piece at row ρ, column co is position (ρ, co + l) of the block. -/
theorem idx_piece (off : Fin 2 → ℕ) (inb : ∀ a, off a + S1x16.size a ≤ S128x128.size a) (ρ co : ℕ)
    (hoff : off = ![ρ, co]) (hρ : ρ < 128) (hco : co + 16 ≤ 128) (u : Fin 1) (l : Fin 16) :
    (Rect.unit (s := S128x128) off S1x16.size inb).emb (ix2 u l)
      = ix2 (⟨ρ, hρ⟩ : Fin 128) (⟨co + l.val, by have := l.isLt; omega⟩ : Fin 128) := by
  subst hoff
  funext a
  refine Fin.ext ?_
  match a with
  | ⟨0, _⟩ =>
    show ρ + 1 * u.val = ρ
    have := u.isLt
    omega
  | ⟨1, _⟩ =>
    show co + 1 * l.val = co + l.val
    omega

/-- Row r of the merged block at column q, with the lane, the source row and the two source columns named. -/
theorem mrow_at (c0 c1 : FVec F S16 .f32) (R : S128x128.Idx → F .f32) (r : Fin 64) (q : Fin 128) (l : Fin 16)
    (ρ e e' : Fin 128) (hl : q.val % 16 = l.val) (hρ : 2 * r.val + q.val / 64 = ρ.val) (he : q.val % 64 = e.val)
    (he' : 64 + q.val % 64 = e'.val) :
    mrow c0 c1 R r q
      = FloatOps.addf (FloatOps.mulf (c0 (ix1 l)) (R (ix2 ρ e))) (FloatOps.mulf (c1 (ix1 l)) (R (ix2 ρ e'))) := by
  obtain ⟨lv, hlv⟩ := l
  obtain ⟨ρv, hρv⟩ := ρ
  obtain ⟨ev, hev⟩ := e
  obtain ⟨ev', hev'⟩ := e'
  change q.val % 16 = lv at hl
  change 2 * r.val + q.val / 64 = ρv at hρ
  change q.val % 64 = ev at he
  change 64 + q.val % 64 = ev' at he'
  subst hl hρ he he'
  rfl

/-- A piece written at row k, columns 64·par + 16·g .. + 15, from the pieces read at row 2k + par, columns 16g .. and
    64 + 16g .., is row k of the block with k + 1 rows merged. -/
theorem piece_ok (c0 c1 : FVec F S16 .f32) (R : S128x128.Idx → F .f32) (k : ℕ) (hk : k < 64) (off : Fin 2 → ℕ)
    (inb : ∀ a, off a + S1x16.size a ≤ S128x128.size a) (par g : ℕ) (hpar : par < 2) (hg : g < 4)
    (hoff : off = ![k, 64 * par + 16 * g]) (A B : Vec F S1x16 .f32)
    (hA : ∀ l : Fin 16, A (ix2 0 l)
      = R (ix2 (⟨2 * k + par, by omega⟩ : Fin 128) (⟨16 * g + l.val, by have := l.isLt; omega⟩ : Fin 128)))
    (hB : ∀ l : Fin 16, B (ix2 0 l)
      = R (ix2 (⟨2 * k + par, by omega⟩ : Fin 128) (⟨64 + 16 * g + l.val, by have := l.isLt; omega⟩ : Fin 128)))
    (w : (Rect.unit (s := S128x128) off S1x16.size inb).shape.Idx → F .f32)
    (hw : ∀ (u : Fin 1) (l : Fin 16), w (ix2 u l)
      = FloatOps.addf (FloatOps.mulf (c0 (ix1 l)) (A (ix2 0 l))) (FloatOps.mulf (c1 (ix1 l)) (B (ix2 0 l)))) :
    ∀ x, w x = mergedUpTo c0 c1 R (k + 1) ((Rect.unit (s := S128x128) off S1x16.size inb).emb x) := by
  intro x
  obtain ⟨u, l, rfl⟩ : ∃ (u : Fin 1) (l : Fin 16), x = ix2 u l := ⟨x 0, x 1, eq_ix2 x⟩
  have hl := l.isLt
  rw [hw, hA, hB, idx_piece off inb k (64 * par + 16 * g) hoff (by omega) (by omega)]
  unfold mergedUpTo
  rw [dif_pos ⟨Nat.lt_succ_self k, hk⟩]
  exact (mrow_at c0 c1 R ⟨k, hk⟩ ⟨64 * par + 16 * g + l.val, by omega⟩ l _ _ _
    (by show (64 * par + 16 * g + l.val) % 16 = l.val; omega)
    (by show 2 * k + (64 * par + 16 * g + l.val) / 64 = 2 * k + par; omega)
    (by show (64 * par + 16 * g + l.val) % 64 = 16 * g + l.val; omega)
    (by show 64 + (64 * par + 16 * g + l.val) % 64 = 64 + 16 * g + l.val; omega)).symm

/-- An index of row k in the columns of a piece of that row lies in the piece. -/
theorem mem_piece (k : ℕ) (off : Fin 2 → ℕ) (inb : ∀ a, off a + S1x16.size a ≤ S128x128.size a) (co : ℕ)
    (hoff : off = ![k, co]) (y : S128x128.Idx) (hy0 : (y 0).val = k) (hy1 : co ≤ (y 1).val ∧ (y 1).val < co + 16) :
    y ∈ (Rect.unit (s := S128x128) off S1x16.size inb).set := by
  subst hoff
  refine Rect.mem_set_unit.mpr ?_
  rw [Fin.forall_fin_two]
  show (k ≤ (y 0).val ∧ (y 0).val < k + 1) ∧ (co ≤ (y 1).val ∧ (y 1).val < co + 16)
  omega

/-- An index in a piece of row k has row k. -/
theorem row_of_mem_piece (k : ℕ) (off : Fin 2 → ℕ) (inb : ∀ a, off a + S1x16.size a ≤ S128x128.size a) (co : ℕ)
    (hoff : off = ![k, co]) (y : S128x128.Idx) (hy : y ∈ (Rect.unit (s := S128x128) off S1x16.size inb).set) :
    (y 0).val = k := by
  subst hoff
  have h := (Rect.mem_set_unit.mp hy) 0
  have h' : k ≤ (y 0).val ∧ (y 0).val < k + 1 := h
  omega

/-- Off row k the blocks with k and with k + 1 rows merged agree. -/
theorem mergedUpTo_succ_of_ne (c0 c1 : FVec F S16 .f32) (R : S128x128.Idx → F .f32) (k : ℕ) (y : S128x128.Idx)
    (hy : (y 0).val ≠ k) : mergedUpTo c0 c1 R k y = mergedUpTo c0 c1 R (k + 1) y := by
  unfold mergedUpTo
  by_cases h : (y 0).val < k ∧ (y 0).val < 64
  · rw [dif_pos h, dif_pos ⟨by omega, h.2⟩]
  · rw [dif_neg h, dif_neg (fun h' => h ⟨by have := h'.1; omega, h'.2⟩)]

/-- A property of each of eight listed things is a property of every member of their list. -/
theorem forall_mem8 {β : Type} {P : β → Prop} {a1 a2 a3 a4 a5 a6 a7 a8 : β} (h1 : P a1) (h2 : P a2) (h3 : P a3)
    (h4 : P a4) (h5 : P a5) (h6 : P a6) (h7 : P a7) (h8 : P a8) : ∀ x ∈ [a1, a2, a3, a4, a5, a6, a7, a8], P x := by
  intro x hx
  simp only [List.mem_cons, List.not_mem_nil, or_false] at hx
  rcases hx with rfl | rfl | rfl | rfl | rfl | rfl | rfl | rfl <;> assumption

end Inner

end Cert.Proof.KI

end
-- ==== Proof.TileInner0Value.lean ====
/-
  What one trip of the in-place merge leaves in slot 0.

  Before trip k the slot holds the block with its first k rows merged; rows 2k and 2k + 1 are not among them
  (2k ≥ k), so every piece the trip reads is a piece of R, and the eight pieces it writes are exactly row k of the
  merged block: after the trip the slot holds the block with its first k + 1 rows merged.
-/
import proofs.«205127_g70231305225025_cont_9to1c4b_198_32_alg».proof.Proof.TileInnerLib

noncomputable section

namespace Cert.Proof.KI

open Cert.KernelIdeal Cert.KernelIdeal.Gen

open Idealize.ShloMosaic Idealize.ShloMosaic.ValueIdx

variable {F : FTy → Type} [FloatOps F]

namespace Inner

/-- What a 1 × 16 load at the given offsets reads of the slot's contents f. -/
abbrev ld0 (f : S128x128.Idx → F .f32) (off : Fin 2 → ℕ) (inb : ∀ a, off a + S1x16.size a ≤ S128x128.size a) :
    Vec F S1x16 .f32 :=
  View.readAt (Elt F) (sl0).view (Rect.unit (s := S128x128) off S1x16.size inb).toLoadRect f

/-- A load at row ρ ≥ n, column co, of the block with n rows merged reads R. -/
theorem load_val0 (c0 c1 : FVec F S16 .f32) (R : S128x128.Idx → F .f32) (n : ℕ) (off : Fin 2 → ℕ)
    (inb : ∀ a, off a + S1x16.size a ≤ S128x128.size a) (ρ co : ℕ) (hoff : off = ![ρ, co]) (hn : n ≤ ρ) (hρ : ρ < 128)
    (hco : co + 16 ≤ 128) (l : Fin 16) :
    ld0 (mergedUpTo c0 c1 R n) off inb (ix2 0 l)
      = R (ix2 (⟨ρ, hρ⟩ : Fin 128) (⟨co + l.val, by have := l.isLt; omega⟩ : Fin 128)) := by
  show mergedUpTo c0 c1 R n ((Rect.unit (s := S128x128) off S1x16.size inb).emb (ix2 0 l)) = _
  rw [idx_piece off inb ρ co hoff hρ hco]
  unfold mergedUpTo
  rw [dif_neg]
  intro h
  have : ρ < n := h.1
  omega

/-- Writes through pieces of row k that agree with the block with k + 1 rows merged and cover the row, over the block
    with k rows merged, leave the block with k + 1 rows merged. -/
theorem trip_writes0 (c0 c1 : FVec F S16 .f32) (R : S128x128.Idx → F .f32) (k : ℕ)
    (Ls : List (View.Piece (Elt F) S128x128 .f32))
    (hG : ∀ p ∈ Ls, ∀ x : p.1.shape.Idx, p.2 x = mergedUpTo c0 c1 R (k + 1) (p.1.emb x))
    (hrow : ∀ p ∈ Ls, ∀ y ∈ p.1.set, (y 0).val = k)
    (hcov : ∀ y : S128x128.Idx, (y 0).val = k → ∃ p ∈ Ls, y ∈ p.1.set) :
    (sl0).view.writes (Elt F) (mergedUpTo c0 c1 R k) Ls = mergedUpTo c0 c1 R (k + 1) := by
  funext y
  show (sl0).view.read (Elt F) ((sl0).view.writes (Elt F) (mergedUpTo c0 c1 R k) Ls) y = _
  by_cases hy : (y 0).val = k
  · exact View.read_writes_apply_of_pieces _ _ (mergedUpTo c0 c1 R (k + 1)) Ls hG y (hcov y hy)
  · rw [View.read_writes_apply_of_forall_not_mem _ _ y Ls fun p hp hm => hy (hrow p hp y hm)]
    exact mergedUpTo_succ_of_ne c0 c1 R k y hy

/-- THE TRIP: the eight pieces trip k writes, over the block with k rows merged, leave the block with k + 1. -/
theorem trip_eq0 (c0 c1 : FVec F S16 .f32) (R : S128x128.Idx → F .f32) (k : Fin k0_t2_loop.trips) :
    (sl0).view.writes (Elt F) (mergedUpTo c0 c1 R k.val)
      [(⟨Rect.unit (s := S128x128) (k0_off26 k) S1x16.size (k0_off26_inb k),
          k0_pay49 (k0_pay11 c0 c1 (ld0 (mergedUpTo c0 c1 R k.val) (k0_off23 k) (k0_off23_inb k)) (ld0 (mergedUpTo c0 c1 R k.val) (k0_off24 k) (k0_off24_inb k)))⟩ : View.Piece (Elt F) S128x128 .f32),
        (⟨Rect.unit (s := S128x128) (k0_off25 k) S1x16.size (k0_off25_inb k),
          k0_pay12 c0 c1 (ld0 (mergedUpTo c0 c1 R k.val) (k0_off21 k) (k0_off21_inb k)) (ld0 (mergedUpTo c0 c1 R k.val) (k0_off22 k) (k0_off22_inb k))⟩ : View.Piece (Elt F) S128x128 .f32),
        (⟨Rect.unit (s := S128x128) (k0_off20 k) S1x16.size (k0_off20_inb k),
          k0_pay10 c1 (k0_pay8 c0 (ld0 (mergedUpTo c0 c1 R k.val) (k0_off17 k) (k0_off17_inb k))) (ld0 (mergedUpTo c0 c1 R k.val) (k0_off18 k) (k0_off18_inb k))⟩ : View.Piece (Elt F) S128x128 .f32),
        (⟨Rect.unit (s := S128x128) (k0_off19 k) S1x16.size (k0_off19_inb k),
          k0_pay9 (k0_pay7 c0 c1 (ld0 (mergedUpTo c0 c1 R k.val) (k0_off15 k) (k0_off15_inb k)) (ld0 (mergedUpTo c0 c1 R k.val) (k0_off16 k) (k0_off16_inb k)))⟩ : View.Piece (Elt F) S128x128 .f32),
        (⟨Rect.unit (s := S128x128) (k0_off14 k) S1x16.size (k0_off14_inb k),
          k0_pay6 c0 c1 (ld0 (mergedUpTo c0 c1 R k.val) (k0_off11 k) (k0_off11_inb k)) (ld0 (mergedUpTo c0 c1 R k.val) (k0_off12 k) (k0_off12_inb k))⟩ : View.Piece (Elt F) S128x128 .f32),
        (⟨Rect.unit (s := S128x128) (k0_off13 k) S1x16.size (k0_off13_inb k),
          k0_pay5 c1 (k0_pay3 c0 (ld0 (mergedUpTo c0 c1 R k.val) (k0_off9 k) (k0_off9_inb k))) (k0_pay4 (ld0 (mergedUpTo c0 c1 R k.val) (k0_off10 k) (k0_off10_inb k)))⟩ : View.Piece (Elt F) S128x128 .f32),
        (⟨Rect.unit (s := S128x128) (k0_off8 k) S1x16.size (k0_off8_inb k),
          k0_pay2 c0 c1 (ld0 (mergedUpTo c0 c1 R k.val) (k0_off5 k) (k0_off5_inb k)) (ld0 (mergedUpTo c0 c1 R k.val) (k0_off6 k) (k0_off6_inb k))⟩ : View.Piece (Elt F) S128x128 .f32),
        (⟨Rect.unit (s := S128x128) (k0_off7 k) S1x16.size (k0_off7_inb k),
          k0_pay1 c0 c1 (ld0 (mergedUpTo c0 c1 R k.val) (k0_off3 k) (k0_off3_inb k)) (ld0 (mergedUpTo c0 c1 R k.val) (k0_off4 k) (k0_off4_inb k))⟩ : View.Piece (Elt F) S128x128 .f32)]
      = mergedUpTo c0 c1 R (k.val + 1) := by
  have hk : k.val < 64 := Nat.lt_of_lt_of_le k.isLt k0_t2_abs.2.1
  refine trip_writes0 c0 c1 R k.val _ ?_ ?_ ?_
  · exact forall_mem8
      (piece_ok c0 c1 R k.val hk (k0_off26 k) (k0_off26_inb k) 1 3 (by decide) (by decide) (k0_off26_eq k) (ld0 (mergedUpTo c0 c1 R k.val) (k0_off23 k) (k0_off23_inb k)) (ld0 (mergedUpTo c0 c1 R k.val) (k0_off24 k) (k0_off24_inb k))
      (fun l => load_val0 c0 c1 R k.val _ _ (2 * k.val + 1) (16 * 3) (k0_off23_eq k) (by omega) (by omega) (by omega) l)
      (fun l => load_val0 c0 c1 R k.val _ _ (2 * k.val + 1) (64 + 16 * 3) (k0_off24_eq k) (by omega) (by omega) (by omega) l)
      _ (fun u l => comb_apply c0 c1 _ _ u l))
      (piece_ok c0 c1 R k.val hk (k0_off25 k) (k0_off25_inb k) 0 3 (by decide) (by decide) (k0_off25_eq k) (ld0 (mergedUpTo c0 c1 R k.val) (k0_off21 k) (k0_off21_inb k)) (ld0 (mergedUpTo c0 c1 R k.val) (k0_off22 k) (k0_off22_inb k))
      (fun l => load_val0 c0 c1 R k.val _ _ (2 * k.val + 0) (16 * 3) (k0_off21_eq k) (by omega) (by omega) (by omega) l)
      (fun l => load_val0 c0 c1 R k.val _ _ (2 * k.val + 0) (64 + 16 * 3) (k0_off22_eq k) (by omega) (by omega) (by omega) l)
      _ (fun u l => comb_apply c0 c1 _ _ u l))
      (piece_ok c0 c1 R k.val hk (k0_off20 k) (k0_off20_inb k) 1 2 (by decide) (by decide) (k0_off20_eq k) (ld0 (mergedUpTo c0 c1 R k.val) (k0_off17 k) (k0_off17_inb k)) (ld0 (mergedUpTo c0 c1 R k.val) (k0_off18 k) (k0_off18_inb k))
      (fun l => load_val0 c0 c1 R k.val _ _ (2 * k.val + 1) (16 * 2) (k0_off17_eq k) (by omega) (by omega) (by omega) l)
      (fun l => load_val0 c0 c1 R k.val _ _ (2 * k.val + 1) (64 + 16 * 2) (k0_off18_eq k) (by omega) (by omega) (by omega) l)
      _ (fun u l => comb_apply c0 c1 _ _ u l))
      (piece_ok c0 c1 R k.val hk (k0_off19 k) (k0_off19_inb k) 0 2 (by decide) (by decide) (k0_off19_eq k) (ld0 (mergedUpTo c0 c1 R k.val) (k0_off15 k) (k0_off15_inb k)) (ld0 (mergedUpTo c0 c1 R k.val) (k0_off16 k) (k0_off16_inb k))
      (fun l => load_val0 c0 c1 R k.val _ _ (2 * k.val + 0) (16 * 2) (k0_off15_eq k) (by omega) (by omega) (by omega) l)
      (fun l => load_val0 c0 c1 R k.val _ _ (2 * k.val + 0) (64 + 16 * 2) (k0_off16_eq k) (by omega) (by omega) (by omega) l)
      _ (fun u l => comb_apply c0 c1 _ _ u l))
      (piece_ok c0 c1 R k.val hk (k0_off14 k) (k0_off14_inb k) 1 1 (by decide) (by decide) (k0_off14_eq k) (ld0 (mergedUpTo c0 c1 R k.val) (k0_off11 k) (k0_off11_inb k)) (ld0 (mergedUpTo c0 c1 R k.val) (k0_off12 k) (k0_off12_inb k))
      (fun l => load_val0 c0 c1 R k.val _ _ (2 * k.val + 1) (16 * 1) (k0_off11_eq k) (by omega) (by omega) (by omega) l)
      (fun l => load_val0 c0 c1 R k.val _ _ (2 * k.val + 1) (64 + 16 * 1) (k0_off12_eq k) (by omega) (by omega) (by omega) l)
      _ (fun u l => comb_apply c0 c1 _ _ u l))
      (piece_ok c0 c1 R k.val hk (k0_off13 k) (k0_off13_inb k) 0 1 (by decide) (by decide) (k0_off13_eq k) (ld0 (mergedUpTo c0 c1 R k.val) (k0_off9 k) (k0_off9_inb k)) (ld0 (mergedUpTo c0 c1 R k.val) (k0_off10 k) (k0_off10_inb k))
      (fun l => load_val0 c0 c1 R k.val _ _ (2 * k.val + 0) (16 * 1) (k0_off9_eq k) (by omega) (by omega) (by omega) l)
      (fun l => load_val0 c0 c1 R k.val _ _ (2 * k.val + 0) (64 + 16 * 1) (k0_off10_eq k) (by omega) (by omega) (by omega) l)
      _ (fun u l => comb_apply c0 c1 _ _ u l))
      (piece_ok c0 c1 R k.val hk (k0_off8 k) (k0_off8_inb k) 1 0 (by decide) (by decide) (k0_off8_eq k) (ld0 (mergedUpTo c0 c1 R k.val) (k0_off5 k) (k0_off5_inb k)) (ld0 (mergedUpTo c0 c1 R k.val) (k0_off6 k) (k0_off6_inb k))
      (fun l => load_val0 c0 c1 R k.val _ _ (2 * k.val + 1) (16 * 0) (k0_off5_eq k) (by omega) (by omega) (by omega) l)
      (fun l => load_val0 c0 c1 R k.val _ _ (2 * k.val + 1) (64 + 16 * 0) (k0_off6_eq k) (by omega) (by omega) (by omega) l)
      _ (fun u l => comb_apply c0 c1 _ _ u l))
      (piece_ok c0 c1 R k.val hk (k0_off7 k) (k0_off7_inb k) 0 0 (by decide) (by decide) (k0_off7_eq k) (ld0 (mergedUpTo c0 c1 R k.val) (k0_off3 k) (k0_off3_inb k)) (ld0 (mergedUpTo c0 c1 R k.val) (k0_off4 k) (k0_off4_inb k))
      (fun l => load_val0 c0 c1 R k.val _ _ (2 * k.val + 0) (16 * 0) (k0_off3_eq k) (by omega) (by omega) (by omega) l)
      (fun l => load_val0 c0 c1 R k.val _ _ (2 * k.val + 0) (64 + 16 * 0) (k0_off4_eq k) (by omega) (by omega) (by omega) l)
      _ (fun u l => comb_apply c0 c1 _ _ u l))
  · exact forall_mem8
      (fun y hy => row_of_mem_piece k.val (k0_off26 k) (k0_off26_inb k) _ (k0_off26_eq k) y hy)
      (fun y hy => row_of_mem_piece k.val (k0_off25 k) (k0_off25_inb k) _ (k0_off25_eq k) y hy)
      (fun y hy => row_of_mem_piece k.val (k0_off20 k) (k0_off20_inb k) _ (k0_off20_eq k) y hy)
      (fun y hy => row_of_mem_piece k.val (k0_off19 k) (k0_off19_inb k) _ (k0_off19_eq k) y hy)
      (fun y hy => row_of_mem_piece k.val (k0_off14 k) (k0_off14_inb k) _ (k0_off14_eq k) y hy)
      (fun y hy => row_of_mem_piece k.val (k0_off13 k) (k0_off13_inb k) _ (k0_off13_eq k) y hy)
      (fun y hy => row_of_mem_piece k.val (k0_off8 k) (k0_off8_inb k) _ (k0_off8_eq k) y hy)
      (fun y hy => row_of_mem_piece k.val (k0_off7 k) (k0_off7_inb k) _ (k0_off7_eq k) y hy)
  intro y hy
  have h1 : (y 1).val < 128 := (y 1).isLt
  by_cases hc0 : (y 1).val < 16
  · exact ⟨_, .tail _ (.tail _ (.tail _ (.tail _ (.tail _ (.tail _ (.tail _ (.head _))))))), mem_piece k.val (k0_off7 k) (k0_off7_inb k) 0 (k0_off7_eq k) y hy ⟨by omega, by omega⟩⟩
  by_cases hc1 : (y 1).val < 32
  · exact ⟨_, .tail _ (.tail _ (.tail _ (.tail _ (.tail _ (.head _))))), mem_piece k.val (k0_off13 k) (k0_off13_inb k) 16 (k0_off13_eq k) y hy ⟨by omega, by omega⟩⟩
  by_cases hc2 : (y 1).val < 48
  · exact ⟨_, .tail _ (.tail _ (.tail _ (.head _))), mem_piece k.val (k0_off19 k) (k0_off19_inb k) 32 (k0_off19_eq k) y hy ⟨by omega, by omega⟩⟩
  by_cases hc3 : (y 1).val < 64
  · exact ⟨_, .tail _ (.head _), mem_piece k.val (k0_off25 k) (k0_off25_inb k) 48 (k0_off25_eq k) y hy ⟨by omega, by omega⟩⟩
  by_cases hc4 : (y 1).val < 80
  · exact ⟨_, .tail _ (.tail _ (.tail _ (.tail _ (.tail _ (.tail _ (.head _)))))), mem_piece k.val (k0_off8 k) (k0_off8_inb k) 64 (k0_off8_eq k) y hy ⟨by omega, by omega⟩⟩
  by_cases hc5 : (y 1).val < 96
  · exact ⟨_, .tail _ (.tail _ (.tail _ (.tail _ (.head _)))), mem_piece k.val (k0_off14 k) (k0_off14_inb k) 80 (k0_off14_eq k) y hy ⟨by omega, by omega⟩⟩
  by_cases hc6 : (y 1).val < 112
  · exact ⟨_, .tail _ (.tail _ (.head _)), mem_piece k.val (k0_off20 k) (k0_off20_inb k) 96 (k0_off20_eq k) y hy ⟨by omega, by omega⟩⟩
  exact ⟨_, .head _, mem_piece k.val (k0_off26 k) (k0_off26_inb k) 112 (k0_off26_eq k) y hy ⟨by omega, by omega⟩⟩

end Inner

end Cert.Proof.KI

end
-- ==== Proof.TileInner0.lean ====
/-
  The in-place merge of slot 0, run: the loop of 64 trips takes the slot from a block R to the merged block.

  Before trip k the slot holds the block with its first k rows merged; one trip takes that to k + 1 rows; after the
  64th the slot holds the merged block, with which the rest of the program goes on.
-/
import proofs.«205127_g70231305225025_cont_9to1c4b_198_32_alg».proof.Proof.TileShares
import proofs.«205127_g70231305225025_cont_9to1c4b_198_32_alg».proof.Proof.TileInner0Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Before trip k the slot holds the block with its first k rows merged. -/
def inv0 [FloatOps F] (d : Dev nD) (L : grid0.Coords) (c0 c1 : FVec F S16 .f32)
    (R : Buf (Elt F) ((sl0).view.loc (V d (cV L) (jV L)))) (k : Nat) (_ : Unit) : sProp 𝕄 :=
  iprop((sl0).view.loc (V d (cV L) (jV L)) ↦{fullShare} mergedUpTo c0 c1 R k)

/-- The loop, from the slot at R, then the rest of the program from the slot at the merged block. -/
theorem inner0 [FloatOps F] (d : Dev nD) (L : grid0.Coords) (v2 : BitVec 32) (c0 c1 : FVec F S16 .f32) (w0 w1 : BitVec 32)
    (k1 : Fin k0_t1_loop.trips) (R : Buf (Elt F) ((sl0).view.loc (V d (cV L) (jV L)))) {α : Type}
    (kont : Unit → Prog (TpuEff nD τ sig (Elt F) Λ₀ (.scVector (cV L) (jV L))) α) (Q : α → sProp 𝕄) :
    (iprop(((sl0).view.loc (V d (cV L) (jV L)) ↦{fullShare} R)
        ∗ (((sl0).view.loc (V d (cV L) (jV L)) ↦{fullShare} merged c0 c1 R)
            -∗ wp frame (wpE (defs₀ (F := F)) 𝒱₀ (V d (cV L) (jV L)) none) Set.univ (kont ⟨⟩) Q)) : sProp 𝕄)
      ⊢ wp frame (wpE (defs₀ (F := F)) 𝒱₀ (V d (cV L) (jV L)) none) Set.univ
          (Scf.Loop.for k0_t2_loop k0_t2_ok ⟨⟩ (k0_t2_body L flV (Memref.isWhole_whole _) prV (Memref.isWhole_whole _) cbV (Memref.isWhole_whole _) ouV (Memref.isWhole_whole _) tkS (Memref.isWhole_whole _) sl0 (Memref.isWhole_whole _) sl1 (Memref.isWhole_whole _) sl2 (Memref.isWhole_whole _) sl3 (Memref.isWhole_whole _) cfS (Memref.isWhole_whole _) cc0_scratch6 cc0_scratch7 cc0_scratch8 cc0_scratch9 cc0_scratch10 cc0_scratch11 cc0_scratch12 cc0_scratch13 cc0_scoped0 cc0_scoped1 v2 c0 c1 w0 w1 k1) >>= kont) Q := by
  iintro ⟨HR, Hk⟩
  sl_for (inv0 d L c0 c1 R) $$ [HR]
  case region =>
    intro k _
    unfold inv0
    iintro H
    sl_exec
    sl_step
    sl_unfold_run_names
    iapply (Entails.of_eq (congrArg
      (fun g : Buf (Elt F) ((sl0).view.loc (V d (cV L) (jV L))) => ((sl0).view.loc (V d (cV L) (jV L)) ↦{fullShare} g : sProp 𝕄))
      (Inner.trip_eq0 c0 c1 R k))) $$ H
  · unfold inv0
    rw [mergedUpTo_zero]
    iexact HR
  rw [show Scf.trips k0_t2_loop.lb k0_t2_loop.ub k0_t2_loop.st = 64 from by decide]
  iintro %_ HI
  unfold inv0
  unfold merged
  iapply Hk
  iexact HI

end Cert.Proof.KI

end
-- ==== Proof.TileInner1Value.lean ====
/-
  What one trip of the in-place merge leaves in slot 1.

  Before trip k the slot holds the block with its first k rows merged; rows 2k and 2k + 1 are not among them
  (2k ≥ k), so every piece the trip reads is a piece of R, and the eight pieces it writes are exactly row k of the
  merged block: after the trip the slot holds the block with its first k + 1 rows merged.
-/
import proofs.«205127_g70231305225025_cont_9to1c4b_198_32_alg».proof.Proof.TileInnerLib

noncomputable section

namespace Cert.Proof.KI

open Cert.KernelIdeal Cert.KernelIdeal.Gen

open Idealize.ShloMosaic Idealize.ShloMosaic.ValueIdx

variable {F : FTy → Type} [FloatOps F]

namespace Inner

/-- What a 1 × 16 load at the given offsets reads of the slot's contents f. -/
abbrev ld1 (f : S128x128.Idx → F .f32) (off : Fin 2 → ℕ) (inb : ∀ a, off a + S1x16.size a ≤ S128x128.size a) :
    Vec F S1x16 .f32 :=
  View.readAt (Elt F) (sl1).view (Rect.unit (s := S128x128) off S1x16.size inb).toLoadRect f

/-- A load at row ρ ≥ n, column co, of the block with n rows merged reads R. -/
theorem load_val1 (c0 c1 : FVec F S16 .f32) (R : S128x128.Idx → F .f32) (n : ℕ) (off : Fin 2 → ℕ)
    (inb : ∀ a, off a + S1x16.size a ≤ S128x128.size a) (ρ co : ℕ) (hoff : off = ![ρ, co]) (hn : n ≤ ρ) (hρ : ρ < 128)
    (hco : co + 16 ≤ 128) (l : Fin 16) :
    ld1 (mergedUpTo c0 c1 R n) off inb (ix2 0 l)
      = R (ix2 (⟨ρ, hρ⟩ : Fin 128) (⟨co + l.val, by have := l.isLt; omega⟩ : Fin 128)) := by
  show mergedUpTo c0 c1 R n ((Rect.unit (s := S128x128) off S1x16.size inb).emb (ix2 0 l)) = _
  rw [idx_piece off inb ρ co hoff hρ hco]
  unfold mergedUpTo
  rw [dif_neg]
  intro h
  have : ρ < n := h.1
  omega

/-- Writes through pieces of row k that agree with the block with k + 1 rows merged and cover the row, over the block
    with k rows merged, leave the block with k + 1 rows merged. -/
theorem trip_writes1 (c0 c1 : FVec F S16 .f32) (R : S128x128.Idx → F .f32) (k : ℕ)
    (Ls : List (View.Piece (Elt F) S128x128 .f32))
    (hG : ∀ p ∈ Ls, ∀ x : p.1.shape.Idx, p.2 x = mergedUpTo c0 c1 R (k + 1) (p.1.emb x))
    (hrow : ∀ p ∈ Ls, ∀ y ∈ p.1.set, (y 0).val = k)
    (hcov : ∀ y : S128x128.Idx, (y 0).val = k → ∃ p ∈ Ls, y ∈ p.1.set) :
    (sl1).view.writes (Elt F) (mergedUpTo c0 c1 R k) Ls = mergedUpTo c0 c1 R (k + 1) := by
  funext y
  show (sl1).view.read (Elt F) ((sl1).view.writes (Elt F) (mergedUpTo c0 c1 R k) Ls) y = _
  by_cases hy : (y 0).val = k
  · exact View.read_writes_apply_of_pieces _ _ (mergedUpTo c0 c1 R (k + 1)) Ls hG y (hcov y hy)
  · rw [View.read_writes_apply_of_forall_not_mem _ _ y Ls fun p hp hm => hy (hrow p hp y hm)]
    exact mergedUpTo_succ_of_ne c0 c1 R k y hy

/-- THE TRIP: the eight pieces trip k writes, over the block with k rows merged, leave the block with k + 1. -/
theorem trip_eq1 (c0 c1 : FVec F S16 .f32) (R : S128x128.Idx → F .f32) (k : Fin k0_t3_loop.trips) :
    (sl1).view.writes (Elt F) (mergedUpTo c0 c1 R k.val)
      [(⟨Rect.unit (s := S128x128) (k0_off53 k) S1x16.size (k0_off53_inb k),
          k0_pay50 (k0_pay23 c0 c1 (ld1 (mergedUpTo c0 c1 R k.val) (k0_off50 k) (k0_off50_inb k)) (ld1 (mergedUpTo c0 c1 R k.val) (k0_off51 k) (k0_off51_inb k)))⟩ : View.Piece (Elt F) S128x128 .f32),
        (⟨Rect.unit (s := S128x128) (k0_off52 k) S1x16.size (k0_off52_inb k),
          k0_pay24 c0 c1 (ld1 (mergedUpTo c0 c1 R k.val) (k0_off48 k) (k0_off48_inb k)) (ld1 (mergedUpTo c0 c1 R k.val) (k0_off49 k) (k0_off49_inb k))⟩ : View.Piece (Elt F) S128x128 .f32),
        (⟨Rect.unit (s := S128x128) (k0_off47 k) S1x16.size (k0_off47_inb k),
          k0_pay22 c1 (k0_pay20 c0 (ld1 (mergedUpTo c0 c1 R k.val) (k0_off44 k) (k0_off44_inb k))) (ld1 (mergedUpTo c0 c1 R k.val) (k0_off45 k) (k0_off45_inb k))⟩ : View.Piece (Elt F) S128x128 .f32),
        (⟨Rect.unit (s := S128x128) (k0_off46 k) S1x16.size (k0_off46_inb k),
          k0_pay21 (k0_pay19 c0 c1 (ld1 (mergedUpTo c0 c1 R k.val) (k0_off42 k) (k0_off42_inb k)) (ld1 (mergedUpTo c0 c1 R k.val) (k0_off43 k) (k0_off43_inb k)))⟩ : View.Piece (Elt F) S128x128 .f32),
        (⟨Rect.unit (s := S128x128) (k0_off41 k) S1x16.size (k0_off41_inb k),
          k0_pay18 c0 c1 (ld1 (mergedUpTo c0 c1 R k.val) (k0_off38 k) (k0_off38_inb k)) (ld1 (mergedUpTo c0 c1 R k.val) (k0_off39 k) (k0_off39_inb k))⟩ : View.Piece (Elt F) S128x128 .f32),
        (⟨Rect.unit (s := S128x128) (k0_off40 k) S1x16.size (k0_off40_inb k),
          k0_pay17 c1 (k0_pay15 c0 (ld1 (mergedUpTo c0 c1 R k.val) (k0_off36 k) (k0_off36_inb k))) (k0_pay16 (ld1 (mergedUpTo c0 c1 R k.val) (k0_off37 k) (k0_off37_inb k)))⟩ : View.Piece (Elt F) S128x128 .f32),
        (⟨Rect.unit (s := S128x128) (k0_off35 k) S1x16.size (k0_off35_inb k),
          k0_pay14 c0 c1 (ld1 (mergedUpTo c0 c1 R k.val) (k0_off32 k) (k0_off32_inb k)) (ld1 (mergedUpTo c0 c1 R k.val) (k0_off33 k) (k0_off33_inb k))⟩ : View.Piece (Elt F) S128x128 .f32),
        (⟨Rect.unit (s := S128x128) (k0_off34 k) S1x16.size (k0_off34_inb k),
          k0_pay13 c0 c1 (ld1 (mergedUpTo c0 c1 R k.val) (k0_off30 k) (k0_off30_inb k)) (ld1 (mergedUpTo c0 c1 R k.val) (k0_off31 k) (k0_off31_inb k))⟩ : View.Piece (Elt F) S128x128 .f32)]
      = mergedUpTo c0 c1 R (k.val + 1) := by
  have hk : k.val < 64 := Nat.lt_of_lt_of_le k.isLt k0_t3_abs.2.1
  refine trip_writes1 c0 c1 R k.val _ ?_ ?_ ?_
  · exact forall_mem8
      (piece_ok c0 c1 R k.val hk (k0_off53 k) (k0_off53_inb k) 1 3 (by decide) (by decide) (k0_off53_eq k) (ld1 (mergedUpTo c0 c1 R k.val) (k0_off50 k) (k0_off50_inb k)) (ld1 (mergedUpTo c0 c1 R k.val) (k0_off51 k) (k0_off51_inb k))
      (fun l => load_val1 c0 c1 R k.val _ _ (2 * k.val + 1) (16 * 3) (k0_off50_eq k) (by omega) (by omega) (by omega) l)
      (fun l => load_val1 c0 c1 R k.val _ _ (2 * k.val + 1) (64 + 16 * 3) (k0_off51_eq k) (by omega) (by omega) (by omega) l)
      _ (fun u l => comb_apply c0 c1 _ _ u l))
      (piece_ok c0 c1 R k.val hk (k0_off52 k) (k0_off52_inb k) 0 3 (by decide) (by decide) (k0_off52_eq k) (ld1 (mergedUpTo c0 c1 R k.val) (k0_off48 k) (k0_off48_inb k)) (ld1 (mergedUpTo c0 c1 R k.val) (k0_off49 k) (k0_off49_inb k))
      (fun l => load_val1 c0 c1 R k.val _ _ (2 * k.val + 0) (16 * 3) (k0_off48_eq k) (by omega) (by omega) (by omega) l)
      (fun l => load_val1 c0 c1 R k.val _ _ (2 * k.val + 0) (64 + 16 * 3) (k0_off49_eq k) (by omega) (by omega) (by omega) l)
      _ (fun u l => comb_apply c0 c1 _ _ u l))
      (piece_ok c0 c1 R k.val hk (k0_off47 k) (k0_off47_inb k) 1 2 (by decide) (by decide) (k0_off47_eq k) (ld1 (mergedUpTo c0 c1 R k.val) (k0_off44 k) (k0_off44_inb k)) (ld1 (mergedUpTo c0 c1 R k.val) (k0_off45 k) (k0_off45_inb k))
      (fun l => load_val1 c0 c1 R k.val _ _ (2 * k.val + 1) (16 * 2) (k0_off44_eq k) (by omega) (by omega) (by omega) l)
      (fun l => load_val1 c0 c1 R k.val _ _ (2 * k.val + 1) (64 + 16 * 2) (k0_off45_eq k) (by omega) (by omega) (by omega) l)
      _ (fun u l => comb_apply c0 c1 _ _ u l))
      (piece_ok c0 c1 R k.val hk (k0_off46 k) (k0_off46_inb k) 0 2 (by decide) (by decide) (k0_off46_eq k) (ld1 (mergedUpTo c0 c1 R k.val) (k0_off42 k) (k0_off42_inb k)) (ld1 (mergedUpTo c0 c1 R k.val) (k0_off43 k) (k0_off43_inb k))
      (fun l => load_val1 c0 c1 R k.val _ _ (2 * k.val + 0) (16 * 2) (k0_off42_eq k) (by omega) (by omega) (by omega) l)
      (fun l => load_val1 c0 c1 R k.val _ _ (2 * k.val + 0) (64 + 16 * 2) (k0_off43_eq k) (by omega) (by omega) (by omega) l)
      _ (fun u l => comb_apply c0 c1 _ _ u l))
      (piece_ok c0 c1 R k.val hk (k0_off41 k) (k0_off41_inb k) 1 1 (by decide) (by decide) (k0_off41_eq k) (ld1 (mergedUpTo c0 c1 R k.val) (k0_off38 k) (k0_off38_inb k)) (ld1 (mergedUpTo c0 c1 R k.val) (k0_off39 k) (k0_off39_inb k))
      (fun l => load_val1 c0 c1 R k.val _ _ (2 * k.val + 1) (16 * 1) (k0_off38_eq k) (by omega) (by omega) (by omega) l)
      (fun l => load_val1 c0 c1 R k.val _ _ (2 * k.val + 1) (64 + 16 * 1) (k0_off39_eq k) (by omega) (by omega) (by omega) l)
      _ (fun u l => comb_apply c0 c1 _ _ u l))
      (piece_ok c0 c1 R k.val hk (k0_off40 k) (k0_off40_inb k) 0 1 (by decide) (by decide) (k0_off40_eq k) (ld1 (mergedUpTo c0 c1 R k.val) (k0_off36 k) (k0_off36_inb k)) (ld1 (mergedUpTo c0 c1 R k.val) (k0_off37 k) (k0_off37_inb k))
      (fun l => load_val1 c0 c1 R k.val _ _ (2 * k.val + 0) (16 * 1) (k0_off36_eq k) (by omega) (by omega) (by omega) l)
      (fun l => load_val1 c0 c1 R k.val _ _ (2 * k.val + 0) (64 + 16 * 1) (k0_off37_eq k) (by omega) (by omega) (by omega) l)
      _ (fun u l => comb_apply c0 c1 _ _ u l))
      (piece_ok c0 c1 R k.val hk (k0_off35 k) (k0_off35_inb k) 1 0 (by decide) (by decide) (k0_off35_eq k) (ld1 (mergedUpTo c0 c1 R k.val) (k0_off32 k) (k0_off32_inb k)) (ld1 (mergedUpTo c0 c1 R k.val) (k0_off33 k) (k0_off33_inb k))
      (fun l => load_val1 c0 c1 R k.val _ _ (2 * k.val + 1) (16 * 0) (k0_off32_eq k) (by omega) (by omega) (by omega) l)
      (fun l => load_val1 c0 c1 R k.val _ _ (2 * k.val + 1) (64 + 16 * 0) (k0_off33_eq k) (by omega) (by omega) (by omega) l)
      _ (fun u l => comb_apply c0 c1 _ _ u l))
      (piece_ok c0 c1 R k.val hk (k0_off34 k) (k0_off34_inb k) 0 0 (by decide) (by decide) (k0_off34_eq k) (ld1 (mergedUpTo c0 c1 R k.val) (k0_off30 k) (k0_off30_inb k)) (ld1 (mergedUpTo c0 c1 R k.val) (k0_off31 k) (k0_off31_inb k))
      (fun l => load_val1 c0 c1 R k.val _ _ (2 * k.val + 0) (16 * 0) (k0_off30_eq k) (by omega) (by omega) (by omega) l)
      (fun l => load_val1 c0 c1 R k.val _ _ (2 * k.val + 0) (64 + 16 * 0) (k0_off31_eq k) (by omega) (by omega) (by omega) l)
      _ (fun u l => comb_apply c0 c1 _ _ u l))
  · exact forall_mem8
      (fun y hy => row_of_mem_piece k.val (k0_off53 k) (k0_off53_inb k) _ (k0_off53_eq k) y hy)
      (fun y hy => row_of_mem_piece k.val (k0_off52 k) (k0_off52_inb k) _ (k0_off52_eq k) y hy)
      (fun y hy => row_of_mem_piece k.val (k0_off47 k) (k0_off47_inb k) _ (k0_off47_eq k) y hy)
      (fun y hy => row_of_mem_piece k.val (k0_off46 k) (k0_off46_inb k) _ (k0_off46_eq k) y hy)
      (fun y hy => row_of_mem_piece k.val (k0_off41 k) (k0_off41_inb k) _ (k0_off41_eq k) y hy)
      (fun y hy => row_of_mem_piece k.val (k0_off40 k) (k0_off40_inb k) _ (k0_off40_eq k) y hy)
      (fun y hy => row_of_mem_piece k.val (k0_off35 k) (k0_off35_inb k) _ (k0_off35_eq k) y hy)
      (fun y hy => row_of_mem_piece k.val (k0_off34 k) (k0_off34_inb k) _ (k0_off34_eq k) y hy)
  intro y hy
  have h1 : (y 1).val < 128 := (y 1).isLt
  by_cases hc0 : (y 1).val < 16
  · exact ⟨_, .tail _ (.tail _ (.tail _ (.tail _ (.tail _ (.tail _ (.tail _ (.head _))))))), mem_piece k.val (k0_off34 k) (k0_off34_inb k) 0 (k0_off34_eq k) y hy ⟨by omega, by omega⟩⟩
  by_cases hc1 : (y 1).val < 32
  · exact ⟨_, .tail _ (.tail _ (.tail _ (.tail _ (.tail _ (.head _))))), mem_piece k.val (k0_off40 k) (k0_off40_inb k) 16 (k0_off40_eq k) y hy ⟨by omega, by omega⟩⟩
  by_cases hc2 : (y 1).val < 48
  · exact ⟨_, .tail _ (.tail _ (.tail _ (.head _))), mem_piece k.val (k0_off46 k) (k0_off46_inb k) 32 (k0_off46_eq k) y hy ⟨by omega, by omega⟩⟩
  by_cases hc3 : (y 1).val < 64
  · exact ⟨_, .tail _ (.head _), mem_piece k.val (k0_off52 k) (k0_off52_inb k) 48 (k0_off52_eq k) y hy ⟨by omega, by omega⟩⟩
  by_cases hc4 : (y 1).val < 80
  · exact ⟨_, .tail _ (.tail _ (.tail _ (.tail _ (.tail _ (.tail _ (.head _)))))), mem_piece k.val (k0_off35 k) (k0_off35_inb k) 64 (k0_off35_eq k) y hy ⟨by omega, by omega⟩⟩
  by_cases hc5 : (y 1).val < 96
  · exact ⟨_, .tail _ (.tail _ (.tail _ (.tail _ (.head _)))), mem_piece k.val (k0_off41 k) (k0_off41_inb k) 80 (k0_off41_eq k) y hy ⟨by omega, by omega⟩⟩
  by_cases hc6 : (y 1).val < 112
  · exact ⟨_, .tail _ (.tail _ (.head _)), mem_piece k.val (k0_off47 k) (k0_off47_inb k) 96 (k0_off47_eq k) y hy ⟨by omega, by omega⟩⟩
  exact ⟨_, .head _, mem_piece k.val (k0_off53 k) (k0_off53_inb k) 112 (k0_off53_eq k) y hy ⟨by omega, by omega⟩⟩

end Inner

end Cert.Proof.KI

end
-- ==== Proof.TileInner1.lean ====
/-
  The in-place merge of slot 1, run: the loop of 64 trips takes the slot from a block R to the merged block.

  Before trip k the slot holds the block with its first k rows merged; one trip takes that to k + 1 rows; after the
  64th the slot holds the merged block, with which the rest of the program goes on.
-/
import proofs.«205127_g70231305225025_cont_9to1c4b_198_32_alg».proof.Proof.TileShares
import proofs.«205127_g70231305225025_cont_9to1c4b_198_32_alg».proof.Proof.TileInner1Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Before trip k the slot holds the block with its first k rows merged. -/
def inv1 [FloatOps F] (d : Dev nD) (L : grid0.Coords) (c0 c1 : FVec F S16 .f32)
    (R : Buf (Elt F) ((sl1).view.loc (V d (cV L) (jV L)))) (k : Nat) (_ : Unit) : sProp 𝕄 :=
  iprop((sl1).view.loc (V d (cV L) (jV L)) ↦{fullShare} mergedUpTo c0 c1 R k)

/-- The loop, from the slot at R, then the rest of the program from the slot at the merged block. -/
theorem inner1 [FloatOps F] (d : Dev nD) (L : grid0.Coords) (v2 : BitVec 32) (c0 c1 : FVec F S16 .f32) (k1 : Fin k0_t1_loop.trips)
    (w0 w1 w2 : BitVec 32) (R : Buf (Elt F) ((sl1).view.loc (V d (cV L) (jV L)))) {α : Type}
    (kont : Unit → Prog (TpuEff nD τ sig (Elt F) Λ₀ (.scVector (cV L) (jV L))) α) (Q : α → sProp 𝕄) :
    (iprop(((sl1).view.loc (V d (cV L) (jV L)) ↦{fullShare} R)
        ∗ (((sl1).view.loc (V d (cV L) (jV L)) ↦{fullShare} merged c0 c1 R)
            -∗ wp frame (wpE (defs₀ (F := F)) 𝒱₀ (V d (cV L) (jV L)) none) Set.univ (kont ⟨⟩) Q)) : sProp 𝕄)
      ⊢ wp frame (wpE (defs₀ (F := F)) 𝒱₀ (V d (cV L) (jV L)) none) Set.univ
          (Scf.Loop.for k0_t3_loop k0_t3_ok ⟨⟩ (k0_t3_body L flV (Memref.isWhole_whole _) prV (Memref.isWhole_whole _) cbV (Memref.isWhole_whole _) ouV (Memref.isWhole_whole _) tkS (Memref.isWhole_whole _) sl0 (Memref.isWhole_whole _) sl1 (Memref.isWhole_whole _) sl2 (Memref.isWhole_whole _) sl3 (Memref.isWhole_whole _) cfS (Memref.isWhole_whole _) cc0_scratch6 cc0_scratch7 cc0_scratch8 cc0_scratch9 cc0_scratch10 cc0_scratch11 cc0_scratch12 cc0_scratch13 cc0_scoped0 cc0_scoped1 v2 c0 c1 k1 w0 w1 w2) >>= kont) Q := by
  iintro ⟨HR, Hk⟩
  sl_for (inv1 d L c0 c1 R) $$ [HR]
  case region =>
    intro k _
    unfold inv1
    iintro H
    sl_exec
    sl_step
    sl_unfold_run_names
    iapply (Entails.of_eq (congrArg
      (fun g : Buf (Elt F) ((sl1).view.loc (V d (cV L) (jV L))) => ((sl1).view.loc (V d (cV L) (jV L)) ↦{fullShare} g : sProp 𝕄))
      (Inner.trip_eq1 c0 c1 R k))) $$ H
  · unfold inv1
    rw [mergedUpTo_zero]
    iexact HR
  rw [show Scf.trips k0_t3_loop.lb k0_t3_loop.ub k0_t3_loop.st = 64 from by decide]
  iintro %_ HI
  unfold inv1
  unfold merged
  iapply Hk
  iexact HI

end Cert.Proof.KI

end
-- ==== Proof.TileInner2Value.lean ====
/-
  What one trip of the in-place merge leaves in slot 2.

  Before trip k the slot holds the block with its first k rows merged; rows 2k and 2k + 1 are not among them
  (2k ≥ k), so every piece the trip reads is a piece of R, and the eight pieces it writes are exactly row k of the
  merged block: after the trip the slot holds the block with its first k + 1 rows merged.
-/
import proofs.«205127_g70231305225025_cont_9to1c4b_198_32_alg».proof.Proof.TileInnerLib

noncomputable section

namespace Cert.Proof.KI

open Cert.KernelIdeal Cert.KernelIdeal.Gen

open Idealize.ShloMosaic Idealize.ShloMosaic.ValueIdx

variable {F : FTy → Type} [FloatOps F]

namespace Inner

/-- What a 1 × 16 load at the given offsets reads of the slot's contents f. -/
abbrev ld2 (f : S128x128.Idx → F .f32) (off : Fin 2 → ℕ) (inb : ∀ a, off a + S1x16.size a ≤ S128x128.size a) :
    Vec F S1x16 .f32 :=
  View.readAt (Elt F) (sl2).view (Rect.unit (s := S128x128) off S1x16.size inb).toLoadRect f

/-- A load at row ρ ≥ n, column co, of the block with n rows merged reads R. -/
theorem load_val2 (c0 c1 : FVec F S16 .f32) (R : S128x128.Idx → F .f32) (n : ℕ) (off : Fin 2 → ℕ)
    (inb : ∀ a, off a + S1x16.size a ≤ S128x128.size a) (ρ co : ℕ) (hoff : off = ![ρ, co]) (hn : n ≤ ρ) (hρ : ρ < 128)
    (hco : co + 16 ≤ 128) (l : Fin 16) :
    ld2 (mergedUpTo c0 c1 R n) off inb (ix2 0 l)
      = R (ix2 (⟨ρ, hρ⟩ : Fin 128) (⟨co + l.val, by have := l.isLt; omega⟩ : Fin 128)) := by
  show mergedUpTo c0 c1 R n ((Rect.unit (s := S128x128) off S1x16.size inb).emb (ix2 0 l)) = _
  rw [idx_piece off inb ρ co hoff hρ hco]
  unfold mergedUpTo
  rw [dif_neg]
  intro h
  have : ρ < n := h.1
  omega

/-- Writes through pieces of row k that agree with the block with k + 1 rows merged and cover the row, over the block
    with k rows merged, leave the block with k + 1 rows merged. -/
theorem trip_writes2 (c0 c1 : FVec F S16 .f32) (R : S128x128.Idx → F .f32) (k : ℕ)
    (Ls : List (View.Piece (Elt F) S128x128 .f32))
    (hG : ∀ p ∈ Ls, ∀ x : p.1.shape.Idx, p.2 x = mergedUpTo c0 c1 R (k + 1) (p.1.emb x))
    (hrow : ∀ p ∈ Ls, ∀ y ∈ p.1.set, (y 0).val = k)
    (hcov : ∀ y : S128x128.Idx, (y 0).val = k → ∃ p ∈ Ls, y ∈ p.1.set) :
    (sl2).view.writes (Elt F) (mergedUpTo c0 c1 R k) Ls = mergedUpTo c0 c1 R (k + 1) := by
  funext y
  show (sl2).view.read (Elt F) ((sl2).view.writes (Elt F) (mergedUpTo c0 c1 R k) Ls) y = _
  by_cases hy : (y 0).val = k
  · exact View.read_writes_apply_of_pieces _ _ (mergedUpTo c0 c1 R (k + 1)) Ls hG y (hcov y hy)
  · rw [View.read_writes_apply_of_forall_not_mem _ _ y Ls fun p hp hm => hy (hrow p hp y hm)]
    exact mergedUpTo_succ_of_ne c0 c1 R k y hy

/-- THE TRIP: the eight pieces trip k writes, over the block with k rows merged, leave the block with k + 1. -/
theorem trip_eq2 (c0 c1 : FVec F S16 .f32) (R : S128x128.Idx → F .f32) (k : Fin k0_t4_loop.trips) :
    (sl2).view.writes (Elt F) (mergedUpTo c0 c1 R k.val)
      [(⟨Rect.unit (s := S128x128) (k0_off79 k) S1x16.size (k0_off79_inb k),
          k0_pay51 (k0_pay35 c0 c1 (ld2 (mergedUpTo c0 c1 R k.val) (k0_off76 k) (k0_off76_inb k)) (ld2 (mergedUpTo c0 c1 R k.val) (k0_off77 k) (k0_off77_inb k)))⟩ : View.Piece (Elt F) S128x128 .f32),
        (⟨Rect.unit (s := S128x128) (k0_off78 k) S1x16.size (k0_off78_inb k),
          k0_pay36 c0 c1 (ld2 (mergedUpTo c0 c1 R k.val) (k0_off74 k) (k0_off74_inb k)) (ld2 (mergedUpTo c0 c1 R k.val) (k0_off75 k) (k0_off75_inb k))⟩ : View.Piece (Elt F) S128x128 .f32),
        (⟨Rect.unit (s := S128x128) (k0_off73 k) S1x16.size (k0_off73_inb k),
          k0_pay34 c1 (k0_pay32 c0 (ld2 (mergedUpTo c0 c1 R k.val) (k0_off70 k) (k0_off70_inb k))) (ld2 (mergedUpTo c0 c1 R k.val) (k0_off71 k) (k0_off71_inb k))⟩ : View.Piece (Elt F) S128x128 .f32),
        (⟨Rect.unit (s := S128x128) (k0_off72 k) S1x16.size (k0_off72_inb k),
          k0_pay33 (k0_pay31 c0 c1 (ld2 (mergedUpTo c0 c1 R k.val) (k0_off68 k) (k0_off68_inb k)) (ld2 (mergedUpTo c0 c1 R k.val) (k0_off69 k) (k0_off69_inb k)))⟩ : View.Piece (Elt F) S128x128 .f32),
        (⟨Rect.unit (s := S128x128) (k0_off67 k) S1x16.size (k0_off67_inb k),
          k0_pay30 c0 c1 (ld2 (mergedUpTo c0 c1 R k.val) (k0_off64 k) (k0_off64_inb k)) (ld2 (mergedUpTo c0 c1 R k.val) (k0_off65 k) (k0_off65_inb k))⟩ : View.Piece (Elt F) S128x128 .f32),
        (⟨Rect.unit (s := S128x128) (k0_off66 k) S1x16.size (k0_off66_inb k),
          k0_pay29 c1 (k0_pay27 c0 (ld2 (mergedUpTo c0 c1 R k.val) (k0_off62 k) (k0_off62_inb k))) (k0_pay28 (ld2 (mergedUpTo c0 c1 R k.val) (k0_off63 k) (k0_off63_inb k)))⟩ : View.Piece (Elt F) S128x128 .f32),
        (⟨Rect.unit (s := S128x128) (k0_off61 k) S1x16.size (k0_off61_inb k),
          k0_pay26 c0 c1 (ld2 (mergedUpTo c0 c1 R k.val) (k0_off58 k) (k0_off58_inb k)) (ld2 (mergedUpTo c0 c1 R k.val) (k0_off59 k) (k0_off59_inb k))⟩ : View.Piece (Elt F) S128x128 .f32),
        (⟨Rect.unit (s := S128x128) (k0_off60 k) S1x16.size (k0_off60_inb k),
          k0_pay25 c0 c1 (ld2 (mergedUpTo c0 c1 R k.val) (k0_off56 k) (k0_off56_inb k)) (ld2 (mergedUpTo c0 c1 R k.val) (k0_off57 k) (k0_off57_inb k))⟩ : View.Piece (Elt F) S128x128 .f32)]
      = mergedUpTo c0 c1 R (k.val + 1) := by
  have hk : k.val < 64 := Nat.lt_of_lt_of_le k.isLt k0_t4_abs.2.1
  refine trip_writes2 c0 c1 R k.val _ ?_ ?_ ?_
  · exact forall_mem8
      (piece_ok c0 c1 R k.val hk (k0_off79 k) (k0_off79_inb k) 1 3 (by decide) (by decide) (k0_off79_eq k) (ld2 (mergedUpTo c0 c1 R k.val) (k0_off76 k) (k0_off76_inb k)) (ld2 (mergedUpTo c0 c1 R k.val) (k0_off77 k) (k0_off77_inb k))
      (fun l => load_val2 c0 c1 R k.val _ _ (2 * k.val + 1) (16 * 3) (k0_off76_eq k) (by omega) (by omega) (by omega) l)
      (fun l => load_val2 c0 c1 R k.val _ _ (2 * k.val + 1) (64 + 16 * 3) (k0_off77_eq k) (by omega) (by omega) (by omega) l)
      _ (fun u l => comb_apply c0 c1 _ _ u l))
      (piece_ok c0 c1 R k.val hk (k0_off78 k) (k0_off78_inb k) 0 3 (by decide) (by decide) (k0_off78_eq k) (ld2 (mergedUpTo c0 c1 R k.val) (k0_off74 k) (k0_off74_inb k)) (ld2 (mergedUpTo c0 c1 R k.val) (k0_off75 k) (k0_off75_inb k))
      (fun l => load_val2 c0 c1 R k.val _ _ (2 * k.val + 0) (16 * 3) (k0_off74_eq k) (by omega) (by omega) (by omega) l)
      (fun l => load_val2 c0 c1 R k.val _ _ (2 * k.val + 0) (64 + 16 * 3) (k0_off75_eq k) (by omega) (by omega) (by omega) l)
      _ (fun u l => comb_apply c0 c1 _ _ u l))
      (piece_ok c0 c1 R k.val hk (k0_off73 k) (k0_off73_inb k) 1 2 (by decide) (by decide) (k0_off73_eq k) (ld2 (mergedUpTo c0 c1 R k.val) (k0_off70 k) (k0_off70_inb k)) (ld2 (mergedUpTo c0 c1 R k.val) (k0_off71 k) (k0_off71_inb k))
      (fun l => load_val2 c0 c1 R k.val _ _ (2 * k.val + 1) (16 * 2) (k0_off70_eq k) (by omega) (by omega) (by omega) l)
      (fun l => load_val2 c0 c1 R k.val _ _ (2 * k.val + 1) (64 + 16 * 2) (k0_off71_eq k) (by omega) (by omega) (by omega) l)
      _ (fun u l => comb_apply c0 c1 _ _ u l))
      (piece_ok c0 c1 R k.val hk (k0_off72 k) (k0_off72_inb k) 0 2 (by decide) (by decide) (k0_off72_eq k) (ld2 (mergedUpTo c0 c1 R k.val) (k0_off68 k) (k0_off68_inb k)) (ld2 (mergedUpTo c0 c1 R k.val) (k0_off69 k) (k0_off69_inb k))
      (fun l => load_val2 c0 c1 R k.val _ _ (2 * k.val + 0) (16 * 2) (k0_off68_eq k) (by omega) (by omega) (by omega) l)
      (fun l => load_val2 c0 c1 R k.val _ _ (2 * k.val + 0) (64 + 16 * 2) (k0_off69_eq k) (by omega) (by omega) (by omega) l)
      _ (fun u l => comb_apply c0 c1 _ _ u l))
      (piece_ok c0 c1 R k.val hk (k0_off67 k) (k0_off67_inb k) 1 1 (by decide) (by decide) (k0_off67_eq k) (ld2 (mergedUpTo c0 c1 R k.val) (k0_off64 k) (k0_off64_inb k)) (ld2 (mergedUpTo c0 c1 R k.val) (k0_off65 k) (k0_off65_inb k))
      (fun l => load_val2 c0 c1 R k.val _ _ (2 * k.val + 1) (16 * 1) (k0_off64_eq k) (by omega) (by omega) (by omega) l)
      (fun l => load_val2 c0 c1 R k.val _ _ (2 * k.val + 1) (64 + 16 * 1) (k0_off65_eq k) (by omega) (by omega) (by omega) l)
      _ (fun u l => comb_apply c0 c1 _ _ u l))
      (piece_ok c0 c1 R k.val hk (k0_off66 k) (k0_off66_inb k) 0 1 (by decide) (by decide) (k0_off66_eq k) (ld2 (mergedUpTo c0 c1 R k.val) (k0_off62 k) (k0_off62_inb k)) (ld2 (mergedUpTo c0 c1 R k.val) (k0_off63 k) (k0_off63_inb k))
      (fun l => load_val2 c0 c1 R k.val _ _ (2 * k.val + 0) (16 * 1) (k0_off62_eq k) (by omega) (by omega) (by omega) l)
      (fun l => load_val2 c0 c1 R k.val _ _ (2 * k.val + 0) (64 + 16 * 1) (k0_off63_eq k) (by omega) (by omega) (by omega) l)
      _ (fun u l => comb_apply c0 c1 _ _ u l))
      (piece_ok c0 c1 R k.val hk (k0_off61 k) (k0_off61_inb k) 1 0 (by decide) (by decide) (k0_off61_eq k) (ld2 (mergedUpTo c0 c1 R k.val) (k0_off58 k) (k0_off58_inb k)) (ld2 (mergedUpTo c0 c1 R k.val) (k0_off59 k) (k0_off59_inb k))
      (fun l => load_val2 c0 c1 R k.val _ _ (2 * k.val + 1) (16 * 0) (k0_off58_eq k) (by omega) (by omega) (by omega) l)
      (fun l => load_val2 c0 c1 R k.val _ _ (2 * k.val + 1) (64 + 16 * 0) (k0_off59_eq k) (by omega) (by omega) (by omega) l)
      _ (fun u l => comb_apply c0 c1 _ _ u l))
      (piece_ok c0 c1 R k.val hk (k0_off60 k) (k0_off60_inb k) 0 0 (by decide) (by decide) (k0_off60_eq k) (ld2 (mergedUpTo c0 c1 R k.val) (k0_off56 k) (k0_off56_inb k)) (ld2 (mergedUpTo c0 c1 R k.val) (k0_off57 k) (k0_off57_inb k))
      (fun l => load_val2 c0 c1 R k.val _ _ (2 * k.val + 0) (16 * 0) (k0_off56_eq k) (by omega) (by omega) (by omega) l)
      (fun l => load_val2 c0 c1 R k.val _ _ (2 * k.val + 0) (64 + 16 * 0) (k0_off57_eq k) (by omega) (by omega) (by omega) l)
      _ (fun u l => comb_apply c0 c1 _ _ u l))
  · exact forall_mem8
      (fun y hy => row_of_mem_piece k.val (k0_off79 k) (k0_off79_inb k) _ (k0_off79_eq k) y hy)
      (fun y hy => row_of_mem_piece k.val (k0_off78 k) (k0_off78_inb k) _ (k0_off78_eq k) y hy)
      (fun y hy => row_of_mem_piece k.val (k0_off73 k) (k0_off73_inb k) _ (k0_off73_eq k) y hy)
      (fun y hy => row_of_mem_piece k.val (k0_off72 k) (k0_off72_inb k) _ (k0_off72_eq k) y hy)
      (fun y hy => row_of_mem_piece k.val (k0_off67 k) (k0_off67_inb k) _ (k0_off67_eq k) y hy)
      (fun y hy => row_of_mem_piece k.val (k0_off66 k) (k0_off66_inb k) _ (k0_off66_eq k) y hy)
      (fun y hy => row_of_mem_piece k.val (k0_off61 k) (k0_off61_inb k) _ (k0_off61_eq k) y hy)
      (fun y hy => row_of_mem_piece k.val (k0_off60 k) (k0_off60_inb k) _ (k0_off60_eq k) y hy)
  intro y hy
  have h1 : (y 1).val < 128 := (y 1).isLt
  by_cases hc0 : (y 1).val < 16
  · exact ⟨_, .tail _ (.tail _ (.tail _ (.tail _ (.tail _ (.tail _ (.tail _ (.head _))))))), mem_piece k.val (k0_off60 k) (k0_off60_inb k) 0 (k0_off60_eq k) y hy ⟨by omega, by omega⟩⟩
  by_cases hc1 : (y 1).val < 32
  · exact ⟨_, .tail _ (.tail _ (.tail _ (.tail _ (.tail _ (.head _))))), mem_piece k.val (k0_off66 k) (k0_off66_inb k) 16 (k0_off66_eq k) y hy ⟨by omega, by omega⟩⟩
  by_cases hc2 : (y 1).val < 48
  · exact ⟨_, .tail _ (.tail _ (.tail _ (.head _))), mem_piece k.val (k0_off72 k) (k0_off72_inb k) 32 (k0_off72_eq k) y hy ⟨by omega, by omega⟩⟩
  by_cases hc3 : (y 1).val < 64
  · exact ⟨_, .tail _ (.head _), mem_piece k.val (k0_off78 k) (k0_off78_inb k) 48 (k0_off78_eq k) y hy ⟨by omega, by omega⟩⟩
  by_cases hc4 : (y 1).val < 80
  · exact ⟨_, .tail _ (.tail _ (.tail _ (.tail _ (.tail _ (.tail _ (.head _)))))), mem_piece k.val (k0_off61 k) (k0_off61_inb k) 64 (k0_off61_eq k) y hy ⟨by omega, by omega⟩⟩
  by_cases hc5 : (y 1).val < 96
  · exact ⟨_, .tail _ (.tail _ (.tail _ (.tail _ (.head _)))), mem_piece k.val (k0_off67 k) (k0_off67_inb k) 80 (k0_off67_eq k) y hy ⟨by omega, by omega⟩⟩
  by_cases hc6 : (y 1).val < 112
  · exact ⟨_, .tail _ (.tail _ (.head _)), mem_piece k.val (k0_off73 k) (k0_off73_inb k) 96 (k0_off73_eq k) y hy ⟨by omega, by omega⟩⟩
  exact ⟨_, .head _, mem_piece k.val (k0_off79 k) (k0_off79_inb k) 112 (k0_off79_eq k) y hy ⟨by omega, by omega⟩⟩

end Inner

end Cert.Proof.KI

end
-- ==== Proof.TileInner2.lean ====
/-
  The in-place merge of slot 2, run: the loop of 64 trips takes the slot from a block R to the merged block.

  Before trip k the slot holds the block with its first k rows merged; one trip takes that to k + 1 rows; after the
  64th the slot holds the merged block, with which the rest of the program goes on.
-/
import proofs.«205127_g70231305225025_cont_9to1c4b_198_32_alg».proof.Proof.TileShares
import proofs.«205127_g70231305225025_cont_9to1c4b_198_32_alg».proof.Proof.TileInner2Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Before trip k the slot holds the block with its first k rows merged. -/
def inv2 [FloatOps F] (d : Dev nD) (L : grid0.Coords) (c0 c1 : FVec F S16 .f32)
    (R : Buf (Elt F) ((sl2).view.loc (V d (cV L) (jV L)))) (k : Nat) (_ : Unit) : sProp 𝕄 :=
  iprop((sl2).view.loc (V d (cV L) (jV L)) ↦{fullShare} mergedUpTo c0 c1 R k)

/-- The loop, from the slot at R, then the rest of the program from the slot at the merged block. -/
theorem inner2 [FloatOps F] (d : Dev nD) (L : grid0.Coords) (v2 : BitVec 32) (c0 c1 : FVec F S16 .f32) (k1 : Fin k0_t1_loop.trips)
    (w0 w1 : BitVec 32) (R : Buf (Elt F) ((sl2).view.loc (V d (cV L) (jV L)))) {α : Type}
    (kont : Unit → Prog (TpuEff nD τ sig (Elt F) Λ₀ (.scVector (cV L) (jV L))) α) (Q : α → sProp 𝕄) :
    (iprop(((sl2).view.loc (V d (cV L) (jV L)) ↦{fullShare} R)
        ∗ (((sl2).view.loc (V d (cV L) (jV L)) ↦{fullShare} merged c0 c1 R)
            -∗ wp frame (wpE (defs₀ (F := F)) 𝒱₀ (V d (cV L) (jV L)) none) Set.univ (kont ⟨⟩) Q)) : sProp 𝕄)
      ⊢ wp frame (wpE (defs₀ (F := F)) 𝒱₀ (V d (cV L) (jV L)) none) Set.univ
          (Scf.Loop.for k0_t4_loop k0_t4_ok ⟨⟩ (k0_t4_body L flV (Memref.isWhole_whole _) prV (Memref.isWhole_whole _) cbV (Memref.isWhole_whole _) ouV (Memref.isWhole_whole _) tkS (Memref.isWhole_whole _) sl0 (Memref.isWhole_whole _) sl1 (Memref.isWhole_whole _) sl2 (Memref.isWhole_whole _) sl3 (Memref.isWhole_whole _) cfS (Memref.isWhole_whole _) cc0_scratch6 cc0_scratch7 cc0_scratch8 cc0_scratch9 cc0_scratch10 cc0_scratch11 cc0_scratch12 cc0_scratch13 cc0_scoped0 cc0_scoped1 v2 c0 c1 k1 w0 w1) >>= kont) Q := by
  iintro ⟨HR, Hk⟩
  sl_for (inv2 d L c0 c1 R) $$ [HR]
  case region =>
    intro k _
    unfold inv2
    iintro H
    sl_exec
    sl_step
    sl_unfold_run_names
    iapply (Entails.of_eq (congrArg
      (fun g : Buf (Elt F) ((sl2).view.loc (V d (cV L) (jV L))) => ((sl2).view.loc (V d (cV L) (jV L)) ↦{fullShare} g : sProp 𝕄))
      (Inner.trip_eq2 c0 c1 R k))) $$ H
  · unfold inv2
    rw [mergedUpTo_zero]
    iexact HR
  rw [show Scf.trips k0_t4_loop.lb k0_t4_loop.ub k0_t4_loop.st = 64 from by decide]
  iintro %_ HI
  unfold inv2
  unfold merged
  iapply Hk
  iexact HI

end Cert.Proof.KI

end
-- ==== Proof.TileInner3Value.lean ====
/-
  What one trip of the in-place merge leaves in slot 3.

  Before trip k the slot holds the block with its first k rows merged; rows 2k and 2k + 1 are not among them
  (2k ≥ k), so every piece the trip reads is a piece of R, and the eight pieces it writes are exactly row k of the
  merged block: after the trip the slot holds the block with its first k + 1 rows merged.
-/
import proofs.«205127_g70231305225025_cont_9to1c4b_198_32_alg».proof.Proof.TileInnerLib

noncomputable section

namespace Cert.Proof.KI

open Cert.KernelIdeal Cert.KernelIdeal.Gen

open Idealize.ShloMosaic Idealize.ShloMosaic.ValueIdx

variable {F : FTy → Type} [FloatOps F]

namespace Inner

/-- What a 1 × 16 load at the given offsets reads of the slot's contents f. -/
abbrev ld3 (f : S128x128.Idx → F .f32) (off : Fin 2 → ℕ) (inb : ∀ a, off a + S1x16.size a ≤ S128x128.size a) :
    Vec F S1x16 .f32 :=
  View.readAt (Elt F) (sl3).view (Rect.unit (s := S128x128) off S1x16.size inb).toLoadRect f

/-- A load at row ρ ≥ n, column co, of the block with n rows merged reads R. -/
theorem load_val3 (c0 c1 : FVec F S16 .f32) (R : S128x128.Idx → F .f32) (n : ℕ) (off : Fin 2 → ℕ)
    (inb : ∀ a, off a + S1x16.size a ≤ S128x128.size a) (ρ co : ℕ) (hoff : off = ![ρ, co]) (hn : n ≤ ρ) (hρ : ρ < 128)
    (hco : co + 16 ≤ 128) (l : Fin 16) :
    ld3 (mergedUpTo c0 c1 R n) off inb (ix2 0 l)
      = R (ix2 (⟨ρ, hρ⟩ : Fin 128) (⟨co + l.val, by have := l.isLt; omega⟩ : Fin 128)) := by
  show mergedUpTo c0 c1 R n ((Rect.unit (s := S128x128) off S1x16.size inb).emb (ix2 0 l)) = _
  rw [idx_piece off inb ρ co hoff hρ hco]
  unfold mergedUpTo
  rw [dif_neg]
  intro h
  have : ρ < n := h.1
  omega

/-- Writes through pieces of row k that agree with the block with k + 1 rows merged and cover the row, over the block
    with k rows merged, leave the block with k + 1 rows merged. -/
theorem trip_writes3 (c0 c1 : FVec F S16 .f32) (R : S128x128.Idx → F .f32) (k : ℕ)
    (Ls : List (View.Piece (Elt F) S128x128 .f32))
    (hG : ∀ p ∈ Ls, ∀ x : p.1.shape.Idx, p.2 x = mergedUpTo c0 c1 R (k + 1) (p.1.emb x))
    (hrow : ∀ p ∈ Ls, ∀ y ∈ p.1.set, (y 0).val = k)
    (hcov : ∀ y : S128x128.Idx, (y 0).val = k → ∃ p ∈ Ls, y ∈ p.1.set) :
    (sl3).view.writes (Elt F) (mergedUpTo c0 c1 R k) Ls = mergedUpTo c0 c1 R (k + 1) := by
  funext y
  show (sl3).view.read (Elt F) ((sl3).view.writes (Elt F) (mergedUpTo c0 c1 R k) Ls) y = _
  by_cases hy : (y 0).val = k
  · exact View.read_writes_apply_of_pieces _ _ (mergedUpTo c0 c1 R (k + 1)) Ls hG y (hcov y hy)
  · rw [View.read_writes_apply_of_forall_not_mem _ _ y Ls fun p hp hm => hy (hrow p hp y hm)]
    exact mergedUpTo_succ_of_ne c0 c1 R k y hy

/-- THE TRIP: the eight pieces trip k writes, over the block with k rows merged, leave the block with k + 1. -/
theorem trip_eq3 (c0 c1 : FVec F S16 .f32) (R : S128x128.Idx → F .f32) (k : Fin k0_t5_loop.trips) :
    (sl3).view.writes (Elt F) (mergedUpTo c0 c1 R k.val)
      [(⟨Rect.unit (s := S128x128) (k0_off105 k) S1x16.size (k0_off105_inb k),
          k0_pay52 (k0_pay47 c0 c1 (ld3 (mergedUpTo c0 c1 R k.val) (k0_off102 k) (k0_off102_inb k)) (ld3 (mergedUpTo c0 c1 R k.val) (k0_off103 k) (k0_off103_inb k)))⟩ : View.Piece (Elt F) S128x128 .f32),
        (⟨Rect.unit (s := S128x128) (k0_off104 k) S1x16.size (k0_off104_inb k),
          k0_pay48 c0 c1 (ld3 (mergedUpTo c0 c1 R k.val) (k0_off100 k) (k0_off100_inb k)) (ld3 (mergedUpTo c0 c1 R k.val) (k0_off101 k) (k0_off101_inb k))⟩ : View.Piece (Elt F) S128x128 .f32),
        (⟨Rect.unit (s := S128x128) (k0_off99 k) S1x16.size (k0_off99_inb k),
          k0_pay46 c1 (k0_pay44 c0 (ld3 (mergedUpTo c0 c1 R k.val) (k0_off96 k) (k0_off96_inb k))) (ld3 (mergedUpTo c0 c1 R k.val) (k0_off97 k) (k0_off97_inb k))⟩ : View.Piece (Elt F) S128x128 .f32),
        (⟨Rect.unit (s := S128x128) (k0_off98 k) S1x16.size (k0_off98_inb k),
          k0_pay45 (k0_pay43 c0 c1 (ld3 (mergedUpTo c0 c1 R k.val) (k0_off94 k) (k0_off94_inb k)) (ld3 (mergedUpTo c0 c1 R k.val) (k0_off95 k) (k0_off95_inb k)))⟩ : View.Piece (Elt F) S128x128 .f32),
        (⟨Rect.unit (s := S128x128) (k0_off93 k) S1x16.size (k0_off93_inb k),
          k0_pay42 c0 c1 (ld3 (mergedUpTo c0 c1 R k.val) (k0_off90 k) (k0_off90_inb k)) (ld3 (mergedUpTo c0 c1 R k.val) (k0_off91 k) (k0_off91_inb k))⟩ : View.Piece (Elt F) S128x128 .f32),
        (⟨Rect.unit (s := S128x128) (k0_off92 k) S1x16.size (k0_off92_inb k),
          k0_pay41 c1 (k0_pay39 c0 (ld3 (mergedUpTo c0 c1 R k.val) (k0_off88 k) (k0_off88_inb k))) (k0_pay40 (ld3 (mergedUpTo c0 c1 R k.val) (k0_off89 k) (k0_off89_inb k)))⟩ : View.Piece (Elt F) S128x128 .f32),
        (⟨Rect.unit (s := S128x128) (k0_off87 k) S1x16.size (k0_off87_inb k),
          k0_pay38 c0 c1 (ld3 (mergedUpTo c0 c1 R k.val) (k0_off84 k) (k0_off84_inb k)) (ld3 (mergedUpTo c0 c1 R k.val) (k0_off85 k) (k0_off85_inb k))⟩ : View.Piece (Elt F) S128x128 .f32),
        (⟨Rect.unit (s := S128x128) (k0_off86 k) S1x16.size (k0_off86_inb k),
          k0_pay37 c0 c1 (ld3 (mergedUpTo c0 c1 R k.val) (k0_off82 k) (k0_off82_inb k)) (ld3 (mergedUpTo c0 c1 R k.val) (k0_off83 k) (k0_off83_inb k))⟩ : View.Piece (Elt F) S128x128 .f32)]
      = mergedUpTo c0 c1 R (k.val + 1) := by
  have hk : k.val < 64 := Nat.lt_of_lt_of_le k.isLt k0_t5_abs.2.1
  refine trip_writes3 c0 c1 R k.val _ ?_ ?_ ?_
  · exact forall_mem8
      (piece_ok c0 c1 R k.val hk (k0_off105 k) (k0_off105_inb k) 1 3 (by decide) (by decide) (k0_off105_eq k) (ld3 (mergedUpTo c0 c1 R k.val) (k0_off102 k) (k0_off102_inb k)) (ld3 (mergedUpTo c0 c1 R k.val) (k0_off103 k) (k0_off103_inb k))
      (fun l => load_val3 c0 c1 R k.val _ _ (2 * k.val + 1) (16 * 3) (k0_off102_eq k) (by omega) (by omega) (by omega) l)
      (fun l => load_val3 c0 c1 R k.val _ _ (2 * k.val + 1) (64 + 16 * 3) (k0_off103_eq k) (by omega) (by omega) (by omega) l)
      _ (fun u l => comb_apply c0 c1 _ _ u l))
      (piece_ok c0 c1 R k.val hk (k0_off104 k) (k0_off104_inb k) 0 3 (by decide) (by decide) (k0_off104_eq k) (ld3 (mergedUpTo c0 c1 R k.val) (k0_off100 k) (k0_off100_inb k)) (ld3 (mergedUpTo c0 c1 R k.val) (k0_off101 k) (k0_off101_inb k))
      (fun l => load_val3 c0 c1 R k.val _ _ (2 * k.val + 0) (16 * 3) (k0_off100_eq k) (by omega) (by omega) (by omega) l)
      (fun l => load_val3 c0 c1 R k.val _ _ (2 * k.val + 0) (64 + 16 * 3) (k0_off101_eq k) (by omega) (by omega) (by omega) l)
      _ (fun u l => comb_apply c0 c1 _ _ u l))
      (piece_ok c0 c1 R k.val hk (k0_off99 k) (k0_off99_inb k) 1 2 (by decide) (by decide) (k0_off99_eq k) (ld3 (mergedUpTo c0 c1 R k.val) (k0_off96 k) (k0_off96_inb k)) (ld3 (mergedUpTo c0 c1 R k.val) (k0_off97 k) (k0_off97_inb k))
      (fun l => load_val3 c0 c1 R k.val _ _ (2 * k.val + 1) (16 * 2) (k0_off96_eq k) (by omega) (by omega) (by omega) l)
      (fun l => load_val3 c0 c1 R k.val _ _ (2 * k.val + 1) (64 + 16 * 2) (k0_off97_eq k) (by omega) (by omega) (by omega) l)
      _ (fun u l => comb_apply c0 c1 _ _ u l))
      (piece_ok c0 c1 R k.val hk (k0_off98 k) (k0_off98_inb k) 0 2 (by decide) (by decide) (k0_off98_eq k) (ld3 (mergedUpTo c0 c1 R k.val) (k0_off94 k) (k0_off94_inb k)) (ld3 (mergedUpTo c0 c1 R k.val) (k0_off95 k) (k0_off95_inb k))
      (fun l => load_val3 c0 c1 R k.val _ _ (2 * k.val + 0) (16 * 2) (k0_off94_eq k) (by omega) (by omega) (by omega) l)
      (fun l => load_val3 c0 c1 R k.val _ _ (2 * k.val + 0) (64 + 16 * 2) (k0_off95_eq k) (by omega) (by omega) (by omega) l)
      _ (fun u l => comb_apply c0 c1 _ _ u l))
      (piece_ok c0 c1 R k.val hk (k0_off93 k) (k0_off93_inb k) 1 1 (by decide) (by decide) (k0_off93_eq k) (ld3 (mergedUpTo c0 c1 R k.val) (k0_off90 k) (k0_off90_inb k)) (ld3 (mergedUpTo c0 c1 R k.val) (k0_off91 k) (k0_off91_inb k))
      (fun l => load_val3 c0 c1 R k.val _ _ (2 * k.val + 1) (16 * 1) (k0_off90_eq k) (by omega) (by omega) (by omega) l)
      (fun l => load_val3 c0 c1 R k.val _ _ (2 * k.val + 1) (64 + 16 * 1) (k0_off91_eq k) (by omega) (by omega) (by omega) l)
      _ (fun u l => comb_apply c0 c1 _ _ u l))
      (piece_ok c0 c1 R k.val hk (k0_off92 k) (k0_off92_inb k) 0 1 (by decide) (by decide) (k0_off92_eq k) (ld3 (mergedUpTo c0 c1 R k.val) (k0_off88 k) (k0_off88_inb k)) (ld3 (mergedUpTo c0 c1 R k.val) (k0_off89 k) (k0_off89_inb k))
      (fun l => load_val3 c0 c1 R k.val _ _ (2 * k.val + 0) (16 * 1) (k0_off88_eq k) (by omega) (by omega) (by omega) l)
      (fun l => load_val3 c0 c1 R k.val _ _ (2 * k.val + 0) (64 + 16 * 1) (k0_off89_eq k) (by omega) (by omega) (by omega) l)
      _ (fun u l => comb_apply c0 c1 _ _ u l))
      (piece_ok c0 c1 R k.val hk (k0_off87 k) (k0_off87_inb k) 1 0 (by decide) (by decide) (k0_off87_eq k) (ld3 (mergedUpTo c0 c1 R k.val) (k0_off84 k) (k0_off84_inb k)) (ld3 (mergedUpTo c0 c1 R k.val) (k0_off85 k) (k0_off85_inb k))
      (fun l => load_val3 c0 c1 R k.val _ _ (2 * k.val + 1) (16 * 0) (k0_off84_eq k) (by omega) (by omega) (by omega) l)
      (fun l => load_val3 c0 c1 R k.val _ _ (2 * k.val + 1) (64 + 16 * 0) (k0_off85_eq k) (by omega) (by omega) (by omega) l)
      _ (fun u l => comb_apply c0 c1 _ _ u l))
      (piece_ok c0 c1 R k.val hk (k0_off86 k) (k0_off86_inb k) 0 0 (by decide) (by decide) (k0_off86_eq k) (ld3 (mergedUpTo c0 c1 R k.val) (k0_off82 k) (k0_off82_inb k)) (ld3 (mergedUpTo c0 c1 R k.val) (k0_off83 k) (k0_off83_inb k))
      (fun l => load_val3 c0 c1 R k.val _ _ (2 * k.val + 0) (16 * 0) (k0_off82_eq k) (by omega) (by omega) (by omega) l)
      (fun l => load_val3 c0 c1 R k.val _ _ (2 * k.val + 0) (64 + 16 * 0) (k0_off83_eq k) (by omega) (by omega) (by omega) l)
      _ (fun u l => comb_apply c0 c1 _ _ u l))
  · exact forall_mem8
      (fun y hy => row_of_mem_piece k.val (k0_off105 k) (k0_off105_inb k) _ (k0_off105_eq k) y hy)
      (fun y hy => row_of_mem_piece k.val (k0_off104 k) (k0_off104_inb k) _ (k0_off104_eq k) y hy)
      (fun y hy => row_of_mem_piece k.val (k0_off99 k) (k0_off99_inb k) _ (k0_off99_eq k) y hy)
      (fun y hy => row_of_mem_piece k.val (k0_off98 k) (k0_off98_inb k) _ (k0_off98_eq k) y hy)
      (fun y hy => row_of_mem_piece k.val (k0_off93 k) (k0_off93_inb k) _ (k0_off93_eq k) y hy)
      (fun y hy => row_of_mem_piece k.val (k0_off92 k) (k0_off92_inb k) _ (k0_off92_eq k) y hy)
      (fun y hy => row_of_mem_piece k.val (k0_off87 k) (k0_off87_inb k) _ (k0_off87_eq k) y hy)
      (fun y hy => row_of_mem_piece k.val (k0_off86 k) (k0_off86_inb k) _ (k0_off86_eq k) y hy)
  intro y hy
  have h1 : (y 1).val < 128 := (y 1).isLt
  by_cases hc0 : (y 1).val < 16
  · exact ⟨_, .tail _ (.tail _ (.tail _ (.tail _ (.tail _ (.tail _ (.tail _ (.head _))))))), mem_piece k.val (k0_off86 k) (k0_off86_inb k) 0 (k0_off86_eq k) y hy ⟨by omega, by omega⟩⟩
  by_cases hc1 : (y 1).val < 32
  · exact ⟨_, .tail _ (.tail _ (.tail _ (.tail _ (.tail _ (.head _))))), mem_piece k.val (k0_off92 k) (k0_off92_inb k) 16 (k0_off92_eq k) y hy ⟨by omega, by omega⟩⟩
  by_cases hc2 : (y 1).val < 48
  · exact ⟨_, .tail _ (.tail _ (.tail _ (.head _))), mem_piece k.val (k0_off98 k) (k0_off98_inb k) 32 (k0_off98_eq k) y hy ⟨by omega, by omega⟩⟩
  by_cases hc3 : (y 1).val < 64
  · exact ⟨_, .tail _ (.head _), mem_piece k.val (k0_off104 k) (k0_off104_inb k) 48 (k0_off104_eq k) y hy ⟨by omega, by omega⟩⟩
  by_cases hc4 : (y 1).val < 80
  · exact ⟨_, .tail _ (.tail _ (.tail _ (.tail _ (.tail _ (.tail _ (.head _)))))), mem_piece k.val (k0_off87 k) (k0_off87_inb k) 64 (k0_off87_eq k) y hy ⟨by omega, by omega⟩⟩
  by_cases hc5 : (y 1).val < 96
  · exact ⟨_, .tail _ (.tail _ (.tail _ (.tail _ (.head _)))), mem_piece k.val (k0_off93 k) (k0_off93_inb k) 80 (k0_off93_eq k) y hy ⟨by omega, by omega⟩⟩
  by_cases hc6 : (y 1).val < 112
  · exact ⟨_, .tail _ (.tail _ (.head _)), mem_piece k.val (k0_off99 k) (k0_off99_inb k) 96 (k0_off99_eq k) y hy ⟨by omega, by omega⟩⟩
  exact ⟨_, .head _, mem_piece k.val (k0_off105 k) (k0_off105_inb k) 112 (k0_off105_eq k) y hy ⟨by omega, by omega⟩⟩

end Inner

end Cert.Proof.KI

end
-- ==== Proof.TileInner3.lean ====
/-
  The in-place merge of slot 3, run: the loop of 64 trips takes the slot from a block R to the merged block.

  Before trip k the slot holds the block with its first k rows merged; one trip takes that to k + 1 rows; after the
  64th the slot holds the merged block, with which the rest of the program goes on.
-/
import proofs.«205127_g70231305225025_cont_9to1c4b_198_32_alg».proof.Proof.TileShares
import proofs.«205127_g70231305225025_cont_9to1c4b_198_32_alg».proof.Proof.TileInner3Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Before trip k the slot holds the block with its first k rows merged. -/
def inv3 [FloatOps F] (d : Dev nD) (L : grid0.Coords) (c0 c1 : FVec F S16 .f32)
    (R : Buf (Elt F) ((sl3).view.loc (V d (cV L) (jV L)))) (k : Nat) (_ : Unit) : sProp 𝕄 :=
  iprop((sl3).view.loc (V d (cV L) (jV L)) ↦{fullShare} mergedUpTo c0 c1 R k)

/-- The loop, from the slot at R, then the rest of the program from the slot at the merged block. -/
theorem inner3 [FloatOps F] (d : Dev nD) (L : grid0.Coords) (v2 : BitVec 32) (c0 c1 : FVec F S16 .f32) (k1 : Fin k0_t1_loop.trips)
    (w0 w1 : BitVec 32) (R : Buf (Elt F) ((sl3).view.loc (V d (cV L) (jV L)))) {α : Type}
    (kont : Unit → Prog (TpuEff nD τ sig (Elt F) Λ₀ (.scVector (cV L) (jV L))) α) (Q : α → sProp 𝕄) :
    (iprop(((sl3).view.loc (V d (cV L) (jV L)) ↦{fullShare} R)
        ∗ (((sl3).view.loc (V d (cV L) (jV L)) ↦{fullShare} merged c0 c1 R)
            -∗ wp frame (wpE (defs₀ (F := F)) 𝒱₀ (V d (cV L) (jV L)) none) Set.univ (kont ⟨⟩) Q)) : sProp 𝕄)
      ⊢ wp frame (wpE (defs₀ (F := F)) 𝒱₀ (V d (cV L) (jV L)) none) Set.univ
          (Scf.Loop.for k0_t5_loop k0_t5_ok ⟨⟩ (k0_t5_body L flV (Memref.isWhole_whole _) prV (Memref.isWhole_whole _) cbV (Memref.isWhole_whole _) ouV (Memref.isWhole_whole _) tkS (Memref.isWhole_whole _) sl0 (Memref.isWhole_whole _) sl1 (Memref.isWhole_whole _) sl2 (Memref.isWhole_whole _) sl3 (Memref.isWhole_whole _) cfS (Memref.isWhole_whole _) cc0_scratch6 cc0_scratch7 cc0_scratch8 cc0_scratch9 cc0_scratch10 cc0_scratch11 cc0_scratch12 cc0_scratch13 cc0_scoped0 cc0_scoped1 v2 c0 c1 k1 w0 w1) >>= kont) Q := by
  iintro ⟨HR, Hk⟩
  sl_for (inv3 d L c0 c1 R) $$ [HR]
  case region =>
    intro k _
    unfold inv3
    iintro H
    sl_exec
    sl_step
    sl_unfold_run_names
    iapply (Entails.of_eq (congrArg
      (fun g : Buf (Elt F) ((sl3).view.loc (V d (cV L) (jV L))) => ((sl3).view.loc (V d (cV L) (jV L)) ↦{fullShare} g : sProp 𝕄))
      (Inner.trip_eq3 c0 c1 R k))) $$ H
  · unfold inv3
    rw [mergedUpTo_zero]
    iexact HR
  rw [show Scf.trips k0_t5_loop.lb k0_t5_loop.ub k0_t5_loop.st = 64 from by decide]
  iintro %_ HI
  unfold inv3
  unfold merged
  iapply Hk
  iexact HI

end Cert.Proof.KI

end
-- ==== Proof.TileBody.lean ====
/-
  One tile of the gather-and-merge call, start to end.

  The tile fetches the coefficient block and its 25600 tokens, loads the two coefficient rows, and starts the gathers
  of its first four 128-token chunks into its four slots. Then fifty times, for each slot in turn: the slot's gather
  lands (row ρ of the slot is the pair-table row of the chunk's token ρ); rows 0..63 are overwritten in place with the
  merged embeddings of tokens 2r and 2r + 1; those 64 rows are copied out to the chunk's 64 result rows; and, except at
  the last time, the copy is awaited and the slot's next chunk's gather is started. At the end the four last copies
  are awaited. Before trip k every slot's gather of its chunk of trip k is in flight and the result rows below 256·k
  hold the call's result function; after the last trip the four last copies are in flight and nothing is re-armed;
  after the final waits all 12800 result rows of the tile hold the call's result function, and the tile gives back
  what it was handed.
-/
import proofs.«205127_g70231305225025_cont_9to1c4b_198_32_alg».proof.Proof.TileInvB
import proofs.«205127_g70231305225025_cont_9to1c4b_198_32_alg».proof.Proof.TileLast
import proofs.«205127_g70231305225025_cont_9to1c4b_198_32_alg».proof.Proof.TileEnd
import proofs.«205127_g70231305225025_cont_9to1c4b_198_32_alg».proof.Proof.TileEndGeom
import proofs.«205127_g70231305225025_cont_9to1c4b_198_32_alg».proof.Proof.TileOutN
import proofs.«205127_g70231305225025_cont_9to1c4b_198_32_alg».proof.Proof.TileInner0
import proofs.«205127_g70231305225025_cont_9to1c4b_198_32_alg».proof.Proof.TileInner1
import proofs.«205127_g70231305225025_cont_9to1c4b_198_32_alg».proof.Proof.TileInner2
import proofs.«205127_g70231305225025_cont_9to1c4b_198_32_alg».proof.Proof.TileInner3

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem wand_form {A B C D : sProp 𝕄} (h : (iprop(A ∗ (B -∗ C)) : sProp 𝕄) ⊢ D) : A ⊢ iprop((B -∗ C) -∗ D) := by
  iintro HA Hk
  iapply h
  isplitl [HA]
  · iexact HA
  · iexact Hk

section Entry
variable [FloatOps F]
variable (pr : (d : Dev nD) → Buf (Elt F) (prLoc d)) (fl : (d : Dev nD) → Buf (Elt F) (flLoc d))
  (cb : (d : Dev nD) → Buf (Elt F) (cbLoc d)) (o₀ : (d : Dev nD) → Buf (Elt F) (ouLoc d))
variable (d : Dev nD) (L : grid0.Coords)

/-- Before the first outer trip no result row is done: on the tile's rows the done-rows function at 0 is what the rows
    started with. -/
theorem ou_entry :
    (((ouV).view.loc (V d (cV L) (jV L)) ↦[(ouV).view.setOn (ouR L).set]{fullShare} o₀ d) : sProp 𝕄)
      = ((ouV).view.loc (V d (cV L) (jV L)) ↦[(ouV).view.setOn (ouR L).set]{fullShare} OM pr fl cb o₀ d L 0) :=
  pointsTo_congr fun j hj => by
    have hm : j ∈ (ouR L).set := by
      obtain ⟨y, hy, rfl⟩ := Finset.mem_map.mp hj
      exact hy
    have hrow := (mem_ouR_iff L j).1 hm
    unfold OM
    rw [if_neg (by omega)]
end Entry

section Tile
variable [FloatOps F]
variable (fl : (d : Dev nD) → Buf (Elt F) (flLoc d)) (pr : (d : Dev nD) → Buf (Elt F) (prLoc d))
  (cb : (d : Dev nD) → Buf (Elt F) (cbLoc d)) (o₀ : (d : Dev nD) → Buf (Elt F) (ouLoc d))
variable (d : Dev nD) (L : grid0.Coords)

set_option maxHeartbeats 8000000 in
theorem tile_run (hF : (K (F := F)).Facts) (hin : InRange fl) (O : CellTallies nD τ sig (HIx 1)) (W : Waits sig (HIx 1)) (hO : ∀ g, O g none = 0) :
    (iprop(levAts (K (F := F)).L (K (F := F)).lev
        ∗ (flLoc d ↦[flSet (wL L)]{fullShare} fl d)
        ∗ (prLoc d ↦{rq (wL L)} pr d)
        ∗ (cbLoc d ↦{rq (wL L)} cb d)
        ∗ (ouLoc d ↦[ouSet (wL L)]{fullShare} o₀ d)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_merged_gather L flV (Memref.isWhole_whole _) prV (Memref.isWhole_whole _) cbV (Memref.isWhole_whole _) ouV (Memref.isWhole_whole _) tkS (Memref.isWhole_whole _) sl0 (Memref.isWhole_whole _) sl1 (Memref.isWhole_whole _) sl2 (Memref.isWhole_whole _) sl3 (Memref.isWhole_whole _) cfS (Memref.isWhole_whole _) cc0_scratch6 cc0_scratch7 cc0_scratch8 cc0_scratch9 cc0_scratch10 cc0_scratch11 cc0_scratch12 cc0_scratch13 cc0_scoped0 cc0_scoped1)
          fun _ => iprop(tileTd fl pr cb d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_merged_gather_eq_skeleton]; unfold cc0_merged_gather_skel
  simp only [k0_part17_eq_skeleton]; unfold k0_part17_skel
  rw [(K (F := F)).scopedBufs_V hF d (cV L) (jV L), SparseCore.Cfg.scopedSems0_V (Val := Elt F) d (cV L) (jV L), ownSems0_V, ownBufs_V]
  iintro ⟨#Hlv, Hfl, Hpr, Hcb, Hou, ⟨⟨%f0, Hb0⟩, ⟨%f1, Hb1⟩, ⟨%f2, Hb2⟩, ⟨%f3, Hb3⟩, ⟨%f4, Hb4⟩, ⟨%f5, Hb5⟩, Hbufs⟩,
    ⟨Hg0, Hg1, Hg2, Hg3, Ho0, Ho1, Ho2, Ho3, Hs0, Hs1, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hfl' := (Entails.of_eq (pts_fl (F := F) d L _).symm) $$ Hfl
  ihave Hpr' := (Entails.of_eq (pts_pr (F := F) d L _ _).symm) $$ Hpr
  ihave Hcb' := (Entails.of_eq (pts_cb (F := F) d L _ _).symm) $$ Hcb
  ihave Hou' := (Entails.of_eq (pts_ou (F := F) d L _).symm) $$ Hou
  sl_exec
  ihave Hp := (Entails.of_eq (pts_toks4 (F := F) (ℓ := (prV).view.loc (V d (cV L) (jV L))) Finset.univ (pr d) (rq (wL L)))) $$ Hpr'
  icases Hp with ⟨Hpd, Hp0, Hp1, Hp2, Hp3⟩
  ihave Ht := (Entails.of_eq (pts_toks4 (F := F) (ℓ := (tkS).view.loc (V d (cV L) (jV L))) Finset.univ _ fullShare)) $$ Hb0
  icases Ht with ⟨Htd, Ht0, Ht1, Ht2, Ht3⟩
  have htok := tok_inb (F := F) fl d L hin
  sl_exec
  sl_rw [bind_assoc]
  sl_for (invFull pr fl cb o₀ d L O W f0 f5) $$ [Hmw Hg0 Hg1 Hg2 Hg3 Hp0 Hp1 Hp2 Hp3 Hb1 Hb2 Hb3 Hb4 Htd Ht0 Ht1 Ht2 Ho0 Ho1 Ho2 Ho3 Hou' HO]
  case region =>
    intro k acc
    have hk50 : (k : ℕ) < 50 := lt_of_lt_of_le k.isLt k0_t1_abs.2.1
    have hL0 : ((L 0 : Fin (grid0.bound 0)) : ℕ) < 2 := (L 0).isLt
    have hL1 : ((L 1 : Fin (grid0.bound 1)) : ℕ) < 16 := (L 1).isLt
    rw [invFull_lt (F := F) pr fl cb o₀ d L O W f0 f5 hk50]
    unfold InvA
    iintro ⟨#Hmw, H0, H1, H2, H3, Ho0, Ho1, Ho2, Ho3, Hou, %W', %hW', HO⟩
    by_cases hk : (k : ℕ) < 49
    · have k0_h1 : k0_cond1 k = 1#1 := (cond1_iff k).2 hk
      have k0_h2 : k0_cond2 k = 1#1 := (cond2_iff k).2 hk
      have k0_h3 : k0_cond3 k = 1#1 := (cond3_iff k).2 hk
      have k0_h4 : k0_cond4 k = 1#1 := (cond4_iff k).2 hk
      -- slot 0: its chunk of this trip lands, is merged in place and written out; then the slot is re-armed
      ihave G0' := (Entails.of_eq (GFly0_eq (F := F) pr fl d L f0 k)) $$ H0
      icases G0' with ⟨%fp0, %r0, %hr0, %hn0, %hin0, %hreq0, Hf0, Hp0, Hs0, Ht0⟩
      obtain ⟨inb0, rfl⟩ := hreq0
      sl_exec
      iapply (wand_form (inner0 (F := F) d L _ _ _ _ _ _ _ _ _)) $$ [Hs0]
      · iexact Hs0
      iintro Hs0
      set_option sl_exec.dmaWindow true in
      sl_exec
      ihave Hou := (ou_norm0 (F := F) pr fl cb o₀ d L hin k f5 f0 inb0 hr0 hn0 hin0 _ _ ⟨0, by decide⟩ rfl _) $$ [Hou]
      · iexact Hou
      ihave G0 := (gfly0_intro (F := F) pr fl d L f0 (k + 1) _ _ _ _ _ ⟨win0_inb (k + 1) (by omega), win0_next k k0_h1 _⟩) $$ [Hf0 Hp0 Hs0 Ht0]
      · isplitl [Hf0]; · iexact Hf0
        isplitl [Hp0]; · iexact Hp0
        isplitl [Hs0]; · iexact Hs0
        iexact Ht0
      -- slot 1: its chunk of this trip lands, is merged in place and written out; then the slot is re-armed
      ihave G1' := (Entails.of_eq (GFly1_eq (F := F) pr fl d L f0 k)) $$ H1
      icases G1' with ⟨%fp1, %r1, %hr1, %hn1, %hin1, %hreq1, Hf1, Hp1, Hs1, Ht1⟩
      obtain ⟨inb1, rfl⟩ := hreq1
      sl_exec
      iapply (wand_form (inner1 (F := F) d L _ _ _ _ _ _ _ _ _ _)) $$ [Hs1]
      · iexact Hs1
      iintro Hs1
      set_option sl_exec.dmaWindow true in
      sl_exec
      ihave Hou := (ou_norm1 (F := F) pr fl cb o₀ d L hin k f5 f0 inb1 hr1 hn1 hin1 _ _ ⟨1, by decide⟩ rfl _) $$ [Hou]
      · iexact Hou
      ihave G1 := (gfly1_intro (F := F) pr fl d L f0 (k + 1) _ _ _ _ _ ⟨win1_inb (k + 1) (by omega), win1_next k k0_h2 _⟩) $$ [Hf1 Hp1 Hs1 Ht1]
      · isplitl [Hf1]; · iexact Hf1
        isplitl [Hp1]; · iexact Hp1
        isplitl [Hs1]; · iexact Hs1
        iexact Ht1
      -- slot 2: its chunk of this trip lands, is merged in place and written out; then the slot is re-armed
      ihave G2' := (Entails.of_eq (GFly2_eq (F := F) pr fl d L f0 k)) $$ H2
      icases G2' with ⟨%fp2, %r2, %hr2, %hn2, %hin2, %hreq2, Hf2, Hp2, Hs2, Ht2⟩
      obtain ⟨inb2, rfl⟩ := hreq2
      sl_exec
      iapply (wand_form (inner2 (F := F) d L _ _ _ _ _ _ _ _ _)) $$ [Hs2]
      · iexact Hs2
      iintro Hs2
      set_option sl_exec.dmaWindow true in
      sl_exec
      ihave Hou := (ou_norm2 (F := F) pr fl cb o₀ d L hin k f5 f0 inb2 hr2 hn2 hin2 _ _ ⟨2, by decide⟩ rfl _) $$ [Hou]
      · iexact Hou
      ihave G2 := (gfly2_intro (F := F) pr fl d L f0 (k + 1) _ _ _ _ _ ⟨win2_inb (k + 1) (by omega), win2_next k k0_h3 _⟩) $$ [Hf2 Hp2 Hs2 Ht2]
      · isplitl [Hf2]; · iexact Hf2
        isplitl [Hp2]; · iexact Hp2
        isplitl [Hs2]; · iexact Hs2
        iexact Ht2
      -- slot 3: its chunk of this trip lands, is merged in place and written out; then the slot is re-armed
      ihave G3' := (Entails.of_eq (GFly3_eq (F := F) pr fl d L f0 k)) $$ H3
      icases G3' with ⟨%fp3, %r3, %hr3, %hn3, %hin3, %hreq3, Hf3, Hp3, Hs3, Ht3⟩
      obtain ⟨inb3, rfl⟩ := hreq3
      sl_exec
      iapply (wand_form (inner3 (F := F) d L _ _ _ _ _ _ _ _ _)) $$ [Hs3]
      · iexact Hs3
      iintro Hs3
      set_option sl_exec.dmaWindow true in
      sl_exec
      ihave Hou := (ou_norm3 (F := F) pr fl cb o₀ d L hin k f5 f0 inb3 hr3 hn3 hin3 _ _ ⟨3, by decide⟩ rfl _) $$ [Hou]
      · iexact Hou
      ihave G3 := (gfly3_intro (F := F) pr fl d L f0 (k + 1) _ _ _ _ _ ⟨win3_inb (k + 1) (by omega), win3_next k k0_h4 _⟩) $$ [Hf3 Hp3 Hs3 Ht3]
      · isplitl [Hf3]; · iexact Hf3
        isplitl [Hp3]; · iexact Hp3
        isplitl [Hs3]; · iexact Hs3
        iexact Ht3
      sl_step
      rw [invFull_lt (F := F) pr fl cb o₀ d L O W f0 f5 (show (k : ℕ) + 1 < 50 by omega)]
      unfold InvA
      isplitr; · iexact Hmw
      isplitl [G0]; · iexact G0
      isplitl [G1]; · iexact G1
      isplitl [G2]; · iexact G2
      isplitl [G3]; · iexact G3
      isplitl [Ho0]; · iexact Ho0
      isplitl [Ho1]; · iexact Ho1
      isplitl [Ho2]; · iexact Ho2
      isplitl [Ho3]; · iexact Ho3
      isplitl [Hou]
      · rw [← OMr_four (F := F) pr fl cb o₀ d L (k : ℕ)]
        iexact Hou
      iexists _; isplitr
      swap; · iexact HO
      ipureintro
      intro p hp
      simp only [Finset.mem_insert] at hp
      rcases hp with rfl | rfl | rfl | rfl | rfl | rfl | rfl | rfl | hp
      all_goals first | exact .inr rfl | exact hW' p hp
    · have k0_h1 : ¬ k0_cond1 k = 1#1 := fun h => hk ((cond1_iff k).1 h)
      have k0_h2 : ¬ k0_cond2 k = 1#1 := fun h => hk ((cond2_iff k).1 h)
      have k0_h3 : ¬ k0_cond3 k = 1#1 := fun h => hk ((cond3_iff k).1 h)
      have k0_h4 : ¬ k0_cond4 k = 1#1 := fun h => hk ((cond4_iff k).1 h)
      ihave H0' := (Entails.of_eq (GFly0_eq (F := F) pr fl d L f0 k)) $$ H0
      icases H0' with ⟨%fp, %r, %hr, %hn, %hin', %hreq, Hf0, Hp0r, Hs0r, Ht0r⟩
      obtain ⟨inb, rfl⟩ := hreq
      sl_exec
      iapply (wand_form (inner0 d L _ _ _ _ _ _ _ _ _)) $$ [Hs0r]
      · iexact Hs0r
      iintro Hm0
      set_option sl_exec.dmaWindow true in
      sl_exec
      ihave H1' := (Entails.of_eq (GFly1_eq (F := F) pr fl d L f0 k)) $$ H1
      icases H1' with ⟨%fp1, %r1, %hr1, %hn1, %hin1, %hreq1, Hf1, Hp1r, Hs1r, Ht1r⟩
      obtain ⟨inb1, rfl⟩ := hreq1
      sl_exec
      iapply (wand_form (inner1 d L _ _ _ _ _ _ _ _ _ _)) $$ [Hs1r]
      · iexact Hs1r
      iintro Hm1
      set_option sl_exec.dmaWindow true in
      sl_exec
      ihave H2' := (Entails.of_eq (GFly2_eq (F := F) pr fl d L f0 k)) $$ H2
      icases H2' with ⟨%fp2, %r2, %hr2, %hn2, %hin2, %hreq2, Hf2, Hp2r, Hs2r, Ht2r⟩
      obtain ⟨inb2, rfl⟩ := hreq2
      sl_exec
      iapply (wand_form (inner2 d L _ _ _ _ _ _ _ _ _)) $$ [Hs2r]
      · iexact Hs2r
      iintro Hm2
      set_option sl_exec.dmaWindow true in
      sl_exec
      ihave H3' := (Entails.of_eq (GFly3_eq (F := F) pr fl d L f0 k)) $$ H3
      icases H3' with ⟨%fp3, %r3, %hr3, %hn3, %hin3, %hreq3, Hf3, Hp3r, Hs3r, Ht3r⟩
      obtain ⟨inb3, rfl⟩ := hreq3
      sl_exec
      iapply (wand_form (inner3 d L _ _ _ _ _ _ _ _ _)) $$ [Hs3r]
      · iexact Hs3r
      iintro Hm3
      set_option sl_exec.dmaWindow true in
      sl_exec
      have hk49 : (k : ℕ) = 49 := by omega
      sl_unfold_run_names
      sl_step
      rw [invFull_ge pr fl cb o₀ d L O W f0 f5 (by omega : ¬ (k : ℕ) + 1 < 50)]
      unfold InvB
      isplitr; · iexact Hmw
      iexists k
      isplitr; · ipureintro; exact hk49
      isplitl [Ho0 Hm0]
      · unfold WFly
        iexists _, _
        isplitr; swap
        · isplitl [Ho0]; · iexact Ho0
          iexact Hm0
        ipureintro
        exact win_outF pr fl cb d L k (0 : Fin 4) (fun _ => rfl) _ _ (fun ρ q => slot_payload_0 (F := F) pr fl cb d L hin k f5 f0 (sl0).view.junk inb hr (fun _ => rfl) hn hin' (fun _ => rfl) (Idealize.ShloMosaic.ValueIdx.ix2 ρ q))
      isplitl [Ho1 Hm1]
      · unfold WFly
        iexists _, _
        isplitr; swap
        · isplitl [Ho1]; · iexact Ho1
          iexact Hm1
        ipureintro
        exact win_outF pr fl cb d L k (1 : Fin 4) (fun _ => rfl) _ _ (fun ρ q => slot_payload_1 (F := F) pr fl cb d L hin k f5 f0 (sl1).view.junk inb1 hr1 (fun _ => rfl) hn1 hin1 (fun _ => rfl) (Idealize.ShloMosaic.ValueIdx.ix2 ρ q))
      isplitl [Ho2 Hm2]
      · unfold WFly
        iexists _, _
        isplitr; swap
        · isplitl [Ho2]; · iexact Ho2
          iexact Hm2
        ipureintro
        exact win_outF pr fl cb d L k (2 : Fin 4) (fun _ => rfl) _ _ (fun ρ q => slot_payload_2 (F := F) pr fl cb d L hin k f5 f0 (sl2).view.junk inb2 hr2 (fun _ => rfl) hn2 hin2 (fun _ => rfl) (Idealize.ShloMosaic.ValueIdx.ix2 ρ q))
      isplitl [Ho3 Hm3]
      · unfold WFly
        iexists _, _
        isplitr; swap
        · isplitl [Ho3]; · iexact Ho3
          iexact Hm3
        ipureintro
        exact win_outF pr fl cb d L k (3 : Fin 4) (fun _ => rfl) _ _ (fun ρ q => slot_payload_3 (F := F) pr fl cb d L hin k f5 f0 (sl3).view.junk inb3 hr3 (fun _ => rfl) hn3 hin3 (fun _ => rfl) (Idealize.ShloMosaic.ValueIdx.ix2 ρ q))
      isplitl [Hou]
      · iexists _
        isplitr; swap
        · iexact Hou
        ipureintro
        intro j hj
        have m3 := Finset.mem_sdiff.mp hj
        have m2 := Finset.mem_sdiff.mp m3.1
        have m1 := Finset.mem_sdiff.mp m2.1
        have m0 := Finset.mem_sdiff.mp m1.1
        refine (win_keep (F := F) d L k (3 : Fin 4) (fun _ => rfl) _ _ j m3.2).trans ?_
        refine (win_keep (F := F) d L k (2 : Fin 4) (fun _ => rfl) _ _ j m2.2).trans ?_
        refine (win_keep (F := F) d L k (1 : Fin 4) (fun _ => rfl) _ _ j m1.2).trans ?_
        refine (win_keep (F := F) d L k (0 : Fin 4) (fun _ => rfl) _ _ j m0.2).trans ?_
        have r0 := not_win_rows L k (0 : Fin 4) (fun _ => rfl) j m0.2
        have r1 := not_win_rows L k (1 : Fin 4) (fun _ => rfl) j m1.2
        have r2 := not_win_rows L k (2 : Fin 4) (fun _ => rfl) j m2.2
        have r3 := not_win_rows L k (3 : Fin 4) (fun _ => rfl) j m3.2
        rw [hk49] at r0 r1 r2 r3
        rw [hk49]
        exact OM_last pr fl cb o₀ d L j r0 r1 r2 r3
      isplitl [Hp0r]; · iexact Hp0r
      isplitl [Hp1r]; · iexact Hp1r
      isplitl [Hp2r]; · iexact Hp2r
      isplitl [Hp3r]; · iexact Hp3r
      isplitl [Hf0]; · iexact Hf0
      isplitl [Hf1]; · iexact Hf1
      isplitl [Hf2]; · iexact Hf2
      isplitl [Hf3]; · iexact Hf3
      isplitl [Ht0r]; · iexact Ht0r
      isplitl [Ht1r]; · iexact Ht1r
      isplitl [Ht2r]; · iexact Ht2r
      isplitl [Ht3r]; · iexact Ht3r
      iexists _; isplitr
      swap; · iexact HO
      ipureintro; intro p hp
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      exact hW' p hp
  · -- entry: before trip 0 the four prologue gathers are in flight and no result row is done
    rw [invFull_lt (F := F) pr fl cb o₀ d L O W f0 f5 (show 0 < 50 by decide)]
    unfold InvA
    isplitr; · iexact Hmw
    isplitl [Hg0 Hp0 Hb1 Htd]
    · iapply (gfly0_intro (F := F) pr fl d L f0 0 _ _ _ _ _ ⟨_, rfl⟩)
      isplitl [Hg0]; · iexact Hg0
      isplitl [Hp0]; · iexact Hp0
      isplitl [Hb1]; · iexact Hb1
      iexact Htd
    isplitl [Hg1 Hp1 Hb2 Ht0]
    · iapply (gfly1_intro (F := F) pr fl d L f0 0 _ _ _ _ _ ⟨_, rfl⟩)
      isplitl [Hg1]; · iexact Hg1
      isplitl [Hp1]; · iexact Hp1
      isplitl [Hb2]; · iexact Hb2
      iexact Ht0
    isplitl [Hg2 Hp2 Hb3 Ht1]
    · iapply (gfly2_intro (F := F) pr fl d L f0 0 _ _ _ _ _ ⟨_, rfl⟩)
      isplitl [Hg2]; · iexact Hg2
      isplitl [Hp2]; · iexact Hp2
      isplitl [Hb3]; · iexact Hb3
      iexact Ht1
    isplitl [Hg3 Hp3 Hb4 Ht2]
    · iapply (gfly3_intro (F := F) pr fl d L f0 0 _ _ _ _ _ ⟨_, rfl⟩)
      isplitl [Hg3]; · iexact Hg3
      isplitl [Hp3]; · iexact Hp3
      isplitl [Hb4]; · iexact Hb4
      iexact Ht2
    isplitl [Ho0]; · iexact Ho0
    isplitl [Ho1]; · iexact Ho1
    isplitl [Ho2]; · iexact Ho2
    isplitl [Ho3]; · iexact Ho3
    isplitl [Hou']
    · iapply (Entails.of_eq (ou_entry (F := F) pr fl cb o₀ d L)); iexact Hou'
    iexists _; isplitr
    swap; · iexact HO
    ipureintro
    intro p hp
    simp only [Finset.mem_insert] at hp
    rcases hp with rfl | rfl | hp
    all_goals first | exact .inr rfl | exact .inl hp
  rw [show Scf.trips k0_t1_loop.lb k0_t1_loop.ub k0_t1_loop.st = 50 from by decide]
  iintro %_ HI
  ihave HB := (Entails.of_eq (invFull_ge pr fl cb o₀ d L O W f0 f5 (by decide : ¬ (50 : ℕ) < 50) _)) $$ HI
  unfold InvB WFly
  icases HB with ⟨#Hmw', %k, %hk49, ⟨%C0, %M0, %hC0, Hw0, Hr0⟩, ⟨%C1, %M1, %hC1, Hw1, Hr1⟩, ⟨%C2, %M2, %hC2, Hw2, Hr2⟩, ⟨%C3, %M3, %hC3, Hw3, Hr3⟩,
    ⟨%CR, %hCR, HouR⟩, Hq0, Hq1, Hq2, Hq3, Hg0, Hg1, Hg2, Hg3, Htd', Ht0', Ht1', Ht2', %W', %hW', HO⟩
  have hL0 : ((L 0 : Fin (grid0.bound 0)) : ℕ) < 2 := (L 0).isLt
  have hL1 : ((L 1 : Fin (grid0.bound 1)) : ℕ) < 16 := (L 1).isLt
  sl_exec
  sl_step
  sl_unfold_run_names
  isplitl [Hfl' Hpd Hq0 Hq1 Hq2 Hq3 Hcb' HouR Hw0_dst Hw1_dst Hw2_dst Hw3_dst]
  · iapply (tileTd_back (F := F) pr fl cb d L)
    isplitl [Hfl']; · iexact Hfl'
    isplitl [Hpd Hq0 Hq1 Hq2 Hq3]
    · iapply (toks_pr_back (F := F) d L Finset.univ (pr d))
      isplitl [Hpd]; · iexact Hpd
      isplitl [Hq0]; · iexact Hq0
      isplitl [Hq1]; · iexact Hq1
      isplitl [Hq2]; · iexact Hq2
      iexact Hq3
    isplitl [Hcb']; · iexact Hcb'
    iapply (ou_join (F := F) d L k.val hk49 _ _ _ _
      (fun j => mem_ouWin_iff L k 0 0#32 (by decide) _ j) (fun j => mem_ouWin_iff L k 1 1#32 (by decide) _ j)
      (fun j => mem_ouWin_iff L k 2 2#32 (by decide) _ j) (fun j => mem_ouWin_iff L k 3 3#32 (by decide) _ j)
      (outF fl pr cb d) C0 C1 C2 C3 CR hC0 hC1 hC2 hC3
      (fun j hj => (hCR j hj).trans (OM_fifty_apply (F := F) d L pr fl cb o₀ j (ouRestX_subset L k hj))))
    isplitl [HouR]; · iexact HouR
    isplitl [Hw0_dst]; · iexact Hw0_dst
    isplitl [Hw1_dst]; · iexact Hw1_dst
    isplitl [Hw2_dst]; · iexact Hw2_dst
    iexact Hw3_dst
  isplitl [Htd' Ht0' Ht1' Ht2' Ht3 Hr0 Hr1 Hr2 Hr3 Hb5 Hbufs]
  · first | iapply (scopedBufs_back (F := F) d L hF) | skip
    isplitl [Htd' Ht0' Ht1' Ht2' Ht3]
    · iexists _
      iapply (toks_tk_back (F := F) d L Finset.univ _)
      isplitl [Htd']; · iexact Htd'
      isplitl [Ht0']; · iexact Ht0'
      isplitl [Ht1']; · iexact Ht1'
      isplitl [Ht2']; · iexact Ht2'
      iexact Ht3
    isplitl [Hr0]; · iexists _; iexact Hr0
    isplitl [Hr1]; · iexists _; iexact Hr1
    isplitl [Hr2]; · iexists _; iexact Hr2
    isplitl [Hr3]; · iexists _; iexact Hr3
    isplitl [Hb5]; · iexists _; iexact Hb5
    iexact Hbufs
  isplitl [Hg0 Hg1 Hg2 Hg3 Hw0 Hw1 Hw2 Hw3 Hs0 Hs1 Hsems]
  · first | iapply (scopedSems0_back (F := F) d L) | skip
    isplitl [Hg0]; · iexact Hg0
    isplitl [Hg1]; · iexact Hg1
    isplitl [Hg2]; · iexact Hg2
    isplitl [Hg3]; · iexact Hg3
    isplitl [Hw0]; · iexact Hw0
    isplitl [Hw1]; · iexact Hw1
    isplitl [Hw2]; · iexact Hw2
    isplitl [Hw3]; · iexact Hw3
    isplitl [Hs0]; · iexact Hs0
    isplitl [Hs1]; · iexact Hs1
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-- One tile's task: from its tokens, its two read shares and its result rows, to the same with the result rows at the
    call's result function. -/
theorem tile_body (hF : (K (F := F)).Facts) (hin : InRange fl) (O : CellTallies nD τ sig (HIx 1)) (W : Waits sig (HIx 1))
    (hO : ∀ g, O g none = 0) :
    (iprop(levAts (K (F := F)).L (K (F := F)).lev ∗ emp
        ∗ tileGo fl pr cb o₀ d (wL L)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_merged_gather L flV (Memref.isWhole_whole _) prV (Memref.isWhole_whole _) cbV (Memref.isWhole_whole _) ouV (Memref.isWhole_whole _) tkS (Memref.isWhole_whole _) sl0 (Memref.isWhole_whole _) sl1 (Memref.isWhole_whole _) sl2 (Memref.isWhole_whole _) sl3 (Memref.isWhole_whole _) cfS (Memref.isWhole_whole _) cc0_scratch6 cc0_scratch7 cc0_scratch8 cc0_scratch9 cc0_scratch10 cc0_scratch11 cc0_scratch12 cc0_scratch13 cc0_scoped0 cc0_scoped1)
          fun _ => iprop(tileTd fl pr cb d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  have h : (iprop(levAts (K (F := F)).L (K (F := F)).lev ∗ emp
        ∗ tileGo fl pr cb o₀ d (wL L)
        ∗ scopedBufs (V d (cV L) (jV L)) ∗ scopedSems0 (V d (cV L) (jV L)) ∗ owes (V d (cV L) (jV L)) O W) : sProp 𝕄)
      ⊢ (iprop(levAts (K (F := F)).L (K (F := F)).lev
        ∗ (flLoc d ↦[flSet (wL L)]{fullShare} fl d)
        ∗ (prLoc d ↦{rq (wL L)} pr d)
        ∗ (cbLoc d ↦{rq (wL L)} cb d)
        ∗ (ouLoc d ↦[ouSet (wL L)]{fullShare} o₀ d)
        ∗ scopedBufs (V d (cV L) (jV L)) ∗ scopedSems0 (V d (cV L) (jV L)) ∗ owes (V d (cV L) (jV L)) O W) : sProp 𝕄) := by
    iintro ⟨Hlv, -, ⟨⟨Hfl, Hpr, Hcb⟩, Hou⟩, Hsb, Hss, HO⟩
    isplitl [Hlv]; · iexact Hlv
    isplitl [Hfl]; · iexact Hfl
    isplitl [Hpr]; · iexact Hpr
    isplitl [Hcb]; · iexact Hcb
    isplitl [Hou]; · iexact Hou
    isplitl [Hsb]; · iexact Hsb
    isplitl [Hss]; · iexact Hss
    iexact HO
  exact h.trans (tile_run (F := F) fl pr cb o₀ d L hF hin O W hO)

end Tile
end Cert.Proof.KI
end
-- ==== Proof.TileObl.lean ====
/-
  One tile's obligation to the launch theorem, from the proof of its body.

  The body table runs the tile's function at the grid coordinates (c, i) of the tile, on the four arrays and the
  tile's own scratch; the tile at those coordinates is worker 2·i + c, the worker whose share the call hands it.
-/
import proofs.«205127_g70231305225025_cont_9to1c4b_198_32_alg».proof.Proof.TileBody
import proofs.«205127_g70231305225025_cont_9to1c4b_198_32_alg».proof.Proof.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Obl

variable [FloatOps F]
variable (fl : (d : Dev nD) → Buf (Elt F) (flLoc d)) (pr : (d : Dev nD) → Buf (Elt F) (prLoc d))
  (cb : (d : Dev nD) → Buf (Elt F) (cbLoc d)) (o₀ : (d : Dev nD) → Buf (Elt F) (ouLoc d))

/-- The grid coordinates of tile s of SparseCore c. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_merged_gather (coordsV c s) flV (Memref.isWhole_whole _) prV (Memref.isWhole_whole _) cbV (Memref.isWhole_whole _) ouV (Memref.isWhole_whole _) tkS (Memref.isWhole_whole _) sl0 (Memref.isWhole_whole _) sl1 (Memref.isWhole_whole _) sl2 (Memref.isWhole_whole _) sl3 (Memref.isWhole_whole _) cfS (Memref.isWhole_whole _) cc0_scratch6 cc0_scratch7 cc0_scratch8 cc0_scratch9 cc0_scratch10 cc0_scratch11 cc0_scratch12 cc0_scratch13 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile at the coordinates of (c, i) is the worker the call's share is indexed by. -/
theorem wL_coordsV (c : Fin ((K (F := F)).nCore 0)) (i : Fin ((K (F := F)).nSub 0))
    (h0 : ((K (F := F)).core 0 c).val < grid0.bound 0) (h1 : ((K (F := F)).sub 0 i).val < grid0.bound 1) :
    wL (coordsV ⟨((K (F := F)).core 0 c).val, h0⟩ ⟨((K (F := F)).sub 0 i).val, h1⟩) = wid (Fin.cast nCore_zero c) (Fin.cast nSub_zero i) := rfl

set_option maxRecDepth 16384 in
/-- The obligation: the body at the tile's coordinates, its operands and results the call's shares of that worker. -/
theorem tileObl (hin : InRange fl) : (K (F := F)).TileObl (D (F := F)) 𝒱 (P fl pr cb o₀) v₀ 0 := by
  intro d c i O W hO _ _
  simp only [show (P fl pr cb o₀).ox = fun _ _ => 0 from rfl, add_zero]
  have hci : ((K (F := F)).core 0 c).val < grid0.bound 0 ∧ ((K (F := F)).sub 0 i).val < grid0.bound 1 := ⟨c.isLt, i.isLt⟩
  rw [P_go, P_td, show (P fl pr cb o₀).x 0 (V d ((K (F := F)).core 0 c) ((K (F := F)).sub 0 i)) = (iprop(emp) : sProp 𝕄) from rfl,
    ← wL_coordsV c i hci.1 hci.2]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body fl pr cb o₀ d (coordsV ⟨_, hci.1⟩ ⟨_, hci.2⟩) facts hin O W hO).trans (wp_mono frame _ _ fun _ => obl_post)

end Obl

end Cert.Proof.KI

end
-- ==== Proof.RefPre.lean ====
/-
  The integer conjunct of the input-domain predicate, read back.

  The predicate is a conjunction of five "all" tests: the three tables and the coefficient pair finite, and every word w of
  the 4096 × 200 index array in range, 0 ≤ w ≤ 999999 as a SIGNED word. When the predicate holds the last conjunct holds, so
  at every position the two signed comparisons hold; a signed word between 0 and 999999 is, read unsigned, below 1000000.
  The float conjuncts are not used, so the statement holds at every float instance.
-/
import proofs.«205127_g70231305225025_cont_9to1c4b_198_32_alg».proof.Pre_input_domain
import Idealize.ShloMosaic.Lib.ReduceAll
import Idealize.ShloMosaic.Lib.ValueIdx

namespace Cert.Proof.Ref

open Idealize.ShloMosaic Idealize.SL.Sem

/-- The rank-0 shape has one index. -/
instance subsingleton_scalar_idx : Subsingleton Cert.Pre_input_domain.S_.Idx := ⟨fun _ _ => funext fun d => d.elim0⟩

/-- A signed word between 0 and 999999, read unsigned, is below 1000000. -/
theorem toNat_lt_of_signed_range (w : BitVec 32) (h0 : (0#32 : BitVec 32).toInt ≤ w.toInt)
    (h1 : w.toInt ≤ (999999#32 : BitVec 32).toInt) : w.toNat < 1000000 := by
  have e0 : (0#32 : BitVec 32).toInt = 0 := by decide
  have e1 : (999999#32 : BitVec 32).toInt = 999999 := by decide
  rw [e0] at h0
  rw [e1] at h1
  rw [BitVec.toInt_eq_toNat_cond] at h0 h1
  have := w.isLt
  split at h0 <;> omega

/-- When the input-domain predicate holds, every index word, read unsigned, is below 1000000. -/
theorem range_of_pre {F : FTy → Type} [FloatOps F] [Cert.Pre_input_domain.Facts]
    (i0 : IVec Cert.Pre_input_domain.S4096x200 32) (a1 a2 a3 : FVec F Cert.Pre_input_domain.S1000000x64 .f32)
    (a4 : FVec F Cert.Pre_input_domain.S2 .f32)
    (h : Cert.Pre_input_domain.fn (F := F) i0 a1 a2 a3 a4 = fun _ => 1#1) : ∀ j, (i0 j).toNat < 1000000 := by
  intro j
  have h0 := congrFun h ValueIdx.ix0
  dsimp only [Cert.Pre_input_domain.fn, Cert.Pre_input_domain.fn_part1] at h0
  -- the predicate is a conjunction whose last conjunct is the "all" over the index array
  have h1 := (IntOp.andi_eq_one.1 h0).2
  -- an "all" that holds, holds at every position
  have h2 := Host.reduce_andi_all _ _ _ _ _ h1 j
  -- at position j: 0 ≤ w and w ≤ 999999, both signed
  obtain ⟨h3, h4⟩ := IntOp.andi_eq_one.1 h2
  exact toNat_lt_of_signed_range (i0 j) (IntOp.cmpi_sge.1 h3) (IntOp.cmpi_sle.1 h4)

end Cert.Proof.Ref
-- ==== Proof.PreRange.lean ====
/-
  The precondition, read at the flat token list: every word names a row of the pair table.

  The input-domain predicate says every word of the 4096 × 200 index array lies between 0 and 999999; position t of
  the flat list is position (t / 200, t mod 200) of that array.
-/
import proofs.«205127_g70231305225025_cont_9to1c4b_198_32_alg».proof.Proof.Launch
import proofs.«205127_g70231305225025_cont_9to1c4b_198_32_alg».proof.Proof.RefPre
import proofs.«205127_g70231305225025_cont_9to1c4b_198_32_alg».proof.Proof.Gen.Pre_input_domain

noncomputable section

namespace Cert.Proof.KI

open Cert.KernelIdeal Cert.KernelIdeal.Gen

open Idealize.ShloMosaic Idealize.ShloMosaic.ValueIdx

variable {F : FTy → Type}

/-- When the input-domain predicate holds of the arguments on every device, every word of the flat token list is below
    1000000. -/
theorem inRange_of_pre [FloatOps F] (m : (ℓ : Loc nD τ sig) → Buf (Elt F) ℓ)
    (h : ∀ c : Dev nD, Cert.Pre_input_domain.fn (F := F) (m (a0Loc c)) (m (a1Loc c)) (m (a2Loc c)) (m (a3Loc c)) (m (a4Loc c)) = fun _ => 1#1) :
    InRange (flM m) := by
  intro d j
  obtain ⟨t, rfl⟩ : ∃ t : Fin 819200, j = ix1 t := ⟨j 0, eq_ix1 (n := 819200) j⟩
  exact lt_of_eq_of_lt (congrArg BitVec.toNat (HostVals.flatOf_apply (m (a0Loc d)) t))
    (Cert.Proof.Ref.range_of_pre (m (a0Loc d)) (m (a1Loc d)) (m (a2Loc d)) (m (a3Loc d)) (m (a4Loc d)) (h d) _)

end Cert.Proof.KI

end
-- ==== Proof.RefValue.lean ====
/-
  The reference's result as one term of its argument arrays, and that term read at an index.

  The reference forms the merged table  coef[0] · base + coef[1] · mod0  elementwise (each coefficient cut out of the
  pair, reshaped to a scalar and broadcast over the table), and looks its rows up through the index array: a negative
  word w is first wrapped to w + 1000000; the lookup reads the merged table's row at the wrapped word, read signed and
  clamped into [0, 999999]; and a position whose wrapped word is outside [0, 999999] is overwritten by a fixed word.

  When every index word, read unsigned, is below 1000000 it is nonnegative as a signed word (1000000 < 2^31), so the wrap
  is the identity, every wrapped word is in range and nothing is overwritten: the result at (a, b, e) is the merged
  table's element (r, e), r the row the word at (a, b) names. The two products and the sum are the float instance's scalar
  operations in the specification's order, so the statement holds at every float instance.
-/
import proofs.«205127_g70231305225025_cont_9to1c4b_198_32_alg».proof.ReferenceIdeal
import proofs.«205127_g70231305225025_cont_9to1c4b_198_32_alg».proof.Proof.Spec
import Idealize.ShloMosaic.Lib.ValueIdx
import Idealize.ShloMosaic.Lib.IdealHost
import Idealize.ShloMosaic.Lib.Pipeline.Value
import Idealize.ShloMosaic.Lib.Affine
import Idealize.ShloMosaic.PureOps.Reduce

noncomputable section

namespace Cert.Proof.Ref

open Idealize.ShloMosaic Idealize.ShloMosaic.ValueIdx Cert.ReferenceIdeal

variable {F : FTy → Type} [FloatOps F] [Cert.ReferenceIdeal.Facts]
open Cert.ReferenceIdeal.Facts₀

/-! ## The term -/

/-- The merged table: coef[0] · base + coef[1] · mod0, elementwise. -/
def mergedTab (base mod0 : FVec F S1000000x64 .f32) (coef : FVec F S2 .f32) : FVec F S1000000x64 .f32 :=
  addf
    (mulf (broadcastInDim S1000000x64 ![] bcast_S_S1000000x64
      (shapeCast S_ (extractStridedSlice S1 ![0] coef slices_S2_S1_0) shapeCasts_S1_S_)) base)
    (mulf (broadcastInDim S1000000x64 ![] bcast_S_S1000000x64
      (shapeCast S_ (extractStridedSlice S1 ![1] coef slices_S2_S1_1) shapeCasts_S1_S_)) mod0)

/-- The index array after the wrap: a negative word w becomes w + 1000000. -/
def wrapped (inp : IVec S4096x200 32) : IVec S4096x200 32 :=
  select (cmpi .slt inp (broadcastInDim S4096x200 ![] bcast_S_S4096x200 (constantI S_ 32 0#32)))
    (addi inp (broadcastInDim S4096x200 ![] bcast_S_S4096x200 (constantI S_ 32 1000000#32))) inp

/-- The wrapped index array with a trailing axis of one: the lookup's start indices. -/
def startIdx (inp : IVec S4096x200 32) : IVec S4096x200x1 32 :=
  broadcastInDim S4096x200x1 ![0, 1] bcast_S4096x200_S4096x200x1_0_1 (wrapped inp)

/-- Per start index: is the wrapped word in [0, 999999] as a signed word? -/
def inRangeElt (inp : IVec S4096x200 32) : IVec S4096x200x1 1 :=
  andi
    (cmpi .sge (startIdx inp) (broadcastInDim S4096x200x1 ![] bcast_S_S4096x200x1 (constantI S_ 32 0#32)))
    (cmpi .sle (startIdx inp) (broadcastInDim S4096x200x1 ![0, 1, 2] bcast_S1x1x1_S4096x200x1_0_1_2
      (broadcastInDim S1x1x1 ![2] bcast_S1_S1x1x1_2 (constantI S1 32 999999#32))))

/-- Per token: the conjunction of that test over the trailing axis. -/
def inRange (inp : IVec S4096x200 32) : IVec S4096x200 1 :=
  Host.reduce IntOp.andi (inRangeElt inp) (constantI S_ 1 1#1) reducesTo_S4096x200x1_S4096x200_d2 h_S_

/-- The reference's result: the looked-up rows of the merged table where the token is in range, a fixed word elsewhere. -/
def refOut (inp : IVec S4096x200 32) (base mod0 : FVec F S1000000x64 .f32) (coef : FVec F S2 .f32) :
    FVec F S4096x200x64 .f32 :=
  select (broadcastInDim S4096x200x64 ![0, 1] bcast_S4096x200_S4096x200x64_0_1 (inRange inp))
    (Host.gather gather_S1000000x64_S4096x200x1_S4096x200x64_2_0_n_n_0_2_164 (mergedTab base mod0 coef) (startIdx inp))
    (broadcastInDim S4096x200x64 ![] bcast_S_S4096x200x64 (constant (F := F) S_ .f32 0x7FC00000#32))

/-! ## The merged table at an index -/

/-- A one-element array has one index: every coordinate is 0. -/
theorem S1_idx_val (k : S1.Idx) : (k 0).val = 0 := Nat.lt_one_iff.mp (k 0).isLt

/-- The one-element slice of the coefficient pair at offset o holds coefficient o. -/
theorem slice_pair_apply (coef : FVec F S2 .f32) (o : Fin 2) (off : Fin S2.rank → Nat) (ho : off 0 = o.val)
    (h : S2.Slices off S1) (j : S1.Idx) : extractStridedSlice S1 off coef h j = coef (ix1 o) := by
  refine extractStridedSlice_apply off coef h j (ix1 o) fun a => ?_
  match a with
  | ⟨0, _⟩ =>
    have hj : (j 0).val = 0 := S1_idx_val j
    show o.val = off 0 + (j 0).val
    omega

/-- That slice, reshaped to a scalar and broadcast over the table, is coefficient o everywhere. -/
theorem coef_bcast_apply (coef : FVec F S2 .f32) (o : Fin 2) (off : Fin S2.rank → Nat) (ho : off 0 = o.val)
    (h : S2.Slices off S1) (i : S1000000x64.Idx) :
    broadcastInDim S1000000x64 ![] bcast_S_S1000000x64 (shapeCast S_ (extractStridedSlice S1 off coef h) shapeCasts_S1_S_) i
      = coef (ix1 o) := by
  rw [broadcastInDim_scalar_apply]
  unfold shapeCast
  exact slice_pair_apply coef o off ho h _

/-- The merged table at an index: coef[0] · base + coef[1] · mod0 there. -/
theorem mergedTab_apply (base mod0 : FVec F S1000000x64 .f32) (coef : FVec F S2 .f32) (i : S1000000x64.Idx) :
    mergedTab base mod0 coef i
      = FloatOps.addf (FloatOps.mulf (coef (ix1 0)) (base i)) (FloatOps.mulf (coef (ix1 1)) (mod0 i)) :=
  congrArg₂ FloatOps.addf
    (congrArg (fun c => FloatOps.mulf c (base i)) (coef_bcast_apply coef 0 ![0] rfl slices_S2_S1_0 i))
    (congrArg (fun c => FloatOps.mulf c (mod0 i)) (coef_bcast_apply coef 1 ![1] rfl slices_S2_S1_1 i))

/-! ## The index side, for words in range -/

/-- A word below 1000000 unsigned reads the same signed. -/
theorem toInt_of_lt (w : BitVec 32) (h : w.toNat < 1000000) : w.toInt = (w.toNat : ℤ) := by
  rw [BitVec.toInt_eq_toNat_cond]
  split
  · rfl
  · omega

/-- A word in range is not negative, so the wrap leaves it. -/
theorem wrapped_apply_of_lt (inp : IVec S4096x200 32) (k : S4096x200.Idx) (h : (inp k).toNat < 1000000) :
    wrapped inp k = inp k := by
  have hneg : ¬ IntOp.cmpi .slt (inp k) 0#32 = 1#1 := by
    rw [IntOp.cmpi_slt, toInt_of_lt _ h, show (0#32 : BitVec 32).toInt = 0 from by decide]
    omega
  show Scalar.select (IntOp.cmpi .slt (inp k) 0#32) _ (inp k) = inp k
  rw [eq_zero_of_ne_one hneg, select_zero]

/-- The start index at (a, b, ·) is the wrapped word at (a, b). -/
theorem startIdx_apply (inp : IVec S4096x200 32) (a : Fin 4096) (b : Fin 200) (z : Fin 1) :
    startIdx inp (ix3 a b z) = wrapped inp (ix2 a b) := by
  unfold startIdx
  refine broadcastInDim_apply _ _ _ _ (ix2 a b) fun c => ?_
  match c with
  | ⟨0, _⟩ => rfl
  | ⟨1, _⟩ => rfl

/-- With every word in range, the range test holds at every start index. -/
theorem inRangeElt_apply_of_lt (inp : IVec S4096x200 32) (hr : ∀ j, (inp j).toNat < 1000000) (i : S4096x200x1.Idx) :
    inRangeElt inp i = 1#1 := by
  obtain ⟨a, b, z, rfl⟩ : ∃ (a : Fin 4096) (b : Fin 200) (z : Fin 1), i = ix3 a b z := ⟨i 0, i 1, i 2, eq_ix3 i⟩
  show IntOp.andi (IntOp.cmpi .sge (startIdx inp (ix3 a b z)) 0#32) (IntOp.cmpi .sle (startIdx inp (ix3 a b z)) 999999#32) = 1#1
  rw [startIdx_apply, wrapped_apply_of_lt inp _ (hr _), IntOp.andi_eq_one, IntOp.cmpi_sge, IntOp.cmpi_sle,
    toInt_of_lt _ (hr _), show (0#32 : BitVec 32).toInt = 0 from by decide,
    show (999999#32 : BitVec 32).toInt = 999999 from by decide]
  have := hr (ix2 a b)
  omega

/-- A conjunction of ones, from one, is one. -/
theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- With every word in range, every token is in range. -/
theorem inRange_apply_of_lt (inp : IVec S4096x200 32) (hr : ∀ j, (inp j).toNat < 1000000) (k : S4096x200.Idx) :
    inRange inp k = 1#1 := by
  unfold inRange
  rw [Host.reduce_eq_foldl]
  exact foldl_andi_ones _ (inRangeElt_apply_of_lt inp hr) _

/-! ## The lookup, and the result -/

/-- The lookup at (a, b, e): the table at the row the start index at (a, b, 0) names, column e. -/
theorem gathered_apply (x : FVec F S1000000x64 .f32) (idx : IVec S4096x200x1 32) (a : Fin 4096) (b : Fin 200) (e : Fin 64) :
    Host.gather gather_S1000000x64_S4096x200x1_S4096x200x64_2_0_n_n_0_2_164 x idx (ix3 a b e)
      = x (ix2 (Cert.Lib.takeRow 1000000 Cert.Spec.rows_pos (idx (ix3 a b 0))) e) :=
  Cert.Lib.take_rows_apply Cert.Spec.rows_pos _ rfl rfl rfl rfl rfl rfl rfl x idx a b e

/-- THE REFERENCE'S TERM IS THE SPECIFICATION when every index word, read unsigned, is below 1000000. -/
theorem refOut_eq_G (inp : IVec S4096x200 32) (base mod0 : FVec F S1000000x64 .f32) (coef : FVec F S2 .f32)
    (hr : ∀ j, (inp j).toNat < 1000000) :
    refOut inp base mod0 coef = Cert.Spec.G (F := F) inp base mod0 coef := by
  funext j
  obtain ⟨a, b, e, rfl⟩ : ∃ (a : Fin 4096) (b : Fin 200) (e : Fin 64), j = ix3 a b e := ⟨j 0, j 1, j 2, eq_ix3 j⟩
  have hm : broadcastInDim S4096x200x64 ![0, 1] bcast_S4096x200_S4096x200x64_0_1 (inRange inp) (ix3 a b e) = 1#1 := by
    rw [broadcastInDim_apply _ _ _ (ix3 a b e) (ix2 a b) (fun c => by match c with | ⟨0, _⟩ => rfl | ⟨1, _⟩ => rfl)]
    exact inRange_apply_of_lt inp hr _
  unfold refOut
  rw [select_apply, hm, select_one, gathered_apply, mergedTab_apply, startIdx_apply, wrapped_apply_of_lt inp _ (hr _), Cert.Spec.G_apply]
  rfl

end Cert.Proof.Ref

end
-- ==== Proof.RefRun.lean ====
/-
  The reference's run.

  The reference has no kernel: its @main is a straight line of host operations — nine of its own (the two coefficients
  cut out of the pair, reshaped to scalars and broadcast; the two products; the sum: the merged table), then the row
  lookup's twenty-three, written at the call (the wrap of negative index words — a comparison with zero, the sum with
  1000000, and the selection between the two, which is the inner call's one operation —, the start indices, the range
  test and its conjunction per token, the lookup itself, and the selection between the looked-up rows and a fixed word).
  So every weakly fair execution terminates with each buffer at the fold of the operations' results over the launch
  contents. At the result buffer that fold is the composed term of the four arguments the lookup depends on; when every
  index word, read unsigned, is below 1000000, that term is the specification. No operation writes an argument buffer.
-/
import proofs.«205127_g70231305225025_cont_9to1c4b_198_32_alg».proof.ReferenceIdeal
import proofs.«205127_g70231305225025_cont_9to1c4b_198_32_alg».proof.Proof.RefValue
import Idealize.ShloMosaic.Lib.StableHlo.Run
import Idealize.ShloMosaic.PureOps.Ideal

noncomputable section

namespace Cert.Proof.Ref

open Idealize.ShloMosaic Idealize.ShloMosaic.TcCoe Idealize.SL.Sem Idealize.ShloMosaic.StableHlo Cert.ReferenceIdeal

variable {F : FTy → Type} [FloatOps F] [Cert.ReferenceIdeal.Facts]
open Cert.ReferenceIdeal.Facts₀

/-- The same thirty-two operations as the program text spells them: the callees' operations over typed references to the
    buffers the calls name. -/
abbrev opsT : List (HloOp τ sig (Elt F)) :=
  [ unary main_arg4 main_v0 ((extractStridedSlice S1 ![0] · slices_S2_S1_0) : (⟨S2, .f32⟩ : BufTy).Contents (Elt F) → (⟨S1, .f32⟩ : BufTy).Contents (Elt F)),
    reshape main_v0 main_v1 rfl shapeCasts_S1_S_,
    unary main_v1 main_v2 (broadcastInDim S1000000x64 ![] bcast_S_S1000000x64 : (⟨S_, .f32⟩ : BufTy).Contents (Elt F) → (⟨S1000000x64, .f32⟩ : BufTy).Contents (Elt F)),
    binary main_v2 main_arg1 main_v3 (mulf : (⟨S1000000x64, .f32⟩ : BufTy).Contents (Elt F) → (⟨S1000000x64, .f32⟩ : BufTy).Contents (Elt F) → (⟨S1000000x64, .f32⟩ : BufTy).Contents (Elt F)),
    unary main_arg4 main_v4 ((extractStridedSlice S1 ![1] · slices_S2_S1_1) : (⟨S2, .f32⟩ : BufTy).Contents (Elt F) → (⟨S1, .f32⟩ : BufTy).Contents (Elt F)),
    reshape main_v4 main_v5 rfl shapeCasts_S1_S_,
    unary main_v5 main_v6 (broadcastInDim S1000000x64 ![] bcast_S_S1000000x64 : (⟨S_, .f32⟩ : BufTy).Contents (Elt F) → (⟨S1000000x64, .f32⟩ : BufTy).Contents (Elt F)),
    binary main_v6 main_arg2 main_v7 (mulf : (⟨S1000000x64, .f32⟩ : BufTy).Contents (Elt F) → (⟨S1000000x64, .f32⟩ : BufTy).Contents (Elt F) → (⟨S1000000x64, .f32⟩ : BufTy).Contents (Elt F)),
    binary main_v3 main_v7 main_v8 (addf : (⟨S1000000x64, .f32⟩ : BufTy).Contents (Elt F) → (⟨S1000000x64, .f32⟩ : BufTy).Contents (Elt F) → (⟨S1000000x64, .f32⟩ : BufTy).Contents (Elt F)),
    TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 1000000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 999999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_v8) main_call0.v5 main_call0.v13 (fun x i => Host.gather gather_S1000000x64_S4096x200x1_S4096x200x64_2_0_n_n_0_2_164 x i),
    TRef.unary main_call0.v12 main_call0.v14 (broadcastInDim S4096x200x64 ![0, 1] bcast_S4096x200_S4096x200x64_0_1),
    TRef.nullary main_call0.cst (constant S_ .f32 0x7FC00000#32),
    TRef.unary main_call0.cst main_call0.v15 (broadcastInDim S4096x200x64 ![] bcast_S_S4096x200x64),
    TRef.ternary main_call0.v14 main_call0.v13 main_call0.v15 main_call0.v16 select ]

/-- @main's thirty-two operations in order, the two calls written out at their call sites over the buffers the calls name. -/
abbrev ops : List (HloOp τ sig (Elt F)) :=
  [ unary main_arg4 main_v0 ((extractStridedSlice S1 ![0] · slices_S2_S1_0) : (⟨S2, .f32⟩ : BufTy).Contents (Elt F) → (⟨S1, .f32⟩ : BufTy).Contents (Elt F)),
    reshape main_v0 main_v1 rfl shapeCasts_S1_S_,
    unary main_v1 main_v2 (broadcastInDim S1000000x64 ![] bcast_S_S1000000x64 : (⟨S_, .f32⟩ : BufTy).Contents (Elt F) → (⟨S1000000x64, .f32⟩ : BufTy).Contents (Elt F)),
    binary main_v2 main_arg1 main_v3 (mulf : (⟨S1000000x64, .f32⟩ : BufTy).Contents (Elt F) → (⟨S1000000x64, .f32⟩ : BufTy).Contents (Elt F) → (⟨S1000000x64, .f32⟩ : BufTy).Contents (Elt F)),
    unary main_arg4 main_v4 ((extractStridedSlice S1 ![1] · slices_S2_S1_1) : (⟨S2, .f32⟩ : BufTy).Contents (Elt F) → (⟨S1, .f32⟩ : BufTy).Contents (Elt F)),
    reshape main_v4 main_v5 rfl shapeCasts_S1_S_,
    unary main_v5 main_v6 (broadcastInDim S1000000x64 ![] bcast_S_S1000000x64 : (⟨S_, .f32⟩ : BufTy).Contents (Elt F) → (⟨S1000000x64, .f32⟩ : BufTy).Contents (Elt F)),
    binary main_v6 main_arg2 main_v7 (mulf : (⟨S1000000x64, .f32⟩ : BufTy).Contents (Elt F) → (⟨S1000000x64, .f32⟩ : BufTy).Contents (Elt F) → (⟨S1000000x64, .f32⟩ : BufTy).Contents (Elt F)),
    binary main_v3 main_v7 main_v8 (addf : (⟨S1000000x64, .f32⟩ : BufTy).Contents (Elt F) → (⟨S1000000x64, .f32⟩ : BufTy).Contents (Elt F) → (⟨S1000000x64, .f32⟩ : BufTy).Contents (Elt F)),
    nullary main_call0_c (constantI S_ 32 0#32),
    unary main_call0_c main_call0_v0 (broadcastInDim S4096x200 ![] bcast_S_S4096x200),
    binary main_arg0 main_call0_v0 main_call0_v1 (cmpi .slt),
    nullary main_call0_c_0 (constantI S_ 32 1000000#32),
    unary main_call0_c_0 main_call0_v2 (broadcastInDim S4096x200 ![] bcast_S_S4096x200),
    binary main_arg0 main_call0_v2 main_call0_v3 addi,
    ternary main_call0_v1 main_call0_v3 main_arg0 main_call0_v4 select,
    unary main_call0_v4 main_call0_v5 (broadcastInDim S4096x200x1 ![0, 1] bcast_S4096x200_S4096x200x1_0_1),
    nullary main_call0_c_1 (constantI S1 32 999999#32),
    nullary main_call0_c_2 (constantI S_ 32 0#32),
    unary main_call0_c_2 main_call0_v6 (broadcastInDim S4096x200x1 ![] bcast_S_S4096x200x1),
    binary main_call0_v5 main_call0_v6 main_call0_v7 (cmpi .sge),
    unary main_call0_c_1 main_call0_v8 (broadcastInDim S1x1x1 ![2] bcast_S1_S1x1x1_2),
    unary main_call0_v8 main_call0_v9 (broadcastInDim S4096x200x1 ![0, 1, 2] bcast_S1x1x1_S4096x200x1_0_1_2),
    binary main_call0_v5 main_call0_v9 main_call0_v10 (cmpi .sle),
    binary main_call0_v7 main_call0_v10 main_call0_v11 andi,
    nullary main_call0_c_3 (constantI S_ 1 1#1),
    binary main_call0_v11 main_call0_c_3 main_call0_v12 (fun x v => Host.reduce IntOp.andi x v reducesTo_S4096x200x1_S4096x200_d2 h_S_),
    binary main_v8 main_call0_v5 main_call0_v13 (fun x i => Host.gather gather_S1000000x64_S4096x200x1_S4096x200x64_2_0_n_n_0_2_164 x i),
    unary main_call0_v12 main_call0_v14 (broadcastInDim S4096x200x64 ![0, 1] bcast_S4096x200_S4096x200x64_0_1),
    nullary main_call0_cst (constant S_ .f32 0x7FC00000#32),
    unary main_call0_cst main_call0_v15 (broadcastInDim S4096x200x64 ![] bcast_S_S4096x200x64),
    ternary main_call0_v14 main_call0_v13 main_call0_v15 main_v9 select ]

set_option maxRecDepth 1024 in
/-- @main is the straight line as the program text spells it: the two functions' definitions unfolded at their calls and
    the calls' buffer records at their fields, both sides are one chain of steps once sequencing is re-associated. -/
theorem main_eqT (c : Dev nD) : main (F := F) c = seq opsT := by
  simp only [main, fn_take.body, fn_where.body, seq, bind_assoc, pure_bind]

/-! A callee's operation over a typed reference to a literal buffer is the operation over that buffer: the transport along
the buffer's type is the identity. One equation per operation of the two callees, in order. -/
theorem callee_op01 : (TRef.nullary main_call0.c (constantI S_ 32 0#32) : HloOp τ sig (Elt F)) = nullary main_call0_c (constantI S_ 32 0#32) := rfl
theorem callee_op02 : (TRef.unary main_call0.c main_call0.v0 (broadcastInDim S4096x200 ![] bcast_S_S4096x200) : HloOp τ sig (Elt F)) = unary main_call0_c main_call0_v0 (broadcastInDim S4096x200 ![] bcast_S_S4096x200) := rfl
theorem callee_op03 : (TRef.binary (.of main_arg0) main_call0.v0 main_call0.v1 (cmpi .slt) : HloOp τ sig (Elt F)) = binary main_arg0 main_call0_v0 main_call0_v1 (cmpi .slt) := rfl
theorem callee_op04 : (TRef.nullary main_call0.c_0 (constantI S_ 32 1000000#32) : HloOp τ sig (Elt F)) = nullary main_call0_c_0 (constantI S_ 32 1000000#32) := rfl
theorem callee_op05 : (TRef.unary main_call0.c_0 main_call0.v2 (broadcastInDim S4096x200 ![] bcast_S_S4096x200) : HloOp τ sig (Elt F)) = unary main_call0_c_0 main_call0_v2 (broadcastInDim S4096x200 ![] bcast_S_S4096x200) := rfl
theorem callee_op06 : (TRef.binary (.of main_arg0) main_call0.v2 main_call0.v3 addi : HloOp τ sig (Elt F)) = binary main_arg0 main_call0_v2 main_call0_v3 addi := rfl
theorem callee_op07 : (TRef.ternary main_call0.v1 main_call0.v3 (.of main_arg0) main_call0.call0.v0 select : HloOp τ sig (Elt F)) = ternary main_call0_v1 main_call0_v3 main_arg0 main_call0_v4 select := rfl
theorem callee_op08 : (TRef.unary main_call0.call0.v0 main_call0.v5 (broadcastInDim S4096x200x1 ![0, 1] bcast_S4096x200_S4096x200x1_0_1) : HloOp τ sig (Elt F)) = unary main_call0_v4 main_call0_v5 (broadcastInDim S4096x200x1 ![0, 1] bcast_S4096x200_S4096x200x1_0_1) := rfl
theorem callee_op09 : (TRef.nullary main_call0.c_1 (constantI S1 32 999999#32) : HloOp τ sig (Elt F)) = nullary main_call0_c_1 (constantI S1 32 999999#32) := rfl
theorem callee_op10 : (TRef.nullary main_call0.c_2 (constantI S_ 32 0#32) : HloOp τ sig (Elt F)) = nullary main_call0_c_2 (constantI S_ 32 0#32) := rfl
theorem callee_op11 : (TRef.unary main_call0.c_2 main_call0.v6 (broadcastInDim S4096x200x1 ![] bcast_S_S4096x200x1) : HloOp τ sig (Elt F)) = unary main_call0_c_2 main_call0_v6 (broadcastInDim S4096x200x1 ![] bcast_S_S4096x200x1) := rfl
theorem callee_op12 : (TRef.binary main_call0.v5 main_call0.v6 main_call0.v7 (cmpi .sge) : HloOp τ sig (Elt F)) = binary main_call0_v5 main_call0_v6 main_call0_v7 (cmpi .sge) := rfl
theorem callee_op13 : (TRef.unary main_call0.c_1 main_call0.v8 (broadcastInDim S1x1x1 ![2] bcast_S1_S1x1x1_2) : HloOp τ sig (Elt F)) = unary main_call0_c_1 main_call0_v8 (broadcastInDim S1x1x1 ![2] bcast_S1_S1x1x1_2) := rfl
theorem callee_op14 : (TRef.unary main_call0.v8 main_call0.v9 (broadcastInDim S4096x200x1 ![0, 1, 2] bcast_S1x1x1_S4096x200x1_0_1_2) : HloOp τ sig (Elt F)) = unary main_call0_v8 main_call0_v9 (broadcastInDim S4096x200x1 ![0, 1, 2] bcast_S1x1x1_S4096x200x1_0_1_2) := rfl
theorem callee_op15 : (TRef.binary main_call0.v5 main_call0.v9 main_call0.v10 (cmpi .sle) : HloOp τ sig (Elt F)) = binary main_call0_v5 main_call0_v9 main_call0_v10 (cmpi .sle) := rfl
theorem callee_op16 : (TRef.binary main_call0.v7 main_call0.v10 main_call0.v11 andi : HloOp τ sig (Elt F)) = binary main_call0_v7 main_call0_v10 main_call0_v11 andi := rfl
theorem callee_op17 : (TRef.nullary main_call0.c_3 (constantI S_ 1 1#1) : HloOp τ sig (Elt F)) = nullary main_call0_c_3 (constantI S_ 1 1#1) := rfl
attribute [local irreducible] Host.reduce in
theorem callee_op18 : (TRef.binary main_call0.v11 main_call0.c_3 main_call0.v12 (fun x v => Host.reduce IntOp.andi x v reducesTo_S4096x200x1_S4096x200_d2 h_S_) : HloOp τ sig (Elt F)) = binary main_call0_v11 main_call0_c_3 main_call0_v12 (fun x v => Host.reduce IntOp.andi x v reducesTo_S4096x200x1_S4096x200_d2 h_S_) := rfl
attribute [local irreducible] Host.gather in
theorem callee_op19 : (TRef.binary (.of main_v8) main_call0.v5 main_call0.v13 (fun x i => Host.gather gather_S1000000x64_S4096x200x1_S4096x200x64_2_0_n_n_0_2_164 x i) : HloOp τ sig (Elt F)) = binary main_v8 main_call0_v5 main_call0_v13 (fun x i => Host.gather gather_S1000000x64_S4096x200x1_S4096x200x64_2_0_n_n_0_2_164 x i) := rfl
theorem callee_op20 : (TRef.unary main_call0.v12 main_call0.v14 (broadcastInDim S4096x200x64 ![0, 1] bcast_S4096x200_S4096x200x64_0_1) : HloOp τ sig (Elt F)) = unary main_call0_v12 main_call0_v14 (broadcastInDim S4096x200x64 ![0, 1] bcast_S4096x200_S4096x200x64_0_1) := rfl
theorem callee_op21 : (TRef.nullary main_call0.cst (constant S_ .f32 0x7FC00000#32) : HloOp τ sig (Elt F)) = nullary main_call0_cst (constant S_ .f32 0x7FC00000#32) := rfl
theorem callee_op22 : (TRef.unary main_call0.cst main_call0.v15 (broadcastInDim S4096x200x64 ![] bcast_S_S4096x200x64) : HloOp τ sig (Elt F)) = unary main_call0_cst main_call0_v15 (broadcastInDim S4096x200x64 ![] bcast_S_S4096x200x64) := rfl
theorem callee_op23 : (TRef.ternary main_call0.v14 main_call0.v13 main_call0.v15 main_call0.v16 select : HloOp τ sig (Elt F)) = ternary main_call0_v14 main_call0_v13 main_call0_v15 main_v9 select := rfl

/-- The two spellings are the same list. -/
theorem opsT_eq : (opsT : List (HloOp τ sig (Elt F))) = ops := by
  unfold opsT ops
  rw [callee_op01, callee_op02, callee_op03, callee_op04, callee_op05, callee_op06, callee_op07, callee_op08, callee_op09, callee_op10, callee_op11, callee_op12, callee_op13, callee_op14, callee_op15, callee_op16, callee_op17, callee_op18, callee_op19, callee_op20, callee_op21, callee_op22, callee_op23]

/-- @main is that straight line. -/
theorem main_eq (c : Dev nD) : main (F := F) c = seq ops := (main_eqT c).trans (congrArg seq opsT_eq)

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., binary_bufs_sub .., unary_bufs_sub .., reshape_bufs_sub ..,
    unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- The fold at the result buffer is the composed term of the arguments' contents: each operation's result read at its
    own buffer is its function's value, at any other buffer what was there. -/
theorem out_eq (V : Valuation τ sig (Elt F)) :
    after ops V (main_v9 : DevRef τ sig)
      = refOut (F := F) (V (main_arg0 : DevRef τ sig)) (V (main_arg1 : DevRef τ sig)) (V (main_arg2 : DevRef τ sig))
          (V (main_arg4 : DevRef τ sig)) := by
  after_results_simp
  unfold refOut mergedTab inRange inRangeElt startIdx wrapped
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

/-- On every device, from any memory with zero counters: every weakly fair execution of @main terminates with every
    buffer at the fold of the operations' results over its launch contents. -/
theorem run_fold (m : (ℓ : Loc nD τ sig) → Buf (Elt F) ℓ) (g : Dev nD → PrngReg) :
    θ_run (defs (F := F)) (onTc (τ := τ) (main (F := F))) ⟨m, fun _ => 0, g⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m g

/-- THE REFERENCE'S RUN, at the ideal instance, from a memory whose index words, read unsigned, are all below 1000000:
    every weakly fair execution terminates with the result buffer at the specification of the argument contents and the
    five arguments unchanged. -/
theorem run (m : (ℓ : Loc Cert.ReferenceIdeal.nD Cert.ReferenceIdeal.τ Cert.ReferenceIdeal.sig) → Buf (Elt Ideal) ℓ)
    (g : Dev Cert.ReferenceIdeal.nD → PrngReg)
    (hr : ∀ (c : Dev Cert.ReferenceIdeal.nD) j,
      ((m ((c.tc : Thread Cert.ReferenceIdeal.nD Cert.ReferenceIdeal.τ).loc Cert.ReferenceIdeal.main_arg0)) j).toNat < 1000000) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v9)
          = Cert.Spec.G (F := Ideal)
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg4))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run _ _ _).mono
    (fun _ h c =>
      ⟨(h c main_v9).trans ((out_eq _).trans (refOut_eq_G _ _ _ _ (hr c))),
        (h c main_arg0).trans (arg0_eq _), (h c main_arg1).trans (arg1_eq _), (h c main_arg2).trans (arg2_eq _),
        (h c main_arg3).trans (arg3_eq _), (h c main_arg4).trans (arg4_eq _)⟩)
    (run_fold (F := Ideal) m g)

end Cert.Proof.Ref

end
-- ==== Proof.Claims.lean ====
/-
  The claims about the idealized kernel and the idealized reference.

  The idealized kernel's run ends with the arguments unchanged and the result array the reshaped call result at the
  operands the host operations compute; that array is the specified map of the arguments. The reference's run ends with
  the arguments unchanged and its result array the same specified map. So from memories that agree on the arguments the
  two results are one array, and each program's frame is its run with the result forgotten.
-/
import proofs.«205127_g70231305225025_cont_9to1c4b_198_32_alg».proof.Defs
import proofs.«205127_g70231305225025_cont_9to1c4b_198_32_alg».proof.Proof.Launch
import proofs.«205127_g70231305225025_cont_9to1c4b_198_32_alg».proof.Proof.TileObl
import proofs.«205127_g70231305225025_cont_9to1c4b_198_32_alg».proof.Proof.PreRange
import proofs.«205127_g70231305225025_cont_9to1c4b_198_32_alg».proof.Proof.RefRun
import proofs.«205127_g70231305225025_cont_9to1c4b_198_32_alg».proof.Proof.Gen.ReferenceIdeal
import proofs.«205127_g70231305225025_cont_9to1c4b_198_32_alg».proof.Proof.Gen.Pre_input_domain

noncomputable section

namespace Cert.Proof.Claims

open Idealize.ShloMosaic Idealize.SL.Sem
open Cert.Proof.KI

/-- The idealized kernel's run, from a memory of which the precondition holds. -/
theorem run_ki (m : (ℓ : Loc Cert.KernelIdeal.nD Cert.KernelIdeal.τ Cert.KernelIdeal.sig) → Buf (Elt Ideal) ℓ)
    (g : Dev Cert.KernelIdeal.nD → PrngReg) (hpre : Cert.Pre_KernelIdeal (hPre_input_domain := Cert.Pre_input_domain.Gen.facts) m) :
    θ_run (Cert.KernelIdeal.defs (F := Ideal)) (Cert.KernelIdeal.threads (F := Ideal)) ⟨m, fun _ => 0, g⟩ (QC m) :=
  run_main (F := Ideal) m g (tileObl (flM m) (prM m) (cbM m) (o₀M m) (inRange_of_pre m hpre))

theorem frame_ki : Cert.frame_KernelIdeal (hKernelIdeal := Cert.KernelIdeal.Gen.facts) (hPre_input_domain := Cert.Pre_input_domain.Gen.facts) :=
  fun m g hpre => (θ_run (Cert.KernelIdeal.defs (F := Ideal)) _ _).mono (fun _ h c => (h c).2) (run_ki m g hpre)

/-- The precondition at the reference's memory: every index word below 1000000. -/
theorem range_ri (m : (ℓ : Loc Cert.ReferenceIdeal.nD Cert.ReferenceIdeal.τ Cert.ReferenceIdeal.sig) → Buf (Elt Ideal) ℓ)
    (hpre : Cert.Pre_ReferenceIdeal (hPre_input_domain := Cert.Pre_input_domain.Gen.facts) m) (c : Dev Cert.ReferenceIdeal.nD) :
    ∀ j, ((m ((c.tc : Thread Cert.ReferenceIdeal.nD Cert.ReferenceIdeal.τ).loc Cert.ReferenceIdeal.main_arg0)) j).toNat < 1000000 :=
  Cert.Proof.Ref.range_of_pre _ _ _ _ _ (hpre c)

theorem frame_ri : Cert.frame_ReferenceIdeal (hReferenceIdeal := Cert.ReferenceIdeal.Gen.facts) (hPre_input_domain := Cert.Pre_input_domain.Gen.facts) :=
  fun m g hpre => (θ_run (Cert.ReferenceIdeal.defs (F := Ideal)) _ _).mono (fun _ h c => (h c).2)
    (Cert.Proof.Ref.run m g (fun c => range_ri m hpre c))

theorem preserves : Cert.preserves_Kernel_KernelIdeal := trivial

/-- Both runs end at the specified map of the arguments: the kernel's by the identity of the host values, the
    reference's by its own run, the two memories agreeing on the arguments. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  refine ⟨fun c => Cert.Spec.G (F := Ideal) (m (a0Loc c)) (m (a1Loc c)) (m (a2Loc c)) (m (a4Loc c)), ?_, ?_⟩
  · refine (θ_run (Cert.KernelIdeal.defs (F := Ideal)) _ _).mono (fun _ h c => ⟨(h c).1.trans ?_, (h c).2⟩) (run_ki m g hpre)
    exact Cert.KernelIdeal.HostVals.value_eq (F := Ideal) (m (a0Loc c)) (m (a1Loc c)) (m (a2Loc c)) (m (a4Loc c))
  · have hr : ∀ (c : Dev Cert.ReferenceIdeal.nD) j,
        ((m' ((c.tc : Thread Cert.ReferenceIdeal.nD Cert.ReferenceIdeal.τ).loc Cert.ReferenceIdeal.main_arg0)) j).toNat < 1000000 := by
      intro c j
      rw [(hagree c).1]
      exact Cert.Proof.Ref.range_of_pre _ _ _ _ _ (hpre c) j
    refine (θ_run (Cert.ReferenceIdeal.defs (F := Ideal)) _ _).mono (fun _ h c => ⟨(h c).1.trans ?_, (h c).2⟩) (Cert.Proof.Ref.run m' g' hr)
    rw [(hagree c).1, (hagree c).2.1, (hagree c).2.2.1, (hagree c).2.2.2.2]

end Cert.Proof.Claims

end
-- ==== Proof.KBCommon.lean ====
-- The text of module Common, read over the word-level program in place of the idealized one.
/-
  The gather-and-merge call as the launch theorem sees it, and what one tile is handed and hands back.

  The call runs on 2 SparseCores × 16 tiles. Tile (c, i) has the worker number w = 2·i + c (0 ≤ w < 32) and owns
  tokens [25600·w, 25600·(w+1)) of the flat token list, hence result rows [12800·w, 12800·(w+1)) (two tokens per
  row). Every tile reads the whole pair table and the whole coefficient block: each holds one of 32 read shares of
  those two arrays. A tile hands its result rows back holding the call's result function on exactly those rows.
-/
import proofs.«205127_g70231305225025_cont_9to1c4b_198_32_alg».proof.Defs
import proofs.«205127_g70231305225025_cont_9to1c4b_198_32_alg».proof.Proof.KOut
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205127_g70231305225025_cont_9to1c4b_198_32_alg».proof.Proof.Gen.Kernel
import proofs.«205127_g70231305225025_cont_9to1c4b_198_32_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, as the TensorCore names them -/

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev a4Loc (d : Dev nD) : Loc nD τ sig := (SparseCore.T d).loc main_arg4
/-- The flat token list, the pair table, the coefficient block, the call's result, the program's result. -/
abbrev flLoc (d : Dev nD) : Loc nD τ sig := (SparseCore.T d).loc main_v0
abbrev prLoc (d : Dev nD) : Loc nD τ sig := (SparseCore.T d).loc main_v1
abbrev cbLoc (d : Dev nD) : Loc nD τ sig := (SparseCore.T d).loc main_v3
abbrev ouLoc (d : Dev nD) : Loc nD τ sig := (SparseCore.T d).loc main_v4
abbrev rsLoc (d : Dev nD) : Loc nD τ sig := (SparseCore.T d).loc main_v5

/-! ## Workers -/

/-- The worker number of tile i of SparseCore c. -/
def wid (c : Fin 2) (i : Fin 16) : Fin 32 := ⟨2 * i.val + c.val, by have := c.isLt; have := i.isLt; omega⟩

theorem fl_div : 32 ∣ S819200.size 0 := ⟨25600, rfl⟩
theorem ou_div : 32 ∣ S409600x128.size 0 := ⟨12800, rfl⟩
/-- Worker w's tokens, worker w's result rows. -/
abbrev flRect (w : Fin 32) : Rect S819200 := Rect.part (s := S819200) (a₀ := 0) fl_div w
abbrev ouRect (w : Fin 32) : Rect S409600x128 := Rect.part (s := S409600x128) (a₀ := 0) ou_div w
abbrev flSet (w : Fin 32) : Finset S819200.Idx := ((View.whole (main_v0_scv : Ref sig .scVector)).slice (flRect w)).set
abbrev ouSet (w : Fin 32) : Finset S409600x128.Idx := ((View.whole (main_v4_scv : Ref sig .scVector)).slice (ouRect w)).set

/-- Worker w's read share of an array every tile reads whole. -/
abbrev rq (w : Fin 32) : PosShare TreeShare := Transfers.shareTok fullShare 32 w

/-! ## What a tile is handed, and what it hands back

Over the call's operand contents: the token list fl, the pair table pr, the coefficient block cb (each per device),
and the result array's contents o₀ when the call starts. -/

section Res

variable (fl : (d : Dev nD) → Buf (Elt F) (flLoc d)) (pr : (d : Dev nD) → Buf (Elt F) (prLoc d))
  (cb : (d : Dev nD) → Buf (Elt F) (cbLoc d)) (o₀ : (d : Dev nD) → Buf (Elt F) (ouLoc d))

/-- The call's result function on device d. -/
def outF [FloatOps F] (d : Dev nD) : Buf (Elt F) (ouLoc d) := Cert.KOut.out (F := F) (fl d) (pr d) (cb d)

/-- Worker w's operands: its tokens, its two read shares. -/
abbrev tileIn (d : Dev nD) (w : Fin 32) : sProp 𝕄 :=
  iprop((flLoc d ↦[flSet w]{fullShare} fl d) ∗ (prLoc d ↦{rq w} pr d) ∗ (cbLoc d ↦{rq w} cb d))
/-- Handed: the operands, and its result rows at the contents they start from. -/
abbrev tileGo (d : Dev nD) (w : Fin 32) : sProp 𝕄 :=
  iprop(tileIn fl pr cb d w ∗ (ouLoc d ↦[ouSet w]{fullShare} o₀ d))
/-- Handed back: the operands, and its result rows at the call's result function. -/
abbrev tileTd [FloatOps F] (d : Dev nD) (w : Fin 32) : sProp 𝕄 :=
  iprop(tileIn fl pr cb d w ∗ (ouLoc d ↦[ouSet w]{fullShare} outF fl pr cb d))

/-- The call's payloads: a SparseCore takes its sixteen tiles' shares and gives them back; a tile takes its own. -/
def P [FloatOps F] : (K (F := F)).Pay (nD := nD) (Val := Elt F) (Name := ℕ) (U := UU) where
  st := fun q d c => match q with
    | 0 => bigSep Finset.univ fun i : Fin 16 => tileGo fl pr cb o₀ d (wid (Fin.cast nCore_zero c) i)
  dn := fun q d c => match q with
    | 0 => bigSep Finset.univ fun i : Fin 16 => tileTd fl pr cb d (wid (Fin.cast nCore_zero c) i)
  go := fun q d c i => match q with
    | 0 => tileGo fl pr cb o₀ d (wid (Fin.cast nCore_zero c) (Fin.cast nSub_zero i))
  td := fun q d c i => match q with
    | 0 => tileTd fl pr cb d (wid (Fin.cast nCore_zero c) (Fin.cast nSub_zero i))
  x := fun _ _ => iprop(emp)

instance P_storable [FloatOps F] : (P (F := F) fl pr cb o₀).IsStorable where
  st q d c := match q with | 0 => by unfold P; infer_instance
  dn q d c := match q with | 0 => by unfold P; infer_instance
  go q d c i := match q with | 0 => by unfold P; infer_instance
  td q d c i := match q with | 0 => by unfold P; infer_instance

/-- What the tiles need of the token list: every word names a row of the pair table. -/
def InRange : Prop := ∀ (d : Dev nD) (j : S819200.Idx), (fl d j).toNat < 1000000

end Res

end Cert.Proof.KB

end
-- ==== Proof.KBHostVals.lean ====
-- The text of module HostVals, read over the word-level program in place of the idealized one.
/-
  The values the host operations around the gather-and-merge call compute, each as a function of its operand
  arrays and read at an index, and the identity they add up to: reshaping the call's result from the call's own
  result formula, fed the flattened token list, the pair table and the coefficient block, is the specified map.

  Result position (a, b, e) of the 4096 × 200 × 64 array has row-major position (a·200 + b)·64 + e, which in the
  409600 × 128 array is row p = (a·200 + b) / 2, column q = ((a·200 + b) mod 2)·64 + e. The call's formula reads
  token 2p + q / 64 = a·200 + b and component q mod 64 = e. Position a·200 + b of the flat token list is position
  (a, b) of the index array; columns e and 64 + e of the pair table are column e of the first and of the second
  table; entry (k, lane) of the coefficient block is coefficient k. Both sides name the table row through the same
  clamp, so no range condition on the words and no law of the float operations enters.
-/
import proofs.«205127_g70231305225025_cont_9to1c4b_198_32_alg».proof.Kernel
import proofs.«205127_g70231305225025_cont_9to1c4b_198_32_alg».proof.Proof.Spec
import proofs.«205127_g70231305225025_cont_9to1c4b_198_32_alg».proof.Proof.KOut
import Idealize.ShloMosaic.Lib.ValueIdx
import Idealize.ShloMosaic.Lib.Pipeline.Value
import Idealize.ShloMosaic.Lib.ValueLayout

noncomputable section

open Idealize.ShloMosaic Idealize.ShloMosaic.ValueIdx Cert.Kernel

namespace Cert.Kernel.HostVals

variable {F : FTy → Type} [FloatOps F] [Cert.Kernel.Facts]

open Cert.Kernel.Facts₀ Cert.Kernel.Facts

/-- The index array flattened: its words in row-major order. -/
def flatOf (a0 : IVec S4096x200 32) : IVec S819200 32 :=
  shapeCast S819200 a0 shapeCasts_S4096x200_S819200

/-- The pair table: a row of the first table followed by the same row of the second. -/
def pairOf (a1 a2 : FVec F S1000000x64 .f32) : FVec F S1000000x128 .f32 :=
  concatenate S1000000x128 1 [⟨S1000000x64, a1⟩, ⟨S1000000x64, a2⟩] concatenates_S1000000x64_S1000000x64_S1000000x128_d1

/-- The coefficient block: coefficient k repeated along row k (a column first, then sixteen lanes). -/
def coefBlockOf (a4 : FVec F S2 .f32) : FVec F S2x16 .f32 :=
  broadcastInDim S2x16 ![0, 1] bcast_S2x1_S2x16_0_1 (broadcastInDim S2x1 ![0] bcast_S2_S2x1_0 a4)

/-- The call's 409600 × 128 result read as 4096 × 200 × 64, row-major. -/
def resOf (o : FVec F S409600x128 .f32) : FVec F S4096x200x64 .f32 :=
  shapeCast S4096x200x64 o shapeCasts_S409600x128_S4096x200x64

/-- Position t of the flat list is position (t / 200, t mod 200) of the index array. -/
theorem flatOf_apply (a0 : IVec S4096x200 32) (t : Fin 819200) :
    flatOf a0 (ix1 t)
      = a0 (ix2 (⟨t.val / 200, by have := t.isLt; omega⟩ : Fin 4096) (⟨t.val % 200, by omega⟩ : Fin 200)) :=
  shapeCast_apply a0 shapeCasts_S4096x200_S819200 _ _ (by
    rw [Shape.rowMajor_val_two, Shape.rowMajor_val_one]
    show t.val / 200 * 200 + t.val % 200 = t.val
    omega)

/-- A column below 64 of the pair table is that column of the first table. -/
theorem pairOf_apply_lo (a1 a2 : FVec F S1000000x64 .f32) (r : Fin 1000000) (q : Fin 128) (h : q.val < 64) :
    pairOf a1 a2 (ix2 r q) = a1 (ix2 r (⟨q.val, h⟩ : Fin 64)) :=
  concatenate_pair_apply_left (1 : Fin 2) a1 a2 concatenates_S1000000x64_S1000000x64_S1000000x128_d1 (ix2 r q) rfl
    (ix2 r (⟨q.val, h⟩ : Fin 64)) (fun c => match c with | ⟨0, _⟩ => rfl | ⟨1, _⟩ => rfl)

/-- A column from 64 on of the pair table is that column, 64 less, of the second table. -/
theorem pairOf_apply_hi (a1 a2 : FVec F S1000000x64 .f32) (r : Fin 1000000) (q : Fin 128) (h : 64 ≤ q.val) :
    pairOf a1 a2 (ix2 r q) = a2 (ix2 r (⟨q.val - 64, by have := q.isLt; omega⟩ : Fin 64)) :=
  concatenate_pair_apply_right (1 : Fin 2) a1 a2 concatenates_S1000000x64_S1000000x64_S1000000x128_d1 (ix2 r q) rfl rfl
    (ix2 r (⟨q.val - 64, by have := q.isLt; omega⟩ : Fin 64))
    (fun c => match c with
      | ⟨0, _⟩ => fun _ => rfl
      | ⟨1, _⟩ => fun hc => absurd rfl hc)
    (by show q.val - 64 + 64 = q.val; omega)

/-- Entry (k, l) of the coefficient block is coefficient k. -/
theorem coefBlockOf_apply (a4 : FVec F S2 .f32) (k : Fin 2) (l : Fin 16) :
    coefBlockOf a4 (ix2 k l) = a4 (ix1 k) :=
  (broadcastInDim_apply (![0, 1] : Fin 2 → Fin 2) bcast_S2x1_S2x16_0_1 _ (ix2 k l) (ix2 k (0 : Fin 1))
      (fun c => match c with | ⟨0, _⟩ => rfl | ⟨1, _⟩ => rfl)).trans
    (broadcastInDim_apply (![0] : Fin 1 → Fin 2) bcast_S2_S2x1_0 a4 (ix2 k (0 : Fin 1)) (ix1 k)
      (fun c => match c with | ⟨0, _⟩ => rfl))

/-- Position (a, b, e) of the reshaped result is row (a·200 + b) / 2, column ((a·200 + b) mod 2)·64 + e. -/
theorem resOf_apply (o : FVec F S409600x128 .f32) (a : Fin 4096) (b : Fin 200) (e : Fin 64) :
    resOf o (ix3 a b e)
      = o (ix2 (⟨(a.val * 200 + b.val) / 2, by have := a.isLt; have := b.isLt; omega⟩ : Fin 409600)
            (⟨((a.val * 200 + b.val) % 2) * 64 + e.val, by have := e.isLt; omega⟩ : Fin 128)) :=
  shapeCast_apply o shapeCasts_S409600x128_S4096x200x64 _ _ (by
    rw [Shape.rowMajor_val_two, Shape.rowMajor_val_three]
    show (a.val * 200 + b.val) / 2 * 128 + ((a.val * 200 + b.val) % 2 * 64 + e.val)
      = (a.val * 200 + b.val) * 64 + e.val
    omega)

/-- The row of the 409600 × 128 array that holds result positions (a, b, ·): (a·200 + b) / 2. -/
def rowOf (a : Fin 4096) (b : Fin 200) : Fin 409600 :=
  ⟨(a.val * 200 + b.val) / 2, by have := a.isLt; have := b.isLt; omega⟩

/-- The column of that row that holds result position (a, b, e): ((a·200 + b) mod 2)·64 + e. -/
def colOf (a : Fin 4096) (b : Fin 200) (e : Fin 64) : Fin 128 :=
  ⟨((a.val * 200 + b.val) % 2) * 64 + e.val, by have := e.isLt; omega⟩

/-- That column's component is e. -/
theorem colOf_mod (a : Fin 4096) (b : Fin 200) (e : Fin 64) : (colOf a b e).val % 64 = e.val := by
  show ((a.val * 200 + b.val) % 2 * 64 + e.val) % 64 = e.val
  have := e.isLt
  omega

/-- The token of that row and column is a·200 + b, position (a, b) of the index array: the row of the pair table
    it names is the row the word at (a, b) names. -/
theorem prow_flatOf (a0 : IVec S4096x200 32) (a : Fin 4096) (b : Fin 200) (e : Fin 64) :
    Cert.KOut.prow (flatOf a0) (Cert.KOut.tok (rowOf a b) (colOf a b e)) = Cert.Spec.row a0 a b :=
  congrArg (Cert.Lib.takeRow 1000000 Cert.Spec.rows_pos)
    (shapeCast_apply a0 shapeCasts_S4096x200_S819200 (ix1 (Cert.KOut.tok (rowOf a b) (colOf a b e))) (ix2 a b) (by
      rw [Shape.rowMajor_val_two, Shape.rowMajor_val_one]
      show a.val * 200 + b.val
        = 2 * ((a.val * 200 + b.val) / 2) + ((a.val * 200 + b.val) % 2 * 64 + e.val) / 64
      have := e.isLt
      omega))

/-- Component e of the pair table's first half is the first table's column e. -/
theorem pairOf_comp0 (a1 a2 : FVec F S1000000x64 .f32) (r : Fin 1000000) (q : Fin 128) (e : Fin 64)
    (he : q.val % 64 = e.val) : pairOf a1 a2 (ix2 r (Cert.KOut.comp0 q)) = a1 (ix2 r e) :=
  (pairOf_apply_lo a1 a2 r (Cert.KOut.comp0 q) (Nat.mod_lt _ (by decide))).trans
    (congrArg (fun x => a1 (ix2 r x)) (Fin.ext he))

/-- Component e of the pair table's second half is the second table's column e. -/
theorem pairOf_comp' (a1 a2 : FVec F S1000000x64 .f32) (r : Fin 1000000) (q : Fin 128) (e : Fin 64)
    (he : q.val % 64 = e.val) : pairOf a1 a2 (ix2 r (Cert.KOut.comp' q)) = a2 (ix2 r e) :=
  (pairOf_apply_hi a1 a2 r (Cert.KOut.comp' q) (Nat.le_add_right 64 _)).trans
    (congrArg (fun x => a2 (ix2 r x)) (Fin.ext (by show 64 + q.val % 64 - 64 = e.val; omega)))

/-- The reshaped result of the call's formula, at the flattened token list, the pair table and the coefficient
    block, is the specified map of the four argument arrays. -/
theorem value_eq (a0 : IVec S4096x200 32) (a1 a2 : FVec F S1000000x64 .f32) (a4 : FVec F S2 .f32) :
    resOf (Cert.KOut.out (flatOf a0) (pairOf a1 a2) (coefBlockOf a4)) = Cert.Spec.G a0 a1 a2 a4 :=  by
  funext j
  obtain ⟨a, b, e, rfl⟩ : ∃ (a : Fin 4096) (b : Fin 200) (e : Fin 64), j = ix3 a b e := ⟨j 0, j 1, j 2, eq_ix3 j⟩
  refine (resOf_apply _ a b e).trans ?_
  show Cert.KOut.out (flatOf a0) (pairOf a1 a2) (coefBlockOf a4) (ix2 (rowOf a b) (colOf a b e)) = _
  rw [Cert.KOut.out_apply, Cert.Spec.G_apply, coefBlockOf_apply, coefBlockOf_apply, prow_flatOf,
    pairOf_comp0 a1 a2 _ _ e (colOf_mod a b e), pairOf_comp' a1 a2 _ _ e (colOf_mod a b e)]
  rfl

end Cert.Kernel.HostVals

end
-- ==== Proof.KBLaunch.lean ====
-- The text of module Launch, read over the word-level program in place of the idealized one.
/-
  The launch of the gather-and-merge program.

  The TensorCore flattens the token array, lays the two tables side by side as the pair table, spreads the two
  coefficients over sixteen lanes, makes the call, and reads the call's 409600 × 128 result as 4096 × 200 × 64.
  For the call the flat token list and the result rows are cut into the thirty-two workers' parts, and the pair
  table and the coefficient block go out as thirty-two read shares (a remainder kept aside); afterwards the parts
  join again, the result rows all at the one function the call computes. Worker w = 2·i + c is tile i of
  SparseCore c, so thirty-two workers are two SparseCores of sixteen tiles.

  From one tile's obligation the whole program's run follows: every weakly fair execution ends, the five argument
  arrays unchanged and the result array the reshaped call result at the operands the host operations computed.
-/
import proofs.«205127_g70231305225025_cont_9to1c4b_198_32_alg».proof.Proof.KBCommon
import proofs.«205127_g70231305225025_cont_9to1c4b_198_32_alg».proof.Proof.KBHostVals

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr wp_hlo_within tcRefs devRef_mem_tcRefs after)

variable {F : FTy → Type}

local notation "𝕄" => MT nD τ sig (HIx 1) (Elt F) ℕ UU ℕ

/-! ## Thirty-two workers are two SparseCores of sixteen tiles -/

/-- Worker 2·i + c is tile i of SparseCore c: a bijection. -/
def widEquiv : Fin 2 × Fin 16 ≃ Fin 32 where
  toFun p := wid p.1 p.2
  invFun w := (⟨w.val % 2, Nat.mod_lt _ (by decide)⟩, ⟨w.val / 2, by have := w.isLt; omega⟩)
  left_inv p := by
    rcases p with ⟨c, i⟩
    refine Prod.ext (Fin.ext ?_) (Fin.ext ?_)
    · show (2 * i.val + c.val) % 2 = c.val
      have := c.isLt; omega
    · show (2 * i.val + c.val) / 2 = i.val
      have := c.isLt; omega
  right_inv w := Fin.ext (by show 2 * (w.val / 2) + w.val % 2 = w.val; omega)

/-- A product over the workers is one over the SparseCores of one over their tiles. -/
theorem bigSep_wid (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod]; rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## The workers' parts of the token list and of the result rows -/

theorem flSet_eq (w : Fin 32) : flSet w = (flRect w).set := by
  show ((View.whole (main_v0_scv : Ref sig .scVector)).slice (flRect w)).set = _
  rw [View.set_slice]; exact Finset.map_refl
theorem ouSet_eq (w : Fin 32) : ouSet w = (ouRect w).set := by
  show ((View.whole (main_v4_scv : Ref sig .scVector)).slice (ouRect w)).set = _
  rw [View.set_slice]; exact Finset.map_refl
theorem fl_disjoint : ∀ i ∈ (Finset.univ : Finset (Fin 32)), ∀ j ∈ (Finset.univ : Finset (Fin 32)), i ≠ j → Disjoint (flSet i) (flSet j) :=
  fun i _ j _ h => by rw [flSet_eq, flSet_eq]; exact Rect.part_disjoint fl_div h
theorem ou_disjoint : ∀ i ∈ (Finset.univ : Finset (Fin 32)), ∀ j ∈ (Finset.univ : Finset (Fin 32)), i ≠ j → Disjoint (ouSet i) (ouSet j) :=
  fun i _ j _ h => by rw [ouSet_eq, ouSet_eq]; exact Rect.part_disjoint ou_div h
theorem fl_cover : (Finset.univ : Finset (Fin 32)).biUnion flSet = Finset.univ :=
  (Finset.biUnion_congr rfl fun i _ => flSet_eq i).trans (Rect.biUnion_part fl_div)
theorem ou_cover : (Finset.univ : Finset (Fin 32)).biUnion ouSet = Finset.univ :=
  (Finset.biUnion_congr rfl fun i _ => ouSet_eq i).trans (Rect.biUnion_part ou_div)

/-- The token list whole is its thirty-two parts. -/
theorem fl_parts (d : Dev nD) (f : Buf (Elt F) (flLoc d)) :
    (flLoc d ↦{fullShare} f : sProp 𝕄) = bigSep Finset.univ fun w : Fin 32 => flLoc d ↦[flSet w]{fullShare} f := by
  rw [← pointsTo_biUnion Finset.univ (ℓ := flLoc d) flSet fl_disjoint, fl_cover]; try rfl
/-- The result array whole, at one function, is its thirty-two parts at that function. -/
theorem ou_parts (d : Dev nD) (f : Buf (Elt F) (ouLoc d)) :
    (ouLoc d ↦{fullShare} f : sProp 𝕄) = bigSep Finset.univ fun w : Fin 32 => ouLoc d ↦[ouSet w]{fullShare} f := by
  rw [← pointsTo_biUnion Finset.univ (ℓ := ouLoc d) ouSet ou_disjoint, ou_cover]; try rfl

/-! ## The call's operands, split among the workers and joined again -/

section Res

variable [FloatOps F]
variable (fl : (d : Dev nD) → Buf (Elt F) (flLoc d)) (pr : (d : Dev nD) → Buf (Elt F) (prLoc d))
  (cb : (d : Dev nD) → Buf (Elt F) (cbLoc d)) (o₀ : (d : Dev nD) → Buf (Elt F) (ouLoc d))

theorem P_st (d : Dev nD) (c : Fin ((K (F := F)).nCore 0)) :
    (P fl pr cb o₀).st 0 d c = bigSep Finset.univ fun i : Fin 16 => tileGo fl pr cb o₀ d (wid (Fin.cast nCore_zero c) i) := rfl
theorem P_dn (d : Dev nD) (c : Fin ((K (F := F)).nCore 0)) :
    (P fl pr cb o₀).dn 0 d c = bigSep Finset.univ fun i : Fin 16 => tileTd fl pr cb d (wid (Fin.cast nCore_zero c) i) := rfl
theorem P_go (d : Dev nD) (c : Fin ((K (F := F)).nCore 0)) (i : Fin ((K (F := F)).nSub 0)) :
    (P fl pr cb o₀).go 0 d c i = tileGo fl pr cb o₀ d (wid (Fin.cast nCore_zero c) (Fin.cast nSub_zero i)) := rfl
theorem P_td (d : Dev nD) (c : Fin ((K (F := F)).nCore 0)) (i : Fin ((K (F := F)).nSub 0)) :
    (P fl pr cb o₀).td 0 d c i = tileTd fl pr cb d (wid (Fin.cast nCore_zero c) (Fin.cast nSub_zero i)) := rfl

/-- A SparseCore's operands are by definition its sixteen tiles' shares, and its results theirs. -/
theorem vecSplit : (K (F := F)).VecSplit' (P fl pr cb o₀) 0 := by
  intro d c
  have hgo : (bigSep Finset.univ fun i : Fin ((K (F := F)).nSub 0) => (P fl pr cb o₀).go 0 d c i) = (P fl pr cb o₀).st 0 d c := by
    rw [P_st]
    exact bigSep_tasks (F := F) (fun i => tileGo fl pr cb o₀ d (wid (Fin.cast nCore_zero c) i))
  have htd : (bigSep Finset.univ fun i : Fin ((K (F := F)).nSub 0) => (P fl pr cb o₀).td 0 d c i) = (P fl pr cb o₀).dn 0 d c := by
    rw [P_dn]
    exact bigSep_tasks (F := F) (fun i => tileTd fl pr cb d (wid (Fin.cast nCore_zero c) i))
  rw [hgo, htd]
  iintro H; imodintro
  isplitl [H]; · iexact H
  iintro H; iexact H

/-- What the call takes for the two SparseCores is the thirty-two workers' shares. -/
theorem st0_eq (d : Dev nD) :
    (bigSep Finset.univ fun c : Fin ((K (F := F)).nCore 0) => (P fl pr cb o₀).st 0 d c)
      = bigSep Finset.univ fun w : Fin 32 => tileGo fl pr cb o₀ d w := by
  rw [bigSep_wid (F := F) (fun w => tileGo fl pr cb o₀ d w)]
  exact bigSep_cores (F := F) (fun c => bigSep Finset.univ fun i : Fin 16 => tileGo fl pr cb o₀ d (wid c i))
/-- What it hands back is the thirty-two workers' results. -/
theorem dn0_eq (d : Dev nD) :
    (bigSep Finset.univ fun c : Fin ((K (F := F)).nCore 0) => (P fl pr cb o₀).dn 0 d c)
      = bigSep Finset.univ fun w : Fin 32 => tileTd fl pr cb d w := by
  rw [bigSep_wid (F := F) (fun w => tileTd fl pr cb d w)]
  exact bigSep_cores (F := F) (fun c => bigSep Finset.univ fun i : Fin 16 => tileTd fl pr cb d (wid c i))

/-- The four operand arrays whole are the thirty-two workers' shares and the two remainders of the read shares. -/
theorem split32 (d : Dev nD) (o : Buf (Elt F) (ouLoc d)) :
    iprop((flLoc d ↦{fullShare} fl d) ∗ (prLoc d ↦{fullShare} pr d) ∗ (cbLoc d ↦{fullShare} cb d) ∗ (ouLoc d ↦{fullShare} o))
      ⊢ (iprop((prLoc d ↦{Transfers.shareDrop fullShare 32} pr d) ∗ (cbLoc d ↦{Transfers.shareDrop fullShare 32} cb d)
          ∗ bigSep Finset.univ fun w : Fin 32 => iprop(tileIn fl pr cb d w ∗ (ouLoc d ↦[ouSet w]{fullShare} o))) : sProp 𝕄) := by
  rw [bigSep_sep', bigSep_sep', bigSep_sep']
  iintro ⟨Hfl, Hpr, Hcb, Hou⟩
  ihave Hpr' := (Transfers.pointsTo_toks_split fullShare 32) $$ Hpr
  icases Hpr' with ⟨Hprd, Hprs⟩
  ihave Hcb' := (Transfers.pointsTo_toks_split fullShare 32) $$ Hcb
  icases Hcb' with ⟨Hcbd, Hcbs⟩
  ihave Hfls := (Entails.of_eq (fl_parts (F := F) d (fl d))) $$ Hfl
  ihave Hous := (Entails.of_eq (ou_parts (F := F) d o)) $$ Hou
  isplitl [Hprd]; · iexact Hprd
  isplitl [Hcbd]; · iexact Hcbd
  isplitl [Hfls Hprs Hcbs]
  · isplitl [Hfls]; · iexact Hfls
    isplitl [Hprs]; · iexact Hprs
    iexact Hcbs
  · iexact Hous

/-- And back. -/
theorem join32 (d : Dev nD) (o : Buf (Elt F) (ouLoc d)) :
    (iprop((prLoc d ↦{Transfers.shareDrop fullShare 32} pr d) ∗ (cbLoc d ↦{Transfers.shareDrop fullShare 32} cb d)
          ∗ bigSep Finset.univ fun w : Fin 32 => iprop(tileIn fl pr cb d w ∗ (ouLoc d ↦[ouSet w]{fullShare} o))) : sProp 𝕄)
      ⊢ iprop((flLoc d ↦{fullShare} fl d) ∗ (prLoc d ↦{fullShare} pr d) ∗ (cbLoc d ↦{fullShare} cb d) ∗ (ouLoc d ↦{fullShare} o)) := by
  rw [bigSep_sep', bigSep_sep', bigSep_sep']
  iintro ⟨Hprd, Hcbd, ⟨Hfls, Hprs, Hcbs⟩, Hous⟩
  isplitl [Hfls]; · iapply (Entails.of_eq (fl_parts (F := F) d (fl d)).symm); iexact Hfls
  isplitl [Hprd Hprs]
  · iapply (Transfers.pointsTo_toks_join fullShare 32)
    isplitl [Hprd]; · iexact Hprd
    iexact Hprs
  isplitl [Hcbd Hcbs]
  · iapply (Transfers.pointsTo_toks_join fullShare 32)
    isplitl [Hcbd]; · iexact Hcbd
    iexact Hcbs
  iapply (Entails.of_eq (ou_parts (F := F) d o).symm); iexact Hous

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P fl pr cb o₀).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) fl pr cb o₀).x q thr) = bigSep Finset.univ fun _ => iprop(emp) from
    bigSep_congr fun _ _ => bigSep_univ_of_subsingleton (0 : Fin 1), bigSep_emp']
  iempintro

end Res

/-! ## @main on the TensorCore -/

section Launch

variable [FloatOps F]
variable (m : (ℓ : Loc nD τ sig) → Buf (Elt F) ℓ) (ρ : Dev nD → PrngReg)

/-- The call's operands as the host operations compute them from the arguments, and the result array as launched. -/
abbrev flM (d : Dev nD) : Buf (Elt F) (flLoc d) := HostVals.flatOf (m (a0Loc d))
abbrev prM (d : Dev nD) : Buf (Elt F) (prLoc d) := HostVals.pairOf (m (a1Loc d)) (m (a2Loc d))
abbrev cbM (d : Dev nD) : Buf (Elt F) (cbLoc d) := HostVals.coefBlockOf (m (a4Loc d))
abbrev o₀M (d : Dev nD) : Buf (Elt F) (ouLoc d) := m (ouLoc d)

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

/-- The five host operations, as the program spells them. -/
abbrev opFl : HloOp τ sig (Elt F) := StableHlo.reshape main_arg0 main_v0 rfl shapeCasts_S4096x200_S819200
abbrev opPr : HloOp τ sig (Elt F) :=
  StableHlo.binary main_arg1 main_arg2 main_v1 ((fun a b => concatenate S1000000x128 1 [⟨S1000000x64, a⟩, ⟨S1000000x64, b⟩] concatenates_S1000000x64_S1000000x64_S1000000x128_d1) : (⟨S1000000x64, .f32⟩ : BufTy).Contents (Elt F) → (⟨S1000000x64, .f32⟩ : BufTy).Contents (Elt F) → (⟨S1000000x128, .f32⟩ : BufTy).Contents (Elt F))
abbrev opC1 : HloOp τ sig (Elt F) :=
  StableHlo.unary main_arg4 main_v2 (broadcastInDim S2x1 ![0] bcast_S2_S2x1_0 : (⟨S2, .f32⟩ : BufTy).Contents (Elt F) → (⟨S2x1, .f32⟩ : BufTy).Contents (Elt F))
abbrev opC2 : HloOp τ sig (Elt F) :=
  StableHlo.unary main_v2 main_v3 (broadcastInDim S2x16 ![0, 1] bcast_S2x1_S2x16_0_1 : (⟨S2x1, .f32⟩ : BufTy).Contents (Elt F) → (⟨S2x16, .f32⟩ : BufTy).Contents (Elt F))
abbrev opRs : HloOp τ sig (Elt F) := StableHlo.reshape main_v4 main_v5 rfl shapeCasts_S409600x128_S4096x200x64

theorem hFl : (opFl (F := F)).bufs ⊆ tcRefs τ sig := StableHlo.reshape_bufs_sub _ _ _ _ _ _
theorem hPr : (opPr (F := F)).bufs ⊆ tcRefs τ sig := StableHlo.binary_bufs_sub _ _ _ _ _ _ _
theorem hC1 : (opC1 (F := F)).bufs ⊆ tcRefs τ sig := StableHlo.unary_bufs_sub _ _ _ _ _
theorem hC2 : (opC2 (F := F)).bufs ⊆ tcRefs τ sig := StableHlo.unary_bufs_sub _ _ _ _ _
theorem hRs : (opRs (F := F)).bufs ⊆ tcRefs τ sig := StableHlo.reshape_bufs_sub _ _ _ _ _ _

/-- The launch contents; after the four operations before the call; after the call. -/
def V0 (d : Dev nD) : Valuation τ sig (Elt F) := fun b => m (d, b)
abbrev Va (d : Dev nD) : Valuation τ sig (Elt F) := after [opFl, opPr, opC1, opC2] (V0 m d)
def Vc (d : Dev nD) : Valuation τ sig (Elt F) := Function.update (Va m d) v4' (outF (flM m) (prM m) (cbM m) d)

theorem unscoped_all : (Finset.univ.filter fun b : Ref sig .tc => ¬ b.isScoped) = Finset.univ := by decide

theorem unscoped_held (d : Dev nD) :
    (unscopedBufs d (fun b => m ((SparseCore.T d).loc b)) : sProp 𝕄) = held (T d) (tcRefs τ sig) (V0 m d) := by
  unfold unscopedBufs held tcRefs
  rw [unscoped_all, bigSep_map]; rfl

/-- What the four operations leave: each operand array at the host function of the arguments, the rest untouched. -/
theorem Va_v0 (d : Dev nD) : Va m d v0' = flM m d := by
  show after [opFl, opPr, opC1, opC2] (V0 m d) (Proc.devRef .tc main_v0) = _
  after_results
  rfl
theorem Va_v1 (d : Dev nD) : Va m d v1' = prM m d := by
  show after [opFl, opPr, opC1, opC2] (V0 m d) (Proc.devRef .tc main_v1) = _
  after_results
  rfl
theorem Va_v3 (d : Dev nD) : Va m d v3' = cbM m d := by
  show after [opFl, opPr, opC1, opC2] (V0 m d) (Proc.devRef .tc main_v3) = _
  after_results
  rfl
theorem Va_v4 (d : Dev nD) : Va m d v4' = o₀M m d := by
  show after [opFl, opPr, opC1, opC2] (V0 m d) (Proc.devRef .tc main_v4) = _
  after_results
  rfl
theorem Va_a0 (d : Dev nD) : Va m d a0' = m (a0Loc d) := by
  show after [opFl, opPr, opC1, opC2] (V0 m d) (Proc.devRef .tc main_arg0) = _
  after_results
  rfl
theorem Va_a1 (d : Dev nD) : Va m d a1' = m (a1Loc d) := by
  show after [opFl, opPr, opC1, opC2] (V0 m d) (Proc.devRef .tc main_arg1) = _
  after_results
  rfl
theorem Va_a2 (d : Dev nD) : Va m d a2' = m (a2Loc d) := by
  show after [opFl, opPr, opC1, opC2] (V0 m d) (Proc.devRef .tc main_arg2) = _
  after_results
  rfl
theorem Va_a3 (d : Dev nD) : Va m d a3' = m (a3Loc d) := by
  show after [opFl, opPr, opC1, opC2] (V0 m d) (Proc.devRef .tc main_arg3) = _
  after_results
  rfl
theorem Va_a4 (d : Dev nD) : Va m d a4' = m (a4Loc d) := by
  show after [opFl, opPr, opC1, opC2] (V0 m d) (Proc.devRef .tc main_arg4) = _
  after_results
  rfl

/-- The call's four arrays; the claim's six. -/
abbrev T4 : Finset (DevRef τ sig) := {v0', v1', v3', v4'}
abbrev T6 : Finset (DevRef τ sig) := {a0', a1', a2', a3', a4', v5'}

theorem hT4 : T4 ⊆ tcRefs τ sig := by
  intro b hb
  simp only [T4, Finset.mem_insert, Finset.mem_singleton] at hb
  rcases hb with rfl | rfl | rfl | rfl <;> exact devRef_mem_tcRefs _
theorem hT6 : T6 ⊆ tcRefs τ sig := by
  intro b hb
  simp only [T6, Finset.mem_insert, Finset.mem_singleton] at hb
  rcases hb with rfl | rfl | rfl | rfl | rfl | rfl <;> exact devRef_mem_tcRefs _

omit [FloatOps F] in
theorem held_T4 (d : Dev nD) (W : Valuation τ sig (Elt F)) :
    (held (T d) T4 W : sProp 𝕄)
      = iprop((flLoc d ↦{fullShare} W v0') ∗ (prLoc d ↦{fullShare} W v1') ∗ (cbLoc d ↦{fullShare} W v3') ∗ (ouLoc d ↦{fullShare} W v4')) := by
  unfold held T4
  rw [SparseCore.bigSep_insert' (by decide), SparseCore.bigSep_insert' (by decide), SparseCore.bigSep_insert' (by decide), bigSep_singleton]

omit [FloatOps F] in
theorem held_T6 (d : Dev nD) (W : Valuation τ sig (Elt F)) :
    (held (T d) T6 W : sProp 𝕄)
      = iprop((a0Loc d ↦{fullShare} W a0') ∗ (a1Loc d ↦{fullShare} W a1') ∗ (a2Loc d ↦{fullShare} W a2') ∗ (a3Loc d ↦{fullShare} W a3')
          ∗ (a4Loc d ↦{fullShare} W a4') ∗ (rsLoc d ↦{fullShare} W v5')) := by
  unfold held T6
  rw [SparseCore.bigSep_insert' (by decide), SparseCore.bigSep_insert' (by decide), SparseCore.bigSep_insert' (by decide),
    SparseCore.bigSep_insert' (by decide), SparseCore.bigSep_insert' (by decide), bigSep_singleton]

/-- Before the call: the four arrays out of everything held. -/
theorem held_Va (d : Dev nD) :
    (held (T d) (tcRefs τ sig) (Va m d) : sProp 𝕄)
      = iprop(((flLoc d ↦{fullShare} flM m d) ∗ (prLoc d ↦{fullShare} prM m d) ∗ (cbLoc d ↦{fullShare} cbM m d) ∗ (ouLoc d ↦{fullShare} o₀M m d))
          ∗ held (T d) (tcRefs τ sig \ T4) (Va m d)) := by
  rw [held_sub_split (T d) hT4 (Va m d), held_T4, Va_v0, Va_v1, Va_v3, Va_v4]

/-- The same, the contents spelt operation by operation as the program's run leaves them. -/
theorem held_Va' (d : Dev nD) :
    (held (T d) (tcRefs τ sig) ((opC2 (F := F)).result ((opC1 (F := F)).result ((opPr (F := F)).result ((opFl (F := F)).result (V0 m d))))) : sProp 𝕄)
      = iprop(((flLoc d ↦{fullShare} flM m d) ∗ (prLoc d ↦{fullShare} prM m d) ∗ (cbLoc d ↦{fullShare} cbM m d) ∗ (ouLoc d ↦{fullShare} o₀M m d))
          ∗ held (T d) (tcRefs τ sig \ T4) (Va m d)) := held_Va m d

theorem Vc_v0 (d : Dev nD) : Vc m d v0' = flM m d := (Function.update_of_ne (show v0' ≠ v4' by decide) _ _).trans (Va_v0 m d)
theorem Vc_v1 (d : Dev nD) : Vc m d v1' = prM m d := (Function.update_of_ne (show v1' ≠ v4' by decide) _ _).trans (Va_v1 m d)
theorem Vc_v3 (d : Dev nD) : Vc m d v3' = cbM m d := (Function.update_of_ne (show v3' ≠ v4' by decide) _ _).trans (Va_v3 m d)
theorem Vc_v4 (d : Dev nD) : Vc m d v4' = outF (flM m) (prM m) (cbM m) d := Function.update_self _ _ _
theorem Vc_rest (d : Dev nD) : ∀ b ∈ tcRefs τ sig \ T4, Vc m d b = Va m d b := fun b hb =>
  Function.update_of_ne (fun e : b = v4' => (Finset.mem_sdiff.mp hb).2 (e.symm ▸ (show v4' ∈ T4 by decide))) _ _

/-- After the call: the four arrays back among everything held, the result array at the call's function. -/
theorem held_Vc (d : Dev nD) :
    (held (T d) (tcRefs τ sig) (Vc m d) : sProp 𝕄)
      = iprop(((flLoc d ↦{fullShare} flM m d) ∗ (prLoc d ↦{fullShare} prM m d) ∗ (cbLoc d ↦{fullShare} cbM m d)
            ∗ (ouLoc d ↦{fullShare} outF (flM m) (prM m) (cbM m) d))
          ∗ held (T d) (tcRefs τ sig \ T4) (Va m d)) := by
  rw [held_sub_split (T d) hT4 (Vc m d), held_T4, Vc_v0, Vc_v1, Vc_v3, Vc_v4, held_congr (T d) (Vc_rest m d)]

/-- What the last reshape leaves at the claim's six arrays. -/
theorem Vf_a0 (d : Dev nD) : (opRs (F := F)).result (Vc m d) a0' = m (a0Loc d) :=
  (StableHlo.reshape_result_ne _ _ _ _ _ _ _ (show (main_arg0 : Ref sig .tc) ≠ main_v5 by decide)).trans
    ((Function.update_of_ne (show a0' ≠ v4' by decide) _ _).trans (Va_a0 m d))
theorem Vf_a1 (d : Dev nD) : (opRs (F := F)).result (Vc m d) a1' = m (a1Loc d) :=
  (StableHlo.reshape_result_ne _ _ _ _ _ _ _ (show (main_arg1 : Ref sig .tc) ≠ main_v5 by decide)).trans
    ((Function.update_of_ne (show a1' ≠ v4' by decide) _ _).trans (Va_a1 m d))
theorem Vf_a2 (d : Dev nD) : (opRs (F := F)).result (Vc m d) a2' = m (a2Loc d) :=
  (StableHlo.reshape_result_ne _ _ _ _ _ _ _ (show (main_arg2 : Ref sig .tc) ≠ main_v5 by decide)).trans
    ((Function.update_of_ne (show a2' ≠ v4' by decide) _ _).trans (Va_a2 m d))
theorem Vf_a3 (d : Dev nD) : (opRs (F := F)).result (Vc m d) a3' = m (a3Loc d) :=
  (StableHlo.reshape_result_ne _ _ _ _ _ _ _ (show (main_arg3 : Ref sig .tc) ≠ main_v5 by decide)).trans
    ((Function.update_of_ne (show a3' ≠ v4' by decide) _ _).trans (Va_a3 m d))
theorem Vf_a4 (d : Dev nD) : (opRs (F := F)).result (Vc m d) a4' = m (a4Loc d) :=
  (StableHlo.reshape_result_ne _ _ _ _ _ _ _ (show (main_arg4 : Ref sig .tc) ≠ main_v5 by decide)).trans
    ((Function.update_of_ne (show a4' ≠ v4' by decide) _ _).trans (Va_a4 m d))
theorem Vf_v5 (d : Dev nD) : (opRs (F := F)).result (Vc m d) v5' = HostVals.resOf (outF (flM m) (prM m) (cbM m) d) := by
  show (opRs (F := F)).result (Vc m d) (Proc.devRef .tc main_v5) = _
  rw [StableHlo.reshape_result, show Vc m d (Proc.devRef .tc main_v4) = outF (flM m) (prM m) (cbM m) d from Vc_v4 m d]
  rfl

/-- What @main leaves the claim: the five arguments as launched, the result the reshaped call result. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ (a3Loc d ↦{fullShare} m (a3Loc d)) ∗ (a4Loc d ↦{fullShare} m (a4Loc d))
    ∗ (rsLoc d ↦{fullShare} HostVals.resOf (outF (flM m) (prM m) (cbM m) d)))

theorem held_Vf (d : Dev nD) :
    (held (T d) (tcRefs τ sig) ((opRs (F := F)).result (Vc m d)) : sProp 𝕄)
      = iprop(FIN m d ∗ held (T d) (tcRefs τ sig \ T6) ((opRs (F := F)).result (Vc m d))) := by
  rw [held_sub_split (T d) hT6 ((opRs (F := F)).result (Vc m d)), held_T6, Vf_a0, Vf_a1, Vf_a2, Vf_a3, Vf_a4, Vf_v5]

/-- @main on device d's TensorCore: the four host operations, the call, the last reshape. -/
theorem hmain (κ : GSem nD τ sig → ℕ) (d : Dev nD) :
    iprop((K (F := F)).ctx EH (P (flM m) (prM m) (cbM m) (o₀M m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the four host operations before the call
  iapply (wp_hlo_within 𝒱 (SparseCore.T d) none Set.univ (op := opFl) (S := tcRefs τ sig) hFl (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opPr) (S := tcRefs τ sig) hPr (V := (opFl (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := opC1) (S := tcRefs τ sig) hC1
      (V := (opPr (F := F)).result ((opFl (F := F)).result (V0 m d)))) $$ [Hb Hheld]
  · isplitl [Hb]; · iexact Hb
    iexact Hheld
  iintro ⟨Hb, Hheld⟩
  rw [wp_ret]; imodintro
  iapply (wp_hlo_within 𝒱 (SparseCore.T d) none Set.univ (op := opC2) (S := tcRefs τ sig) hC2
      (V := (opC1 (F := F)).result ((opPr (F := F)).result ((opFl (F := F)).result (V0 m d))))) $$ [Hb Hheld]
  · isplitl [Hb]; · iexact Hb
    iexact Hheld
  iintro ⟨Hb, Hheld⟩
  rw [wp_ret]; imodintro
  -- the call: the four operand arrays out, split among the thirty-two workers
  ihave Hh := (Entails.of_eq (held_Va' (F := F) m d)) $$ Hheld
  icases Hh with ⟨⟨Hfl, Hpr, Hcb, Hou⟩, Hrest⟩
  ihave Hsp := (split32 (flM m) (prM m) (cbM m) d (o₀M m d)) $$ [Hfl Hpr Hcb Hou]
  · isplitl [Hfl]; · iexact Hfl
    isplitl [Hpr]; · iexact Hpr
    isplitl [Hcb]; · iexact Hcb
    iexact Hou
  icases Hsp with ⟨Hprd, Hcbd, Hgo⟩
  iapply ((K (F := F)).wp_run (D (F := F)) 𝒱 (EH := EH) (P := P (flM m) (prM m) (cbM m) (o₀M m)) κ d 0) $$ [Hst Hgo Hb Hrest Hprd Hcbd]
  isplitr; · iexact Hctx
  isplitl [Hst]; · iexact Hst
  isplitl [Hgo]
  · rw [st0_eq]; iexact Hgo
  iintro ⟨Hst, Hdn⟩
  -- back: the workers' results joined, the result rows at the call's one function
  ihave Hdn' := (Entails.of_eq (dn0_eq (flM m) (prM m) (cbM m) (o₀M m) d)) $$ Hdn
  ihave Hj := (join32 (flM m) (prM m) (cbM m) d (outF (flM m) (prM m) (cbM m) d)) $$ [Hprd Hcbd Hdn']
  · isplitl [Hprd]; · iexact Hprd
    isplitl [Hcbd]; · iexact Hcbd
    iexact Hdn'
  icases Hj with ⟨Hfl, Hpr, Hcb, Hou⟩
  -- the last reshape
  iapply (wp_hlo_within 𝒱 (SparseCore.T d) none Set.univ (op := opRs) (S := tcRefs τ sig) hRs (V := Vc m d)) $$ [Hb Hfl Hpr Hcb Hou Hrest]
  · isplitl [Hb]; · iexact Hb
    rw [held_Vc]
    isplitl [Hfl Hpr Hcb Hou]
    · isplitl [Hfl]; · iexact Hfl
      isplitl [Hpr]; · iexact Hpr
      isplitl [Hcb]; · iexact Hcb
      iexact Hou
    iexact Hrest
  iintro ⟨Hb, Hheld⟩
  ihave Hh := (Entails.of_eq (held_Vf (F := F) m d)) $$ Hheld
  icases Hh with ⟨Hfin, -⟩
  rw [wp_ret]; imodintro; imodintro
  isplitl [Hst]; · iexact Hst
  iexact Hfin

def fq (d : Dev nD) (s' : Phys nD τ sig (Elt F)) : Prop :=
  s'.mem.mem (rsLoc d) = HostVals.resOf (outF (flM m) (prM m) (cbM m) d) ∧ s'.mem.mem (a0Loc d) = m (a0Loc d) ∧ s'.mem.mem (a1Loc d) = m (a1Loc d)
    ∧ s'.mem.mem (a2Loc d) = m (a2Loc d) ∧ s'.mem.mem (a3Loc d) = m (a3Loc d) ∧ s'.mem.mem (a4Loc d) = m (a4Loc d)

set_option maxRecDepth 16384 in
theorem hfin (d : Dev nD) (s' : Phys nD τ sig (Elt F)) : iprop(FIN m d ∗ SI s') ⊢ (⌜fq m d s'⌝ : sProp 𝕄) := by
  iintro ⟨⟨H0, H1, H2, H3, H4, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI H3]
  · isplitl [HSI] <;> iassumption
  icases H with ⟨%h3, HSI, -⟩
  ihave H := (persistent_entails_right (SI_pointsTo_agree (st := s') (ℓ := a4Loc d) (I := Finset.univ) (q := fullShare) (f := m (a4Loc d)))) $$ [HSI H4]
  · isplitl [HSI] <;> iassumption
  icases H with ⟨%h4, HSI, -⟩
  ihave H := (SI_pointsTo_agree (st := s') (ℓ := rsLoc d) (I := Finset.univ) (q := fullShare)
      (f := HostVals.resOf (outF (flM m) (prM m) (cbM m) d))) $$ [HSI Hr]
  · isplitl [HSI] <;> iassumption
  icases H with %hr
  ipureintro
  exact ⟨funext fun i => hr i (Finset.mem_univ i), funext fun i => h0 i (Finset.mem_univ i), funext fun i => h1 i (Finset.mem_univ i),
    funext fun i => h2 i (Finset.mem_univ i), funext fun i => h3 i (Finset.mem_univ i), funext fun i => h4 i (Finset.mem_univ i)⟩

/-! ## The program's run -/

def QC : PUnit × MemSt nD τ sig (Elt F) → Prop := fun r =>
  ∀ c : Dev nD, r.2.mem (rsLoc c) = HostVals.resOf (outF (flM m) (prM m) (cbM m) c) ∧ r.2.mem (a0Loc c) = m (a0Loc c) ∧ r.2.mem (a1Loc c) = m (a1Loc c)
    ∧ r.2.mem (a2Loc c) = m (a2Loc c) ∧ r.2.mem (a3Loc c) = m (a3Loc c) ∧ r.2.mem (a4Loc c) = m (a4Loc c)

/-- From one tile's obligation: every weakly fair execution of the whole program ends, the arguments unchanged and the
    result array the reshaped call result. -/
theorem run_main [∀ e, Nonempty (Elt F e)]
    (hT : (K (F := F)).TileObl (D (F := F)) 𝒱 (P (flM m) (prM m) (cbM m) (o₀M m)) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (flM m) (prM m) (cbM m) (o₀M m)) facts v₀
    (fun q hq => match q with | 0 => nomatch hq)
    (fun q _ => match q with | 0 => hT)
    (fun q _ => match q with | 0 => SparseCore.Cfg.VecSplit.of_plain (vecSplit (flM m) (prM m) (cbM m) (o₀M m)))
    m ρ main (fun _ => iprop(emp)) (FIN m) (u₀ (F := F)) (sep_elim_left.trans (hu₀ (flM m) (prM m) (cbM m) (o₀M m))) (hmain m ρ) (fq m) (hfin m) (QC m) (fun _ h => h)

end Launch

end Cert.Proof.KB

end
-- ==== Proof.KBTile0.lean ====
-- The text of module Tile0, read over the word-level program in place of the idealized one.
/-
  One tile of the gather-and-merge call: its thread, its worker number, the arrays and scratch buffers as its body
  names them, and its ten DMA semaphores and six scratch buffers singled out of what the tile owns.
-/
import proofs.«205127_g70231305225025_cont_9to1c4b_198_32_alg».proof.Proof.KBCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The tile at grid coordinates L -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- Its worker number 2·(L 1) + (L 0). -/
abbrev wL (L : grid0.Coords) : Fin 32 := wid (Fin.cast bound_zero (L 0)) (Fin.cast bound_one (L 1))
theorem wL_val (L : grid0.Coords) : (wL L).val = 2 * (L 1).val + (L 0).val := rfl

/-- The arrays and the scratch buffers, as the body table passes them. -/
abbrev flV : Memref sig .scVector .hbm S819200 .i32 := Memref.whole main_v0_scv
abbrev prV : Memref sig .scVector .hbm S1000000x128 .f32 := Memref.whole main_v1_scv
abbrev cbV : Memref sig .scVector .hbm S2x16 .f32 := Memref.whole main_v3_scv
abbrev ouV : Memref sig .scVector .hbm S409600x128 .f32 := Memref.whole main_v4_scv
/-- The token scratch, the four slots, the coefficient scratch. -/
abbrev tkS : Memref sig .scVector .vmem S25600 .i32 := Memref.whole cc0_scratch0
abbrev sl0 : Memref sig .scVector .vmem S128x128 .f32 := Memref.whole cc0_scratch1
abbrev sl1 : Memref sig .scVector .vmem S128x128 .f32 := Memref.whole cc0_scratch2
abbrev sl2 : Memref sig .scVector .vmem S128x128 .f32 := Memref.whole cc0_scratch3
abbrev sl3 : Memref sig .scVector .vmem S128x128 .f32 := Memref.whole cc0_scratch4
abbrev cfS : Memref sig .scVector .vmem S2x16 .f32 := Memref.whole cc0_scratch5

section Tile

variable (d : Dev nD) (L : grid0.Coords)

/-- The tile's cell of DMA semaphore k. -/
abbrev cellOf (k : DmaSem sig) : GSem nD τ sig := (V d (cV L) (jV L), .dma k)

theorem cellOf_ne {k k' : DmaSem sig} (h : k ≠ k') : cellOf d L k ≠ cellOf d L k' :=
  fun e => h (SemLoc.dma.inj (Prod.mk.inj e).2)

/-- The tile's ten DMA semaphores, all at zero, and the rest of what it owns of semaphores. -/
theorem ownSems0_V :
    (ownSems0 (V d (cV L) (jV L)) : sProp 𝕄)
      = iprop(semVal ((V d (cV L) (jV L), SemLoc.dma cc0_scratch6.sem) : GSem nD τ sig) 0 ∗ semVal ((V d (cV L) (jV L), SemLoc.dma cc0_scratch7.sem) : GSem nD τ sig) 0 ∗ semVal ((V d (cV L) (jV L), SemLoc.dma cc0_scratch8.sem) : GSem nD τ sig) 0 ∗ semVal ((V d (cV L) (jV L), SemLoc.dma cc0_scratch9.sem) : GSem nD τ sig) 0 ∗ semVal ((V d (cV L) (jV L), SemLoc.dma cc0_scratch10.sem) : GSem nD τ sig) 0 ∗ semVal ((V d (cV L) (jV L), SemLoc.dma cc0_scratch11.sem) : GSem nD τ sig) 0 ∗ semVal ((V d (cV L) (jV L), SemLoc.dma cc0_scratch12.sem) : GSem nD τ sig) 0 ∗ semVal ((V d (cV L) (jV L), SemLoc.dma cc0_scratch13.sem) : GSem nD τ sig) 0 ∗ semVal ((V d (cV L) (jV L), SemLoc.dma cc0_scoped0.sem) : GSem nD τ sig) 0 ∗ semVal ((V d (cV L) (jV L), SemLoc.dma cc0_scoped1.sem) : GSem nD τ sig) 0
          ∗ bigSep (((((((((((ownCells (V d (cV L) (jV L))).erase (cellOf d L cc0_scratch6.sem)).erase (cellOf d L cc0_scratch7.sem)).erase (cellOf d L cc0_scratch8.sem)).erase (cellOf d L cc0_scratch9.sem)).erase (cellOf d L cc0_scratch10.sem)).erase (cellOf d L cc0_scratch11.sem)).erase (cellOf d L cc0_scratch12.sem)).erase (cellOf d L cc0_scratch13.sem)).erase (cellOf d L cc0_scoped0.sem)).erase (cellOf d L cc0_scoped1.sem)) fun g => semVal g 0) := by
  unfold SparseCore.Cfg.ownSems0
  rw [SparseCore.bigSep_erase' ((mem_ownCells (g := cellOf d L cc0_scratch6.sem)).mpr ⟨rfl, by show (SemLoc.dma cc0_scratch6.sem : SemLoc sig).isScoped .scVector = true; decide⟩),
    SparseCore.bigSep_erase' (Finset.mem_erase.mpr ⟨cellOf_ne d L (by decide : (cc0_scratch7.sem : DmaSem sig) ≠ cc0_scratch6.sem), (mem_ownCells (g := cellOf d L cc0_scratch7.sem)).mpr ⟨rfl, by show (SemLoc.dma cc0_scratch7.sem : SemLoc sig).isScoped .scVector = true; decide⟩⟩),
    SparseCore.bigSep_erase' (Finset.mem_erase.mpr ⟨cellOf_ne d L (by decide : (cc0_scratch8.sem : DmaSem sig) ≠ cc0_scratch7.sem), Finset.mem_erase.mpr ⟨cellOf_ne d L (by decide : (cc0_scratch8.sem : DmaSem sig) ≠ cc0_scratch6.sem), (mem_ownCells (g := cellOf d L cc0_scratch8.sem)).mpr ⟨rfl, by show (SemLoc.dma cc0_scratch8.sem : SemLoc sig).isScoped .scVector = true; decide⟩⟩⟩),
    SparseCore.bigSep_erase' (Finset.mem_erase.mpr ⟨cellOf_ne d L (by decide : (cc0_scratch9.sem : DmaSem sig) ≠ cc0_scratch8.sem), Finset.mem_erase.mpr ⟨cellOf_ne d L (by decide : (cc0_scratch9.sem : DmaSem sig) ≠ cc0_scratch7.sem), Finset.mem_erase.mpr ⟨cellOf_ne d L (by decide : (cc0_scratch9.sem : DmaSem sig) ≠ cc0_scratch6.sem), (mem_ownCells (g := cellOf d L cc0_scratch9.sem)).mpr ⟨rfl, by show (SemLoc.dma cc0_scratch9.sem : SemLoc sig).isScoped .scVector = true; decide⟩⟩⟩⟩),
    SparseCore.bigSep_erase' (Finset.mem_erase.mpr ⟨cellOf_ne d L (by decide : (cc0_scratch10.sem : DmaSem sig) ≠ cc0_scratch9.sem), Finset.mem_erase.mpr ⟨cellOf_ne d L (by decide : (cc0_scratch10.sem : DmaSem sig) ≠ cc0_scratch8.sem), Finset.mem_erase.mpr ⟨cellOf_ne d L (by decide : (cc0_scratch10.sem : DmaSem sig) ≠ cc0_scratch7.sem), Finset.mem_erase.mpr ⟨cellOf_ne d L (by decide : (cc0_scratch10.sem : DmaSem sig) ≠ cc0_scratch6.sem), (mem_ownCells (g := cellOf d L cc0_scratch10.sem)).mpr ⟨rfl, by show (SemLoc.dma cc0_scratch10.sem : SemLoc sig).isScoped .scVector = true; decide⟩⟩⟩⟩⟩),
    SparseCore.bigSep_erase' (Finset.mem_erase.mpr ⟨cellOf_ne d L (by decide : (cc0_scratch11.sem : DmaSem sig) ≠ cc0_scratch10.sem), Finset.mem_erase.mpr ⟨cellOf_ne d L (by decide : (cc0_scratch11.sem : DmaSem sig) ≠ cc0_scratch9.sem), Finset.mem_erase.mpr ⟨cellOf_ne d L (by decide : (cc0_scratch11.sem : DmaSem sig) ≠ cc0_scratch8.sem), Finset.mem_erase.mpr ⟨cellOf_ne d L (by decide : (cc0_scratch11.sem : DmaSem sig) ≠ cc0_scratch7.sem), Finset.mem_erase.mpr ⟨cellOf_ne d L (by decide : (cc0_scratch11.sem : DmaSem sig) ≠ cc0_scratch6.sem), (mem_ownCells (g := cellOf d L cc0_scratch11.sem)).mpr ⟨rfl, by show (SemLoc.dma cc0_scratch11.sem : SemLoc sig).isScoped .scVector = true; decide⟩⟩⟩⟩⟩⟩),
    SparseCore.bigSep_erase' (Finset.mem_erase.mpr ⟨cellOf_ne d L (by decide : (cc0_scratch12.sem : DmaSem sig) ≠ cc0_scratch11.sem), Finset.mem_erase.mpr ⟨cellOf_ne d L (by decide : (cc0_scratch12.sem : DmaSem sig) ≠ cc0_scratch10.sem), Finset.mem_erase.mpr ⟨cellOf_ne d L (by decide : (cc0_scratch12.sem : DmaSem sig) ≠ cc0_scratch9.sem), Finset.mem_erase.mpr ⟨cellOf_ne d L (by decide : (cc0_scratch12.sem : DmaSem sig) ≠ cc0_scratch8.sem), Finset.mem_erase.mpr ⟨cellOf_ne d L (by decide : (cc0_scratch12.sem : DmaSem sig) ≠ cc0_scratch7.sem), Finset.mem_erase.mpr ⟨cellOf_ne d L (by decide : (cc0_scratch12.sem : DmaSem sig) ≠ cc0_scratch6.sem), (mem_ownCells (g := cellOf d L cc0_scratch12.sem)).mpr ⟨rfl, by show (SemLoc.dma cc0_scratch12.sem : SemLoc sig).isScoped .scVector = true; decide⟩⟩⟩⟩⟩⟩⟩),
    SparseCore.bigSep_erase' (Finset.mem_erase.mpr ⟨cellOf_ne d L (by decide : (cc0_scratch13.sem : DmaSem sig) ≠ cc0_scratch12.sem), Finset.mem_erase.mpr ⟨cellOf_ne d L (by decide : (cc0_scratch13.sem : DmaSem sig) ≠ cc0_scratch11.sem), Finset.mem_erase.mpr ⟨cellOf_ne d L (by decide : (cc0_scratch13.sem : DmaSem sig) ≠ cc0_scratch10.sem), Finset.mem_erase.mpr ⟨cellOf_ne d L (by decide : (cc0_scratch13.sem : DmaSem sig) ≠ cc0_scratch9.sem), Finset.mem_erase.mpr ⟨cellOf_ne d L (by decide : (cc0_scratch13.sem : DmaSem sig) ≠ cc0_scratch8.sem), Finset.mem_erase.mpr ⟨cellOf_ne d L (by decide : (cc0_scratch13.sem : DmaSem sig) ≠ cc0_scratch7.sem), Finset.mem_erase.mpr ⟨cellOf_ne d L (by decide : (cc0_scratch13.sem : DmaSem sig) ≠ cc0_scratch6.sem), (mem_ownCells (g := cellOf d L cc0_scratch13.sem)).mpr ⟨rfl, by show (SemLoc.dma cc0_scratch13.sem : SemLoc sig).isScoped .scVector = true; decide⟩⟩⟩⟩⟩⟩⟩⟩),
    SparseCore.bigSep_erase' (Finset.mem_erase.mpr ⟨cellOf_ne d L (by decide : (cc0_scoped0.sem : DmaSem sig) ≠ cc0_scratch13.sem), Finset.mem_erase.mpr ⟨cellOf_ne d L (by decide : (cc0_scoped0.sem : DmaSem sig) ≠ cc0_scratch12.sem), Finset.mem_erase.mpr ⟨cellOf_ne d L (by decide : (cc0_scoped0.sem : DmaSem sig) ≠ cc0_scratch11.sem), Finset.mem_erase.mpr ⟨cellOf_ne d L (by decide : (cc0_scoped0.sem : DmaSem sig) ≠ cc0_scratch10.sem), Finset.mem_erase.mpr ⟨cellOf_ne d L (by decide : (cc0_scoped0.sem : DmaSem sig) ≠ cc0_scratch9.sem), Finset.mem_erase.mpr ⟨cellOf_ne d L (by decide : (cc0_scoped0.sem : DmaSem sig) ≠ cc0_scratch8.sem), Finset.mem_erase.mpr ⟨cellOf_ne d L (by decide : (cc0_scoped0.sem : DmaSem sig) ≠ cc0_scratch7.sem), Finset.mem_erase.mpr ⟨cellOf_ne d L (by decide : (cc0_scoped0.sem : DmaSem sig) ≠ cc0_scratch6.sem), (mem_ownCells (g := cellOf d L cc0_scoped0.sem)).mpr ⟨rfl, by show (SemLoc.dma cc0_scoped0.sem : SemLoc sig).isScoped .scVector = true; decide⟩⟩⟩⟩⟩⟩⟩⟩⟩),
    SparseCore.bigSep_erase' (Finset.mem_erase.mpr ⟨cellOf_ne d L (by decide : (cc0_scoped1.sem : DmaSem sig) ≠ cc0_scoped0.sem), Finset.mem_erase.mpr ⟨cellOf_ne d L (by decide : (cc0_scoped1.sem : DmaSem sig) ≠ cc0_scratch13.sem), Finset.mem_erase.mpr ⟨cellOf_ne d L (by decide : (cc0_scoped1.sem : DmaSem sig) ≠ cc0_scratch12.sem), Finset.mem_erase.mpr ⟨cellOf_ne d L (by decide : (cc0_scoped1.sem : DmaSem sig) ≠ cc0_scratch11.sem), Finset.mem_erase.mpr ⟨cellOf_ne d L (by decide : (cc0_scoped1.sem : DmaSem sig) ≠ cc0_scratch10.sem), Finset.mem_erase.mpr ⟨cellOf_ne d L (by decide : (cc0_scoped1.sem : DmaSem sig) ≠ cc0_scratch9.sem), Finset.mem_erase.mpr ⟨cellOf_ne d L (by decide : (cc0_scoped1.sem : DmaSem sig) ≠ cc0_scratch8.sem), Finset.mem_erase.mpr ⟨cellOf_ne d L (by decide : (cc0_scoped1.sem : DmaSem sig) ≠ cc0_scratch7.sem), Finset.mem_erase.mpr ⟨cellOf_ne d L (by decide : (cc0_scoped1.sem : DmaSem sig) ≠ cc0_scratch6.sem), (mem_ownCells (g := cellOf d L cc0_scoped1.sem)).mpr ⟨rfl, by show (SemLoc.dma cc0_scoped1.sem : SemLoc sig).isScoped .scVector = true; decide⟩⟩⟩⟩⟩⟩⟩⟩⟩⟩)]

/-- The tile's six scratch buffers, at some contents, and the rest of what it owns of buffers. -/
theorem ownBufs_V :
    (ownBufs (V d (cV L) (jV L)) : sProp 𝕄)
      = iprop((∃ f, (tkS).view.loc (V d (cV L) (jV L)) ↦{fullShare} f) ∗ (∃ f, (sl0).view.loc (V d (cV L) (jV L)) ↦{fullShare} f) ∗ (∃ f, (sl1).view.loc (V d (cV L) (jV L)) ↦{fullShare} f) ∗ (∃ f, (sl2).view.loc (V d (cV L) (jV L)) ↦{fullShare} f) ∗ (∃ f, (sl3).view.loc (V d (cV L) (jV L)) ↦{fullShare} f) ∗ (∃ f, (cfS).view.loc (V d (cV L) (jV L)) ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc0_scratch0) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩)]

end Tile

end Cert.Proof.KB

end
-- ==== Proof.KBTileGeom.lean ====
-- The text of module TileGeom, read over the word-level program in place of the idealized one.
/-
  The tile's geometry: which part of the flat token list and which rows of the result array belong to the tile at
  grid coordinates L, and where inside those rows each 64-row chunk lies.

  The tile with worker number w = 2·(L 1) + (L 0) owns tokens [25600·w, 25600·(w + 1)), that is, from
  51200·(L 1) + 25600·(L 0), and result rows [12800·w, 12800·(w + 1)), that is, from 25600·(L 1) + 12800·(L 0).
  Chunk (k, r) of its rows — outer trip k, slot r — is the 64 rows from 256·k + 64·r on.
-/
import proofs.«205127_g70231305225025_cont_9to1c4b_198_32_alg».proof.Proof.KBTile0

noncomputable section

namespace Cert.Proof.KB

open Cert.Kernel Cert.Kernel.Gen

open Idealize.ShloMosaic

/-! ## The tile's tokens -/

/-- The tile's slice of the flat token list, as its body takes it. -/
abbrev flSl (L : grid0.Coords) : Memref sig .scVector .hbm S25600 .i32 :=
  flV.slice (Rect.unit (s := S819200) (k0_off1 L) S25600.size (k0_off1_inb L)) (fun _ => rfl)

/-- The slice's rectangle is the worker's part of the token list: 51200·(L 1) + 25600·(L 0) = 25600·w. -/
theorem flK_eq (L : grid0.Coords) :
    Rect.unit (s := S819200) (k0_off1 L) S25600.size (k0_off1_inb L) = flRect (wL L) := by
  unfold flRect Rect.part Rect.block
  congr 1 <;> funext a
  · rw [k0_off1_eq]
    match a with
    | ⟨0, _⟩ =>
      show 51200 * (L 1).val + 25600 * (L 0).val = (2 * (L 1).val + (L 0).val) * 25600
      omega
  · match a with
    | ⟨0, _⟩ => rfl

/-- The slice covers exactly the worker's tokens. -/
theorem set_flSl (L : grid0.Coords) : (flSl L).view.set = flSet (wL L) := by
  show ((flV : Memref sig .scVector .hbm S819200 .i32).view.slice
      (Rect.unit (s := S819200) (k0_off1 L) S25600.size (k0_off1_inb L))).set
    = ((View.whole (main_v0_scv : Ref sig .scVector)).slice (flRect (wL L))).set
  exact flK_eq L ▸ rfl

/-! ## The tile's result rows -/

theorem ouR_inb (L : grid0.Coords) :
    ∀ a, (![25600 * (L 1).val + 12800 * (L 0).val, 0] : Fin 2 → Nat) a + (![12800, 128] : Fin 2 → Nat) a
      ≤ S409600x128.size a := by
  have h0 : (L 0).val < 2 := (L 0).isLt
  have h1 : (L 1).val < 16 := (L 1).isLt
  intro a
  match a with
  | ⟨0, _⟩ =>
    show 25600 * (L 1).val + 12800 * (L 0).val + 12800 ≤ 409600
    omega
  | ⟨1, _⟩ => exact Nat.le_refl 128

/-- The tile's result rows as one rectangle: 12800 whole rows from 25600·(L 1) + 12800·(L 0). -/
abbrev ouR (L : grid0.Coords) : Rect S409600x128 :=
  Rect.unit (s := S409600x128) ![25600 * (L 1).val + 12800 * (L 0).val, 0] ![12800, 128] (ouR_inb L)

/-- It is the worker's part of the result array: 25600·(L 1) + 12800·(L 0) = 12800·w. -/
theorem ouR_eq (L : grid0.Coords) : ouR L = ouRect (wL L) := by
  unfold ouR ouRect Rect.part Rect.block
  congr 1 <;> funext a
  · match a with
    | ⟨0, _⟩ =>
      show 25600 * (L 1).val + 12800 * (L 0).val = (2 * (L 1).val + (L 0).val) * 12800
      omega
    | ⟨1, _⟩ => rfl
  · match a with
    | ⟨0, _⟩ => rfl
    | ⟨1, _⟩ => rfl

/-- The elements of the result array under that rectangle are exactly the worker's. -/
theorem setOn_ouR (L : grid0.Coords) : (ouV).view.setOn (ouR L).set = ouSet (wL L) := by
  rw [ouR_eq]
  exact (View.set_slice _ _).symm

/-! ## Rows by their number, and the 64-row chunks -/

/-- An index lies in the tile's rows exactly when its row number does. -/
theorem mem_ouR_iff (L : grid0.Coords) (j : S409600x128.Idx) :
    j ∈ (ouR L).set ↔ 25600 * (L 1).val + 12800 * (L 0).val ≤ (j 0).val
      ∧ (j 0).val < 25600 * (L 1).val + 12800 * (L 0).val + 12800 := by
  have h1 : (j 1).val < 128 := (j 1).isLt
  refine Rect.mem_set_unit.trans ?_
  rw [Fin.forall_fin_two]
  show (25600 * (L 1).val + 12800 * (L 0).val ≤ (j 0).val
      ∧ (j 0).val < 25600 * (L 1).val + 12800 * (L 0).val + 12800) ∧ (0 ≤ (j 1).val ∧ (j 1).val < 0 + 128) ↔ _
  exact ⟨fun h => h.1, fun h => ⟨h, Nat.zero_le _, by omega⟩⟩

theorem chR_inb (L : grid0.Coords) (k r : ℕ) (h : 256 * k + 64 * r + 64 ≤ 12800) :
    ∀ a, (![25600 * (L 1).val + 12800 * (L 0).val + 256 * k + 64 * r, 0] : Fin 2 → Nat) a
      + (![64, 128] : Fin 2 → Nat) a ≤ S409600x128.size a := by
  have h0 : (L 0).val < 2 := (L 0).isLt
  have h1 : (L 1).val < 16 := (L 1).isLt
  intro a
  match a with
  | ⟨0, _⟩ =>
    show 25600 * (L 1).val + 12800 * (L 0).val + 256 * k + 64 * r + 64 ≤ 409600
    omega
  | ⟨1, _⟩ => exact Nat.le_refl 128

/-- Chunk (k, r) of the tile's rows: 64 whole rows from 256·k + 64·r on, inside the tile's 12800. -/
abbrev chR (L : grid0.Coords) (k r : ℕ) (h : 256 * k + 64 * r + 64 ≤ 12800) : Rect S409600x128 :=
  Rect.unit (s := S409600x128) ![25600 * (L 1).val + 12800 * (L 0).val + 256 * k + 64 * r, 0] ![64, 128]
    (chR_inb L k r h)

/-- An index lies in chunk (k, r) exactly when its row number does. -/
theorem mem_chR_iff (L : grid0.Coords) (k r : ℕ) (h : 256 * k + 64 * r + 64 ≤ 12800) (j : S409600x128.Idx) :
    j ∈ (chR L k r h).set ↔ 25600 * (L 1).val + 12800 * (L 0).val + 256 * k + 64 * r ≤ (j 0).val
      ∧ (j 0).val < 25600 * (L 1).val + 12800 * (L 0).val + 256 * k + 64 * r + 64 := by
  have h1 : (j 1).val < 128 := (j 1).isLt
  refine Rect.mem_set_unit.trans ?_
  rw [Fin.forall_fin_two]
  show (25600 * (L 1).val + 12800 * (L 0).val + 256 * k + 64 * r ≤ (j 0).val
      ∧ (j 0).val < 25600 * (L 1).val + 12800 * (L 0).val + 256 * k + 64 * r + 64)
      ∧ (0 ≤ (j 1).val ∧ (j 1).val < 0 + 128) ↔ _
  exact ⟨fun h => h.1, fun h => ⟨h, Nat.zero_le _, by omega⟩⟩

/-- Every chunk lies inside the tile's rows. -/
theorem chR_subset (L : grid0.Coords) (k r : ℕ) (h : 256 * k + 64 * r + 64 ≤ 12800) :
    (chR L k r h).set ⊆ (ouR L).set := fun j hj =>
  (mem_ouR_iff L j).2 (by have := (mem_chR_iff L k r h j).1 hj; omega)

/-- Two chunks at different places are disjoint: chunk numbers 4·k + r apart means row ranges apart. -/
theorem chR_disjoint (L : grid0.Coords) (k r k' r' : ℕ) (h : 256 * k + 64 * r + 64 ≤ 12800)
    (h' : 256 * k' + 64 * r' + 64 ≤ 12800) (hne : 4 * k + r ≠ 4 * k' + r') :
    Disjoint (chR L k r h).set (chR L k' r' h').set :=
  Finset.disjoint_left.mpr fun j hj hj' => by
    have := (mem_chR_iff L k r h j).1 hj
    have := (mem_chR_iff L k' r' h' j).1 hj'
    omega

/-- Outer trip k (below 50) and slot r (below 4) name a chunk inside the tile's rows. -/
theorem chR_bound {k r : ℕ} (hk : k < 50) (hr : r < 4) : 256 * k + 64 * r + 64 ≤ 12800 := by omega

/-- The rectangle the body's write-out of slot r in trip k goes through is chunk (k, r). -/
theorem chK_eq (L : grid0.Coords) (k : Fin k0_t1_loop.trips) (r : Fin 4)
    (h : 256 * k.val + 64 * r.val + 64 ≤ 12800) :
    Rect.unit (s := S409600x128) (k0_off27 L k (BitVec.ofNat 32 r.val)) S64x128.size (k0_off27_inb L k r)
      = chR L k.val r.val h := by
  unfold chR
  congr 1
  exact k0_off27_eq L k r

end Cert.Proof.KB

end
-- ==== Proof.KBTileShares.lean ====
-- The text of module TileShares, read over the word-level program in place of the idealized one.
import proofs.«205127_g70231305225025_cont_9to1c4b_198_32_alg».proof.Proof.KBTileGeom

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Read tokens: one points-to as a remainder and four tokens, numbered by the gather semaphores 0..3 -/

section Shares

open Transfers (shareDrop shareTokN)

theorem pts_halves {ℓ : Loc nD τ sig} (I : Finset (Idx ℓ)) (f : Buf (Elt F) ℓ) (q : PosShare TreeShare) :
    (ℓ ↦[I]{q} f : sProp 𝕄) = iprop((ℓ ↦[I]{q.left} f) ∗ (ℓ ↦[I]{q.right} f)) :=
  BI.Entails.antisymm (pointsTo_share (PosShare.mem_left_op_right q)).1 (pointsTo_share (PosShare.mem_left_op_right q)).2

/-- One points-to at share q is the remainder after four tokens, and the four tokens. -/
theorem pts_toks4 {ℓ : Loc nD τ sig} (I : Finset (Idx ℓ)) (f : Buf (Elt F) ℓ) (q : PosShare TreeShare) :
    (ℓ ↦[I]{q} f : sProp 𝕄)
      = iprop((ℓ ↦[I]{shareDrop q 4} f) ∗ (ℓ ↦[I]{shareTokN q 0} f) ∗ (ℓ ↦[I]{shareTokN q 1} f)
          ∗ (ℓ ↦[I]{shareTokN q 2} f) ∗ (ℓ ↦[I]{shareTokN q 3} f)) := by
  have e0 : (ℓ ↦[I]{q} f : sProp 𝕄) = iprop((ℓ ↦[I]{shareDrop q 1} f) ∗ (ℓ ↦[I]{shareTokN q 0} f)) := pts_halves I f q
  have e1 : (ℓ ↦[I]{shareDrop q 1} f : sProp 𝕄) = iprop((ℓ ↦[I]{shareDrop q 2} f) ∗ (ℓ ↦[I]{shareTokN q 1} f)) := pts_halves I f _
  have e2 : (ℓ ↦[I]{shareDrop q 2} f : sProp 𝕄) = iprop((ℓ ↦[I]{shareDrop q 3} f) ∗ (ℓ ↦[I]{shareTokN q 2} f)) := pts_halves I f _
  have e3 : (ℓ ↦[I]{shareDrop q 3} f : sProp 𝕄) = iprop((ℓ ↦[I]{shareDrop q 4} f) ∗ (ℓ ↦[I]{shareTokN q 3} f)) := pts_halves I f _
  rw [e0, e1, e2, e3]
  have h1 : (iprop(((((ℓ ↦[I]{shareDrop q 4} f) ∗ ℓ ↦[I]{shareTokN q 3} f) ∗ ℓ ↦[I]{shareTokN q 2} f) ∗ ℓ ↦[I]{shareTokN q 1} f)
        ∗ ℓ ↦[I]{shareTokN q 0} f) : sProp 𝕄)
      ⊢ iprop((ℓ ↦[I]{shareDrop q 4} f) ∗ (ℓ ↦[I]{shareTokN q 0} f) ∗ (ℓ ↦[I]{shareTokN q 1} f)
          ∗ (ℓ ↦[I]{shareTokN q 2} f) ∗ (ℓ ↦[I]{shareTokN q 3} f)) := by
    iintro ⟨⟨⟨⟨Hd, H3⟩, H2⟩, H1⟩, H0⟩
    isplitl [Hd]; · iexact Hd
    isplitl [H0]; · iexact H0
    isplitl [H1]; · iexact H1
    isplitl [H2]; · iexact H2
    iexact H3
  have h2 : (iprop((ℓ ↦[I]{shareDrop q 4} f) ∗ (ℓ ↦[I]{shareTokN q 0} f) ∗ (ℓ ↦[I]{shareTokN q 1} f)
          ∗ (ℓ ↦[I]{shareTokN q 2} f) ∗ (ℓ ↦[I]{shareTokN q 3} f)) : sProp 𝕄)
      ⊢ iprop(((((ℓ ↦[I]{shareDrop q 4} f) ∗ ℓ ↦[I]{shareTokN q 3} f) ∗ ℓ ↦[I]{shareTokN q 2} f) ∗ ℓ ↦[I]{shareTokN q 1} f)
        ∗ ℓ ↦[I]{shareTokN q 0} f) := by
    iintro ⟨Hd, H0, H1, H2, H3⟩
    isplitr [H0]; swap; · iexact H0
    isplitr [H1]; swap; · iexact H1
    isplitr [H2]; swap; · iexact H2
    isplitl [Hd]; · iexact Hd
    iexact H3
  exact BI.Entails.antisymm h1 h2

end Shares

/-! ## The token scratch after the fetch: every word names a row of the pair table -/

section Tok

variable [FloatOps F]
variable (fl : (d : Dev nD) → Buf (Elt F) (flLoc d)) (d : Dev nD) (L : grid0.Coords)

/-- Whatever window of the token scratch a gather reads, and whatever the scratch held before the fetch, the words it
    reads are words of the flat token list, each below 1000000. -/
theorem tok_inb (hin : InRange fl) (r : Rect S25600) (hr : ∀ a, r.stride a = 1)
    (g : Buf (Elt F) ((tkS).view.loc (V d (cV L) (jV L)))) :
    ∀ x : r.shape.Idx,
      (View.read (Elt F) ((tkS).slice r hr).view
        (View.write (Elt F) (tkS).view g (ReadAs.same.apply (View.read (Elt F) (flSl L).view (fl d))) Finset.univ) x).toNat < 1000000 := by
  intro x
  have hw : View.write (Elt F) (tkS).view g (ReadAs.same.apply (View.read (Elt F) (flSl L).view (fl d))) Finset.univ
      = ReadAs.same.apply (View.read (Elt F) (flSl L).view (fl d)) := View.write_whole_univ _ _ _
  rw [hw]
  have hrd : ∀ (w : S25600.Idx → Elt F .i32), View.read (Elt F) ((tkS).slice r hr).view w x = w (((tkS).slice r hr).view.emb x) :=
    fun w => (View.read_apply _ _).trans (cast_eq _ _)
  rw [hrd]
  show (View.read (Elt F) (flSl L).view (fl d) _).toNat < 1000000
  rw [show ∀ j, View.read (Elt F) (flSl L).view (fl d) j = fl d ((flSl L).view.emb j) from fun j => (View.read_apply _ _).trans (cast_eq _ _)]
  exact hin d _

end Tok

end Cert.Proof.KB
end
-- ==== Proof.KBMerge.lean ====
-- The text of module Merge, read over the word-level program in place of the idealized one.
/-
  What the in-place merge leaves in a slot.

  A slot is a 128 × 128 block R whose row ρ holds the pair-table row of the chunk's token ρ: columns 0..63 the first
  table's row, columns 64..127 the second's. The merge overwrites row r (r < 64) with the merged embeddings of tokens
  2r (columns 0..63) and 2r + 1 (columns 64..127): at column q, with token row ρ = 2r + q / 64 and component e = q mod 64,

      c0[q mod 16] · R[ρ, e]  +  c1[q mod 16] · R[ρ, 64 + e],

  where c0 and c1 are the two coefficient rows (16 lanes each). Rows 64..127 keep what they held. Row r is written
  after rows 2r and 2r + 1 are read, and 2r ≥ r, so every read sees R.
-/
import proofs.«205127_g70231305225025_cont_9to1c4b_198_32_alg».proof.Kernel
import Idealize.ShloMosaic.Lib.ValueIdx

noncomputable section

open Idealize.ShloMosaic Idealize.ShloMosaic.ValueIdx

namespace Cert.Proof.KB

open Cert.Kernel

variable {F : FTy → Type} [FloatOps F]

/-- Row r of the merged block at column q. -/
def mrow (c0 c1 : FVec F S16 .f32) (R : S128x128.Idx → F .f32) (r : Fin 64) (q : Fin 128) : F .f32 :=
  FloatOps.addf
    (FloatOps.mulf (c0 (ix1 ⟨q.val % 16, Nat.mod_lt _ (by decide)⟩))
      (R (ix2 ⟨2 * r.val + q.val / 64, by have := r.isLt; have := q.isLt; omega⟩ ⟨q.val % 64, by have := Nat.mod_lt q.val (show 0 < 64 by decide); omega⟩)))
    (FloatOps.mulf (c1 (ix1 ⟨q.val % 16, Nat.mod_lt _ (by decide)⟩))
      (R (ix2 ⟨2 * r.val + q.val / 64, by have := r.isLt; have := q.isLt; omega⟩ ⟨64 + q.val % 64, by have := Nat.mod_lt q.val (show 0 < 64 by decide); omega⟩)))

/-- The block after the first n rows have been merged (n ≤ 64): rows below n merged, the others as R has them. -/
def mergedUpTo (c0 c1 : FVec F S16 .f32) (R : S128x128.Idx → F .f32) (n : ℕ) : S128x128.Idx → F .f32 :=
  fun j => if h : (j 0).val < n ∧ (j 0).val < 64 then mrow c0 c1 R ⟨(j 0).val, h.2⟩ (j 1) else R j

/-- The block after the whole merge. -/
def merged (c0 c1 : FVec F S16 .f32) (R : S128x128.Idx → F .f32) : S128x128.Idx → F .f32 := mergedUpTo c0 c1 R 64

theorem mergedUpTo_zero (c0 c1 : FVec F S16 .f32) (R : S128x128.Idx → F .f32) : mergedUpTo c0 c1 R 0 = R := by
  funext j; unfold mergedUpTo; rw [dif_neg]; exact fun h => Nat.not_lt_zero _ h.1

theorem merged_apply_lt (c0 c1 : FVec F S16 .f32) (R : S128x128.Idx → F .f32) (r : Fin 64) (q : Fin 128) :
    merged c0 c1 R (ix2 ⟨r.val, by have := r.isLt; omega⟩ q) = mrow c0 c1 R r q := by
  unfold merged mergedUpTo
  rw [dif_pos ⟨r.isLt, r.isLt⟩]

end Cert.Proof.KB

end
-- ==== Proof.KBTileInv.lean ====
-- The text of module TileInv, read over the word-level program in place of the idealized one.
import proofs.«205127_g70231305225025_cont_9to1c4b_198_32_alg».proof.Proof.KBTileShares
import proofs.«205127_g70231305225025_cont_9to1c4b_198_32_alg».proof.Proof.KBMerge

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Inv
variable [FloatOps F]
variable (pr : (d : Dev nD) → Buf (Elt F) (prLoc d)) (fl : (d : Dev nD) → Buf (Elt F) (flLoc d))
  (cb : (d : Dev nD) → Buf (Elt F) (cbLoc d)) (o₀ : (d : Dev nD) → Buf (Elt F) (ouLoc d))
variable (d : Dev nD) (L : grid0.Coords)

/-- Slot 0's gather of the chunk of outer trip k in flight: the landing delivers the slot written whole with the chunk's
    pair-table rows, and gives back the token window and the pair table's read token it borrowed; beside it, what those
    loans left behind. -/
def GFly0 (f0 : Buf (Elt F) ((tkS).view.loc (V d (cV L) (jV L)))) (k : ℕ) : sProp 𝕄 :=
  iprop(∃ (fp : Buf (Elt F) ((sl0).view.loc (V d (cV L) (jV L)))) (r : Rect S25600) (hr : ∀ a, r.stride a = 1)
      (hn : r.shape.numel = S128x128.size gathers_S1000000x128_S128x128.axis')
      (hin' : ∀ x, (View.read (Elt F) ((tkS).slice r hr).view (View.write (Elt F) (tkS).view f0 (ReadAs.same.apply (View.read (Elt F) (flSl L).view (fl d))) Finset.univ) x).toNat < S1000000x128.size gathers_S1000000x128_S128x128.axis),
    ⌜∃ inb, r = Rect.unit (s := S25600) ![512 * k + 128 * 0] S128.size inb⌝
    ∗ Transfers.Flight countersEmb (V d (cV L) (jV L)) (SemLoc.dma (SemArray.sem cc0_scratch6)) (default : HIx 1) 524288
        iprop((((sl0).view.loc (V d (cV L) (jV L)) ↦[(sl0).view.set]{fullShare} ((sl0).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
            ∗ ((tkS).view.loc (V d (cV L) (jV L)) ↦[((tkS).slice r hr).view.set]{Transfers.shareDrop fullShare 4} (View.write (Elt F) (tkS).view f0 (ReadAs.same.apply (View.read (Elt F) (flSl L).view (fl d))) Finset.univ)))
          ∗ ((prV).view.loc (V d (cV L) (jV L)) ↦[((prV).slice (Rect.unit (s := S1000000x128) ![0, 0] S1000000x128.size inb_S1000000x128_S1000000x128_0_0) (fun _ => rfl)).view.set]{Transfers.shareTokN (rq (wL L)) 0} pr d))
    ∗ ((prV).view.loc (V d (cV L) (jV L)) ↦[Finset.univ \ ((prV).slice (Rect.unit (s := S1000000x128) ![0, 0] S1000000x128.size inb_S1000000x128_S1000000x128_0_0) (fun _ => rfl)).view.set]{Transfers.shareTokN (rq (wL L)) 0} pr d)
    ∗ ((sl0).view.loc (V d (cV L) (jV L)) ↦[Finset.univ \ (sl0).view.set]{fullShare} ((sl0).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
    ∗ ((tkS).view.loc (V d (cV L) (jV L)) ↦[Finset.univ \ ((tkS).slice r hr).view.set]{Transfers.shareDrop fullShare 4} (View.write (Elt F) (tkS).view f0 (ReadAs.same.apply (View.read (Elt F) (flSl L).view (fl d))) Finset.univ)))

theorem GFly0_eq (f0 : Buf (Elt F) ((tkS).view.loc (V d (cV L) (jV L)))) (k : ℕ) :
    GFly0 pr fl d L f0 k = iprop(∃ (fp : Buf (Elt F) ((sl0).view.loc (V d (cV L) (jV L)))) (r : Rect S25600) (hr : ∀ a, r.stride a = 1)
      (hn : r.shape.numel = S128x128.size gathers_S1000000x128_S128x128.axis')
      (hin' : ∀ x, (View.read (Elt F) ((tkS).slice r hr).view (View.write (Elt F) (tkS).view f0 (ReadAs.same.apply (View.read (Elt F) (flSl L).view (fl d))) Finset.univ) x).toNat < S1000000x128.size gathers_S1000000x128_S128x128.axis),
    ⌜∃ inb, r = Rect.unit (s := S25600) ![512 * k + 128 * 0] S128.size inb⌝
    ∗ Transfers.Flight countersEmb (V d (cV L) (jV L)) (SemLoc.dma (SemArray.sem cc0_scratch6)) (default : HIx 1) 524288
        iprop((((sl0).view.loc (V d (cV L) (jV L)) ↦[(sl0).view.set]{fullShare} ((sl0).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
            ∗ ((tkS).view.loc (V d (cV L) (jV L)) ↦[((tkS).slice r hr).view.set]{Transfers.shareDrop fullShare 4} (View.write (Elt F) (tkS).view f0 (ReadAs.same.apply (View.read (Elt F) (flSl L).view (fl d))) Finset.univ)))
          ∗ ((prV).view.loc (V d (cV L) (jV L)) ↦[((prV).slice (Rect.unit (s := S1000000x128) ![0, 0] S1000000x128.size inb_S1000000x128_S1000000x128_0_0) (fun _ => rfl)).view.set]{Transfers.shareTokN (rq (wL L)) 0} pr d))
    ∗ ((prV).view.loc (V d (cV L) (jV L)) ↦[Finset.univ \ ((prV).slice (Rect.unit (s := S1000000x128) ![0, 0] S1000000x128.size inb_S1000000x128_S1000000x128_0_0) (fun _ => rfl)).view.set]{Transfers.shareTokN (rq (wL L)) 0} pr d)
    ∗ ((sl0).view.loc (V d (cV L) (jV L)) ↦[Finset.univ \ (sl0).view.set]{fullShare} ((sl0).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
    ∗ ((tkS).view.loc (V d (cV L) (jV L)) ↦[Finset.univ \ ((tkS).slice r hr).view.set]{Transfers.shareDrop fullShare 4} (View.write (Elt F) (tkS).view f0 (ReadAs.same.apply (View.read (Elt F) (flSl L).view (fl d))) Finset.univ))) := rfl

/-- Slot 1's gather of the chunk of outer trip k in flight: the landing delivers the slot written whole with the chunk's
    pair-table rows, and gives back the token window and the pair table's read token it borrowed; beside it, what those
    loans left behind. -/
def GFly1 (f0 : Buf (Elt F) ((tkS).view.loc (V d (cV L) (jV L)))) (k : ℕ) : sProp 𝕄 :=
  iprop(∃ (fp : Buf (Elt F) ((sl1).view.loc (V d (cV L) (jV L)))) (r : Rect S25600) (hr : ∀ a, r.stride a = 1)
      (hn : r.shape.numel = S128x128.size gathers_S1000000x128_S128x128.axis')
      (hin' : ∀ x, (View.read (Elt F) ((tkS).slice r hr).view (View.write (Elt F) (tkS).view f0 (ReadAs.same.apply (View.read (Elt F) (flSl L).view (fl d))) Finset.univ) x).toNat < S1000000x128.size gathers_S1000000x128_S128x128.axis),
    ⌜∃ inb, r = Rect.unit (s := S25600) ![512 * k + 128 * 1] S128.size inb⌝
    ∗ Transfers.Flight countersEmb (V d (cV L) (jV L)) (SemLoc.dma (SemArray.sem cc0_scratch7)) (default : HIx 1) 524288
        iprop((((sl1).view.loc (V d (cV L) (jV L)) ↦[(sl1).view.set]{fullShare} ((sl1).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
            ∗ ((tkS).view.loc (V d (cV L) (jV L)) ↦[((tkS).slice r hr).view.set]{Transfers.shareTokN fullShare 0} (View.write (Elt F) (tkS).view f0 (ReadAs.same.apply (View.read (Elt F) (flSl L).view (fl d))) Finset.univ)))
          ∗ ((prV).view.loc (V d (cV L) (jV L)) ↦[((prV).slice (Rect.unit (s := S1000000x128) ![0, 0] S1000000x128.size inb_S1000000x128_S1000000x128_0_0) (fun _ => rfl)).view.set]{Transfers.shareTokN (rq (wL L)) 1} pr d))
    ∗ ((prV).view.loc (V d (cV L) (jV L)) ↦[Finset.univ \ ((prV).slice (Rect.unit (s := S1000000x128) ![0, 0] S1000000x128.size inb_S1000000x128_S1000000x128_0_0) (fun _ => rfl)).view.set]{Transfers.shareTokN (rq (wL L)) 1} pr d)
    ∗ ((sl1).view.loc (V d (cV L) (jV L)) ↦[Finset.univ \ (sl1).view.set]{fullShare} ((sl1).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
    ∗ ((tkS).view.loc (V d (cV L) (jV L)) ↦[Finset.univ \ ((tkS).slice r hr).view.set]{Transfers.shareTokN fullShare 0} (View.write (Elt F) (tkS).view f0 (ReadAs.same.apply (View.read (Elt F) (flSl L).view (fl d))) Finset.univ)))

theorem GFly1_eq (f0 : Buf (Elt F) ((tkS).view.loc (V d (cV L) (jV L)))) (k : ℕ) :
    GFly1 pr fl d L f0 k = iprop(∃ (fp : Buf (Elt F) ((sl1).view.loc (V d (cV L) (jV L)))) (r : Rect S25600) (hr : ∀ a, r.stride a = 1)
      (hn : r.shape.numel = S128x128.size gathers_S1000000x128_S128x128.axis')
      (hin' : ∀ x, (View.read (Elt F) ((tkS).slice r hr).view (View.write (Elt F) (tkS).view f0 (ReadAs.same.apply (View.read (Elt F) (flSl L).view (fl d))) Finset.univ) x).toNat < S1000000x128.size gathers_S1000000x128_S128x128.axis),
    ⌜∃ inb, r = Rect.unit (s := S25600) ![512 * k + 128 * 1] S128.size inb⌝
    ∗ Transfers.Flight countersEmb (V d (cV L) (jV L)) (SemLoc.dma (SemArray.sem cc0_scratch7)) (default : HIx 1) 524288
        iprop((((sl1).view.loc (V d (cV L) (jV L)) ↦[(sl1).view.set]{fullShare} ((sl1).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
            ∗ ((tkS).view.loc (V d (cV L) (jV L)) ↦[((tkS).slice r hr).view.set]{Transfers.shareTokN fullShare 0} (View.write (Elt F) (tkS).view f0 (ReadAs.same.apply (View.read (Elt F) (flSl L).view (fl d))) Finset.univ)))
          ∗ ((prV).view.loc (V d (cV L) (jV L)) ↦[((prV).slice (Rect.unit (s := S1000000x128) ![0, 0] S1000000x128.size inb_S1000000x128_S1000000x128_0_0) (fun _ => rfl)).view.set]{Transfers.shareTokN (rq (wL L)) 1} pr d))
    ∗ ((prV).view.loc (V d (cV L) (jV L)) ↦[Finset.univ \ ((prV).slice (Rect.unit (s := S1000000x128) ![0, 0] S1000000x128.size inb_S1000000x128_S1000000x128_0_0) (fun _ => rfl)).view.set]{Transfers.shareTokN (rq (wL L)) 1} pr d)
    ∗ ((sl1).view.loc (V d (cV L) (jV L)) ↦[Finset.univ \ (sl1).view.set]{fullShare} ((sl1).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
    ∗ ((tkS).view.loc (V d (cV L) (jV L)) ↦[Finset.univ \ ((tkS).slice r hr).view.set]{Transfers.shareTokN fullShare 0} (View.write (Elt F) (tkS).view f0 (ReadAs.same.apply (View.read (Elt F) (flSl L).view (fl d))) Finset.univ))) := rfl

/-- Slot 2's gather of the chunk of outer trip k in flight: the landing delivers the slot written whole with the chunk's
    pair-table rows, and gives back the token window and the pair table's read token it borrowed; beside it, what those
    loans left behind. -/
def GFly2 (f0 : Buf (Elt F) ((tkS).view.loc (V d (cV L) (jV L)))) (k : ℕ) : sProp 𝕄 :=
  iprop(∃ (fp : Buf (Elt F) ((sl2).view.loc (V d (cV L) (jV L)))) (r : Rect S25600) (hr : ∀ a, r.stride a = 1)
      (hn : r.shape.numel = S128x128.size gathers_S1000000x128_S128x128.axis')
      (hin' : ∀ x, (View.read (Elt F) ((tkS).slice r hr).view (View.write (Elt F) (tkS).view f0 (ReadAs.same.apply (View.read (Elt F) (flSl L).view (fl d))) Finset.univ) x).toNat < S1000000x128.size gathers_S1000000x128_S128x128.axis),
    ⌜∃ inb, r = Rect.unit (s := S25600) ![512 * k + 128 * 2] S128.size inb⌝
    ∗ Transfers.Flight countersEmb (V d (cV L) (jV L)) (SemLoc.dma (SemArray.sem cc0_scratch8)) (default : HIx 1) 524288
        iprop((((sl2).view.loc (V d (cV L) (jV L)) ↦[(sl2).view.set]{fullShare} ((sl2).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
            ∗ ((tkS).view.loc (V d (cV L) (jV L)) ↦[((tkS).slice r hr).view.set]{Transfers.shareTokN fullShare 1} (View.write (Elt F) (tkS).view f0 (ReadAs.same.apply (View.read (Elt F) (flSl L).view (fl d))) Finset.univ)))
          ∗ ((prV).view.loc (V d (cV L) (jV L)) ↦[((prV).slice (Rect.unit (s := S1000000x128) ![0, 0] S1000000x128.size inb_S1000000x128_S1000000x128_0_0) (fun _ => rfl)).view.set]{Transfers.shareTokN (rq (wL L)) 2} pr d))
    ∗ ((prV).view.loc (V d (cV L) (jV L)) ↦[Finset.univ \ ((prV).slice (Rect.unit (s := S1000000x128) ![0, 0] S1000000x128.size inb_S1000000x128_S1000000x128_0_0) (fun _ => rfl)).view.set]{Transfers.shareTokN (rq (wL L)) 2} pr d)
    ∗ ((sl2).view.loc (V d (cV L) (jV L)) ↦[Finset.univ \ (sl2).view.set]{fullShare} ((sl2).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
    ∗ ((tkS).view.loc (V d (cV L) (jV L)) ↦[Finset.univ \ ((tkS).slice r hr).view.set]{Transfers.shareTokN fullShare 1} (View.write (Elt F) (tkS).view f0 (ReadAs.same.apply (View.read (Elt F) (flSl L).view (fl d))) Finset.univ)))

theorem GFly2_eq (f0 : Buf (Elt F) ((tkS).view.loc (V d (cV L) (jV L)))) (k : ℕ) :
    GFly2 pr fl d L f0 k = iprop(∃ (fp : Buf (Elt F) ((sl2).view.loc (V d (cV L) (jV L)))) (r : Rect S25600) (hr : ∀ a, r.stride a = 1)
      (hn : r.shape.numel = S128x128.size gathers_S1000000x128_S128x128.axis')
      (hin' : ∀ x, (View.read (Elt F) ((tkS).slice r hr).view (View.write (Elt F) (tkS).view f0 (ReadAs.same.apply (View.read (Elt F) (flSl L).view (fl d))) Finset.univ) x).toNat < S1000000x128.size gathers_S1000000x128_S128x128.axis),
    ⌜∃ inb, r = Rect.unit (s := S25600) ![512 * k + 128 * 2] S128.size inb⌝
    ∗ Transfers.Flight countersEmb (V d (cV L) (jV L)) (SemLoc.dma (SemArray.sem cc0_scratch8)) (default : HIx 1) 524288
        iprop((((sl2).view.loc (V d (cV L) (jV L)) ↦[(sl2).view.set]{fullShare} ((sl2).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
            ∗ ((tkS).view.loc (V d (cV L) (jV L)) ↦[((tkS).slice r hr).view.set]{Transfers.shareTokN fullShare 1} (View.write (Elt F) (tkS).view f0 (ReadAs.same.apply (View.read (Elt F) (flSl L).view (fl d))) Finset.univ)))
          ∗ ((prV).view.loc (V d (cV L) (jV L)) ↦[((prV).slice (Rect.unit (s := S1000000x128) ![0, 0] S1000000x128.size inb_S1000000x128_S1000000x128_0_0) (fun _ => rfl)).view.set]{Transfers.shareTokN (rq (wL L)) 2} pr d))
    ∗ ((prV).view.loc (V d (cV L) (jV L)) ↦[Finset.univ \ ((prV).slice (Rect.unit (s := S1000000x128) ![0, 0] S1000000x128.size inb_S1000000x128_S1000000x128_0_0) (fun _ => rfl)).view.set]{Transfers.shareTokN (rq (wL L)) 2} pr d)
    ∗ ((sl2).view.loc (V d (cV L) (jV L)) ↦[Finset.univ \ (sl2).view.set]{fullShare} ((sl2).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
    ∗ ((tkS).view.loc (V d (cV L) (jV L)) ↦[Finset.univ \ ((tkS).slice r hr).view.set]{Transfers.shareTokN fullShare 1} (View.write (Elt F) (tkS).view f0 (ReadAs.same.apply (View.read (Elt F) (flSl L).view (fl d))) Finset.univ))) := rfl

/-- Slot 3's gather of the chunk of outer trip k in flight: the landing delivers the slot written whole with the chunk's
    pair-table rows, and gives back the token window and the pair table's read token it borrowed; beside it, what those
    loans left behind. -/
def GFly3 (f0 : Buf (Elt F) ((tkS).view.loc (V d (cV L) (jV L)))) (k : ℕ) : sProp 𝕄 :=
  iprop(∃ (fp : Buf (Elt F) ((sl3).view.loc (V d (cV L) (jV L)))) (r : Rect S25600) (hr : ∀ a, r.stride a = 1)
      (hn : r.shape.numel = S128x128.size gathers_S1000000x128_S128x128.axis')
      (hin' : ∀ x, (View.read (Elt F) ((tkS).slice r hr).view (View.write (Elt F) (tkS).view f0 (ReadAs.same.apply (View.read (Elt F) (flSl L).view (fl d))) Finset.univ) x).toNat < S1000000x128.size gathers_S1000000x128_S128x128.axis),
    ⌜∃ inb, r = Rect.unit (s := S25600) ![512 * k + 128 * 3] S128.size inb⌝
    ∗ Transfers.Flight countersEmb (V d (cV L) (jV L)) (SemLoc.dma (SemArray.sem cc0_scratch9)) (default : HIx 1) 524288
        iprop((((sl3).view.loc (V d (cV L) (jV L)) ↦[(sl3).view.set]{fullShare} ((sl3).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
            ∗ ((tkS).view.loc (V d (cV L) (jV L)) ↦[((tkS).slice r hr).view.set]{Transfers.shareTokN fullShare 2} (View.write (Elt F) (tkS).view f0 (ReadAs.same.apply (View.read (Elt F) (flSl L).view (fl d))) Finset.univ)))
          ∗ ((prV).view.loc (V d (cV L) (jV L)) ↦[((prV).slice (Rect.unit (s := S1000000x128) ![0, 0] S1000000x128.size inb_S1000000x128_S1000000x128_0_0) (fun _ => rfl)).view.set]{Transfers.shareTokN (rq (wL L)) 3} pr d))
    ∗ ((prV).view.loc (V d (cV L) (jV L)) ↦[Finset.univ \ ((prV).slice (Rect.unit (s := S1000000x128) ![0, 0] S1000000x128.size inb_S1000000x128_S1000000x128_0_0) (fun _ => rfl)).view.set]{Transfers.shareTokN (rq (wL L)) 3} pr d)
    ∗ ((sl3).view.loc (V d (cV L) (jV L)) ↦[Finset.univ \ (sl3).view.set]{fullShare} ((sl3).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
    ∗ ((tkS).view.loc (V d (cV L) (jV L)) ↦[Finset.univ \ ((tkS).slice r hr).view.set]{Transfers.shareTokN fullShare 2} (View.write (Elt F) (tkS).view f0 (ReadAs.same.apply (View.read (Elt F) (flSl L).view (fl d))) Finset.univ)))

theorem GFly3_eq (f0 : Buf (Elt F) ((tkS).view.loc (V d (cV L) (jV L)))) (k : ℕ) :
    GFly3 pr fl d L f0 k = iprop(∃ (fp : Buf (Elt F) ((sl3).view.loc (V d (cV L) (jV L)))) (r : Rect S25600) (hr : ∀ a, r.stride a = 1)
      (hn : r.shape.numel = S128x128.size gathers_S1000000x128_S128x128.axis')
      (hin' : ∀ x, (View.read (Elt F) ((tkS).slice r hr).view (View.write (Elt F) (tkS).view f0 (ReadAs.same.apply (View.read (Elt F) (flSl L).view (fl d))) Finset.univ) x).toNat < S1000000x128.size gathers_S1000000x128_S128x128.axis),
    ⌜∃ inb, r = Rect.unit (s := S25600) ![512 * k + 128 * 3] S128.size inb⌝
    ∗ Transfers.Flight countersEmb (V d (cV L) (jV L)) (SemLoc.dma (SemArray.sem cc0_scratch9)) (default : HIx 1) 524288
        iprop((((sl3).view.loc (V d (cV L) (jV L)) ↦[(sl3).view.set]{fullShare} ((sl3).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
            ∗ ((tkS).view.loc (V d (cV L) (jV L)) ↦[((tkS).slice r hr).view.set]{Transfers.shareTokN fullShare 2} (View.write (Elt F) (tkS).view f0 (ReadAs.same.apply (View.read (Elt F) (flSl L).view (fl d))) Finset.univ)))
          ∗ ((prV).view.loc (V d (cV L) (jV L)) ↦[((prV).slice (Rect.unit (s := S1000000x128) ![0, 0] S1000000x128.size inb_S1000000x128_S1000000x128_0_0) (fun _ => rfl)).view.set]{Transfers.shareTokN (rq (wL L)) 3} pr d))
    ∗ ((prV).view.loc (V d (cV L) (jV L)) ↦[Finset.univ \ ((prV).slice (Rect.unit (s := S1000000x128) ![0, 0] S1000000x128.size inb_S1000000x128_S1000000x128_0_0) (fun _ => rfl)).view.set]{Transfers.shareTokN (rq (wL L)) 3} pr d)
    ∗ ((sl3).view.loc (V d (cV L) (jV L)) ↦[Finset.univ \ (sl3).view.set]{fullShare} ((sl3).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
    ∗ ((tkS).view.loc (V d (cV L) (jV L)) ↦[Finset.univ \ ((tkS).slice r hr).view.set]{Transfers.shareTokN fullShare 2} (View.write (Elt F) (tkS).view f0 (ReadAs.same.apply (View.read (Elt F) (flSl L).view (fl d))) Finset.univ))) := rfl

/-- The tile's result rows after the chunks of the first k outer trips: rows below 256·k (from the tile's first row) hold
    the call's result function, the others what they started with. -/
def OM (k : ℕ) : Buf (Elt F) ((ouV).view.loc (V d (cV L) (jV L))) :=
  fun j => if (j 0).val < 25600 * (L 1).val + 12800 * (L 0).val + 256 * k then outF fl pr cb d j else o₀ d j

/-- Before outer trip k < 50: the tile may wait on its own semaphores; each slot's gather of its chunk of trip k is in
    flight; the four write-out semaphores are at zero; the result rows are done below trip k; the waits recorded so far
    are the caller's or the kernel's own. -/
def InvA (O : CellTallies nD τ sig (HIx 1)) (W : Waits sig (HIx 1)) (f0 : Buf (Elt F) ((tkS).view.loc (V d (cV L) (jV L)))) (k : ℕ) : sProp 𝕄 :=
  iprop(Transfers.MayWaits (V d (cV L) (jV L)) (default : HIx 1) O
    ∗ GFly0 pr fl d L f0 k ∗ GFly1 pr fl d L f0 k ∗ GFly2 pr fl d L f0 k ∗ GFly3 pr fl d L f0 k
    ∗ semVal (((V d (cV L) (jV L)), SemLoc.dma (SemArray.sem cc0_scratch10)) : GSem nD τ sig) 0
    ∗ semVal (((V d (cV L) (jV L)), SemLoc.dma (SemArray.sem cc0_scratch11)) : GSem nD τ sig) 0
    ∗ semVal (((V d (cV L) (jV L)), SemLoc.dma (SemArray.sem cc0_scratch12)) : GSem nD τ sig) 0
    ∗ semVal (((V d (cV L) (jV L)), SemLoc.dma (SemArray.sem cc0_scratch13)) : GSem nD τ sig) 0
    ∗ ((ouV).view.loc (V d (cV L) (jV L)) ↦[(ouV).view.setOn (ouR L).set]{fullShare} OM pr fl cb o₀ d L k)
    ∗ ∃ W', ⌜∀ p ∈ W', p ∈ W ∨ p.2 = none⌝ ∗ owes (V d (cV L) (jV L)) O W')

end Inv

section Pts
variable [FloatOps F]
variable (d : Dev nD) (L : grid0.Coords)

omit [FloatOps F] in
theorem pts_pr (q : PosShare TreeShare) (f : Buf (Elt F) (prLoc d)) :
    ((prV).view.loc (V d (cV L) (jV L)) ↦{q} f : sProp 𝕄) = prLoc d ↦{q} f := rfl
omit [FloatOps F] in
theorem pts_cb (q : PosShare TreeShare) (f : Buf (Elt F) (cbLoc d)) :
    ((cbV).view.loc (V d (cV L) (jV L)) ↦{q} f : sProp 𝕄) = cbLoc d ↦{q} f := rfl
omit [FloatOps F] in
theorem pts_fl (f : Buf (Elt F) (flLoc d)) :
    ((flSl L).view.loc (V d (cV L) (jV L)) ↦[(flSl L).view.set]{fullShare} f : sProp 𝕄) = flLoc d ↦[flSet (wL L)]{fullShare} f := by
  rw [set_flSl]

omit [FloatOps F] in
theorem pts_ou (f : Buf (Elt F) (ouLoc d)) :
    ((ouV).view.loc (V d (cV L) (jV L)) ↦[(ouV).view.setOn (ouR L).set]{fullShare} f : sProp 𝕄) = ouLoc d ↦[ouSet (wL L)]{fullShare} f := by
  rw [setOn_ouR]

/-- Whether a slot is re-armed at outer trip k: at every trip but the last. -/
theorem cond1_iff : ∀ k : Fin k0_t1_loop.trips, k0_cond1 k = 1#1 ↔ k.val < 49 := by decide +kernel
theorem cond2_iff : ∀ k : Fin k0_t1_loop.trips, k0_cond2 k = 1#1 ↔ k.val < 49 := by decide +kernel
theorem cond3_iff : ∀ k : Fin k0_t1_loop.trips, k0_cond3 k = 1#1 ↔ k.val < 49 := by decide +kernel
theorem cond4_iff : ∀ k : Fin k0_t1_loop.trips, k0_cond4 k = 1#1 ↔ k.val < 49 := by decide +kernel

end Pts
end Cert.Proof.KB
end
-- ==== Proof.KBTileStep.lean ====
-- The text of module TileStep, read over the word-level program in place of the idealized one.
import proofs.«205127_g70231305225025_cont_9to1c4b_198_32_alg».proof.Proof.KBTileInv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Step
variable [FloatOps F]
variable (pr : (d : Dev nD) → Buf (Elt F) (prLoc d)) (fl : (d : Dev nD) → Buf (Elt F) (flLoc d))
variable (d : Dev nD) (L : grid0.Coords)

/-- Slot 0's bundle from its pieces. -/
theorem gfly0_intro (f0 : Buf (Elt F) ((tkS).view.loc (V d (cV L) (jV L)))) (k : ℕ)
    (fp : Buf (Elt F) ((sl0).view.loc (V d (cV L) (jV L)))) (r : Rect S25600) (hr : ∀ a, r.stride a = 1)
    (hn : r.shape.numel = S128x128.size gathers_S1000000x128_S128x128.axis')
    (hin' : ∀ x, (View.read (Elt F) ((tkS).slice r hr).view (View.write (Elt F) (tkS).view f0 (ReadAs.same.apply (View.read (Elt F) (flSl L).view (fl d))) Finset.univ) x).toNat < S1000000x128.size gathers_S1000000x128_S128x128.axis)
    (hreq : ∃ inb, r = Rect.unit (s := S25600) ![512 * k + 128 * 0] S128.size inb) :
    (iprop(Transfers.Flight countersEmb (V d (cV L) (jV L)) (SemLoc.dma (SemArray.sem cc0_scratch6)) (default : HIx 1) 524288
        iprop((((sl0).view.loc (V d (cV L) (jV L)) ↦[(sl0).view.set]{fullShare} ((sl0).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
            ∗ ((tkS).view.loc (V d (cV L) (jV L)) ↦[((tkS).slice r hr).view.set]{Transfers.shareDrop fullShare 4} (View.write (Elt F) (tkS).view f0 (ReadAs.same.apply (View.read (Elt F) (flSl L).view (fl d))) Finset.univ)))
          ∗ ((prV).view.loc (V d (cV L) (jV L)) ↦[((prV).slice (Rect.unit (s := S1000000x128) ![0, 0] S1000000x128.size inb_S1000000x128_S1000000x128_0_0) (fun _ => rfl)).view.set]{Transfers.shareTokN (rq (wL L)) 0} pr d))
      ∗ ((prV).view.loc (V d (cV L) (jV L)) ↦[Finset.univ \ ((prV).slice (Rect.unit (s := S1000000x128) ![0, 0] S1000000x128.size inb_S1000000x128_S1000000x128_0_0) (fun _ => rfl)).view.set]{Transfers.shareTokN (rq (wL L)) 0} pr d)
      ∗ ((sl0).view.loc (V d (cV L) (jV L)) ↦[Finset.univ \ (sl0).view.set]{fullShare} ((sl0).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
      ∗ ((tkS).view.loc (V d (cV L) (jV L)) ↦[Finset.univ \ ((tkS).slice r hr).view.set]{Transfers.shareDrop fullShare 4} (View.write (Elt F) (tkS).view f0 (ReadAs.same.apply (View.read (Elt F) (flSl L).view (fl d))) Finset.univ))) : sProp 𝕄)
      ⊢ GFly0 pr fl d L f0 k := by
  rw [GFly0_eq]
  iintro ⟨Hf, Hp, Hs, Ht⟩
  iexists fp, r, hr, hn, hin'
  isplitr; · ipureintro; exact hreq
  isplitl [Hf]; · iexact Hf
  isplitl [Hp]; · iexact Hp
  isplitl [Hs]; · iexact Hs
  iexact Ht

/-- Slot 1's bundle from its pieces. -/
theorem gfly1_intro (f0 : Buf (Elt F) ((tkS).view.loc (V d (cV L) (jV L)))) (k : ℕ)
    (fp : Buf (Elt F) ((sl1).view.loc (V d (cV L) (jV L)))) (r : Rect S25600) (hr : ∀ a, r.stride a = 1)
    (hn : r.shape.numel = S128x128.size gathers_S1000000x128_S128x128.axis')
    (hin' : ∀ x, (View.read (Elt F) ((tkS).slice r hr).view (View.write (Elt F) (tkS).view f0 (ReadAs.same.apply (View.read (Elt F) (flSl L).view (fl d))) Finset.univ) x).toNat < S1000000x128.size gathers_S1000000x128_S128x128.axis)
    (hreq : ∃ inb, r = Rect.unit (s := S25600) ![512 * k + 128 * 1] S128.size inb) :
    (iprop(Transfers.Flight countersEmb (V d (cV L) (jV L)) (SemLoc.dma (SemArray.sem cc0_scratch7)) (default : HIx 1) 524288
        iprop((((sl1).view.loc (V d (cV L) (jV L)) ↦[(sl1).view.set]{fullShare} ((sl1).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
            ∗ ((tkS).view.loc (V d (cV L) (jV L)) ↦[((tkS).slice r hr).view.set]{Transfers.shareTokN fullShare 0} (View.write (Elt F) (tkS).view f0 (ReadAs.same.apply (View.read (Elt F) (flSl L).view (fl d))) Finset.univ)))
          ∗ ((prV).view.loc (V d (cV L) (jV L)) ↦[((prV).slice (Rect.unit (s := S1000000x128) ![0, 0] S1000000x128.size inb_S1000000x128_S1000000x128_0_0) (fun _ => rfl)).view.set]{Transfers.shareTokN (rq (wL L)) 1} pr d))
      ∗ ((prV).view.loc (V d (cV L) (jV L)) ↦[Finset.univ \ ((prV).slice (Rect.unit (s := S1000000x128) ![0, 0] S1000000x128.size inb_S1000000x128_S1000000x128_0_0) (fun _ => rfl)).view.set]{Transfers.shareTokN (rq (wL L)) 1} pr d)
      ∗ ((sl1).view.loc (V d (cV L) (jV L)) ↦[Finset.univ \ (sl1).view.set]{fullShare} ((sl1).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
      ∗ ((tkS).view.loc (V d (cV L) (jV L)) ↦[Finset.univ \ ((tkS).slice r hr).view.set]{Transfers.shareTokN fullShare 0} (View.write (Elt F) (tkS).view f0 (ReadAs.same.apply (View.read (Elt F) (flSl L).view (fl d))) Finset.univ))) : sProp 𝕄)
      ⊢ GFly1 pr fl d L f0 k := by
  rw [GFly1_eq]
  iintro ⟨Hf, Hp, Hs, Ht⟩
  iexists fp, r, hr, hn, hin'
  isplitr; · ipureintro; exact hreq
  isplitl [Hf]; · iexact Hf
  isplitl [Hp]; · iexact Hp
  isplitl [Hs]; · iexact Hs
  iexact Ht

/-- Slot 2's bundle from its pieces. -/
theorem gfly2_intro (f0 : Buf (Elt F) ((tkS).view.loc (V d (cV L) (jV L)))) (k : ℕ)
    (fp : Buf (Elt F) ((sl2).view.loc (V d (cV L) (jV L)))) (r : Rect S25600) (hr : ∀ a, r.stride a = 1)
    (hn : r.shape.numel = S128x128.size gathers_S1000000x128_S128x128.axis')
    (hin' : ∀ x, (View.read (Elt F) ((tkS).slice r hr).view (View.write (Elt F) (tkS).view f0 (ReadAs.same.apply (View.read (Elt F) (flSl L).view (fl d))) Finset.univ) x).toNat < S1000000x128.size gathers_S1000000x128_S128x128.axis)
    (hreq : ∃ inb, r = Rect.unit (s := S25600) ![512 * k + 128 * 2] S128.size inb) :
    (iprop(Transfers.Flight countersEmb (V d (cV L) (jV L)) (SemLoc.dma (SemArray.sem cc0_scratch8)) (default : HIx 1) 524288
        iprop((((sl2).view.loc (V d (cV L) (jV L)) ↦[(sl2).view.set]{fullShare} ((sl2).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
            ∗ ((tkS).view.loc (V d (cV L) (jV L)) ↦[((tkS).slice r hr).view.set]{Transfers.shareTokN fullShare 1} (View.write (Elt F) (tkS).view f0 (ReadAs.same.apply (View.read (Elt F) (flSl L).view (fl d))) Finset.univ)))
          ∗ ((prV).view.loc (V d (cV L) (jV L)) ↦[((prV).slice (Rect.unit (s := S1000000x128) ![0, 0] S1000000x128.size inb_S1000000x128_S1000000x128_0_0) (fun _ => rfl)).view.set]{Transfers.shareTokN (rq (wL L)) 2} pr d))
      ∗ ((prV).view.loc (V d (cV L) (jV L)) ↦[Finset.univ \ ((prV).slice (Rect.unit (s := S1000000x128) ![0, 0] S1000000x128.size inb_S1000000x128_S1000000x128_0_0) (fun _ => rfl)).view.set]{Transfers.shareTokN (rq (wL L)) 2} pr d)
      ∗ ((sl2).view.loc (V d (cV L) (jV L)) ↦[Finset.univ \ (sl2).view.set]{fullShare} ((sl2).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
      ∗ ((tkS).view.loc (V d (cV L) (jV L)) ↦[Finset.univ \ ((tkS).slice r hr).view.set]{Transfers.shareTokN fullShare 1} (View.write (Elt F) (tkS).view f0 (ReadAs.same.apply (View.read (Elt F) (flSl L).view (fl d))) Finset.univ))) : sProp 𝕄)
      ⊢ GFly2 pr fl d L f0 k := by
  rw [GFly2_eq]
  iintro ⟨Hf, Hp, Hs, Ht⟩
  iexists fp, r, hr, hn, hin'
  isplitr; · ipureintro; exact hreq
  isplitl [Hf]; · iexact Hf
  isplitl [Hp]; · iexact Hp
  isplitl [Hs]; · iexact Hs
  iexact Ht

/-- Slot 3's bundle from its pieces. -/
theorem gfly3_intro (f0 : Buf (Elt F) ((tkS).view.loc (V d (cV L) (jV L)))) (k : ℕ)
    (fp : Buf (Elt F) ((sl3).view.loc (V d (cV L) (jV L)))) (r : Rect S25600) (hr : ∀ a, r.stride a = 1)
    (hn : r.shape.numel = S128x128.size gathers_S1000000x128_S128x128.axis')
    (hin' : ∀ x, (View.read (Elt F) ((tkS).slice r hr).view (View.write (Elt F) (tkS).view f0 (ReadAs.same.apply (View.read (Elt F) (flSl L).view (fl d))) Finset.univ) x).toNat < S1000000x128.size gathers_S1000000x128_S128x128.axis)
    (hreq : ∃ inb, r = Rect.unit (s := S25600) ![512 * k + 128 * 3] S128.size inb) :
    (iprop(Transfers.Flight countersEmb (V d (cV L) (jV L)) (SemLoc.dma (SemArray.sem cc0_scratch9)) (default : HIx 1) 524288
        iprop((((sl3).view.loc (V d (cV L) (jV L)) ↦[(sl3).view.set]{fullShare} ((sl3).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
            ∗ ((tkS).view.loc (V d (cV L) (jV L)) ↦[((tkS).slice r hr).view.set]{Transfers.shareTokN fullShare 2} (View.write (Elt F) (tkS).view f0 (ReadAs.same.apply (View.read (Elt F) (flSl L).view (fl d))) Finset.univ)))
          ∗ ((prV).view.loc (V d (cV L) (jV L)) ↦[((prV).slice (Rect.unit (s := S1000000x128) ![0, 0] S1000000x128.size inb_S1000000x128_S1000000x128_0_0) (fun _ => rfl)).view.set]{Transfers.shareTokN (rq (wL L)) 3} pr d))
      ∗ ((prV).view.loc (V d (cV L) (jV L)) ↦[Finset.univ \ ((prV).slice (Rect.unit (s := S1000000x128) ![0, 0] S1000000x128.size inb_S1000000x128_S1000000x128_0_0) (fun _ => rfl)).view.set]{Transfers.shareTokN (rq (wL L)) 3} pr d)
      ∗ ((sl3).view.loc (V d (cV L) (jV L)) ↦[Finset.univ \ (sl3).view.set]{fullShare} ((sl3).view.writes (Elt F) fp [⟨Rect.whole S128x128, (SparseCore.gatherPayload gathers_S1000000x128_S128x128 (View.read (Elt F) ((prV).slice (Rect.unit (s := S1000000x128) ![0, 0] S1000000x128.size inb_S1000000x128_S1000000x128_0_0) (fun _ => rfl)).view (pr d)) (SparseCore.rows (View.read (Elt F) ((tkS).slice r hr).view (View.write (Elt F) (tkS).view f0 (ReadAs.same.apply (View.read (Elt F) (flSl L).view (fl d))) Finset.univ)) hn hin'))⟩]))
      ∗ ((tkS).view.loc (V d (cV L) (jV L)) ↦[Finset.univ \ ((tkS).slice r hr).view.set]{Transfers.shareTokN fullShare 2} (View.write (Elt F) (tkS).view f0 (ReadAs.same.apply (View.read (Elt F) (flSl L).view (fl d))) Finset.univ))) : sProp 𝕄)
      ⊢ GFly3 pr fl d L f0 k := by
  rw [GFly3_eq]
  iintro ⟨Hf, Hp, Hs, Ht⟩
  iexists fp, r, hr, hn, hin'
  isplitr; · ipureintro; exact hreq
  isplitl [Hf]; · iexact Hf
  isplitl [Hp]; · iexact Hp
  isplitl [Hs]; · iexact Hs
  iexact Ht

end Step

/-! ## The printed token windows in closed form -/

theorem rect_unit_congr {s : Shape} {o o' : Fin s.rank → ℕ} {sz : Fin s.rank → ℕ} (h : o = o')
    (i : ∀ a, o a + sz a ≤ s.size a) (i' : ∀ a, o' a + sz a ≤ s.size a) :
    Rect.unit (s := s) o sz i = Rect.unit (s := s) o' sz i' := by subst h; rfl

/-- The window slot 0 re-arms with at outer trip k is the window of its chunk of trip k + 1. -/
theorem win0_next (k : Fin k0_t1_loop.trips) (h : k0_cond1 k = 1#1)
    (inb : ∀ a, (![512 * (k.val + 1) + 128 * 0] : Fin 1 → ℕ) a + S128.size a ≤ S25600.size a) :
    Rect.unit (s := S25600) (k0_off29 k) S128.size (k0_off29_inb k h) = Rect.unit (s := S25600) ![512 * (k.val + 1) + 128 * 0] S128.size inb := by
  refine rect_unit_congr ?_ _ _
  rw [k0_off29_eq]
  funext a; match a with | ⟨0, _⟩ => show 512 * k.val + 512 = 512 * (k.val + 1) + 128 * 0; omega
theorem win0_inb (k : ℕ) (hk : k < 50) : ∀ a, (![512 * k + 128 * 0] : Fin 1 → ℕ) a + S128.size a ≤ S25600.size a := by
  intro a; match a with | ⟨0, _⟩ => show 512 * k + 128 * 0 + 128 ≤ 25600; omega

/-- The window slot 1 re-arms with at outer trip k is the window of its chunk of trip k + 1. -/
theorem win1_next (k : Fin k0_t1_loop.trips) (h : k0_cond2 k = 1#1)
    (inb : ∀ a, (![512 * (k.val + 1) + 128 * 1] : Fin 1 → ℕ) a + S128.size a ≤ S25600.size a) :
    Rect.unit (s := S25600) (k0_off55 k) S128.size (k0_off55_inb k h) = Rect.unit (s := S25600) ![512 * (k.val + 1) + 128 * 1] S128.size inb := by
  refine rect_unit_congr ?_ _ _
  rw [k0_off55_eq]
  funext a; match a with | ⟨0, _⟩ => show 512 * k.val + 640 = 512 * (k.val + 1) + 128 * 1; omega
theorem win1_inb (k : ℕ) (hk : k < 50) : ∀ a, (![512 * k + 128 * 1] : Fin 1 → ℕ) a + S128.size a ≤ S25600.size a := by
  intro a; match a with | ⟨0, _⟩ => show 512 * k + 128 * 1 + 128 ≤ 25600; omega

/-- The window slot 2 re-arms with at outer trip k is the window of its chunk of trip k + 1. -/
theorem win2_next (k : Fin k0_t1_loop.trips) (h : k0_cond3 k = 1#1)
    (inb : ∀ a, (![512 * (k.val + 1) + 128 * 2] : Fin 1 → ℕ) a + S128.size a ≤ S25600.size a) :
    Rect.unit (s := S25600) (k0_off81 k) S128.size (k0_off81_inb k h) = Rect.unit (s := S25600) ![512 * (k.val + 1) + 128 * 2] S128.size inb := by
  refine rect_unit_congr ?_ _ _
  rw [k0_off81_eq]
  funext a; match a with | ⟨0, _⟩ => show 512 * k.val + 768 = 512 * (k.val + 1) + 128 * 2; omega
theorem win2_inb (k : ℕ) (hk : k < 50) : ∀ a, (![512 * k + 128 * 2] : Fin 1 → ℕ) a + S128.size a ≤ S25600.size a := by
  intro a; match a with | ⟨0, _⟩ => show 512 * k + 128 * 2 + 128 ≤ 25600; omega

/-- The window slot 3 re-arms with at outer trip k is the window of its chunk of trip k + 1. -/
theorem win3_next (k : Fin k0_t1_loop.trips) (h : k0_cond4 k = 1#1)
    (inb : ∀ a, (![512 * (k.val + 1) + 128 * 3] : Fin 1 → ℕ) a + S128.size a ≤ S25600.size a) :
    Rect.unit (s := S25600) (k0_off107 k) S128.size (k0_off107_inb k h) = Rect.unit (s := S25600) ![512 * (k.val + 1) + 128 * 3] S128.size inb := by
  refine rect_unit_congr ?_ _ _
  rw [k0_off107_eq]
  funext a; match a with | ⟨0, _⟩ => show 512 * k.val + 896 = 512 * (k.val + 1) + 128 * 3; omega
theorem win3_inb (k : ℕ) (hk : k < 50) : ∀ a, (![512 * k + 128 * 3] : Fin 1 → ℕ) a + S128.size a ≤ S25600.size a := by
  intro a; match a with | ⟨0, _⟩ => show 512 * k + 128 * 3 + 128 ≤ 25600; omega

end Cert.Proof.KB
end
-- ==== Proof.KBTileInvB.lean ====
-- The text of module TileInvB, read over the word-level program in place of the idealized one.
import proofs.«205127_g70231305225025_cont_9to1c4b_198_32_alg».proof.Proof.KBTileStep

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section InvB
variable [FloatOps F]
variable (pr : (d : Dev nD) → Buf (Elt F) (prLoc d)) (fl : (d : Dev nD) → Buf (Elt F) (flLoc d))
  (cb : (d : Dev nD) → Buf (Elt F) (cbLoc d)) (o₀ : (d : Dev nD) → Buf (Elt F) (ouLoc d))
variable (d : Dev nD) (L : grid0.Coords)

/-- The 64 result rows slot b writes in outer trip k, as the body's write-out names them. -/
abbrev ouWin (k : Fin k0_t1_loop.trips) (w : BitVec 32) (inb : ∀ a, (k0_off27 L k w) a + S64x128.size a ≤ S409600x128.size a) :
    Finset S409600x128.Idx :=
  ((ouV).slice (Rect.unit (s := S409600x128) (k0_off27 L k w) S64x128.size inb) (fun _ => rfl)).view.set

/-- Rows 0..63 of a slot, as the write-out reads them. -/
abbrev slWin (sl : Memref sig .scVector .vmem S128x128 .f32) :=
  ((sl).slice (Rect.unit (s := S128x128) ![0, 0] S64x128.size inb_S128x128_S64x128_0_0) (fun _ => rfl)).view.set

/-- A slot's write-out of its chunk of outer trip k in flight: the landing delivers the chunk's 64 result rows, at the
    call's result function, and gives back the slot's rows 0..63; beside it, the slot's other rows. -/
def WFly (k : Fin k0_t1_loop.trips) (w : BitVec 32) (inb : ∀ a, (k0_off27 L k w) a + S64x128.size a ≤ S409600x128.size a)
    (sl : Memref sig .scVector .vmem S128x128 .f32) (sem : DmaSem sig) : sProp 𝕄 :=
  iprop(∃ (C : Buf (Elt F) ((ouV).view.loc (V d (cV L) (jV L)))) (M : Buf (Elt F) ((sl).view.loc (V d (cV L) (jV L)))),
    ⌜∀ j ∈ ouWin L k w inb, C j = outF fl pr cb d j⌝
    ∗ Transfers.Flight countersEmb (V d (cV L) (jV L)) (SemLoc.dma sem) (default : HIx 1) 262144
        iprop(((ouV).view.loc (V d (cV L) (jV L)) ↦[ouWin L k w inb]{fullShare} C)
          ∗ ((sl).view.loc (V d (cV L) (jV L)) ↦[slWin sl]{fullShare} M))
    ∗ ((sl).view.loc (V d (cV L) (jV L)) ↦[Finset.univ \ slWin sl]{fullShare} M))

/-- The tile's result rows outside the four windows of outer trip k. -/
abbrev ouRest (k : Fin k0_t1_loop.trips) : Finset S409600x128.Idx :=
  ((((ouV).view.setOn (ouR L).set \ ouWin L k 0#32 (k0_off27_inb L k 0)) \ ouWin L k 1#32 (k0_off27_inb L k 1))
    \ ouWin L k 2#32 (k0_off27_inb L k 2)) \ ouWin L k 3#32 (k0_off27_inb L k 3)

/-- After the last outer trip: each slot's write-out of its last chunk still in flight, nothing re-armed; the result
    rows outside those four chunks done; the four gather semaphores at zero, the pair table's four read tokens and the
    token scratch's four shares whole; the waits recorded so far the caller's or the kernel's own. -/
def InvB (O : CellTallies nD τ sig (HIx 1)) (W : Waits sig (HIx 1)) (f0 : Buf (Elt F) ((tkS).view.loc (V d (cV L) (jV L))))
    (f5 : Buf (Elt F) ((cfS).view.loc (V d (cV L) (jV L)))) : sProp 𝕄 :=
  iprop(Transfers.MayWaits (V d (cV L) (jV L)) (default : HIx 1) O
    ∗ ∃ k : Fin k0_t1_loop.trips, ⌜k.val = 49⌝
      ∗ WFly pr fl cb d L k 0#32 (k0_off27_inb L k 0) sl0 (SemArray.sem cc0_scratch10)
      ∗ WFly pr fl cb d L k 1#32 (k0_off27_inb L k 1) sl1 (SemArray.sem cc0_scratch11)
      ∗ WFly pr fl cb d L k 2#32 (k0_off27_inb L k 2) sl2 (SemArray.sem cc0_scratch12)
      ∗ WFly pr fl cb d L k 3#32 (k0_off27_inb L k 3) sl3 (SemArray.sem cc0_scratch13)
      ∗ (∃ C : Buf (Elt F) ((ouV).view.loc (V d (cV L) (jV L))), ⌜∀ j ∈ ouRest L k, C j = OM pr fl cb o₀ d L 50 j⌝
          ∗ ((ouV).view.loc (V d (cV L) (jV L)) ↦[ouRest L k]{fullShare} C))
      ∗ ((prV).view.loc (V d (cV L) (jV L)) ↦{Transfers.shareTokN (rq (wL L)) 0} pr d)
      ∗ ((prV).view.loc (V d (cV L) (jV L)) ↦{Transfers.shareTokN (rq (wL L)) 1} pr d)
      ∗ ((prV).view.loc (V d (cV L) (jV L)) ↦{Transfers.shareTokN (rq (wL L)) 2} pr d)
      ∗ ((prV).view.loc (V d (cV L) (jV L)) ↦{Transfers.shareTokN (rq (wL L)) 3} pr d)
      ∗ semVal (((V d (cV L) (jV L)), SemLoc.dma (SemArray.sem cc0_scratch6)) : GSem nD τ sig) 0
      ∗ semVal (((V d (cV L) (jV L)), SemLoc.dma (SemArray.sem cc0_scratch7)) : GSem nD τ sig) 0
      ∗ semVal (((V d (cV L) (jV L)), SemLoc.dma (SemArray.sem cc0_scratch8)) : GSem nD τ sig) 0
      ∗ semVal (((V d (cV L) (jV L)), SemLoc.dma (SemArray.sem cc0_scratch9)) : GSem nD τ sig) 0
      ∗ ((tkS).view.loc (V d (cV L) (jV L)) ↦{Transfers.shareDrop fullShare 4} View.write (Elt F) (tkS).view f0 (ReadAs.same.apply (View.read (Elt F) (flSl L).view (fl d))) Finset.univ)
      ∗ ((tkS).view.loc (V d (cV L) (jV L)) ↦{Transfers.shareTokN fullShare 0} View.write (Elt F) (tkS).view f0 (ReadAs.same.apply (View.read (Elt F) (flSl L).view (fl d))) Finset.univ)
      ∗ ((tkS).view.loc (V d (cV L) (jV L)) ↦{Transfers.shareTokN fullShare 1} View.write (Elt F) (tkS).view f0 (ReadAs.same.apply (View.read (Elt F) (flSl L).view (fl d))) Finset.univ)
      ∗ ((tkS).view.loc (V d (cV L) (jV L)) ↦{Transfers.shareTokN fullShare 2} View.write (Elt F) (tkS).view f0 (ReadAs.same.apply (View.read (Elt F) (flSl L).view (fl d))) Finset.univ)
      ∗ ∃ W', ⌜∀ p ∈ W', p ∈ W ∨ p.2 = none⌝ ∗ owes (V d (cV L) (jV L)) O W')

/-- The outer loop's invariant: before trip k < 50 the re-armed state, after the last trip the exit state. -/
def invFull (O : CellTallies nD τ sig (HIx 1)) (W : Waits sig (HIx 1)) (f0 : Buf (Elt F) ((tkS).view.loc (V d (cV L) (jV L))))
    (f5 : Buf (Elt F) ((cfS).view.loc (V d (cV L) (jV L)))) (k : ℕ) (_ : PUnit) : sProp 𝕄 :=
  if k < 50 then InvA pr fl cb o₀ d L O W f0 k else InvB pr fl cb o₀ d L O W f0 f5

theorem invFull_lt (O : CellTallies nD τ sig (HIx 1)) (W : Waits sig (HIx 1)) (f0) (f5) {k : ℕ} (h : k < 50) (acc : PUnit) :
    invFull pr fl cb o₀ d L O W f0 f5 k acc = InvA pr fl cb o₀ d L O W f0 k := if_pos h
theorem invFull_ge (O : CellTallies nD τ sig (HIx 1)) (W : Waits sig (HIx 1)) (f0) (f5) {k : ℕ} (h : ¬ k < 50) (acc : PUnit) :
    invFull pr fl cb o₀ d L O W f0 f5 k acc = InvB pr fl cb o₀ d L O W f0 f5 := if_neg h

end InvB
end Cert.Proof.KB
end
-- ==== Proof.KBTileValue.lean ====
-- The text of module TileValue, read over the word-level program in place of the idealized one.
/-
  The values one tile computes, as plain functions of the call's operand arrays.

  A slot written whole holds what was written. The tile with worker number w holds tokens 25600·w .. 25600·w + 25599
  of the flat list. A gather over the window of 128 tokens starting at offset off among them lands a 128 × 128 block
  whose row ρ is the pair-table row that token off + ρ names. The two coefficient rows the tile loads are rows 0 and 1
  of the coefficient block. Merging the block of chunk g (tokens 128·g .. 128·g + 127) gives, in its first 64 rows,
  rows 12800·w + 64·g .. + 63 of the call's result: row ρ, column q reads token 2ρ + q / 64 of the chunk, which is
  token 2·(12800·w + 64·g + ρ) + q / 64 of the flat list, at components q mod 64 and 64 + q mod 64, with the
  coefficients of lane q mod 16.
-/
import proofs.«205127_g70231305225025_cont_9to1c4b_198_32_alg».proof.Proof.KBTileShares
import proofs.«205127_g70231305225025_cont_9to1c4b_198_32_alg».proof.Proof.KBMerge
import proofs.«205127_g70231305225025_cont_9to1c4b_198_32_alg».proof.Proof.KOut
import Idealize.ShloMosaic.Lib.Writes
import Idealize.ShloMosaic.Lib.Pipeline.Value

noncomputable section

namespace Cert.Proof.KB

open Cert.Kernel Cert.Kernel.Gen

open Idealize.ShloMosaic Idealize.ShloMosaic.ValueIdx
open Idealize.ShloMosaic.SparseCore (S V T)

variable {F : FTy → Type}

/-! ## A buffer written whole -/

/-- One write through the whole shape, over any contents, leaves the payload. -/
theorem writes_whole_piece (b : Ref sig .scVector) (g : (Memref.whole b : Memref sig .scVector _ _ _).view.ty.Contents (Elt F))
    (P : (Rect.whole b.ty.shape).shape.Idx → Elt F b.ty.elt) :
    (Memref.whole b : Memref sig .scVector _ _ _).view.writes (Elt F) g [⟨Rect.whole b.ty.shape, P⟩] = P := by
  funext x
  have h := View.read_writes_cons_emb (View.whole b) g (Rect.whole b.ty.shape) P [] x
  rw [Rect.emb_whole_apply] at h
  exact h

/-- The same at each of the four slots. -/
theorem writes_whole_sl0 (g : (sl0).view.ty.Contents (Elt F)) (P : S128x128.Idx → Elt F .f32) :
    (sl0).view.writes (Elt F) g [⟨Rect.whole S128x128, P⟩] = P := writes_whole_piece cc0_scratch1 g P
theorem writes_whole_sl1 (g : (sl1).view.ty.Contents (Elt F)) (P : S128x128.Idx → Elt F .f32) :
    (sl1).view.writes (Elt F) g [⟨Rect.whole S128x128, P⟩] = P := writes_whole_piece cc0_scratch2 g P
theorem writes_whole_sl2 (g : (sl2).view.ty.Contents (Elt F)) (P : S128x128.Idx → Elt F .f32) :
    (sl2).view.writes (Elt F) g [⟨Rect.whole S128x128, P⟩] = P := writes_whole_piece cc0_scratch3 g P
theorem writes_whole_sl3 (g : (sl3).view.ty.Contents (Elt F)) (P : S128x128.Idx → Elt F .f32) :
    (sl3).view.writes (Elt F) g [⟨Rect.whole S128x128, P⟩] = P := writes_whole_piece cc0_scratch4 g P

section Val

variable [FloatOps F]
variable (fl : (d : Dev nD) → Buf (Elt F) (flLoc d)) (pr : (d : Dev nD) → Buf (Elt F) (prLoc d))
  (cb : (d : Dev nD) → Buf (Elt F) (cbLoc d))
variable (d : Dev nD) (L : grid0.Coords)

/-! ## A gathered block -/

omit [FloatOps F] in
theorem tok_lt (off : ℕ) (h : off + 128 ≤ 25600) (n : ℕ) (hn : n < 128) : 25600 * (wL L).val + off + n < 819200 := by
  have := (wL L).isLt; omega

/-- The block a gather lands for the window of 128 tokens from offset off of the tile's tokens: row ρ is the pair-table
    row token off + ρ names. -/
def GP (off : ℕ) (h : off + 128 ≤ 25600) : S128x128.Idx → Elt F .f32 := fun j =>
  pr d (ix2 (Cert.Lib.takeRow 1000000 Cert.Spec.rows_pos (fl d (ix1 ⟨25600 * (wL L).val + off + (j 0).val, tok_lt L off h _ (j 0).isLt⟩)))
    (j 1 : Fin 128))

/-- A rank-one index read back from its row-major position has that position as its coordinate. -/
theorem rowMajor_symm_one {n : Fin 1 → Nat} (k : Fin (⟨1, n⟩ : Shape).numel) :
    (((⟨1, n⟩ : Shape).rowMajor.symm k) 0).val = k.val := by
  have h := Shape.rowMajor_val_one ((⟨1, n⟩ : Shape).rowMajor.symm k)
  rw [Equiv.apply_symm_apply] at h
  exact h.symm

/-- The token scratch after the fetch, read through a window of 128 words from offset off: the flat list's words at
    the tile's tokens off, off + 1, …. -/
theorem tok_read (off : ℕ) (h : off + 128 ≤ 25600)
    (inb : ∀ a, (![off] : Fin 1 → Nat) a + S128.size a ≤ S25600.size a)
    (hr : ∀ a, (Rect.unit (s := S25600) ![off] S128.size inb).stride a = 1)
    (g : Buf (Elt F) ((tkS).view.loc (V d (cV L) (jV L)))) (x : (Rect.unit (s := S25600) ![off] S128.size inb).shape.Idx) :
    View.read (Elt F) ((tkS).slice (Rect.unit (s := S25600) ![off] S128.size inb) hr).view
        (View.write (Elt F) (tkS).view g (ReadAs.same.apply (View.read (Elt F) (flSl L).view (fl d))) Finset.univ) x
      = fl d (ix1 ⟨25600 * (wL L).val + off + (x 0).val, tok_lt L off h _ (x 0).isLt⟩) := by
  have hw : View.write (Elt F) (tkS).view g (ReadAs.same.apply (View.read (Elt F) (flSl L).view (fl d))) Finset.univ
      = ReadAs.same.apply (View.read (Elt F) (flSl L).view (fl d)) := View.write_whole_univ _ _ _
  rw [hw]
  have hrd : ∀ (w : S25600.Idx → Elt F .i32),
      View.read (Elt F) ((tkS).slice (Rect.unit (s := S25600) ![off] S128.size inb) hr).view w x
        = w (((tkS).slice (Rect.unit (s := S25600) ![off] S128.size inb) hr).view.emb x) :=
    fun w => (View.read_apply _ _).trans (cast_eq _ _)
  rw [hrd]
  show View.read (Elt F) (flSl L).view (fl d) _ = _
  rw [show ∀ j, View.read (Elt F) (flSl L).view (fl d) j = fl d ((flSl L).view.emb j) from fun j => (View.read_apply _ _).trans (cast_eq _ _)]
  refine congrArg (fl d) ?_
  funext a
  refine Fin.ext ?_
  match a with
  | ⟨0, h0⟩ =>
    have e1 : ∀ y : S25600.Idx, ((flSl L).view.emb y ⟨0, h0⟩).val = (k0_off1 L) ⟨0, h0⟩ + 1 * (y ⟨0, h0⟩).val := fun _ => rfl
    have e2 : (((tkS).slice (Rect.unit (s := S25600) ![off] S128.size inb) hr).view.emb x ⟨0, h0⟩).val = off + 1 * (x ⟨0, h0⟩).val := rfl
    rw [e1, e2, k0_off1_eq]
    show 51200 * (L 1).val + 25600 * (L 0).val + 1 * (off + 1 * (x 0).val) = 25600 * (2 * (L 1).val + (L 0).val) + off + (x 0).val
    omega

set_option maxRecDepth 8192 in
/-- THE GATHER'S LANDING: the payload the indexed copy delivers — the pair table read at the rows the window's words
    name — is the block of the tile's tokens from off on. -/
theorem gather_eq (hin : InRange fl) (off : ℕ) (h : off + 128 ≤ 25600)
    (inb : ∀ a, (![off] : Fin 1 → Nat) a + S128.size a ≤ S25600.size a)
    (hr : ∀ a, (Rect.unit (s := S25600) ![off] S128.size inb).stride a = 1)
    (g : Buf (Elt F) ((tkS).view.loc (V d (cV L) (jV L))))
    (hp : ∀ a, (Rect.unit (s := S1000000x128) ![0, 0] S1000000x128.size inb_S1000000x128_S1000000x128_0_0).stride a = 1)
    (hn : S128.numel = S128x128.size gathers_S1000000x128_S128x128.axis')
    (hin' : ∀ x, (View.read (Elt F) ((tkS).slice (Rect.unit (s := S25600) ![off] S128.size inb) hr).view
        (View.write (Elt F) (tkS).view g (ReadAs.same.apply (View.read (Elt F) (flSl L).view (fl d))) Finset.univ) x).toNat
          < S1000000x128.size gathers_S1000000x128_S128x128.axis) :
    SparseCore.gatherPayload (F := F) gathers_S1000000x128_S128x128
        (View.read (Elt F) ((prV).slice (Rect.unit (s := S1000000x128) ![0, 0] S1000000x128.size inb_S1000000x128_S1000000x128_0_0) hp).view (pr d))
        (SparseCore.rows (View.read (Elt F) ((tkS).slice (Rect.unit (s := S25600) ![off] S128.size inb) hr).view
          (View.write (Elt F) (tkS).view g (ReadAs.same.apply (View.read (Elt F) (flSl L).view (fl d))) Finset.univ)) hn hin')
      = GP fl pr d L off h := by
  have hidx := tok_read fl d L off h inb hr g
  generalize View.read (Elt F) ((tkS).slice (Rect.unit (s := S25600) ![off] S128.size inb) hr).view
      (View.write (Elt F) (tkS).view g (ReadAs.same.apply (View.read (Elt F) (flSl L).view (fl d))) Finset.univ) = idxf at hin' hidx ⊢
  funext j
  unfold SparseCore.gatherPayload
  rw [show ∀ y, View.read (Elt F) ((prV).slice (Rect.unit (s := S1000000x128) ![0, 0] S1000000x128.size inb_S1000000x128_S1000000x128_0_0) hp).view (pr d) y
      = pr d (((prV).slice (Rect.unit (s := S1000000x128) ![0, 0] S1000000x128.size inb_S1000000x128_S1000000x128_0_0) hp).view.emb y) from
    fun y => (View.read_apply _ _).trans (cast_eq _ _)]
  unfold GP
  refine congrArg (pr d) ?_
  funext a
  refine Fin.ext ?_
  match a with
  | ⟨0, h0⟩ =>
    -- the row: the word of the window at the block row's position, read unsigned: the clamp of a word in range
    have eA : ∀ y : S1000000x128.Idx,
        (((prV).slice (Rect.unit (s := S1000000x128) ![0, 0] S1000000x128.size inb_S1000000x128_S1000000x128_0_0) hp).view.emb y ⟨0, h0⟩).val
          = 0 + 1 * (y ⟨0, h0⟩).val := fun _ => rfl
    rw [eA, Nat.zero_add, Nat.one_mul]
    refine (congrArg Fin.val (Shape.Gathers.idx_axis gathers_S1000000x128_S128x128 (SparseCore.rows idxf hn hin') j)).trans ?_
    show (idxf _).toNat = (Cert.Lib.takeRow 1000000 Cert.Spec.rows_pos (fl d (ix1 ⟨25600 * (wL L).val + off + (j 0).val, tok_lt L off h _ (j 0).isLt⟩))).val
    rw [hidx, Cert.Lib.takeRow_of_lt 1000000 Cert.Spec.rows_pos (by decide) _ (hin d _)]
    refine congrArg (fun t => (fl d (ix1 t)).toNat) (Fin.ext ?_)
    refine congrArg (fun n => 25600 * (wL L).val + off + n) ?_
    exact rowMajor_symm_one (n := S128.size) _
  | ⟨1, h1⟩ =>
    have eA : ∀ y : S1000000x128.Idx,
        (((prV).slice (Rect.unit (s := S1000000x128) ![0, 0] S1000000x128.size inb_S1000000x128_S1000000x128_0_0) hp).view.emb y ⟨1, h1⟩).val
          = 0 + 1 * (y ⟨1, h1⟩).val := fun _ => rfl
    rw [eA, Nat.zero_add, Nat.one_mul]
    exact Shape.Gathers.idx_of_ne gathers_S1000000x128_S128x128 _ j ⟨1, h1⟩ Nat.one_ne_zero

/-! ## The coefficient rows -/

section Coef

variable (f5 : Buf (Elt F) ((cfS).view.loc (V d (cV L) (jV L))))

/-- Coefficient row 0 as the body loads it from its scratch after the fetch of the coefficient block; row 1. -/
def c0M : FVec F S16 .f32 :=
  k0_pay53 (View.readAt (Elt F) (cfS).view (Rect.unit (s := S2x16) ![0, 0] S1x16.size inb_S2x16_S1x16_0_0).toLoadRect
    (View.write (Elt F) (cfS).view f5 (ReadAs.same.apply (View.read (Elt F) (cbV).view (cb d))) Finset.univ))
def c1M : FVec F S16 .f32 :=
  k0_pay54 (View.readAt (Elt F) (cfS).view (Rect.unit (s := S2x16) ![1, 0] S1x16.size inb_S2x16_S1x16_1_0).toLoadRect
    (View.write (Elt F) (cfS).view f5 (ReadAs.same.apply (View.read (Elt F) (cbV).view (cb d))) Finset.univ))

theorem c0M_apply (l : Fin 16) : c0M cb d L f5 (ix1 l) = cb d (ix2 0 l) := by
  have hw : View.write (Elt F) (cfS).view f5 (ReadAs.same.apply (View.read (Elt F) (cbV).view (cb d))) Finset.univ
      = ReadAs.same.apply (View.read (Elt F) (cbV).view (cb d)) := View.write_whole_univ _ _ _
  unfold c0M
  rw [hw]
  show shapeCast S16 (View.readAt (Elt F) (cfS).view (Rect.unit (s := S2x16) ![0, 0] S1x16.size inb_S2x16_S1x16_0_0).toLoadRect
      (ReadAs.same.apply (View.read (Elt F) (cbV).view (cb d)))) shapeCasts_S1x16_S16 (ix1 l) = _
  refine (shapeCast_apply _ shapeCasts_S1x16_S16 (ix1 l) (ix2 (0 : Fin 1) l) ?_).trans ?_
  · rw [Shape.rowMajor_val_two, Shape.rowMajor_val_one]
    show 0 * 16 + l.val = l.val
    omega
  · show cb d _ = cb d _
    refine congrArg (cb d) ?_
    funext a
    refine Fin.ext ?_
    match a with
    | ⟨0, _⟩ => rfl
    | ⟨1, _⟩ =>
      show 0 + 1 * l.val = l.val
      omega

theorem c1M_apply (l : Fin 16) : c1M cb d L f5 (ix1 l) = cb d (ix2 1 l) := by
  have hw : View.write (Elt F) (cfS).view f5 (ReadAs.same.apply (View.read (Elt F) (cbV).view (cb d))) Finset.univ
      = ReadAs.same.apply (View.read (Elt F) (cbV).view (cb d)) := View.write_whole_univ _ _ _
  unfold c1M
  rw [hw]
  show shapeCast S16 (View.readAt (Elt F) (cfS).view (Rect.unit (s := S2x16) ![1, 0] S1x16.size inb_S2x16_S1x16_1_0).toLoadRect
      (ReadAs.same.apply (View.read (Elt F) (cbV).view (cb d)))) shapeCasts_S1x16_S16 (ix1 l) = _
  refine (shapeCast_apply _ shapeCasts_S1x16_S16 (ix1 l) (ix2 (0 : Fin 1) l) ?_).trans ?_
  · rw [Shape.rowMajor_val_two, Shape.rowMajor_val_one]
    show 0 * 16 + l.val = l.val
    omega
  · show cb d _ = cb d _
    refine congrArg (cb d) ?_
    funext a
    refine Fin.ext ?_
    match a with
    | ⟨0, _⟩ => rfl
    | ⟨1, _⟩ =>
      show 0 + 1 * l.val = l.val
      omega

/-! ## A chunk's value -/

omit [FloatOps F] in
theorem row_lt (g : ℕ) (hg : g < 200) (ρ : Fin 64) : 12800 * (wL L).val + 64 * g + ρ.val < 409600 := by
  have := (wL L).isLt; have := ρ.isLt; omega

/-- THE CHUNK'S VALUE: the merged block of chunk g, at row ρ below 64, is the call's result at row
    12800·w + 64·g + ρ. -/
theorem chunk_eq (g : ℕ) (hg : g < 200) (ρ : Fin 64) (q : Fin 128) :
    merged (c0M cb d L f5) (c1M cb d L f5) (GP fl pr d L (128 * g) (by omega)) (ix2 (⟨ρ.val, by have := ρ.isLt; omega⟩ : Fin 128) q)
      = outF fl pr cb d (ix2 (⟨12800 * (wL L).val + 64 * g + ρ.val, row_lt L g hg ρ⟩ : Fin 409600) q) := by
  have key : ∀ C : Fin 128,
      GP fl pr d L (128 * g) (by omega) (ix2 (⟨2 * ρ.val + q.val / 64, by have := ρ.isLt; have := q.isLt; omega⟩ : Fin 128) C)
        = pr d (ix2 (Cert.KOut.prow (fl d) (Cert.KOut.tok ⟨12800 * (wL L).val + 64 * g + ρ.val, row_lt L g hg ρ⟩ q)) C) := by
    intro C
    unfold GP Cert.KOut.prow
    refine congrArg (fun t => pr d (ix2 (Cert.Lib.takeRow 1000000 Cert.Spec.rows_pos (fl d (ix1 t))) C)) (Fin.ext ?_)
    show 25600 * (wL L).val + 128 * g + (2 * ρ.val + q.val / 64) = 2 * (12800 * (wL L).val + 64 * g + ρ.val) + q.val / 64
    omega
  rw [merged_apply_lt]
  unfold mrow
  rw [c0M_apply, c1M_apply, key, key]
  unfold outF
  rw [Cert.KOut.out_apply]
  rfl

end Coef

end Val

end Cert.Proof.KB

end
-- ==== Proof.KBTileOut.lean ====
-- The text of module TileOut, read over the word-level program in place of the idealized one.
/-
  The tile's result rows, slot by slot within one outer trip.

  The tile's first result row is 25600·(L 1) + 12800·(L 0) = 12800·w. In outer trip k the four slots b = 0..3 each
  copy their merged rows 0..63 into result rows 256·k + 64·b .. + 63 (counted from the tile's first row). After the
  first n slots of trip k the rows below 256·k + 64·n hold the call's result function and the others what they
  started with; one slot's copy, whose payload is the call's result function on its 64 rows, takes n to n + 1.
-/
import proofs.«205127_g70231305225025_cont_9to1c4b_198_32_alg».proof.Proof.KBTileInv
import proofs.«205127_g70231305225025_cont_9to1c4b_198_32_alg».proof.Proof.KBTileValue
import proofs.«205127_g70231305225025_cont_9to1c4b_198_32_alg».proof.Proof.KBTileGeom

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

section Out
variable [FloatOps F]
variable (pr : (d : Dev nD) → Buf (Elt F) (prLoc d)) (fl : (d : Dev nD) → Buf (Elt F) (flLoc d))
  (cb : (d : Dev nD) → Buf (Elt F) (cbLoc d)) (o₀ : (d : Dev nD) → Buf (Elt F) (ouLoc d))
variable (d : Dev nD) (L : grid0.Coords)

/-- The tile's result rows after the chunks of the first k outer trips and of the first n slots of trip k. -/
def OMr (k n : ℕ) : Buf (Elt F) ((ouV).view.loc (V d (cV L) (jV L))) :=
  fun j => if (j 0).val < 25600 * (L 1).val + 12800 * (L 0).val + 256 * k + 64 * n then outF fl pr cb d j else o₀ d j

theorem OMr_zero (k : ℕ) : OMr pr fl cb o₀ d L k 0 = OM pr fl cb o₀ d L k := rfl

theorem OMr_four (k : ℕ) : OMr pr fl cb o₀ d L k 4 = OM pr fl cb o₀ d L (k + 1) := by
  funext j
  unfold OMr OM
  rw [show 25600 * (L 1).val + 12800 * (L 0).val + 256 * k + 64 * 4 = 25600 * (L 1).val + 12800 * (L 0).val + 256 * (k + 1) from by omega]

omit [FloatOps F] in
/-- Row ρ of slot b of trip k lies among the array's rows. -/
theorem ou_row_lt (k b ρ : ℕ) (hk : k < 50) (hb : b < 4) (hρ : ρ < 64) : 25600 * (L 1).val + 12800 * (L 0).val + 256 * k + 64 * b + ρ < 409600 := by
  have h0 : (L 0).val < 2 := (L 0).isLt
  have h1 : (L 1).val < 16 := (L 1).isLt
  omega

/-- A write through a rectangle that is exactly the 64 rows of slot n of trip k, of a payload that is the call's result
    function there, takes the rows done through slot n − 1 to the rows done through slot n. -/
theorem ou_write_gen (k n : ℕ) (R : Rect S409600x128) (hr : ∀ a, R.stride a = 1)
    (hmem : ∀ j : S409600x128.Idx, j ∈ R.set ↔ 25600 * (L 1).val + 12800 * (L 0).val + 256 * k + 64 * n ≤ (j 0).val
      ∧ (j 0).val < 25600 * (L 1).val + 12800 * (L 0).val + 256 * k + 64 * n + 64)
    (P : R.shape.Idx → Elt F .f32) (hP : ∀ x, P x = outF fl pr cb d (R.emb x))
    (j : Idx ((ouV).view.loc (V d (cV L) (jV L)))) :
    View.write (Elt F) ((ouV).slice R hr).view (OMr pr fl cb o₀ d L k n) P Finset.univ j
      = OMr pr fl cb o₀ d L k (n + 1) j := by
  by_cases hj : j ∈ R.set
  · obtain ⟨x, rfl⟩ := R.exists_idx_of_mem hj
    have h1 := View.read_slice_write_emb (v := (ouV).view) R (OMr pr fl cb o₀ d L k n) P (Finset.mem_univ x)
    refine (h1 : _).trans ?_
    rw [hP]
    show outF fl pr cb d (R.idx x) = OMr pr fl cb o₀ d L k (n + 1) (R.idx x)
    have hx := (hmem (R.idx x)).1 hj
    unfold OMr
    rw [if_pos (by omega)]
  · have h1 := View.read_slice_write_of_not_mem (v := (ouV).view) R (OMr pr fl cb o₀ d L k n) P Finset.univ (y := j)
      (by rw [Rect.map_emb_univ]; exact hj)
    refine (h1 : _).trans ?_
    show OMr pr fl cb o₀ d L k n j = OMr pr fl cb o₀ d L k (n + 1) j
    have hn := mt (hmem j).2 hj
    unfold OMr
    by_cases c : (j 0).val < 25600 * (L 1).val + 12800 * (L 0).val + 256 * k + 64 * n
    · rw [if_pos c, if_pos (by omega)]
    · rw [if_neg c, if_neg (by omega)]

/-- ONE SLOT'S COPY: through the window the body writes for slot b of trip k, a payload that is the call's result
    function on those 64 rows takes the rows done through slot b − 1 to the rows done through slot b. -/
theorem ou_step (k : Fin k0_t1_loop.trips) (b : Fin 4)
    (hr : ∀ a, (Rect.unit (s := S409600x128) (k0_off27 L k (BitVec.ofNat 32 b.val)) S64x128.size (k0_off27_inb L k b)).stride a = 1)
    (P : (Rect.unit (s := S409600x128) (k0_off27 L k (BitVec.ofNat 32 b.val)) S64x128.size (k0_off27_inb L k b)).shape.Idx → Elt F .f32)
    (hP : ∀ (ρ : Fin 64) (q : Fin 128), P (ix2 ρ q)
      = outF fl pr cb d (ix2 (⟨25600 * (L 1).val + 12800 * (L 0).val + 256 * k.val + 64 * b.val + ρ.val,
          ou_row_lt L k.val b.val ρ.val (Nat.lt_of_lt_of_le k.isLt k0_t1_abs.2.1) b.isLt ρ.isLt⟩ : Fin 409600) q)) :
    ∀ j ∈ (ouV).view.setOn (ouR L).set,
      View.write (Elt F) ((ouV).slice (Rect.unit (s := S409600x128) (k0_off27 L k (BitVec.ofNat 32 b.val)) S64x128.size (k0_off27_inb L k b)) hr).view
          (OMr pr fl cb o₀ d L k.val b.val) P Finset.univ j
        = OMr pr fl cb o₀ d L k.val (b.val + 1) j := by
  intro j _
  have hk : k.val < 50 := Nat.lt_of_lt_of_le k.isLt k0_t1_abs.2.1
  have hb : 256 * k.val + 64 * b.val + 64 ≤ 12800 := chR_bound hk b.isLt
  refine ou_write_gen pr fl cb o₀ d L k.val b.val _ hr (fun j => ?_) P (fun x => ?_) j
  · rw [chK_eq L k b hb]
    exact mem_chR_iff L k.val b.val hb j
  · obtain ⟨ρ, q, rfl⟩ : ∃ (ρ : Fin 64) (q : Fin 128), x = ix2 ρ q := ⟨x 0, x 1, eq_ix2 x⟩
    rw [hP]
    refine congrArg (outF fl pr cb d) ?_
    funext a
    refine Fin.ext ?_
    match a with
    | ⟨0, h0⟩ =>
      show 25600 * (L 1).val + 12800 * (L 0).val + 256 * k.val + 64 * b.val + ρ.val = (k0_off27 L k (BitVec.ofNat 32 b.val)) ⟨0, h0⟩ + 1 * ρ.val
      rw [k0_off27_eq L k b]
      show 25600 * (L 1).val + 12800 * (L 0).val + 256 * k.val + 64 * b.val + ρ.val = 25600 * (L 1).val + 12800 * (L 0).val + 256 * k.val + 64 * b.val + 1 * ρ.val
      omega
    | ⟨1, h1⟩ =>
      show q.val = (k0_off27 L k (BitVec.ofNat 32 b.val)) ⟨1, h1⟩ + 1 * q.val
      rw [k0_off27_eq L k b]
      show q.val = 0 + 1 * q.val
      omega

/-- The same, of the points-to of the tile's result rows. -/
theorem ou_step_pts (k : Fin k0_t1_loop.trips) (b : Fin 4)
    (hr : ∀ a, (Rect.unit (s := S409600x128) (k0_off27 L k (BitVec.ofNat 32 b.val)) S64x128.size (k0_off27_inb L k b)).stride a = 1)
    (P : (Rect.unit (s := S409600x128) (k0_off27 L k (BitVec.ofNat 32 b.val)) S64x128.size (k0_off27_inb L k b)).shape.Idx → Elt F .f32)
    (hP : ∀ (ρ : Fin 64) (q : Fin 128), P (ix2 ρ q)
      = outF fl pr cb d (ix2 (⟨25600 * (L 1).val + 12800 * (L 0).val + 256 * k.val + 64 * b.val + ρ.val,
          ou_row_lt L k.val b.val ρ.val (Nat.lt_of_lt_of_le k.isLt k0_t1_abs.2.1) b.isLt ρ.isLt⟩ : Fin 409600) q)) :
    ((ouV).view.loc (V d (cV L) (jV L)) ↦[(ouV).view.setOn (ouR L).set]{fullShare}
        View.write (Elt F) ((ouV).slice (Rect.unit (s := S409600x128) (k0_off27 L k (BitVec.ofNat 32 b.val)) S64x128.size (k0_off27_inb L k b)) hr).view
          (OMr pr fl cb o₀ d L k.val b.val) P Finset.univ : sProp 𝕄)
      = ((ouV).view.loc (V d (cV L) (jV L)) ↦[(ouV).view.setOn (ouR L).set]{fullShare} OMr pr fl cb o₀ d L k.val (b.val + 1)) :=
  pointsTo_congr (ou_step pr fl cb o₀ d L k b hr P hP)

/-- The landed block depends on the window's offset only through its value. -/
theorem GP_off_congr (off off' : ℕ) (e : off = off') (h : off + 128 ≤ 25600) (h' : off' + 128 ≤ 25600) :
    GP fl pr d L off h = GP fl pr d L off' h' := by
  subst e
  rfl

/-- What slot 0's write-out reads: rows 0..63 of the slot's contents, as they are. -/
theorem slot_out_read_0 (hr' : ∀ a, (Rect.unit (s := S128x128) ![0, 0] S64x128.size inb_S128x128_S64x128_0_0).stride a = 1) (X : S128x128.Idx → Elt F .f32)
    (x : (Rect.unit (s := S128x128) ![0, 0] S64x128.size inb_S128x128_S64x128_0_0).shape.Idx) :
    ReadAs.same.apply (View.read (Elt F) ((sl0).slice (Rect.unit (s := S128x128) ![0, 0] S64x128.size inb_S128x128_S64x128_0_0) hr').view X) x
      = X (ix2 (⟨(x 0).val, by have h : (x 0).val < 64 := (x 0).isLt; omega⟩ : Fin 128) (x 1)) := by
  show View.read (Elt F) ((sl0).slice (Rect.unit (s := S128x128) ![0, 0] S64x128.size inb_S128x128_S64x128_0_0) hr').view X x = _
  refine ((View.read_apply _ _).trans (cast_eq _ _)).trans ?_
  refine congrArg X ?_
  funext a
  refine Fin.ext ?_
  match a with
  | ⟨0, _⟩ =>
    show 0 + 1 * (x 0).val = (x 0).val
    omega
  | ⟨1, _⟩ =>
    show 0 + 1 * (x 1).val = (x 1).val
    omega

/-- SLOT 0'S PAYLOAD in outer trip k: the merged block of the chunk its gather landed (tokens from 512·k + 128·0 of
    the tile's), read through the write-out's window, is the call's result function on result rows
    256·k + 64·0 .. + 63 from the tile's first row. -/
theorem slot_payload_0 (hin : InRange fl) (k : Fin k0_t1_loop.trips)
    (f5 : Buf (Elt F) ((cfS).view.loc (V d (cV L) (jV L)))) (f0 : Buf (Elt F) ((tkS).view.loc (V d (cV L) (jV L))))
    (g : (sl0).view.ty.Contents (Elt F))
    (inb : ∀ a, (![512 * k.val + 128 * 0] : Fin 1 → Nat) a + S128.size a ≤ S25600.size a)
    (hr : ∀ a, (Rect.unit (s := S25600) ![512 * k.val + 128 * 0] S128.size inb).stride a = 1)
    (hp : ∀ a, (Rect.unit (s := S1000000x128) ![0, 0] S1000000x128.size inb_S1000000x128_S1000000x128_0_0).stride a = 1)
    (hn : S128.numel = S128x128.size gathers_S1000000x128_S128x128.axis')
    (hin' : ∀ x, ((View.read (Elt F) ((tkS).slice (Rect.unit (s := S25600) ![512 * k.val + 128 * 0] S128.size inb) hr).view (View.write (Elt F) (tkS).view f0 (ReadAs.same.apply (View.read (Elt F) (flSl L).view (fl d))) Finset.univ)) x).toNat < S1000000x128.size gathers_S1000000x128_S128x128.axis)
    (hr' : ∀ a, (Rect.unit (s := S128x128) ![0, 0] S64x128.size inb_S128x128_S64x128_0_0).stride a = 1) (x : (Rect.unit (s := S128x128) ![0, 0] S64x128.size inb_S128x128_S64x128_0_0).shape.Idx) :
    ReadAs.same.apply (View.read (Elt F) ((sl0).slice (Rect.unit (s := S128x128) ![0, 0] S64x128.size inb_S128x128_S64x128_0_0) hr').view
        (merged (c0M cb d L f5) (c1M cb d L f5)
          ((sl0).view.writes (Elt F) g [⟨Rect.whole S128x128, (SparseCore.gatherPayload (F := F) gathers_S1000000x128_S128x128 (View.read (Elt F) ((prV).slice (Rect.unit (s := S1000000x128) ![0, 0] S1000000x128.size inb_S1000000x128_S1000000x128_0_0) hp).view (pr d)) (SparseCore.rows (View.read (Elt F) ((tkS).slice (Rect.unit (s := S25600) ![512 * k.val + 128 * 0] S128.size inb) hr).view (View.write (Elt F) (tkS).view f0 (ReadAs.same.apply (View.read (Elt F) (flSl L).view (fl d))) Finset.univ)) hn hin'))⟩]))) x
      = outF fl pr cb d (ix2 (⟨25600 * (L 1).val + 12800 * (L 0).val + 256 * k.val + 64 * 0 + (x 0).val,
          ou_row_lt L k.val 0 (x 0).val (Nat.lt_of_lt_of_le k.isLt k0_t1_abs.2.1) (by decide) (x 0).isLt⟩ : Fin 409600) (x 1)) := by
  have hk : k.val < 50 := Nat.lt_of_lt_of_le k.isLt k0_t1_abs.2.1
  have hx0 : (x 0).val < 64 := (x 0).isLt
  rw [slot_out_read_0, writes_whole_sl0,
    gather_eq fl pr d L hin (512 * k.val + 128 * 0) (by omega) inb hr f0 hp hn hin',
    GP_off_congr pr fl d L (512 * k.val + 128 * 0) (128 * (4 * k.val + 0)) (by omega) (by omega) (by omega)]
  refine (chunk_eq fl pr cb d L f5 (4 * k.val + 0) (by omega) ⟨(x 0).val, hx0⟩ (x 1)).trans ?_
  refine congrArg (fun t => outF fl pr cb d (ix2 t (x 1))) (Fin.ext ?_)
  show 12800 * (2 * (L 1).val + (L 0).val) + 64 * (4 * k.val + 0) + (x 0).val
    = 25600 * (L 1).val + 12800 * (L 0).val + 256 * k.val + 64 * 0 + (x 0).val
  omega

/-- What slot 1's write-out reads: rows 0..63 of the slot's contents, as they are. -/
theorem slot_out_read_1 (hr' : ∀ a, (Rect.unit (s := S128x128) ![0, 0] S64x128.size inb_S128x128_S64x128_0_0).stride a = 1) (X : S128x128.Idx → Elt F .f32)
    (x : (Rect.unit (s := S128x128) ![0, 0] S64x128.size inb_S128x128_S64x128_0_0).shape.Idx) :
    ReadAs.same.apply (View.read (Elt F) ((sl1).slice (Rect.unit (s := S128x128) ![0, 0] S64x128.size inb_S128x128_S64x128_0_0) hr').view X) x
      = X (ix2 (⟨(x 0).val, by have h : (x 0).val < 64 := (x 0).isLt; omega⟩ : Fin 128) (x 1)) := by
  show View.read (Elt F) ((sl1).slice (Rect.unit (s := S128x128) ![0, 0] S64x128.size inb_S128x128_S64x128_0_0) hr').view X x = _
  refine ((View.read_apply _ _).trans (cast_eq _ _)).trans ?_
  refine congrArg X ?_
  funext a
  refine Fin.ext ?_
  match a with
  | ⟨0, _⟩ =>
    show 0 + 1 * (x 0).val = (x 0).val
    omega
  | ⟨1, _⟩ =>
    show 0 + 1 * (x 1).val = (x 1).val
    omega

/-- SLOT 1'S PAYLOAD in outer trip k: the merged block of the chunk its gather landed (tokens from 512·k + 128·1 of
    the tile's), read through the write-out's window, is the call's result function on result rows
    256·k + 64·1 .. + 63 from the tile's first row. -/
theorem slot_payload_1 (hin : InRange fl) (k : Fin k0_t1_loop.trips)
    (f5 : Buf (Elt F) ((cfS).view.loc (V d (cV L) (jV L)))) (f0 : Buf (Elt F) ((tkS).view.loc (V d (cV L) (jV L))))
    (g : (sl1).view.ty.Contents (Elt F))
    (inb : ∀ a, (![512 * k.val + 128 * 1] : Fin 1 → Nat) a + S128.size a ≤ S25600.size a)
    (hr : ∀ a, (Rect.unit (s := S25600) ![512 * k.val + 128 * 1] S128.size inb).stride a = 1)
    (hp : ∀ a, (Rect.unit (s := S1000000x128) ![0, 0] S1000000x128.size inb_S1000000x128_S1000000x128_0_0).stride a = 1)
    (hn : S128.numel = S128x128.size gathers_S1000000x128_S128x128.axis')
    (hin' : ∀ x, ((View.read (Elt F) ((tkS).slice (Rect.unit (s := S25600) ![512 * k.val + 128 * 1] S128.size inb) hr).view (View.write (Elt F) (tkS).view f0 (ReadAs.same.apply (View.read (Elt F) (flSl L).view (fl d))) Finset.univ)) x).toNat < S1000000x128.size gathers_S1000000x128_S128x128.axis)
    (hr' : ∀ a, (Rect.unit (s := S128x128) ![0, 0] S64x128.size inb_S128x128_S64x128_0_0).stride a = 1) (x : (Rect.unit (s := S128x128) ![0, 0] S64x128.size inb_S128x128_S64x128_0_0).shape.Idx) :
    ReadAs.same.apply (View.read (Elt F) ((sl1).slice (Rect.unit (s := S128x128) ![0, 0] S64x128.size inb_S128x128_S64x128_0_0) hr').view
        (merged (c0M cb d L f5) (c1M cb d L f5)
          ((sl1).view.writes (Elt F) g [⟨Rect.whole S128x128, (SparseCore.gatherPayload (F := F) gathers_S1000000x128_S128x128 (View.read (Elt F) ((prV).slice (Rect.unit (s := S1000000x128) ![0, 0] S1000000x128.size inb_S1000000x128_S1000000x128_0_0) hp).view (pr d)) (SparseCore.rows (View.read (Elt F) ((tkS).slice (Rect.unit (s := S25600) ![512 * k.val + 128 * 1] S128.size inb) hr).view (View.write (Elt F) (tkS).view f0 (ReadAs.same.apply (View.read (Elt F) (flSl L).view (fl d))) Finset.univ)) hn hin'))⟩]))) x
      = outF fl pr cb d (ix2 (⟨25600 * (L 1).val + 12800 * (L 0).val + 256 * k.val + 64 * 1 + (x 0).val,
          ou_row_lt L k.val 1 (x 0).val (Nat.lt_of_lt_of_le k.isLt k0_t1_abs.2.1) (by decide) (x 0).isLt⟩ : Fin 409600) (x 1)) := by
  have hk : k.val < 50 := Nat.lt_of_lt_of_le k.isLt k0_t1_abs.2.1
  have hx0 : (x 0).val < 64 := (x 0).isLt
  rw [slot_out_read_1, writes_whole_sl1,
    gather_eq fl pr d L hin (512 * k.val + 128 * 1) (by omega) inb hr f0 hp hn hin',
    GP_off_congr pr fl d L (512 * k.val + 128 * 1) (128 * (4 * k.val + 1)) (by omega) (by omega) (by omega)]
  refine (chunk_eq fl pr cb d L f5 (4 * k.val + 1) (by omega) ⟨(x 0).val, hx0⟩ (x 1)).trans ?_
  refine congrArg (fun t => outF fl pr cb d (ix2 t (x 1))) (Fin.ext ?_)
  show 12800 * (2 * (L 1).val + (L 0).val) + 64 * (4 * k.val + 1) + (x 0).val
    = 25600 * (L 1).val + 12800 * (L 0).val + 256 * k.val + 64 * 1 + (x 0).val
  omega

/-- What slot 2's write-out reads: rows 0..63 of the slot's contents, as they are. -/
theorem slot_out_read_2 (hr' : ∀ a, (Rect.unit (s := S128x128) ![0, 0] S64x128.size inb_S128x128_S64x128_0_0).stride a = 1) (X : S128x128.Idx → Elt F .f32)
    (x : (Rect.unit (s := S128x128) ![0, 0] S64x128.size inb_S128x128_S64x128_0_0).shape.Idx) :
    ReadAs.same.apply (View.read (Elt F) ((sl2).slice (Rect.unit (s := S128x128) ![0, 0] S64x128.size inb_S128x128_S64x128_0_0) hr').view X) x
      = X (ix2 (⟨(x 0).val, by have h : (x 0).val < 64 := (x 0).isLt; omega⟩ : Fin 128) (x 1)) := by
  show View.read (Elt F) ((sl2).slice (Rect.unit (s := S128x128) ![0, 0] S64x128.size inb_S128x128_S64x128_0_0) hr').view X x = _
  refine ((View.read_apply _ _).trans (cast_eq _ _)).trans ?_
  refine congrArg X ?_
  funext a
  refine Fin.ext ?_
  match a with
  | ⟨0, _⟩ =>
    show 0 + 1 * (x 0).val = (x 0).val
    omega
  | ⟨1, _⟩ =>
    show 0 + 1 * (x 1).val = (x 1).val
    omega

/-- SLOT 2'S PAYLOAD in outer trip k: the merged block of the chunk its gather landed (tokens from 512·k + 128·2 of
    the tile's), read through the write-out's window, is the call's result function on result rows
    256·k + 64·2 .. + 63 from the tile's first row. -/
theorem slot_payload_2 (hin : InRange fl) (k : Fin k0_t1_loop.trips)
    (f5 : Buf (Elt F) ((cfS).view.loc (V d (cV L) (jV L)))) (f0 : Buf (Elt F) ((tkS).view.loc (V d (cV L) (jV L))))
    (g : (sl2).view.ty.Contents (Elt F))
    (inb : ∀ a, (![512 * k.val + 128 * 2] : Fin 1 → Nat) a + S128.size a ≤ S25600.size a)
    (hr : ∀ a, (Rect.unit (s := S25600) ![512 * k.val + 128 * 2] S128.size inb).stride a = 1)
    (hp : ∀ a, (Rect.unit (s := S1000000x128) ![0, 0] S1000000x128.size inb_S1000000x128_S1000000x128_0_0).stride a = 1)
    (hn : S128.numel = S128x128.size gathers_S1000000x128_S128x128.axis')
    (hin' : ∀ x, ((View.read (Elt F) ((tkS).slice (Rect.unit (s := S25600) ![512 * k.val + 128 * 2] S128.size inb) hr).view (View.write (Elt F) (tkS).view f0 (ReadAs.same.apply (View.read (Elt F) (flSl L).view (fl d))) Finset.univ)) x).toNat < S1000000x128.size gathers_S1000000x128_S128x128.axis)
    (hr' : ∀ a, (Rect.unit (s := S128x128) ![0, 0] S64x128.size inb_S128x128_S64x128_0_0).stride a = 1) (x : (Rect.unit (s := S128x128) ![0, 0] S64x128.size inb_S128x128_S64x128_0_0).shape.Idx) :
    ReadAs.same.apply (View.read (Elt F) ((sl2).slice (Rect.unit (s := S128x128) ![0, 0] S64x128.size inb_S128x128_S64x128_0_0) hr').view
        (merged (c0M cb d L f5) (c1M cb d L f5)
          ((sl2).view.writes (Elt F) g [⟨Rect.whole S128x128, (SparseCore.gatherPayload (F := F) gathers_S1000000x128_S128x128 (View.read (Elt F) ((prV).slice (Rect.unit (s := S1000000x128) ![0, 0] S1000000x128.size inb_S1000000x128_S1000000x128_0_0) hp).view (pr d)) (SparseCore.rows (View.read (Elt F) ((tkS).slice (Rect.unit (s := S25600) ![512 * k.val + 128 * 2] S128.size inb) hr).view (View.write (Elt F) (tkS).view f0 (ReadAs.same.apply (View.read (Elt F) (flSl L).view (fl d))) Finset.univ)) hn hin'))⟩]))) x
      = outF fl pr cb d (ix2 (⟨25600 * (L 1).val + 12800 * (L 0).val + 256 * k.val + 64 * 2 + (x 0).val,
          ou_row_lt L k.val 2 (x 0).val (Nat.lt_of_lt_of_le k.isLt k0_t1_abs.2.1) (by decide) (x 0).isLt⟩ : Fin 409600) (x 1)) := by
  have hk : k.val < 50 := Nat.lt_of_lt_of_le k.isLt k0_t1_abs.2.1
  have hx0 : (x 0).val < 64 := (x 0).isLt
  rw [slot_out_read_2, writes_whole_sl2,
    gather_eq fl pr d L hin (512 * k.val + 128 * 2) (by omega) inb hr f0 hp hn hin',
    GP_off_congr pr fl d L (512 * k.val + 128 * 2) (128 * (4 * k.val + 2)) (by omega) (by omega) (by omega)]
  refine (chunk_eq fl pr cb d L f5 (4 * k.val + 2) (by omega) ⟨(x 0).val, hx0⟩ (x 1)).trans ?_
  refine congrArg (fun t => outF fl pr cb d (ix2 t (x 1))) (Fin.ext ?_)
  show 12800 * (2 * (L 1).val + (L 0).val) + 64 * (4 * k.val + 2) + (x 0).val
    = 25600 * (L 1).val + 12800 * (L 0).val + 256 * k.val + 64 * 2 + (x 0).val
  omega

/-- What slot 3's write-out reads: rows 0..63 of the slot's contents, as they are. -/
theorem slot_out_read_3 (hr' : ∀ a, (Rect.unit (s := S128x128) ![0, 0] S64x128.size inb_S128x128_S64x128_0_0).stride a = 1) (X : S128x128.Idx → Elt F .f32)
    (x : (Rect.unit (s := S128x128) ![0, 0] S64x128.size inb_S128x128_S64x128_0_0).shape.Idx) :
    ReadAs.same.apply (View.read (Elt F) ((sl3).slice (Rect.unit (s := S128x128) ![0, 0] S64x128.size inb_S128x128_S64x128_0_0) hr').view X) x
      = X (ix2 (⟨(x 0).val, by have h : (x 0).val < 64 := (x 0).isLt; omega⟩ : Fin 128) (x 1)) := by
  show View.read (Elt F) ((sl3).slice (Rect.unit (s := S128x128) ![0, 0] S64x128.size inb_S128x128_S64x128_0_0) hr').view X x = _
  refine ((View.read_apply _ _).trans (cast_eq _ _)).trans ?_
  refine congrArg X ?_
  funext a
  refine Fin.ext ?_
  match a with
  | ⟨0, _⟩ =>
    show 0 + 1 * (x 0).val = (x 0).val
    omega
  | ⟨1, _⟩ =>
    show 0 + 1 * (x 1).val = (x 1).val
    omega

/-- SLOT 3'S PAYLOAD in outer trip k: the merged block of the chunk its gather landed (tokens from 512·k + 128·3 of
    the tile's), read through the write-out's window, is the call's result function on result rows
    256·k + 64·3 .. + 63 from the tile's first row. -/
theorem slot_payload_3 (hin : InRange fl) (k : Fin k0_t1_loop.trips)
    (f5 : Buf (Elt F) ((cfS).view.loc (V d (cV L) (jV L)))) (f0 : Buf (Elt F) ((tkS).view.loc (V d (cV L) (jV L))))
    (g : (sl3).view.ty.Contents (Elt F))
    (inb : ∀ a, (![512 * k.val + 128 * 3] : Fin 1 → Nat) a + S128.size a ≤ S25600.size a)
    (hr : ∀ a, (Rect.unit (s := S25600) ![512 * k.val + 128 * 3] S128.size inb).stride a = 1)
    (hp : ∀ a, (Rect.unit (s := S1000000x128) ![0, 0] S1000000x128.size inb_S1000000x128_S1000000x128_0_0).stride a = 1)
    (hn : S128.numel = S128x128.size gathers_S1000000x128_S128x128.axis')
    (hin' : ∀ x, ((View.read (Elt F) ((tkS).slice (Rect.unit (s := S25600) ![512 * k.val + 128 * 3] S128.size inb) hr).view (View.write (Elt F) (tkS).view f0 (ReadAs.same.apply (View.read (Elt F) (flSl L).view (fl d))) Finset.univ)) x).toNat < S1000000x128.size gathers_S1000000x128_S128x128.axis)
    (hr' : ∀ a, (Rect.unit (s := S128x128) ![0, 0] S64x128.size inb_S128x128_S64x128_0_0).stride a = 1) (x : (Rect.unit (s := S128x128) ![0, 0] S64x128.size inb_S128x128_S64x128_0_0).shape.Idx) :
    ReadAs.same.apply (View.read (Elt F) ((sl3).slice (Rect.unit (s := S128x128) ![0, 0] S64x128.size inb_S128x128_S64x128_0_0) hr').view
        (merged (c0M cb d L f5) (c1M cb d L f5)
          ((sl3).view.writes (Elt F) g [⟨Rect.whole S128x128, (SparseCore.gatherPayload (F := F) gathers_S1000000x128_S128x128 (View.read (Elt F) ((prV).slice (Rect.unit (s := S1000000x128) ![0, 0] S1000000x128.size inb_S1000000x128_S1000000x128_0_0) hp).view (pr d)) (SparseCore.rows (View.read (Elt F) ((tkS).slice (Rect.unit (s := S25600) ![512 * k.val + 128 * 3] S128.size inb) hr).view (View.write (Elt F) (tkS).view f0 (ReadAs.same.apply (View.read (Elt F) (flSl L).view (fl d))) Finset.univ)) hn hin'))⟩]))) x
      = outF fl pr cb d (ix2 (⟨25600 * (L 1).val + 12800 * (L 0).val + 256 * k.val + 64 * 3 + (x 0).val,
          ou_row_lt L k.val 3 (x 0).val (Nat.lt_of_lt_of_le k.isLt k0_t1_abs.2.1) (by decide) (x 0).isLt⟩ : Fin 409600) (x 1)) := by
  have hk : k.val < 50 := Nat.lt_of_lt_of_le k.isLt k0_t1_abs.2.1
  have hx0 : (x 0).val < 64 := (x 0).isLt
  rw [slot_out_read_3, writes_whole_sl3,
    gather_eq fl pr d L hin (512 * k.val + 128 * 3) (by omega) inb hr f0 hp hn hin',
    GP_off_congr pr fl d L (512 * k.val + 128 * 3) (128 * (4 * k.val + 3)) (by omega) (by omega) (by omega)]
  refine (chunk_eq fl pr cb d L f5 (4 * k.val + 3) (by omega) ⟨(x 0).val, hx0⟩ (x 1)).trans ?_
  refine congrArg (fun t => outF fl pr cb d (ix2 t (x 1))) (Fin.ext ?_)
  show 12800 * (2 * (L 1).val + (L 0).val) + 64 * (4 * k.val + 3) + (x 0).val
    = 25600 * (L 1).val + 12800 * (L 0).val + 256 * k.val + 64 * 3 + (x 0).val
  omega

end Out

end Cert.Proof.KB

end
-- ==== Proof.KBTileLast.lean ====
-- The text of module TileLast, read over the word-level program in place of the idealized one.
/-
  The last outer trip's bookkeeping of the result rows: a slot's write-out puts the call's result function on its 64
  rows and leaves every other row alone, and the four windows of the last trip are exactly the rows between what was
  done before it and the end of the tile's rows.
-/
import proofs.«205127_g70231305225025_cont_9to1c4b_198_32_alg».proof.Proof.KBTileInvB
import proofs.«205127_g70231305225025_cont_9to1c4b_198_32_alg».proof.Proof.KBTileOut

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Last
variable [FloatOps F]
variable (pr : (d : Dev nD) → Buf (Elt F) (prLoc d)) (fl : (d : Dev nD) → Buf (Elt F) (flLoc d))
  (cb : (d : Dev nD) → Buf (Elt F) (cbLoc d)) (o₀ : (d : Dev nD) → Buf (Elt F) (ouLoc d))
variable (d : Dev nD) (L : grid0.Coords)

open Idealize.ShloMosaic.ValueIdx in
/-- A write through the window of slot b of trip k, of a payload that is the call's result function there, over any
    contents, is the call's result function on the window. -/
theorem win_outF (k : Fin k0_t1_loop.trips) (b : Fin 4)
    (hr : ∀ a, (Rect.unit (s := S409600x128) (k0_off27 L k (BitVec.ofNat 32 b.val)) S64x128.size (k0_off27_inb L k b)).stride a = 1)
    (f : Buf (Elt F) ((ouV).view.loc (V d (cV L) (jV L))))
    (P : (Rect.unit (s := S409600x128) (k0_off27 L k (BitVec.ofNat 32 b.val)) S64x128.size (k0_off27_inb L k b)).shape.Idx → Elt F .f32)
    (hP : ∀ (ρ : Fin 64) (q : Fin 128), P (ix2 ρ q)
      = outF fl pr cb d (ix2 (⟨25600 * (L 1).val + 12800 * (L 0).val + 256 * k.val + 64 * b.val + ρ.val,
          ou_row_lt L k.val b.val ρ.val (Nat.lt_of_lt_of_le k.isLt k0_t1_abs.2.1) b.isLt ρ.isLt⟩ : Fin 409600) q)) :
    ∀ j ∈ ((ouV).slice (Rect.unit (s := S409600x128) (k0_off27 L k (BitVec.ofNat 32 b.val)) S64x128.size (k0_off27_inb L k b)) hr).view.set,
      View.write (Elt F) ((ouV).slice (Rect.unit (s := S409600x128) (k0_off27 L k (BitVec.ofNat 32 b.val)) S64x128.size (k0_off27_inb L k b)) hr).view
        f P Finset.univ j = outF fl pr cb d j := by
  intro j hj
  have hj' : j ∈ (Rect.unit (s := S409600x128) (k0_off27 L k (BitVec.ofNat 32 b.val)) S64x128.size (k0_off27_inb L k b)).set := by
    have h2 := hj
    rwa [show ((ouV).slice (Rect.unit (s := S409600x128) (k0_off27 L k (BitVec.ofNat 32 b.val)) S64x128.size (k0_off27_inb L k b)) hr).view.set
      = (Rect.unit (s := S409600x128) (k0_off27 L k (BitVec.ofNat 32 b.val)) S64x128.size (k0_off27_inb L k b)).set from View.set_slice_whole _ _] at h2
  obtain ⟨x, rfl⟩ := (Rect.unit (s := S409600x128) (k0_off27 L k (BitVec.ofNat 32 b.val)) S64x128.size (k0_off27_inb L k b)).exists_idx_of_mem hj'
  refine (View.read_slice_write_emb (v := (ouV).view) _ f P (Finset.mem_univ x) : _).trans ?_
  obtain ⟨ρ, q, rfl⟩ : ∃ (ρ : Fin 64) (q : Fin 128), x = ix2 ρ q := ⟨x 0, x 1, eq_ix2 x⟩
  rw [hP]
  refine congrArg (outF fl pr cb d) ?_
  funext a
  refine Fin.ext ?_
  match a with
  | ⟨0, h0⟩ =>
    show 25600 * (L 1).val + 12800 * (L 0).val + 256 * k.val + 64 * b.val + ρ.val = (k0_off27 L k (BitVec.ofNat 32 b.val)) ⟨0, h0⟩ + 1 * ρ.val
    rw [k0_off27_eq L k b]
    show 25600 * (L 1).val + 12800 * (L 0).val + 256 * k.val + 64 * b.val + ρ.val = 25600 * (L 1).val + 12800 * (L 0).val + 256 * k.val + 64 * b.val + 1 * ρ.val
    omega
  | ⟨1, h1⟩ =>
    show q.val = (k0_off27 L k (BitVec.ofNat 32 b.val)) ⟨1, h1⟩ + 1 * q.val
    rw [k0_off27_eq L k b]
    show q.val = 0 + 1 * q.val
    omega

omit [FloatOps F] in
/-- Outside its window such a write leaves the contents. -/
theorem win_keep (k : Fin k0_t1_loop.trips) (b : Fin 4)
    (hr : ∀ a, (Rect.unit (s := S409600x128) (k0_off27 L k (BitVec.ofNat 32 b.val)) S64x128.size (k0_off27_inb L k b)).stride a = 1)
    (f : Buf (Elt F) ((ouV).view.loc (V d (cV L) (jV L))))
    (P : (Rect.unit (s := S409600x128) (k0_off27 L k (BitVec.ofNat 32 b.val)) S64x128.size (k0_off27_inb L k b)).shape.Idx → Elt F .f32)
    (j : S409600x128.Idx)
    (hj : j ∉ ((ouV).slice (Rect.unit (s := S409600x128) (k0_off27 L k (BitVec.ofNat 32 b.val)) S64x128.size (k0_off27_inb L k b)) hr).view.set) :
    View.write (Elt F) ((ouV).slice (Rect.unit (s := S409600x128) (k0_off27 L k (BitVec.ofNat 32 b.val)) S64x128.size (k0_off27_inb L k b)) hr).view
        f P Finset.univ j = f j := by
  have hj' : j ∉ (Rect.unit (s := S409600x128) (k0_off27 L k (BitVec.ofNat 32 b.val)) S64x128.size (k0_off27_inb L k b)).set := by
    intro h; apply hj
    rw [show ((ouV).slice (Rect.unit (s := S409600x128) (k0_off27 L k (BitVec.ofNat 32 b.val)) S64x128.size (k0_off27_inb L k b)) hr).view.set
      = (Rect.unit (s := S409600x128) (k0_off27 L k (BitVec.ofNat 32 b.val)) S64x128.size (k0_off27_inb L k b)).set from View.set_slice_whole _ _]
    exact h
  exact (View.read_slice_write_of_not_mem (v := (ouV).view) _ f P Finset.univ (y := j) (by rw [Rect.map_emb_univ]; exact hj') : _)

omit [FloatOps F] in
/-- An index outside the window of slot b of trip k has its row outside the slot's 64 rows. -/
theorem not_win_rows (k : Fin k0_t1_loop.trips) (b : Fin 4)
    (hr : ∀ a, (Rect.unit (s := S409600x128) (k0_off27 L k (BitVec.ofNat 32 b.val)) S64x128.size (k0_off27_inb L k b)).stride a = 1)
    (j : S409600x128.Idx)
    (hj : j ∉ ((ouV).slice (Rect.unit (s := S409600x128) (k0_off27 L k (BitVec.ofNat 32 b.val)) S64x128.size (k0_off27_inb L k b)) hr).view.set) :
    ¬ (25600 * (L 1).val + 12800 * (L 0).val + 256 * k.val + 64 * b.val ≤ (j 0).val
      ∧ (j 0).val < 25600 * (L 1).val + 12800 * (L 0).val + 256 * k.val + 64 * b.val + 64) := by
  intro hh
  apply hj
  have hk : k.val < 50 := Nat.lt_of_lt_of_le k.isLt k0_t1_abs.2.1
  have hb : 256 * k.val + 64 * b.val + 64 ≤ 12800 := chR_bound hk b.isLt
  have hm := (mem_chR_iff L k.val b.val hb j).2 hh
  rw [← chK_eq L k b hb] at hm
  rw [show ((ouV).slice (Rect.unit (s := S409600x128) (k0_off27 L k (BitVec.ofNat 32 b.val)) S64x128.size (k0_off27_inb L k b)) hr).view.set
      = (Rect.unit (s := S409600x128) (k0_off27 L k (BitVec.ofNat 32 b.val)) S64x128.size (k0_off27_inb L k b)).set from View.set_slice_whole _ _]
  exact hm

/-- Outside the four windows of the last trip the rows done before it are the rows done after it. -/
theorem OM_last (j : S409600x128.Idx)
    (h0 : ¬ (25600 * (L 1).val + 12800 * (L 0).val + 256 * 49 + 64 * 0 ≤ (j 0).val ∧ (j 0).val < 25600 * (L 1).val + 12800 * (L 0).val + 256 * 49 + 64 * 0 + 64))
    (h1 : ¬ (25600 * (L 1).val + 12800 * (L 0).val + 256 * 49 + 64 * 1 ≤ (j 0).val ∧ (j 0).val < 25600 * (L 1).val + 12800 * (L 0).val + 256 * 49 + 64 * 1 + 64))
    (h2 : ¬ (25600 * (L 1).val + 12800 * (L 0).val + 256 * 49 + 64 * 2 ≤ (j 0).val ∧ (j 0).val < 25600 * (L 1).val + 12800 * (L 0).val + 256 * 49 + 64 * 2 + 64))
    (h3 : ¬ (25600 * (L 1).val + 12800 * (L 0).val + 256 * 49 + 64 * 3 ≤ (j 0).val ∧ (j 0).val < 25600 * (L 1).val + 12800 * (L 0).val + 256 * 49 + 64 * 3 + 64)) :
    OM pr fl cb o₀ d L 49 j = OM pr fl cb o₀ d L 50 j := by
  unfold OM
  by_cases c : (j 0).val < 25600 * (L 1).val + 12800 * (L 0).val + 256 * 49
  · rw [if_pos c, if_pos (by omega)]
  · rw [if_neg c, if_neg (by omega)]

end Last

end Cert.Proof.KB

end
-- ==== Proof.KBTileEnd.lean ====
-- The text of module TileEnd, read over the word-level program in place of the idealized one.
/-
  The parts of the tile's final state that do not depend on its loop: its scratch buffers and its semaphores handed
  back as the tile owns them, its result rows after the last outer trip, and its operands back at their shares.

  After 50 outer trips every one of the tile's 12800 result rows lies below 256·50 from its first row, so the rows
  hold the call's result function throughout.
-/
import proofs.«205127_g70231305225025_cont_9to1c4b_198_32_alg».proof.Proof.KBTileOut

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

section End
variable [FloatOps F]
variable (pr : (d : Dev nD) → Buf (Elt F) (prLoc d)) (fl : (d : Dev nD) → Buf (Elt F) (flLoc d))
  (cb : (d : Dev nD) → Buf (Elt F) (cbLoc d)) (o₀ : (d : Dev nD) → Buf (Elt F) (ouLoc d))
variable (d : Dev nD) (L : grid0.Coords)

omit [FloatOps F] in
/-- The six scratch buffers at some contents and the rest of the tile's buffers are the tile's scoped buffers. -/
theorem scopedBufs_back (hF : (K (F := F)).Facts) :
    (iprop((∃ f, (tkS).view.loc (V d (cV L) (jV L)) ↦{fullShare} f) ∗ (∃ f, (sl0).view.loc (V d (cV L) (jV L)) ↦{fullShare} f) ∗ (∃ f, (sl1).view.loc (V d (cV L) (jV L)) ↦{fullShare} f) ∗ (∃ f, (sl2).view.loc (V d (cV L) (jV L)) ↦{fullShare} f) ∗ (∃ f, (sl3).view.loc (V d (cV L) (jV L)) ↦{fullShare} f) ∗ (∃ f, (cfS).view.loc (V d (cV L) (jV L)) ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) : sProp 𝕄) ⊢ scopedBufs (V d (cV L) (jV L)) := by
  refine Entails.of_eq ?_
  rw [(K (F := F)).scopedBufs_V hF d (cV L) (jV L), ownBufs_V]

omit [FloatOps F] in
/-- The ten DMA semaphores at zero and the rest of the tile's cells at zero are the tile's scoped semaphores at zero. -/
theorem scopedSems0_back :
    (iprop(semVal ((V d (cV L) (jV L), SemLoc.dma cc0_scratch6.sem) : GSem nD τ sig) 0 ∗ semVal ((V d (cV L) (jV L), SemLoc.dma cc0_scratch7.sem) : GSem nD τ sig) 0 ∗ semVal ((V d (cV L) (jV L), SemLoc.dma cc0_scratch8.sem) : GSem nD τ sig) 0 ∗ semVal ((V d (cV L) (jV L), SemLoc.dma cc0_scratch9.sem) : GSem nD τ sig) 0 ∗ semVal ((V d (cV L) (jV L), SemLoc.dma cc0_scratch10.sem) : GSem nD τ sig) 0 ∗ semVal ((V d (cV L) (jV L), SemLoc.dma cc0_scratch11.sem) : GSem nD τ sig) 0 ∗ semVal ((V d (cV L) (jV L), SemLoc.dma cc0_scratch12.sem) : GSem nD τ sig) 0 ∗ semVal ((V d (cV L) (jV L), SemLoc.dma cc0_scratch13.sem) : GSem nD τ sig) 0 ∗ semVal ((V d (cV L) (jV L), SemLoc.dma cc0_scoped0.sem) : GSem nD τ sig) 0 ∗ semVal ((V d (cV L) (jV L), SemLoc.dma cc0_scoped1.sem) : GSem nD τ sig) 0
          ∗ bigSep (((((((((((ownCells (V d (cV L) (jV L))).erase (cellOf d L cc0_scratch6.sem)).erase (cellOf d L cc0_scratch7.sem)).erase (cellOf d L cc0_scratch8.sem)).erase (cellOf d L cc0_scratch9.sem)).erase (cellOf d L cc0_scratch10.sem)).erase (cellOf d L cc0_scratch11.sem)).erase (cellOf d L cc0_scratch12.sem)).erase (cellOf d L cc0_scratch13.sem)).erase (cellOf d L cc0_scoped0.sem)).erase (cellOf d L cc0_scoped1.sem)) fun g => semVal g 0) : sProp 𝕄) ⊢ scopedSems0 (V d (cV L) (jV L)) := by
  refine Entails.of_eq ?_
  rw [SparseCore.Cfg.scopedSems0_V (Val := Elt F) d (cV L) (jV L), ownSems0_V]

/-- After the 50th outer trip the tile's result rows hold the call's result function. -/
theorem ou_final :
    (((ouV).view.loc (V d (cV L) (jV L)) ↦[(ouV).view.setOn (ouR L).set]{fullShare} OM pr fl cb o₀ d L 50) : sProp 𝕄)
      = ((ouV).view.loc (V d (cV L) (jV L)) ↦[(ouV).view.setOn (ouR L).set]{fullShare} outF fl pr cb d) :=
  pointsTo_congr fun j hj => by
    have hm : j ∈ (ouR L).set := by
      obtain ⟨y, hy, rfl⟩ := Finset.mem_map.mp hj
      exact hy
    have hrow := (mem_ouR_iff L j).1 hm
    unfold OM
    rw [if_pos (by omega)]

/-- The same, from the rows as the fourth slot of the last trip leaves them. -/
theorem ou_final_r :
    (((ouV).view.loc (V d (cV L) (jV L)) ↦[(ouV).view.setOn (ouR L).set]{fullShare} OMr pr fl cb o₀ d L 49 4) : sProp 𝕄)
      = ((ouV).view.loc (V d (cV L) (jV L)) ↦[(ouV).view.setOn (ouR L).set]{fullShare} outF fl pr cb d) := by
  rw [OMr_four]
  exact ou_final pr fl cb o₀ d L

/-- The tile's tokens, its two read shares and its result rows at the call's result function are what it hands back. -/
theorem tileTd_back :
    (iprop(((flSl L).view.loc (V d (cV L) (jV L)) ↦[(flSl L).view.set]{fullShare} fl d)
        ∗ ((prV).view.loc (V d (cV L) (jV L)) ↦{rq (wL L)} pr d)
        ∗ ((cbV).view.loc (V d (cV L) (jV L)) ↦{rq (wL L)} cb d)
        ∗ ((ouV).view.loc (V d (cV L) (jV L)) ↦[(ouV).view.setOn (ouR L).set]{fullShare} outF fl pr cb d)) : sProp 𝕄)
      ⊢ tileTd fl pr cb d (wL L) := by
  rw [pts_fl, pts_pr, pts_cb, pts_ou]
  iintro ⟨Hf, Hp, Hc, Ho⟩
  isplitl [Hf Hp Hc]
  · isplitl [Hf]; · iexact Hf
    isplitl [Hp]; · iexact Hp
    iexact Hc
  iexact Ho

omit [FloatOps F] in
/-- The pair table's remainder and four tokens are its one read share again. -/
theorem toks_pr_back (I : Finset (Idx ((prV).view.loc (V d (cV L) (jV L))))) (f : Buf (Elt F) ((prV).view.loc (V d (cV L) (jV L)))) :
    (iprop(((prV).view.loc (V d (cV L) (jV L)) ↦[I]{Transfers.shareDrop (rq (wL L)) 4} f)
        ∗ ((prV).view.loc (V d (cV L) (jV L)) ↦[I]{Transfers.shareTokN (rq (wL L)) 0} f)
        ∗ ((prV).view.loc (V d (cV L) (jV L)) ↦[I]{Transfers.shareTokN (rq (wL L)) 1} f)
        ∗ ((prV).view.loc (V d (cV L) (jV L)) ↦[I]{Transfers.shareTokN (rq (wL L)) 2} f)
        ∗ ((prV).view.loc (V d (cV L) (jV L)) ↦[I]{Transfers.shareTokN (rq (wL L)) 3} f)) : sProp 𝕄)
      ⊢ (prV).view.loc (V d (cV L) (jV L)) ↦[I]{rq (wL L)} f :=
  Entails.of_eq (pts_toks4 I f (rq (wL L))).symm

omit [FloatOps F] in
/-- The token scratch's remainder and four tokens are the whole share again. -/
theorem toks_tk_back (I : Finset (Idx ((tkS).view.loc (V d (cV L) (jV L))))) (f : Buf (Elt F) ((tkS).view.loc (V d (cV L) (jV L)))) :
    (iprop(((tkS).view.loc (V d (cV L) (jV L)) ↦[I]{Transfers.shareDrop fullShare 4} f)
        ∗ ((tkS).view.loc (V d (cV L) (jV L)) ↦[I]{Transfers.shareTokN fullShare 0} f)
        ∗ ((tkS).view.loc (V d (cV L) (jV L)) ↦[I]{Transfers.shareTokN fullShare 1} f)
        ∗ ((tkS).view.loc (V d (cV L) (jV L)) ↦[I]{Transfers.shareTokN fullShare 2} f)
        ∗ ((tkS).view.loc (V d (cV L) (jV L)) ↦[I]{Transfers.shareTokN fullShare 3} f)) : sProp 𝕄)
      ⊢ (tkS).view.loc (V d (cV L) (jV L)) ↦[I]{fullShare} f :=
  Entails.of_eq (pts_toks4 I f fullShare).symm

end End

end Cert.Proof.KB

end
-- ==== Proof.KBTileEndGeom.lean ====
-- The text of module TileEndGeom, read over the word-level program in place of the idealized one.
/-
  The tile's result rows put back together after the last outer trip: the four 64-row windows the slots wrote in
  trip 49 and what is left of the tile's 12800 rows are all of them, and after 50 trips every one of them holds the
  call's result function.
-/
import proofs.«205127_g70231305225025_cont_9to1c4b_198_32_alg».proof.Proof.KBTileEnd

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

section Geo
variable (d : Dev nD) (L : grid0.Coords)

abbrev ouWinX (k : Fin k0_t1_loop.trips) (w : BitVec 32) (inb : ∀ a, (k0_off27 L k w) a + S64x128.size a ≤ S409600x128.size a) :
    Finset S409600x128.Idx :=
  ((ouV).slice (Rect.unit (s := S409600x128) (k0_off27 L k w) S64x128.size inb) (fun _ => rfl)).view.set

abbrev ouRestX (k : Fin k0_t1_loop.trips) : Finset S409600x128.Idx :=
  ((((ouV).view.setOn (ouR L).set \ ouWinX L k 0#32 (k0_off27_inb L k 0)) \ ouWinX L k 1#32 (k0_off27_inb L k 1))
    \ ouWinX L k 2#32 (k0_off27_inb L k 2)) \ ouWinX L k 3#32 (k0_off27_inb L k 3)

/-- An index lies under the tile's result rows exactly when its row number is one of them. -/
theorem mem_setOn_ouR_iff (j : S409600x128.Idx) :
    j ∈ (ouV).view.setOn (ouR L).set ↔ 25600 * (L 1).val + 12800 * (L 0).val ≤ (j 0).val ∧ (j 0).val < 25600 * (L 1).val + 12800 * (L 0).val + 12800 := by
  have e : (ouV).view.setOn (ouR L).set = (ouR L).set := Finset.map_refl
  rw [e]
  exact mem_ouR_iff L j

/-- An index lies in the window slot b writes in outer trip k exactly when its row number is one of the slot's 64. -/
theorem mem_ouWin_iff (k : Fin k0_t1_loop.trips) (b : Fin 4) (w : BitVec 32) (hw : w = BitVec.ofNat 32 b.val)
    (inb : ∀ a, (k0_off27 L k w) a + S64x128.size a ≤ S409600x128.size a) (j : S409600x128.Idx) :
    j ∈ ouWinX L k w inb ↔ 25600 * (L 1).val + 12800 * (L 0).val + 256 * k.val + 64 * b.val ≤ (j 0).val
      ∧ (j 0).val < 25600 * (L 1).val + 12800 * (L 0).val + 256 * k.val + 64 * b.val + 64 := by
  subst hw
  have hk : k.val < 50 := Nat.lt_of_lt_of_le k.isLt k0_t1_abs.2.1
  have hb : 256 * k.val + 64 * b.val + 64 ≤ 12800 := chR_bound hk b.isLt
  have e : ouWinX L k (BitVec.ofNat 32 b.val) inb = (chR L k.val b.val hb).set := by
    show ((View.whole (main_v4_scv : Ref sig .scVector)).slice _).set = _
    rw [View.set_slice_whole, chK_eq L k b hb]
  rw [e]
  exact mem_chR_iff L k.val b.val hb j

/-- On the tile's rows, the rows after 50 outer trips hold the call's result function. -/
theorem OM_fifty_apply [FloatOps F] (pr : (d : Dev nD) → Buf (Elt F) (prLoc d)) (fl : (d : Dev nD) → Buf (Elt F) (flLoc d))
    (cb : (d : Dev nD) → Buf (Elt F) (cbLoc d)) (o₀ : (d : Dev nD) → Buf (Elt F) (ouLoc d)) (j : S409600x128.Idx)
    (hj : j ∈ (ouV).view.setOn (ouR L).set) : OM pr fl cb o₀ d L 50 j = outF fl pr cb d j := by
  have hrow := (mem_setOn_ouR_iff L j).1 hj
  unfold OM
  rw [if_pos (by omega)]

/-- What is left of the tile's rows after the four windows lies in the tile's rows. -/
theorem ouRestX_subset (k : Fin k0_t1_loop.trips) : ouRestX L k ⊆ (ouV).view.setOn (ouR L).set := fun j hj =>
  (Finset.mem_sdiff.mp (Finset.mem_sdiff.mp (Finset.mem_sdiff.mp (Finset.mem_sdiff.mp hj).1).1).1).1

omit d L in
/-- Four parts carved one after another out of a set, and what is left, held at one contents, are the set at it. -/
theorem pts_join5 {ℓ : Loc nD τ sig} {q : PosShare TreeShare} {G : Buf (Elt F) ℓ} {S w0 w1 w2 w3 : Finset (Idx ℓ)}
    (h0 : w0 ⊆ S) (h1 : w1 ⊆ S \ w0) (h2 : w2 ⊆ (S \ w0) \ w1) (h3 : w3 ⊆ ((S \ w0) \ w1) \ w2) :
    (iprop((ℓ ↦[(((S \ w0) \ w1) \ w2) \ w3]{q} G) ∗ (ℓ ↦[w0]{q} G) ∗ (ℓ ↦[w1]{q} G) ∗ (ℓ ↦[w2]{q} G) ∗ (ℓ ↦[w3]{q} G)) : sProp 𝕄)
      ⊢ ℓ ↦[S]{q} G := by
  iintro ⟨HR, H0, H1, H2, H3⟩
  ihave A3 := (pointsTo_split_subset (f := G) (q := q) h3).2 $$ [H3 HR]
  · isplitl [H3]; · iexact H3
    iexact HR
  ihave A2 := (pointsTo_split_subset (f := G) (q := q) h2).2 $$ [H2 A3]
  · isplitl [H2]; · iexact H2
    iexact A3
  ihave A1 := (pointsTo_split_subset (f := G) (q := q) h1).2 $$ [H1 A2]
  · isplitl [H1]; · iexact H1
    iexact A2
  iapply (pointsTo_split_subset (f := G) (q := q) h0).2
  isplitl [H0]; · iexact H0
  iexact A1

/-- THE RESULT ROWS REJOINED after the last trip: four windows of 64 rows each (slots 0..3 of trip k = 49) and the rest
    of the tile's rows, each agreeing with one function G on its own indices, are the tile's rows at G. -/
theorem ou_join (k : ℕ) (hk49 : k = 49) (w0 w1 w2 w3 : Finset S409600x128.Idx)
    (m0 : ∀ j : S409600x128.Idx, j ∈ w0 ↔ 25600 * (L 1).val + 12800 * (L 0).val + 256 * k + 64 * 0 ≤ (j 0).val ∧ (j 0).val < 25600 * (L 1).val + 12800 * (L 0).val + 256 * k + 64 * 0 + 64)
    (m1 : ∀ j : S409600x128.Idx, j ∈ w1 ↔ 25600 * (L 1).val + 12800 * (L 0).val + 256 * k + 64 * 1 ≤ (j 0).val ∧ (j 0).val < 25600 * (L 1).val + 12800 * (L 0).val + 256 * k + 64 * 1 + 64)
    (m2 : ∀ j : S409600x128.Idx, j ∈ w2 ↔ 25600 * (L 1).val + 12800 * (L 0).val + 256 * k + 64 * 2 ≤ (j 0).val ∧ (j 0).val < 25600 * (L 1).val + 12800 * (L 0).val + 256 * k + 64 * 2 + 64)
    (m3 : ∀ j : S409600x128.Idx, j ∈ w3 ↔ 25600 * (L 1).val + 12800 * (L 0).val + 256 * k + 64 * 3 ≤ (j 0).val ∧ (j 0).val < 25600 * (L 1).val + 12800 * (L 0).val + 256 * k + 64 * 3 + 64)
    (G C0 C1 C2 C3 CR : Buf (Elt F) ((ouV).view.loc (V d (cV L) (jV L))))
    (hC0 : ∀ j ∈ w0, C0 j = G j) (hC1 : ∀ j ∈ w1, C1 j = G j) (hC2 : ∀ j ∈ w2, C2 j = G j) (hC3 : ∀ j ∈ w3, C3 j = G j)
    (hCR : ∀ j ∈ (((((ouV).view.setOn (ouR L).set \ w0) \ w1) \ w2) \ w3), CR j = G j) :
    (iprop(((ouV).view.loc (V d (cV L) (jV L)) ↦[(((((ouV).view.setOn (ouR L).set \ w0) \ w1) \ w2) \ w3)]{fullShare} CR)
        ∗ ((ouV).view.loc (V d (cV L) (jV L)) ↦[w0]{fullShare} C0)
        ∗ ((ouV).view.loc (V d (cV L) (jV L)) ↦[w1]{fullShare} C1)
        ∗ ((ouV).view.loc (V d (cV L) (jV L)) ↦[w2]{fullShare} C2)
        ∗ ((ouV).view.loc (V d (cV L) (jV L)) ↦[w3]{fullShare} C3)) : sProp 𝕄)
      ⊢ (ouV).view.loc (V d (cV L) (jV L)) ↦[(ouV).view.setOn (ouR L).set]{fullShare} G := by
  have mS := mem_setOn_ouR_iff L
  subst hk49
  have hstep : (iprop(((ouV).view.loc (V d (cV L) (jV L)) ↦[(((((ouV).view.setOn (ouR L).set \ w0) \ w1) \ w2) \ w3)]{fullShare} CR) ∗ ((ouV).view.loc (V d (cV L) (jV L)) ↦[w0]{fullShare} C0) ∗ ((ouV).view.loc (V d (cV L) (jV L)) ↦[w1]{fullShare} C1)
        ∗ ((ouV).view.loc (V d (cV L) (jV L)) ↦[w2]{fullShare} C2) ∗ ((ouV).view.loc (V d (cV L) (jV L)) ↦[w3]{fullShare} C3)) : sProp 𝕄)
      ⊢ iprop(((ouV).view.loc (V d (cV L) (jV L)) ↦[(((((ouV).view.setOn (ouR L).set \ w0) \ w1) \ w2) \ w3)]{fullShare} G) ∗ ((ouV).view.loc (V d (cV L) (jV L)) ↦[w0]{fullShare} G) ∗ ((ouV).view.loc (V d (cV L) (jV L)) ↦[w1]{fullShare} G)
        ∗ ((ouV).view.loc (V d (cV L) (jV L)) ↦[w2]{fullShare} G) ∗ ((ouV).view.loc (V d (cV L) (jV L)) ↦[w3]{fullShare} G)) := by
    iintro ⟨HR, H0, H1, H2, H3⟩
    isplitl [HR]
    · iapply (Entails.of_eq (pointsTo_congr hCR)); iexact HR
    isplitl [H0]
    · iapply (Entails.of_eq (pointsTo_congr hC0)); iexact H0
    isplitl [H1]
    · iapply (Entails.of_eq (pointsTo_congr hC1)); iexact H1
    isplitl [H2]
    · iapply (Entails.of_eq (pointsTo_congr hC2)); iexact H2
    iapply (Entails.of_eq (pointsTo_congr hC3)); iexact H3
  refine hstep.trans (pts_join5 (G := G) (S := (ouV).view.setOn (ouR L).set) (w0 := w0) (w1 := w1) (w2 := w2) (w3 := w3) ?_ ?_ ?_ ?_)
  · intro j hj
    have h0 := (m0 j).1 hj
    exact (mS j).2 (by omega)
  · intro j hj
    have h1 := (m1 j).1 hj
    refine Finset.mem_sdiff.mpr ⟨(mS j).2 (by omega), fun h => ?_⟩
    have h0 := (m0 j).1 h
    omega
  · intro j hj
    have h2 := (m2 j).1 hj
    refine Finset.mem_sdiff.mpr ⟨Finset.mem_sdiff.mpr ⟨(mS j).2 (by omega), fun h => ?_⟩, fun h => ?_⟩
    · have h0 := (m0 j).1 h
      omega
    · have h1 := (m1 j).1 h
      omega
  · intro j hj
    have h3 := (m3 j).1 hj
    refine Finset.mem_sdiff.mpr ⟨Finset.mem_sdiff.mpr ⟨Finset.mem_sdiff.mpr ⟨(mS j).2 (by omega), fun h => ?_⟩,
      fun h => ?_⟩, fun h => ?_⟩
    · have h0 := (m0 j).1 h
      omega
    · have h1 := (m1 j).1 h
      omega
    · have h2 := (m2 j).1 h
      omega

end Geo

end Cert.Proof.KB

end
-- ==== Proof.KBTileOutN.lean ====
-- The text of module TileOutN, read over the word-level program in place of the idealized one.
import proofs.«205127_g70231305225025_cont_9to1c4b_198_32_alg».proof.Proof.KBTileOut

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section OutN
variable [FloatOps F]
variable (pr : (d : Dev nD) → Buf (Elt F) (prLoc d)) (fl : (d : Dev nD) → Buf (Elt F) (flLoc d))
  (cb : (d : Dev nD) → Buf (Elt F) (cbLoc d)) (o₀ : (d : Dev nD) → Buf (Elt F) (ouLoc d))
variable (d : Dev nD) (L : grid0.Coords)

set_option maxHeartbeats 4000000 in
/-- Slot 0's write-out of its merged chunk of trip k advances the done rows by its 64 rows. -/
theorem ou_norm0 (hin : InRange fl) (k : Fin k0_t1_loop.trips) (f5 : Buf (Elt F) ((cfS).view.loc (V d (cV L) (jV L))))
    (f0 : Buf (Elt F) ((tkS).view.loc (V d (cV L) (jV L))))
    (inb : ∀ a, (![512 * k.val + 128 * 0] : Fin 1 → ℕ) a + S128.size a ≤ S25600.size a)
    (hr : ∀ a, (Rect.unit (s := S25600) ![512 * k.val + 128 * 0] S128.size inb).stride a = 1)
    (hn : (Rect.unit (s := S25600) ![512 * k.val + 128 * 0] S128.size inb).shape.numel = S128x128.size gathers_S1000000x128_S128x128.axis')
    (hin' : ∀ x, (View.read (Elt F) ((tkS).slice (Rect.unit (s := S25600) ![512 * k.val + 128 * 0] S128.size inb) hr).view (View.write (Elt F) (tkS).view f0 (ReadAs.same.apply (View.read (Elt F) (flSl L).view (fl d))) Finset.univ) x).toNat < S1000000x128.size gathers_S1000000x128_S128x128.axis)
    (hp : ∀ a, (Rect.unit (s := S1000000x128) ![0, 0] S1000000x128.size inb_S1000000x128_S1000000x128_0_0).stride a = 1)
    (hr' : ∀ a, (Rect.unit (s := S128x128) ![0, 0] S64x128.size inb_S128x128_S64x128_0_0).stride a = 1)
    (b : Fin 4) (hb : b.val = 0)
    (hrO : ∀ a, (Rect.unit (s := S409600x128) (k0_off27 L k (BitVec.ofNat 32 b.val)) S64x128.size (k0_off27_inb L k b)).stride a = 1) :
    (((ouV).view.loc (V d (cV L) (jV L)) ↦[(ouV).view.setOn (ouR L).set]{fullShare}
        View.write (Elt F) ((ouV).slice (Rect.unit (s := S409600x128) (k0_off27 L k (BitVec.ofNat 32 b.val)) S64x128.size (k0_off27_inb L k b)) hrO).view
          (OMr pr fl cb o₀ d L k.val b.val) (ReadAs.same.apply (View.read (Elt F) ((sl0).slice (Rect.unit (s := S128x128) ![0, 0] S64x128.size inb_S128x128_S64x128_0_0) hr').view (merged (c0M cb d L f5) (c1M cb d L f5) ((sl0).view.writes (Elt F) (sl0).view.junk [⟨Rect.whole S128x128, SparseCore.gatherPayload (F := F) gathers_S1000000x128_S128x128 (View.read (Elt F) ((prV).slice (Rect.unit (s := S1000000x128) ![0, 0] S1000000x128.size inb_S1000000x128_S1000000x128_0_0) hp).view (pr d)) (SparseCore.rows (View.read (Elt F) ((tkS).slice (Rect.unit (s := S25600) ![512 * k.val + 128 * 0] S128.size inb) hr).view (View.write (Elt F) (tkS).view f0 (ReadAs.same.apply (View.read (Elt F) (flSl L).view (fl d))) Finset.univ)) hn hin')⟩])))) Finset.univ) : sProp 𝕄)
      ⊢ ((ouV).view.loc (V d (cV L) (jV L)) ↦[(ouV).view.setOn (ouR L).set]{fullShare} OMr pr fl cb o₀ d L k.val (b.val + 1)) := by
  obtain rfl : b = ⟨0, by decide⟩ := Fin.ext hb
  exact Entails.of_eq (ou_step_pts (F := F) pr fl cb o₀ d L k ⟨0, by decide⟩ hrO _
    (fun ρ q => slot_payload_0 (F := F) pr fl cb d L hin k f5 f0 (sl0).view.junk inb hr hp hn hin' hr' (Idealize.ShloMosaic.ValueIdx.ix2 ρ q)))

set_option maxHeartbeats 4000000 in
/-- Slot 1's write-out of its merged chunk of trip k advances the done rows by its 64 rows. -/
theorem ou_norm1 (hin : InRange fl) (k : Fin k0_t1_loop.trips) (f5 : Buf (Elt F) ((cfS).view.loc (V d (cV L) (jV L))))
    (f0 : Buf (Elt F) ((tkS).view.loc (V d (cV L) (jV L))))
    (inb : ∀ a, (![512 * k.val + 128 * 1] : Fin 1 → ℕ) a + S128.size a ≤ S25600.size a)
    (hr : ∀ a, (Rect.unit (s := S25600) ![512 * k.val + 128 * 1] S128.size inb).stride a = 1)
    (hn : (Rect.unit (s := S25600) ![512 * k.val + 128 * 1] S128.size inb).shape.numel = S128x128.size gathers_S1000000x128_S128x128.axis')
    (hin' : ∀ x, (View.read (Elt F) ((tkS).slice (Rect.unit (s := S25600) ![512 * k.val + 128 * 1] S128.size inb) hr).view (View.write (Elt F) (tkS).view f0 (ReadAs.same.apply (View.read (Elt F) (flSl L).view (fl d))) Finset.univ) x).toNat < S1000000x128.size gathers_S1000000x128_S128x128.axis)
    (hp : ∀ a, (Rect.unit (s := S1000000x128) ![0, 0] S1000000x128.size inb_S1000000x128_S1000000x128_0_0).stride a = 1)
    (hr' : ∀ a, (Rect.unit (s := S128x128) ![0, 0] S64x128.size inb_S128x128_S64x128_0_0).stride a = 1)
    (b : Fin 4) (hb : b.val = 1)
    (hrO : ∀ a, (Rect.unit (s := S409600x128) (k0_off27 L k (BitVec.ofNat 32 b.val)) S64x128.size (k0_off27_inb L k b)).stride a = 1) :
    (((ouV).view.loc (V d (cV L) (jV L)) ↦[(ouV).view.setOn (ouR L).set]{fullShare}
        View.write (Elt F) ((ouV).slice (Rect.unit (s := S409600x128) (k0_off27 L k (BitVec.ofNat 32 b.val)) S64x128.size (k0_off27_inb L k b)) hrO).view
          (OMr pr fl cb o₀ d L k.val b.val) (ReadAs.same.apply (View.read (Elt F) ((sl1).slice (Rect.unit (s := S128x128) ![0, 0] S64x128.size inb_S128x128_S64x128_0_0) hr').view (merged (c0M cb d L f5) (c1M cb d L f5) ((sl1).view.writes (Elt F) (sl1).view.junk [⟨Rect.whole S128x128, SparseCore.gatherPayload (F := F) gathers_S1000000x128_S128x128 (View.read (Elt F) ((prV).slice (Rect.unit (s := S1000000x128) ![0, 0] S1000000x128.size inb_S1000000x128_S1000000x128_0_0) hp).view (pr d)) (SparseCore.rows (View.read (Elt F) ((tkS).slice (Rect.unit (s := S25600) ![512 * k.val + 128 * 1] S128.size inb) hr).view (View.write (Elt F) (tkS).view f0 (ReadAs.same.apply (View.read (Elt F) (flSl L).view (fl d))) Finset.univ)) hn hin')⟩])))) Finset.univ) : sProp 𝕄)
      ⊢ ((ouV).view.loc (V d (cV L) (jV L)) ↦[(ouV).view.setOn (ouR L).set]{fullShare} OMr pr fl cb o₀ d L k.val (b.val + 1)) := by
  obtain rfl : b = ⟨1, by decide⟩ := Fin.ext hb
  exact Entails.of_eq (ou_step_pts (F := F) pr fl cb o₀ d L k ⟨1, by decide⟩ hrO _
    (fun ρ q => slot_payload_1 (F := F) pr fl cb d L hin k f5 f0 (sl1).view.junk inb hr hp hn hin' hr' (Idealize.ShloMosaic.ValueIdx.ix2 ρ q)))

set_option maxHeartbeats 4000000 in
/-- Slot 2's write-out of its merged chunk of trip k advances the done rows by its 64 rows. -/
theorem ou_norm2 (hin : InRange fl) (k : Fin k0_t1_loop.trips) (f5 : Buf (Elt F) ((cfS).view.loc (V d (cV L) (jV L))))
    (f0 : Buf (Elt F) ((tkS).view.loc (V d (cV L) (jV L))))
    (inb : ∀ a, (![512 * k.val + 128 * 2] : Fin 1 → ℕ) a + S128.size a ≤ S25600.size a)
    (hr : ∀ a, (Rect.unit (s := S25600) ![512 * k.val + 128 * 2] S128.size inb).stride a = 1)
    (hn : (Rect.unit (s := S25600) ![512 * k.val + 128 * 2] S128.size inb).shape.numel = S128x128.size gathers_S1000000x128_S128x128.axis')
    (hin' : ∀ x, (View.read (Elt F) ((tkS).slice (Rect.unit (s := S25600) ![512 * k.val + 128 * 2] S128.size inb) hr).view (View.write (Elt F) (tkS).view f0 (ReadAs.same.apply (View.read (Elt F) (flSl L).view (fl d))) Finset.univ) x).toNat < S1000000x128.size gathers_S1000000x128_S128x128.axis)
    (hp : ∀ a, (Rect.unit (s := S1000000x128) ![0, 0] S1000000x128.size inb_S1000000x128_S1000000x128_0_0).stride a = 1)
    (hr' : ∀ a, (Rect.unit (s := S128x128) ![0, 0] S64x128.size inb_S128x128_S64x128_0_0).stride a = 1)
    (b : Fin 4) (hb : b.val = 2)
    (hrO : ∀ a, (Rect.unit (s := S409600x128) (k0_off27 L k (BitVec.ofNat 32 b.val)) S64x128.size (k0_off27_inb L k b)).stride a = 1) :
    (((ouV).view.loc (V d (cV L) (jV L)) ↦[(ouV).view.setOn (ouR L).set]{fullShare}
        View.write (Elt F) ((ouV).slice (Rect.unit (s := S409600x128) (k0_off27 L k (BitVec.ofNat 32 b.val)) S64x128.size (k0_off27_inb L k b)) hrO).view
          (OMr pr fl cb o₀ d L k.val b.val) (ReadAs.same.apply (View.read (Elt F) ((sl2).slice (Rect.unit (s := S128x128) ![0, 0] S64x128.size inb_S128x128_S64x128_0_0) hr').view (merged (c0M cb d L f5) (c1M cb d L f5) ((sl2).view.writes (Elt F) (sl2).view.junk [⟨Rect.whole S128x128, SparseCore.gatherPayload (F := F) gathers_S1000000x128_S128x128 (View.read (Elt F) ((prV).slice (Rect.unit (s := S1000000x128) ![0, 0] S1000000x128.size inb_S1000000x128_S1000000x128_0_0) hp).view (pr d)) (SparseCore.rows (View.read (Elt F) ((tkS).slice (Rect.unit (s := S25600) ![512 * k.val + 128 * 2] S128.size inb) hr).view (View.write (Elt F) (tkS).view f0 (ReadAs.same.apply (View.read (Elt F) (flSl L).view (fl d))) Finset.univ)) hn hin')⟩])))) Finset.univ) : sProp 𝕄)
      ⊢ ((ouV).view.loc (V d (cV L) (jV L)) ↦[(ouV).view.setOn (ouR L).set]{fullShare} OMr pr fl cb o₀ d L k.val (b.val + 1)) := by
  obtain rfl : b = ⟨2, by decide⟩ := Fin.ext hb
  exact Entails.of_eq (ou_step_pts (F := F) pr fl cb o₀ d L k ⟨2, by decide⟩ hrO _
    (fun ρ q => slot_payload_2 (F := F) pr fl cb d L hin k f5 f0 (sl2).view.junk inb hr hp hn hin' hr' (Idealize.ShloMosaic.ValueIdx.ix2 ρ q)))

set_option maxHeartbeats 4000000 in
/-- Slot 3's write-out of its merged chunk of trip k advances the done rows by its 64 rows. -/
theorem ou_norm3 (hin : InRange fl) (k : Fin k0_t1_loop.trips) (f5 : Buf (Elt F) ((cfS).view.loc (V d (cV L) (jV L))))
    (f0 : Buf (Elt F) ((tkS).view.loc (V d (cV L) (jV L))))
    (inb : ∀ a, (![512 * k.val + 128 * 3] : Fin 1 → ℕ) a + S128.size a ≤ S25600.size a)
    (hr : ∀ a, (Rect.unit (s := S25600) ![512 * k.val + 128 * 3] S128.size inb).stride a = 1)
    (hn : (Rect.unit (s := S25600) ![512 * k.val + 128 * 3] S128.size inb).shape.numel = S128x128.size gathers_S1000000x128_S128x128.axis')
    (hin' : ∀ x, (View.read (Elt F) ((tkS).slice (Rect.unit (s := S25600) ![512 * k.val + 128 * 3] S128.size inb) hr).view (View.write (Elt F) (tkS).view f0 (ReadAs.same.apply (View.read (Elt F) (flSl L).view (fl d))) Finset.univ) x).toNat < S1000000x128.size gathers_S1000000x128_S128x128.axis)
    (hp : ∀ a, (Rect.unit (s := S1000000x128) ![0, 0] S1000000x128.size inb_S1000000x128_S1000000x128_0_0).stride a = 1)
    (hr' : ∀ a, (Rect.unit (s := S128x128) ![0, 0] S64x128.size inb_S128x128_S64x128_0_0).stride a = 1)
    (b : Fin 4) (hb : b.val = 3)
    (hrO : ∀ a, (Rect.unit (s := S409600x128) (k0_off27 L k (BitVec.ofNat 32 b.val)) S64x128.size (k0_off27_inb L k b)).stride a = 1) :
    (((ouV).view.loc (V d (cV L) (jV L)) ↦[(ouV).view.setOn (ouR L).set]{fullShare}
        View.write (Elt F) ((ouV).slice (Rect.unit (s := S409600x128) (k0_off27 L k (BitVec.ofNat 32 b.val)) S64x128.size (k0_off27_inb L k b)) hrO).view
          (OMr pr fl cb o₀ d L k.val b.val) (ReadAs.same.apply (View.read (Elt F) ((sl3).slice (Rect.unit (s := S128x128) ![0, 0] S64x128.size inb_S128x128_S64x128_0_0) hr').view (merged (c0M cb d L f5) (c1M cb d L f5) ((sl3).view.writes (Elt F) (sl3).view.junk [⟨Rect.whole S128x128, SparseCore.gatherPayload (F := F) gathers_S1000000x128_S128x128 (View.read (Elt F) ((prV).slice (Rect.unit (s := S1000000x128) ![0, 0] S1000000x128.size inb_S1000000x128_S1000000x128_0_0) hp).view (pr d)) (SparseCore.rows (View.read (Elt F) ((tkS).slice (Rect.unit (s := S25600) ![512 * k.val + 128 * 3] S128.size inb) hr).view (View.write (Elt F) (tkS).view f0 (ReadAs.same.apply (View.read (Elt F) (flSl L).view (fl d))) Finset.univ)) hn hin')⟩])))) Finset.univ) : sProp 𝕄)
      ⊢ ((ouV).view.loc (V d (cV L) (jV L)) ↦[(ouV).view.setOn (ouR L).set]{fullShare} OMr pr fl cb o₀ d L k.val (b.val + 1)) := by
  obtain rfl : b = ⟨3, by decide⟩ := Fin.ext hb
  exact Entails.of_eq (ou_step_pts (F := F) pr fl cb o₀ d L k ⟨3, by decide⟩ hrO _
    (fun ρ q => slot_payload_3 (F := F) pr fl cb d L hin k f5 f0 (sl3).view.junk inb hr hp hn hin' hr' (Idealize.ShloMosaic.ValueIdx.ix2 ρ q)))

end OutN
end Cert.Proof.KB
end
-- ==== Proof.KBTileInnerLib.lean ====
-- The text of module TileInnerLib, read over the word-level program in place of the idealized one.
/-
  One trip of the in-place merge of a 128 × 128 slot, apart from which slot it is.

  Trip k reads rows 2k and 2k + 1 and overwrites row k, sixteen lanes at a time: columns 64·par + 16·g .. + 15 of
  row k become c0 · R[2k + par, 16g ..] + c1 · R[2k + par, 64 + 16g ..] (par = 0, 1; g = 0..3), which is row k of the
  merged block at those columns.
-/
import proofs.«205127_g70231305225025_cont_9to1c4b_198_32_alg».proof.Proof.KBTile0
import proofs.«205127_g70231305225025_cont_9to1c4b_198_32_alg».proof.Proof.KBMerge
import Idealize.ShloMosaic.Lib.Writes
import Idealize.ShloMosaic.Lib.ValueLayout

noncomputable section

namespace Cert.Proof.KB

open Cert.Kernel Cert.Kernel.Gen

open Idealize.ShloMosaic Idealize.ShloMosaic.ValueIdx

variable {F : FTy → Type} [FloatOps F]

namespace Inner

/-- Sixteen lanes of the merge: c0 · A + c1 · B, lane by lane, as a 1 × 16 piece. -/
def comb (c0 c1 : FVec F S16 .f32) (A B : Vec F S1x16 .f32) : FVec F S1x16 .f32 :=
  shapeCast S1x16 (Idealize.ShloMosaic.addf (Idealize.ShloMosaic.mulf c0 (shapeCast S16 A shapeCasts_S1x16_S16))
    (Idealize.ShloMosaic.mulf c1 (shapeCast S16 B shapeCasts_S1x16_S16))) shapeCasts_S16_S1x16

theorem comb_apply (c0 c1 : FVec F S16 .f32) (A B : Vec F S1x16 .f32) (u : Fin 1) (l : Fin 16) :
    comb c0 c1 A B (ix2 u l)
      = FloatOps.addf (FloatOps.mulf (c0 (ix1 l)) (A (ix2 0 l))) (FloatOps.mulf (c1 (ix1 l)) (B (ix2 0 l))) := by
  unfold comb
  rw [shapeCast_a_1a_apply]
  show FloatOps.addf (FloatOps.mulf (c0 (ix1 l)) (shapeCast S16 A shapeCasts_S1x16_S16 (ix1 l)))
      (FloatOps.mulf (c1 (ix1 l)) (shapeCast S16 B shapeCasts_S1x16_S16 (ix1 l))) = _
  rw [shapeCast_1a_a_apply, shapeCast_1a_a_apply]

/-- Position (u, l) of the 1 × 16 piece at row ρ, column co is position (ρ, co + l) of the block. -/
theorem idx_piece (off : Fin 2 → ℕ) (inb : ∀ a, off a + S1x16.size a ≤ S128x128.size a) (ρ co : ℕ)
    (hoff : off = ![ρ, co]) (hρ : ρ < 128) (hco : co + 16 ≤ 128) (u : Fin 1) (l : Fin 16) :
    (Rect.unit (s := S128x128) off S1x16.size inb).emb (ix2 u l)
      = ix2 (⟨ρ, hρ⟩ : Fin 128) (⟨co + l.val, by have := l.isLt; omega⟩ : Fin 128) := by
  subst hoff
  funext a
  refine Fin.ext ?_
  match a with
  | ⟨0, _⟩ =>
    show ρ + 1 * u.val = ρ
    have := u.isLt
    omega
  | ⟨1, _⟩ =>
    show co + 1 * l.val = co + l.val
    omega

/-- Row r of the merged block at column q, with the lane, the source row and the two source columns named. -/
theorem mrow_at (c0 c1 : FVec F S16 .f32) (R : S128x128.Idx → F .f32) (r : Fin 64) (q : Fin 128) (l : Fin 16)
    (ρ e e' : Fin 128) (hl : q.val % 16 = l.val) (hρ : 2 * r.val + q.val / 64 = ρ.val) (he : q.val % 64 = e.val)
    (he' : 64 + q.val % 64 = e'.val) :
    mrow c0 c1 R r q
      = FloatOps.addf (FloatOps.mulf (c0 (ix1 l)) (R (ix2 ρ e))) (FloatOps.mulf (c1 (ix1 l)) (R (ix2 ρ e'))) := by
  obtain ⟨lv, hlv⟩ := l
  obtain ⟨ρv, hρv⟩ := ρ
  obtain ⟨ev, hev⟩ := e
  obtain ⟨ev', hev'⟩ := e'
  change q.val % 16 = lv at hl
  change 2 * r.val + q.val / 64 = ρv at hρ
  change q.val % 64 = ev at he
  change 64 + q.val % 64 = ev' at he'
  subst hl hρ he he'
  rfl

/-- A piece written at row k, columns 64·par + 16·g .. + 15, from the pieces read at row 2k + par, columns 16g .. and
    64 + 16g .., is row k of the block with k + 1 rows merged. -/
theorem piece_ok (c0 c1 : FVec F S16 .f32) (R : S128x128.Idx → F .f32) (k : ℕ) (hk : k < 64) (off : Fin 2 → ℕ)
    (inb : ∀ a, off a + S1x16.size a ≤ S128x128.size a) (par g : ℕ) (hpar : par < 2) (hg : g < 4)
    (hoff : off = ![k, 64 * par + 16 * g]) (A B : Vec F S1x16 .f32)
    (hA : ∀ l : Fin 16, A (ix2 0 l)
      = R (ix2 (⟨2 * k + par, by omega⟩ : Fin 128) (⟨16 * g + l.val, by have := l.isLt; omega⟩ : Fin 128)))
    (hB : ∀ l : Fin 16, B (ix2 0 l)
      = R (ix2 (⟨2 * k + par, by omega⟩ : Fin 128) (⟨64 + 16 * g + l.val, by have := l.isLt; omega⟩ : Fin 128)))
    (w : (Rect.unit (s := S128x128) off S1x16.size inb).shape.Idx → F .f32)
    (hw : ∀ (u : Fin 1) (l : Fin 16), w (ix2 u l)
      = FloatOps.addf (FloatOps.mulf (c0 (ix1 l)) (A (ix2 0 l))) (FloatOps.mulf (c1 (ix1 l)) (B (ix2 0 l)))) :
    ∀ x, w x = mergedUpTo c0 c1 R (k + 1) ((Rect.unit (s := S128x128) off S1x16.size inb).emb x) := by
  intro x
  obtain ⟨u, l, rfl⟩ : ∃ (u : Fin 1) (l : Fin 16), x = ix2 u l := ⟨x 0, x 1, eq_ix2 x⟩
  have hl := l.isLt
  rw [hw, hA, hB, idx_piece off inb k (64 * par + 16 * g) hoff (by omega) (by omega)]
  unfold mergedUpTo
  rw [dif_pos ⟨Nat.lt_succ_self k, hk⟩]
  exact (mrow_at c0 c1 R ⟨k, hk⟩ ⟨64 * par + 16 * g + l.val, by omega⟩ l _ _ _
    (by show (64 * par + 16 * g + l.val) % 16 = l.val; omega)
    (by show 2 * k + (64 * par + 16 * g + l.val) / 64 = 2 * k + par; omega)
    (by show (64 * par + 16 * g + l.val) % 64 = 16 * g + l.val; omega)
    (by show 64 + (64 * par + 16 * g + l.val) % 64 = 64 + 16 * g + l.val; omega)).symm

/-- An index of row k in the columns of a piece of that row lies in the piece. -/
theorem mem_piece (k : ℕ) (off : Fin 2 → ℕ) (inb : ∀ a, off a + S1x16.size a ≤ S128x128.size a) (co : ℕ)
    (hoff : off = ![k, co]) (y : S128x128.Idx) (hy0 : (y 0).val = k) (hy1 : co ≤ (y 1).val ∧ (y 1).val < co + 16) :
    y ∈ (Rect.unit (s := S128x128) off S1x16.size inb).set := by
  subst hoff
  refine Rect.mem_set_unit.mpr ?_
  rw [Fin.forall_fin_two]
  show (k ≤ (y 0).val ∧ (y 0).val < k + 1) ∧ (co ≤ (y 1).val ∧ (y 1).val < co + 16)
  omega

/-- An index in a piece of row k has row k. -/
theorem row_of_mem_piece (k : ℕ) (off : Fin 2 → ℕ) (inb : ∀ a, off a + S1x16.size a ≤ S128x128.size a) (co : ℕ)
    (hoff : off = ![k, co]) (y : S128x128.Idx) (hy : y ∈ (Rect.unit (s := S128x128) off S1x16.size inb).set) :
    (y 0).val = k := by
  subst hoff
  have h := (Rect.mem_set_unit.mp hy) 0
  have h' : k ≤ (y 0).val ∧ (y 0).val < k + 1 := h
  omega

/-- Off row k the blocks with k and with k + 1 rows merged agree. -/
theorem mergedUpTo_succ_of_ne (c0 c1 : FVec F S16 .f32) (R : S128x128.Idx → F .f32) (k : ℕ) (y : S128x128.Idx)
    (hy : (y 0).val ≠ k) : mergedUpTo c0 c1 R k y = mergedUpTo c0 c1 R (k + 1) y := by
  unfold mergedUpTo
  by_cases h : (y 0).val < k ∧ (y 0).val < 64
  · rw [dif_pos h, dif_pos ⟨by omega, h.2⟩]
  · rw [dif_neg h, dif_neg (fun h' => h ⟨by have := h'.1; omega, h'.2⟩)]

/-- A property of each of eight listed things is a property of every member of their list. -/
theorem forall_mem8 {β : Type} {P : β → Prop} {a1 a2 a3 a4 a5 a6 a7 a8 : β} (h1 : P a1) (h2 : P a2) (h3 : P a3)
    (h4 : P a4) (h5 : P a5) (h6 : P a6) (h7 : P a7) (h8 : P a8) : ∀ x ∈ [a1, a2, a3, a4, a5, a6, a7, a8], P x := by
  intro x hx
  simp only [List.mem_cons, List.not_mem_nil, or_false] at hx
  rcases hx with rfl | rfl | rfl | rfl | rfl | rfl | rfl | rfl <;> assumption

end Inner

end Cert.Proof.KB

end
-- ==== Proof.KBTileInner0Value.lean ====
-- The text of module TileInner0Value, read over the word-level program in place of the idealized one.
/-
  What one trip of the in-place merge leaves in slot 0.

  Before trip k the slot holds the block with its first k rows merged; rows 2k and 2k + 1 are not among them
  (2k ≥ k), so every piece the trip reads is a piece of R, and the eight pieces it writes are exactly row k of the
  merged block: after the trip the slot holds the block with its first k + 1 rows merged.
-/
import proofs.«205127_g70231305225025_cont_9to1c4b_198_32_alg».proof.Proof.KBTileInnerLib

noncomputable section

namespace Cert.Proof.KB

open Cert.Kernel Cert.Kernel.Gen

open Idealize.ShloMosaic Idealize.ShloMosaic.ValueIdx

variable {F : FTy → Type} [FloatOps F]

namespace Inner

/-- What a 1 × 16 load at the given offsets reads of the slot's contents f. -/
abbrev ld0 (f : S128x128.Idx → F .f32) (off : Fin 2 → ℕ) (inb : ∀ a, off a + S1x16.size a ≤ S128x128.size a) :
    Vec F S1x16 .f32 :=
  View.readAt (Elt F) (sl0).view (Rect.unit (s := S128x128) off S1x16.size inb).toLoadRect f

/-- A load at row ρ ≥ n, column co, of the block with n rows merged reads R. -/
theorem load_val0 (c0 c1 : FVec F S16 .f32) (R : S128x128.Idx → F .f32) (n : ℕ) (off : Fin 2 → ℕ)
    (inb : ∀ a, off a + S1x16.size a ≤ S128x128.size a) (ρ co : ℕ) (hoff : off = ![ρ, co]) (hn : n ≤ ρ) (hρ : ρ < 128)
    (hco : co + 16 ≤ 128) (l : Fin 16) :
    ld0 (mergedUpTo c0 c1 R n) off inb (ix2 0 l)
      = R (ix2 (⟨ρ, hρ⟩ : Fin 128) (⟨co + l.val, by have := l.isLt; omega⟩ : Fin 128)) := by
  show mergedUpTo c0 c1 R n ((Rect.unit (s := S128x128) off S1x16.size inb).emb (ix2 0 l)) = _
  rw [idx_piece off inb ρ co hoff hρ hco]
  unfold mergedUpTo
  rw [dif_neg]
  intro h
  have : ρ < n := h.1
  omega

/-- Writes through pieces of row k that agree with the block with k + 1 rows merged and cover the row, over the block
    with k rows merged, leave the block with k + 1 rows merged. -/
theorem trip_writes0 (c0 c1 : FVec F S16 .f32) (R : S128x128.Idx → F .f32) (k : ℕ)
    (Ls : List (View.Piece (Elt F) S128x128 .f32))
    (hG : ∀ p ∈ Ls, ∀ x : p.1.shape.Idx, p.2 x = mergedUpTo c0 c1 R (k + 1) (p.1.emb x))
    (hrow : ∀ p ∈ Ls, ∀ y ∈ p.1.set, (y 0).val = k)
    (hcov : ∀ y : S128x128.Idx, (y 0).val = k → ∃ p ∈ Ls, y ∈ p.1.set) :
    (sl0).view.writes (Elt F) (mergedUpTo c0 c1 R k) Ls = mergedUpTo c0 c1 R (k + 1) := by
  funext y
  show (sl0).view.read (Elt F) ((sl0).view.writes (Elt F) (mergedUpTo c0 c1 R k) Ls) y = _
  by_cases hy : (y 0).val = k
  · exact View.read_writes_apply_of_pieces _ _ (mergedUpTo c0 c1 R (k + 1)) Ls hG y (hcov y hy)
  · rw [View.read_writes_apply_of_forall_not_mem _ _ y Ls fun p hp hm => hy (hrow p hp y hm)]
    exact mergedUpTo_succ_of_ne c0 c1 R k y hy

/-- THE TRIP: the eight pieces trip k writes, over the block with k rows merged, leave the block with k + 1. -/
theorem trip_eq0 (c0 c1 : FVec F S16 .f32) (R : S128x128.Idx → F .f32) (k : Fin k0_t2_loop.trips) :
    (sl0).view.writes (Elt F) (mergedUpTo c0 c1 R k.val)
      [(⟨Rect.unit (s := S128x128) (k0_off26 k) S1x16.size (k0_off26_inb k),
          k0_pay49 (k0_pay11 c0 c1 (ld0 (mergedUpTo c0 c1 R k.val) (k0_off23 k) (k0_off23_inb k)) (ld0 (mergedUpTo c0 c1 R k.val) (k0_off24 k) (k0_off24_inb k)))⟩ : View.Piece (Elt F) S128x128 .f32),
        (⟨Rect.unit (s := S128x128) (k0_off25 k) S1x16.size (k0_off25_inb k),
          k0_pay12 c0 c1 (ld0 (mergedUpTo c0 c1 R k.val) (k0_off21 k) (k0_off21_inb k)) (ld0 (mergedUpTo c0 c1 R k.val) (k0_off22 k) (k0_off22_inb k))⟩ : View.Piece (Elt F) S128x128 .f32),
        (⟨Rect.unit (s := S128x128) (k0_off20 k) S1x16.size (k0_off20_inb k),
          k0_pay10 c1 (k0_pay8 c0 (ld0 (mergedUpTo c0 c1 R k.val) (k0_off17 k) (k0_off17_inb k))) (ld0 (mergedUpTo c0 c1 R k.val) (k0_off18 k) (k0_off18_inb k))⟩ : View.Piece (Elt F) S128x128 .f32),
        (⟨Rect.unit (s := S128x128) (k0_off19 k) S1x16.size (k0_off19_inb k),
          k0_pay9 (k0_pay7 c0 c1 (ld0 (mergedUpTo c0 c1 R k.val) (k0_off15 k) (k0_off15_inb k)) (ld0 (mergedUpTo c0 c1 R k.val) (k0_off16 k) (k0_off16_inb k)))⟩ : View.Piece (Elt F) S128x128 .f32),
        (⟨Rect.unit (s := S128x128) (k0_off14 k) S1x16.size (k0_off14_inb k),
          k0_pay6 c0 c1 (ld0 (mergedUpTo c0 c1 R k.val) (k0_off11 k) (k0_off11_inb k)) (ld0 (mergedUpTo c0 c1 R k.val) (k0_off12 k) (k0_off12_inb k))⟩ : View.Piece (Elt F) S128x128 .f32),
        (⟨Rect.unit (s := S128x128) (k0_off13 k) S1x16.size (k0_off13_inb k),
          k0_pay5 c1 (k0_pay3 c0 (ld0 (mergedUpTo c0 c1 R k.val) (k0_off9 k) (k0_off9_inb k))) (k0_pay4 (ld0 (mergedUpTo c0 c1 R k.val) (k0_off10 k) (k0_off10_inb k)))⟩ : View.Piece (Elt F) S128x128 .f32),
        (⟨Rect.unit (s := S128x128) (k0_off8 k) S1x16.size (k0_off8_inb k),
          k0_pay2 c0 c1 (ld0 (mergedUpTo c0 c1 R k.val) (k0_off5 k) (k0_off5_inb k)) (ld0 (mergedUpTo c0 c1 R k.val) (k0_off6 k) (k0_off6_inb k))⟩ : View.Piece (Elt F) S128x128 .f32),
        (⟨Rect.unit (s := S128x128) (k0_off7 k) S1x16.size (k0_off7_inb k),
          k0_pay1 c0 c1 (ld0 (mergedUpTo c0 c1 R k.val) (k0_off3 k) (k0_off3_inb k)) (ld0 (mergedUpTo c0 c1 R k.val) (k0_off4 k) (k0_off4_inb k))⟩ : View.Piece (Elt F) S128x128 .f32)]
      = mergedUpTo c0 c1 R (k.val + 1) := by
  have hk : k.val < 64 := Nat.lt_of_lt_of_le k.isLt k0_t2_abs.2.1
  refine trip_writes0 c0 c1 R k.val _ ?_ ?_ ?_
  · exact forall_mem8
      (piece_ok c0 c1 R k.val hk (k0_off26 k) (k0_off26_inb k) 1 3 (by decide) (by decide) (k0_off26_eq k) (ld0 (mergedUpTo c0 c1 R k.val) (k0_off23 k) (k0_off23_inb k)) (ld0 (mergedUpTo c0 c1 R k.val) (k0_off24 k) (k0_off24_inb k))
      (fun l => load_val0 c0 c1 R k.val _ _ (2 * k.val + 1) (16 * 3) (k0_off23_eq k) (by omega) (by omega) (by omega) l)
      (fun l => load_val0 c0 c1 R k.val _ _ (2 * k.val + 1) (64 + 16 * 3) (k0_off24_eq k) (by omega) (by omega) (by omega) l)
      _ (fun u l => comb_apply c0 c1 _ _ u l))
      (piece_ok c0 c1 R k.val hk (k0_off25 k) (k0_off25_inb k) 0 3 (by decide) (by decide) (k0_off25_eq k) (ld0 (mergedUpTo c0 c1 R k.val) (k0_off21 k) (k0_off21_inb k)) (ld0 (mergedUpTo c0 c1 R k.val) (k0_off22 k) (k0_off22_inb k))
      (fun l => load_val0 c0 c1 R k.val _ _ (2 * k.val + 0) (16 * 3) (k0_off21_eq k) (by omega) (by omega) (by omega) l)
      (fun l => load_val0 c0 c1 R k.val _ _ (2 * k.val + 0) (64 + 16 * 3) (k0_off22_eq k) (by omega) (by omega) (by omega) l)
      _ (fun u l => comb_apply c0 c1 _ _ u l))
      (piece_ok c0 c1 R k.val hk (k0_off20 k) (k0_off20_inb k) 1 2 (by decide) (by decide) (k0_off20_eq k) (ld0 (mergedUpTo c0 c1 R k.val) (k0_off17 k) (k0_off17_inb k)) (ld0 (mergedUpTo c0 c1 R k.val) (k0_off18 k) (k0_off18_inb k))
      (fun l => load_val0 c0 c1 R k.val _ _ (2 * k.val + 1) (16 * 2) (k0_off17_eq k) (by omega) (by omega) (by omega) l)
      (fun l => load_val0 c0 c1 R k.val _ _ (2 * k.val + 1) (64 + 16 * 2) (k0_off18_eq k) (by omega) (by omega) (by omega) l)
      _ (fun u l => comb_apply c0 c1 _ _ u l))
      (piece_ok c0 c1 R k.val hk (k0_off19 k) (k0_off19_inb k) 0 2 (by decide) (by decide) (k0_off19_eq k) (ld0 (mergedUpTo c0 c1 R k.val) (k0_off15 k) (k0_off15_inb k)) (ld0 (mergedUpTo c0 c1 R k.val) (k0_off16 k) (k0_off16_inb k))
      (fun l => load_val0 c0 c1 R k.val _ _ (2 * k.val + 0) (16 * 2) (k0_off15_eq k) (by omega) (by omega) (by omega) l)
      (fun l => load_val0 c0 c1 R k.val _ _ (2 * k.val + 0) (64 + 16 * 2) (k0_off16_eq k) (by omega) (by omega) (by omega) l)
      _ (fun u l => comb_apply c0 c1 _ _ u l))
      (piece_ok c0 c1 R k.val hk (k0_off14 k) (k0_off14_inb k) 1 1 (by decide) (by decide) (k0_off14_eq k) (ld0 (mergedUpTo c0 c1 R k.val) (k0_off11 k) (k0_off11_inb k)) (ld0 (mergedUpTo c0 c1 R k.val) (k0_off12 k) (k0_off12_inb k))
      (fun l => load_val0 c0 c1 R k.val _ _ (2 * k.val + 1) (16 * 1) (k0_off11_eq k) (by omega) (by omega) (by omega) l)
      (fun l => load_val0 c0 c1 R k.val _ _ (2 * k.val + 1) (64 + 16 * 1) (k0_off12_eq k) (by omega) (by omega) (by omega) l)
      _ (fun u l => comb_apply c0 c1 _ _ u l))
      (piece_ok c0 c1 R k.val hk (k0_off13 k) (k0_off13_inb k) 0 1 (by decide) (by decide) (k0_off13_eq k) (ld0 (mergedUpTo c0 c1 R k.val) (k0_off9 k) (k0_off9_inb k)) (ld0 (mergedUpTo c0 c1 R k.val) (k0_off10 k) (k0_off10_inb k))
      (fun l => load_val0 c0 c1 R k.val _ _ (2 * k.val + 0) (16 * 1) (k0_off9_eq k) (by omega) (by omega) (by omega) l)
      (fun l => load_val0 c0 c1 R k.val _ _ (2 * k.val + 0) (64 + 16 * 1) (k0_off10_eq k) (by omega) (by omega) (by omega) l)
      _ (fun u l => comb_apply c0 c1 _ _ u l))
      (piece_ok c0 c1 R k.val hk (k0_off8 k) (k0_off8_inb k) 1 0 (by decide) (by decide) (k0_off8_eq k) (ld0 (mergedUpTo c0 c1 R k.val) (k0_off5 k) (k0_off5_inb k)) (ld0 (mergedUpTo c0 c1 R k.val) (k0_off6 k) (k0_off6_inb k))
      (fun l => load_val0 c0 c1 R k.val _ _ (2 * k.val + 1) (16 * 0) (k0_off5_eq k) (by omega) (by omega) (by omega) l)
      (fun l => load_val0 c0 c1 R k.val _ _ (2 * k.val + 1) (64 + 16 * 0) (k0_off6_eq k) (by omega) (by omega) (by omega) l)
      _ (fun u l => comb_apply c0 c1 _ _ u l))
      (piece_ok c0 c1 R k.val hk (k0_off7 k) (k0_off7_inb k) 0 0 (by decide) (by decide) (k0_off7_eq k) (ld0 (mergedUpTo c0 c1 R k.val) (k0_off3 k) (k0_off3_inb k)) (ld0 (mergedUpTo c0 c1 R k.val) (k0_off4 k) (k0_off4_inb k))
      (fun l => load_val0 c0 c1 R k.val _ _ (2 * k.val + 0) (16 * 0) (k0_off3_eq k) (by omega) (by omega) (by omega) l)
      (fun l => load_val0 c0 c1 R k.val _ _ (2 * k.val + 0) (64 + 16 * 0) (k0_off4_eq k) (by omega) (by omega) (by omega) l)
      _ (fun u l => comb_apply c0 c1 _ _ u l))
  · exact forall_mem8
      (fun y hy => row_of_mem_piece k.val (k0_off26 k) (k0_off26_inb k) _ (k0_off26_eq k) y hy)
      (fun y hy => row_of_mem_piece k.val (k0_off25 k) (k0_off25_inb k) _ (k0_off25_eq k) y hy)
      (fun y hy => row_of_mem_piece k.val (k0_off20 k) (k0_off20_inb k) _ (k0_off20_eq k) y hy)
      (fun y hy => row_of_mem_piece k.val (k0_off19 k) (k0_off19_inb k) _ (k0_off19_eq k) y hy)
      (fun y hy => row_of_mem_piece k.val (k0_off14 k) (k0_off14_inb k) _ (k0_off14_eq k) y hy)
      (fun y hy => row_of_mem_piece k.val (k0_off13 k) (k0_off13_inb k) _ (k0_off13_eq k) y hy)
      (fun y hy => row_of_mem_piece k.val (k0_off8 k) (k0_off8_inb k) _ (k0_off8_eq k) y hy)
      (fun y hy => row_of_mem_piece k.val (k0_off7 k) (k0_off7_inb k) _ (k0_off7_eq k) y hy)
  intro y hy
  have h1 : (y 1).val < 128 := (y 1).isLt
  by_cases hc0 : (y 1).val < 16
  · exact ⟨_, .tail _ (.tail _ (.tail _ (.tail _ (.tail _ (.tail _ (.tail _ (.head _))))))), mem_piece k.val (k0_off7 k) (k0_off7_inb k) 0 (k0_off7_eq k) y hy ⟨by omega, by omega⟩⟩
  by_cases hc1 : (y 1).val < 32
  · exact ⟨_, .tail _ (.tail _ (.tail _ (.tail _ (.tail _ (.head _))))), mem_piece k.val (k0_off13 k) (k0_off13_inb k) 16 (k0_off13_eq k) y hy ⟨by omega, by omega⟩⟩
  by_cases hc2 : (y 1).val < 48
  · exact ⟨_, .tail _ (.tail _ (.tail _ (.head _))), mem_piece k.val (k0_off19 k) (k0_off19_inb k) 32 (k0_off19_eq k) y hy ⟨by omega, by omega⟩⟩
  by_cases hc3 : (y 1).val < 64
  · exact ⟨_, .tail _ (.head _), mem_piece k.val (k0_off25 k) (k0_off25_inb k) 48 (k0_off25_eq k) y hy ⟨by omega, by omega⟩⟩
  by_cases hc4 : (y 1).val < 80
  · exact ⟨_, .tail _ (.tail _ (.tail _ (.tail _ (.tail _ (.tail _ (.head _)))))), mem_piece k.val (k0_off8 k) (k0_off8_inb k) 64 (k0_off8_eq k) y hy ⟨by omega, by omega⟩⟩
  by_cases hc5 : (y 1).val < 96
  · exact ⟨_, .tail _ (.tail _ (.tail _ (.tail _ (.head _)))), mem_piece k.val (k0_off14 k) (k0_off14_inb k) 80 (k0_off14_eq k) y hy ⟨by omega, by omega⟩⟩
  by_cases hc6 : (y 1).val < 112
  · exact ⟨_, .tail _ (.tail _ (.head _)), mem_piece k.val (k0_off20 k) (k0_off20_inb k) 96 (k0_off20_eq k) y hy ⟨by omega, by omega⟩⟩
  exact ⟨_, .head _, mem_piece k.val (k0_off26 k) (k0_off26_inb k) 112 (k0_off26_eq k) y hy ⟨by omega, by omega⟩⟩

end Inner

end Cert.Proof.KB

end
-- ==== Proof.KBTileInner0.lean ====
-- The text of module TileInner0, read over the word-level program in place of the idealized one.
/-
  The in-place merge of slot 0, run: the loop of 64 trips takes the slot from a block R to the merged block.

  Before trip k the slot holds the block with its first k rows merged; one trip takes that to k + 1 rows; after the
  64th the slot holds the merged block, with which the rest of the program goes on.
-/
import proofs.«205127_g70231305225025_cont_9to1c4b_198_32_alg».proof.Proof.KBTileShares
import proofs.«205127_g70231305225025_cont_9to1c4b_198_32_alg».proof.Proof.KBTileInner0Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Before trip k the slot holds the block with its first k rows merged. -/
def inv0 [FloatOps F] (d : Dev nD) (L : grid0.Coords) (c0 c1 : FVec F S16 .f32)
    (R : Buf (Elt F) ((sl0).view.loc (V d (cV L) (jV L)))) (k : Nat) (_ : Unit) : sProp 𝕄 :=
  iprop((sl0).view.loc (V d (cV L) (jV L)) ↦{fullShare} mergedUpTo c0 c1 R k)

/-- The loop, from the slot at R, then the rest of the program from the slot at the merged block. -/
theorem inner0 [FloatOps F] (d : Dev nD) (L : grid0.Coords) (v2 : BitVec 32) (c0 c1 : FVec F S16 .f32) (w0 w1 : BitVec 32)
    (k1 : Fin k0_t1_loop.trips) (R : Buf (Elt F) ((sl0).view.loc (V d (cV L) (jV L)))) {α : Type}
    (kont : Unit → Prog (TpuEff nD τ sig (Elt F) Λ₀ (.scVector (cV L) (jV L))) α) (Q : α → sProp 𝕄) :
    (iprop(((sl0).view.loc (V d (cV L) (jV L)) ↦{fullShare} R)
        ∗ (((sl0).view.loc (V d (cV L) (jV L)) ↦{fullShare} merged c0 c1 R)
            -∗ wp frame (wpE (defs₀ (F := F)) 𝒱₀ (V d (cV L) (jV L)) none) Set.univ (kont ⟨⟩) Q)) : sProp 𝕄)
      ⊢ wp frame (wpE (defs₀ (F := F)) 𝒱₀ (V d (cV L) (jV L)) none) Set.univ
          (Scf.Loop.for k0_t2_loop k0_t2_ok ⟨⟩ (k0_t2_body L flV (Memref.isWhole_whole _) prV (Memref.isWhole_whole _) cbV (Memref.isWhole_whole _) ouV (Memref.isWhole_whole _) tkS (Memref.isWhole_whole _) sl0 (Memref.isWhole_whole _) sl1 (Memref.isWhole_whole _) sl2 (Memref.isWhole_whole _) sl3 (Memref.isWhole_whole _) cfS (Memref.isWhole_whole _) cc0_scratch6 cc0_scratch7 cc0_scratch8 cc0_scratch9 cc0_scratch10 cc0_scratch11 cc0_scratch12 cc0_scratch13 cc0_scoped0 cc0_scoped1 v2 c0 c1 w0 w1 k1) >>= kont) Q := by
  iintro ⟨HR, Hk⟩
  sl_for (inv0 d L c0 c1 R) $$ [HR]
  case region =>
    intro k _
    unfold inv0
    iintro H
    sl_exec
    sl_step
    sl_unfold_run_names
    iapply (Entails.of_eq (congrArg
      (fun g : Buf (Elt F) ((sl0).view.loc (V d (cV L) (jV L))) => ((sl0).view.loc (V d (cV L) (jV L)) ↦{fullShare} g : sProp 𝕄))
      (Inner.trip_eq0 c0 c1 R k))) $$ H
  · unfold inv0
    rw [mergedUpTo_zero]
    iexact HR
  rw [show Scf.trips k0_t2_loop.lb k0_t2_loop.ub k0_t2_loop.st = 64 from by decide]
  iintro %_ HI
  unfold inv0
  unfold merged
  iapply Hk
  iexact HI

end Cert.Proof.KB

end
-- ==== Proof.KBTileInner1Value.lean ====
-- The text of module TileInner1Value, read over the word-level program in place of the idealized one.
/-
  What one trip of the in-place merge leaves in slot 1.

  Before trip k the slot holds the block with its first k rows merged; rows 2k and 2k + 1 are not among them
  (2k ≥ k), so every piece the trip reads is a piece of R, and the eight pieces it writes are exactly row k of the
  merged block: after the trip the slot holds the block with its first k + 1 rows merged.
-/
import proofs.«205127_g70231305225025_cont_9to1c4b_198_32_alg».proof.Proof.KBTileInnerLib

noncomputable section

namespace Cert.Proof.KB

open Cert.Kernel Cert.Kernel.Gen

open Idealize.ShloMosaic Idealize.ShloMosaic.ValueIdx

variable {F : FTy → Type} [FloatOps F]

namespace Inner

/-- What a 1 × 16 load at the given offsets reads of the slot's contents f. -/
abbrev ld1 (f : S128x128.Idx → F .f32) (off : Fin 2 → ℕ) (inb : ∀ a, off a + S1x16.size a ≤ S128x128.size a) :
    Vec F S1x16 .f32 :=
  View.readAt (Elt F) (sl1).view (Rect.unit (s := S128x128) off S1x16.size inb).toLoadRect f

/-- A load at row ρ ≥ n, column co, of the block with n rows merged reads R. -/
theorem load_val1 (c0 c1 : FVec F S16 .f32) (R : S128x128.Idx → F .f32) (n : ℕ) (off : Fin 2 → ℕ)
    (inb : ∀ a, off a + S1x16.size a ≤ S128x128.size a) (ρ co : ℕ) (hoff : off = ![ρ, co]) (hn : n ≤ ρ) (hρ : ρ < 128)
    (hco : co + 16 ≤ 128) (l : Fin 16) :
    ld1 (mergedUpTo c0 c1 R n) off inb (ix2 0 l)
      = R (ix2 (⟨ρ, hρ⟩ : Fin 128) (⟨co + l.val, by have := l.isLt; omega⟩ : Fin 128)) := by
  show mergedUpTo c0 c1 R n ((Rect.unit (s := S128x128) off S1x16.size inb).emb (ix2 0 l)) = _
  rw [idx_piece off inb ρ co hoff hρ hco]
  unfold mergedUpTo
  rw [dif_neg]
  intro h
  have : ρ < n := h.1
  omega

/-- Writes through pieces of row k that agree with the block with k + 1 rows merged and cover the row, over the block
    with k rows merged, leave the block with k + 1 rows merged. -/
theorem trip_writes1 (c0 c1 : FVec F S16 .f32) (R : S128x128.Idx → F .f32) (k : ℕ)
    (Ls : List (View.Piece (Elt F) S128x128 .f32))
    (hG : ∀ p ∈ Ls, ∀ x : p.1.shape.Idx, p.2 x = mergedUpTo c0 c1 R (k + 1) (p.1.emb x))
    (hrow : ∀ p ∈ Ls, ∀ y ∈ p.1.set, (y 0).val = k)
    (hcov : ∀ y : S128x128.Idx, (y 0).val = k → ∃ p ∈ Ls, y ∈ p.1.set) :
    (sl1).view.writes (Elt F) (mergedUpTo c0 c1 R k) Ls = mergedUpTo c0 c1 R (k + 1) := by
  funext y
  show (sl1).view.read (Elt F) ((sl1).view.writes (Elt F) (mergedUpTo c0 c1 R k) Ls) y = _
  by_cases hy : (y 0).val = k
  · exact View.read_writes_apply_of_pieces _ _ (mergedUpTo c0 c1 R (k + 1)) Ls hG y (hcov y hy)
  · rw [View.read_writes_apply_of_forall_not_mem _ _ y Ls fun p hp hm => hy (hrow p hp y hm)]
    exact mergedUpTo_succ_of_ne c0 c1 R k y hy

/-- THE TRIP: the eight pieces trip k writes, over the block with k rows merged, leave the block with k + 1. -/
theorem trip_eq1 (c0 c1 : FVec F S16 .f32) (R : S128x128.Idx → F .f32) (k : Fin k0_t3_loop.trips) :
    (sl1).view.writes (Elt F) (mergedUpTo c0 c1 R k.val)
      [(⟨Rect.unit (s := S128x128) (k0_off53 k) S1x16.size (k0_off53_inb k),
          k0_pay50 (k0_pay23 c0 c1 (ld1 (mergedUpTo c0 c1 R k.val) (k0_off50 k) (k0_off50_inb k)) (ld1 (mergedUpTo c0 c1 R k.val) (k0_off51 k) (k0_off51_inb k)))⟩ : View.Piece (Elt F) S128x128 .f32),
        (⟨Rect.unit (s := S128x128) (k0_off52 k) S1x16.size (k0_off52_inb k),
          k0_pay24 c0 c1 (ld1 (mergedUpTo c0 c1 R k.val) (k0_off48 k) (k0_off48_inb k)) (ld1 (mergedUpTo c0 c1 R k.val) (k0_off49 k) (k0_off49_inb k))⟩ : View.Piece (Elt F) S128x128 .f32),
        (⟨Rect.unit (s := S128x128) (k0_off47 k) S1x16.size (k0_off47_inb k),
          k0_pay22 c1 (k0_pay20 c0 (ld1 (mergedUpTo c0 c1 R k.val) (k0_off44 k) (k0_off44_inb k))) (ld1 (mergedUpTo c0 c1 R k.val) (k0_off45 k) (k0_off45_inb k))⟩ : View.Piece (Elt F) S128x128 .f32),
        (⟨Rect.unit (s := S128x128) (k0_off46 k) S1x16.size (k0_off46_inb k),
          k0_pay21 (k0_pay19 c0 c1 (ld1 (mergedUpTo c0 c1 R k.val) (k0_off42 k) (k0_off42_inb k)) (ld1 (mergedUpTo c0 c1 R k.val) (k0_off43 k) (k0_off43_inb k)))⟩ : View.Piece (Elt F) S128x128 .f32),
        (⟨Rect.unit (s := S128x128) (k0_off41 k) S1x16.size (k0_off41_inb k),
          k0_pay18 c0 c1 (ld1 (mergedUpTo c0 c1 R k.val) (k0_off38 k) (k0_off38_inb k)) (ld1 (mergedUpTo c0 c1 R k.val) (k0_off39 k) (k0_off39_inb k))⟩ : View.Piece (Elt F) S128x128 .f32),
        (⟨Rect.unit (s := S128x128) (k0_off40 k) S1x16.size (k0_off40_inb k),
          k0_pay17 c1 (k0_pay15 c0 (ld1 (mergedUpTo c0 c1 R k.val) (k0_off36 k) (k0_off36_inb k))) (k0_pay16 (ld1 (mergedUpTo c0 c1 R k.val) (k0_off37 k) (k0_off37_inb k)))⟩ : View.Piece (Elt F) S128x128 .f32),
        (⟨Rect.unit (s := S128x128) (k0_off35 k) S1x16.size (k0_off35_inb k),
          k0_pay14 c0 c1 (ld1 (mergedUpTo c0 c1 R k.val) (k0_off32 k) (k0_off32_inb k)) (ld1 (mergedUpTo c0 c1 R k.val) (k0_off33 k) (k0_off33_inb k))⟩ : View.Piece (Elt F) S128x128 .f32),
        (⟨Rect.unit (s := S128x128) (k0_off34 k) S1x16.size (k0_off34_inb k),
          k0_pay13 c0 c1 (ld1 (mergedUpTo c0 c1 R k.val) (k0_off30 k) (k0_off30_inb k)) (ld1 (mergedUpTo c0 c1 R k.val) (k0_off31 k) (k0_off31_inb k))⟩ : View.Piece (Elt F) S128x128 .f32)]
      = mergedUpTo c0 c1 R (k.val + 1) := by
  have hk : k.val < 64 := Nat.lt_of_lt_of_le k.isLt k0_t3_abs.2.1
  refine trip_writes1 c0 c1 R k.val _ ?_ ?_ ?_
  · exact forall_mem8
      (piece_ok c0 c1 R k.val hk (k0_off53 k) (k0_off53_inb k) 1 3 (by decide) (by decide) (k0_off53_eq k) (ld1 (mergedUpTo c0 c1 R k.val) (k0_off50 k) (k0_off50_inb k)) (ld1 (mergedUpTo c0 c1 R k.val) (k0_off51 k) (k0_off51_inb k))
      (fun l => load_val1 c0 c1 R k.val _ _ (2 * k.val + 1) (16 * 3) (k0_off50_eq k) (by omega) (by omega) (by omega) l)
      (fun l => load_val1 c0 c1 R k.val _ _ (2 * k.val + 1) (64 + 16 * 3) (k0_off51_eq k) (by omega) (by omega) (by omega) l)
      _ (fun u l => comb_apply c0 c1 _ _ u l))
      (piece_ok c0 c1 R k.val hk (k0_off52 k) (k0_off52_inb k) 0 3 (by decide) (by decide) (k0_off52_eq k) (ld1 (mergedUpTo c0 c1 R k.val) (k0_off48 k) (k0_off48_inb k)) (ld1 (mergedUpTo c0 c1 R k.val) (k0_off49 k) (k0_off49_inb k))
      (fun l => load_val1 c0 c1 R k.val _ _ (2 * k.val + 0) (16 * 3) (k0_off48_eq k) (by omega) (by omega) (by omega) l)
      (fun l => load_val1 c0 c1 R k.val _ _ (2 * k.val + 0) (64 + 16 * 3) (k0_off49_eq k) (by omega) (by omega) (by omega) l)
      _ (fun u l => comb_apply c0 c1 _ _ u l))
      (piece_ok c0 c1 R k.val hk (k0_off47 k) (k0_off47_inb k) 1 2 (by decide) (by decide) (k0_off47_eq k) (ld1 (mergedUpTo c0 c1 R k.val) (k0_off44 k) (k0_off44_inb k)) (ld1 (mergedUpTo c0 c1 R k.val) (k0_off45 k) (k0_off45_inb k))
      (fun l => load_val1 c0 c1 R k.val _ _ (2 * k.val + 1) (16 * 2) (k0_off44_eq k) (by omega) (by omega) (by omega) l)
      (fun l => load_val1 c0 c1 R k.val _ _ (2 * k.val + 1) (64 + 16 * 2) (k0_off45_eq k) (by omega) (by omega) (by omega) l)
      _ (fun u l => comb_apply c0 c1 _ _ u l))
      (piece_ok c0 c1 R k.val hk (k0_off46 k) (k0_off46_inb k) 0 2 (by decide) (by decide) (k0_off46_eq k) (ld1 (mergedUpTo c0 c1 R k.val) (k0_off42 k) (k0_off42_inb k)) (ld1 (mergedUpTo c0 c1 R k.val) (k0_off43 k) (k0_off43_inb k))
      (fun l => load_val1 c0 c1 R k.val _ _ (2 * k.val + 0) (16 * 2) (k0_off42_eq k) (by omega) (by omega) (by omega) l)
      (fun l => load_val1 c0 c1 R k.val _ _ (2 * k.val + 0) (64 + 16 * 2) (k0_off43_eq k) (by omega) (by omega) (by omega) l)
      _ (fun u l => comb_apply c0 c1 _ _ u l))
      (piece_ok c0 c1 R k.val hk (k0_off41 k) (k0_off41_inb k) 1 1 (by decide) (by decide) (k0_off41_eq k) (ld1 (mergedUpTo c0 c1 R k.val) (k0_off38 k) (k0_off38_inb k)) (ld1 (mergedUpTo c0 c1 R k.val) (k0_off39 k) (k0_off39_inb k))
      (fun l => load_val1 c0 c1 R k.val _ _ (2 * k.val + 1) (16 * 1) (k0_off38_eq k) (by omega) (by omega) (by omega) l)
      (fun l => load_val1 c0 c1 R k.val _ _ (2 * k.val + 1) (64 + 16 * 1) (k0_off39_eq k) (by omega) (by omega) (by omega) l)
      _ (fun u l => comb_apply c0 c1 _ _ u l))
      (piece_ok c0 c1 R k.val hk (k0_off40 k) (k0_off40_inb k) 0 1 (by decide) (by decide) (k0_off40_eq k) (ld1 (mergedUpTo c0 c1 R k.val) (k0_off36 k) (k0_off36_inb k)) (ld1 (mergedUpTo c0 c1 R k.val) (k0_off37 k) (k0_off37_inb k))
      (fun l => load_val1 c0 c1 R k.val _ _ (2 * k.val + 0) (16 * 1) (k0_off36_eq k) (by omega) (by omega) (by omega) l)
      (fun l => load_val1 c0 c1 R k.val _ _ (2 * k.val + 0) (64 + 16 * 1) (k0_off37_eq k) (by omega) (by omega) (by omega) l)
      _ (fun u l => comb_apply c0 c1 _ _ u l))
      (piece_ok c0 c1 R k.val hk (k0_off35 k) (k0_off35_inb k) 1 0 (by decide) (by decide) (k0_off35_eq k) (ld1 (mergedUpTo c0 c1 R k.val) (k0_off32 k) (k0_off32_inb k)) (ld1 (mergedUpTo c0 c1 R k.val) (k0_off33 k) (k0_off33_inb k))
      (fun l => load_val1 c0 c1 R k.val _ _ (2 * k.val + 1) (16 * 0) (k0_off32_eq k) (by omega) (by omega) (by omega) l)
      (fun l => load_val1 c0 c1 R k.val _ _ (2 * k.val + 1) (64 + 16 * 0) (k0_off33_eq k) (by omega) (by omega) (by omega) l)
      _ (fun u l => comb_apply c0 c1 _ _ u l))
      (piece_ok c0 c1 R k.val hk (k0_off34 k) (k0_off34_inb k) 0 0 (by decide) (by decide) (k0_off34_eq k) (ld1 (mergedUpTo c0 c1 R k.val) (k0_off30 k) (k0_off30_inb k)) (ld1 (mergedUpTo c0 c1 R k.val) (k0_off31 k) (k0_off31_inb k))
      (fun l => load_val1 c0 c1 R k.val _ _ (2 * k.val + 0) (16 * 0) (k0_off30_eq k) (by omega) (by omega) (by omega) l)
      (fun l => load_val1 c0 c1 R k.val _ _ (2 * k.val + 0) (64 + 16 * 0) (k0_off31_eq k) (by omega) (by omega) (by omega) l)
      _ (fun u l => comb_apply c0 c1 _ _ u l))
  · exact forall_mem8
      (fun y hy => row_of_mem_piece k.val (k0_off53 k) (k0_off53_inb k) _ (k0_off53_eq k) y hy)
      (fun y hy => row_of_mem_piece k.val (k0_off52 k) (k0_off52_inb k) _ (k0_off52_eq k) y hy)
      (fun y hy => row_of_mem_piece k.val (k0_off47 k) (k0_off47_inb k) _ (k0_off47_eq k) y hy)
      (fun y hy => row_of_mem_piece k.val (k0_off46 k) (k0_off46_inb k) _ (k0_off46_eq k) y hy)
      (fun y hy => row_of_mem_piece k.val (k0_off41 k) (k0_off41_inb k) _ (k0_off41_eq k) y hy)
      (fun y hy => row_of_mem_piece k.val (k0_off40 k) (k0_off40_inb k) _ (k0_off40_eq k) y hy)
      (fun y hy => row_of_mem_piece k.val (k0_off35 k) (k0_off35_inb k) _ (k0_off35_eq k) y hy)
      (fun y hy => row_of_mem_piece k.val (k0_off34 k) (k0_off34_inb k) _ (k0_off34_eq k) y hy)
  intro y hy
  have h1 : (y 1).val < 128 := (y 1).isLt
  by_cases hc0 : (y 1).val < 16
  · exact ⟨_, .tail _ (.tail _ (.tail _ (.tail _ (.tail _ (.tail _ (.tail _ (.head _))))))), mem_piece k.val (k0_off34 k) (k0_off34_inb k) 0 (k0_off34_eq k) y hy ⟨by omega, by omega⟩⟩
  by_cases hc1 : (y 1).val < 32
  · exact ⟨_, .tail _ (.tail _ (.tail _ (.tail _ (.tail _ (.head _))))), mem_piece k.val (k0_off40 k) (k0_off40_inb k) 16 (k0_off40_eq k) y hy ⟨by omega, by omega⟩⟩
  by_cases hc2 : (y 1).val < 48
  · exact ⟨_, .tail _ (.tail _ (.tail _ (.head _))), mem_piece k.val (k0_off46 k) (k0_off46_inb k) 32 (k0_off46_eq k) y hy ⟨by omega, by omega⟩⟩
  by_cases hc3 : (y 1).val < 64
  · exact ⟨_, .tail _ (.head _), mem_piece k.val (k0_off52 k) (k0_off52_inb k) 48 (k0_off52_eq k) y hy ⟨by omega, by omega⟩⟩
  by_cases hc4 : (y 1).val < 80
  · exact ⟨_, .tail _ (.tail _ (.tail _ (.tail _ (.tail _ (.tail _ (.head _)))))), mem_piece k.val (k0_off35 k) (k0_off35_inb k) 64 (k0_off35_eq k) y hy ⟨by omega, by omega⟩⟩
  by_cases hc5 : (y 1).val < 96
  · exact ⟨_, .tail _ (.tail _ (.tail _ (.tail _ (.head _)))), mem_piece k.val (k0_off41 k) (k0_off41_inb k) 80 (k0_off41_eq k) y hy ⟨by omega, by omega⟩⟩
  by_cases hc6 : (y 1).val < 112
  · exact ⟨_, .tail _ (.tail _ (.head _)), mem_piece k.val (k0_off47 k) (k0_off47_inb k) 96 (k0_off47_eq k) y hy ⟨by omega, by omega⟩⟩
  exact ⟨_, .head _, mem_piece k.val (k0_off53 k) (k0_off53_inb k) 112 (k0_off53_eq k) y hy ⟨by omega, by omega⟩⟩

end Inner

end Cert.Proof.KB

end
-- ==== Proof.KBTileInner1.lean ====
-- The text of module TileInner1, read over the word-level program in place of the idealized one.
/-
  The in-place merge of slot 1, run: the loop of 64 trips takes the slot from a block R to the merged block.

  Before trip k the slot holds the block with its first k rows merged; one trip takes that to k + 1 rows; after the
  64th the slot holds the merged block, with which the rest of the program goes on.
-/
import proofs.«205127_g70231305225025_cont_9to1c4b_198_32_alg».proof.Proof.KBTileShares
import proofs.«205127_g70231305225025_cont_9to1c4b_198_32_alg».proof.Proof.KBTileInner1Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Before trip k the slot holds the block with its first k rows merged. -/
def inv1 [FloatOps F] (d : Dev nD) (L : grid0.Coords) (c0 c1 : FVec F S16 .f32)
    (R : Buf (Elt F) ((sl1).view.loc (V d (cV L) (jV L)))) (k : Nat) (_ : Unit) : sProp 𝕄 :=
  iprop((sl1).view.loc (V d (cV L) (jV L)) ↦{fullShare} mergedUpTo c0 c1 R k)

/-- The loop, from the slot at R, then the rest of the program from the slot at the merged block. -/
theorem inner1 [FloatOps F] (d : Dev nD) (L : grid0.Coords) (v2 : BitVec 32) (c0 c1 : FVec F S16 .f32) (k1 : Fin k0_t1_loop.trips)
    (w0 w1 w2 : BitVec 32) (R : Buf (Elt F) ((sl1).view.loc (V d (cV L) (jV L)))) {α : Type}
    (kont : Unit → Prog (TpuEff nD τ sig (Elt F) Λ₀ (.scVector (cV L) (jV L))) α) (Q : α → sProp 𝕄) :
    (iprop(((sl1).view.loc (V d (cV L) (jV L)) ↦{fullShare} R)
        ∗ (((sl1).view.loc (V d (cV L) (jV L)) ↦{fullShare} merged c0 c1 R)
            -∗ wp frame (wpE (defs₀ (F := F)) 𝒱₀ (V d (cV L) (jV L)) none) Set.univ (kont ⟨⟩) Q)) : sProp 𝕄)
      ⊢ wp frame (wpE (defs₀ (F := F)) 𝒱₀ (V d (cV L) (jV L)) none) Set.univ
          (Scf.Loop.for k0_t3_loop k0_t3_ok ⟨⟩ (k0_t3_body L flV (Memref.isWhole_whole _) prV (Memref.isWhole_whole _) cbV (Memref.isWhole_whole _) ouV (Memref.isWhole_whole _) tkS (Memref.isWhole_whole _) sl0 (Memref.isWhole_whole _) sl1 (Memref.isWhole_whole _) sl2 (Memref.isWhole_whole _) sl3 (Memref.isWhole_whole _) cfS (Memref.isWhole_whole _) cc0_scratch6 cc0_scratch7 cc0_scratch8 cc0_scratch9 cc0_scratch10 cc0_scratch11 cc0_scratch12 cc0_scratch13 cc0_scoped0 cc0_scoped1 v2 c0 c1 k1 w0 w1 w2) >>= kont) Q := by
  iintro ⟨HR, Hk⟩
  sl_for (inv1 d L c0 c1 R) $$ [HR]
  case region =>
    intro k _
    unfold inv1
    iintro H
    sl_exec
    sl_step
    sl_unfold_run_names
    iapply (Entails.of_eq (congrArg
      (fun g : Buf (Elt F) ((sl1).view.loc (V d (cV L) (jV L))) => ((sl1).view.loc (V d (cV L) (jV L)) ↦{fullShare} g : sProp 𝕄))
      (Inner.trip_eq1 c0 c1 R k))) $$ H
  · unfold inv1
    rw [mergedUpTo_zero]
    iexact HR
  rw [show Scf.trips k0_t3_loop.lb k0_t3_loop.ub k0_t3_loop.st = 64 from by decide]
  iintro %_ HI
  unfold inv1
  unfold merged
  iapply Hk
  iexact HI

end Cert.Proof.KB

end
-- ==== Proof.KBTileInner2Value.lean ====
-- The text of module TileInner2Value, read over the word-level program in place of the idealized one.
/-
  What one trip of the in-place merge leaves in slot 2.

  Before trip k the slot holds the block with its first k rows merged; rows 2k and 2k + 1 are not among them
  (2k ≥ k), so every piece the trip reads is a piece of R, and the eight pieces it writes are exactly row k of the
  merged block: after the trip the slot holds the block with its first k + 1 rows merged.
-/
import proofs.«205127_g70231305225025_cont_9to1c4b_198_32_alg».proof.Proof.KBTileInnerLib

noncomputable section

namespace Cert.Proof.KB

open Cert.Kernel Cert.Kernel.Gen

open Idealize.ShloMosaic Idealize.ShloMosaic.ValueIdx

variable {F : FTy → Type} [FloatOps F]

namespace Inner

/-- What a 1 × 16 load at the given offsets reads of the slot's contents f. -/
abbrev ld2 (f : S128x128.Idx → F .f32) (off : Fin 2 → ℕ) (inb : ∀ a, off a + S1x16.size a ≤ S128x128.size a) :
    Vec F S1x16 .f32 :=
  View.readAt (Elt F) (sl2).view (Rect.unit (s := S128x128) off S1x16.size inb).toLoadRect f

/-- A load at row ρ ≥ n, column co, of the block with n rows merged reads R. -/
theorem load_val2 (c0 c1 : FVec F S16 .f32) (R : S128x128.Idx → F .f32) (n : ℕ) (off : Fin 2 → ℕ)
    (inb : ∀ a, off a + S1x16.size a ≤ S128x128.size a) (ρ co : ℕ) (hoff : off = ![ρ, co]) (hn : n ≤ ρ) (hρ : ρ < 128)
    (hco : co + 16 ≤ 128) (l : Fin 16) :
    ld2 (mergedUpTo c0 c1 R n) off inb (ix2 0 l)
      = R (ix2 (⟨ρ, hρ⟩ : Fin 128) (⟨co + l.val, by have := l.isLt; omega⟩ : Fin 128)) := by
  show mergedUpTo c0 c1 R n ((Rect.unit (s := S128x128) off S1x16.size inb).emb (ix2 0 l)) = _
  rw [idx_piece off inb ρ co hoff hρ hco]
  unfold mergedUpTo
  rw [dif_neg]
  intro h
  have : ρ < n := h.1
  omega

/-- Writes through pieces of row k that agree with the block with k + 1 rows merged and cover the row, over the block
    with k rows merged, leave the block with k + 1 rows merged. -/
theorem trip_writes2 (c0 c1 : FVec F S16 .f32) (R : S128x128.Idx → F .f32) (k : ℕ)
    (Ls : List (View.Piece (Elt F) S128x128 .f32))
    (hG : ∀ p ∈ Ls, ∀ x : p.1.shape.Idx, p.2 x = mergedUpTo c0 c1 R (k + 1) (p.1.emb x))
    (hrow : ∀ p ∈ Ls, ∀ y ∈ p.1.set, (y 0).val = k)
    (hcov : ∀ y : S128x128.Idx, (y 0).val = k → ∃ p ∈ Ls, y ∈ p.1.set) :
    (sl2).view.writes (Elt F) (mergedUpTo c0 c1 R k) Ls = mergedUpTo c0 c1 R (k + 1) := by
  funext y
  show (sl2).view.read (Elt F) ((sl2).view.writes (Elt F) (mergedUpTo c0 c1 R k) Ls) y = _
  by_cases hy : (y 0).val = k
  · exact View.read_writes_apply_of_pieces _ _ (mergedUpTo c0 c1 R (k + 1)) Ls hG y (hcov y hy)
  · rw [View.read_writes_apply_of_forall_not_mem _ _ y Ls fun p hp hm => hy (hrow p hp y hm)]
    exact mergedUpTo_succ_of_ne c0 c1 R k y hy

/-- THE TRIP: the eight pieces trip k writes, over the block with k rows merged, leave the block with k + 1. -/
theorem trip_eq2 (c0 c1 : FVec F S16 .f32) (R : S128x128.Idx → F .f32) (k : Fin k0_t4_loop.trips) :
    (sl2).view.writes (Elt F) (mergedUpTo c0 c1 R k.val)
      [(⟨Rect.unit (s := S128x128) (k0_off79 k) S1x16.size (k0_off79_inb k),
          k0_pay51 (k0_pay35 c0 c1 (ld2 (mergedUpTo c0 c1 R k.val) (k0_off76 k) (k0_off76_inb k)) (ld2 (mergedUpTo c0 c1 R k.val) (k0_off77 k) (k0_off77_inb k)))⟩ : View.Piece (Elt F) S128x128 .f32),
        (⟨Rect.unit (s := S128x128) (k0_off78 k) S1x16.size (k0_off78_inb k),
          k0_pay36 c0 c1 (ld2 (mergedUpTo c0 c1 R k.val) (k0_off74 k) (k0_off74_inb k)) (ld2 (mergedUpTo c0 c1 R k.val) (k0_off75 k) (k0_off75_inb k))⟩ : View.Piece (Elt F) S128x128 .f32),
        (⟨Rect.unit (s := S128x128) (k0_off73 k) S1x16.size (k0_off73_inb k),
          k0_pay34 c1 (k0_pay32 c0 (ld2 (mergedUpTo c0 c1 R k.val) (k0_off70 k) (k0_off70_inb k))) (ld2 (mergedUpTo c0 c1 R k.val) (k0_off71 k) (k0_off71_inb k))⟩ : View.Piece (Elt F) S128x128 .f32),
        (⟨Rect.unit (s := S128x128) (k0_off72 k) S1x16.size (k0_off72_inb k),
          k0_pay33 (k0_pay31 c0 c1 (ld2 (mergedUpTo c0 c1 R k.val) (k0_off68 k) (k0_off68_inb k)) (ld2 (mergedUpTo c0 c1 R k.val) (k0_off69 k) (k0_off69_inb k)))⟩ : View.Piece (Elt F) S128x128 .f32),
        (⟨Rect.unit (s := S128x128) (k0_off67 k) S1x16.size (k0_off67_inb k),
          k0_pay30 c0 c1 (ld2 (mergedUpTo c0 c1 R k.val) (k0_off64 k) (k0_off64_inb k)) (ld2 (mergedUpTo c0 c1 R k.val) (k0_off65 k) (k0_off65_inb k))⟩ : View.Piece (Elt F) S128x128 .f32),
        (⟨Rect.unit (s := S128x128) (k0_off66 k) S1x16.size (k0_off66_inb k),
          k0_pay29 c1 (k0_pay27 c0 (ld2 (mergedUpTo c0 c1 R k.val) (k0_off62 k) (k0_off62_inb k))) (k0_pay28 (ld2 (mergedUpTo c0 c1 R k.val) (k0_off63 k) (k0_off63_inb k)))⟩ : View.Piece (Elt F) S128x128 .f32),
        (⟨Rect.unit (s := S128x128) (k0_off61 k) S1x16.size (k0_off61_inb k),
          k0_pay26 c0 c1 (ld2 (mergedUpTo c0 c1 R k.val) (k0_off58 k) (k0_off58_inb k)) (ld2 (mergedUpTo c0 c1 R k.val) (k0_off59 k) (k0_off59_inb k))⟩ : View.Piece (Elt F) S128x128 .f32),
        (⟨Rect.unit (s := S128x128) (k0_off60 k) S1x16.size (k0_off60_inb k),
          k0_pay25 c0 c1 (ld2 (mergedUpTo c0 c1 R k.val) (k0_off56 k) (k0_off56_inb k)) (ld2 (mergedUpTo c0 c1 R k.val) (k0_off57 k) (k0_off57_inb k))⟩ : View.Piece (Elt F) S128x128 .f32)]
      = mergedUpTo c0 c1 R (k.val + 1) := by
  have hk : k.val < 64 := Nat.lt_of_lt_of_le k.isLt k0_t4_abs.2.1
  refine trip_writes2 c0 c1 R k.val _ ?_ ?_ ?_
  · exact forall_mem8
      (piece_ok c0 c1 R k.val hk (k0_off79 k) (k0_off79_inb k) 1 3 (by decide) (by decide) (k0_off79_eq k) (ld2 (mergedUpTo c0 c1 R k.val) (k0_off76 k) (k0_off76_inb k)) (ld2 (mergedUpTo c0 c1 R k.val) (k0_off77 k) (k0_off77_inb k))
      (fun l => load_val2 c0 c1 R k.val _ _ (2 * k.val + 1) (16 * 3) (k0_off76_eq k) (by omega) (by omega) (by omega) l)
      (fun l => load_val2 c0 c1 R k.val _ _ (2 * k.val + 1) (64 + 16 * 3) (k0_off77_eq k) (by omega) (by omega) (by omega) l)
      _ (fun u l => comb_apply c0 c1 _ _ u l))
      (piece_ok c0 c1 R k.val hk (k0_off78 k) (k0_off78_inb k) 0 3 (by decide) (by decide) (k0_off78_eq k) (ld2 (mergedUpTo c0 c1 R k.val) (k0_off74 k) (k0_off74_inb k)) (ld2 (mergedUpTo c0 c1 R k.val) (k0_off75 k) (k0_off75_inb k))
      (fun l => load_val2 c0 c1 R k.val _ _ (2 * k.val + 0) (16 * 3) (k0_off74_eq k) (by omega) (by omega) (by omega) l)
      (fun l => load_val2 c0 c1 R k.val _ _ (2 * k.val + 0) (64 + 16 * 3) (k0_off75_eq k) (by omega) (by omega) (by omega) l)
      _ (fun u l => comb_apply c0 c1 _ _ u l))
      (piece_ok c0 c1 R k.val hk (k0_off73 k) (k0_off73_inb k) 1 2 (by decide) (by decide) (k0_off73_eq k) (ld2 (mergedUpTo c0 c1 R k.val) (k0_off70 k) (k0_off70_inb k)) (ld2 (mergedUpTo c0 c1 R k.val) (k0_off71 k) (k0_off71_inb k))
      (fun l => load_val2 c0 c1 R k.val _ _ (2 * k.val + 1) (16 * 2) (k0_off70_eq k) (by omega) (by omega) (by omega) l)
      (fun l => load_val2 c0 c1 R k.val _ _ (2 * k.val + 1) (64 + 16 * 2) (k0_off71_eq k) (by omega) (by omega) (by omega) l)
      _ (fun u l => comb_apply c0 c1 _ _ u l))
      (piece_ok c0 c1 R k.val hk (k0_off72 k) (k0_off72_inb k) 0 2 (by decide) (by decide) (k0_off72_eq k) (ld2 (mergedUpTo c0 c1 R k.val) (k0_off68 k) (k0_off68_inb k)) (ld2 (mergedUpTo c0 c1 R k.val) (k0_off69 k) (k0_off69_inb k))
      (fun l => load_val2 c0 c1 R k.val _ _ (2 * k.val + 0) (16 * 2) (k0_off68_eq k) (by omega) (by omega) (by omega) l)
      (fun l => load_val2 c0 c1 R k.val _ _ (2 * k.val + 0) (64 + 16 * 2) (k0_off69_eq k) (by omega) (by omega) (by omega) l)
      _ (fun u l => comb_apply c0 c1 _ _ u l))
      (piece_ok c0 c1 R k.val hk (k0_off67 k) (k0_off67_inb k) 1 1 (by decide) (by decide) (k0_off67_eq k) (ld2 (mergedUpTo c0 c1 R k.val) (k0_off64 k) (k0_off64_inb k)) (ld2 (mergedUpTo c0 c1 R k.val) (k0_off65 k) (k0_off65_inb k))
      (fun l => load_val2 c0 c1 R k.val _ _ (2 * k.val + 1) (16 * 1) (k0_off64_eq k) (by omega) (by omega) (by omega) l)
      (fun l => load_val2 c0 c1 R k.val _ _ (2 * k.val + 1) (64 + 16 * 1) (k0_off65_eq k) (by omega) (by omega) (by omega) l)
      _ (fun u l => comb_apply c0 c1 _ _ u l))
      (piece_ok c0 c1 R k.val hk (k0_off66 k) (k0_off66_inb k) 0 1 (by decide) (by decide) (k0_off66_eq k) (ld2 (mergedUpTo c0 c1 R k.val) (k0_off62 k) (k0_off62_inb k)) (ld2 (mergedUpTo c0 c1 R k.val) (k0_off63 k) (k0_off63_inb k))
      (fun l => load_val2 c0 c1 R k.val _ _ (2 * k.val + 0) (16 * 1) (k0_off62_eq k) (by omega) (by omega) (by omega) l)
      (fun l => load_val2 c0 c1 R k.val _ _ (2 * k.val + 0) (64 + 16 * 1) (k0_off63_eq k) (by omega) (by omega) (by omega) l)
      _ (fun u l => comb_apply c0 c1 _ _ u l))
      (piece_ok c0 c1 R k.val hk (k0_off61 k) (k0_off61_inb k) 1 0 (by decide) (by decide) (k0_off61_eq k) (ld2 (mergedUpTo c0 c1 R k.val) (k0_off58 k) (k0_off58_inb k)) (ld2 (mergedUpTo c0 c1 R k.val) (k0_off59 k) (k0_off59_inb k))
      (fun l => load_val2 c0 c1 R k.val _ _ (2 * k.val + 1) (16 * 0) (k0_off58_eq k) (by omega) (by omega) (by omega) l)
      (fun l => load_val2 c0 c1 R k.val _ _ (2 * k.val + 1) (64 + 16 * 0) (k0_off59_eq k) (by omega) (by omega) (by omega) l)
      _ (fun u l => comb_apply c0 c1 _ _ u l))
      (piece_ok c0 c1 R k.val hk (k0_off60 k) (k0_off60_inb k) 0 0 (by decide) (by decide) (k0_off60_eq k) (ld2 (mergedUpTo c0 c1 R k.val) (k0_off56 k) (k0_off56_inb k)) (ld2 (mergedUpTo c0 c1 R k.val) (k0_off57 k) (k0_off57_inb k))
      (fun l => load_val2 c0 c1 R k.val _ _ (2 * k.val + 0) (16 * 0) (k0_off56_eq k) (by omega) (by omega) (by omega) l)
      (fun l => load_val2 c0 c1 R k.val _ _ (2 * k.val + 0) (64 + 16 * 0) (k0_off57_eq k) (by omega) (by omega) (by omega) l)
      _ (fun u l => comb_apply c0 c1 _ _ u l))
  · exact forall_mem8
      (fun y hy => row_of_mem_piece k.val (k0_off79 k) (k0_off79_inb k) _ (k0_off79_eq k) y hy)
      (fun y hy => row_of_mem_piece k.val (k0_off78 k) (k0_off78_inb k) _ (k0_off78_eq k) y hy)
      (fun y hy => row_of_mem_piece k.val (k0_off73 k) (k0_off73_inb k) _ (k0_off73_eq k) y hy)
      (fun y hy => row_of_mem_piece k.val (k0_off72 k) (k0_off72_inb k) _ (k0_off72_eq k) y hy)
      (fun y hy => row_of_mem_piece k.val (k0_off67 k) (k0_off67_inb k) _ (k0_off67_eq k) y hy)
      (fun y hy => row_of_mem_piece k.val (k0_off66 k) (k0_off66_inb k) _ (k0_off66_eq k) y hy)
      (fun y hy => row_of_mem_piece k.val (k0_off61 k) (k0_off61_inb k) _ (k0_off61_eq k) y hy)
      (fun y hy => row_of_mem_piece k.val (k0_off60 k) (k0_off60_inb k) _ (k0_off60_eq k) y hy)
  intro y hy
  have h1 : (y 1).val < 128 := (y 1).isLt
  by_cases hc0 : (y 1).val < 16
  · exact ⟨_, .tail _ (.tail _ (.tail _ (.tail _ (.tail _ (.tail _ (.tail _ (.head _))))))), mem_piece k.val (k0_off60 k) (k0_off60_inb k) 0 (k0_off60_eq k) y hy ⟨by omega, by omega⟩⟩
  by_cases hc1 : (y 1).val < 32
  · exact ⟨_, .tail _ (.tail _ (.tail _ (.tail _ (.tail _ (.head _))))), mem_piece k.val (k0_off66 k) (k0_off66_inb k) 16 (k0_off66_eq k) y hy ⟨by omega, by omega⟩⟩
  by_cases hc2 : (y 1).val < 48
  · exact ⟨_, .tail _ (.tail _ (.tail _ (.head _))), mem_piece k.val (k0_off72 k) (k0_off72_inb k) 32 (k0_off72_eq k) y hy ⟨by omega, by omega⟩⟩
  by_cases hc3 : (y 1).val < 64
  · exact ⟨_, .tail _ (.head _), mem_piece k.val (k0_off78 k) (k0_off78_inb k) 48 (k0_off78_eq k) y hy ⟨by omega, by omega⟩⟩
  by_cases hc4 : (y 1).val < 80
  · exact ⟨_, .tail _ (.tail _ (.tail _ (.tail _ (.tail _ (.tail _ (.head _)))))), mem_piece k.val (k0_off61 k) (k0_off61_inb k) 64 (k0_off61_eq k) y hy ⟨by omega, by omega⟩⟩
  by_cases hc5 : (y 1).val < 96
  · exact ⟨_, .tail _ (.tail _ (.tail _ (.tail _ (.head _)))), mem_piece k.val (k0_off67 k) (k0_off67_inb k) 80 (k0_off67_eq k) y hy ⟨by omega, by omega⟩⟩
  by_cases hc6 : (y 1).val < 112
  · exact ⟨_, .tail _ (.tail _ (.head _)), mem_piece k.val (k0_off73 k) (k0_off73_inb k) 96 (k0_off73_eq k) y hy ⟨by omega, by omega⟩⟩
  exact ⟨_, .head _, mem_piece k.val (k0_off79 k) (k0_off79_inb k) 112 (k0_off79_eq k) y hy ⟨by omega, by omega⟩⟩

end Inner

end Cert.Proof.KB

end
-- ==== Proof.KBTileInner2.lean ====
-- The text of module TileInner2, read over the word-level program in place of the idealized one.
/-
  The in-place merge of slot 2, run: the loop of 64 trips takes the slot from a block R to the merged block.

  Before trip k the slot holds the block with its first k rows merged; one trip takes that to k + 1 rows; after the
  64th the slot holds the merged block, with which the rest of the program goes on.
-/
import proofs.«205127_g70231305225025_cont_9to1c4b_198_32_alg».proof.Proof.KBTileShares
import proofs.«205127_g70231305225025_cont_9to1c4b_198_32_alg».proof.Proof.KBTileInner2Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Before trip k the slot holds the block with its first k rows merged. -/
def inv2 [FloatOps F] (d : Dev nD) (L : grid0.Coords) (c0 c1 : FVec F S16 .f32)
    (R : Buf (Elt F) ((sl2).view.loc (V d (cV L) (jV L)))) (k : Nat) (_ : Unit) : sProp 𝕄 :=
  iprop((sl2).view.loc (V d (cV L) (jV L)) ↦{fullShare} mergedUpTo c0 c1 R k)

/-- The loop, from the slot at R, then the rest of the program from the slot at the merged block. -/
theorem inner2 [FloatOps F] (d : Dev nD) (L : grid0.Coords) (v2 : BitVec 32) (c0 c1 : FVec F S16 .f32) (k1 : Fin k0_t1_loop.trips)
    (w0 w1 : BitVec 32) (R : Buf (Elt F) ((sl2).view.loc (V d (cV L) (jV L)))) {α : Type}
    (kont : Unit → Prog (TpuEff nD τ sig (Elt F) Λ₀ (.scVector (cV L) (jV L))) α) (Q : α → sProp 𝕄) :
    (iprop(((sl2).view.loc (V d (cV L) (jV L)) ↦{fullShare} R)
        ∗ (((sl2).view.loc (V d (cV L) (jV L)) ↦{fullShare} merged c0 c1 R)
            -∗ wp frame (wpE (defs₀ (F := F)) 𝒱₀ (V d (cV L) (jV L)) none) Set.univ (kont ⟨⟩) Q)) : sProp 𝕄)
      ⊢ wp frame (wpE (defs₀ (F := F)) 𝒱₀ (V d (cV L) (jV L)) none) Set.univ
          (Scf.Loop.for k0_t4_loop k0_t4_ok ⟨⟩ (k0_t4_body L flV (Memref.isWhole_whole _) prV (Memref.isWhole_whole _) cbV (Memref.isWhole_whole _) ouV (Memref.isWhole_whole _) tkS (Memref.isWhole_whole _) sl0 (Memref.isWhole_whole _) sl1 (Memref.isWhole_whole _) sl2 (Memref.isWhole_whole _) sl3 (Memref.isWhole_whole _) cfS (Memref.isWhole_whole _) cc0_scratch6 cc0_scratch7 cc0_scratch8 cc0_scratch9 cc0_scratch10 cc0_scratch11 cc0_scratch12 cc0_scratch13 cc0_scoped0 cc0_scoped1 v2 c0 c1 k1 w0 w1) >>= kont) Q := by
  iintro ⟨HR, Hk⟩
  sl_for (inv2 d L c0 c1 R) $$ [HR]
  case region =>
    intro k _
    unfold inv2
    iintro H
    sl_exec
    sl_step
    sl_unfold_run_names
    iapply (Entails.of_eq (congrArg
      (fun g : Buf (Elt F) ((sl2).view.loc (V d (cV L) (jV L))) => ((sl2).view.loc (V d (cV L) (jV L)) ↦{fullShare} g : sProp 𝕄))
      (Inner.trip_eq2 c0 c1 R k))) $$ H
  · unfold inv2
    rw [mergedUpTo_zero]
    iexact HR
  rw [show Scf.trips k0_t4_loop.lb k0_t4_loop.ub k0_t4_loop.st = 64 from by decide]
  iintro %_ HI
  unfold inv2
  unfold merged
  iapply Hk
  iexact HI

end Cert.Proof.KB

end
-- ==== Proof.KBTileInner3Value.lean ====
-- The text of module TileInner3Value, read over the word-level program in place of the idealized one.
/-
  What one trip of the in-place merge leaves in slot 3.

  Before trip k the slot holds the block with its first k rows merged; rows 2k and 2k + 1 are not among them
  (2k ≥ k), so every piece the trip reads is a piece of R, and the eight pieces it writes are exactly row k of the
  merged block: after the trip the slot holds the block with its first k + 1 rows merged.
-/
import proofs.«205127_g70231305225025_cont_9to1c4b_198_32_alg».proof.Proof.KBTileInnerLib

noncomputable section

namespace Cert.Proof.KB

open Cert.Kernel Cert.Kernel.Gen

open Idealize.ShloMosaic Idealize.ShloMosaic.ValueIdx

variable {F : FTy → Type} [FloatOps F]

namespace Inner

/-- What a 1 × 16 load at the given offsets reads of the slot's contents f. -/
abbrev ld3 (f : S128x128.Idx → F .f32) (off : Fin 2 → ℕ) (inb : ∀ a, off a + S1x16.size a ≤ S128x128.size a) :
    Vec F S1x16 .f32 :=
  View.readAt (Elt F) (sl3).view (Rect.unit (s := S128x128) off S1x16.size inb).toLoadRect f

/-- A load at row ρ ≥ n, column co, of the block with n rows merged reads R. -/
theorem load_val3 (c0 c1 : FVec F S16 .f32) (R : S128x128.Idx → F .f32) (n : ℕ) (off : Fin 2 → ℕ)
    (inb : ∀ a, off a + S1x16.size a ≤ S128x128.size a) (ρ co : ℕ) (hoff : off = ![ρ, co]) (hn : n ≤ ρ) (hρ : ρ < 128)
    (hco : co + 16 ≤ 128) (l : Fin 16) :
    ld3 (mergedUpTo c0 c1 R n) off inb (ix2 0 l)
      = R (ix2 (⟨ρ, hρ⟩ : Fin 128) (⟨co + l.val, by have := l.isLt; omega⟩ : Fin 128)) := by
  show mergedUpTo c0 c1 R n ((Rect.unit (s := S128x128) off S1x16.size inb).emb (ix2 0 l)) = _
  rw [idx_piece off inb ρ co hoff hρ hco]
  unfold mergedUpTo
  rw [dif_neg]
  intro h
  have : ρ < n := h.1
  omega

/-- Writes through pieces of row k that agree with the block with k + 1 rows merged and cover the row, over the block
    with k rows merged, leave the block with k + 1 rows merged. -/
theorem trip_writes3 (c0 c1 : FVec F S16 .f32) (R : S128x128.Idx → F .f32) (k : ℕ)
    (Ls : List (View.Piece (Elt F) S128x128 .f32))
    (hG : ∀ p ∈ Ls, ∀ x : p.1.shape.Idx, p.2 x = mergedUpTo c0 c1 R (k + 1) (p.1.emb x))
    (hrow : ∀ p ∈ Ls, ∀ y ∈ p.1.set, (y 0).val = k)
    (hcov : ∀ y : S128x128.Idx, (y 0).val = k → ∃ p ∈ Ls, y ∈ p.1.set) :
    (sl3).view.writes (Elt F) (mergedUpTo c0 c1 R k) Ls = mergedUpTo c0 c1 R (k + 1) := by
  funext y
  show (sl3).view.read (Elt F) ((sl3).view.writes (Elt F) (mergedUpTo c0 c1 R k) Ls) y = _
  by_cases hy : (y 0).val = k
  · exact View.read_writes_apply_of_pieces _ _ (mergedUpTo c0 c1 R (k + 1)) Ls hG y (hcov y hy)
  · rw [View.read_writes_apply_of_forall_not_mem _ _ y Ls fun p hp hm => hy (hrow p hp y hm)]
    exact mergedUpTo_succ_of_ne c0 c1 R k y hy

/-- THE TRIP: the eight pieces trip k writes, over the block with k rows merged, leave the block with k + 1. -/
theorem trip_eq3 (c0 c1 : FVec F S16 .f32) (R : S128x128.Idx → F .f32) (k : Fin k0_t5_loop.trips) :
    (sl3).view.writes (Elt F) (mergedUpTo c0 c1 R k.val)
      [(⟨Rect.unit (s := S128x128) (k0_off105 k) S1x16.size (k0_off105_inb k),
          k0_pay52 (k0_pay47 c0 c1 (ld3 (mergedUpTo c0 c1 R k.val) (k0_off102 k) (k0_off102_inb k)) (ld3 (mergedUpTo c0 c1 R k.val) (k0_off103 k) (k0_off103_inb k)))⟩ : View.Piece (Elt F) S128x128 .f32),
        (⟨Rect.unit (s := S128x128) (k0_off104 k) S1x16.size (k0_off104_inb k),
          k0_pay48 c0 c1 (ld3 (mergedUpTo c0 c1 R k.val) (k0_off100 k) (k0_off100_inb k)) (ld3 (mergedUpTo c0 c1 R k.val) (k0_off101 k) (k0_off101_inb k))⟩ : View.Piece (Elt F) S128x128 .f32),
        (⟨Rect.unit (s := S128x128) (k0_off99 k) S1x16.size (k0_off99_inb k),
          k0_pay46 c1 (k0_pay44 c0 (ld3 (mergedUpTo c0 c1 R k.val) (k0_off96 k) (k0_off96_inb k))) (ld3 (mergedUpTo c0 c1 R k.val) (k0_off97 k) (k0_off97_inb k))⟩ : View.Piece (Elt F) S128x128 .f32),
        (⟨Rect.unit (s := S128x128) (k0_off98 k) S1x16.size (k0_off98_inb k),
          k0_pay45 (k0_pay43 c0 c1 (ld3 (mergedUpTo c0 c1 R k.val) (k0_off94 k) (k0_off94_inb k)) (ld3 (mergedUpTo c0 c1 R k.val) (k0_off95 k) (k0_off95_inb k)))⟩ : View.Piece (Elt F) S128x128 .f32),
        (⟨Rect.unit (s := S128x128) (k0_off93 k) S1x16.size (k0_off93_inb k),
          k0_pay42 c0 c1 (ld3 (mergedUpTo c0 c1 R k.val) (k0_off90 k) (k0_off90_inb k)) (ld3 (mergedUpTo c0 c1 R k.val) (k0_off91 k) (k0_off91_inb k))⟩ : View.Piece (Elt F) S128x128 .f32),
        (⟨Rect.unit (s := S128x128) (k0_off92 k) S1x16.size (k0_off92_inb k),
          k0_pay41 c1 (k0_pay39 c0 (ld3 (mergedUpTo c0 c1 R k.val) (k0_off88 k) (k0_off88_inb k))) (k0_pay40 (ld3 (mergedUpTo c0 c1 R k.val) (k0_off89 k) (k0_off89_inb k)))⟩ : View.Piece (Elt F) S128x128 .f32),
        (⟨Rect.unit (s := S128x128) (k0_off87 k) S1x16.size (k0_off87_inb k),
          k0_pay38 c0 c1 (ld3 (mergedUpTo c0 c1 R k.val) (k0_off84 k) (k0_off84_inb k)) (ld3 (mergedUpTo c0 c1 R k.val) (k0_off85 k) (k0_off85_inb k))⟩ : View.Piece (Elt F) S128x128 .f32),
        (⟨Rect.unit (s := S128x128) (k0_off86 k) S1x16.size (k0_off86_inb k),
          k0_pay37 c0 c1 (ld3 (mergedUpTo c0 c1 R k.val) (k0_off82 k) (k0_off82_inb k)) (ld3 (mergedUpTo c0 c1 R k.val) (k0_off83 k) (k0_off83_inb k))⟩ : View.Piece (Elt F) S128x128 .f32)]
      = mergedUpTo c0 c1 R (k.val + 1) := by
  have hk : k.val < 64 := Nat.lt_of_lt_of_le k.isLt k0_t5_abs.2.1
  refine trip_writes3 c0 c1 R k.val _ ?_ ?_ ?_
  · exact forall_mem8
      (piece_ok c0 c1 R k.val hk (k0_off105 k) (k0_off105_inb k) 1 3 (by decide) (by decide) (k0_off105_eq k) (ld3 (mergedUpTo c0 c1 R k.val) (k0_off102 k) (k0_off102_inb k)) (ld3 (mergedUpTo c0 c1 R k.val) (k0_off103 k) (k0_off103_inb k))
      (fun l => load_val3 c0 c1 R k.val _ _ (2 * k.val + 1) (16 * 3) (k0_off102_eq k) (by omega) (by omega) (by omega) l)
      (fun l => load_val3 c0 c1 R k.val _ _ (2 * k.val + 1) (64 + 16 * 3) (k0_off103_eq k) (by omega) (by omega) (by omega) l)
      _ (fun u l => comb_apply c0 c1 _ _ u l))
      (piece_ok c0 c1 R k.val hk (k0_off104 k) (k0_off104_inb k) 0 3 (by decide) (by decide) (k0_off104_eq k) (ld3 (mergedUpTo c0 c1 R k.val) (k0_off100 k) (k0_off100_inb k)) (ld3 (mergedUpTo c0 c1 R k.val) (k0_off101 k) (k0_off101_inb k))
      (fun l => load_val3 c0 c1 R k.val _ _ (2 * k.val + 0) (16 * 3) (k0_off100_eq k) (by omega) (by omega) (by omega) l)
      (fun l => load_val3 c0 c1 R k.val _ _ (2 * k.val + 0) (64 + 16 * 3) (k0_off101_eq k) (by omega) (by omega) (by omega) l)
      _ (fun u l => comb_apply c0 c1 _ _ u l))
      (piece_ok c0 c1 R k.val hk (k0_off99 k) (k0_off99_inb k) 1 2 (by decide) (by decide) (k0_off99_eq k) (ld3 (mergedUpTo c0 c1 R k.val) (k0_off96 k) (k0_off96_inb k)) (ld3 (mergedUpTo c0 c1 R k.val) (k0_off97 k) (k0_off97_inb k))
      (fun l => load_val3 c0 c1 R k.val _ _ (2 * k.val + 1) (16 * 2) (k0_off96_eq k) (by omega) (by omega) (by omega) l)
      (fun l => load_val3 c0 c1 R k.val _ _ (2 * k.val + 1) (64 + 16 * 2) (k0_off97_eq k) (by omega) (by omega) (by omega) l)
      _ (fun u l => comb_apply c0 c1 _ _ u l))
      (piece_ok c0 c1 R k.val hk (k0_off98 k) (k0_off98_inb k) 0 2 (by decide) (by decide) (k0_off98_eq k) (ld3 (mergedUpTo c0 c1 R k.val) (k0_off94 k) (k0_off94_inb k)) (ld3 (mergedUpTo c0 c1 R k.val) (k0_off95 k) (k0_off95_inb k))
      (fun l => load_val3 c0 c1 R k.val _ _ (2 * k.val + 0) (16 * 2) (k0_off94_eq k) (by omega) (by omega) (by omega) l)
      (fun l => load_val3 c0 c1 R k.val _ _ (2 * k.val + 0) (64 + 16 * 2) (k0_off95_eq k) (by omega) (by omega) (by omega) l)
      _ (fun u l => comb_apply c0 c1 _ _ u l))
      (piece_ok c0 c1 R k.val hk (k0_off93 k) (k0_off93_inb k) 1 1 (by decide) (by decide) (k0_off93_eq k) (ld3 (mergedUpTo c0 c1 R k.val) (k0_off90 k) (k0_off90_inb k)) (ld3 (mergedUpTo c0 c1 R k.val) (k0_off91 k) (k0_off91_inb k))
      (fun l => load_val3 c0 c1 R k.val _ _ (2 * k.val + 1) (16 * 1) (k0_off90_eq k) (by omega) (by omega) (by omega) l)
      (fun l => load_val3 c0 c1 R k.val _ _ (2 * k.val + 1) (64 + 16 * 1) (k0_off91_eq k) (by omega) (by omega) (by omega) l)
      _ (fun u l => comb_apply c0 c1 _ _ u l))
      (piece_ok c0 c1 R k.val hk (k0_off92 k) (k0_off92_inb k) 0 1 (by decide) (by decide) (k0_off92_eq k) (ld3 (mergedUpTo c0 c1 R k.val) (k0_off88 k) (k0_off88_inb k)) (ld3 (mergedUpTo c0 c1 R k.val) (k0_off89 k) (k0_off89_inb k))
      (fun l => load_val3 c0 c1 R k.val _ _ (2 * k.val + 0) (16 * 1) (k0_off88_eq k) (by omega) (by omega) (by omega) l)
      (fun l => load_val3 c0 c1 R k.val _ _ (2 * k.val + 0) (64 + 16 * 1) (k0_off89_eq k) (by omega) (by omega) (by omega) l)
      _ (fun u l => comb_apply c0 c1 _ _ u l))
      (piece_ok c0 c1 R k.val hk (k0_off87 k) (k0_off87_inb k) 1 0 (by decide) (by decide) (k0_off87_eq k) (ld3 (mergedUpTo c0 c1 R k.val) (k0_off84 k) (k0_off84_inb k)) (ld3 (mergedUpTo c0 c1 R k.val) (k0_off85 k) (k0_off85_inb k))
      (fun l => load_val3 c0 c1 R k.val _ _ (2 * k.val + 1) (16 * 0) (k0_off84_eq k) (by omega) (by omega) (by omega) l)
      (fun l => load_val3 c0 c1 R k.val _ _ (2 * k.val + 1) (64 + 16 * 0) (k0_off85_eq k) (by omega) (by omega) (by omega) l)
      _ (fun u l => comb_apply c0 c1 _ _ u l))
      (piece_ok c0 c1 R k.val hk (k0_off86 k) (k0_off86_inb k) 0 0 (by decide) (by decide) (k0_off86_eq k) (ld3 (mergedUpTo c0 c1 R k.val) (k0_off82 k) (k0_off82_inb k)) (ld3 (mergedUpTo c0 c1 R k.val) (k0_off83 k) (k0_off83_inb k))
      (fun l => load_val3 c0 c1 R k.val _ _ (2 * k.val + 0) (16 * 0) (k0_off82_eq k) (by omega) (by omega) (by omega) l)
      (fun l => load_val3 c0 c1 R k.val _ _ (2 * k.val + 0) (64 + 16 * 0) (k0_off83_eq k) (by omega) (by omega) (by omega) l)
      _ (fun u l => comb_apply c0 c1 _ _ u l))
  · exact forall_mem8
      (fun y hy => row_of_mem_piece k.val (k0_off105 k) (k0_off105_inb k) _ (k0_off105_eq k) y hy)
      (fun y hy => row_of_mem_piece k.val (k0_off104 k) (k0_off104_inb k) _ (k0_off104_eq k) y hy)
      (fun y hy => row_of_mem_piece k.val (k0_off99 k) (k0_off99_inb k) _ (k0_off99_eq k) y hy)
      (fun y hy => row_of_mem_piece k.val (k0_off98 k) (k0_off98_inb k) _ (k0_off98_eq k) y hy)
      (fun y hy => row_of_mem_piece k.val (k0_off93 k) (k0_off93_inb k) _ (k0_off93_eq k) y hy)
      (fun y hy => row_of_mem_piece k.val (k0_off92 k) (k0_off92_inb k) _ (k0_off92_eq k) y hy)
      (fun y hy => row_of_mem_piece k.val (k0_off87 k) (k0_off87_inb k) _ (k0_off87_eq k) y hy)
      (fun y hy => row_of_mem_piece k.val (k0_off86 k) (k0_off86_inb k) _ (k0_off86_eq k) y hy)
  intro y hy
  have h1 : (y 1).val < 128 := (y 1).isLt
  by_cases hc0 : (y 1).val < 16
  · exact ⟨_, .tail _ (.tail _ (.tail _ (.tail _ (.tail _ (.tail _ (.tail _ (.head _))))))), mem_piece k.val (k0_off86 k) (k0_off86_inb k) 0 (k0_off86_eq k) y hy ⟨by omega, by omega⟩⟩
  by_cases hc1 : (y 1).val < 32
  · exact ⟨_, .tail _ (.tail _ (.tail _ (.tail _ (.tail _ (.head _))))), mem_piece k.val (k0_off92 k) (k0_off92_inb k) 16 (k0_off92_eq k) y hy ⟨by omega, by omega⟩⟩
  by_cases hc2 : (y 1).val < 48
  · exact ⟨_, .tail _ (.tail _ (.tail _ (.head _))), mem_piece k.val (k0_off98 k) (k0_off98_inb k) 32 (k0_off98_eq k) y hy ⟨by omega, by omega⟩⟩
  by_cases hc3 : (y 1).val < 64
  · exact ⟨_, .tail _ (.head _), mem_piece k.val (k0_off104 k) (k0_off104_inb k) 48 (k0_off104_eq k) y hy ⟨by omega, by omega⟩⟩
  by_cases hc4 : (y 1).val < 80
  · exact ⟨_, .tail _ (.tail _ (.tail _ (.tail _ (.tail _ (.tail _ (.head _)))))), mem_piece k.val (k0_off87 k) (k0_off87_inb k) 64 (k0_off87_eq k) y hy ⟨by omega, by omega⟩⟩
  by_cases hc5 : (y 1).val < 96
  · exact ⟨_, .tail _ (.tail _ (.tail _ (.tail _ (.head _)))), mem_piece k.val (k0_off93 k) (k0_off93_inb k) 80 (k0_off93_eq k) y hy ⟨by omega, by omega⟩⟩
  by_cases hc6 : (y 1).val < 112
  · exact ⟨_, .tail _ (.tail _ (.head _)), mem_piece k.val (k0_off99 k) (k0_off99_inb k) 96 (k0_off99_eq k) y hy ⟨by omega, by omega⟩⟩
  exact ⟨_, .head _, mem_piece k.val (k0_off105 k) (k0_off105_inb k) 112 (k0_off105_eq k) y hy ⟨by omega, by omega⟩⟩

end Inner

end Cert.Proof.KB

end
-- ==== Proof.KBTileInner3.lean ====
-- The text of module TileInner3, read over the word-level program in place of the idealized one.
/-
  The in-place merge of slot 3, run: the loop of 64 trips takes the slot from a block R to the merged block.

  Before trip k the slot holds the block with its first k rows merged; one trip takes that to k + 1 rows; after the
  64th the slot holds the merged block, with which the rest of the program goes on.
-/
import proofs.«205127_g70231305225025_cont_9to1c4b_198_32_alg».proof.Proof.KBTileShares
import proofs.«205127_g70231305225025_cont_9to1c4b_198_32_alg».proof.Proof.KBTileInner3Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Before trip k the slot holds the block with its first k rows merged. -/
def inv3 [FloatOps F] (d : Dev nD) (L : grid0.Coords) (c0 c1 : FVec F S16 .f32)
    (R : Buf (Elt F) ((sl3).view.loc (V d (cV L) (jV L)))) (k : Nat) (_ : Unit) : sProp 𝕄 :=
  iprop((sl3).view.loc (V d (cV L) (jV L)) ↦{fullShare} mergedUpTo c0 c1 R k)

/-- The loop, from the slot at R, then the rest of the program from the slot at the merged block. -/
theorem inner3 [FloatOps F] (d : Dev nD) (L : grid0.Coords) (v2 : BitVec 32) (c0 c1 : FVec F S16 .f32) (k1 : Fin k0_t1_loop.trips)
    (w0 w1 : BitVec 32) (R : Buf (Elt F) ((sl3).view.loc (V d (cV L) (jV L)))) {α : Type}
    (kont : Unit → Prog (TpuEff nD τ sig (Elt F) Λ₀ (.scVector (cV L) (jV L))) α) (Q : α → sProp 𝕄) :
    (iprop(((sl3).view.loc (V d (cV L) (jV L)) ↦{fullShare} R)
        ∗ (((sl3).view.loc (V d (cV L) (jV L)) ↦{fullShare} merged c0 c1 R)
            -∗ wp frame (wpE (defs₀ (F := F)) 𝒱₀ (V d (cV L) (jV L)) none) Set.univ (kont ⟨⟩) Q)) : sProp 𝕄)
      ⊢ wp frame (wpE (defs₀ (F := F)) 𝒱₀ (V d (cV L) (jV L)) none) Set.univ
          (Scf.Loop.for k0_t5_loop k0_t5_ok ⟨⟩ (k0_t5_body L flV (Memref.isWhole_whole _) prV (Memref.isWhole_whole _) cbV (Memref.isWhole_whole _) ouV (Memref.isWhole_whole _) tkS (Memref.isWhole_whole _) sl0 (Memref.isWhole_whole _) sl1 (Memref.isWhole_whole _) sl2 (Memref.isWhole_whole _) sl3 (Memref.isWhole_whole _) cfS (Memref.isWhole_whole _) cc0_scratch6 cc0_scratch7 cc0_scratch8 cc0_scratch9 cc0_scratch10 cc0_scratch11 cc0_scratch12 cc0_scratch13 cc0_scoped0 cc0_scoped1 v2 c0 c1 k1 w0 w1) >>= kont) Q := by
  iintro ⟨HR, Hk⟩
  sl_for (inv3 d L c0 c1 R) $$ [HR]
  case region =>
    intro k _
    unfold inv3
    iintro H
    sl_exec
    sl_step
    sl_unfold_run_names
    iapply (Entails.of_eq (congrArg
      (fun g : Buf (Elt F) ((sl3).view.loc (V d (cV L) (jV L))) => ((sl3).view.loc (V d (cV L) (jV L)) ↦{fullShare} g : sProp 𝕄))
      (Inner.trip_eq3 c0 c1 R k))) $$ H
  · unfold inv3
    rw [mergedUpTo_zero]
    iexact HR
  rw [show Scf.trips k0_t5_loop.lb k0_t5_loop.ub k0_t5_loop.st = 64 from by decide]
  iintro %_ HI
  unfold inv3
  unfold merged
  iapply Hk
  iexact HI

end Cert.Proof.KB

end
-- ==== Proof.KBTileBody.lean ====
-- The text of module TileBody, read over the word-level program in place of the idealized one.
/-
  One tile of the gather-and-merge call, start to end.

  The tile fetches the coefficient block and its 25600 tokens, loads the two coefficient rows, and starts the gathers
  of its first four 128-token chunks into its four slots. Then fifty times, for each slot in turn: the slot's gather
  lands (row ρ of the slot is the pair-table row of the chunk's token ρ); rows 0..63 are overwritten in place with the
  merged embeddings of tokens 2r and 2r + 1; those 64 rows are copied out to the chunk's 64 result rows; and, except at
  the last time, the copy is awaited and the slot's next chunk's gather is started. At the end the four last copies
  are awaited. Before trip k every slot's gather of its chunk of trip k is in flight and the result rows below 256·k
  hold the call's result function; after the last trip the four last copies are in flight and nothing is re-armed;
  after the final waits all 12800 result rows of the tile hold the call's result function, and the tile gives back
  what it was handed.
-/
import proofs.«205127_g70231305225025_cont_9to1c4b_198_32_alg».proof.Proof.KBTileInvB
import proofs.«205127_g70231305225025_cont_9to1c4b_198_32_alg».proof.Proof.KBTileLast
import proofs.«205127_g70231305225025_cont_9to1c4b_198_32_alg».proof.Proof.KBTileEnd
import proofs.«205127_g70231305225025_cont_9to1c4b_198_32_alg».proof.Proof.KBTileEndGeom
import proofs.«205127_g70231305225025_cont_9to1c4b_198_32_alg».proof.Proof.KBTileOutN
import proofs.«205127_g70231305225025_cont_9to1c4b_198_32_alg».proof.Proof.KBTileInner0
import proofs.«205127_g70231305225025_cont_9to1c4b_198_32_alg».proof.Proof.KBTileInner1
import proofs.«205127_g70231305225025_cont_9to1c4b_198_32_alg».proof.Proof.KBTileInner2
import proofs.«205127_g70231305225025_cont_9to1c4b_198_32_alg».proof.Proof.KBTileInner3

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem wand_form {A B C D : sProp 𝕄} (h : (iprop(A ∗ (B -∗ C)) : sProp 𝕄) ⊢ D) : A ⊢ iprop((B -∗ C) -∗ D) := by
  iintro HA Hk
  iapply h
  isplitl [HA]
  · iexact HA
  · iexact Hk

section Entry
variable [FloatOps F]
variable (pr : (d : Dev nD) → Buf (Elt F) (prLoc d)) (fl : (d : Dev nD) → Buf (Elt F) (flLoc d))
  (cb : (d : Dev nD) → Buf (Elt F) (cbLoc d)) (o₀ : (d : Dev nD) → Buf (Elt F) (ouLoc d))
variable (d : Dev nD) (L : grid0.Coords)

/-- Before the first outer trip no result row is done: on the tile's rows the done-rows function at 0 is what the rows
    started with. -/
theorem ou_entry :
    (((ouV).view.loc (V d (cV L) (jV L)) ↦[(ouV).view.setOn (ouR L).set]{fullShare} o₀ d) : sProp 𝕄)
      = ((ouV).view.loc (V d (cV L) (jV L)) ↦[(ouV).view.setOn (ouR L).set]{fullShare} OM pr fl cb o₀ d L 0) :=
  pointsTo_congr fun j hj => by
    have hm : j ∈ (ouR L).set := by
      obtain ⟨y, hy, rfl⟩ := Finset.mem_map.mp hj
      exact hy
    have hrow := (mem_ouR_iff L j).1 hm
    unfold OM
    rw [if_neg (by omega)]
end Entry

section Tile
variable [FloatOps F]
variable (fl : (d : Dev nD) → Buf (Elt F) (flLoc d)) (pr : (d : Dev nD) → Buf (Elt F) (prLoc d))
  (cb : (d : Dev nD) → Buf (Elt F) (cbLoc d)) (o₀ : (d : Dev nD) → Buf (Elt F) (ouLoc d))
variable (d : Dev nD) (L : grid0.Coords)

set_option maxHeartbeats 8000000 in
theorem tile_run (hF : (K (F := F)).Facts) (hin : InRange fl) (O : CellTallies nD τ sig (HIx 1)) (W : Waits sig (HIx 1)) (hO : ∀ g, O g none = 0) :
    (iprop(levAts (K (F := F)).L (K (F := F)).lev
        ∗ (flLoc d ↦[flSet (wL L)]{fullShare} fl d)
        ∗ (prLoc d ↦{rq (wL L)} pr d)
        ∗ (cbLoc d ↦{rq (wL L)} cb d)
        ∗ (ouLoc d ↦[ouSet (wL L)]{fullShare} o₀ d)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_merged_gather L flV (Memref.isWhole_whole _) prV (Memref.isWhole_whole _) cbV (Memref.isWhole_whole _) ouV (Memref.isWhole_whole _) tkS (Memref.isWhole_whole _) sl0 (Memref.isWhole_whole _) sl1 (Memref.isWhole_whole _) sl2 (Memref.isWhole_whole _) sl3 (Memref.isWhole_whole _) cfS (Memref.isWhole_whole _) cc0_scratch6 cc0_scratch7 cc0_scratch8 cc0_scratch9 cc0_scratch10 cc0_scratch11 cc0_scratch12 cc0_scratch13 cc0_scoped0 cc0_scoped1)
          fun _ => iprop(tileTd fl pr cb d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_merged_gather_eq_skeleton]; unfold cc0_merged_gather_skel
  simp only [k0_part17_eq_skeleton]; unfold k0_part17_skel
  rw [(K (F := F)).scopedBufs_V hF d (cV L) (jV L), SparseCore.Cfg.scopedSems0_V (Val := Elt F) d (cV L) (jV L), ownSems0_V, ownBufs_V]
  iintro ⟨#Hlv, Hfl, Hpr, Hcb, Hou, ⟨⟨%f0, Hb0⟩, ⟨%f1, Hb1⟩, ⟨%f2, Hb2⟩, ⟨%f3, Hb3⟩, ⟨%f4, Hb4⟩, ⟨%f5, Hb5⟩, Hbufs⟩,
    ⟨Hg0, Hg1, Hg2, Hg3, Ho0, Ho1, Ho2, Ho3, Hs0, Hs1, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hfl' := (Entails.of_eq (pts_fl (F := F) d L _).symm) $$ Hfl
  ihave Hpr' := (Entails.of_eq (pts_pr (F := F) d L _ _).symm) $$ Hpr
  ihave Hcb' := (Entails.of_eq (pts_cb (F := F) d L _ _).symm) $$ Hcb
  ihave Hou' := (Entails.of_eq (pts_ou (F := F) d L _).symm) $$ Hou
  sl_exec
  ihave Hp := (Entails.of_eq (pts_toks4 (F := F) (ℓ := (prV).view.loc (V d (cV L) (jV L))) Finset.univ (pr d) (rq (wL L)))) $$ Hpr'
  icases Hp with ⟨Hpd, Hp0, Hp1, Hp2, Hp3⟩
  ihave Ht := (Entails.of_eq (pts_toks4 (F := F) (ℓ := (tkS).view.loc (V d (cV L) (jV L))) Finset.univ _ fullShare)) $$ Hb0
  icases Ht with ⟨Htd, Ht0, Ht1, Ht2, Ht3⟩
  have htok := tok_inb (F := F) fl d L hin
  sl_exec
  sl_rw [bind_assoc]
  sl_for (invFull pr fl cb o₀ d L O W f0 f5) $$ [Hmw Hg0 Hg1 Hg2 Hg3 Hp0 Hp1 Hp2 Hp3 Hb1 Hb2 Hb3 Hb4 Htd Ht0 Ht1 Ht2 Ho0 Ho1 Ho2 Ho3 Hou' HO]
  case region =>
    intro k acc
    have hk50 : (k : ℕ) < 50 := lt_of_lt_of_le k.isLt k0_t1_abs.2.1
    have hL0 : ((L 0 : Fin (grid0.bound 0)) : ℕ) < 2 := (L 0).isLt
    have hL1 : ((L 1 : Fin (grid0.bound 1)) : ℕ) < 16 := (L 1).isLt
    rw [invFull_lt (F := F) pr fl cb o₀ d L O W f0 f5 hk50]
    unfold InvA
    iintro ⟨#Hmw, H0, H1, H2, H3, Ho0, Ho1, Ho2, Ho3, Hou, %W', %hW', HO⟩
    by_cases hk : (k : ℕ) < 49
    · have k0_h1 : k0_cond1 k = 1#1 := (cond1_iff k).2 hk
      have k0_h2 : k0_cond2 k = 1#1 := (cond2_iff k).2 hk
      have k0_h3 : k0_cond3 k = 1#1 := (cond3_iff k).2 hk
      have k0_h4 : k0_cond4 k = 1#1 := (cond4_iff k).2 hk
      -- slot 0: its chunk of this trip lands, is merged in place and written out; then the slot is re-armed
      ihave G0' := (Entails.of_eq (GFly0_eq (F := F) pr fl d L f0 k)) $$ H0
      icases G0' with ⟨%fp0, %r0, %hr0, %hn0, %hin0, %hreq0, Hf0, Hp0, Hs0, Ht0⟩
      obtain ⟨inb0, rfl⟩ := hreq0
      sl_exec
      iapply (wand_form (inner0 (F := F) d L _ _ _ _ _ _ _ _ _)) $$ [Hs0]
      · iexact Hs0
      iintro Hs0
      set_option sl_exec.dmaWindow true in
      sl_exec
      ihave Hou := (ou_norm0 (F := F) pr fl cb o₀ d L hin k f5 f0 inb0 hr0 hn0 hin0 _ _ ⟨0, by decide⟩ rfl _) $$ [Hou]
      · iexact Hou
      ihave G0 := (gfly0_intro (F := F) pr fl d L f0 (k + 1) _ _ _ _ _ ⟨win0_inb (k + 1) (by omega), win0_next k k0_h1 _⟩) $$ [Hf0 Hp0 Hs0 Ht0]
      · isplitl [Hf0]; · iexact Hf0
        isplitl [Hp0]; · iexact Hp0
        isplitl [Hs0]; · iexact Hs0
        iexact Ht0
      -- slot 1: its chunk of this trip lands, is merged in place and written out; then the slot is re-armed
      ihave G1' := (Entails.of_eq (GFly1_eq (F := F) pr fl d L f0 k)) $$ H1
      icases G1' with ⟨%fp1, %r1, %hr1, %hn1, %hin1, %hreq1, Hf1, Hp1, Hs1, Ht1⟩
      obtain ⟨inb1, rfl⟩ := hreq1
      sl_exec
      iapply (wand_form (inner1 (F := F) d L _ _ _ _ _ _ _ _ _ _)) $$ [Hs1]
      · iexact Hs1
      iintro Hs1
      set_option sl_exec.dmaWindow true in
      sl_exec
      ihave Hou := (ou_norm1 (F := F) pr fl cb o₀ d L hin k f5 f0 inb1 hr1 hn1 hin1 _ _ ⟨1, by decide⟩ rfl _) $$ [Hou]
      · iexact Hou
      ihave G1 := (gfly1_intro (F := F) pr fl d L f0 (k + 1) _ _ _ _ _ ⟨win1_inb (k + 1) (by omega), win1_next k k0_h2 _⟩) $$ [Hf1 Hp1 Hs1 Ht1]
      · isplitl [Hf1]; · iexact Hf1
        isplitl [Hp1]; · iexact Hp1
        isplitl [Hs1]; · iexact Hs1
        iexact Ht1
      -- slot 2: its chunk of this trip lands, is merged in place and written out; then the slot is re-armed
      ihave G2' := (Entails.of_eq (GFly2_eq (F := F) pr fl d L f0 k)) $$ H2
      icases G2' with ⟨%fp2, %r2, %hr2, %hn2, %hin2, %hreq2, Hf2, Hp2, Hs2, Ht2⟩
      obtain ⟨inb2, rfl⟩ := hreq2
      sl_exec
      iapply (wand_form (inner2 (F := F) d L _ _ _ _ _ _ _ _ _)) $$ [Hs2]
      · iexact Hs2
      iintro Hs2
      set_option sl_exec.dmaWindow true in
      sl_exec
      ihave Hou := (ou_norm2 (F := F) pr fl cb o₀ d L hin k f5 f0 inb2 hr2 hn2 hin2 _ _ ⟨2, by decide⟩ rfl _) $$ [Hou]
      · iexact Hou
      ihave G2 := (gfly2_intro (F := F) pr fl d L f0 (k + 1) _ _ _ _ _ ⟨win2_inb (k + 1) (by omega), win2_next k k0_h3 _⟩) $$ [Hf2 Hp2 Hs2 Ht2]
      · isplitl [Hf2]; · iexact Hf2
        isplitl [Hp2]; · iexact Hp2
        isplitl [Hs2]; · iexact Hs2
        iexact Ht2
      -- slot 3: its chunk of this trip lands, is merged in place and written out; then the slot is re-armed
      ihave G3' := (Entails.of_eq (GFly3_eq (F := F) pr fl d L f0 k)) $$ H3
      icases G3' with ⟨%fp3, %r3, %hr3, %hn3, %hin3, %hreq3, Hf3, Hp3, Hs3, Ht3⟩
      obtain ⟨inb3, rfl⟩ := hreq3
      sl_exec
      iapply (wand_form (inner3 (F := F) d L _ _ _ _ _ _ _ _ _)) $$ [Hs3]
      · iexact Hs3
      iintro Hs3
      set_option sl_exec.dmaWindow true in
      sl_exec
      ihave Hou := (ou_norm3 (F := F) pr fl cb o₀ d L hin k f5 f0 inb3 hr3 hn3 hin3 _ _ ⟨3, by decide⟩ rfl _) $$ [Hou]
      · iexact Hou
      ihave G3 := (gfly3_intro (F := F) pr fl d L f0 (k + 1) _ _ _ _ _ ⟨win3_inb (k + 1) (by omega), win3_next k k0_h4 _⟩) $$ [Hf3 Hp3 Hs3 Ht3]
      · isplitl [Hf3]; · iexact Hf3
        isplitl [Hp3]; · iexact Hp3
        isplitl [Hs3]; · iexact Hs3
        iexact Ht3
      sl_step
      rw [invFull_lt (F := F) pr fl cb o₀ d L O W f0 f5 (show (k : ℕ) + 1 < 50 by omega)]
      unfold InvA
      isplitr; · iexact Hmw
      isplitl [G0]; · iexact G0
      isplitl [G1]; · iexact G1
      isplitl [G2]; · iexact G2
      isplitl [G3]; · iexact G3
      isplitl [Ho0]; · iexact Ho0
      isplitl [Ho1]; · iexact Ho1
      isplitl [Ho2]; · iexact Ho2
      isplitl [Ho3]; · iexact Ho3
      isplitl [Hou]
      · rw [← OMr_four (F := F) pr fl cb o₀ d L (k : ℕ)]
        iexact Hou
      iexists _; isplitr
      swap; · iexact HO
      ipureintro
      intro p hp
      simp only [Finset.mem_insert] at hp
      rcases hp with rfl | rfl | rfl | rfl | rfl | rfl | rfl | rfl | hp
      all_goals first | exact .inr rfl | exact hW' p hp
    · have k0_h1 : ¬ k0_cond1 k = 1#1 := fun h => hk ((cond1_iff k).1 h)
      have k0_h2 : ¬ k0_cond2 k = 1#1 := fun h => hk ((cond2_iff k).1 h)
      have k0_h3 : ¬ k0_cond3 k = 1#1 := fun h => hk ((cond3_iff k).1 h)
      have k0_h4 : ¬ k0_cond4 k = 1#1 := fun h => hk ((cond4_iff k).1 h)
      ihave H0' := (Entails.of_eq (GFly0_eq (F := F) pr fl d L f0 k)) $$ H0
      icases H0' with ⟨%fp, %r, %hr, %hn, %hin', %hreq, Hf0, Hp0r, Hs0r, Ht0r⟩
      obtain ⟨inb, rfl⟩ := hreq
      sl_exec
      iapply (wand_form (inner0 d L _ _ _ _ _ _ _ _ _)) $$ [Hs0r]
      · iexact Hs0r
      iintro Hm0
      set_option sl_exec.dmaWindow true in
      sl_exec
      ihave H1' := (Entails.of_eq (GFly1_eq (F := F) pr fl d L f0 k)) $$ H1
      icases H1' with ⟨%fp1, %r1, %hr1, %hn1, %hin1, %hreq1, Hf1, Hp1r, Hs1r, Ht1r⟩
      obtain ⟨inb1, rfl⟩ := hreq1
      sl_exec
      iapply (wand_form (inner1 d L _ _ _ _ _ _ _ _ _ _)) $$ [Hs1r]
      · iexact Hs1r
      iintro Hm1
      set_option sl_exec.dmaWindow true in
      sl_exec
      ihave H2' := (Entails.of_eq (GFly2_eq (F := F) pr fl d L f0 k)) $$ H2
      icases H2' with ⟨%fp2, %r2, %hr2, %hn2, %hin2, %hreq2, Hf2, Hp2r, Hs2r, Ht2r⟩
      obtain ⟨inb2, rfl⟩ := hreq2
      sl_exec
      iapply (wand_form (inner2 d L _ _ _ _ _ _ _ _ _)) $$ [Hs2r]
      · iexact Hs2r
      iintro Hm2
      set_option sl_exec.dmaWindow true in
      sl_exec
      ihave H3' := (Entails.of_eq (GFly3_eq (F := F) pr fl d L f0 k)) $$ H3
      icases H3' with ⟨%fp3, %r3, %hr3, %hn3, %hin3, %hreq3, Hf3, Hp3r, Hs3r, Ht3r⟩
      obtain ⟨inb3, rfl⟩ := hreq3
      sl_exec
      iapply (wand_form (inner3 d L _ _ _ _ _ _ _ _ _)) $$ [Hs3r]
      · iexact Hs3r
      iintro Hm3
      set_option sl_exec.dmaWindow true in
      sl_exec
      have hk49 : (k : ℕ) = 49 := by omega
      sl_unfold_run_names
      sl_step
      rw [invFull_ge pr fl cb o₀ d L O W f0 f5 (by omega : ¬ (k : ℕ) + 1 < 50)]
      unfold InvB
      isplitr; · iexact Hmw
      iexists k
      isplitr; · ipureintro; exact hk49
      isplitl [Ho0 Hm0]
      · unfold WFly
        iexists _, _
        isplitr; swap
        · isplitl [Ho0]; · iexact Ho0
          iexact Hm0
        ipureintro
        exact win_outF pr fl cb d L k (0 : Fin 4) (fun _ => rfl) _ _ (fun ρ q => slot_payload_0 (F := F) pr fl cb d L hin k f5 f0 (sl0).view.junk inb hr (fun _ => rfl) hn hin' (fun _ => rfl) (Idealize.ShloMosaic.ValueIdx.ix2 ρ q))
      isplitl [Ho1 Hm1]
      · unfold WFly
        iexists _, _
        isplitr; swap
        · isplitl [Ho1]; · iexact Ho1
          iexact Hm1
        ipureintro
        exact win_outF pr fl cb d L k (1 : Fin 4) (fun _ => rfl) _ _ (fun ρ q => slot_payload_1 (F := F) pr fl cb d L hin k f5 f0 (sl1).view.junk inb1 hr1 (fun _ => rfl) hn1 hin1 (fun _ => rfl) (Idealize.ShloMosaic.ValueIdx.ix2 ρ q))
      isplitl [Ho2 Hm2]
      · unfold WFly
        iexists _, _
        isplitr; swap
        · isplitl [Ho2]; · iexact Ho2
          iexact Hm2
        ipureintro
        exact win_outF pr fl cb d L k (2 : Fin 4) (fun _ => rfl) _ _ (fun ρ q => slot_payload_2 (F := F) pr fl cb d L hin k f5 f0 (sl2).view.junk inb2 hr2 (fun _ => rfl) hn2 hin2 (fun _ => rfl) (Idealize.ShloMosaic.ValueIdx.ix2 ρ q))
      isplitl [Ho3 Hm3]
      · unfold WFly
        iexists _, _
        isplitr; swap
        · isplitl [Ho3]; · iexact Ho3
          iexact Hm3
        ipureintro
        exact win_outF pr fl cb d L k (3 : Fin 4) (fun _ => rfl) _ _ (fun ρ q => slot_payload_3 (F := F) pr fl cb d L hin k f5 f0 (sl3).view.junk inb3 hr3 (fun _ => rfl) hn3 hin3 (fun _ => rfl) (Idealize.ShloMosaic.ValueIdx.ix2 ρ q))
      isplitl [Hou]
      · iexists _
        isplitr; swap
        · iexact Hou
        ipureintro
        intro j hj
        have m3 := Finset.mem_sdiff.mp hj
        have m2 := Finset.mem_sdiff.mp m3.1
        have m1 := Finset.mem_sdiff.mp m2.1
        have m0 := Finset.mem_sdiff.mp m1.1
        refine (win_keep (F := F) d L k (3 : Fin 4) (fun _ => rfl) _ _ j m3.2).trans ?_
        refine (win_keep (F := F) d L k (2 : Fin 4) (fun _ => rfl) _ _ j m2.2).trans ?_
        refine (win_keep (F := F) d L k (1 : Fin 4) (fun _ => rfl) _ _ j m1.2).trans ?_
        refine (win_keep (F := F) d L k (0 : Fin 4) (fun _ => rfl) _ _ j m0.2).trans ?_
        have r0 := not_win_rows L k (0 : Fin 4) (fun _ => rfl) j m0.2
        have r1 := not_win_rows L k (1 : Fin 4) (fun _ => rfl) j m1.2
        have r2 := not_win_rows L k (2 : Fin 4) (fun _ => rfl) j m2.2
        have r3 := not_win_rows L k (3 : Fin 4) (fun _ => rfl) j m3.2
        rw [hk49] at r0 r1 r2 r3
        rw [hk49]
        exact OM_last pr fl cb o₀ d L j r0 r1 r2 r3
      isplitl [Hp0r]; · iexact Hp0r
      isplitl [Hp1r]; · iexact Hp1r
      isplitl [Hp2r]; · iexact Hp2r
      isplitl [Hp3r]; · iexact Hp3r
      isplitl [Hf0]; · iexact Hf0
      isplitl [Hf1]; · iexact Hf1
      isplitl [Hf2]; · iexact Hf2
      isplitl [Hf3]; · iexact Hf3
      isplitl [Ht0r]; · iexact Ht0r
      isplitl [Ht1r]; · iexact Ht1r
      isplitl [Ht2r]; · iexact Ht2r
      isplitl [Ht3r]; · iexact Ht3r
      iexists _; isplitr
      swap; · iexact HO
      ipureintro; intro p hp
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      exact hW' p hp
  · -- entry: before trip 0 the four prologue gathers are in flight and no result row is done
    rw [invFull_lt (F := F) pr fl cb o₀ d L O W f0 f5 (show 0 < 50 by decide)]
    unfold InvA
    isplitr; · iexact Hmw
    isplitl [Hg0 Hp0 Hb1 Htd]
    · iapply (gfly0_intro (F := F) pr fl d L f0 0 _ _ _ _ _ ⟨_, rfl⟩)
      isplitl [Hg0]; · iexact Hg0
      isplitl [Hp0]; · iexact Hp0
      isplitl [Hb1]; · iexact Hb1
      iexact Htd
    isplitl [Hg1 Hp1 Hb2 Ht0]
    · iapply (gfly1_intro (F := F) pr fl d L f0 0 _ _ _ _ _ ⟨_, rfl⟩)
      isplitl [Hg1]; · iexact Hg1
      isplitl [Hp1]; · iexact Hp1
      isplitl [Hb2]; · iexact Hb2
      iexact Ht0
    isplitl [Hg2 Hp2 Hb3 Ht1]
    · iapply (gfly2_intro (F := F) pr fl d L f0 0 _ _ _ _ _ ⟨_, rfl⟩)
      isplitl [Hg2]; · iexact Hg2
      isplitl [Hp2]; · iexact Hp2
      isplitl [Hb3]; · iexact Hb3
      iexact Ht1
    isplitl [Hg3 Hp3 Hb4 Ht2]
    · iapply (gfly3_intro (F := F) pr fl d L f0 0 _ _ _ _ _ ⟨_, rfl⟩)
      isplitl [Hg3]; · iexact Hg3
      isplitl [Hp3]; · iexact Hp3
      isplitl [Hb4]; · iexact Hb4
      iexact Ht2
    isplitl [Ho0]; · iexact Ho0
    isplitl [Ho1]; · iexact Ho1
    isplitl [Ho2]; · iexact Ho2
    isplitl [Ho3]; · iexact Ho3
    isplitl [Hou']
    · iapply (Entails.of_eq (ou_entry (F := F) pr fl cb o₀ d L)); iexact Hou'
    iexists _; isplitr
    swap; · iexact HO
    ipureintro
    intro p hp
    simp only [Finset.mem_insert] at hp
    rcases hp with rfl | rfl | hp
    all_goals first | exact .inr rfl | exact .inl hp
  rw [show Scf.trips k0_t1_loop.lb k0_t1_loop.ub k0_t1_loop.st = 50 from by decide]
  iintro %_ HI
  ihave HB := (Entails.of_eq (invFull_ge pr fl cb o₀ d L O W f0 f5 (by decide : ¬ (50 : ℕ) < 50) _)) $$ HI
  unfold InvB WFly
  icases HB with ⟨#Hmw', %k, %hk49, ⟨%C0, %M0, %hC0, Hw0, Hr0⟩, ⟨%C1, %M1, %hC1, Hw1, Hr1⟩, ⟨%C2, %M2, %hC2, Hw2, Hr2⟩, ⟨%C3, %M3, %hC3, Hw3, Hr3⟩,
    ⟨%CR, %hCR, HouR⟩, Hq0, Hq1, Hq2, Hq3, Hg0, Hg1, Hg2, Hg3, Htd', Ht0', Ht1', Ht2', %W', %hW', HO⟩
  have hL0 : ((L 0 : Fin (grid0.bound 0)) : ℕ) < 2 := (L 0).isLt
  have hL1 : ((L 1 : Fin (grid0.bound 1)) : ℕ) < 16 := (L 1).isLt
  sl_exec
  sl_step
  sl_unfold_run_names
  isplitl [Hfl' Hpd Hq0 Hq1 Hq2 Hq3 Hcb' HouR Hw0_dst Hw1_dst Hw2_dst Hw3_dst]
  · iapply (tileTd_back (F := F) pr fl cb d L)
    isplitl [Hfl']; · iexact Hfl'
    isplitl [Hpd Hq0 Hq1 Hq2 Hq3]
    · iapply (toks_pr_back (F := F) d L Finset.univ (pr d))
      isplitl [Hpd]; · iexact Hpd
      isplitl [Hq0]; · iexact Hq0
      isplitl [Hq1]; · iexact Hq1
      isplitl [Hq2]; · iexact Hq2
      iexact Hq3
    isplitl [Hcb']; · iexact Hcb'
    iapply (ou_join (F := F) d L k.val hk49 _ _ _ _
      (fun j => mem_ouWin_iff L k 0 0#32 (by decide) _ j) (fun j => mem_ouWin_iff L k 1 1#32 (by decide) _ j)
      (fun j => mem_ouWin_iff L k 2 2#32 (by decide) _ j) (fun j => mem_ouWin_iff L k 3 3#32 (by decide) _ j)
      (outF fl pr cb d) C0 C1 C2 C3 CR hC0 hC1 hC2 hC3
      (fun j hj => (hCR j hj).trans (OM_fifty_apply (F := F) d L pr fl cb o₀ j (ouRestX_subset L k hj))))
    isplitl [HouR]; · iexact HouR
    isplitl [Hw0_dst]; · iexact Hw0_dst
    isplitl [Hw1_dst]; · iexact Hw1_dst
    isplitl [Hw2_dst]; · iexact Hw2_dst
    iexact Hw3_dst
  isplitl [Htd' Ht0' Ht1' Ht2' Ht3 Hr0 Hr1 Hr2 Hr3 Hb5 Hbufs]
  · first | iapply (scopedBufs_back (F := F) d L hF) | skip
    isplitl [Htd' Ht0' Ht1' Ht2' Ht3]
    · iexists _
      iapply (toks_tk_back (F := F) d L Finset.univ _)
      isplitl [Htd']; · iexact Htd'
      isplitl [Ht0']; · iexact Ht0'
      isplitl [Ht1']; · iexact Ht1'
      isplitl [Ht2']; · iexact Ht2'
      iexact Ht3
    isplitl [Hr0]; · iexists _; iexact Hr0
    isplitl [Hr1]; · iexists _; iexact Hr1
    isplitl [Hr2]; · iexists _; iexact Hr2
    isplitl [Hr3]; · iexists _; iexact Hr3
    isplitl [Hb5]; · iexists _; iexact Hb5
    iexact Hbufs
  isplitl [Hg0 Hg1 Hg2 Hg3 Hw0 Hw1 Hw2 Hw3 Hs0 Hs1 Hsems]
  · first | iapply (scopedSems0_back (F := F) d L) | skip
    isplitl [Hg0]; · iexact Hg0
    isplitl [Hg1]; · iexact Hg1
    isplitl [Hg2]; · iexact Hg2
    isplitl [Hg3]; · iexact Hg3
    isplitl [Hw0]; · iexact Hw0
    isplitl [Hw1]; · iexact Hw1
    isplitl [Hw2]; · iexact Hw2
    isplitl [Hw3]; · iexact Hw3
    isplitl [Hs0]; · iexact Hs0
    isplitl [Hs1]; · iexact Hs1
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-- One tile's task: from its tokens, its two read shares and its result rows, to the same with the result rows at the
    call's result function. -/
theorem tile_body (hF : (K (F := F)).Facts) (hin : InRange fl) (O : CellTallies nD τ sig (HIx 1)) (W : Waits sig (HIx 1))
    (hO : ∀ g, O g none = 0) :
    (iprop(levAts (K (F := F)).L (K (F := F)).lev ∗ emp
        ∗ tileGo fl pr cb o₀ d (wL L)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_merged_gather L flV (Memref.isWhole_whole _) prV (Memref.isWhole_whole _) cbV (Memref.isWhole_whole _) ouV (Memref.isWhole_whole _) tkS (Memref.isWhole_whole _) sl0 (Memref.isWhole_whole _) sl1 (Memref.isWhole_whole _) sl2 (Memref.isWhole_whole _) sl3 (Memref.isWhole_whole _) cfS (Memref.isWhole_whole _) cc0_scratch6 cc0_scratch7 cc0_scratch8 cc0_scratch9 cc0_scratch10 cc0_scratch11 cc0_scratch12 cc0_scratch13 cc0_scoped0 cc0_scoped1)
          fun _ => iprop(tileTd fl pr cb d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  have h : (iprop(levAts (K (F := F)).L (K (F := F)).lev ∗ emp
        ∗ tileGo fl pr cb o₀ d (wL L)
        ∗ scopedBufs (V d (cV L) (jV L)) ∗ scopedSems0 (V d (cV L) (jV L)) ∗ owes (V d (cV L) (jV L)) O W) : sProp 𝕄)
      ⊢ (iprop(levAts (K (F := F)).L (K (F := F)).lev
        ∗ (flLoc d ↦[flSet (wL L)]{fullShare} fl d)
        ∗ (prLoc d ↦{rq (wL L)} pr d)
        ∗ (cbLoc d ↦{rq (wL L)} cb d)
        ∗ (ouLoc d ↦[ouSet (wL L)]{fullShare} o₀ d)
        ∗ scopedBufs (V d (cV L) (jV L)) ∗ scopedSems0 (V d (cV L) (jV L)) ∗ owes (V d (cV L) (jV L)) O W) : sProp 𝕄) := by
    iintro ⟨Hlv, -, ⟨⟨Hfl, Hpr, Hcb⟩, Hou⟩, Hsb, Hss, HO⟩
    isplitl [Hlv]; · iexact Hlv
    isplitl [Hfl]; · iexact Hfl
    isplitl [Hpr]; · iexact Hpr
    isplitl [Hcb]; · iexact Hcb
    isplitl [Hou]; · iexact Hou
    isplitl [Hsb]; · iexact Hsb
    isplitl [Hss]; · iexact Hss
    iexact HO
  exact h.trans (tile_run (F := F) fl pr cb o₀ d L hF hin O W hO)

end Tile
end Cert.Proof.KB
end
-- ==== Proof.KBTileObl.lean ====
-- The text of module TileObl, read over the word-level program in place of the idealized one.
/-
  One tile's obligation to the launch theorem, from the proof of its body.

  The body table runs the tile's function at the grid coordinates (c, i) of the tile, on the four arrays and the
  tile's own scratch; the tile at those coordinates is worker 2·i + c, the worker whose share the call hands it.
-/
import proofs.«205127_g70231305225025_cont_9to1c4b_198_32_alg».proof.Proof.KBTileBody
import proofs.«205127_g70231305225025_cont_9to1c4b_198_32_alg».proof.Proof.KBLaunch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Obl

variable [FloatOps F]
variable (fl : (d : Dev nD) → Buf (Elt F) (flLoc d)) (pr : (d : Dev nD) → Buf (Elt F) (prLoc d))
  (cb : (d : Dev nD) → Buf (Elt F) (cbLoc d)) (o₀ : (d : Dev nD) → Buf (Elt F) (ouLoc d))

/-- The grid coordinates of tile s of SparseCore c. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_merged_gather (coordsV c s) flV (Memref.isWhole_whole _) prV (Memref.isWhole_whole _) cbV (Memref.isWhole_whole _) ouV (Memref.isWhole_whole _) tkS (Memref.isWhole_whole _) sl0 (Memref.isWhole_whole _) sl1 (Memref.isWhole_whole _) sl2 (Memref.isWhole_whole _) sl3 (Memref.isWhole_whole _) cfS (Memref.isWhole_whole _) cc0_scratch6 cc0_scratch7 cc0_scratch8 cc0_scratch9 cc0_scratch10 cc0_scratch11 cc0_scratch12 cc0_scratch13 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile at the coordinates of (c, i) is the worker the call's share is indexed by. -/
theorem wL_coordsV (c : Fin ((K (F := F)).nCore 0)) (i : Fin ((K (F := F)).nSub 0))
    (h0 : ((K (F := F)).core 0 c).val < grid0.bound 0) (h1 : ((K (F := F)).sub 0 i).val < grid0.bound 1) :
    wL (coordsV ⟨((K (F := F)).core 0 c).val, h0⟩ ⟨((K (F := F)).sub 0 i).val, h1⟩) = wid (Fin.cast nCore_zero c) (Fin.cast nSub_zero i) := rfl

set_option maxRecDepth 16384 in
/-- The obligation: the body at the tile's coordinates, its operands and results the call's shares of that worker. -/
theorem tileObl (hin : InRange fl) : (K (F := F)).TileObl (D (F := F)) 𝒱 (P fl pr cb o₀) v₀ 0 := by
  intro d c i O W hO _ _
  simp only [show (P fl pr cb o₀).ox = fun _ _ => 0 from rfl, add_zero]
  have hci : ((K (F := F)).core 0 c).val < grid0.bound 0 ∧ ((K (F := F)).sub 0 i).val < grid0.bound 1 := ⟨c.isLt, i.isLt⟩
  rw [P_go, P_td, show (P fl pr cb o₀).x 0 (V d ((K (F := F)).core 0 c) ((K (F := F)).sub 0 i)) = (iprop(emp) : sProp 𝕄) from rfl,
    ← wL_coordsV c i hci.1 hci.2]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body fl pr cb o₀ d (coordsV ⟨_, hci.1⟩ ⟨_, hci.2⟩) facts hin O W hO).trans (wp_mono frame _ _ fun _ => obl_post)

end Obl

end Cert.Proof.KB

end
-- ==== Proof.KBPreRange.lean ====
-- The text of module PreRange, read over the word-level program in place of the idealized one.
/-
  The precondition, read at the flat token list: every word names a row of the pair table.

  The input-domain predicate says every word of the 4096 × 200 index array lies between 0 and 999999; position t of
  the flat list is position (t / 200, t mod 200) of that array.
-/
import proofs.«205127_g70231305225025_cont_9to1c4b_198_32_alg».proof.Proof.KBLaunch
import proofs.«205127_g70231305225025_cont_9to1c4b_198_32_alg».proof.Proof.RefPre
import proofs.«205127_g70231305225025_cont_9to1c4b_198_32_alg».proof.Proof.Gen.Pre_input_domain

noncomputable section

namespace Cert.Proof.KB

open Cert.Kernel Cert.Kernel.Gen

open Idealize.ShloMosaic Idealize.ShloMosaic.ValueIdx

variable {F : FTy → Type}

/-- When the input-domain predicate holds of the arguments on every device, every word of the flat token list is below
    1000000. -/
theorem inRange_of_pre [FloatOps F] (m : (ℓ : Loc nD τ sig) → Buf (Elt F) ℓ)
    (h : ∀ c : Dev nD, Cert.Pre_input_domain.fn (F := F) (m (a0Loc c)) (m (a1Loc c)) (m (a2Loc c)) (m (a3Loc c)) (m (a4Loc c)) = fun _ => 1#1) :
    InRange (flM m) := by
  intro d j
  obtain ⟨t, rfl⟩ : ∃ t : Fin 819200, j = ix1 t := ⟨j 0, eq_ix1 (n := 819200) j⟩
  exact lt_of_eq_of_lt (congrArg BitVec.toNat (HostVals.flatOf_apply (m (a0Loc d)) t))
    (Cert.Proof.Ref.range_of_pre (m (a0Loc d)) (m (a1Loc d)) (m (a2Loc d)) (m (a3Loc d)) (m (a4Loc d)) (h d) _)

end Cert.Proof.KB

end
-- ==== Proof.ClaimKB.lean ====
/-
  The word-level program's frame: it runs, and its argument arrays end unchanged.

  The launch, the tile's obligation and the reading of the precondition hold at every float instance; at the word
  level they give the program's run, of which the frame is the part about the arguments.
-/
import proofs.«205127_g70231305225025_cont_9to1c4b_198_32_alg».proof.Defs
import proofs.«205127_g70231305225025_cont_9to1c4b_198_32_alg».proof.Proof.KBLaunch
import proofs.«205127_g70231305225025_cont_9to1c4b_198_32_alg».proof.Proof.KBTileObl
import proofs.«205127_g70231305225025_cont_9to1c4b_198_32_alg».proof.Proof.KBPreRange
import proofs.«205127_g70231305225025_cont_9to1c4b_198_32_alg».proof.Proof.Gen.Pre_input_domain

noncomputable section

namespace Cert.Proof.Claims

open Idealize.ShloMosaic Idealize.SL.Sem

theorem frame_kb : Cert.frame_Kernel (hKernel := Cert.Kernel.Gen.facts) (hPre_input_domain := Cert.Pre_input_domain.Gen.facts) :=
  fun m g hpre => (θ_run (Cert.Kernel.defs (F := Bits)) _ _).mono (fun _ h c => (h c).2)
    (Cert.Proof.KB.run_main (F := Bits) m g
      (Cert.Proof.KB.tileObl (Cert.Proof.KB.flM m) (Cert.Proof.KB.prM m) (Cert.Proof.KB.cbM m) (Cert.Proof.KB.o₀M m)
        (Cert.Proof.KB.inRange_of_pre m hpre)))

end Cert.Proof.Claims

end
-- ==== Proof.lean ====
/-
  The certificate's claim: the word-level kernel, the idealized kernel and the idealized reference each run with their
  argument arrays unchanged, and over the extended reals the idealized kernel and the reference, from memories that
  agree on the arguments, end with equal result arrays.

  The kernel's result is the reshaped result of its gather-and-merge call at the operands its host operations compute,
  the reference's is the specified map of the arguments, and the two are one array; the word-level kernel's frame is
  the same launch and tile proof read over the word-level program.
-/
import proofs.«205127_g70231305225025_cont_9to1c4b_198_32_alg».proof.Defs
import proofs.«205127_g70231305225025_cont_9to1c4b_198_32_alg».proof.Proof.Gen.Kernel
import proofs.«205127_g70231305225025_cont_9to1c4b_198_32_alg».proof.Proof.Gen.Kernel.Skeleton
import proofs.«205127_g70231305225025_cont_9to1c4b_198_32_alg».proof.Proof.Gen.KernelIdeal
import proofs.«205127_g70231305225025_cont_9to1c4b_198_32_alg».proof.Proof.Gen.KernelIdeal.Skeleton
import proofs.«205127_g70231305225025_cont_9to1c4b_198_32_alg».proof.Proof.Gen.ReferenceIdeal
import proofs.«205127_g70231305225025_cont_9to1c4b_198_32_alg».proof.Proof.Gen.Pre_input_domain
import proofs.«205127_g70231305225025_cont_9to1c4b_198_32_alg».proof.Proof.Claims
import proofs.«205127_g70231305225025_cont_9to1c4b_198_32_alg».proof.Proof.ClaimKB
import Idealize.ShloMosaic.Adequacy
import Idealize.ShloMosaic.Init

noncomputable section

namespace Cert.Proof

open Idealize.ShloMosaic Idealize.SL.Sem
open Cert.Proof.Claims

theorem claim : Cert.Claim := ⟨Cert.Kernel.Gen.facts, Cert.KernelIdeal.Gen.facts, Cert.ReferenceIdeal.Gen.facts, Cert.Pre_input_domain.Gen.facts, frame_kb, frame_ki, frame_ri, preserves, algebraic⟩

end Cert.Proof

end
